-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x64 : Shape := ⟨3, ![16, 256, 64]⟩
abbrev S32x128 : Shape := ⟨2, ![32, 128]⟩
abbrev S32 : Shape := ⟨1, ![32]⟩
abbrev S32x32 : Shape := ⟨2, ![32, 32]⟩
abbrev S2x32 : Shape := ⟨2, ![2, 32]⟩
abbrev S2 : Shape := ⟨1, ![2]⟩
abbrev S16x128 : Shape := ⟨2, ![16, 128]⟩
abbrev S16 : Shape := ⟨1, ![16]⟩
abbrev S64x16 : Shape := ⟨2, ![64, 16]⟩
abbrev S64 : Shape := ⟨1, ![64]⟩
abbrev S_ : Shape := ⟨0, ![]⟩

class Facts : Prop where
  bcast_S_S16x256x64 : S_.BroadcastsInDim S16x256x64 (![] : Fin 0 → Fin S16x256x64.rank)
  reducesTo_S16x256x64_S_d0_1_2 : S16x256x64.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg11 : FVec F S16 .f32) (main_arg12 : FVec F S16 .f32) (main_arg13 : FVec F S64x16 .f32) (main_arg14 : FVec F S64 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S64x16 .f32 := Host.absf main_arg13
  let main_cst_24 : FVec F S_ .f32 := constant S_ .f32 0x7F800000#32
  let main_v65 : FVec F S64x16 .f32 := broadcastInDim S64x16 ![] bcast_S_S64x16 main_cst_24
  let main_v66 : IVec S64x16 1 := cmpf .olt main_v64 main_v65
  let main_c_25 : IVec S_ 1 := constantI S_ 1 1#1
  let main_v67 : IVec S_ 1 := (fun x v => Host.reduce IntOp.andi x v reducesTo_S64x16_S_d0_1 h_S_) main_v66 main_c_25
  fn_part4 (F := F) main_arg14 main_v63 main_v67

def fn_part2 {F : FTy → Type} [FloatOps F] (main_arg7 : FVec F S2x32 .f32) (main_arg8 : FVec F S2 .f32) (main_arg9 : FVec F S16x128 .f32) (main_arg10 : FVec F S16 .f32) (main_arg11 : FVec F S16 .f32) (main_arg12 : FVec F S16 .f32) (main_arg13 : FVec F S64x16 .f32) (main_arg14 : FVec F S64 .f32) (main_v33 : IVec S_ 1) : IVec S_ 1 :=
  let main_v34 : FVec F S2x32 .f32 := Host.absf main_arg7
  let main_cst_12 : FVec F S_ .f32 := constant S_ .f32 0x7F800000#32
  let main_v35 : FVec F S2x32 .f32 := broadcastInDim S2x32 ![] bcast_S_S2x32 main_cst_12
  let main_v36 : IVec S2x32 1 := cmpf .olt main_v34 main_v35
  let main_c_13 : IVec S_ 1 := constantI S_ 1 1#1
  let main_v37 : IVec S_ 1 := (fun x v => Host.reduce IntOp.andi x v reducesTo_S2x32_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S16x128 .f32 := Host.absf main_arg9
  let main_cst_16 : FVec F S_ .f32 := constant S_ .f32 0x7F800000#32
  let main_v45 : FVec F S16x128 .f32 := broadcastInDim S16x128 ![] bcast_S_S16x128 main_cst_16
  let main_v46 : IVec S16x128 1 := cmpf .olt main_v44 main_v45
  let main_c_17 : IVec S_ 1 := constantI S_ 1 1#1
  let main_v47 : IVec S_ 1 := (fun x v => Host.reduce IntOp.andi x v reducesTo_S16x128_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_arg14 main_v48 main_v49 main_v50

def fn_part1 {F : FTy → Type} [FloatOps F] (main_arg4 : FVec F S32 .f32) (main_arg5 : FVec F S32x32 .f32) (main_arg6 : FVec F S32 .f32) (main_arg7 : FVec F S2x32 .f32) (main_arg8 : FVec F S2 .f32) (main_arg9 : FVec F S16x128 .f32) (main_arg10 : FVec F S16 .f32) (main_arg11 : FVec F S16 .f32) (main_arg12 : FVec F S16 .f32) (main_arg13 : FVec F S64x16 .f32) (main_arg14 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16x256x64 .f32) (main_arg1 : FVec F S32x128 .f32) (main_arg2 : FVec F S32 .f32) (main_arg3 : FVec F S32 .f32) (main_arg4 : FVec F S32 .f32) (main_arg5 : FVec F S32x32 .f32) (main_arg6 : FVec F S32 .f32) (main_arg7 : FVec F S2x32 .f32) (main_arg8 : FVec F S2 .f32) (main_arg9 : FVec F S16x128 .f32) (main_arg10 : FVec F S16 .f32) (main_arg11 : FVec F S16 .f32) (main_arg12 : FVec F S16 .f32) (main_arg13 : FVec F S64x16 .f32) (main_arg14 : FVec F S64 .f32) : IVec S_ 1 :=
  let main_v0 : FVec F S16x256x64 .f32 := Host.absf main_arg0
  let main_cst : FVec F S_ .f32 := constant S_ .f32 0x7F800000#32
  let main_v1 : FVec F S16x256x64 .f32 := broadcastInDim S16x256x64 ![] bcast_S_S16x256x64 main_cst
  let main_v2 : IVec S16x256x64 1 := cmpf .olt main_v0 main_v1
  let main_c : IVec S_ 1 := constantI S_ 1 1#1
  let main_v3 : IVec S_ 1 := (fun x v => Host.reduce IntOp.andi x v reducesTo_S16x256x64_S_d0_1_2 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16x256x64 : Shape := ⟨3, ![16, 256, 64]⟩
abbrev S32x128 : Shape := ⟨2, ![32, 128]⟩
abbrev S32 : Shape := ⟨1, ![32]⟩
abbrev S32x32 : Shape := ⟨2, ![32, 32]⟩
abbrev S2x32 : Shape := ⟨2, ![2, 32]⟩
abbrev S2 : Shape := ⟨1, ![2]⟩
abbrev S16x128 : Shape := ⟨2, ![16, 128]⟩
abbrev S16 : Shape := ⟨1, ![16]⟩
abbrev S64x16 : Shape := ⟨2, ![64, 16]⟩
abbrev S64 : Shape := ⟨1, ![64]⟩
abbrev S32x64 : Shape := ⟨2, ![32, 64]⟩
abbrev S1x32 : Shape := ⟨2, ![1, 32]⟩
abbrev S1x2 : Shape := ⟨2, ![1, 2]⟩
abbrev S1x16 : Shape := ⟨2, ![1, 16]⟩
abbrev S1x64 : Shape := ⟨2, ![1, 64]⟩
abbrev S1x64x64 : Shape := ⟨3, ![1, 64, 64]⟩
abbrev S1x256x64 : Shape := ⟨3, ![1, 256, 64]⟩
abbrev S64x64 : Shape := ⟨2, ![64, 64]⟩
abbrev S256x64 : Shape := ⟨2, ![256, 64]⟩
abbrev S64x32 : Shape := ⟨2, ![64, 32]⟩
abbrev S256x32 : Shape := ⟨2, ![256, 32]⟩
abbrev S64x1x32 : Shape := ⟨3, ![64, 1, 32]⟩
abbrev S1x256x32 : Shape := ⟨3, ![1, 256, 32]⟩
abbrev S64x256x32 : Shape := ⟨3, ![64, 256, 32]⟩
abbrev S1x1x32 : Shape := ⟨3, ![1, 1, 32]⟩
abbrev S16384x32 : Shape := ⟨2, ![16384, 32]⟩
abbrev S_ : Shape := ⟨0, ![]⟩
abbrev S16x256x256 : Shape := ⟨3, ![16, 256, 256]⟩
abbrev S16x256x16 : Shape := ⟨3, ![16, 256, 16]⟩
abbrev S1x64x256 : Shape := ⟨3, ![1, 64, 256]⟩
abbrev S1x64x16 : Shape := ⟨3, ![1, 64, 16]⟩
abbrev S32x2 : Shape := ⟨2, ![32, 2]⟩
abbrev S16384x2 : Shape := ⟨2, ![16384, 2]⟩
abbrev S16384x1 : Shape := ⟨2, ![16384, 1]⟩
abbrev S16384 : Shape := ⟨1, ![16384]⟩
abbrev S64x256 : Shape := ⟨2, ![64, 256]⟩
abbrev S64x128 : Shape := ⟨2, ![64, 128]⟩
abbrev S128x16 : Shape := ⟨2, ![128, 16]⟩
abbrev S1x256x16 : Shape := ⟨3, ![1, 256, 16]⟩
abbrev S256x16 : Shape := ⟨2, ![256, 16]⟩
abbrev S16x64 : Shape := ⟨2, ![16, 64]⟩
abbrev S16x65536 : Shape := ⟨2, ![16, 65536]⟩

abbrev nBuf : Space → Nat
  | .hbm => 56
  | .vmem => 42
  | .smem => 0
  | _ => 0

abbrev bufTy : (tb : Table) → Fin (tcTables nBuf tb) → BufTy
  | .hbm, ⟨0, _⟩ => ⟨S16x256x64, .f32⟩
  | .hbm, ⟨1, _⟩ => ⟨S32x128, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S2x32, .f32⟩
  | .hbm, ⟨8, _⟩ => ⟨S2, .f32⟩
  | .hbm, ⟨9, _⟩ => ⟨S16x128, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S64x16, .f32⟩
  | .hbm, ⟨14, _⟩ => ⟨S64, .f32⟩
  | .hbm, ⟨15, _⟩ => ⟨S32x64, .f32⟩
  | .hbm, ⟨16, _⟩ => ⟨S32x64, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S1x32, .f32⟩
  | .hbm, ⟨21, _⟩ => ⟨S1x2, .f32⟩
  | .hbm, ⟨22, _⟩ => ⟨S1x16, .f32⟩
  | .hbm, ⟨23, _⟩ => ⟨S1x16, .f32⟩
  | .hbm, ⟨24, _⟩ => ⟨S1x16, .f32⟩
  | .hbm, ⟨25, _⟩ => ⟨S1x64, .f32⟩
  | .hbm, ⟨26, _⟩ => ⟨S1x32, .f32⟩
  | .hbm, ⟨27, _⟩ => ⟨S1x32, .f32⟩
  | .hbm, ⟨28, _⟩ => ⟨S_, .f32⟩
  | .hbm, ⟨29, _⟩ => ⟨S1x32, .f32⟩
  | .hbm, ⟨30, _⟩ => ⟨S1x32, .f32⟩
  | .hbm, ⟨31, _⟩ => ⟨S_, .f32⟩
  | .hbm, ⟨32, _⟩ => ⟨S1x32, .f32⟩
  | .hbm, ⟨33, _⟩ => ⟨S1x32, .f32⟩
  | .hbm, ⟨34, _⟩ => ⟨S1x32, .f32⟩
  | .hbm, ⟨35, _⟩ => ⟨S1x32, .f32⟩
  | .hbm, ⟨36, _⟩ => ⟨S_, .f32⟩
  | .hbm, ⟨37, _⟩ => ⟨S1x32, .f32⟩
  | .hbm, ⟨38, _⟩ => ⟨S1x32, .f32⟩
  | .hbm, ⟨39, _⟩ => ⟨S16x256x256, .f32⟩
  | .hbm, ⟨40, _⟩ => ⟨S16x256x16, .f32⟩
  | .hbm, ⟨41, _⟩ => ⟨S1x16, .f32⟩
  | .hbm, ⟨42, _⟩ => ⟨S1x16, .f32⟩
  | .hbm, ⟨43, _⟩ => ⟨S_, .f32⟩
  | .hbm, ⟨44, _⟩ => ⟨S1x16, .f32⟩
  | .hbm, ⟨45, _⟩ => ⟨S1x16, .f32⟩
  | .hbm, ⟨46, _⟩ => ⟨S_, .f32⟩
  | .hbm, ⟨47, _⟩ => ⟨S1x16, .f32⟩
  | .hbm, ⟨48, _⟩ => ⟨S1x16, .f32⟩
  | .hbm, ⟨49, _⟩ => ⟨S1x16, .f32⟩
  | .hbm, ⟨50, _⟩ => ⟨S1x16, .f32⟩
  | .hbm, ⟨51, _⟩ => ⟨S_, .f32⟩
  | .hbm, ⟨52, _⟩ => ⟨S1x16, .f32⟩
  | .hbm, ⟨53, _⟩ => ⟨S1x16, .f32⟩
  | .hbm, ⟨54, _⟩ => ⟨S16x256x64, .f32⟩
  | .hbm, ⟨55, _⟩ => ⟨S16x65536, .f32⟩
  | .local _ .vmem, ⟨0, _⟩ => ⟨S1x64x64, .f32⟩
  | .local _ .vmem, ⟨1, _⟩ => ⟨S1x64x64, .f32⟩
  | .local _ .vmem, ⟨2, _⟩ => ⟨S1x256x64, .f32⟩
  | .local _ .vmem, ⟨3, _⟩ => ⟨S1x256x64, .f32⟩
  | .local _ .vmem, ⟨4, _⟩ => ⟨S32x64, .f32⟩
  | .local _ .vmem, ⟨5, _⟩ => ⟨S32x64, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x64x64, .f32⟩
  | .local _ .vmem, ⟨10, _⟩ => ⟨S1x64x64, .f32⟩
  | .local _ .vmem, ⟨11, _⟩ => ⟨S1x256x64, .f32⟩
  | .local _ .vmem, ⟨12, _⟩ => ⟨S1x256x64, .f32⟩
  | .local _ .vmem, ⟨13, _⟩ => ⟨S32x64, .f32⟩
  | .local _ .vmem, ⟨14, _⟩ => ⟨S32x64, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | .local _ .vmem, ⟨20, _⟩ => ⟨S32x32, .f32⟩
  | .local _ .vmem, ⟨21, _⟩ => ⟨S1x32, .f32⟩
  | .local _ .vmem, ⟨22, _⟩ => ⟨S2x32, .f32⟩
  | .local _ .vmem, ⟨23, _⟩ => ⟨S1x2, .f32⟩
  | .local _ .vmem, ⟨24, _⟩ => ⟨S16x128, .f32⟩
  | .local _ .vmem, ⟨25, _⟩ => ⟨S1x16, .f32⟩
  | .local _ .vmem, ⟨26, _⟩ => ⟨S1x64x256, .f32⟩
  | .local _ .vmem, ⟨27, _⟩ => ⟨S1x64x256, .f32⟩
  | .local _ .vmem, ⟨28, _⟩ => ⟨S1x64x16, .f32⟩
  | .local _ .vmem, ⟨29, _⟩ => ⟨S1x64x16, .f32⟩
  | .local _ .vmem, ⟨30, _⟩ => ⟨S1x16, .f32⟩
  | .local _ .vmem, ⟨31, _⟩ => ⟨S1x16, .f32⟩
  | .local _ .vmem, ⟨32, _⟩ => ⟨S1x256x16, .f32⟩
  | .local _ .vmem, ⟨33, _⟩ => ⟨S1x256x16, .f32⟩
  | .local _ .vmem, ⟨34, _⟩ => ⟨S1x16, .f32⟩
  | .local _ .vmem, ⟨35, _⟩ => ⟨S1x16, .f32⟩
  | .local _ .vmem, ⟨36, _⟩ => ⟨S1x16, .f32⟩
  | .local _ .vmem, ⟨37, _⟩ => ⟨S1x16, .f32⟩
  | .local _ .vmem, ⟨38, _⟩ => ⟨S64x16, .f32⟩
  | .local _ .vmem, ⟨39, _⟩ => ⟨S1x64, .f32⟩
  | .local _ .vmem, ⟨40, _⟩ => ⟨S1x256x64, .f32⟩
  | .local _ .vmem, ⟨41, _⟩ => ⟨S1x256x64, .f32⟩
  | _, _ => ⟨S16x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_v20_3 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg14_0 : Ref sig .tc := ⟨.vmem, 25, rfl⟩
abbrev cc1_stg15_0 : Ref sig .tc := ⟨.vmem, 26, rfl⟩
abbrev cc1_stg15_1 : Ref sig .tc := ⟨.vmem, 27, rfl⟩
abbrev cc1_stg16_0 : Ref sig .tc := ⟨.vmem, 28, rfl⟩
abbrev cc1_stg16_1 : Ref sig .tc := ⟨.vmem, 29, rfl⟩
abbrev cc1_stg17_0 : Ref sig .tc := ⟨.vmem, 30, rfl⟩
abbrev cc1_stg18_0 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg7_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem14_0 : DmaSem sig := 25
abbrev cc1_sem15_0 : DmaSem sig := 26
abbrev cc1_sem15_1 : DmaSem sig := 27
abbrev cc1_sem16_0 : DmaSem sig := 28
abbrev cc1_sem16_1 : DmaSem sig := 29
abbrev cc1_sem17_0 : DmaSem sig := 30
abbrev cc1_sem18_0 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem7_1 : DmaSem sig := 41

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S32x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S2x32 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x2 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S16x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x16 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 2 → Memref sig .tc .vmem S1x64x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x64x16 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 1 → Memref sig .tc .vmem S1x16 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S1x16 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x256x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S32x128_S32x64_0_0 : S32x128.Slices ![0, 0] S32x64
  slices_S32x128_S32x64_0_64 : S32x128.Slices ![0, 64] S32x64
  shapeCasts_S32_S1x32 : S32.ShapeCasts S1x32
  shapeCasts_S2_S1x2 : S2.ShapeCasts S1x2
  shapeCasts_S16_S1x16 : S16.ShapeCasts S1x16
  shapeCasts_S64_S1x64 : S64.ShapeCasts S1x64
  inb_S1x32_S1x32_0_0 : ∀ a, (![0, 0] : Fin 2 → Nat) a + S1x32.size a ≤ S1x32.size a
  h_S1x32 : 0 < S1x32.numel
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  transposes_S32x64_p1_0_S64x32 : S32x64.Transposes [1, 0] S64x32
  shapeCasts_S1x32_S32 : S1x32.ShapeCasts S32
  shapeCasts_S64x32_S64x1x32 : S64x32.ShapeCasts S64x1x32
  shapeCasts_S256x32_S1x256x32 : S256x32.ShapeCasts S1x256x32
  broadcasts_S64x1x32_S64x256x32 : S64x1x32.Broadcasts S64x256x32
  broadcasts_S1x256x32_S64x256x32 : S1x256x32.Broadcasts S64x256x32
  shapeCasts_S32_S1x1x32 : S32.ShapeCasts S1x1x32
  broadcasts_S1x1x32_S64x256x32 : S1x1x32.Broadcasts S64x256x32
  shapeCasts_S64x256x32_S16384x32 : S64x256x32.ShapeCasts S16384x32
  reduces_S16384x32_S32 : S16384x32.Reduces [0] S32
  shapeCasts_S1x32_S1x32 : S1x32.ShapeCasts S1x32
  bcast_S_S1x32 : S_.BroadcastsInDim S1x32 (![] : Fin 0 → Fin S1x32.rank)
  inb_S1x16_S1x16_0_0 : ∀ a, (![0, 0] : Fin 2 → Nat) a + S1x16.size a ≤ S1x16.size a
  h_S1x16 : 0 < S1x16.numel
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  broadcasts_S1x32_S16384x32 : S1x32.Broadcasts S16384x32
  inb_S2x32_S2x32_0_0 : ∀ a, (![0, 0] : Fin 2 → Nat) a + S2x32.size a ≤ S2x32.size a
  h_S2x32 : 0 < S2x32.numel
  transposes_S2x32_p1_0_S32x2 : S2x32.Transposes [1, 0] S32x2
  inb_S1x2_S1x2_0_0 : ∀ a, (![0, 0] : Fin 2 → Nat) a + S1x2.size a ≤ S1x2.size a
  h_S1x2 : 0 < S1x2.numel
  shapeCasts_S1x2_S2 : S1x2.ShapeCasts S2
  broadcasts_S1x2_S16384x2 : S1x2.Broadcasts S16384x2
  slices_S16384x2_o0_0_S16384x1 : S16384x2.Slices ![0, 0] S16384x1
  shapeCasts_S16384x1_S16384 : S16384x1.ShapeCasts S16384
  slices_S16384x2_o0_1_S16384x1 : S16384x2.Slices ![0, 1] S16384x1
  shapeCasts_S16384_S64x256 : S16384.ShapeCasts S64x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  slices_S64x256_o0_0_S64x64 : S64x256.Slices ![0, 0] S64x64
  slices_S64x256_o0_64_S64x64 : S64x256.Slices ![0, 64] S64x64
  slices_S64x256_o0_128_S64x64 : S64x256.Slices ![0, 128] S64x64
  slices_S64x256_o0_192_S64x64 : S64x256.Slices ![0, 192] S64x64
  concatenates_S64x64_S64x64_S64x128_d1 : Shape.Concatenates [S64x64, S64x64] S64x128 1
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  shapeCasts_S1x16_S16 : S1x16.ShapeCasts S16
  broadcasts_S1x16_S64x16 : S1x16.Broadcasts S64x16
  inb_S1x64x16_S1x64x16_0_0_0 : ∀ a, (![0, 0, 0] : Fin 3 → Nat) a + S1x64x16.size a ≤ S1x64x16.size a
  h_S1x64x16 : 0 < S1x64x16.numel
  shapeCasts_S1x64x16_S64x16 : S1x64x16.ShapeCasts S64x16
  shapeCasts_S64x16_S1x64x16 : S64x16.ShapeCasts S1x64x16
  reduces_S64x16_S16 : S64x16.Reduces [0] S16
  shapeCasts_S1x16_S1x16 : S1x16.ShapeCasts S1x16
  bcast_S_S1x16 : S_.BroadcastsInDim S1x16 (![] : Fin 0 → Fin S1x16.rank)
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  broadcasts_S1x16_S256x16 : S1x16.Broadcasts S256x16
  inb_S64x16_S64x16_0_0 : ∀ a, (![0, 0] : Fin 2 → Nat) a + S64x16.size a ≤ S64x16.size a
  h_S64x16 : 0 < S64x16.numel
  transposes_S64x16_p1_0_S16x64 : S64x16.Transposes [1, 0] S16x64
  inb_S1x64_S1x64_0_0 : ∀ a, (![0, 0] : Fin 2 → Nat) a + S1x64.size a ≤ S1x64.size a
  h_S1x64 : 0 < S1x64.numel
  shapeCasts_S1x64_S64 : S1x64.ShapeCasts S64
  broadcasts_S1x64_S256x64 : S1x64.Broadcasts S256x64
  shapeCasts_S256x64_S1x256x64 : S256x64.ShapeCasts S1x256x64
  shapeCasts_S16x256x256_S16x65536 : S16x256x256.ShapeCasts S16x65536
  dot_S64x64_S64x32_S64x32_1_0_0_1_n_n_wf : DotDims.WF S64x64 S64x32 S64x32 [1] [0] [0] [1] [] []
  dot_S256x64_S64x32_S256x32_1_0_0_1_n_n_wf : DotDims.WF S256x64 S64x32 S256x32 [1] [0] [0] [1] [] []
  dot_S16384x32_S32x32_S16384x32_1_0_0_1_n_n_wf : DotDims.WF S16384x32 S32x32 S16384x32 [1] [0] [0] [1] [] []
  dot_S16384x32_S32x2_S16384x2_1_0_0_1_n_n_wf : DotDims.WF S16384x32 S32x2 S16384x2 [1] [0] [0] [1] [] []
  dot_S64x128_S128x16_S64x16_1_0_0_1_n_n_wf : DotDims.WF S64x128 S128x16 S64x16 [1] [0] [0] [1] [] []
  dot_S256x16_S16x64_S256x64_1_0_0_1_n_n_wf : DotDims.WF S256x16 S16x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64.size a ≤ S16x256x64.size a
  hwx0_0 : ∀ i : grid0.Coords, EltTy.bits .f32 = 32 ∨ (Rect.block (s := S16x256x64) S1x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S16x256x64.size a
  hwx0_1 : ∀ i : grid0.Coords, EltTy.bits .f32 = 32 ∨ (Rect.block (s := S16x256x64) S1x256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64.size a ≤ S16x256x64.size a
  hwx1_0 : ∀ i : grid1.Coords, EltTy.bits .f32 = 32 ∨ (Rect.block (s := S16x256x64) S1x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x64.size a ≤ S16x256x64.size a
  hwx1_1 : ∀ i : grid1.Coords, EltTy.bits .f32 = 32 ∨ (Rect.block (s := S16x256x64) S1x256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x32.size a ≤ S32x32.size a
  hwx1_9 : ∀ i : grid1.Coords, EltTy.bits .f32 = 32 ∨ (Rect.block (s := S32x32) S32x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x32.size a ≤ S1x32.size a
  hwx1_10 : ∀ i : grid1.Coords, EltTy.bits .f32 = 32 ∨ (Rect.block (s := S1x32) S1x32.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S2x32.size a ≤ S2x32.size a
  hwx1_11 : ∀ i : grid1.Coords, EltTy.bits .f32 = 32 ∨ (Rect.block (s := S2x32) S2x32.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x2.size a ≤ S1x2.size a
  hwx1_12 : ∀ i : grid1.Coords, EltTy.bits .f32 = 32 ∨ (Rect.block (s := S1x2) S1x2.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S16x128.size a ≤ S16x128.size a
  hwx1_13 : ∀ i : grid1.Coords, EltTy.bits .f32 = 32 ∨ (Rect.block (s := S16x128) S16x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x16.size a ≤ S1x16.size a
  hwx1_14 : ∀ i : grid1.Coords, EltTy.bits .f32 = 32 ∨ (Rect.block (s := S1x16) S1x16.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1x64x256.size a ≤ S16x256x256.size a
  hwx1_15 : ∀ i : grid1.Coords, EltTy.bits .f32 = 32 ∨ (Rect.block (s := S16x256x256) S1x64x256.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1x64x16.size a ≤ S16x256x16.size a
  hwx1_16 : ∀ i : grid1.Coords, EltTy.bits .f32 = 32 ∨ (Rect.block (s := S16x256x16) S1x64x16.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x16.size a ≤ S1x16.size a
  hwx1_17 : ∀ i : grid1.Coords, EltTy.bits .f32 = 32 ∨ (Rect.block (s := S1x16) S1x16.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x16.size a ≤ S1x16.size a
  hwx1_18 : ∀ i : grid1.Coords, EltTy.bits .f32 = 32 ∨ (Rect.block (s := S1x16) S1x16.size (cc1_transform_18 i) (hinb1_18 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x16.size a ≤ S16x256x16.size a
  hwx2_0 : ∀ i : grid2.Coords, EltTy.bits .f32 = 32 ∨ (Rect.block (s := S16x256x16) S1x256x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x16.size a ≤ S64x16.size a
  hwx2_5 : ∀ i : grid2.Coords, EltTy.bits .f32 = 32 ∨ (Rect.block (s := S64x16) S64x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x256x64.size a ≤ S16x256x64.size a
  hwx2_7 : ∀ i : grid2.Coords, EltTy.bits .f32 = 32 ∨ (Rect.block (s := S16x256x64) S1x256x64.size (cc2_transform_7 i) (hinb2_7 i)).WholeWords (EltTy.packing .f32)

variable [Facts₀]

def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x32_S32x2_S16384x2_1_0_0_1_n_n : DotDims S16384x32 S32x2 S16384x2 where
  lhsContracting := [1]
  rhsContracting := [0]
  lhsNonContracting := [0]
  rhsNonContracting := [1]
  lhsBatch := []
  rhsBatch := []
  wf := dot_S16384x32_S32x2_S16384x2_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf
def dot_S256x16_S16x64_S256x64_1_0_0_1_n_n : DotDims S256x16 S16x64 S256x64 where
  lhsContracting := [1]
  rhsContracting := [0]
  lhsNonContracting := [0]
  rhsNonContracting := [1]
  lhsBatch := []
  rhsBatch := []
  wf := dot_S256x16_S16x64_S256x64_1_0_0_1_n_n_wf

abbrev win0_0 : Pipeline.Window sig grid0 :=
  Pipeline.Window.ofSpec (Memref.whole main_arg0) S1x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S1x32.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S1x32.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg5) S32x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v5) S1x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg7) S2x32.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v6) S1x2.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg9) S16x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v7) S1x16.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v20_0) S1x64x256.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v20_1) S1x64x16.size cc1_transform_16 reads1_16 true false 2 stage1_16 sem1_16
    hrank1 hreads1_16 hinb1_16 nbuf1_16 (Memref.isWhole_whole _) hwx1_16 hstage1_16

abbrev win1_17 : Pipeline.Window sig grid1 :=
  Pipeline.Window.ofSpec (Memref.whole main_v20_2) S1x16.size cc1_transform_17 reads1_17 true true 1 stage1_17 sem1_17
    hrank1 hreads1_17 hinb1_17 nbuf1_17 (Memref.isWhole_whole _) hwx1_17 hstage1_17

abbrev win1_18 : Pipeline.Window sig grid1 :=
  Pipeline.Window.ofSpec (Memref.whole main_v20_3) S1x16.size cc1_transform_18 reads1_18 true true 1 stage1_18 sem1_18
    hrank1 hreads1_18 hinb1_18 nbuf1_18 (Memref.isWhole_whole _) hwx1_18 hstage1_18

abbrev win1 : Fin 19 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | ⟨_ + 19, h⟩ => absurd h (Nat.not_lt.2 (Nat.le_add_left _ _))
abbrev spec1 : Fin 19 → Pipeline.WinSpec sig grid1.rank := fun w => (win1 w).toWinSpec

abbrev win2_0 : Pipeline.Window sig grid2 :=
  Pipeline.Window.ofSpec (Memref.whole main_v20_1) S1x256x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S64x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29) S1x256x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S16x256x64 : Shape := ⟨3, ![16, 256, 64]⟩
abbrev S32x128 : Shape := ⟨2, ![32, 128]⟩
abbrev S32 : Shape := ⟨1, ![32]⟩
abbrev S32x32 : Shape := ⟨2, ![32, 32]⟩
abbrev S2x32 : Shape := ⟨2, ![2, 32]⟩
abbrev S2 : Shape := ⟨1, ![2]⟩
abbrev S16x128 : Shape := ⟨2, ![16, 128]⟩
abbrev S16 : Shape := ⟨1, ![16]⟩
abbrev S64x16 : Shape := ⟨2, ![64, 16]⟩
abbrev S64 : Shape := ⟨1, ![64]⟩
abbrev S256 : Shape := ⟨1, ![256]⟩
abbrev S256x256 : Shape := ⟨2, ![256, 256]⟩
abbrev S65536 : Shape := ⟨1, ![65536]⟩
abbrev S1x256 : Shape := ⟨2, ![1, 256]⟩
abbrev S_ : Shape := ⟨0, ![]⟩
abbrev S65536x1 : Shape := ⟨2, ![65536, 1]⟩
abbrev S16x65536x64 : Shape := ⟨3, ![16, 65536, 64]⟩
abbrev S16x65536x128 : Shape := ⟨3, ![16, 65536, 128]⟩
abbrev S1048576x128 : Shape := ⟨2, ![1048576, 128]⟩
abbrev S128x32 : Shape := ⟨2, ![128, 32]⟩
abbrev S1048576x32 : Shape := ⟨2, ![1048576, 32]⟩
abbrev S1x32 : Shape := ⟨2, ![1, 32]⟩
abbrev S32x2 : Shape := ⟨2, ![32, 2]⟩
abbrev S1048576x2 : Shape := ⟨2, ![1048576, 2]⟩
abbrev S1x2 : Shape := ⟨2, ![1, 2]⟩
abbrev S16x65536x2 : Shape := ⟨3, ![16, 65536, 2]⟩
abbrev S16x65536x1 : Shape := ⟨3, ![16, 65536, 1]⟩
abbrev S16x65536 : Shape := ⟨2, ![16, 65536]⟩
abbrev S16x256x4x64 : Shape := ⟨4, ![16, 256, 4, 64]⟩
abbrev S16x256x128 : Shape := ⟨3, ![16, 256, 128]⟩
abbrev S4096x128 : Shape := ⟨2, ![4096, 128]⟩
abbrev S128x16 : Shape := ⟨2, ![128, 16]⟩
abbrev S4096x16 : Shape := ⟨2, ![4096, 16]⟩
abbrev S1x16 : Shape := ⟨2, ![1, 16]⟩
abbrev S16x64 : Shape := ⟨2, ![16, 64]⟩
abbrev S4096x64 : Shape := ⟨2, ![4096, 64]⟩
abbrev S1x64 : Shape := ⟨2, ![1, 64]⟩

abbrev nBuf : Space → Nat
  | .hbm => 171
  | .vmem => 0
  | .smem => 0
  | _ => 0

abbrev hbmTy0_0 (i : Nat) : BufTy := match i % 128 with
  | 0 => ⟨S16x256x64, .f32⟩
  | 1 => ⟨S32x128, .f32⟩
  | 2 => ⟨S32, .f32⟩
  | 3 => ⟨S32, .f32⟩
  | 4 => ⟨S32, .f32⟩
  | 5 => ⟨S32x32, .f32⟩
  | 6 => ⟨S32, .f32⟩
  | 7 => ⟨S2x32, .f32⟩
  | 8 => ⟨S2, .f32⟩
  | 9 => ⟨S16x128, .f32⟩
  | 10 => ⟨S16, .f32⟩
  | 11 => ⟨S16, .f32⟩
  | 12 => ⟨S16, .f32⟩
  | 13 => ⟨S64x16, .f32⟩
  | 14 => ⟨S64, .f32⟩
  | 15 => ⟨S256, .i32⟩
  | 16 => ⟨S256x256, .i32⟩
  | 17 => ⟨S65536, .i32⟩
  | 18 => ⟨S256, .i32⟩
  | 19 => ⟨S1x256, .i32⟩
  | 20 => ⟨S256x256, .i32⟩
  | 21 => ⟨S65536, .i32⟩
  | 22 => ⟨S_, .i32⟩
  | 23 => ⟨S65536, .i32⟩
  | 24 => ⟨S65536, .i1⟩
  | 25 => ⟨S_, .i32⟩
  | 26 => ⟨S65536, .i32⟩
  | 27 => ⟨S65536, .i32⟩
  | 28 => ⟨S65536, .i32⟩
  | 29 => ⟨S65536x1, .i32⟩
  | 30 => ⟨S16x65536x64, .f32⟩
  | 31 => ⟨S_, .i32⟩
  | 32 => ⟨S65536, .i32⟩
  | 33 => ⟨S65536, .i1⟩
  | 34 => ⟨S_, .i32⟩
  | 35 => ⟨S65536, .i32⟩
  | 36 => ⟨S65536, .i32⟩
  | 37 => ⟨S65536, .i32⟩
  | 38 => ⟨S65536x1, .i32⟩
  | 39 => ⟨S16x65536x64, .f32⟩
  | 40 => ⟨S16x65536x128, .f32⟩
  | 41 => ⟨S1048576x128, .f32⟩
  | 42 => ⟨S128x32, .f32⟩
  | 43 => ⟨S1048576x32, .f32⟩
  | 44 => ⟨S1x32, .f32⟩
  | 45 => ⟨S1048576x32, .f32⟩
  | 46 => ⟨S1048576x32, .f32⟩
  | 47 => ⟨S_, .f32⟩
  | 48 => ⟨S32, .f32⟩
  | 49 => ⟨S_, .f32⟩
  | 50 => ⟨S32, .f32⟩
  | 51 => ⟨S32, .f32⟩
  | 52 => ⟨S1x32, .f32⟩
  | 53 => ⟨S1048576x32, .f32⟩
  | 54 => ⟨S1048576x32, .f32⟩
  | 55 => ⟨S1048576x32, .f32⟩
  | 56 => ⟨S_, .f32⟩
  | 57 => ⟨S32, .f32⟩
  | 58 => ⟨S_, .f32⟩
  | 59 => ⟨S32, .f32⟩
  | 60 => ⟨S32, .f32⟩
  | 61 => ⟨S1x32, .f32⟩
  | 62 => ⟨S1048576x32, .f32⟩
  | 63 => ⟨S1048576x32, .f32⟩
  | 64 => ⟨S_, .f32⟩
  | 65 => ⟨S32, .f32⟩
  | 66 => ⟨S32, .f32⟩
  | 67 => ⟨S32, .f32⟩
  | 68 => ⟨S1x32, .f32⟩
  | 69 => ⟨S1048576x32, .f32⟩
  | 70 => ⟨S1048576x32, .f32⟩
  | 71 => ⟨S1x32, .f32⟩
  | 72 => ⟨S1048576x32, .f32⟩
  | 73 => ⟨S1048576x32, .f32⟩
  | 74 => ⟨S1x32, .f32⟩
  | 75 => ⟨S1048576x32, .f32⟩
  | 76 => ⟨S1048576x32, .f32⟩
  | 77 => ⟨S_, .f32⟩
  | 78 => ⟨S_, .f32⟩
  | 79 => ⟨S1048576x32, .f32⟩
  | 80 => ⟨S1048576x32, .i1⟩
  | 81 => ⟨S_, .f32⟩
  | 82 => ⟨S1048576x32, .f32⟩
  | 83 => ⟨S1048576x32, .f32⟩
  | 84 => ⟨S1048576x32, .f32⟩
  | 85 => ⟨S32x32, .f32⟩
  | 86 => ⟨S1048576x32, .f32⟩
  | 87 => ⟨S1x32, .f32⟩
  | 88 => ⟨S1048576x32, .f32⟩
  | 89 => ⟨S1048576x32, .f32⟩
  | 90 => ⟨S_, .f32⟩
  | 91 => ⟨S_, .f32⟩
  | 92 => ⟨S1048576x32, .f32⟩
  | 93 => ⟨S1048576x32, .i1⟩
  | 94 => ⟨S_, .f32⟩
  | 95 => ⟨S1048576x32, .f32⟩
  | 96 => ⟨S1048576x32, .f32⟩
  | 97 => ⟨S1048576x32, .f32⟩
  | 98 => ⟨S32x2, .f32⟩
  | 99 => ⟨S1048576x2, .f32⟩
  | 100 => ⟨S1x2, .f32⟩
  | 101 => ⟨S1048576x2, .f32⟩
  | 102 => ⟨S1048576x2, .f32⟩
  | 103 => ⟨S16x65536x2, .f32⟩
  | 104 => ⟨S16x65536x1, .f32⟩
  | 105 => ⟨S16x65536, .f32⟩
  | 106 => ⟨S16x65536, .f32⟩
  | 107 => ⟨S16x65536, .f32⟩
  | 108 => ⟨S_, .f32⟩
  | 109 => ⟨S16x65536, .f32⟩
  | 110 => ⟨S16x65536, .f32⟩
  | 111 => ⟨S_, .f32⟩
  | 112 => ⟨S16x65536, .f32⟩
  | 113 => ⟨S16x65536, .f32⟩
  | 114 => ⟨S16x65536x1, .f32⟩
  | 115 => ⟨S16x65536, .f32⟩
  | 116 => ⟨S16x65536, .f32⟩
  | 117 => ⟨S16x256x4x64, .f32⟩
  | 118 => ⟨S_, .f32⟩
  | 119 => ⟨S16x256x64, .f32⟩
  | 120 => ⟨S16x256x128, .f32⟩
  | 121 => ⟨S4096x128, .f32⟩
  | 122 => ⟨S128x16, .f32⟩
  | 123 => ⟨S4096x16, .f32⟩
  | 124 => ⟨S1x16, .f32⟩
  | 125 => ⟨S4096x16, .f32⟩
  | 126 => ⟨S4096x16, .f32⟩
  | 127 => ⟨S_, .f32⟩
  | _ => ⟨S16x256x64, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S1x16, .f32⟩
  | 5 => ⟨S4096x16, .f32⟩
  | 6 => ⟨S4096x16, .f32⟩
  | 7 => ⟨S4096x16, .f32⟩
  | 8 => ⟨S_, .f32⟩
  | 9 => ⟨S16, .f32⟩
  | 10 => ⟨S_, .f32⟩
  | 11 => ⟨S16, .f32⟩
  | 12 => ⟨S16, .f32⟩
  | 13 => ⟨S1x16, .f32⟩
  | 14 => ⟨S4096x16, .f32⟩
  | 15 => ⟨S4096x16, .f32⟩
  | 16 => ⟨S_, .f32⟩
  | 17 => ⟨S16, .f32⟩
  | 18 => ⟨S16, .f32⟩
  | 19 => ⟨S16, .f32⟩
  | 20 => ⟨S1x16, .f32⟩
  | 21 => ⟨S4096x16, .f32⟩
  | 22 => ⟨S4096x16, .f32⟩
  | 23 => ⟨S1x16, .f32⟩
  | 24 => ⟨S4096x16, .f32⟩
  | 25 => ⟨S4096x16, .f32⟩
  | 26 => ⟨S1x16, .f32⟩
  | 27 => ⟨S4096x16, .f32⟩
  | 28 => ⟨S4096x16, .f32⟩
  | 29 => ⟨S_, .f32⟩
  | 30 => ⟨S_, .f32⟩
  | 31 => ⟨S4096x16, .f32⟩
  | 32 => ⟨S4096x16, .i1⟩
  | 33 => ⟨S_, .f32⟩
  | 34 => ⟨S4096x16, .f32⟩
  | 35 => ⟨S4096x16, .f32⟩
  | 36 => ⟨S4096x16, .f32⟩
  | 37 => ⟨S16x64, .f32⟩
  | 38 => ⟨S4096x64, .f32⟩
  | 39 => ⟨S1x64, .f32⟩
  | 40 => ⟨S4096x64, .f32⟩
  | 41 => ⟨S4096x64, .f32⟩
  | 42 => ⟨S16x256x64, .f32⟩
  | _ => ⟨S16x256x64, .f32⟩

abbrev hbmTy (i : Nat) : BufTy := match i / 128 with
  | 0 => hbmTy0_0 i
  | 1 => hbmTy0_1 i
  | _ => ⟨S16x256x64, .f32⟩

abbrev bufTy : (tb : Table) → Fin (tcTables nBuf tb) → BufTy
  | .hbm, ⟨i, _⟩ => hbmTy i
  | _, _ => ⟨S16x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_8 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_9 : Ref sig .tc := ⟨.hbm, 108, rfl⟩
abbrev main_v70 : Ref sig .tc := ⟨.hbm, 109, rfl⟩
abbrev main_v71 : Ref sig .tc := ⟨.hbm, 110, rfl⟩
abbrev main_cst_10 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_11 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_12 : Ref sig .tc := ⟨.hbm, 127, rfl⟩
abbrev main_v86 : Ref sig .tc := ⟨.hbm, 128, rfl⟩
abbrev main_cst_13 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_14 : Ref sig .tc := ⟨.hbm, 136, rfl⟩
abbrev main_v93 : Ref sig .tc := ⟨.hbm, 137, rfl⟩
abbrev main_cst_15 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_16 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_17 : Ref sig .tc := ⟨.hbm, 157, rfl⟩
abbrev main_call2_cst : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩

abbrev nD : Nat := 1
abbrev τ : Topo := Topo.v7x

variable {F : FTy → Type} [FloatOps F]

class Facts₀ : Prop where
  bcast_S256_S256x256_0 : S256.BroadcastsInDim S256x256 (![0] : Fin 1 → Fin S256x256.rank)
  shapeCasts_S256x256_S65536 : S256x256.ShapeCasts S65536
  shapeCasts_S256_S1x256 : S256.ShapeCasts S1x256
  bcast_S1x256_S256x256_0_1 : S1x256.BroadcastsInDim S256x256 (![0, 1] : Fin 2 → Fin S256x256.rank)
  bcast_S_S65536 : S_.BroadcastsInDim S65536 (![] : Fin 0 → Fin S65536.rank)
  bcast_S65536_S65536x1_0 : S65536.BroadcastsInDim S65536x1 (![0] : Fin 1 → Fin S65536x1.rank)
  concatenates_S16x65536x64_S16x65536x64_S16x65536x128_d2 : Shape.Concatenates [S16x65536x64, S16x65536x64] S16x65536x128 2
  shapeCasts_S16x65536x128_S1048576x128 : S16x65536x128.ShapeCasts S1048576x128
  transposes_S32x128_S128x32_1_0 : S32x128.Transposes [1, 0] S128x32
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  reducesTo_S1048576x32_S32_d0 : S1048576x32.ReducesTo [0] S32
  h_S_ : 0 < S_.numel
  bcast_S_S32 : S_.BroadcastsInDim S32 (![] : Fin 0 → Fin S32.rank)
  bcast_S_S1048576x32 : S_.BroadcastsInDim S1048576x32 (![] : Fin 0 → Fin S1048576x32.rank)
  transposes_S32x32_S32x32_1_0 : S32x32.Transposes [1, 0] S32x32
  transposes_S2x32_S32x2_1_0 : S2x32.Transposes [1, 0] S32x2
  bcast_S2_S1x2_1 : S2.BroadcastsInDim S1x2 (![1] : Fin 1 → Fin S1x2.rank)
  bcast_S1x2_S1048576x2_0_1 : S1x2.BroadcastsInDim S1048576x2 (![0, 1] : Fin 2 → Fin S1048576x2.rank)
  shapeCasts_S1048576x2_S16x65536x2 : S1048576x2.ShapeCasts S16x65536x2
  slices_S16x65536x2_S16x65536x1_0_0_0 : S16x65536x2.Slices ![0, 0, 0] S16x65536x1
  shapeCasts_S16x65536x1_S16x65536 : S16x65536x1.ShapeCasts S16x65536
  bcast_S_S16x65536 : S_.BroadcastsInDim S16x65536 (![] : Fin 0 → Fin S16x65536.rank)
  slices_S16x65536x2_S16x65536x1_0_0_1 : S16x65536x2.Slices ![0, 0, 1] S16x65536x1
  shapeCasts_S16x65536_S16x256x4x64 : S16x65536.ShapeCasts S16x256x4x64
  reducesTo_S16x256x4x64_S16x256x64_d2 : S16x256x4x64.ReducesTo [2] S16x256x64
  concatenates_S16x256x64_S16x256x64_S16x256x128_d2 : Shape.Concatenates [S16x256x64, S16x256x64] S16x256x128 2
  shapeCasts_S16x256x128_S4096x128 : S16x256x128.ShapeCasts S4096x128
  transposes_S16x128_S128x16_1_0 : S16x128.Transposes [1, 0] S128x16
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S16_d0 : S4096x16.ReducesTo [0] S16
  bcast_S_S16 : S_.BroadcastsInDim S16 (![] : Fin 0 → Fin S16.rank)
  bcast_S_S4096x16 : S_.BroadcastsInDim S4096x16 (![] : Fin 0 → Fin S4096x16.rank)
  transposes_S64x16_S16x64_1_0 : S64x16.Transposes [1, 0] S16x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  shapeCasts_S4096x64_S16x256x64 : S4096x64.ShapeCasts S16x256x64
  gather_S16x256x64_S65536x1_S16x65536x64_02_1_n_n_1_1_16164_wf : GatherDims.WF S16x256x64 S65536x1 S16x65536x64 [0, 2] [1] [] [1] [] 1 ![16, 1, 64]
  dot_S1048576x128_S128x32_S1048576x32_1_0_0_1_n_n_wf : DotDims.WF S1048576x128 S128x32 S1048576x32 [1] [0] [0] [1] [] []
  dot_S1048576x32_S32x32_S1048576x32_1_0_0_1_n_n_wf : DotDims.WF S1048576x32 S32x32 S1048576x32 [1] [0] [0] [1] [] []
  dot_S1048576x32_S32x2_S1048576x2_1_0_0_1_n_n_wf : DotDims.WF S1048576x32 S32x2 S1048576x2 [1] [0] [0] [1] [] []
  dot_S4096x128_S128x16_S4096x16_1_0_0_1_n_n_wf : DotDims.WF S4096x128 S128x16 S4096x16 [1] [0] [0] [1] [] []
  dot_S4096x16_S16x64_S4096x64_1_0_0_1_n_n_wf : DotDims.WF S4096x16 S16x64 S4096x64 [1] [0] [0] [1] [] []

variable [Facts₀]

def gather_S16x256x64_S65536x1_S16x65536x64_02_1_n_n_1_1_16164 : GatherDims S16x256x64 S65536x1 S16x65536x64 where
  offsetDims := [0, 2]
  collapsedSliceDims := [1]
  operandBatchingDims := []
  startIndicesBatchingDims := []
  startIndexMap := [1]
  indexVectorDim := 1
  sliceSizes := ![16, 1, 64]
  wf := gather_S16x256x64_S65536x1_S16x65536x64_02_1_n_n_1_1_16164_wf
def dot_S1048576x128_S128x32_S1048576x32_1_0_0_1_n_n : DotDims S1048576x128 S128x32 S1048576x32 where
  lhsContracting := [1]
  rhsContracting := [0]
  lhsNonContracting := [0]
  rhsNonContracting := [1]
  lhsBatch := []
  rhsBatch := []
  wf := dot_S1048576x128_S128x32_S1048576x32_1_0_0_1_n_n_wf
def dot_S1048576x32_S32x32_S1048576x32_1_0_0_1_n_n : DotDims S1048576x32 S32x32 S1048576x32 where
  lhsContracting := [1]
  rhsContracting := [0]
  lhsNonContracting := [0]
  rhsNonContracting := [1]
  lhsBatch := []
  rhsBatch := []
  wf := dot_S1048576x32_S32x32_S1048576x32_1_0_0_1_n_n_wf
def dot_S1048576x32_S32x2_S1048576x2_1_0_0_1_n_n : DotDims S1048576x32 S32x2 S1048576x2 where
  lhsContracting := [1]
  rhsContracting := [0]
  lhsNonContracting := [0]
  rhsNonContracting := [1]
  lhsBatch := []
  rhsBatch := []
  wf := dot_S1048576x32_S32x2_S1048576x2_1_0_0_1_n_n_wf
def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S4096x16_S16x64_S4096x64_1_0_0_1_n_n : DotDims S4096x16 S16x64 S4096x64 where
  lhsContracting := [1]
  rhsContracting := [0]
  lhsNonContracting := [0]
  rhsNonContracting := [1]
  lhsBatch := []
  rhsBatch := []
  wf := dot_S4096x16_S16x64_S4096x64_1_0_0_1_n_n_wf

class Facts : Prop extends Facts₀ where

variable [Facts]
-- ==== Proof.BK0Runs.lean ====
/-
  The first pipelined region (the per-channel statistics of the first layer), at any contents of the buffers when
  the region is entered: what its two control cases share.  Each window's block at a grid point, read off its array;
  the fact that an input window's staging buffer holds that block at every point, whether or not it is fetched there
  (where it is not, the block index has not moved); the closed form of the body's one condition (it holds at the
  first of the 64 grid points only); and the staging memrefs the body is called with at a point.
-/
import proofs.«168503_j21964462751805_2_alg».proof.Proof.Gen.Kernel.Launch
import proofs.«168503_j21964462751805_2_alg».proof.Proof.Gen.Kernel.Skeleton
import proofs.«168503_j21964462751805_2_alg».proof.Proof.Gen.Kernel.Points
import Idealize.ShloMosaic.Lib.Pipeline.FrameBody
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 (custom_call 0, the statistics kernel), at the entry contents `V`: what its two runs share -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: where the window is not fetched its block
    index has not moved, so the block the buffer still holds is the point's. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional (both grid coordinates zero), from the grid coordinates. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the grid. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs the body is called with -/

/-- One staging buffer of each output window, through which its contents are stated (the choice does not matter:
    a covering list of writes reads the same through any view of the shape). -/
abbrev VO0_5 : View sig .tc .vmem S1x32 .f32 := (Memref.whole cc0_stg5_0 : Memref sig .tc .vmem S1x32 .f32).view
abbrev VO0_6 : View sig .tc .vmem S1x32 .f32 := (Memref.whole cc0_stg6_0 : Memref sig .tc .vmem S1x32 .f32).view
/-- Each window's current staging memref at point `t`, spelled as the pipeline passes it, and its wholeness. -/
abbrev ms0_0 (t : Fin cfg0.N) : Memref sig .tc .vmem S1x64x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32 .f32 := win0_6.stage (cfg0.slots t 6)
abbrev hs0_6 (t : Fin cfg0.N) : (ms0_6 t).IsWhole := hstage0_6 ((cfg0.slots t 6).cast nbuf0_6)

end Cert.Kernel.Hand

end
-- ==== Proof.BK0RunA.lean ====
/-
  The first pipelined region at its FIRST grid point.  There the body zeroes the two [1, 32] accumulators before it
  reads them back, so what it leaves in them does not depend on what they held: from the five input blocks at their
  contents and the accumulators at anything, the body runs to the inputs as they were and each accumulator with a
  list of covering stores written, the list being found by the run itself.
-/
import proofs.«168503_j21964462751805_2_alg».proof.Proof.BK0Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the two output staging memrefs, as pieces (last first), AT THE FIRST GRID POINT
    (the conditional taken: both accumulators are zeroed before they are read back), with the proof that on whole
    staging memrefs — the inputs' at their contents, the outputs' at anything — the body runs to the continuation
    holding the inputs' as they were and each output's buffer with its pieces written. The pieces are the witness
    the run finds. -/
noncomputable def kernelRun0_A (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) :
    Σ' (L5 : List (View.Piece (Elt F) S1x32 .f32)), { L6 : List (View.Piece (Elt F) S1x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__stats_body i arg2 harg2 arg3 harg3 arg4 harg4 arg5 harg5 arg6 harg6 arg7 harg7 arg8 harg8) K } := by
  refine ⟨?_, ?_, fun E K => ?run⟩
  case run =>
    simp only [cc0__stats_body_eq_skeleton]; unfold cc0__stats_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.Kernel.Hand

end
-- ==== Proof.BK0RunB.lean ====
/-
  The first pipelined region at a LATER grid point.  There the body reads the two [1, 32] accumulators back at their
  running contents and adds the point's contribution: from the five input blocks and the two accumulators at their
  contents, the body runs to the inputs as they were and each accumulator with a list of covering stores written,
  the list being found by the run itself.
-/
import proofs.«168503_j21964462751805_2_alg».proof.Proof.BK0RunA

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the two output staging memrefs, as pieces (last first), AT A LATER GRID POINT
    (the conditional not taken: both accumulators are read back at their running contents `xo5`, `xo6` and added
    to), with the proof that on whole staging memrefs — the inputs' at their contents, the outputs' at their running
    contents — the body runs to the continuation holding the inputs' as they were and each output's buffer with its
    pieces written. The pieces are the witness the run finds. -/
noncomputable def kernelRun0_B (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 : Vec F S1x32 .f32) (xo6 : Vec F S1x32 .f32) :
    Σ' (L5 : List (View.Piece (Elt F) S1x32 .f32)), { L6 : List (View.Piece (Elt F) S1x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__stats_body i arg2 harg2 arg3 harg3 arg4 harg4 arg5 harg5 arg6 harg6 arg7 harg7 arg8 harg8) K } := by
  refine ⟨?_, ?_, fun E K => ?run⟩
  case run =>
    simp only [cc0__stats_body_eq_skeleton]; unfold cc0__stats_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.Kernel.Hand

end
-- ==== Proof.BK0Dat.lean ====
/-
  The first pipelined region, at any contents of the buffers when the region is entered: its proof data and its body
  obligation.  The two accumulators after each grid point are defined by recursion on the point — the zeroing case at
  the first point, the adding case over what the point before left at every later one (the accumulators are written
  back after the last point only) — with one equation per case; the proof data name every input's buffer at its block
  and the two accumulators at that recursion; the two windows that are blocks of one array hold it at the two halves
  of the full share; and at every point the body, called on the current staging buffers, re-establishes the data.
-/
import proofs.«168503_j21964462751805_2_alg».proof.Proof.BK0RunB

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 (custom_call 0, the statistics kernel), at the entry contents `V`: its proof data and body obligation -/

/-! ## What each case leaves in the two accumulators -/

/-- At the first point the pieces for output window 5 tile its block (checked by evaluating the rectangles), so they cover it. -/
theorem cover0_A_5 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) (y : S1x32.Idx) :
    ∃ pc ∈ (kernelRun0_A c i arg2 harg2 arg3 harg3 arg4 harg4 arg5 harg5 arg6 harg6 arg7 harg7 arg8 harg8 hc0 x0 x1 x2 x3 x4).1, y ∈ pc.1.set :=
  View.cover_of_tiledL (kernelRun0_A c i arg2 harg2 arg3 harg3 arg4 harg4 arg5 harg5 arg6 harg6 arg7 harg7 arg8 harg8 hc0 x0 x1 x2 x3 x4).1 S1x32.size (by sl_kernel_rfl) y

/-- What the body at the first point leaves in output window 5's staging buffer: its pieces read back over junk. -/
def out0_A_5 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) : Vec F S1x32 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3 x4).1)

/-- At the first point the pieces for output window 6 tile its block (checked by evaluating the rectangles), so they cover it. -/
theorem cover0_A_6 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) (y : S1x32.Idx) :
    ∃ pc ∈ (kernelRun0_A c i arg2 harg2 arg3 harg3 arg4 harg4 arg5 harg5 arg6 harg6 arg7 harg7 arg8 harg8 hc0 x0 x1 x2 x3 x4).2.1, y ∈ pc.1.set :=
  View.cover_of_tiledL (kernelRun0_A c i arg2 harg2 arg3 harg3 arg4 harg4 arg5 harg5 arg6 harg6 arg7 harg7 arg8 harg8 hc0 x0 x1 x2 x3 x4).2.1 S1x32.size (by sl_kernel_rfl) y

/-- What the body at the first point leaves in output window 6's staging buffer: its pieces read back over junk. -/
def out0_A_6 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) : Vec F S1x32 .f32 :=
  VO0_6.read (Elt F) (VO0_6.writes (Elt F) VO0_6.junk (kernelRun0_A c i arg2 harg2 arg3 harg3 arg4 harg4 arg5 harg5 arg6 harg6 arg7 harg7 arg8 harg8 hc0 x0 x1 x2 x3 x4).2.1)

/-- At a later point the pieces for output window 5 tile its block (checked by evaluating the rectangles), so they cover it. -/
theorem cover0_B_5 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 : Vec F S1x32 .f32) (xo6 : Vec F S1x32 .f32) (y : S1x32.Idx) :
    ∃ pc ∈ (kernelRun0_B c i arg2 harg2 arg3 harg3 arg4 harg4 arg5 harg5 arg6 harg6 arg7 harg7 arg8 harg8 hc0 x0 x1 x2 x3 x4 xo5 xo6).1, y ∈ pc.1.set :=
  View.cover_of_tiledL (kernelRun0_B c i arg2 harg2 arg3 harg3 arg4 harg4 arg5 harg5 arg6 harg6 arg7 harg7 arg8 harg8 hc0 x0 x1 x2 x3 x4 xo5 xo6).1 S1x32.size (by sl_kernel_rfl) y

/-- What the body at a later point leaves in output window 5's staging buffer: its pieces read back over junk. -/
def out0_B_5 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 : Vec F S1x32 .f32) (xo6 : Vec F S1x32 .f32) : Vec F S1x32 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 x4 xo5 xo6).1)

/-- At a later point the pieces for output window 6 tile its block (checked by evaluating the rectangles), so they cover it. -/
theorem cover0_B_6 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 : Vec F S1x32 .f32) (xo6 : Vec F S1x32 .f32) (y : S1x32.Idx) :
    ∃ pc ∈ (kernelRun0_B c i arg2 harg2 arg3 harg3 arg4 harg4 arg5 harg5 arg6 harg6 arg7 harg7 arg8 harg8 hc0 x0 x1 x2 x3 x4 xo5 xo6).2.1, y ∈ pc.1.set :=
  View.cover_of_tiledL (kernelRun0_B c i arg2 harg2 arg3 harg3 arg4 harg4 arg5 harg5 arg6 harg6 arg7 harg7 arg8 harg8 hc0 x0 x1 x2 x3 x4 xo5 xo6).2.1 S1x32.size (by sl_kernel_rfl) y

/-- What the body at a later point leaves in output window 6's staging buffer: its pieces read back over junk. -/
def out0_B_6 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 : Vec F S1x32 .f32) (xo6 : Vec F S1x32 .f32) : Vec F S1x32 .f32 :=
  VO0_6.read (Elt F) (VO0_6.writes (Elt F) VO0_6.junk (kernelRun0_B c i arg2 harg2 arg3 harg3 arg4 harg4 arg5 harg5 arg6 harg6 arg7 harg7 arg8 harg8 hc0 x0 x1 x2 x3 x4 xo5 xo6).2.1)

/-! ## What the outputs hold after each point -/

/-- THE ACCUMULATION. What the two output staging buffers (windows 5 and 6, in that order) hold after the body at
    position `n`: at the first point the zeroing case, run at the point's memrefs and input blocks; at a later
    point the adding case, each accumulator read back at what this leaves at `n - 1` (its buffer is not written
    back between: the windows are flushed at the last point only). -/
def outsAt0 (c : Dev nD) : (n : ℕ) → n < cfg0.N → Vec F S1x32 .f32 × Vec F S1x32 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 64 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2)

/-- `outsAt0` at the first point: the zeroing case's contents. -/
theorem outsAt0_A (c : Dev nD) (t : Fin cfg0.N) (h0 : t.val % 64 = 0) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- `outsAt0` at a later point: the adding case's contents, over what the point before left. -/
theorem outsAt0_B (c : Dev nD) (t : Fin cfg0.N) (h0 : ¬t.val % 64 = 0) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point
    `t` each input's buffer at its block and the two outputs' at `outsAt0`'s components; the invariant the scoped
    rest and the generator register, untouched; nothing owed; the two windows that are blocks of one array hold it
    at the two halves of the full share, every other input its array at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2 := by dsimp only [dat0]

/-- The share of each window's array. -/
theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]
theorem q0_3 (c : Dev nD) : (dat0 V c).q 3 = fullShare := by dsimp only [dat0]
theorem q0_4 (c : Dev nD) : (dat0 V c).q 4 = fullShare := by dsimp only [dat0]
theorem q0_5 (c : Dev nD) : (dat0 V c).q 5 = fullShare := by dsimp only [dat0]
theorem q0_6 (c : Dev nD) : (dat0 V c).q 6 = fullShare := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
/-- At a later point each accumulator's staging buffer holds what the body left at the point before: the point is not
    the first, the buffer was not written back between (the windows are flushed at the last point only), the
    window is live and uncut. -/
theorem before0_5_B (c : Dev nD) (t : Fin cfg0.N) (h0 : ¬t.val % 64 = 0) (d) :
    (dat0 V c).before 5 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dat0]
theorem before0_6_B (c : Dev nD) (t : Fin cfg0.N) (h0 : ¬t.val % 64 = 0) (d) :
    (dat0 V c).before 6 t d = (outsAt0 V c (t.val - 1) (Nat.lt_of_le_of_lt (Nat.sub_le _ _) t.isLt)).2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dat0]

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 1600000 in
/-- The body at any point: the inputs' memrefs hold their blocks; the closed form of the condition says which case
    the point is in; at a later point each accumulator holds what the point before left; so the case's run applies;
    the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  have hN : t.val < 64 := lt_of_lt_of_eq t.isLt (show cfg0.N = 64 from N_0)
  by_cases h0 : t.val % 64 = 0
  · rw [outsAt0_A V c t h0]
    unfold out0_A_5 out0_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk0 V c 0 t) (iblk0 V c 1 t) (iblk0 V c 2 t) (iblk0 V c 3 t) (iblk0 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ )
    unfold owns; iexists _; isplitr
    swap; · iexact H6
    ipureintro; exact View.read_writes_of_cover _ _ _ _ _ (cover0_A_6 c _ _ _ _ _ _ _ _ _ _ _ _ _ _ _ _ _ _ _ _ _ )
  · rw [outsAt0_B V c t h0]
    simp only [before0_5_B V c t h0, before0_6_B V c t h0]
    unfold out0_B_5 out0_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk0 V c 0 t) (iblk0 V c 1 t) (iblk0 V c 2 t) (iblk0 V c 3 t) (iblk0 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ )
    unfold owns; iexists _; isplitr
    swap; · iexact H6
    ipureintro; exact View.read_writes_of_cover _ _ _ _ _ (cover0_B_6 c _ _ _ _ _ _ _ _ _ _ _ _ _ _ _ _ _ _ _ _ _ _ _ )

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BK1Runs.lean ====
/- The second kernel region of the program, at arbitrary entry contents of the core's buffers: each window's block at a
   grid point as a read of its array; every input window's staging buffer holds that block at every point, whether or not
   it was fetched there; the body's one branch condition (both grid coordinates zero) holds exactly at the first point;
   the staging memrefs at a point. -/
import proofs.«168503_j21964462751805_2_alg».proof.Proof.Gen.Kernel.Launch
import proofs.«168503_j21964462751805_2_alg».proof.Proof.Gen.Kernel.Skeleton
import proofs.«168503_j21964462751805_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1 (custom_call 1), at the entry contents `V`: what its case runs share -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the
    block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the
    block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: unfetched, the
    block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: unfetched, the
    block index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: unfetched, the
    block index has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: unfetched, the
    block index has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: unfetched, the
    block index has not moved; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not: unfetched, the
    block index has not moved; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not: unfetched, the
    block index has not moved; the window is uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not: unfetched, the
    block index has not moved; the window is uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current staging buffer holds its block at every point, fetched there or not: unfetched, the
    block index has not moved; the window is uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's current staging buffer holds its block at every point, fetched there or not: unfetched, the
    block index has not moved; the window is uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Input window 13's current staging buffer holds its block at every point, fetched there or not: unfetched, the
    block index has not moved; the window is uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- Input window 14's current staging buffer holds its block at every point, fetched there or not: unfetched, the
    block index has not moved; the window is uncut and never idle. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: both coordinates are zero. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only, decided over the grid. -/
theorem hcond1_0 : ∀ t : Fin cfg1.N, cond1_0 (grid1.coords t) ↔ t.val % 64 = 0 :=
  (by decide +kernel : ∀ t : Fin grid1.N, cond1_0 (grid1.coords t) ↔ t.val % 64 = 0)

/-! ## The staging memrefs -/

/-- One staging buffer of output window 15, through which its contents are stated (the choice does not matter). -/
abbrev VO1_15 : View sig .tc .vmem S1x64x256 .f32 := (Memref.whole cc1_stg15_0 : Memref sig .tc .vmem S1x64x256 .f32).view
/-- One staging buffer of output window 16, through which its contents are stated (the choice does not matter). -/
abbrev VO1_16 : View sig .tc .vmem S1x64x16 .f32 := (Memref.whole cc1_stg16_0 : Memref sig .tc .vmem S1x64x16 .f32).view
/-- One staging buffer of output window 17, through which its contents are stated (the choice does not matter). -/
abbrev VO1_17 : View sig .tc .vmem S1x16 .f32 := (Memref.whole cc1_stg17_0 : Memref sig .tc .vmem S1x16 .f32).view
/-- One staging buffer of output window 18, through which its contents are stated (the choice does not matter). -/
abbrev VO1_18 : View sig .tc .vmem S1x16 .f32 := (Memref.whole cc1_stg18_0 : Memref sig .tc .vmem S1x16 .f32).view
/-- Each window's current staging memref at point `t`, spelled as the pipeline passes it, and its wholeness. -/
abbrev ms1_0 (t : Fin cfg1.N) : Memref sig .tc .vmem S1x64x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x32 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x32 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S32x32 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x32 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S2x32 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x2 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S16x128 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x16 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x64x256 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S1x64x16 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x16 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S1x16 .f32 := win1_18.stage (cfg1.slots t 18)
abbrev hs1_18 (t : Fin cfg1.N) : (ms1_18 t).IsWhole := hstage1_18 ((cfg1.slots t 18).cast nbuf1_18)

end Cert.Kernel.Hand

end
-- ==== Proof.BK1RunA.lean ====
/- The second kernel region's body at the first grid point (the branch that zeroes the two accumulated outputs is
   taken): run on whole staging memrefs holding the input blocks, it terminates without fault, leaves the inputs as
   they were, and leaves each of the four outputs with a list of written pieces, which the run determines. -/
import proofs.«168503_j21964462751805_2_alg».proof.Proof.BK1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
set_option maxHeartbeats 4000000 in
/-- What the body's stores leave in each output's staging memref, as pieces (last first), in the case where the
    conditional is taken (the first point), with the proof that on whole staging memrefs — the inputs' at
    their contents, the outputs' at anything — the body runs to the
    continuation holding the inputs' as they were and each output's buffer with its pieces written. -/
noncomputable def kernelRun1_A (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32)  :
    Σ' (L15 : List (View.Piece (Elt F) S1x64x256 .f32)) (L16 : List (View.Piece (Elt F) S1x64x16 .f32)) (L17 : List (View.Piece (Elt F) S1x16 .f32)),
    { L18 : List (View.Piece (Elt F) S1x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18)) -∗ K ⟨⟩))
          ⊢ wp frame (wpE (defs₀ (F := F)) Variants.none c none) E (cc1__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc1__main_body_eq_skeleton]; unfold cc1__main_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    iexists _; iexact H18

end Cert.Kernel.Hand

end
-- ==== Proof.BK1RunB.lean ====
/- The second kernel region's body at every later grid point (the zeroing branch is not taken): run on whole staging
   memrefs holding the input blocks and the running contents of the two accumulated outputs, it terminates without
   fault, leaves the inputs as they were, and leaves each of the four outputs with a list of written pieces. -/
import proofs.«168503_j21964462751805_2_alg».proof.Proof.BK1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
set_option maxHeartbeats 4000000 in
/-- What the body's stores leave in each output's staging memref, as pieces (last first), in the case where the
    conditional is not taken (every later point), with the proof that on whole staging memrefs — the inputs' at
    their contents, the two accumulated outputs' at their running contents, the other outputs' at anything — the body runs to the
    continuation holding the inputs' as they were and each output's buffer with its pieces written. -/
noncomputable def kernelRun1_B (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) :
    Σ' (L15 : List (View.Piece (Elt F) S1x64x256 .f32)) (L16 : List (View.Piece (Elt F) S1x64x16 .f32)) (L17 : List (View.Piece (Elt F) S1x16 .f32)),
    { L18 : List (View.Piece (Elt F) S1x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ owns (c : Thread nD τ) arg19 fullShare xo17 ∗ owns (c : Thread nD τ) arg20 fullShare xo18
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18)) -∗ K ⟨⟩))
          ⊢ wp frame (wpE (defs₀ (F := F)) Variants.none c none) E (cc1__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc1__main_body_eq_skeleton]; unfold cc1__main_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%f17, %hf17, H17⟩, ⟨%f18, %hf18, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg19.eq_unread hf17; obtain rfl := harg20.eq_unread hf18
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    iexists _; iexact H18

end Cert.Kernel.Hand

end
-- ==== Proof.BK1Dat.lean ====
/- The second kernel region: the pieces each case writes cover each output block; what the four outputs hold after
   each grid point, by recursion on the point (the two accumulated outputs start from what the point before left); the
   region's proof data at arbitrary entry contents; and the body obligation at every point: the inputs are found at
   their blocks, the accumulated outputs at their running contents, the case's run applies, the invariant is untouched. -/
import proofs.«168503_j21964462751805_2_alg».proof.Proof.BK1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1 (custom_call 1), at the entry contents `V`: what the outputs hold, the proof data, the body obligation -/

/-- Case A's pieces for output 15 tile its block, so they cover it. -/
theorem cover1_A_15 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (y : S1x64x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).1 S1x64x256.size (by sl_kernel_rfl) y

/-- What case A leaves in output 15's staging buffer: its pieces read back over junk. -/
def out1_A_15 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : Vec F S1x64x256 .f32 :=
  VO1_15.read (Elt F) (VO1_15.writes (Elt F) VO1_15.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).1)

/-- Case A's pieces for output 16 tile its block, so they cover it. -/
theorem cover1_A_16 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (y : S1x64x16.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.1 S1x64x16.size (by sl_kernel_rfl) y

/-- What case A leaves in output 16's staging buffer: its pieces read back over junk. -/
def out1_A_16 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : Vec F S1x64x16 .f32 :=
  VO1_16.read (Elt F) (VO1_16.writes (Elt F) VO1_16.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.1)

/-- Case A's pieces for output 17 tile its block, so they cover it. -/
theorem cover1_A_17 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (y : S1x16.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.1 S1x16.size (by sl_kernel_rfl) y

/-- What case A leaves in output 17's staging buffer: its pieces read back over junk. -/
def out1_A_17 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : Vec F S1x16 .f32 :=
  VO1_17.read (Elt F) (VO1_17.writes (Elt F) VO1_17.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.1)

/-- Case A's pieces for output 18 tile its block, so they cover it. -/
theorem cover1_A_18 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (y : S1x16.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.2.1 S1x16.size (by sl_kernel_rfl) y

/-- What case A leaves in output 18's staging buffer: its pieces read back over junk. -/
def out1_A_18 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : Vec F S1x16 .f32 :=
  VO1_18.read (Elt F) (VO1_18.writes (Elt F) VO1_18.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.2.1)

/-- Case B's pieces for output 15 tile its block, so they cover it. -/
theorem cover1_B_15 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) (y : S1x64x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).1 S1x64x256.size (by sl_kernel_rfl) y

/-- What case B leaves in output 15's staging buffer: its pieces read back over junk. -/
def out1_B_15 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) : Vec F S1x64x256 .f32 :=
  VO1_15.read (Elt F) (VO1_15.writes (Elt F) VO1_15.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).1)

/-- Case B's pieces for output 16 tile its block, so they cover it. -/
theorem cover1_B_16 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) (y : S1x64x16.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.1 S1x64x16.size (by sl_kernel_rfl) y

/-- What case B leaves in output 16's staging buffer: its pieces read back over junk. -/
def out1_B_16 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) : Vec F S1x64x16 .f32 :=
  VO1_16.read (Elt F) (VO1_16.writes (Elt F) VO1_16.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.1)

/-- Case B's pieces for output 17 tile its block, so they cover it. -/
theorem cover1_B_17 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) (y : S1x16.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.2.1 S1x16.size (by sl_kernel_rfl) y

/-- What case B leaves in output 17's staging buffer: its pieces read back over junk. -/
def out1_B_17 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) : Vec F S1x16 .f32 :=
  VO1_17.read (Elt F) (VO1_17.writes (Elt F) VO1_17.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.2.1)

/-- Case B's pieces for output 18 tile its block, so they cover it. -/
theorem cover1_B_18 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) (y : S1x16.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.2.2.1 S1x16.size (by sl_kernel_rfl) y

/-- What case B leaves in output 18's staging buffer: its pieces read back over junk. -/
def out1_B_18 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) : Vec F S1x16 .f32 :=
  VO1_18.read (Elt F) (VO1_18.writes (Elt F) VO1_18.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.2.2.1)

/-! ## What the outputs hold after each point -/

/-- THE ACCUMULATION. What the four outputs' staging buffers hold after the body at position `n`: the case the closed
    form selects at `n`, run at the point's memrefs and input blocks; the two accumulated outputs (17, 18), which a later
    point reads before covering, at what this leaves at `n - 1` (their buffers are not written back between). -/
def outsAt1 (c : Dev nD) : (n : ℕ) → n < cfg1.N → Vec F S1x64x256 .f32 × Vec F S1x64x16 .f32 × Vec F S1x16 .f32 × Vec F S1x16 .f32
  | 0, hn => (out1_A_15 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) (ms1_17 ⟨0, hn⟩) (hs1_17 ⟨0, hn⟩) (ms1_18 ⟨0, hn⟩) (hs1_18 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩),
      out1_A_16 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) (ms1_17 ⟨0, hn⟩) (hs1_17 ⟨0, hn⟩) (ms1_18 ⟨0, hn⟩) (hs1_18 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩),
      out1_A_17 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) (ms1_17 ⟨0, hn⟩) (hs1_17 ⟨0, hn⟩) (ms1_18 ⟨0, hn⟩) (hs1_18 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩),
      out1_A_18 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) (ms1_17 ⟨0, hn⟩) (hs1_17 ⟨0, hn⟩) (ms1_18 ⟨0, hn⟩) (hs1_18 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩))
  | n + 1, hn =>
    if h0 : (n + 1) % 64 = 0 then
      (out1_A_15 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩),
      out1_A_16 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩),
      out1_A_17 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩),
      out1_A_18 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩))
    else
      (out1_B_15 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (outsAt1 c n (Nat.lt_of_succ_lt hn)).2.2.1 (outsAt1 c n (Nat.lt_of_succ_lt hn)).2.2.2,
      out1_B_16 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (outsAt1 c n (Nat.lt_of_succ_lt hn)).2.2.1 (outsAt1 c n (Nat.lt_of_succ_lt hn)).2.2.2,
      out1_B_17 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (outsAt1 c n (Nat.lt_of_succ_lt hn)).2.2.1 (outsAt1 c n (Nat.lt_of_succ_lt hn)).2.2.2,
      out1_B_18 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 64 = 0) :
    outsAt1 V c t.val t.isLt = (out1_A_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t),
      out1_A_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t),
      out1_A_17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t),
      out1_A_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 64 = 0) :
    outsAt1 V c t.val t.isLt = (out1_B_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).2.2.1 (outsAt1 V c (t.val - 1) (Nat.lt_of_le_of_lt (Nat.sub_le _ _) t.isLt)).2.2.2,
      out1_B_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).2.2.1 (outsAt1 V c (t.val - 1) (Nat.lt_of_le_of_lt (Nat.sub_le _ _) t.isLt)).2.2.2,
      out1_B_17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).2.2.1 (outsAt1 V c (t.val - 1) (Nat.lt_of_le_of_lt (Nat.sub_le _ _) t.isLt)).2.2.2,
      out1_B_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at point `t`
    each input's buffer at its block and the outputs' at `outsAt1`; the invariant the scoped rest and the generator
    register; nothing owed; the array windows 0 and 1 share split in halves between them, every other at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => (outsAt1 V c t.val t.isLt).1
    | ⟨16, _⟩ => (outsAt1 V c t.val t.isLt).2.1
    | ⟨17, _⟩ => (outsAt1 V c t.val t.isLt).2.2.1
    | ⟨18, _⟩ => (outsAt1 V c t.val t.isLt).2.2.2
    | ⟨_ + 19, h⟩ => absurd h (Nat.not_lt.2 (Nat.le_add_left _ _))
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨_ + 19, h⟩ => absurd h (Nat.not_lt.2 (Nat.le_add_left _ _))
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = (outsAt1 V c t.val t.isLt).1 := by dsimp only [dat1]
theorem after1_16 (c : Dev nD) (t : Fin cfg1.N) : (dat1 V c).after 16 t = (outsAt1 V c t.val t.isLt).2.1 := by dsimp only [dat1]
theorem after1_17 (c : Dev nD) (t : Fin cfg1.N) : (dat1 V c).after 17 t = (outsAt1 V c t.val t.isLt).2.2.1 := by dsimp only [dat1]
theorem after1_18 (c : Dev nD) (t : Fin cfg1.N) : (dat1 V c).after 18 t = (outsAt1 V c t.val t.isLt).2.2.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
/-- At a point of case B output 17's current staging buffer holds what the body left at the point before: the point is
    not the first, the buffer was not written back between, the window is live and uncut. -/
theorem before1_17_B (c : Dev nD) (t : Fin cfg1.N) (h0 : ¬t.val % 64 = 0) (d) :
    (dat1 V c).before 17 t d = (outsAt1 V c (t.val - 1) (Nat.lt_of_le_of_lt (Nat.sub_le _ _) t.isLt)).2.2.1 := by
  have hN : t.val < 64 := lt_of_lt_of_eq t.isLt (show cfg1.N = 64 from N_1)
  rw [Dat.before_out_kept _ 17 rfl t (by omega) (Bool.eq_false_iff.mpr fun h => by have := (flush1_17 _).mp h; dsimp only at this; omega)
    (fun _ => rfl) (fun _ _ => rfl)]
  dsimp only [dat1]
/-- At a point of case B output 18's current staging buffer holds what the body left at the point before: the point is
    not the first, the buffer was not written back between, the window is live and uncut. -/
theorem before1_18_B (c : Dev nD) (t : Fin cfg1.N) (h0 : ¬t.val % 64 = 0) (d) :
    (dat1 V c).before 18 t d = (outsAt1 V c (t.val - 1) (Nat.lt_of_le_of_lt (Nat.sub_le _ _) t.isLt)).2.2.2 := by
  have hN : t.val < 64 := lt_of_lt_of_eq t.isLt (show cfg1.N = 64 from N_1)
  rw [Dat.before_out_kept _ 18 rfl t (by omega) (Bool.eq_false_iff.mpr fun h => by have := (flush1_18 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t))

set_option maxHeartbeats 4000000 in
/-- The body at any point: the inputs' memrefs hold their blocks; the closed form says which case the point is in; an
    accumulated output at a later point holds what the point before left; so the case's run applies; the invariant passes
    through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18]
  have hN : t.val < 64 := lt_of_lt_of_eq t.isLt (show cfg1.N = 64 from N_1)
  by_cases h0 : t.val % 64 = 0
  ·
    rw [outsAt1_A V c t h0]
    unfold out1_A_15 out1_A_16 out1_A_17 out1_A_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun1_A c (grid1.coords t) _ _ _ _ _ _ _ _ _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    iintro ⟨H0, H1, H2, H3, H4, H5, H6, H7, H8, H9, H10, H11, H12, H13, H14, ⟨%e15, H15⟩, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover1_A_15 c _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover1_A_16 c _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover1_A_17 c _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover1_A_18 c _ _ _ _ _ _ _ _ _ _ _ _ _ _ _ _ _ _ _ _ _ _ _ _ _ _ _ _ _ _ _ _ _ _ _ _ _ _ _ _ _ _ _ _ _ _ _ _ _ _ _ _ _ _ _)
  ·
    rw [outsAt1_B V c t h0]
    simp only [before1_17_B V c t h0, before1_18_B V c t h0]
    unfold out1_B_15 out1_B_16 out1_B_17 out1_B_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun1_B c (grid1.coords t) _ _ _ _ _ _ _ _ _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexact H17
    isplitl [H18]; · iexact H18
    iintro ⟨H0, H1, H2, H3, H4, H5, H6, H7, H8, H9, H10, H11, H12, H13, H14, ⟨%e15, H15⟩, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover1_B_15 c _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover1_B_16 c _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover1_B_17 c _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover1_B_18 c _ _ _ _ _ _ _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BK2Dat.lean ====
/- The third pallas_call's half of the frame argument, at any contents `V` of the core's buffers when it is entered.
   Each window's block at a grid point is read off its array; the kernel body loads its seven input buffers whole and
   stores one whole output buffer, so the output buffer after the body is a function `out2_7` of the seven input blocks
   (one covering store). From the body's triple on whole staging buffers follow the pipeline's proof data `dat2`
   (arrays as found, inputs left in place, the output at `out2_7` of the point's input blocks, nothing owed, full
   shares) and the body obligation at every grid point. -/
import proofs.«168503_j21964462751805_2_alg».proof.Proof.Gen.Kernel.Launch
import proofs.«168503_j21964462751805_2_alg».proof.Proof.Gen.Kernel.Skeleton
import proofs.«168503_j21964462751805_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third pallas_call's half (pipeline 2), at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole buffer -/

abbrev rA : Rect S1x256x16 := Rect.unit (s := S1x256x16) ![0, 0, 0] S1x256x16.size inb_S1x256x16_S1x256x16_0_0_0
abbrev rB : Rect S1x16 := Rect.unit (s := S1x16) ![0, 0] S1x16.size inb_S1x16_S1x16_0_0
abbrev rC : Rect S64x16 := Rect.unit (s := S64x16) ![0, 0] S64x16.size inb_S64x16_S64x16_0_0
abbrev rD : Rect S1x64 := Rect.unit (s := S1x64) ![0, 0] S1x64.size inb_S1x64_S1x64_0_0
abbrev rE : Rect S1x256x64 := Rect.unit (s := S1x256x64) ![0, 0, 0] S1x256x64.size inb_S1x256x64_S1x256x64_0_0_0

/-- The output window's staging buffer after the body, from the input windows' blocks: one whole store. -/
def out2_7 (x0 : Vec F S1x256x16 .f32) (x1 : Vec F S1x16 .f32) (x2 : Vec F S1x16 .f32) (x3 : Vec F S1x16 .f32) (x4 : Vec F S1x16 .f32) (x5 : Vec F S64x16 .f32) (x6 : Vec F S1x64 .f32) : Vec F S1x256x64 .f32 :=
  View.canon [⟨rE, k2_pay1 (k2_pay2 (View.ld x0 rA) (View.ld x1 rB) (View.ld x2 rB) (View.ld x3 rB) (View.ld x4 rB) (View.ld x5 rC) (View.ld x6 rD))⟩]

/-- The store covers the buffer. -/
theorem cover2_7 (p0 : Vec F S1x256x64 .f32) (y : S1x256x64.Idx) :
    ∃ pc ∈ ([⟨rE, p0⟩] : List (View.Piece (Elt F) S1x256x64 .f32)), y ∈ pc.1.set :=
  View.cover_of_tiled [⟨rE, p0⟩] S1x256x64.size (by rfl) y

set_option maxHeartbeats 1000000 in
/-- The kernel body on whole staging memrefs, the inputs' at read contents and the output's at anything, runs to
    the continuation holding the inputs' as they were and the output's at `out2_7` of the inputs'. -/
theorem sound_kernel2 (c : Dev nD) (E : Set ℕ) (i : grid2.Coords) (arg0 : Memref sig .tc .vmem S1x256x16 .f32) (harg0 : arg0.IsWhole) (arg1 : Memref sig .tc .vmem S1x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S1x256x64 .f32) (harg7 : arg7.IsWhole)
    (x0 : Vec F S1x256x16 .f32) (x1 : Vec F S1x16 .f32) (x2 : Vec F S1x16 .f32) (x3 : Vec F S1x16 .f32) (x4 : Vec F S1x16 .f32) (x5 : Vec F S64x16 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__finalize_body i arg0 harg0 arg1 harg1 arg2 harg2 arg3 harg3 arg4 harg4 arg5 harg5 arg6 harg6 arg7 harg7) K := by
  simp only [cc2__finalize_body_eq_skeleton]; unfold cc2__finalize_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- The proof data of pipeline 2 on core `c`: the arrays as the region finds them; after the body at point `t`
    each input's buffer at its block and the output's at `out2_7` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BKRunVals.lean ====
/- The contents of a core's buffers at each boundary between the items of @main, as a fold from the launch memory:
   a host stretch maps the contents by the stretch's semantics; a pallas_call changes only its output windows' arrays,
   which end at what the pipeline's write-backs leave. Each boundary's contents agree with the previous off the buffers
   the item writes; hence every argument array reads at the end what it read at launch, and the two results read at the
   end what the last pallas_calls' write-backs left (the first through the final reshape). -/
import proofs.«168503_j21964462751805_2_alg».proof.Proof.Gen.Kernel.Regions
import proofs.«168503_j21964462751805_2_alg».proof.Proof.BK0Dat
import proofs.«168503_j21964462751805_2_alg».proof.Proof.BK1Dat
import proofs.«168503_j21964462751805_2_alg».proof.Proof.BK2Dat
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffer contents at each boundary of @main: a fold from the launch memory

A host stretch maps the contents by `StableHlo.after`; a pallas_call leaves every buffer as entered but its output
windows' arrays, which end at what the pipeline's write-backs leave (`Dat.arrAt … N`). -/

/-- At launch. -/
abbrev X0 (c : Dev nD) : Valuation τ sig (Elt F) := Gen.V0 m c
/-- After the first host stretch: the first pallas_call's entry. -/
abbrev X1 (c : Dev nD) : Valuation τ sig (Elt F) := Gen.V1 m c
/-- The same read at the TensorCore's references. -/
abbrev E1 : (c : Dev nD) → (b : Ref sig .tc) → Buf (Elt F) ((c : Thread nD τ).loc b) := fun c b => X1 m c b
/-- At the first pallas_call's exit. -/
def X2 (c : Dev nD) : Valuation τ sig (Elt F) :=
  Function.update (Function.update (X1 m c) (Proc.devRef .tc main_v11_0) ((dat0 (E1 m) c).arrAt 5 cfg0.N : Buf (Elt F) ((c : Thread nD τ).loc main_v11_0))) (Proc.devRef .tc main_v11_1) ((dat0 (E1 m) c).arrAt 6 cfg0.N : Buf (Elt F) ((c : Thread nD τ).loc main_v11_1))
/-- After the second host stretch: the second pallas_call's entry. -/
def X3 (c : Dev nD) : Valuation τ sig (Elt F) := StableHlo.after hostOps1 (X2 m c)
abbrev E3 : (c : Dev nD) → (b : Ref sig .tc) → Buf (Elt F) ((c : Thread nD τ).loc b) := fun c b => X3 m c b
/-- At the second pallas_call's exit. -/
def X4 (c : Dev nD) : Valuation τ sig (Elt F) :=
  Function.update (Function.update (Function.update (Function.update (X3 m c) (Proc.devRef .tc main_v20_0) ((dat1 (E3 m) c).arrAt 15 cfg1.N : Buf (Elt F) ((c : Thread nD τ).loc main_v20_0))) (Proc.devRef .tc main_v20_1) ((dat1 (E3 m) c).arrAt 16 cfg1.N : Buf (Elt F) ((c : Thread nD τ).loc main_v20_1))) (Proc.devRef .tc main_v20_2) ((dat1 (E3 m) c).arrAt 17 cfg1.N : Buf (Elt F) ((c : Thread nD τ).loc main_v20_2))) (Proc.devRef .tc main_v20_3) ((dat1 (E3 m) c).arrAt 18 cfg1.N : Buf (Elt F) ((c : Thread nD τ).loc main_v20_3))
/-- After the third host stretch: the third pallas_call's entry. -/
def X5 (c : Dev nD) : Valuation τ sig (Elt F) := StableHlo.after hostOps2 (X4 m c)
abbrev E5 : (c : Dev nD) → (b : Ref sig .tc) → Buf (Elt F) ((c : Thread nD τ).loc b) := fun c b => X5 m c b
/-- At the third pallas_call's exit. -/
def X6 (c : Dev nD) : Valuation τ sig (Elt F) :=
  Function.update (X5 m c) (Proc.devRef .tc main_v29) ((dat2 (E5 m) c).arrAt 7 cfg2.N : Buf (Elt F) ((c : Thread nD τ).loc main_v29))
/-- After the last host stretch: at the return. -/
def X7 (c : Dev nD) : Valuation τ sig (Elt F) := StableHlo.after hostOps3 (X6 m c)
abbrev E2 : (c : Dev nD) → (b : Ref sig .tc) → Buf (Elt F) ((c : Thread nD τ).loc b) := fun c b => X2 m c b
abbrev E4 : (c : Dev nD) → (b : Ref sig .tc) → Buf (Elt F) ((c : Thread nD τ).loc b) := fun c b => X4 m c b
abbrev E6 : (c : Dev nD) → (b : Ref sig .tc) → Buf (Elt F) ((c : Thread nD τ).loc b) := fun c b => X6 m c b

/-! ## What each item leaves unchanged -/

theorem X1_of (c : Dev nD) (r : Ref sig .tc) (h : r ∉ Gen.hostOps0_W) : X1 m c r = X0 m c r := Gen.V1_of m c r h
theorem X2_of (c : Dev nD) (r : Ref sig .tc) (h : r ∉ ([main_v11_0, main_v11_1] : List (Ref sig .tc))) : X2 m c r = X1 m c r := by
  simp only [X2, Function.update_of_ne (StableHlo.devRef_ne_of_ne (List.ne_of_not_mem_cons h) : (Proc.devRef .tc r : DevRef τ sig) ≠ Proc.devRef .tc main_v11_0), Function.update_of_ne (StableHlo.devRef_ne_of_ne (List.ne_of_not_mem_cons (List.not_mem_of_not_mem_cons h)) : (Proc.devRef .tc r : DevRef τ sig) ≠ Proc.devRef .tc main_v11_1)]
theorem X3_of (c : Dev nD) (r : Ref sig .tc) (h : r ∉ Gen.hostOps1_W) : X3 m c r = X2 m c r :=
  StableHlo.after_of_writes_sub hostOps1 _ Gen.hostOps1_writes h
theorem X4_of (c : Dev nD) (r : Ref sig .tc) (h : r ∉ ([main_v20_0, main_v20_1, main_v20_2, main_v20_3] : List (Ref sig .tc))) : X4 m c r = X3 m c r := by
  simp only [X4, Function.update_of_ne (StableHlo.devRef_ne_of_ne (List.ne_of_not_mem_cons h) : (Proc.devRef .tc r : DevRef τ sig) ≠ Proc.devRef .tc main_v20_0), Function.update_of_ne (StableHlo.devRef_ne_of_ne (List.ne_of_not_mem_cons (List.not_mem_of_not_mem_cons h)) : (Proc.devRef .tc r : DevRef τ sig) ≠ Proc.devRef .tc main_v20_1), Function.update_of_ne (StableHlo.devRef_ne_of_ne (List.ne_of_not_mem_cons (List.not_mem_of_not_mem_cons (List.not_mem_of_not_mem_cons h))) : (Proc.devRef .tc r : DevRef τ sig) ≠ Proc.devRef .tc main_v20_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v20_3)]
theorem X5_of (c : Dev nD) (r : Ref sig .tc) (h : r ∉ Gen.hostOps2_W) : X5 m c r = X4 m c r :=
  StableHlo.after_of_writes_sub hostOps2 _ Gen.hostOps2_writes h
theorem X6_of (c : Dev nD) (r : Ref sig .tc) (h : r ∉ ([main_v29] : List (Ref sig .tc))) : X6 m c r = X5 m c r := by
  simp only [X6, Function.update_of_ne (StableHlo.devRef_ne_of_ne (List.ne_of_not_mem_cons h) : (Proc.devRef .tc r : DevRef τ sig) ≠ Proc.devRef .tc main_v29)]
theorem X7_of (c : Dev nD) (r : Ref sig .tc) (h : r ∉ Gen.hostOps3_W) : X7 m c r = X6 m c r :=
  StableHlo.after_of_writes_sub hostOps3 _ Gen.hostOps3_writes h

/-! ## What each pallas_call leaves in its outputs -/

theorem X2_main_v11_0 (c : Dev nD) : X2 m c (Proc.devRef .tc main_v11_0) = (dat0 (E1 m) c).arrAt 5 cfg0.N := by
  simp only [X2, Function.update_of_ne (StableHlo.devRef_ne_of_ne (by decide) : (Proc.devRef .tc main_v11_0 : DevRef τ sig) ≠ Proc.devRef .tc main_v11_1), Function.update_self]
theorem X2_main_v11_1 (c : Dev nD) : X2 m c (Proc.devRef .tc main_v11_1) = (dat0 (E1 m) c).arrAt 6 cfg0.N := by
  simp only [X2, Function.update_self]
theorem X4_main_v20_0 (c : Dev nD) : X4 m c (Proc.devRef .tc main_v20_0) = (dat1 (E3 m) c).arrAt 15 cfg1.N := by
  simp only [X4, Function.update_of_ne (StableHlo.devRef_ne_of_ne (by decide) : (Proc.devRef .tc main_v20_0 : DevRef τ sig) ≠ Proc.devRef .tc main_v20_3), Function.update_of_ne (StableHlo.devRef_ne_of_ne (by decide) : (Proc.devRef .tc main_v20_0 : DevRef τ sig) ≠ Proc.devRef .tc main_v20_2), Function.update_of_ne (StableHlo.devRef_ne_of_ne (by decide) : (Proc.devRef .tc main_v20_0 : DevRef τ sig) ≠ Proc.devRef .tc main_v20_1), Function.update_self]
theorem X4_main_v20_1 (c : Dev nD) : X4 m c (Proc.devRef .tc main_v20_1) = (dat1 (E3 m) c).arrAt 16 cfg1.N := by
  simp only [X4, Function.update_of_ne (StableHlo.devRef_ne_of_ne (by decide) : (Proc.devRef .tc main_v20_1 : DevRef τ sig) ≠ Proc.devRef .tc main_v20_3), Function.update_of_ne (StableHlo.devRef_ne_of_ne (by decide) : (Proc.devRef .tc main_v20_1 : DevRef τ sig) ≠ Proc.devRef .tc main_v20_2), Function.update_self]
theorem X4_main_v20_2 (c : Dev nD) : X4 m c (Proc.devRef .tc main_v20_2) = (dat1 (E3 m) c).arrAt 17 cfg1.N := by
  simp only [X4, Function.update_of_ne (StableHlo.devRef_ne_of_ne (by decide) : (Proc.devRef .tc main_v20_2 : DevRef τ sig) ≠ Proc.devRef .tc main_v20_3), Function.update_self]
theorem X4_main_v20_3 (c : Dev nD) : X4 m c (Proc.devRef .tc main_v20_3) = (dat1 (E3 m) c).arrAt 18 cfg1.N := by
  simp only [X4, Function.update_self]
theorem X6_main_v29 (c : Dev nD) : X6 m c (Proc.devRef .tc main_v29) = (dat2 (E5 m) c).arrAt 7 cfg2.N := by
  simp only [X6, Function.update_self]

/-! ## No item writes an argument -/

theorem X7_main_arg0 (c : Dev nD) : X7 m c main_arg0 = m ((c : Thread nD τ).loc main_arg0) :=
  (X7_of m c main_arg0 (by decide)).trans <| (X6_of m c main_arg0 (by decide)).trans <| (X5_of m c main_arg0 (by decide)).trans <| (X4_of m c main_arg0 (by decide)).trans <| (X3_of m c main_arg0 (by decide)).trans <| (X2_of m c main_arg0 (by decide)).trans <| (X1_of m c main_arg0 (by decide)).trans rfl
theorem X7_main_arg1 (c : Dev nD) : X7 m c main_arg1 = m ((c : Thread nD τ).loc main_arg1) :=
  (X7_of m c main_arg1 (by decide)).trans <| (X6_of m c main_arg1 (by decide)).trans <| (X5_of m c main_arg1 (by decide)).trans <| (X4_of m c main_arg1 (by decide)).trans <| (X3_of m c main_arg1 (by decide)).trans <| (X2_of m c main_arg1 (by decide)).trans <| (X1_of m c main_arg1 (by decide)).trans rfl
theorem X7_main_arg2 (c : Dev nD) : X7 m c main_arg2 = m ((c : Thread nD τ).loc main_arg2) :=
  (X7_of m c main_arg2 (by decide)).trans <| (X6_of m c main_arg2 (by decide)).trans <| (X5_of m c main_arg2 (by decide)).trans <| (X4_of m c main_arg2 (by decide)).trans <| (X3_of m c main_arg2 (by decide)).trans <| (X2_of m c main_arg2 (by decide)).trans <| (X1_of m c main_arg2 (by decide)).trans rfl
theorem X7_main_arg3 (c : Dev nD) : X7 m c main_arg3 = m ((c : Thread nD τ).loc main_arg3) :=
  (X7_of m c main_arg3 (by decide)).trans <| (X6_of m c main_arg3 (by decide)).trans <| (X5_of m c main_arg3 (by decide)).trans <| (X4_of m c main_arg3 (by decide)).trans <| (X3_of m c main_arg3 (by decide)).trans <| (X2_of m c main_arg3 (by decide)).trans <| (X1_of m c main_arg3 (by decide)).trans rfl
theorem X7_main_arg4 (c : Dev nD) : X7 m c main_arg4 = m ((c : Thread nD τ).loc main_arg4) :=
  (X7_of m c main_arg4 (by decide)).trans <| (X6_of m c main_arg4 (by decide)).trans <| (X5_of m c main_arg4 (by decide)).trans <| (X4_of m c main_arg4 (by decide)).trans <| (X3_of m c main_arg4 (by decide)).trans <| (X2_of m c main_arg4 (by decide)).trans <| (X1_of m c main_arg4 (by decide)).trans rfl
theorem X7_main_arg5 (c : Dev nD) : X7 m c main_arg5 = m ((c : Thread nD τ).loc main_arg5) :=
  (X7_of m c main_arg5 (by decide)).trans <| (X6_of m c main_arg5 (by decide)).trans <| (X5_of m c main_arg5 (by decide)).trans <| (X4_of m c main_arg5 (by decide)).trans <| (X3_of m c main_arg5 (by decide)).trans <| (X2_of m c main_arg5 (by decide)).trans <| (X1_of m c main_arg5 (by decide)).trans rfl
theorem X7_main_arg6 (c : Dev nD) : X7 m c main_arg6 = m ((c : Thread nD τ).loc main_arg6) :=
  (X7_of m c main_arg6 (by decide)).trans <| (X6_of m c main_arg6 (by decide)).trans <| (X5_of m c main_arg6 (by decide)).trans <| (X4_of m c main_arg6 (by decide)).trans <| (X3_of m c main_arg6 (by decide)).trans <| (X2_of m c main_arg6 (by decide)).trans <| (X1_of m c main_arg6 (by decide)).trans rfl
theorem X7_main_arg7 (c : Dev nD) : X7 m c main_arg7 = m ((c : Thread nD τ).loc main_arg7) :=
  (X7_of m c main_arg7 (by decide)).trans <| (X6_of m c main_arg7 (by decide)).trans <| (X5_of m c main_arg7 (by decide)).trans <| (X4_of m c main_arg7 (by decide)).trans <| (X3_of m c main_arg7 (by decide)).trans <| (X2_of m c main_arg7 (by decide)).trans <| (X1_of m c main_arg7 (by decide)).trans rfl
theorem X7_main_arg8 (c : Dev nD) : X7 m c main_arg8 = m ((c : Thread nD τ).loc main_arg8) :=
  (X7_of m c main_arg8 (by decide)).trans <| (X6_of m c main_arg8 (by decide)).trans <| (X5_of m c main_arg8 (by decide)).trans <| (X4_of m c main_arg8 (by decide)).trans <| (X3_of m c main_arg8 (by decide)).trans <| (X2_of m c main_arg8 (by decide)).trans <| (X1_of m c main_arg8 (by decide)).trans rfl
theorem X7_main_arg9 (c : Dev nD) : X7 m c main_arg9 = m ((c : Thread nD τ).loc main_arg9) :=
  (X7_of m c main_arg9 (by decide)).trans <| (X6_of m c main_arg9 (by decide)).trans <| (X5_of m c main_arg9 (by decide)).trans <| (X4_of m c main_arg9 (by decide)).trans <| (X3_of m c main_arg9 (by decide)).trans <| (X2_of m c main_arg9 (by decide)).trans <| (X1_of m c main_arg9 (by decide)).trans rfl
theorem X7_main_arg10 (c : Dev nD) : X7 m c main_arg10 = m ((c : Thread nD τ).loc main_arg10) :=
  (X7_of m c main_arg10 (by decide)).trans <| (X6_of m c main_arg10 (by decide)).trans <| (X5_of m c main_arg10 (by decide)).trans <| (X4_of m c main_arg10 (by decide)).trans <| (X3_of m c main_arg10 (by decide)).trans <| (X2_of m c main_arg10 (by decide)).trans <| (X1_of m c main_arg10 (by decide)).trans rfl
theorem X7_main_arg11 (c : Dev nD) : X7 m c main_arg11 = m ((c : Thread nD τ).loc main_arg11) :=
  (X7_of m c main_arg11 (by decide)).trans <| (X6_of m c main_arg11 (by decide)).trans <| (X5_of m c main_arg11 (by decide)).trans <| (X4_of m c main_arg11 (by decide)).trans <| (X3_of m c main_arg11 (by decide)).trans <| (X2_of m c main_arg11 (by decide)).trans <| (X1_of m c main_arg11 (by decide)).trans rfl
theorem X7_main_arg12 (c : Dev nD) : X7 m c main_arg12 = m ((c : Thread nD τ).loc main_arg12) :=
  (X7_of m c main_arg12 (by decide)).trans <| (X6_of m c main_arg12 (by decide)).trans <| (X5_of m c main_arg12 (by decide)).trans <| (X4_of m c main_arg12 (by decide)).trans <| (X3_of m c main_arg12 (by decide)).trans <| (X2_of m c main_arg12 (by decide)).trans <| (X1_of m c main_arg12 (by decide)).trans rfl
theorem X7_main_arg13 (c : Dev nD) : X7 m c main_arg13 = m ((c : Thread nD τ).loc main_arg13) :=
  (X7_of m c main_arg13 (by decide)).trans <| (X6_of m c main_arg13 (by decide)).trans <| (X5_of m c main_arg13 (by decide)).trans <| (X4_of m c main_arg13 (by decide)).trans <| (X3_of m c main_arg13 (by decide)).trans <| (X2_of m c main_arg13 (by decide)).trans <| (X1_of m c main_arg13 (by decide)).trans rfl
theorem X7_main_arg14 (c : Dev nD) : X7 m c main_arg14 = m ((c : Thread nD τ).loc main_arg14) :=
  (X7_of m c main_arg14 (by decide)).trans <| (X6_of m c main_arg14 (by decide)).trans <| (X5_of m c main_arg14 (by decide)).trans <| (X4_of m c main_arg14 (by decide)).trans <| (X3_of m c main_arg14 (by decide)).trans <| (X2_of m c main_arg14 (by decide)).trans <| (X1_of m c main_arg14 (by decide)).trans rfl

/-! ## The two results read back -/

/-- The second result is the third pallas_call's output array as its write-backs leave it. -/
theorem X7_main_v29 (c : Dev nD) : X7 m c main_v29 = (dat2 (E5 m) c).arrAt 7 cfg2.N :=
  (X7_of m c main_v29 (by decide)).trans (X6_main_v29 m c)

/-- The second pallas_call's first output array reaches the last host stretch as its write-backs leave it. -/
theorem X6_main_v20_0 (c : Dev nD) : X6 m c main_v20_0 = (dat1 (E3 m) c).arrAt 15 cfg1.N :=
  (X6_of m c main_v20_0 (by decide)).trans <| (X5_of m c main_v20_0 (by decide)).trans (X4_main_v20_0 m c)

/-- The first result is the last host stretch's image of it. -/
theorem X7_main_v30 (c : Dev nD) : X7 m c main_v30 = StableHlo.after hostOps3 (X6 m c) main_v30 := rfl

end Cert.Kernel.Hand

end
-- ==== Proof.BKShare.lean ====
/- A pipeline two of whose input windows are blocks of ONE array cannot hold that array twice at the full share. The
   array's full share is the composition of its left and right halves, so the buffers behind the pipeline's arrays, each
   whole at the full share, are exactly the windowed arrays with the two windows on the shared array at the two halves
   and every other window at the full share — in both directions. With the split of a core's unscoped buffers into
   "buffers behind the arrays" and "the rest" this gives the entry and exit entailments of the first pallas_call
   (seven windows), for any proof data with those shares. -/
import proofs.«168503_j21964462751805_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 0: windows 0 and 1 are blocks of one array, each held at half of its full share -/

/-- The windowed arrays of pipeline 0, each whole at its share at the valuation's contents. -/
theorem arrays_eq_shares0 {c : Dev nD} (dat : Dat τ (Elt F) Unit ℕ (UR sig nD τ) ℕ cfg0 c)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (dat.arrays Fa : sProp 𝕄) = bigSep Finset.univ fun w : Fin 7 => (((c : Thread nD τ).loc (Pipeline.arrRef spec0 w)) ↦{dat.share w} V (Pipeline.arrRef spec0 w) : sProp 𝕄) := by
  unfold Dat.arrays
  exact bigSep_congr fun w _ => by rw [(arr_whole0 w).set_eq_univ, hF]

/-- The distinct buffers behind the arrays, listed. -/
theorem arrBufs_eq0 (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v11_0) ↦{fullShare} V main_v11_0) ∗ (((c : Thread nD τ).loc main_v11_1) ↦{fullShare} V main_v11_1)) := by
  unfold Pipeline.arrBufs
  exact bigSep_eq_bigSepL_of_eq [main_arg0, main_v0, main_v1, main_v2, main_v11_0, main_v11_1] (by decide) (by decide) _

/-- ENTRY: the buffers behind the arrays, whole at the full share, are the windowed arrays at their shares — the
    shared array's full share dealt in two halves to the two windows on it. -/
theorem arrays_of_arrBufs0 {c : Dev nD} (dat : Dat τ (Elt F) Unit ℕ (UR sig nD τ) ℕ cfg0 c)
    (hs0 : dat.share 0 = fullShare.left) (hs1 : dat.share 1 = fullShare.right)
    (hs : ∀ w : Fin 7, w ≠ 0 → w ≠ 1 → dat.share w = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (Pipeline.arrBufs spec0 c V : sProp 𝕄) ⊢ dat.arrays Fa := by
  rw [arrays_eq_shares0 dat V Fa hF, arrBufs_eq0, bigSep_W0, hs0, hs1, hs 2 (by decide) (by decide), hs 3 (by decide) (by decide), hs 4 (by decide) (by decide), hs 5 (by decide) (by decide), hs 6 (by decide) (by decide)]
  iintro ⟨H1, H2, H3, H4, H5, H6⟩
  ihave H01 := (pointsTo_share (PosShare.mem_left_op_right fullShare)).1 $$ H1
  icases H01 with ⟨H0, H1⟩
  isplitl [H0]; · iexact H0
  isplitl [H1]; · iexact H1
  isplitl [H2]; · iexact H2
  isplitl [H3]; · iexact H3
  isplitl [H4]; · iexact H4
  isplitl [H5]; · iexact H5
  iexact H6

/-- EXIT: and back, the two halves joined. -/
theorem arrBufs_of_arrays0 {c : Dev nD} (dat : Dat τ (Elt F) Unit ℕ (UR sig nD τ) ℕ cfg0 c)
    (hs0 : dat.share 0 = fullShare.left) (hs1 : dat.share 1 = fullShare.right)
    (hs : ∀ w : Fin 7, w ≠ 0 → w ≠ 1 → dat.share w = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    dat.arrays Fa ⊢ (Pipeline.arrBufs spec0 c V : sProp 𝕄) := by
  rw [arrays_eq_shares0 dat V Fa hF, arrBufs_eq0, bigSep_W0, hs0, hs1, hs 2 (by decide) (by decide), hs 3 (by decide) (by decide), hs 4 (by decide) (by decide), hs 5 (by decide) (by decide), hs 6 (by decide) (by decide)]
  iintro ⟨H0, H1, H2, H3, H4, H5, H6⟩
  isplitl [H0 H1]
  · iapply (pointsTo_share (PosShare.mem_left_op_right fullShare)).2
    isplitl [H0]; · iexact H0
    iexact H1
  isplitl [H2]; · iexact H2
  isplitl [H3]; · iexact H3
  isplitl [H4]; · iexact H4
  isplitl [H5]; · iexact H5
  iexact H6

/-- A core's unscoped buffers at `V` are pipeline 0's arrays at their shares, at the entry contents, and the
    unscoped rest. -/
theorem arrays_of_unscopedBufs0 {c : Dev nD} (dat : Dat τ (Elt F) Unit ℕ (UR sig nD τ) ℕ cfg0 c)
    (hs0 : dat.share 0 = fullShare.left) (hs1 : dat.share 1 = fullShare.right)
    (hs : ∀ w : Fin 7, w ≠ 0 → w ≠ 1 → dat.share w = fullShare)
    (V : (b : Ref sig .tc) → Buf (Elt F) ((c : Thread nD τ).loc b))
    (hA : ∀ w, dat.A w = V (Pipeline.arrRef spec0 w)) :
    (unscopedBufs c V : sProp 𝕄) ⊢ iprop(dat.arrays (dat.arrAt · 0) ∗ Pipeline.unscopedRest spec0 c V) := by
  rw [Pipeline.unscopedBufs_split₀ cfgs 0 winFacts₀0.arr_unscoped c V]
  exact sep_mono (arrays_of_arrBufs0 dat hs0 hs1 hs V _ fun w => by rw [show dat.arrAt w 0 = dat.A w from rfl, hA]) .rfl

/-- Pipeline 0's arrays at contents `Fa` and the unscoped rest at `V` are the core's unscoped buffers at any
    valuation `V'` that has the arrays at `Fa` and agrees with `V` off them. -/
theorem unscopedBufs_of_arrays0 {c : Dev nD} (dat : Dat τ (Elt F) Unit ℕ (UR sig nD τ) ℕ cfg0 c)
    (hs0 : dat.share 0 = fullShare.left) (hs1 : dat.share 1 = fullShare.right)
    (hs : ∀ w : Fin 7, w ≠ 0 → w ≠ 1 → dat.share w = fullShare)
    (V V' : (b : Ref sig .tc) → Buf (Elt F) ((c : Thread nD τ).loc b))
    (Fa : (w : Fin cfg0.W) → Buf (Elt F) ((cfg0.win w).arr.view.loc (c : Thread nD τ)))
    (hF : ∀ w, Fa w = V' (Pipeline.arrRef spec0 w))
    (hrest : ∀ b, b ∉ Finset.univ.image (Pipeline.arrRef spec0) → V' b = V b) :
    iprop(dat.arrays Fa ∗ Pipeline.unscopedRest spec0 c V) ⊢ (unscopedBufs c V' : sProp 𝕄) := by
  rw [Pipeline.unscopedBufs_split₀ cfgs 0 winFacts₀0.arr_unscoped c V']
  refine sep_mono (arrBufs_of_arrays0 dat hs0 hs1 hs V' Fa hF) (Entails.of_eq ?_)
  unfold Pipeline.unscopedRest
  exact bigSep_congr fun b hb => by rw [hrest b (Finset.mem_sdiff.mp hb).2]

end Cert.Kernel.Hand

end
-- ==== Proof.BKShare1.lean ====
/- The same as for the first pallas_call, for the second (nineteen windows, the first two blocks of one array): the
   buffers behind the arrays at the full share are the windowed arrays with the shared array dealt in two halves, in
   both directions, and hence the entry and exit entailments against a core's unscoped buffers. -/
import proofs.«168503_j21964462751805_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 1: windows 0 and 1 are blocks of one array, each held at half of its full share -/

/-- The windowed arrays of pipeline 1, each whole at its share at the valuation's contents. -/
theorem arrays_eq_shares1 {c : Dev nD} (dat : Dat τ (Elt F) Unit ℕ (UR sig nD τ) ℕ cfg1 c)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (dat.arrays Fa : sProp 𝕄) = bigSep Finset.univ fun w : Fin 19 => (((c : Thread nD τ).loc (Pipeline.arrRef spec1 w)) ↦{dat.share w} V (Pipeline.arrRef spec1 w) : sProp 𝕄) := by
  unfold Dat.arrays
  exact bigSep_congr fun w _ => by rw [(arr_whole1 w).set_eq_univ, hF]

/-- The distinct buffers behind the arrays, listed. -/
theorem arrBufs_eq1 (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v13) ↦{fullShare} V main_v13) ∗ (((c : Thread nD τ).loc main_v19) ↦{fullShare} V main_v19) ∗ (((c : Thread nD τ).loc main_v3) ↦{fullShare} V main_v3) ∗ (((c : Thread nD τ).loc main_v4) ↦{fullShare} V main_v4) ∗ (((c : Thread nD τ).loc main_arg5) ↦{fullShare} V main_arg5) ∗ (((c : Thread nD τ).loc main_v5) ↦{fullShare} V main_v5) ∗ (((c : Thread nD τ).loc main_arg7) ↦{fullShare} V main_arg7) ∗ (((c : Thread nD τ).loc main_v6) ↦{fullShare} V main_v6) ∗ (((c : Thread nD τ).loc main_arg9) ↦{fullShare} V main_arg9) ∗ (((c : Thread nD τ).loc main_v7) ↦{fullShare} V main_v7) ∗ (((c : Thread nD τ).loc main_v20_0) ↦{fullShare} V main_v20_0) ∗ (((c : Thread nD τ).loc main_v20_1) ↦{fullShare} V main_v20_1) ∗ (((c : Thread nD τ).loc main_v20_2) ↦{fullShare} V main_v20_2) ∗ (((c : Thread nD τ).loc main_v20_3) ↦{fullShare} V main_v20_3)) := by
  unfold Pipeline.arrBufs
  exact bigSep_eq_bigSepL_of_eq [main_arg0, main_v0, main_v1, main_v2, main_v13, main_v19, main_v3, main_v4, main_arg5, main_v5, main_arg7, main_v6, main_arg9, main_v7, main_v20_0, main_v20_1, main_v20_2, main_v20_3] (by decide) (by decide) _

/-- ENTRY: the buffers behind the arrays, whole at the full share, are the windowed arrays at their shares — the
    shared array's full share dealt in two halves to the two windows on it. -/
theorem arrays_of_arrBufs1 {c : Dev nD} (dat : Dat τ (Elt F) Unit ℕ (UR sig nD τ) ℕ cfg1 c)
    (hs0 : dat.share 0 = fullShare.left) (hs1 : dat.share 1 = fullShare.right)
    (hs : ∀ w : Fin 19, w ≠ 0 → w ≠ 1 → dat.share w = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (Pipeline.arrBufs spec1 c V : sProp 𝕄) ⊢ dat.arrays Fa := by
  rw [arrays_eq_shares1 dat V Fa hF, arrBufs_eq1, bigSep_W1, hs0, hs1, hs 2 (by decide) (by decide), hs 3 (by decide) (by decide), hs 4 (by decide) (by decide), hs 5 (by decide) (by decide), hs 6 (by decide) (by decide), hs 7 (by decide) (by decide), hs 8 (by decide) (by decide), hs 9 (by decide) (by decide), hs 10 (by decide) (by decide), hs 11 (by decide) (by decide), hs 12 (by decide) (by decide), hs 13 (by decide) (by decide), hs 14 (by decide) (by decide), hs 15 (by decide) (by decide), hs 16 (by decide) (by decide), hs 17 (by decide) (by decide), hs 18 (by decide) (by decide)]
  iintro ⟨H1, H2, H3, H4, H5, H6, H7, H8, H9, H10, H11, H12, H13, H14, H15, H16, H17, H18⟩
  ihave H01 := (pointsTo_share (PosShare.mem_left_op_right fullShare)).1 $$ H1
  icases H01 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- EXIT: and back, the two halves joined. -/
theorem arrBufs_of_arrays1 {c : Dev nD} (dat : Dat τ (Elt F) Unit ℕ (UR sig nD τ) ℕ cfg1 c)
    (hs0 : dat.share 0 = fullShare.left) (hs1 : dat.share 1 = fullShare.right)
    (hs : ∀ w : Fin 19, w ≠ 0 → w ≠ 1 → dat.share w = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    dat.arrays Fa ⊢ (Pipeline.arrBufs spec1 c V : sProp 𝕄) := by
  rw [arrays_eq_shares1 dat V Fa hF, arrBufs_eq1, bigSep_W1, hs0, hs1, hs 2 (by decide) (by decide), hs 3 (by decide) (by decide), hs 4 (by decide) (by decide), hs 5 (by decide) (by decide), hs 6 (by decide) (by decide), hs 7 (by decide) (by decide), hs 8 (by decide) (by decide), hs 9 (by decide) (by decide), hs 10 (by decide) (by decide), hs 11 (by decide) (by decide), hs 12 (by decide) (by decide), hs 13 (by decide) (by decide), hs 14 (by decide) (by decide), hs 15 (by decide) (by decide), hs 16 (by decide) (by decide), hs 17 (by decide) (by decide), hs 18 (by decide) (by decide)]
  iintro ⟨H0, H1, H2, H3, H4, H5, H6, H7, H8, H9, H10, H11, H12, H13, H14, H15, H16, H17, H18⟩
  isplitl [H0 H1]
  · iapply (pointsTo_share (PosShare.mem_left_op_right fullShare)).2
    isplitl [H0]; · iexact H0
    iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- A core's unscoped buffers at `V` are pipeline 1's arrays at their shares, at the entry contents, and the
    unscoped rest. -/
theorem arrays_of_unscopedBufs1 {c : Dev nD} (dat : Dat τ (Elt F) Unit ℕ (UR sig nD τ) ℕ cfg1 c)
    (hs0 : dat.share 0 = fullShare.left) (hs1 : dat.share 1 = fullShare.right)
    (hs : ∀ w : Fin 19, w ≠ 0 → w ≠ 1 → dat.share w = fullShare)
    (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  rw [Pipeline.unscopedBufs_split₀ cfgs 1 winFacts₀1.arr_unscoped c V]
  exact sep_mono (arrays_of_arrBufs1 dat hs0 hs1 hs V _ fun w => by rw [show dat.arrAt w 0 = dat.A w from rfl, hA]) .rfl

/-- Pipeline 1's arrays at contents `Fa` and the unscoped rest at `V` are the core's unscoped buffers at any
    valuation `V'` that has the arrays at `Fa` and agrees with `V` off them. -/
theorem unscopedBufs_of_arrays1 {c : Dev nD} (dat : Dat τ (Elt F) Unit ℕ (UR sig nD τ) ℕ cfg1 c)
    (hs0 : dat.share 0 = fullShare.left) (hs1 : dat.share 1 = fullShare.right)
    (hs : ∀ w : Fin 19, w ≠ 0 → w ≠ 1 → dat.share w = fullShare)
    (V V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V b) :
    iprop(dat.arrays Fa ∗ Pipeline.unscopedRest spec1 c V) ⊢ (unscopedBufs c V' : sProp 𝕄) := by
  rw [Pipeline.unscopedBufs_split₀ cfgs 1 winFacts₀1.arr_unscoped c V']
  refine sep_mono (arrBufs_of_arrays1 dat hs0 hs1 hs V' Fa hF) (Entails.of_eq ?_)
  unfold Pipeline.unscopedRest
  exact bigSep_congr fun b hb => by rw [hrest b (Finset.mem_sdiff.mp hb).2]

end Cert.Kernel.Hand

end
-- ==== Proof.BKRunSegs.lean ====
/- The three pallas_calls as segments over the thread state "every unscoped buffer held whole at the boundary's contents,
   the generator register at some state, nothing owed". Each pipeline's proof data sit at its entry contents. At entry
   the pipeline's arrays are split out of the unscoped buffers (the array two windows share dealt in two halves) and at
   exit put back at the next boundary's contents: an input array is never written, an output array holds its
   write-backs folded, every other buffer is untouched. -/
import proofs.«168503_j21964462751805_2_alg».proof.Proof.BKRunVals
import proofs.«168503_j21964462751805_2_alg».proof.Proof.BKShare
import proofs.«168503_j21964462751805_2_alg».proof.Proof.BKShare1
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The proof data family and the thread state -/

/-- Every pipeline's proof data, each at its pallas_call's entry contents — a literal `match`. -/
def pdats : (p : Fin 3) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The shares pipeline 0's proof data hold the arrays at: the shared array's two halves, the others whole. -/
theorem share0_0 (V : (c : Dev nD) → (b : Ref sig .tc) → Buf (Elt F) ((c : Thread nD τ).loc b)) (c : Dev nD) : (dat0 V c).share 0 = fullShare.left := by
  unfold Dat.share; rw [if_neg (by decide)]; dsimp only [dat0]
theorem share0_1 (V : (c : Dev nD) → (b : Ref sig .tc) → Buf (Elt F) ((c : Thread nD τ).loc b)) (c : Dev nD) : (dat0 V c).share 1 = fullShare.right := by
  unfold Dat.share; rw [if_neg (by decide)]; dsimp only [dat0]
theorem share0_rest (V : (c : Dev nD) → (b : Ref sig .tc) → Buf (Elt F) ((c : Thread nD τ).loc b)) (c : Dev nD) : ∀ w : Fin 7, w ≠ 0 → w ≠ 1 → (dat0 V c).share w = fullShare
  | ⟨0, _⟩, h, _ => absurd rfl h
  | ⟨1, _⟩, _, h => absurd rfl h
  | ⟨2, _⟩, _, _ => by unfold Dat.share; split <;> first | rfl | dsimp only [dat0]
  | ⟨3, _⟩, _, _ => by unfold Dat.share; split <;> first | rfl | dsimp only [dat0]
  | ⟨4, _⟩, _, _ => by unfold Dat.share; split <;> first | rfl | dsimp only [dat0]
  | ⟨5, _⟩, _, _ => by unfold Dat.share; split <;> first | rfl | dsimp only [dat0]
  | ⟨6, _⟩, _, _ => by unfold Dat.share; split <;> first | rfl | dsimp only [dat0]

/-- The shares pipeline 1's proof data hold the arrays at: the shared array's two halves, the others whole. -/
theorem share1_0 (V : (c : Dev nD) → (b : Ref sig .tc) → Buf (Elt F) ((c : Thread nD τ).loc b)) (c : Dev nD) : (dat1 V c).share 0 = fullShare.left := by
  unfold Dat.share; rw [if_neg (by decide)]; dsimp only [dat1]
theorem share1_1 (V : (c : Dev nD) → (b : Ref sig .tc) → Buf (Elt F) ((c : Thread nD τ).loc b)) (c : Dev nD) : (dat1 V c).share 1 = fullShare.right := by
  unfold Dat.share; rw [if_neg (by decide)]; dsimp only [dat1]
theorem share1_rest (V : (c : Dev nD) → (b : Ref sig .tc) → Buf (Elt F) ((c : Thread nD τ).loc b)) (c : Dev nD) : ∀ w : Fin 19, w ≠ 0 → w ≠ 1 → (dat1 V c).share w = fullShare
  | ⟨0, _⟩, h, _ => absurd rfl h
  | ⟨1, _⟩, _, h => absurd rfl h
  | ⟨2, _⟩, _, _ => by unfold Dat.share; split <;> first | rfl | dsimp only [dat1]
  | ⟨3, _⟩, _, _ => by unfold Dat.share; split <;> first | rfl | dsimp only [dat1]
  | ⟨4, _⟩, _, _ => by unfold Dat.share; split <;> first | rfl | dsimp only [dat1]
  | ⟨5, _⟩, _, _ => by unfold Dat.share; split <;> first | rfl | dsimp only [dat1]
  | ⟨6, _⟩, _, _ => by unfold Dat.share; split <;> first | rfl | dsimp only [dat1]
  | ⟨7, _⟩, _, _ => by unfold Dat.share; split <;> first | rfl | dsimp only [dat1]
  | ⟨8, _⟩, _, _ => by unfold Dat.share; split <;> first | rfl | dsimp only [dat1]
  | ⟨9, _⟩, _, _ => by unfold Dat.share; split <;> first | rfl | dsimp only [dat1]
  | ⟨10, _⟩, _, _ => by unfold Dat.share; split <;> first | rfl | dsimp only [dat1]
  | ⟨11, _⟩, _, _ => by unfold Dat.share; split <;> first | rfl | dsimp only [dat1]
  | ⟨12, _⟩, _, _ => by unfold Dat.share; split <;> first | rfl | dsimp only [dat1]
  | ⟨13, _⟩, _, _ => by unfold Dat.share; split <;> first | rfl | dsimp only [dat1]
  | ⟨14, _⟩, _, _ => by unfold Dat.share; split <;> first | rfl | dsimp only [dat1]
  | ⟨15, _⟩, _, _ => by unfold Dat.share; split <;> first | rfl | dsimp only [dat1]
  | ⟨16, _⟩, _, _ => by unfold Dat.share; split <;> first | rfl | dsimp only [dat1]
  | ⟨17, _⟩, _, _ => by unfold Dat.share; split <;> first | rfl | dsimp only [dat1]
  | ⟨18, _⟩, _, _ => by unfold Dat.share; split <;> first | rfl | dsimp only [dat1]
  | ⟨_ + 19, h⟩, _, _ => absurd h (Nat.not_lt.2 (Nat.le_add_left _ _))

/-- An input window's array ends as entered: never written, and no output's array. -/
theorem hF0_in (c : Dev nD) (w : Fin cfg0.W) (hin : (cfg0.win w).isOut = false)
    (hne : Pipeline.arrRef spec0 w ∉ ([main_v11_0, main_v11_1] : List (Ref sig .tc))) :
    (dat0 (E1 m) c).arrAt w cfg0.N = E2 m c (Pipeline.arrRef spec0 w) := by
  rw [(dat0 (E1 m) c).arrAt_in w hin, A_eq0]
  exact (X2_of m c _ hne).symm
/-- No input window's array is an output's. -/
theorem in_ne_out0 : ∀ w : Fin 7, (cfg0.win w).isOut = false → Pipeline.arrRef spec0 w ∉ ([main_v11_0, main_v11_1] : List (Ref sig .tc)) := by decide
/-- The output windows. -/
theorem outs_are0 : ∀ w : Fin 7, ¬ (cfg0.win w).isOut = false → w = 5 ∨ w = 6 := by decide
/-- At pipeline 0's exit each of its arrays holds what the pipeline leaves: an input's as entered, an output's its
    write-backs folded. -/
theorem hF0 (c : Dev nD) (w : Fin cfg0.W) : (dat0 (E1 m) c).arrAt w cfg0.N = E2 m c (Pipeline.arrRef spec0 w) := by
  by_cases hout : (cfg0.win w).isOut = false
  · exact hF0_in m c w hout (in_ne_out0 w hout)
  · rcases outs_are0 w hout with rfl | rfl
    · show (dat0 (E1 m) c).arrAt 5 cfg0.N = X2 m c (Proc.devRef .tc main_v11_0)
      exact (X2_main_v11_0 m c).symm
    · show (dat0 (E1 m) c).arrAt 6 cfg0.N = X2 m c (Proc.devRef .tc main_v11_1)
      exact (X2_main_v11_1 m c).symm
/-- Every other buffer holds what it held at entry. -/
theorem hrest0 (c : Dev nD) : ∀ b, b ∉ Finset.univ.image (Pipeline.arrRef spec0) → E2 m c b = E1 m c b := fun b hb =>
  X2_of m c b fun h => by
    simp only [List.mem_cons, List.mem_singleton, List.not_mem_nil, or_false] at h
    rcases h with rfl | rfl
    · exact hb (Finset.mem_image.mpr ⟨5, Finset.mem_univ _, rfl⟩)
    · exact hb (Finset.mem_image.mpr ⟨6, Finset.mem_univ _, rfl⟩)

/-- An input window's array ends as entered: never written, and no output's array. -/
theorem hF1_in (c : Dev nD) (w : Fin cfg1.W) (hin : (cfg1.win w).isOut = false)
    (hne : Pipeline.arrRef spec1 w ∉ ([main_v20_0, main_v20_1, main_v20_2, main_v20_3] : List (Ref sig .tc))) :
    (dat1 (E3 m) c).arrAt w cfg1.N = E4 m c (Pipeline.arrRef spec1 w) := by
  rw [(dat1 (E3 m) c).arrAt_in w hin, A_eq1]
  exact (X4_of m c _ hne).symm
/-- No input window's array is an output's. -/
theorem in_ne_out1 : ∀ w : Fin 19, (cfg1.win w).isOut = false → Pipeline.arrRef spec1 w ∉ ([main_v20_0, main_v20_1, main_v20_2, main_v20_3] : List (Ref sig .tc)) := by decide
/-- The output windows. -/
theorem outs_are1 : ∀ w : Fin 19, ¬ (cfg1.win w).isOut = false → w = 15 ∨ w = 16 ∨ w = 17 ∨ w = 18 := by decide
/-- At pipeline 1's exit each of its arrays holds what the pipeline leaves: an input's as entered, an output's its
    write-backs folded. -/
theorem hF1 (c : Dev nD) (w : Fin cfg1.W) : (dat1 (E3 m) c).arrAt w cfg1.N = E4 m c (Pipeline.arrRef spec1 w) := by
  by_cases hout : (cfg1.win w).isOut = false
  · exact hF1_in m c w hout (in_ne_out1 w hout)
  · rcases outs_are1 w hout with rfl | rfl | rfl | rfl
    · show (dat1 (E3 m) c).arrAt 15 cfg1.N = X4 m c (Proc.devRef .tc main_v20_0)
      exact (X4_main_v20_0 m c).symm
    · show (dat1 (E3 m) c).arrAt 16 cfg1.N = X4 m c (Proc.devRef .tc main_v20_1)
      exact (X4_main_v20_1 m c).symm
    · show (dat1 (E3 m) c).arrAt 17 cfg1.N = X4 m c (Proc.devRef .tc main_v20_2)
      exact (X4_main_v20_2 m c).symm
    · show (dat1 (E3 m) c).arrAt 18 cfg1.N = X4 m c (Proc.devRef .tc main_v20_3)
      exact (X4_main_v20_3 m c).symm
/-- Every other buffer holds what it held at entry. -/
theorem hrest1 (c : Dev nD) : ∀ b, b ∉ Finset.univ.image (Pipeline.arrRef spec1) → E4 m c b = E3 m c b := fun b hb =>
  X4_of m c b fun h => by
    simp only [List.mem_cons, List.mem_singleton, List.not_mem_nil, or_false] at h
    rcases h with rfl | rfl | rfl | rfl
    · exact hb (Finset.mem_image.mpr ⟨15, Finset.mem_univ _, rfl⟩)
    · exact hb (Finset.mem_image.mpr ⟨16, Finset.mem_univ _, rfl⟩)
    · exact hb (Finset.mem_image.mpr ⟨17, Finset.mem_univ _, rfl⟩)
    · exact hb (Finset.mem_image.mpr ⟨18, Finset.mem_univ _, rfl⟩)

/-- An input window's array ends as entered: never written, and no output's array. -/
theorem hF2_in (c : Dev nD) (w : Fin cfg2.W) (hin : (cfg2.win w).isOut = false)
    (hne : Pipeline.arrRef spec2 w ∉ ([main_v29] : List (Ref sig .tc))) :
    (dat2 (E5 m) c).arrAt w cfg2.N = E6 m c (Pipeline.arrRef spec2 w) := by
  rw [(dat2 (E5 m) c).arrAt_in w hin, A_eq2]
  exact (X6_of m c _ hne).symm
/-- No input window's array is an output's. -/
theorem in_ne_out2 : ∀ w : Fin 8, (cfg2.win w).isOut = false → Pipeline.arrRef spec2 w ∉ ([main_v29] : List (Ref sig .tc)) := by decide
/-- The output windows. -/
theorem outs_are2 : ∀ w : Fin 8, ¬ (cfg2.win w).isOut = false → w = 7 := by decide
/-- At pipeline 2's exit each of its arrays holds what the pipeline leaves: an input's as entered, an output's its
    write-backs folded. -/
theorem hF2 (c : Dev nD) (w : Fin cfg2.W) : (dat2 (E5 m) c).arrAt w cfg2.N = E6 m c (Pipeline.arrRef spec2 w) := by
  by_cases hout : (cfg2.win w).isOut = false
  · exact hF2_in m c w hout (in_ne_out2 w hout)
  · rcases outs_are2 w hout with rfl
    · show (dat2 (E5 m) c).arrAt 7 cfg2.N = X6 m c (Proc.devRef .tc main_v29)
      exact (X6_main_v29 m c).symm
/-- Every other buffer holds what it held at entry. -/
theorem hrest2 (c : Dev nD) : ∀ b, b ∉ Finset.univ.image (Pipeline.arrRef spec2) → E6 m c b = E5 m c b := fun b hb =>
  X6_of m c b fun h => by
    simp only [List.mem_cons, List.mem_singleton, List.not_mem_nil, or_false] at h
    rcases h with rfl
    · exact hb (Finset.mem_image.mpr ⟨7, Finset.mem_univ _, rfl⟩)

set_option backward.isDefEq.respectTransparency.types false in
/-- The pallas_call of pipeline 0 over the thread state: entered from every unscoped buffer at `X1`, left at `X2`.
    Its arrays split out of the unscoped buffers — the array two windows read dealt to them in two halves — and put back at
    the exit contents; the generator register into the class invariant and out; nothing owed; no semaphore of the kernel's own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := arrays_of_unscopedBufs0 (dat0 (E1 m) c) (share0_0 _ c) (share0_1 _ c) (share0_rest _ c) (E1 m c) (A_eq0 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (dat0 (E1 m) c) (share0_0 _ c) (share0_1 _ c) (share0_rest _ c)
      (E1 m c) (E2 m c) ((dat0 (E1 m) c).arrAt · cfg0.N) (hF0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The pallas_call of pipeline 1 over the thread state: entered from every unscoped buffer at `X3`, left at `X4`.
    Its arrays split out of the unscoped buffers — the array two windows read dealt to them in two halves — and put back at
    the exit contents; the generator register into the class invariant and out; nothing owed; no semaphore of the kernel's own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := arrays_of_unscopedBufs1 (dat1 (E3 m) c) (share1_0 _ c) (share1_1 _ c) (share1_rest _ c) (E3 m c) (A_eq1 (E3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (dat1 (E3 m) c) (share1_0 _ c) (share1_1 _ c) (share1_rest _ c)
      (E3 m c) (E4 m c) ((dat1 (E3 m) c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The pallas_call of pipeline 2 over the thread state: entered from every unscoped buffer at `X5`, left at `X6`. Its
    arrays, distinct buffers, split out of the unscoped buffers and put back at the exit contents. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BKRun.lean ====
/- @main is the run of seven segments — four host stretches and three pallas_calls — whose thread states chain from the
   launch to the return. Hence from any memory with zero counters every weakly fair execution terminates, and every
   final state holds the two results at the last boundary's contents and each of the fifteen argument arrays as
   launched; the frame claim is the latter part alone. -/
import proofs.«168503_j21964462751805_2_alg».proof.Proof.BKRunSegs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The first result is the last host stretch's reshape of the second pallas_call's first output array as its write-backs
    leave it. -/
theorem X7_main_v30_eq (c : Dev nD) : X7 m c main_v30
    = fun i => (rfl : main_v20_0.ty.elt = main_v30.ty.elt) ▸ shapeCast main_v30.ty.shape ((dat1 (E3 m) c).arrAt 15 cfg1.N) shapeCasts_S16x256x256_S16x65536 i := by
  unfold X7
  rw [show (hostOps3 : List (HloOp τ sig (Elt F))) = [StableHlo.reshape main_v20_0 main_v30 rfl shapeCasts_S16x256x256_S16x65536] from rfl,
    StableHlo.after_cons, StableHlo.after_nil, StableHlo.reshape_result', X6_main_v20_0]

/-! # @main as segments, and the launch -/

/-- @main's 7 segments in order: a host segment per stretch from its boundary's contents, a region per pallas_call. -/
abbrev segs : List (Pipeline.Seg (pcfgs (F := F)) Gen.adm (pdats m) () defs₀ 𝒱₀ L lv) :=
  [ .host (hseg hostOps0 hostOps0_sub Gen.hostOps0_fresh (X0 m)),
    .region (reg0 m),
    .host (hseg hostOps1 hostOps1_sub Gen.hostOps1_fresh (X2 m)),
    .region (reg1 m),
    .host (hseg hostOps2 hostOps2_sub Gen.hostOps2_fresh (X4 m)),
    .region (reg2 m),
    .host (hseg hostOps3 hostOps3_sub Gen.hostOps3_fresh (X6 m)) ]

/-- @main is the run of the segments. -/
theorem main_run (c : Dev nD) : main (F := F) c = Pipeline.Seg.run (segs m) := (main_chain c).trans (by chain_rfl)

set_option backward.isDefEq.respectTransparency.types false in
/-- From any memory with zero counters, every weakly fair execution of @main on the TensorCores terminates, nothing
    faulting, and every final state holds the two results at the last boundary's contents and the argument arrays as
    launched: the launch over the segments, the last thread state read against the final state, each argument walked
    back through the fold. -/
theorem run_values : θ_run defs (onTc (τ := τ) (main (F := F))) ⟨m, fun _ => 0, ρ⟩ (fun r => ∀ c : Dev nD,
      r.2.mem ((c.tc : Thread nD τ).loc main_v30) = X7 m c (Proc.devRef .tc main_v30)
      ∧ r.2.mem ((c.tc : Thread nD τ).loc main_v29) = X7 m c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c))
    (Tₙ := fun c => StableHlo.held (c : Thread nD τ) (Pipeline.ucRefs τ sig) (X7 m c))
    (hch := ⟨fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X7 m c b)
    (hfin := fun c s' => by
      iintro ⟨Hh, HSI⟩
      unfold StableHlo.held
      imodintro
      iapply (pointsTo_read_all (Pipeline.ucRefs τ sig) (fun b => (((c : Thread nD τ)).1, b)) (X7 m c) s')
      isplitl [Hh] <;> iassumption)
    (hQ := fun s h c =>
      ⟨h c _ (mem_uc main_v30 (by decide)), h c _ (mem_uc main_v29 (by decide)),
       (h c _ (mem_uc main_arg0 (by decide))).trans (X7_main_arg0 m c),
       (h c _ (mem_uc main_arg1 (by decide))).trans (X7_main_arg1 m c),
       (h c _ (mem_uc main_arg2 (by decide))).trans (X7_main_arg2 m c),
       (h c _ (mem_uc main_arg3 (by decide))).trans (X7_main_arg3 m c),
       (h c _ (mem_uc main_arg4 (by decide))).trans (X7_main_arg4 m c),
       (h c _ (mem_uc main_arg5 (by decide))).trans (X7_main_arg5 m c),
       (h c _ (mem_uc main_arg6 (by decide))).trans (X7_main_arg6 m c),
       (h c _ (mem_uc main_arg7 (by decide))).trans (X7_main_arg7 m c),
       (h c _ (mem_uc main_arg8 (by decide))).trans (X7_main_arg8 m c),
       (h c _ (mem_uc main_arg9 (by decide))).trans (X7_main_arg9 m c),
       (h c _ (mem_uc main_arg10 (by decide))).trans (X7_main_arg10 m c),
       (h c _ (mem_uc main_arg11 (by decide))).trans (X7_main_arg11 m c),
       (h c _ (mem_uc main_arg12 (by decide))).trans (X7_main_arg12 m c),
       (h c _ (mem_uc main_arg13 (by decide))).trans (X7_main_arg13 m c),
       (h c _ (mem_uc main_arg14 (by decide))).trans (X7_main_arg14 m c)⟩)

/-- The frame claim at any `F`: every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs (onTc (τ := τ) (main (F := F))) ⟨m, fun _ => 0, ρ⟩).mono (fun r h c => (h c).2.2) (run_values m ρ)

/-- info: 'Cert.Kernel.Hand.run_values' depends on axioms: [propext, Classical.choice, Quot.sound] -/
#guard_msgs in #print axioms run_values

end Cert.Kernel.Hand

end
-- ==== Proof.K0Runs.lean ====
/-
  The first pipelined region (the per-channel statistics of the first layer), at any contents of the buffers when
  the region is entered: what its two control cases share.  Each window's block at a grid point, read off its array;
  the fact that an input window's staging buffer holds that block at every point, whether or not it is fetched there
  (where it is not, the block index has not moved); the closed form of the body's one condition (it holds at the
  first of the 64 grid points only); and the staging memrefs the body is called with at a point.
-/
import proofs.«168503_j21964462751805_2_alg».proof.Proof.Gen.KernelIdeal.Launch
import proofs.«168503_j21964462751805_2_alg».proof.Proof.Gen.KernelIdeal.Skeleton
import proofs.«168503_j21964462751805_2_alg».proof.Proof.Gen.KernelIdeal.Points
import Idealize.ShloMosaic.Lib.Pipeline.FrameBody
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 (custom_call 0, the statistics kernel), at the entry contents `V`: what its two runs share -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: where the window is not fetched its block
    index has not moved, so the block the buffer still holds is the point's. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional (both grid coordinates zero), from the grid coordinates. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the grid. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs the body is called with -/

/-- One staging buffer of each output window, through which its contents are stated (the choice does not matter:
    a covering list of writes reads the same through any view of the shape). -/
abbrev VO0_5 : View sig .tc .vmem S1x32 .f32 := (Memref.whole cc0_stg5_0 : Memref sig .tc .vmem S1x32 .f32).view
abbrev VO0_6 : View sig .tc .vmem S1x32 .f32 := (Memref.whole cc0_stg6_0 : Memref sig .tc .vmem S1x32 .f32).view
/-- Each window's current staging memref at point `t`, spelled as the pipeline passes it, and its wholeness. -/
abbrev ms0_0 (t : Fin cfg0.N) : Memref sig .tc .vmem S1x64x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32 .f32 := win0_6.stage (cfg0.slots t 6)
abbrev hs0_6 (t : Fin cfg0.N) : (ms0_6 t).IsWhole := hstage0_6 ((cfg0.slots t 6).cast nbuf0_6)

end Cert.KernelIdeal.Hand

end
-- ==== Proof.K0RunA.lean ====
/-
  The first pipelined region at its FIRST grid point.  There the body zeroes the two [1, 32] accumulators before it
  reads them back, so what it leaves in them does not depend on what they held: from the five input blocks at their
  contents and the accumulators at anything, the body runs to the inputs as they were and each accumulator with a
  list of covering stores written, the list being found by the run itself.
-/
import proofs.«168503_j21964462751805_2_alg».proof.Proof.K0Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the two output staging memrefs, as pieces (last first), AT THE FIRST GRID POINT
    (the conditional taken: both accumulators are zeroed before they are read back), with the proof that on whole
    staging memrefs — the inputs' at their contents, the outputs' at anything — the body runs to the continuation
    holding the inputs' as they were and each output's buffer with its pieces written. The pieces are the witness
    the run finds. -/
noncomputable def kernelRun0_A (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) :
    Σ' (L5 : List (View.Piece (Elt F) S1x32 .f32)), { L6 : List (View.Piece (Elt F) S1x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__stats_body i arg2 harg2 arg3 harg3 arg4 harg4 arg5 harg5 arg6 harg6 arg7 harg7 arg8 harg8) K } := by
  refine ⟨?_, ?_, fun E K => ?run⟩
  case run =>
    simp only [cc0__stats_body_eq_skeleton]; unfold cc0__stats_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.KernelIdeal.Hand

end
-- ==== Proof.K0RunB.lean ====
/-
  The first pipelined region at a LATER grid point.  There the body reads the two [1, 32] accumulators back at their
  running contents and adds the point's contribution: from the five input blocks and the two accumulators at their
  contents, the body runs to the inputs as they were and each accumulator with a list of covering stores written,
  the list being found by the run itself.
-/
import proofs.«168503_j21964462751805_2_alg».proof.Proof.K0RunA

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the two output staging memrefs, as pieces (last first), AT A LATER GRID POINT
    (the conditional not taken: both accumulators are read back at their running contents `xo5`, `xo6` and added
    to), with the proof that on whole staging memrefs — the inputs' at their contents, the outputs' at their running
    contents — the body runs to the continuation holding the inputs' as they were and each output's buffer with its
    pieces written. The pieces are the witness the run finds. -/
noncomputable def kernelRun0_B (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 : Vec F S1x32 .f32) (xo6 : Vec F S1x32 .f32) :
    Σ' (L5 : List (View.Piece (Elt F) S1x32 .f32)), { L6 : List (View.Piece (Elt F) S1x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__stats_body i arg2 harg2 arg3 harg3 arg4 harg4 arg5 harg5 arg6 harg6 arg7 harg7 arg8 harg8) K } := by
  refine ⟨?_, ?_, fun E K => ?run⟩
  case run =>
    simp only [cc0__stats_body_eq_skeleton]; unfold cc0__stats_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.KernelIdeal.Hand

end
-- ==== Proof.K0Dat.lean ====
/-
  The first pipelined region, at any contents of the buffers when the region is entered: its proof data and its body
  obligation.  The two accumulators after each grid point are defined by recursion on the point — the zeroing case at
  the first point, the adding case over what the point before left at every later one (the accumulators are written
  back after the last point only) — with one equation per case; the proof data name every input's buffer at its block
  and the two accumulators at that recursion; the two windows that are blocks of one array hold it at the two halves
  of the full share; and at every point the body, called on the current staging buffers, re-establishes the data.
-/
import proofs.«168503_j21964462751805_2_alg».proof.Proof.K0RunB

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 (custom_call 0, the statistics kernel), at the entry contents `V`: its proof data and body obligation -/

/-! ## What each case leaves in the two accumulators -/

/-- At the first point the pieces for output window 5 tile its block (checked by evaluating the rectangles), so they cover it. -/
theorem cover0_A_5 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) (y : S1x32.Idx) :
    ∃ pc ∈ (kernelRun0_A c i arg2 harg2 arg3 harg3 arg4 harg4 arg5 harg5 arg6 harg6 arg7 harg7 arg8 harg8 hc0 x0 x1 x2 x3 x4).1, y ∈ pc.1.set :=
  View.cover_of_tiledL (kernelRun0_A c i arg2 harg2 arg3 harg3 arg4 harg4 arg5 harg5 arg6 harg6 arg7 harg7 arg8 harg8 hc0 x0 x1 x2 x3 x4).1 S1x32.size (by sl_kernel_rfl) y

/-- What the body at the first point leaves in output window 5's staging buffer: its pieces read back over junk. -/
def out0_A_5 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) : Vec F S1x32 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3 x4).1)

/-- At the first point the pieces for output window 6 tile its block (checked by evaluating the rectangles), so they cover it. -/
theorem cover0_A_6 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) (y : S1x32.Idx) :
    ∃ pc ∈ (kernelRun0_A c i arg2 harg2 arg3 harg3 arg4 harg4 arg5 harg5 arg6 harg6 arg7 harg7 arg8 harg8 hc0 x0 x1 x2 x3 x4).2.1, y ∈ pc.1.set :=
  View.cover_of_tiledL (kernelRun0_A c i arg2 harg2 arg3 harg3 arg4 harg4 arg5 harg5 arg6 harg6 arg7 harg7 arg8 harg8 hc0 x0 x1 x2 x3 x4).2.1 S1x32.size (by sl_kernel_rfl) y

/-- What the body at the first point leaves in output window 6's staging buffer: its pieces read back over junk. -/
def out0_A_6 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) : Vec F S1x32 .f32 :=
  VO0_6.read (Elt F) (VO0_6.writes (Elt F) VO0_6.junk (kernelRun0_A c i arg2 harg2 arg3 harg3 arg4 harg4 arg5 harg5 arg6 harg6 arg7 harg7 arg8 harg8 hc0 x0 x1 x2 x3 x4).2.1)

/-- At a later point the pieces for output window 5 tile its block (checked by evaluating the rectangles), so they cover it. -/
theorem cover0_B_5 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 : Vec F S1x32 .f32) (xo6 : Vec F S1x32 .f32) (y : S1x32.Idx) :
    ∃ pc ∈ (kernelRun0_B c i arg2 harg2 arg3 harg3 arg4 harg4 arg5 harg5 arg6 harg6 arg7 harg7 arg8 harg8 hc0 x0 x1 x2 x3 x4 xo5 xo6).1, y ∈ pc.1.set :=
  View.cover_of_tiledL (kernelRun0_B c i arg2 harg2 arg3 harg3 arg4 harg4 arg5 harg5 arg6 harg6 arg7 harg7 arg8 harg8 hc0 x0 x1 x2 x3 x4 xo5 xo6).1 S1x32.size (by sl_kernel_rfl) y

/-- What the body at a later point leaves in output window 5's staging buffer: its pieces read back over junk. -/
def out0_B_5 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 : Vec F S1x32 .f32) (xo6 : Vec F S1x32 .f32) : Vec F S1x32 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 x4 xo5 xo6).1)

/-- At a later point the pieces for output window 6 tile its block (checked by evaluating the rectangles), so they cover it. -/
theorem cover0_B_6 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 : Vec F S1x32 .f32) (xo6 : Vec F S1x32 .f32) (y : S1x32.Idx) :
    ∃ pc ∈ (kernelRun0_B c i arg2 harg2 arg3 harg3 arg4 harg4 arg5 harg5 arg6 harg6 arg7 harg7 arg8 harg8 hc0 x0 x1 x2 x3 x4 xo5 xo6).2.1, y ∈ pc.1.set :=
  View.cover_of_tiledL (kernelRun0_B c i arg2 harg2 arg3 harg3 arg4 harg4 arg5 harg5 arg6 harg6 arg7 harg7 arg8 harg8 hc0 x0 x1 x2 x3 x4 xo5 xo6).2.1 S1x32.size (by sl_kernel_rfl) y

/-- What the body at a later point leaves in output window 6's staging buffer: its pieces read back over junk. -/
def out0_B_6 (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 : Vec F S1x32 .f32) (xo6 : Vec F S1x32 .f32) : Vec F S1x32 .f32 :=
  VO0_6.read (Elt F) (VO0_6.writes (Elt F) VO0_6.junk (kernelRun0_B c i arg2 harg2 arg3 harg3 arg4 harg4 arg5 harg5 arg6 harg6 arg7 harg7 arg8 harg8 hc0 x0 x1 x2 x3 x4 xo5 xo6).2.1)

/-! ## What the outputs hold after each point -/

/-- THE ACCUMULATION. What the two output staging buffers (windows 5 and 6, in that order) hold after the body at
    position `n`: at the first point the zeroing case, run at the point's memrefs and input blocks; at a later
    point the adding case, each accumulator read back at what this leaves at `n - 1` (its buffer is not written
    back between: the windows are flushed at the last point only). -/
def outsAt0 (c : Dev nD) : (n : ℕ) → n < cfg0.N → Vec F S1x32 .f32 × Vec F S1x32 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 64 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2)

/-- `outsAt0` at the first point: the zeroing case's contents. -/
theorem outsAt0_A (c : Dev nD) (t : Fin cfg0.N) (h0 : t.val % 64 = 0) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- `outsAt0` at a later point: the adding case's contents, over what the point before left. -/
theorem outsAt0_B (c : Dev nD) (t : Fin cfg0.N) (h0 : ¬t.val % 64 = 0) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point
    `t` each input's buffer at its block and the two outputs' at `outsAt0`'s components; the invariant the scoped
    rest and the generator register, untouched; nothing owed; the two windows that are blocks of one array hold it
    at the two halves of the full share, every other input its array at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2 := by dsimp only [dat0]

/-- The share of each window's array. -/
theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]
theorem q0_3 (c : Dev nD) : (dat0 V c).q 3 = fullShare := by dsimp only [dat0]
theorem q0_4 (c : Dev nD) : (dat0 V c).q 4 = fullShare := by dsimp only [dat0]
theorem q0_5 (c : Dev nD) : (dat0 V c).q 5 = fullShare := by dsimp only [dat0]
theorem q0_6 (c : Dev nD) : (dat0 V c).q 6 = fullShare := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
/-- At a later point each accumulator's staging buffer holds what the body left at the point before: the point is not
    the first, the buffer was not written back between (the windows are flushed at the last point only), the
    window is live and uncut. -/
theorem before0_5_B (c : Dev nD) (t : Fin cfg0.N) (h0 : ¬t.val % 64 = 0) (d) :
    (dat0 V c).before 5 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dat0]
theorem before0_6_B (c : Dev nD) (t : Fin cfg0.N) (h0 : ¬t.val % 64 = 0) (d) :
    (dat0 V c).before 6 t d = (outsAt0 V c (t.val - 1) (Nat.lt_of_le_of_lt (Nat.sub_le _ _) t.isLt)).2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dat0]

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 1600000 in
/-- The body at any point: the inputs' memrefs hold their blocks; the closed form of the condition says which case
    the point is in; at a later point each accumulator holds what the point before left; so the case's run applies;
    the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  have hN : t.val < 64 := lt_of_lt_of_eq t.isLt (show cfg0.N = 64 from N_0)
  by_cases h0 : t.val % 64 = 0
  · rw [outsAt0_A V c t h0]
    unfold out0_A_5 out0_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk0 V c 0 t) (iblk0 V c 1 t) (iblk0 V c 2 t) (iblk0 V c 3 t) (iblk0 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ )
    unfold owns; iexists _; isplitr
    swap; · iexact H6
    ipureintro; exact View.read_writes_of_cover _ _ _ _ _ (cover0_A_6 c _ _ _ _ _ _ _ _ _ _ _ _ _ _ _ _ _ _ _ _ _ )
  · rw [outsAt0_B V c t h0]
    simp only [before0_5_B V c t h0, before0_6_B V c t h0]
    unfold out0_B_5 out0_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk0 V c 0 t) (iblk0 V c 1 t) (iblk0 V c 2 t) (iblk0 V c 3 t) (iblk0 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ )
    unfold owns; iexists _; isplitr
    swap; · iexact H6
    ipureintro; exact View.read_writes_of_cover _ _ _ _ _ (cover0_B_6 c _ _ _ _ _ _ _ _ _ _ _ _ _ _ _ _ _ _ _ _ _ _ _ )

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.K1Runs.lean ====
/- The second kernel region of the program, at arbitrary entry contents of the core's buffers: each window's block at a
   grid point as a read of its array; every input window's staging buffer holds that block at every point, whether or not
   it was fetched there; the body's one branch condition (both grid coordinates zero) holds exactly at the first point;
   the staging memrefs at a point. -/
import proofs.«168503_j21964462751805_2_alg».proof.Proof.Gen.KernelIdeal.Launch
import proofs.«168503_j21964462751805_2_alg».proof.Proof.Gen.KernelIdeal.Skeleton
import proofs.«168503_j21964462751805_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1 (custom_call 1), at the entry contents `V`: what its case runs share -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the
    block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the
    block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: unfetched, the
    block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: unfetched, the
    block index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: unfetched, the
    block index has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: unfetched, the
    block index has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: unfetched, the
    block index has not moved; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not: unfetched, the
    block index has not moved; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not: unfetched, the
    block index has not moved; the window is uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not: unfetched, the
    block index has not moved; the window is uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current staging buffer holds its block at every point, fetched there or not: unfetched, the
    block index has not moved; the window is uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's current staging buffer holds its block at every point, fetched there or not: unfetched, the
    block index has not moved; the window is uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Input window 13's current staging buffer holds its block at every point, fetched there or not: unfetched, the
    block index has not moved; the window is uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- Input window 14's current staging buffer holds its block at every point, fetched there or not: unfetched, the
    block index has not moved; the window is uncut and never idle. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: both coordinates are zero. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only, decided over the grid. -/
theorem hcond1_0 : ∀ t : Fin cfg1.N, cond1_0 (grid1.coords t) ↔ t.val % 64 = 0 :=
  (by decide +kernel : ∀ t : Fin grid1.N, cond1_0 (grid1.coords t) ↔ t.val % 64 = 0)

/-! ## The staging memrefs -/

/-- One staging buffer of output window 15, through which its contents are stated (the choice does not matter). -/
abbrev VO1_15 : View sig .tc .vmem S1x64x256 .f32 := (Memref.whole cc1_stg15_0 : Memref sig .tc .vmem S1x64x256 .f32).view
/-- One staging buffer of output window 16, through which its contents are stated (the choice does not matter). -/
abbrev VO1_16 : View sig .tc .vmem S1x64x16 .f32 := (Memref.whole cc1_stg16_0 : Memref sig .tc .vmem S1x64x16 .f32).view
/-- One staging buffer of output window 17, through which its contents are stated (the choice does not matter). -/
abbrev VO1_17 : View sig .tc .vmem S1x16 .f32 := (Memref.whole cc1_stg17_0 : Memref sig .tc .vmem S1x16 .f32).view
/-- One staging buffer of output window 18, through which its contents are stated (the choice does not matter). -/
abbrev VO1_18 : View sig .tc .vmem S1x16 .f32 := (Memref.whole cc1_stg18_0 : Memref sig .tc .vmem S1x16 .f32).view
/-- Each window's current staging memref at point `t`, spelled as the pipeline passes it, and its wholeness. -/
abbrev ms1_0 (t : Fin cfg1.N) : Memref sig .tc .vmem S1x64x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x32 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x32 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S32x32 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x32 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S2x32 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x2 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S16x128 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x16 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x64x256 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S1x64x16 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x16 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S1x16 .f32 := win1_18.stage (cfg1.slots t 18)
abbrev hs1_18 (t : Fin cfg1.N) : (ms1_18 t).IsWhole := hstage1_18 ((cfg1.slots t 18).cast nbuf1_18)

end Cert.KernelIdeal.Hand

end
-- ==== Proof.K1RunA.lean ====
/- The second kernel region's body at the first grid point (the branch that zeroes the two accumulated outputs is
   taken): run on whole staging memrefs holding the input blocks, it terminates without fault, leaves the inputs as
   they were, and leaves each of the four outputs with a list of written pieces, which the run determines. -/
import proofs.«168503_j21964462751805_2_alg».proof.Proof.K1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
set_option maxHeartbeats 4000000 in
/-- What the body's stores leave in each output's staging memref, as pieces (last first), in the case where the
    conditional is taken (the first point), with the proof that on whole staging memrefs — the inputs' at
    their contents, the outputs' at anything — the body runs to the
    continuation holding the inputs' as they were and each output's buffer with its pieces written. -/
noncomputable def kernelRun1_A (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32)  :
    Σ' (L15 : List (View.Piece (Elt F) S1x64x256 .f32)) (L16 : List (View.Piece (Elt F) S1x64x16 .f32)) (L17 : List (View.Piece (Elt F) S1x16 .f32)),
    { L18 : List (View.Piece (Elt F) S1x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18)) -∗ K ⟨⟩))
          ⊢ wp frame (wpE (defs₀ (F := F)) Variants.none c none) E (cc1__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc1__main_body_eq_skeleton]; unfold cc1__main_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    iexists _; iexact H18

end Cert.KernelIdeal.Hand

end
-- ==== Proof.K1RunB.lean ====
/- The second kernel region's body at every later grid point (the zeroing branch is not taken): run on whole staging
   memrefs holding the input blocks and the running contents of the two accumulated outputs, it terminates without
   fault, leaves the inputs as they were, and leaves each of the four outputs with a list of written pieces. -/
import proofs.«168503_j21964462751805_2_alg».proof.Proof.K1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
set_option maxHeartbeats 4000000 in
/-- What the body's stores leave in each output's staging memref, as pieces (last first), in the case where the
    conditional is not taken (every later point), with the proof that on whole staging memrefs — the inputs' at
    their contents, the two accumulated outputs' at their running contents, the other outputs' at anything — the body runs to the
    continuation holding the inputs' as they were and each output's buffer with its pieces written. -/
noncomputable def kernelRun1_B (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) :
    Σ' (L15 : List (View.Piece (Elt F) S1x64x256 .f32)) (L16 : List (View.Piece (Elt F) S1x64x16 .f32)) (L17 : List (View.Piece (Elt F) S1x16 .f32)),
    { L18 : List (View.Piece (Elt F) S1x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ owns (c : Thread nD τ) arg19 fullShare xo17 ∗ owns (c : Thread nD τ) arg20 fullShare xo18
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18)) -∗ K ⟨⟩))
          ⊢ wp frame (wpE (defs₀ (F := F)) Variants.none c none) E (cc1__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc1__main_body_eq_skeleton]; unfold cc1__main_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%f17, %hf17, H17⟩, ⟨%f18, %hf18, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg19.eq_unread hf17; obtain rfl := harg20.eq_unread hf18
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    iexists _; iexact H18

end Cert.KernelIdeal.Hand

end
-- ==== Proof.K1Dat.lean ====
/- The second kernel region: the pieces each case writes cover each output block; what the four outputs hold after
   each grid point, by recursion on the point (the two accumulated outputs start from what the point before left); the
   region's proof data at arbitrary entry contents; and the body obligation at every point: the inputs are found at
   their blocks, the accumulated outputs at their running contents, the case's run applies, the invariant is untouched. -/
import proofs.«168503_j21964462751805_2_alg».proof.Proof.K1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1 (custom_call 1), at the entry contents `V`: what the outputs hold, the proof data, the body obligation -/

/-- Case A's pieces for output 15 tile its block, so they cover it. -/
theorem cover1_A_15 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (y : S1x64x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).1 S1x64x256.size (by sl_kernel_rfl) y

/-- What case A leaves in output 15's staging buffer: its pieces read back over junk. -/
def out1_A_15 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : Vec F S1x64x256 .f32 :=
  VO1_15.read (Elt F) (VO1_15.writes (Elt F) VO1_15.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).1)

/-- Case A's pieces for output 16 tile its block, so they cover it. -/
theorem cover1_A_16 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (y : S1x64x16.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.1 S1x64x16.size (by sl_kernel_rfl) y

/-- What case A leaves in output 16's staging buffer: its pieces read back over junk. -/
def out1_A_16 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : Vec F S1x64x16 .f32 :=
  VO1_16.read (Elt F) (VO1_16.writes (Elt F) VO1_16.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.1)

/-- Case A's pieces for output 17 tile its block, so they cover it. -/
theorem cover1_A_17 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (y : S1x16.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.1 S1x16.size (by sl_kernel_rfl) y

/-- What case A leaves in output 17's staging buffer: its pieces read back over junk. -/
def out1_A_17 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : Vec F S1x16 .f32 :=
  VO1_17.read (Elt F) (VO1_17.writes (Elt F) VO1_17.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.1)

/-- Case A's pieces for output 18 tile its block, so they cover it. -/
theorem cover1_A_18 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (y : S1x16.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.2.1 S1x16.size (by sl_kernel_rfl) y

/-- What case A leaves in output 18's staging buffer: its pieces read back over junk. -/
def out1_A_18 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : Vec F S1x16 .f32 :=
  VO1_18.read (Elt F) (VO1_18.writes (Elt F) VO1_18.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.2.1)

/-- Case B's pieces for output 15 tile its block, so they cover it. -/
theorem cover1_B_15 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) (y : S1x64x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).1 S1x64x256.size (by sl_kernel_rfl) y

/-- What case B leaves in output 15's staging buffer: its pieces read back over junk. -/
def out1_B_15 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) : Vec F S1x64x256 .f32 :=
  VO1_15.read (Elt F) (VO1_15.writes (Elt F) VO1_15.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).1)

/-- Case B's pieces for output 16 tile its block, so they cover it. -/
theorem cover1_B_16 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) (y : S1x64x16.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.1 S1x64x16.size (by sl_kernel_rfl) y

/-- What case B leaves in output 16's staging buffer: its pieces read back over junk. -/
def out1_B_16 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) : Vec F S1x64x16 .f32 :=
  VO1_16.read (Elt F) (VO1_16.writes (Elt F) VO1_16.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.1)

/-- Case B's pieces for output 17 tile its block, so they cover it. -/
theorem cover1_B_17 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) (y : S1x16.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.2.1 S1x16.size (by sl_kernel_rfl) y

/-- What case B leaves in output 17's staging buffer: its pieces read back over junk. -/
def out1_B_17 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) : Vec F S1x16 .f32 :=
  VO1_17.read (Elt F) (VO1_17.writes (Elt F) VO1_17.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.2.1)

/-- Case B's pieces for output 18 tile its block, so they cover it. -/
theorem cover1_B_18 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) (y : S1x16.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.2.2.1 S1x16.size (by sl_kernel_rfl) y

/-- What case B leaves in output 18's staging buffer: its pieces read back over junk. -/
def out1_B_18 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) : Vec F S1x16 .f32 :=
  VO1_18.read (Elt F) (VO1_18.writes (Elt F) VO1_18.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18).2.2.2.1)

/-! ## What the outputs hold after each point -/

/-- THE ACCUMULATION. What the four outputs' staging buffers hold after the body at position `n`: the case the closed
    form selects at `n`, run at the point's memrefs and input blocks; the two accumulated outputs (17, 18), which a later
    point reads before covering, at what this leaves at `n - 1` (their buffers are not written back between). -/
def outsAt1 (c : Dev nD) : (n : ℕ) → n < cfg1.N → Vec F S1x64x256 .f32 × Vec F S1x64x16 .f32 × Vec F S1x16 .f32 × Vec F S1x16 .f32
  | 0, hn => (out1_A_15 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) (ms1_17 ⟨0, hn⟩) (hs1_17 ⟨0, hn⟩) (ms1_18 ⟨0, hn⟩) (hs1_18 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩),
      out1_A_16 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) (ms1_17 ⟨0, hn⟩) (hs1_17 ⟨0, hn⟩) (ms1_18 ⟨0, hn⟩) (hs1_18 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩),
      out1_A_17 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) (ms1_17 ⟨0, hn⟩) (hs1_17 ⟨0, hn⟩) (ms1_18 ⟨0, hn⟩) (hs1_18 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩),
      out1_A_18 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) (ms1_17 ⟨0, hn⟩) (hs1_17 ⟨0, hn⟩) (ms1_18 ⟨0, hn⟩) (hs1_18 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩))
  | n + 1, hn =>
    if h0 : (n + 1) % 64 = 0 then
      (out1_A_15 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩),
      out1_A_16 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩),
      out1_A_17 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩),
      out1_A_18 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩))
    else
      (out1_B_15 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (outsAt1 c n (Nat.lt_of_succ_lt hn)).2.2.1 (outsAt1 c n (Nat.lt_of_succ_lt hn)).2.2.2,
      out1_B_16 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (outsAt1 c n (Nat.lt_of_succ_lt hn)).2.2.1 (outsAt1 c n (Nat.lt_of_succ_lt hn)).2.2.2,
      out1_B_17 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (outsAt1 c n (Nat.lt_of_succ_lt hn)).2.2.1 (outsAt1 c n (Nat.lt_of_succ_lt hn)).2.2.2,
      out1_B_18 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 64 = 0) :
    outsAt1 V c t.val t.isLt = (out1_A_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t),
      out1_A_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t),
      out1_A_17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t),
      out1_A_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 64 = 0) :
    outsAt1 V c t.val t.isLt = (out1_B_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).2.2.1 (outsAt1 V c (t.val - 1) (Nat.lt_of_le_of_lt (Nat.sub_le _ _) t.isLt)).2.2.2,
      out1_B_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).2.2.1 (outsAt1 V c (t.val - 1) (Nat.lt_of_le_of_lt (Nat.sub_le _ _) t.isLt)).2.2.2,
      out1_B_17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).2.2.1 (outsAt1 V c (t.val - 1) (Nat.lt_of_le_of_lt (Nat.sub_le _ _) t.isLt)).2.2.2,
      out1_B_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at point `t`
    each input's buffer at its block and the outputs' at `outsAt1`; the invariant the scoped rest and the generator
    register; nothing owed; the array windows 0 and 1 share split in halves between them, every other at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => (outsAt1 V c t.val t.isLt).1
    | ⟨16, _⟩ => (outsAt1 V c t.val t.isLt).2.1
    | ⟨17, _⟩ => (outsAt1 V c t.val t.isLt).2.2.1
    | ⟨18, _⟩ => (outsAt1 V c t.val t.isLt).2.2.2
    | ⟨_ + 19, h⟩ => absurd h (Nat.not_lt.2 (Nat.le_add_left _ _))
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨_ + 19, h⟩ => absurd h (Nat.not_lt.2 (Nat.le_add_left _ _))
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = (outsAt1 V c t.val t.isLt).1 := by dsimp only [dat1]
theorem after1_16 (c : Dev nD) (t : Fin cfg1.N) : (dat1 V c).after 16 t = (outsAt1 V c t.val t.isLt).2.1 := by dsimp only [dat1]
theorem after1_17 (c : Dev nD) (t : Fin cfg1.N) : (dat1 V c).after 17 t = (outsAt1 V c t.val t.isLt).2.2.1 := by dsimp only [dat1]
theorem after1_18 (c : Dev nD) (t : Fin cfg1.N) : (dat1 V c).after 18 t = (outsAt1 V c t.val t.isLt).2.2.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
/-- At a point of case B output 17's current staging buffer holds what the body left at the point before: the point is
    not the first, the buffer was not written back between, the window is live and uncut. -/
theorem before1_17_B (c : Dev nD) (t : Fin cfg1.N) (h0 : ¬t.val % 64 = 0) (d) :
    (dat1 V c).before 17 t d = (outsAt1 V c (t.val - 1) (Nat.lt_of_le_of_lt (Nat.sub_le _ _) t.isLt)).2.2.1 := by
  have hN : t.val < 64 := lt_of_lt_of_eq t.isLt (show cfg1.N = 64 from N_1)
  rw [Dat.before_out_kept _ 17 rfl t (by omega) (Bool.eq_false_iff.mpr fun h => by have := (flush1_17 _).mp h; dsimp only at this; omega)
    (fun _ => rfl) (fun _ _ => rfl)]
  dsimp only [dat1]
/-- At a point of case B output 18's current staging buffer holds what the body left at the point before: the point is
    not the first, the buffer was not written back between, the window is live and uncut. -/
theorem before1_18_B (c : Dev nD) (t : Fin cfg1.N) (h0 : ¬t.val % 64 = 0) (d) :
    (dat1 V c).before 18 t d = (outsAt1 V c (t.val - 1) (Nat.lt_of_le_of_lt (Nat.sub_le _ _) t.isLt)).2.2.2 := by
  have hN : t.val < 64 := lt_of_lt_of_eq t.isLt (show cfg1.N = 64 from N_1)
  rw [Dat.before_out_kept _ 18 rfl t (by omega) (Bool.eq_false_iff.mpr fun h => by have := (flush1_18 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t))

set_option maxHeartbeats 4000000 in
/-- The body at any point: the inputs' memrefs hold their blocks; the closed form says which case the point is in; an
    accumulated output at a later point holds what the point before left; so the case's run applies; the invariant passes
    through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18]
  have hN : t.val < 64 := lt_of_lt_of_eq t.isLt (show cfg1.N = 64 from N_1)
  by_cases h0 : t.val % 64 = 0
  ·
    rw [outsAt1_A V c t h0]
    unfold out1_A_15 out1_A_16 out1_A_17 out1_A_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun1_A c (grid1.coords t) _ _ _ _ _ _ _ _ _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    iintro ⟨H0, H1, H2, H3, H4, H5, H6, H7, H8, H9, H10, H11, H12, H13, H14, ⟨%e15, H15⟩, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover1_A_15 c _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover1_A_16 c _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover1_A_17 c _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover1_A_18 c _ _ _ _ _ _ _ _ _ _ _ _ _ _ _ _ _ _ _ _ _ _ _ _ _ _ _ _ _ _ _ _ _ _ _ _ _ _ _ _ _ _ _ _ _ _ _ _ _ _ _ _ _ _ _)
  ·
    rw [outsAt1_B V c t h0]
    simp only [before1_17_B V c t h0, before1_18_B V c t h0]
    unfold out1_B_15 out1_B_16 out1_B_17 out1_B_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun1_B c (grid1.coords t) _ _ _ _ _ _ _ _ _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexact H17
    isplitl [H18]; · iexact H18
    iintro ⟨H0, H1, H2, H3, H4, H5, H6, H7, H8, H9, H10, H11, H12, H13, H14, ⟨%e15, H15⟩, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover1_B_15 c _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover1_B_16 c _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover1_B_17 c _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover1_B_18 c _ _ _ _ _ _ _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.K2Dat.lean ====
/- The third pallas_call's half of the frame argument, at any contents `V` of the core's buffers when it is entered.
   Each window's block at a grid point is read off its array; the kernel body loads its seven input buffers whole and
   stores one whole output buffer, so the output buffer after the body is a function `out2_7` of the seven input blocks
   (one covering store). From the body's triple on whole staging buffers follow the pipeline's proof data `dat2`
   (arrays as found, inputs left in place, the output at `out2_7` of the point's input blocks, nothing owed, full
   shares) and the body obligation at every grid point. -/
import proofs.«168503_j21964462751805_2_alg».proof.Proof.Gen.KernelIdeal.Launch
import proofs.«168503_j21964462751805_2_alg».proof.Proof.Gen.KernelIdeal.Skeleton
import proofs.«168503_j21964462751805_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third pallas_call's half (pipeline 2), at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole buffer -/

abbrev rA : Rect S1x256x16 := Rect.unit (s := S1x256x16) ![0, 0, 0] S1x256x16.size inb_S1x256x16_S1x256x16_0_0_0
abbrev rB : Rect S1x16 := Rect.unit (s := S1x16) ![0, 0] S1x16.size inb_S1x16_S1x16_0_0
abbrev rC : Rect S64x16 := Rect.unit (s := S64x16) ![0, 0] S64x16.size inb_S64x16_S64x16_0_0
abbrev rD : Rect S1x64 := Rect.unit (s := S1x64) ![0, 0] S1x64.size inb_S1x64_S1x64_0_0
abbrev rE : Rect S1x256x64 := Rect.unit (s := S1x256x64) ![0, 0, 0] S1x256x64.size inb_S1x256x64_S1x256x64_0_0_0

/-- The output window's staging buffer after the body, from the input windows' blocks: one whole store. -/
def out2_7 (x0 : Vec F S1x256x16 .f32) (x1 : Vec F S1x16 .f32) (x2 : Vec F S1x16 .f32) (x3 : Vec F S1x16 .f32) (x4 : Vec F S1x16 .f32) (x5 : Vec F S64x16 .f32) (x6 : Vec F S1x64 .f32) : Vec F S1x256x64 .f32 :=
  View.canon [⟨rE, k2_pay1 (k2_pay2 (View.ld x0 rA) (View.ld x1 rB) (View.ld x2 rB) (View.ld x3 rB) (View.ld x4 rB) (View.ld x5 rC) (View.ld x6 rD))⟩]

/-- The store covers the buffer. -/
theorem cover2_7 (p0 : Vec F S1x256x64 .f32) (y : S1x256x64.Idx) :
    ∃ pc ∈ ([⟨rE, p0⟩] : List (View.Piece (Elt F) S1x256x64 .f32)), y ∈ pc.1.set :=
  View.cover_of_tiled [⟨rE, p0⟩] S1x256x64.size (by rfl) y

set_option maxHeartbeats 1000000 in
/-- The kernel body on whole staging memrefs, the inputs' at read contents and the output's at anything, runs to
    the continuation holding the inputs' as they were and the output's at `out2_7` of the inputs'. -/
theorem sound_kernel2 (c : Dev nD) (E : Set ℕ) (i : grid2.Coords) (arg0 : Memref sig .tc .vmem S1x256x16 .f32) (harg0 : arg0.IsWhole) (arg1 : Memref sig .tc .vmem S1x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S64x16 .f32) (harg5 : arg5.IsWhole) (arg6 : Memref sig .tc .vmem S1x64 .f32) (harg6 : arg6.IsWhole) (arg7 : Memref sig .tc .vmem S1x256x64 .f32) (harg7 : arg7.IsWhole)
    (x0 : Vec F S1x256x16 .f32) (x1 : Vec F S1x16 .f32) (x2 : Vec F S1x16 .f32) (x3 : Vec F S1x16 .f32) (x4 : Vec F S1x16 .f32) (x5 : Vec F S64x16 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__finalize_body i arg0 harg0 arg1 harg1 arg2 harg2 arg3 harg3 arg4 harg4 arg5 harg5 arg6 harg6 arg7 harg7) K := by
  simp only [cc2__finalize_body_eq_skeleton]; unfold cc2__finalize_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- The proof data of pipeline 2 on core `c`: the arrays as the region finds them; after the body at point `t`
    each input's buffer at its block and the output's at `out2_7` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KRunVals.lean ====
/- The contents of a core's buffers at each boundary between the items of @main, as a fold from the launch memory:
   a host stretch maps the contents by the stretch's semantics; a pallas_call changes only its output windows' arrays,
   which end at what the pipeline's write-backs leave. Each boundary's contents agree with the previous off the buffers
   the item writes; hence every argument array reads at the end what it read at launch, and the two results read at the
   end what the last pallas_calls' write-backs left (the first through the final reshape). -/
import proofs.«168503_j21964462751805_2_alg».proof.Proof.Gen.KernelIdeal.Regions
import proofs.«168503_j21964462751805_2_alg».proof.Proof.K0Dat
import proofs.«168503_j21964462751805_2_alg».proof.Proof.K1Dat
import proofs.«168503_j21964462751805_2_alg».proof.Proof.K2Dat
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffer contents at each boundary of @main: a fold from the launch memory

A host stretch maps the contents by `StableHlo.after`; a pallas_call leaves every buffer as entered but its output
windows' arrays, which end at what the pipeline's write-backs leave (`Dat.arrAt … N`). -/

/-- At launch. -/
abbrev X0 (c : Dev nD) : Valuation τ sig (Elt F) := Gen.V0 m c
/-- After the first host stretch: the first pallas_call's entry. -/
abbrev X1 (c : Dev nD) : Valuation τ sig (Elt F) := Gen.V1 m c
/-- The same read at the TensorCore's references. -/
abbrev E1 : (c : Dev nD) → (b : Ref sig .tc) → Buf (Elt F) ((c : Thread nD τ).loc b) := fun c b => X1 m c b
/-- At the first pallas_call's exit. -/
def X2 (c : Dev nD) : Valuation τ sig (Elt F) :=
  Function.update (Function.update (X1 m c) (Proc.devRef .tc main_v11_0) ((dat0 (E1 m) c).arrAt 5 cfg0.N : Buf (Elt F) ((c : Thread nD τ).loc main_v11_0))) (Proc.devRef .tc main_v11_1) ((dat0 (E1 m) c).arrAt 6 cfg0.N : Buf (Elt F) ((c : Thread nD τ).loc main_v11_1))
/-- After the second host stretch: the second pallas_call's entry. -/
def X3 (c : Dev nD) : Valuation τ sig (Elt F) := StableHlo.after hostOps1 (X2 m c)
abbrev E3 : (c : Dev nD) → (b : Ref sig .tc) → Buf (Elt F) ((c : Thread nD τ).loc b) := fun c b => X3 m c b
/-- At the second pallas_call's exit. -/
def X4 (c : Dev nD) : Valuation τ sig (Elt F) :=
  Function.update (Function.update (Function.update (Function.update (X3 m c) (Proc.devRef .tc main_v20_0) ((dat1 (E3 m) c).arrAt 15 cfg1.N : Buf (Elt F) ((c : Thread nD τ).loc main_v20_0))) (Proc.devRef .tc main_v20_1) ((dat1 (E3 m) c).arrAt 16 cfg1.N : Buf (Elt F) ((c : Thread nD τ).loc main_v20_1))) (Proc.devRef .tc main_v20_2) ((dat1 (E3 m) c).arrAt 17 cfg1.N : Buf (Elt F) ((c : Thread nD τ).loc main_v20_2))) (Proc.devRef .tc main_v20_3) ((dat1 (E3 m) c).arrAt 18 cfg1.N : Buf (Elt F) ((c : Thread nD τ).loc main_v20_3))
/-- After the third host stretch: the third pallas_call's entry. -/
def X5 (c : Dev nD) : Valuation τ sig (Elt F) := StableHlo.after hostOps2 (X4 m c)
abbrev E5 : (c : Dev nD) → (b : Ref sig .tc) → Buf (Elt F) ((c : Thread nD τ).loc b) := fun c b => X5 m c b
/-- At the third pallas_call's exit. -/
def X6 (c : Dev nD) : Valuation τ sig (Elt F) :=
  Function.update (X5 m c) (Proc.devRef .tc main_v29) ((dat2 (E5 m) c).arrAt 7 cfg2.N : Buf (Elt F) ((c : Thread nD τ).loc main_v29))
/-- After the last host stretch: at the return. -/
def X7 (c : Dev nD) : Valuation τ sig (Elt F) := StableHlo.after hostOps3 (X6 m c)
abbrev E2 : (c : Dev nD) → (b : Ref sig .tc) → Buf (Elt F) ((c : Thread nD τ).loc b) := fun c b => X2 m c b
abbrev E4 : (c : Dev nD) → (b : Ref sig .tc) → Buf (Elt F) ((c : Thread nD τ).loc b) := fun c b => X4 m c b
abbrev E6 : (c : Dev nD) → (b : Ref sig .tc) → Buf (Elt F) ((c : Thread nD τ).loc b) := fun c b => X6 m c b

/-! ## What each item leaves unchanged -/

theorem X1_of (c : Dev nD) (r : Ref sig .tc) (h : r ∉ Gen.hostOps0_W) : X1 m c r = X0 m c r := Gen.V1_of m c r h
theorem X2_of (c : Dev nD) (r : Ref sig .tc) (h : r ∉ ([main_v11_0, main_v11_1] : List (Ref sig .tc))) : X2 m c r = X1 m c r := by
  simp only [X2, Function.update_of_ne (StableHlo.devRef_ne_of_ne (List.ne_of_not_mem_cons h) : (Proc.devRef .tc r : DevRef τ sig) ≠ Proc.devRef .tc main_v11_0), Function.update_of_ne (StableHlo.devRef_ne_of_ne (List.ne_of_not_mem_cons (List.not_mem_of_not_mem_cons h)) : (Proc.devRef .tc r : DevRef τ sig) ≠ Proc.devRef .tc main_v11_1)]
theorem X3_of (c : Dev nD) (r : Ref sig .tc) (h : r ∉ Gen.hostOps1_W) : X3 m c r = X2 m c r :=
  StableHlo.after_of_writes_sub hostOps1 _ Gen.hostOps1_writes h
theorem X4_of (c : Dev nD) (r : Ref sig .tc) (h : r ∉ ([main_v20_0, main_v20_1, main_v20_2, main_v20_3] : List (Ref sig .tc))) : X4 m c r = X3 m c r := by
  simp only [X4, Function.update_of_ne (StableHlo.devRef_ne_of_ne (List.ne_of_not_mem_cons h) : (Proc.devRef .tc r : DevRef τ sig) ≠ Proc.devRef .tc main_v20_0), Function.update_of_ne (StableHlo.devRef_ne_of_ne (List.ne_of_not_mem_cons (List.not_mem_of_not_mem_cons h)) : (Proc.devRef .tc r : DevRef τ sig) ≠ Proc.devRef .tc main_v20_1), Function.update_of_ne (StableHlo.devRef_ne_of_ne (List.ne_of_not_mem_cons (List.not_mem_of_not_mem_cons (List.not_mem_of_not_mem_cons h))) : (Proc.devRef .tc r : DevRef τ sig) ≠ Proc.devRef .tc main_v20_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v20_3)]
theorem X5_of (c : Dev nD) (r : Ref sig .tc) (h : r ∉ Gen.hostOps2_W) : X5 m c r = X4 m c r :=
  StableHlo.after_of_writes_sub hostOps2 _ Gen.hostOps2_writes h
theorem X6_of (c : Dev nD) (r : Ref sig .tc) (h : r ∉ ([main_v29] : List (Ref sig .tc))) : X6 m c r = X5 m c r := by
  simp only [X6, Function.update_of_ne (StableHlo.devRef_ne_of_ne (List.ne_of_not_mem_cons h) : (Proc.devRef .tc r : DevRef τ sig) ≠ Proc.devRef .tc main_v29)]
theorem X7_of (c : Dev nD) (r : Ref sig .tc) (h : r ∉ Gen.hostOps3_W) : X7 m c r = X6 m c r :=
  StableHlo.after_of_writes_sub hostOps3 _ Gen.hostOps3_writes h

/-! ## What each pallas_call leaves in its outputs -/

theorem X2_main_v11_0 (c : Dev nD) : X2 m c (Proc.devRef .tc main_v11_0) = (dat0 (E1 m) c).arrAt 5 cfg0.N := by
  simp only [X2, Function.update_of_ne (StableHlo.devRef_ne_of_ne (by decide) : (Proc.devRef .tc main_v11_0 : DevRef τ sig) ≠ Proc.devRef .tc main_v11_1), Function.update_self]
theorem X2_main_v11_1 (c : Dev nD) : X2 m c (Proc.devRef .tc main_v11_1) = (dat0 (E1 m) c).arrAt 6 cfg0.N := by
  simp only [X2, Function.update_self]
theorem X4_main_v20_0 (c : Dev nD) : X4 m c (Proc.devRef .tc main_v20_0) = (dat1 (E3 m) c).arrAt 15 cfg1.N := by
  simp only [X4, Function.update_of_ne (StableHlo.devRef_ne_of_ne (by decide) : (Proc.devRef .tc main_v20_0 : DevRef τ sig) ≠ Proc.devRef .tc main_v20_3), Function.update_of_ne (StableHlo.devRef_ne_of_ne (by decide) : (Proc.devRef .tc main_v20_0 : DevRef τ sig) ≠ Proc.devRef .tc main_v20_2), Function.update_of_ne (StableHlo.devRef_ne_of_ne (by decide) : (Proc.devRef .tc main_v20_0 : DevRef τ sig) ≠ Proc.devRef .tc main_v20_1), Function.update_self]
theorem X4_main_v20_1 (c : Dev nD) : X4 m c (Proc.devRef .tc main_v20_1) = (dat1 (E3 m) c).arrAt 16 cfg1.N := by
  simp only [X4, Function.update_of_ne (StableHlo.devRef_ne_of_ne (by decide) : (Proc.devRef .tc main_v20_1 : DevRef τ sig) ≠ Proc.devRef .tc main_v20_3), Function.update_of_ne (StableHlo.devRef_ne_of_ne (by decide) : (Proc.devRef .tc main_v20_1 : DevRef τ sig) ≠ Proc.devRef .tc main_v20_2), Function.update_self]
theorem X4_main_v20_2 (c : Dev nD) : X4 m c (Proc.devRef .tc main_v20_2) = (dat1 (E3 m) c).arrAt 17 cfg1.N := by
  simp only [X4, Function.update_of_ne (StableHlo.devRef_ne_of_ne (by decide) : (Proc.devRef .tc main_v20_2 : DevRef τ sig) ≠ Proc.devRef .tc main_v20_3), Function.update_self]
theorem X4_main_v20_3 (c : Dev nD) : X4 m c (Proc.devRef .tc main_v20_3) = (dat1 (E3 m) c).arrAt 18 cfg1.N := by
  simp only [X4, Function.update_self]
theorem X6_main_v29 (c : Dev nD) : X6 m c (Proc.devRef .tc main_v29) = (dat2 (E5 m) c).arrAt 7 cfg2.N := by
  simp only [X6, Function.update_self]

/-! ## No item writes an argument -/

theorem X7_main_arg0 (c : Dev nD) : X7 m c main_arg0 = m ((c : Thread nD τ).loc main_arg0) :=
  (X7_of m c main_arg0 (by decide)).trans <| (X6_of m c main_arg0 (by decide)).trans <| (X5_of m c main_arg0 (by decide)).trans <| (X4_of m c main_arg0 (by decide)).trans <| (X3_of m c main_arg0 (by decide)).trans <| (X2_of m c main_arg0 (by decide)).trans <| (X1_of m c main_arg0 (by decide)).trans rfl
theorem X7_main_arg1 (c : Dev nD) : X7 m c main_arg1 = m ((c : Thread nD τ).loc main_arg1) :=
  (X7_of m c main_arg1 (by decide)).trans <| (X6_of m c main_arg1 (by decide)).trans <| (X5_of m c main_arg1 (by decide)).trans <| (X4_of m c main_arg1 (by decide)).trans <| (X3_of m c main_arg1 (by decide)).trans <| (X2_of m c main_arg1 (by decide)).trans <| (X1_of m c main_arg1 (by decide)).trans rfl
theorem X7_main_arg2 (c : Dev nD) : X7 m c main_arg2 = m ((c : Thread nD τ).loc main_arg2) :=
  (X7_of m c main_arg2 (by decide)).trans <| (X6_of m c main_arg2 (by decide)).trans <| (X5_of m c main_arg2 (by decide)).trans <| (X4_of m c main_arg2 (by decide)).trans <| (X3_of m c main_arg2 (by decide)).trans <| (X2_of m c main_arg2 (by decide)).trans <| (X1_of m c main_arg2 (by decide)).trans rfl
theorem X7_main_arg3 (c : Dev nD) : X7 m c main_arg3 = m ((c : Thread nD τ).loc main_arg3) :=
  (X7_of m c main_arg3 (by decide)).trans <| (X6_of m c main_arg3 (by decide)).trans <| (X5_of m c main_arg3 (by decide)).trans <| (X4_of m c main_arg3 (by decide)).trans <| (X3_of m c main_arg3 (by decide)).trans <| (X2_of m c main_arg3 (by decide)).trans <| (X1_of m c main_arg3 (by decide)).trans rfl
theorem X7_main_arg4 (c : Dev nD) : X7 m c main_arg4 = m ((c : Thread nD τ).loc main_arg4) :=
  (X7_of m c main_arg4 (by decide)).trans <| (X6_of m c main_arg4 (by decide)).trans <| (X5_of m c main_arg4 (by decide)).trans <| (X4_of m c main_arg4 (by decide)).trans <| (X3_of m c main_arg4 (by decide)).trans <| (X2_of m c main_arg4 (by decide)).trans <| (X1_of m c main_arg4 (by decide)).trans rfl
theorem X7_main_arg5 (c : Dev nD) : X7 m c main_arg5 = m ((c : Thread nD τ).loc main_arg5) :=
  (X7_of m c main_arg5 (by decide)).trans <| (X6_of m c main_arg5 (by decide)).trans <| (X5_of m c main_arg5 (by decide)).trans <| (X4_of m c main_arg5 (by decide)).trans <| (X3_of m c main_arg5 (by decide)).trans <| (X2_of m c main_arg5 (by decide)).trans <| (X1_of m c main_arg5 (by decide)).trans rfl
theorem X7_main_arg6 (c : Dev nD) : X7 m c main_arg6 = m ((c : Thread nD τ).loc main_arg6) :=
  (X7_of m c main_arg6 (by decide)).trans <| (X6_of m c main_arg6 (by decide)).trans <| (X5_of m c main_arg6 (by decide)).trans <| (X4_of m c main_arg6 (by decide)).trans <| (X3_of m c main_arg6 (by decide)).trans <| (X2_of m c main_arg6 (by decide)).trans <| (X1_of m c main_arg6 (by decide)).trans rfl
theorem X7_main_arg7 (c : Dev nD) : X7 m c main_arg7 = m ((c : Thread nD τ).loc main_arg7) :=
  (X7_of m c main_arg7 (by decide)).trans <| (X6_of m c main_arg7 (by decide)).trans <| (X5_of m c main_arg7 (by decide)).trans <| (X4_of m c main_arg7 (by decide)).trans <| (X3_of m c main_arg7 (by decide)).trans <| (X2_of m c main_arg7 (by decide)).trans <| (X1_of m c main_arg7 (by decide)).trans rfl
theorem X7_main_arg8 (c : Dev nD) : X7 m c main_arg8 = m ((c : Thread nD τ).loc main_arg8) :=
  (X7_of m c main_arg8 (by decide)).trans <| (X6_of m c main_arg8 (by decide)).trans <| (X5_of m c main_arg8 (by decide)).trans <| (X4_of m c main_arg8 (by decide)).trans <| (X3_of m c main_arg8 (by decide)).trans <| (X2_of m c main_arg8 (by decide)).trans <| (X1_of m c main_arg8 (by decide)).trans rfl
theorem X7_main_arg9 (c : Dev nD) : X7 m c main_arg9 = m ((c : Thread nD τ).loc main_arg9) :=
  (X7_of m c main_arg9 (by decide)).trans <| (X6_of m c main_arg9 (by decide)).trans <| (X5_of m c main_arg9 (by decide)).trans <| (X4_of m c main_arg9 (by decide)).trans <| (X3_of m c main_arg9 (by decide)).trans <| (X2_of m c main_arg9 (by decide)).trans <| (X1_of m c main_arg9 (by decide)).trans rfl
theorem X7_main_arg10 (c : Dev nD) : X7 m c main_arg10 = m ((c : Thread nD τ).loc main_arg10) :=
  (X7_of m c main_arg10 (by decide)).trans <| (X6_of m c main_arg10 (by decide)).trans <| (X5_of m c main_arg10 (by decide)).trans <| (X4_of m c main_arg10 (by decide)).trans <| (X3_of m c main_arg10 (by decide)).trans <| (X2_of m c main_arg10 (by decide)).trans <| (X1_of m c main_arg10 (by decide)).trans rfl
theorem X7_main_arg11 (c : Dev nD) : X7 m c main_arg11 = m ((c : Thread nD τ).loc main_arg11) :=
  (X7_of m c main_arg11 (by decide)).trans <| (X6_of m c main_arg11 (by decide)).trans <| (X5_of m c main_arg11 (by decide)).trans <| (X4_of m c main_arg11 (by decide)).trans <| (X3_of m c main_arg11 (by decide)).trans <| (X2_of m c main_arg11 (by decide)).trans <| (X1_of m c main_arg11 (by decide)).trans rfl
theorem X7_main_arg12 (c : Dev nD) : X7 m c main_arg12 = m ((c : Thread nD τ).loc main_arg12) :=
  (X7_of m c main_arg12 (by decide)).trans <| (X6_of m c main_arg12 (by decide)).trans <| (X5_of m c main_arg12 (by decide)).trans <| (X4_of m c main_arg12 (by decide)).trans <| (X3_of m c main_arg12 (by decide)).trans <| (X2_of m c main_arg12 (by decide)).trans <| (X1_of m c main_arg12 (by decide)).trans rfl
theorem X7_main_arg13 (c : Dev nD) : X7 m c main_arg13 = m ((c : Thread nD τ).loc main_arg13) :=
  (X7_of m c main_arg13 (by decide)).trans <| (X6_of m c main_arg13 (by decide)).trans <| (X5_of m c main_arg13 (by decide)).trans <| (X4_of m c main_arg13 (by decide)).trans <| (X3_of m c main_arg13 (by decide)).trans <| (X2_of m c main_arg13 (by decide)).trans <| (X1_of m c main_arg13 (by decide)).trans rfl
theorem X7_main_arg14 (c : Dev nD) : X7 m c main_arg14 = m ((c : Thread nD τ).loc main_arg14) :=
  (X7_of m c main_arg14 (by decide)).trans <| (X6_of m c main_arg14 (by decide)).trans <| (X5_of m c main_arg14 (by decide)).trans <| (X4_of m c main_arg14 (by decide)).trans <| (X3_of m c main_arg14 (by decide)).trans <| (X2_of m c main_arg14 (by decide)).trans <| (X1_of m c main_arg14 (by decide)).trans rfl

/-! ## The two results read back -/

/-- The second result is the third pallas_call's output array as its write-backs leave it. -/
theorem X7_main_v29 (c : Dev nD) : X7 m c main_v29 = (dat2 (E5 m) c).arrAt 7 cfg2.N :=
  (X7_of m c main_v29 (by decide)).trans (X6_main_v29 m c)

/-- The second pallas_call's first output array reaches the last host stretch as its write-backs leave it. -/
theorem X6_main_v20_0 (c : Dev nD) : X6 m c main_v20_0 = (dat1 (E3 m) c).arrAt 15 cfg1.N :=
  (X6_of m c main_v20_0 (by decide)).trans <| (X5_of m c main_v20_0 (by decide)).trans (X4_main_v20_0 m c)

/-- The first result is the last host stretch's image of it. -/
theorem X7_main_v30 (c : Dev nD) : X7 m c main_v30 = StableHlo.after hostOps3 (X6 m c) main_v30 := rfl

end Cert.KernelIdeal.Hand

end
-- ==== Proof.KShare.lean ====
/- A pipeline two of whose input windows are blocks of ONE array cannot hold that array twice at the full share. The
   array's full share is the composition of its left and right halves, so the buffers behind the pipeline's arrays, each
   whole at the full share, are exactly the windowed arrays with the two windows on the shared array at the two halves
   and every other window at the full share — in both directions. With the split of a core's unscoped buffers into
   "buffers behind the arrays" and "the rest" this gives the entry and exit entailments of the first pallas_call
   (seven windows), for any proof data with those shares. -/
import proofs.«168503_j21964462751805_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 0: windows 0 and 1 are blocks of one array, each held at half of its full share -/

/-- The windowed arrays of pipeline 0, each whole at its share at the valuation's contents. -/
theorem arrays_eq_shares0 {c : Dev nD} (dat : Dat τ (Elt F) Unit ℕ (UR sig nD τ) ℕ cfg0 c)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (dat.arrays Fa : sProp 𝕄) = bigSep Finset.univ fun w : Fin 7 => (((c : Thread nD τ).loc (Pipeline.arrRef spec0 w)) ↦{dat.share w} V (Pipeline.arrRef spec0 w) : sProp 𝕄) := by
  unfold Dat.arrays
  exact bigSep_congr fun w _ => by rw [(arr_whole0 w).set_eq_univ, hF]

/-- The distinct buffers behind the arrays, listed. -/
theorem arrBufs_eq0 (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v11_0) ↦{fullShare} V main_v11_0) ∗ (((c : Thread nD τ).loc main_v11_1) ↦{fullShare} V main_v11_1)) := by
  unfold Pipeline.arrBufs
  exact bigSep_eq_bigSepL_of_eq [main_arg0, main_v0, main_v1, main_v2, main_v11_0, main_v11_1] (by decide) (by decide) _

/-- ENTRY: the buffers behind the arrays, whole at the full share, are the windowed arrays at their shares — the
    shared array's full share dealt in two halves to the two windows on it. -/
theorem arrays_of_arrBufs0 {c : Dev nD} (dat : Dat τ (Elt F) Unit ℕ (UR sig nD τ) ℕ cfg0 c)
    (hs0 : dat.share 0 = fullShare.left) (hs1 : dat.share 1 = fullShare.right)
    (hs : ∀ w : Fin 7, w ≠ 0 → w ≠ 1 → dat.share w = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (Pipeline.arrBufs spec0 c V : sProp 𝕄) ⊢ dat.arrays Fa := by
  rw [arrays_eq_shares0 dat V Fa hF, arrBufs_eq0, bigSep_W0, hs0, hs1, hs 2 (by decide) (by decide), hs 3 (by decide) (by decide), hs 4 (by decide) (by decide), hs 5 (by decide) (by decide), hs 6 (by decide) (by decide)]
  iintro ⟨H1, H2, H3, H4, H5, H6⟩
  ihave H01 := (pointsTo_share (PosShare.mem_left_op_right fullShare)).1 $$ H1
  icases H01 with ⟨H0, H1⟩
  isplitl [H0]; · iexact H0
  isplitl [H1]; · iexact H1
  isplitl [H2]; · iexact H2
  isplitl [H3]; · iexact H3
  isplitl [H4]; · iexact H4
  isplitl [H5]; · iexact H5
  iexact H6

/-- EXIT: and back, the two halves joined. -/
theorem arrBufs_of_arrays0 {c : Dev nD} (dat : Dat τ (Elt F) Unit ℕ (UR sig nD τ) ℕ cfg0 c)
    (hs0 : dat.share 0 = fullShare.left) (hs1 : dat.share 1 = fullShare.right)
    (hs : ∀ w : Fin 7, w ≠ 0 → w ≠ 1 → dat.share w = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    dat.arrays Fa ⊢ (Pipeline.arrBufs spec0 c V : sProp 𝕄) := by
  rw [arrays_eq_shares0 dat V Fa hF, arrBufs_eq0, bigSep_W0, hs0, hs1, hs 2 (by decide) (by decide), hs 3 (by decide) (by decide), hs 4 (by decide) (by decide), hs 5 (by decide) (by decide), hs 6 (by decide) (by decide)]
  iintro ⟨H0, H1, H2, H3, H4, H5, H6⟩
  isplitl [H0 H1]
  · iapply (pointsTo_share (PosShare.mem_left_op_right fullShare)).2
    isplitl [H0]; · iexact H0
    iexact H1
  isplitl [H2]; · iexact H2
  isplitl [H3]; · iexact H3
  isplitl [H4]; · iexact H4
  isplitl [H5]; · iexact H5
  iexact H6

/-- A core's unscoped buffers at `V` are pipeline 0's arrays at their shares, at the entry contents, and the
    unscoped rest. -/
theorem arrays_of_unscopedBufs0 {c : Dev nD} (dat : Dat τ (Elt F) Unit ℕ (UR sig nD τ) ℕ cfg0 c)
    (hs0 : dat.share 0 = fullShare.left) (hs1 : dat.share 1 = fullShare.right)
    (hs : ∀ w : Fin 7, w ≠ 0 → w ≠ 1 → dat.share w = fullShare)
    (V : (b : Ref sig .tc) → Buf (Elt F) ((c : Thread nD τ).loc b))
    (hA : ∀ w, dat.A w = V (Pipeline.arrRef spec0 w)) :
    (unscopedBufs c V : sProp 𝕄) ⊢ iprop(dat.arrays (dat.arrAt · 0) ∗ Pipeline.unscopedRest spec0 c V) := by
  rw [Pipeline.unscopedBufs_split₀ cfgs 0 winFacts₀0.arr_unscoped c V]
  exact sep_mono (arrays_of_arrBufs0 dat hs0 hs1 hs V _ fun w => by rw [show dat.arrAt w 0 = dat.A w from rfl, hA]) .rfl

/-- Pipeline 0's arrays at contents `Fa` and the unscoped rest at `V` are the core's unscoped buffers at any
    valuation `V'` that has the arrays at `Fa` and agrees with `V` off them. -/
theorem unscopedBufs_of_arrays0 {c : Dev nD} (dat : Dat τ (Elt F) Unit ℕ (UR sig nD τ) ℕ cfg0 c)
    (hs0 : dat.share 0 = fullShare.left) (hs1 : dat.share 1 = fullShare.right)
    (hs : ∀ w : Fin 7, w ≠ 0 → w ≠ 1 → dat.share w = fullShare)
    (V V' : (b : Ref sig .tc) → Buf (Elt F) ((c : Thread nD τ).loc b))
    (Fa : (w : Fin cfg0.W) → Buf (Elt F) ((cfg0.win w).arr.view.loc (c : Thread nD τ)))
    (hF : ∀ w, Fa w = V' (Pipeline.arrRef spec0 w))
    (hrest : ∀ b, b ∉ Finset.univ.image (Pipeline.arrRef spec0) → V' b = V b) :
    iprop(dat.arrays Fa ∗ Pipeline.unscopedRest spec0 c V) ⊢ (unscopedBufs c V' : sProp 𝕄) := by
  rw [Pipeline.unscopedBufs_split₀ cfgs 0 winFacts₀0.arr_unscoped c V']
  refine sep_mono (arrBufs_of_arrays0 dat hs0 hs1 hs V' Fa hF) (Entails.of_eq ?_)
  unfold Pipeline.unscopedRest
  exact bigSep_congr fun b hb => by rw [hrest b (Finset.mem_sdiff.mp hb).2]

end Cert.KernelIdeal.Hand

end
-- ==== Proof.KShare1.lean ====
/- The same as for the first pallas_call, for the second (nineteen windows, the first two blocks of one array): the
   buffers behind the arrays at the full share are the windowed arrays with the shared array dealt in two halves, in
   both directions, and hence the entry and exit entailments against a core's unscoped buffers. -/
import proofs.«168503_j21964462751805_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 1: windows 0 and 1 are blocks of one array, each held at half of its full share -/

/-- The windowed arrays of pipeline 1, each whole at its share at the valuation's contents. -/
theorem arrays_eq_shares1 {c : Dev nD} (dat : Dat τ (Elt F) Unit ℕ (UR sig nD τ) ℕ cfg1 c)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (dat.arrays Fa : sProp 𝕄) = bigSep Finset.univ fun w : Fin 19 => (((c : Thread nD τ).loc (Pipeline.arrRef spec1 w)) ↦{dat.share w} V (Pipeline.arrRef spec1 w) : sProp 𝕄) := by
  unfold Dat.arrays
  exact bigSep_congr fun w _ => by rw [(arr_whole1 w).set_eq_univ, hF]

/-- The distinct buffers behind the arrays, listed. -/
theorem arrBufs_eq1 (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v13) ↦{fullShare} V main_v13) ∗ (((c : Thread nD τ).loc main_v19) ↦{fullShare} V main_v19) ∗ (((c : Thread nD τ).loc main_v3) ↦{fullShare} V main_v3) ∗ (((c : Thread nD τ).loc main_v4) ↦{fullShare} V main_v4) ∗ (((c : Thread nD τ).loc main_arg5) ↦{fullShare} V main_arg5) ∗ (((c : Thread nD τ).loc main_v5) ↦{fullShare} V main_v5) ∗ (((c : Thread nD τ).loc main_arg7) ↦{fullShare} V main_arg7) ∗ (((c : Thread nD τ).loc main_v6) ↦{fullShare} V main_v6) ∗ (((c : Thread nD τ).loc main_arg9) ↦{fullShare} V main_arg9) ∗ (((c : Thread nD τ).loc main_v7) ↦{fullShare} V main_v7) ∗ (((c : Thread nD τ).loc main_v20_0) ↦{fullShare} V main_v20_0) ∗ (((c : Thread nD τ).loc main_v20_1) ↦{fullShare} V main_v20_1) ∗ (((c : Thread nD τ).loc main_v20_2) ↦{fullShare} V main_v20_2) ∗ (((c : Thread nD τ).loc main_v20_3) ↦{fullShare} V main_v20_3)) := by
  unfold Pipeline.arrBufs
  exact bigSep_eq_bigSepL_of_eq [main_arg0, main_v0, main_v1, main_v2, main_v13, main_v19, main_v3, main_v4, main_arg5, main_v5, main_arg7, main_v6, main_arg9, main_v7, main_v20_0, main_v20_1, main_v20_2, main_v20_3] (by decide) (by decide) _

/-- ENTRY: the buffers behind the arrays, whole at the full share, are the windowed arrays at their shares — the
    shared array's full share dealt in two halves to the two windows on it. -/
theorem arrays_of_arrBufs1 {c : Dev nD} (dat : Dat τ (Elt F) Unit ℕ (UR sig nD τ) ℕ cfg1 c)
    (hs0 : dat.share 0 = fullShare.left) (hs1 : dat.share 1 = fullShare.right)
    (hs : ∀ w : Fin 19, w ≠ 0 → w ≠ 1 → dat.share w = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (Pipeline.arrBufs spec1 c V : sProp 𝕄) ⊢ dat.arrays Fa := by
  rw [arrays_eq_shares1 dat V Fa hF, arrBufs_eq1, bigSep_W1, hs0, hs1, hs 2 (by decide) (by decide), hs 3 (by decide) (by decide), hs 4 (by decide) (by decide), hs 5 (by decide) (by decide), hs 6 (by decide) (by decide), hs 7 (by decide) (by decide), hs 8 (by decide) (by decide), hs 9 (by decide) (by decide), hs 10 (by decide) (by decide), hs 11 (by decide) (by decide), hs 12 (by decide) (by decide), hs 13 (by decide) (by decide), hs 14 (by decide) (by decide), hs 15 (by decide) (by decide), hs 16 (by decide) (by decide), hs 17 (by decide) (by decide), hs 18 (by decide) (by decide)]
  iintro ⟨H1, H2, H3, H4, H5, H6, H7, H8, H9, H10, H11, H12, H13, H14, H15, H16, H17, H18⟩
  ihave H01 := (pointsTo_share (PosShare.mem_left_op_right fullShare)).1 $$ H1
  icases H01 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- EXIT: and back, the two halves joined. -/
theorem arrBufs_of_arrays1 {c : Dev nD} (dat : Dat τ (Elt F) Unit ℕ (UR sig nD τ) ℕ cfg1 c)
    (hs0 : dat.share 0 = fullShare.left) (hs1 : dat.share 1 = fullShare.right)
    (hs : ∀ w : Fin 19, w ≠ 0 → w ≠ 1 → dat.share w = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    dat.arrays Fa ⊢ (Pipeline.arrBufs spec1 c V : sProp 𝕄) := by
  rw [arrays_eq_shares1 dat V Fa hF, arrBufs_eq1, bigSep_W1, hs0, hs1, hs 2 (by decide) (by decide), hs 3 (by decide) (by decide), hs 4 (by decide) (by decide), hs 5 (by decide) (by decide), hs 6 (by decide) (by decide), hs 7 (by decide) (by decide), hs 8 (by decide) (by decide), hs 9 (by decide) (by decide), hs 10 (by decide) (by decide), hs 11 (by decide) (by decide), hs 12 (by decide) (by decide), hs 13 (by decide) (by decide), hs 14 (by decide) (by decide), hs 15 (by decide) (by decide), hs 16 (by decide) (by decide), hs 17 (by decide) (by decide), hs 18 (by decide) (by decide)]
  iintro ⟨H0, H1, H2, H3, H4, H5, H6, H7, H8, H9, H10, H11, H12, H13, H14, H15, H16, H17, H18⟩
  isplitl [H0 H1]
  · iapply (pointsTo_share (PosShare.mem_left_op_right fullShare)).2
    isplitl [H0]; · iexact H0
    iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- A core's unscoped buffers at `V` are pipeline 1's arrays at their shares, at the entry contents, and the
    unscoped rest. -/
theorem arrays_of_unscopedBufs1 {c : Dev nD} (dat : Dat τ (Elt F) Unit ℕ (UR sig nD τ) ℕ cfg1 c)
    (hs0 : dat.share 0 = fullShare.left) (hs1 : dat.share 1 = fullShare.right)
    (hs : ∀ w : Fin 19, w ≠ 0 → w ≠ 1 → dat.share w = fullShare)
    (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  rw [Pipeline.unscopedBufs_split₀ cfgs 1 winFacts₀1.arr_unscoped c V]
  exact sep_mono (arrays_of_arrBufs1 dat hs0 hs1 hs V _ fun w => by rw [show dat.arrAt w 0 = dat.A w from rfl, hA]) .rfl

/-- Pipeline 1's arrays at contents `Fa` and the unscoped rest at `V` are the core's unscoped buffers at any
    valuation `V'` that has the arrays at `Fa` and agrees with `V` off them. -/
theorem unscopedBufs_of_arrays1 {c : Dev nD} (dat : Dat τ (Elt F) Unit ℕ (UR sig nD τ) ℕ cfg1 c)
    (hs0 : dat.share 0 = fullShare.left) (hs1 : dat.share 1 = fullShare.right)
    (hs : ∀ w : Fin 19, w ≠ 0 → w ≠ 1 → dat.share w = fullShare)
    (V V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V b) :
    iprop(dat.arrays Fa ∗ Pipeline.unscopedRest spec1 c V) ⊢ (unscopedBufs c V' : sProp 𝕄) := by
  rw [Pipeline.unscopedBufs_split₀ cfgs 1 winFacts₀1.arr_unscoped c V']
  refine sep_mono (arrBufs_of_arrays1 dat hs0 hs1 hs V' Fa hF) (Entails.of_eq ?_)
  unfold Pipeline.unscopedRest
  exact bigSep_congr fun b hb => by rw [hrest b (Finset.mem_sdiff.mp hb).2]

end Cert.KernelIdeal.Hand

end
-- ==== Proof.KRunSegs.lean ====
/- The three pallas_calls as segments over the thread state "every unscoped buffer held whole at the boundary's contents,
   the generator register at some state, nothing owed". Each pipeline's proof data sit at its entry contents. At entry
   the pipeline's arrays are split out of the unscoped buffers (the array two windows share dealt in two halves) and at
   exit put back at the next boundary's contents: an input array is never written, an output array holds its
   write-backs folded, every other buffer is untouched. -/
import proofs.«168503_j21964462751805_2_alg».proof.Proof.KRunVals
import proofs.«168503_j21964462751805_2_alg».proof.Proof.KShare
import proofs.«168503_j21964462751805_2_alg».proof.Proof.KShare1
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The proof data family and the thread state -/

/-- Every pipeline's proof data, each at its pallas_call's entry contents — a literal `match`. -/
def pdats : (p : Fin 3) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The shares pipeline 0's proof data hold the arrays at: the shared array's two halves, the others whole. -/
theorem share0_0 (V : (c : Dev nD) → (b : Ref sig .tc) → Buf (Elt F) ((c : Thread nD τ).loc b)) (c : Dev nD) : (dat0 V c).share 0 = fullShare.left := by
  unfold Dat.share; rw [if_neg (by decide)]; dsimp only [dat0]
theorem share0_1 (V : (c : Dev nD) → (b : Ref sig .tc) → Buf (Elt F) ((c : Thread nD τ).loc b)) (c : Dev nD) : (dat0 V c).share 1 = fullShare.right := by
  unfold Dat.share; rw [if_neg (by decide)]; dsimp only [dat0]
theorem share0_rest (V : (c : Dev nD) → (b : Ref sig .tc) → Buf (Elt F) ((c : Thread nD τ).loc b)) (c : Dev nD) : ∀ w : Fin 7, w ≠ 0 → w ≠ 1 → (dat0 V c).share w = fullShare
  | ⟨0, _⟩, h, _ => absurd rfl h
  | ⟨1, _⟩, _, h => absurd rfl h
  | ⟨2, _⟩, _, _ => by unfold Dat.share; split <;> first | rfl | dsimp only [dat0]
  | ⟨3, _⟩, _, _ => by unfold Dat.share; split <;> first | rfl | dsimp only [dat0]
  | ⟨4, _⟩, _, _ => by unfold Dat.share; split <;> first | rfl | dsimp only [dat0]
  | ⟨5, _⟩, _, _ => by unfold Dat.share; split <;> first | rfl | dsimp only [dat0]
  | ⟨6, _⟩, _, _ => by unfold Dat.share; split <;> first | rfl | dsimp only [dat0]

/-- The shares pipeline 1's proof data hold the arrays at: the shared array's two halves, the others whole. -/
theorem share1_0 (V : (c : Dev nD) → (b : Ref sig .tc) → Buf (Elt F) ((c : Thread nD τ).loc b)) (c : Dev nD) : (dat1 V c).share 0 = fullShare.left := by
  unfold Dat.share; rw [if_neg (by decide)]; dsimp only [dat1]
theorem share1_1 (V : (c : Dev nD) → (b : Ref sig .tc) → Buf (Elt F) ((c : Thread nD τ).loc b)) (c : Dev nD) : (dat1 V c).share 1 = fullShare.right := by
  unfold Dat.share; rw [if_neg (by decide)]; dsimp only [dat1]
theorem share1_rest (V : (c : Dev nD) → (b : Ref sig .tc) → Buf (Elt F) ((c : Thread nD τ).loc b)) (c : Dev nD) : ∀ w : Fin 19, w ≠ 0 → w ≠ 1 → (dat1 V c).share w = fullShare
  | ⟨0, _⟩, h, _ => absurd rfl h
  | ⟨1, _⟩, _, h => absurd rfl h
  | ⟨2, _⟩, _, _ => by unfold Dat.share; split <;> first | rfl | dsimp only [dat1]
  | ⟨3, _⟩, _, _ => by unfold Dat.share; split <;> first | rfl | dsimp only [dat1]
  | ⟨4, _⟩, _, _ => by unfold Dat.share; split <;> first | rfl | dsimp only [dat1]
  | ⟨5, _⟩, _, _ => by unfold Dat.share; split <;> first | rfl | dsimp only [dat1]
  | ⟨6, _⟩, _, _ => by unfold Dat.share; split <;> first | rfl | dsimp only [dat1]
  | ⟨7, _⟩, _, _ => by unfold Dat.share; split <;> first | rfl | dsimp only [dat1]
  | ⟨8, _⟩, _, _ => by unfold Dat.share; split <;> first | rfl | dsimp only [dat1]
  | ⟨9, _⟩, _, _ => by unfold Dat.share; split <;> first | rfl | dsimp only [dat1]
  | ⟨10, _⟩, _, _ => by unfold Dat.share; split <;> first | rfl | dsimp only [dat1]
  | ⟨11, _⟩, _, _ => by unfold Dat.share; split <;> first | rfl | dsimp only [dat1]
  | ⟨12, _⟩, _, _ => by unfold Dat.share; split <;> first | rfl | dsimp only [dat1]
  | ⟨13, _⟩, _, _ => by unfold Dat.share; split <;> first | rfl | dsimp only [dat1]
  | ⟨14, _⟩, _, _ => by unfold Dat.share; split <;> first | rfl | dsimp only [dat1]
  | ⟨15, _⟩, _, _ => by unfold Dat.share; split <;> first | rfl | dsimp only [dat1]
  | ⟨16, _⟩, _, _ => by unfold Dat.share; split <;> first | rfl | dsimp only [dat1]
  | ⟨17, _⟩, _, _ => by unfold Dat.share; split <;> first | rfl | dsimp only [dat1]
  | ⟨18, _⟩, _, _ => by unfold Dat.share; split <;> first | rfl | dsimp only [dat1]
  | ⟨_ + 19, h⟩, _, _ => absurd h (Nat.not_lt.2 (Nat.le_add_left _ _))

/-- An input window's array ends as entered: never written, and no output's array. -/
theorem hF0_in (c : Dev nD) (w : Fin cfg0.W) (hin : (cfg0.win w).isOut = false)
    (hne : Pipeline.arrRef spec0 w ∉ ([main_v11_0, main_v11_1] : List (Ref sig .tc))) :
    (dat0 (E1 m) c).arrAt w cfg0.N = E2 m c (Pipeline.arrRef spec0 w) := by
  rw [(dat0 (E1 m) c).arrAt_in w hin, A_eq0]
  exact (X2_of m c _ hne).symm
/-- No input window's array is an output's. -/
theorem in_ne_out0 : ∀ w : Fin 7, (cfg0.win w).isOut = false → Pipeline.arrRef spec0 w ∉ ([main_v11_0, main_v11_1] : List (Ref sig .tc)) := by decide
/-- The output windows. -/
theorem outs_are0 : ∀ w : Fin 7, ¬ (cfg0.win w).isOut = false → w = 5 ∨ w = 6 := by decide
/-- At pipeline 0's exit each of its arrays holds what the pipeline leaves: an input's as entered, an output's its
    write-backs folded. -/
theorem hF0 (c : Dev nD) (w : Fin cfg0.W) : (dat0 (E1 m) c).arrAt w cfg0.N = E2 m c (Pipeline.arrRef spec0 w) := by
  by_cases hout : (cfg0.win w).isOut = false
  · exact hF0_in m c w hout (in_ne_out0 w hout)
  · rcases outs_are0 w hout with rfl | rfl
    · show (dat0 (E1 m) c).arrAt 5 cfg0.N = X2 m c (Proc.devRef .tc main_v11_0)
      exact (X2_main_v11_0 m c).symm
    · show (dat0 (E1 m) c).arrAt 6 cfg0.N = X2 m c (Proc.devRef .tc main_v11_1)
      exact (X2_main_v11_1 m c).symm
/-- Every other buffer holds what it held at entry. -/
theorem hrest0 (c : Dev nD) : ∀ b, b ∉ Finset.univ.image (Pipeline.arrRef spec0) → E2 m c b = E1 m c b := fun b hb =>
  X2_of m c b fun h => by
    simp only [List.mem_cons, List.mem_singleton, List.not_mem_nil, or_false] at h
    rcases h with rfl | rfl
    · exact hb (Finset.mem_image.mpr ⟨5, Finset.mem_univ _, rfl⟩)
    · exact hb (Finset.mem_image.mpr ⟨6, Finset.mem_univ _, rfl⟩)

/-- An input window's array ends as entered: never written, and no output's array. -/
theorem hF1_in (c : Dev nD) (w : Fin cfg1.W) (hin : (cfg1.win w).isOut = false)
    (hne : Pipeline.arrRef spec1 w ∉ ([main_v20_0, main_v20_1, main_v20_2, main_v20_3] : List (Ref sig .tc))) :
    (dat1 (E3 m) c).arrAt w cfg1.N = E4 m c (Pipeline.arrRef spec1 w) := by
  rw [(dat1 (E3 m) c).arrAt_in w hin, A_eq1]
  exact (X4_of m c _ hne).symm
/-- No input window's array is an output's. -/
theorem in_ne_out1 : ∀ w : Fin 19, (cfg1.win w).isOut = false → Pipeline.arrRef spec1 w ∉ ([main_v20_0, main_v20_1, main_v20_2, main_v20_3] : List (Ref sig .tc)) := by decide
/-- The output windows. -/
theorem outs_are1 : ∀ w : Fin 19, ¬ (cfg1.win w).isOut = false → w = 15 ∨ w = 16 ∨ w = 17 ∨ w = 18 := by decide
/-- At pipeline 1's exit each of its arrays holds what the pipeline leaves: an input's as entered, an output's its
    write-backs folded. -/
theorem hF1 (c : Dev nD) (w : Fin cfg1.W) : (dat1 (E3 m) c).arrAt w cfg1.N = E4 m c (Pipeline.arrRef spec1 w) := by
  by_cases hout : (cfg1.win w).isOut = false
  · exact hF1_in m c w hout (in_ne_out1 w hout)
  · rcases outs_are1 w hout with rfl | rfl | rfl | rfl
    · show (dat1 (E3 m) c).arrAt 15 cfg1.N = X4 m c (Proc.devRef .tc main_v20_0)
      exact (X4_main_v20_0 m c).symm
    · show (dat1 (E3 m) c).arrAt 16 cfg1.N = X4 m c (Proc.devRef .tc main_v20_1)
      exact (X4_main_v20_1 m c).symm
    · show (dat1 (E3 m) c).arrAt 17 cfg1.N = X4 m c (Proc.devRef .tc main_v20_2)
      exact (X4_main_v20_2 m c).symm
    · show (dat1 (E3 m) c).arrAt 18 cfg1.N = X4 m c (Proc.devRef .tc main_v20_3)
      exact (X4_main_v20_3 m c).symm
/-- Every other buffer holds what it held at entry. -/
theorem hrest1 (c : Dev nD) : ∀ b, b ∉ Finset.univ.image (Pipeline.arrRef spec1) → E4 m c b = E3 m c b := fun b hb =>
  X4_of m c b fun h => by
    simp only [List.mem_cons, List.mem_singleton, List.not_mem_nil, or_false] at h
    rcases h with rfl | rfl | rfl | rfl
    · exact hb (Finset.mem_image.mpr ⟨15, Finset.mem_univ _, rfl⟩)
    · exact hb (Finset.mem_image.mpr ⟨16, Finset.mem_univ _, rfl⟩)
    · exact hb (Finset.mem_image.mpr ⟨17, Finset.mem_univ _, rfl⟩)
    · exact hb (Finset.mem_image.mpr ⟨18, Finset.mem_univ _, rfl⟩)

/-- An input window's array ends as entered: never written, and no output's array. -/
theorem hF2_in (c : Dev nD) (w : Fin cfg2.W) (hin : (cfg2.win w).isOut = false)
    (hne : Pipeline.arrRef spec2 w ∉ ([main_v29] : List (Ref sig .tc))) :
    (dat2 (E5 m) c).arrAt w cfg2.N = E6 m c (Pipeline.arrRef spec2 w) := by
  rw [(dat2 (E5 m) c).arrAt_in w hin, A_eq2]
  exact (X6_of m c _ hne).symm
/-- No input window's array is an output's. -/
theorem in_ne_out2 : ∀ w : Fin 8, (cfg2.win w).isOut = false → Pipeline.arrRef spec2 w ∉ ([main_v29] : List (Ref sig .tc)) := by decide
/-- The output windows. -/
theorem outs_are2 : ∀ w : Fin 8, ¬ (cfg2.win w).isOut = false → w = 7 := by decide
/-- At pipeline 2's exit each of its arrays holds what the pipeline leaves: an input's as entered, an output's its
    write-backs folded. -/
theorem hF2 (c : Dev nD) (w : Fin cfg2.W) : (dat2 (E5 m) c).arrAt w cfg2.N = E6 m c (Pipeline.arrRef spec2 w) := by
  by_cases hout : (cfg2.win w).isOut = false
  · exact hF2_in m c w hout (in_ne_out2 w hout)
  · rcases outs_are2 w hout with rfl
    · show (dat2 (E5 m) c).arrAt 7 cfg2.N = X6 m c (Proc.devRef .tc main_v29)
      exact (X6_main_v29 m c).symm
/-- Every other buffer holds what it held at entry. -/
theorem hrest2 (c : Dev nD) : ∀ b, b ∉ Finset.univ.image (Pipeline.arrRef spec2) → E6 m c b = E5 m c b := fun b hb =>
  X6_of m c b fun h => by
    simp only [List.mem_cons, List.mem_singleton, List.not_mem_nil, or_false] at h
    rcases h with rfl
    · exact hb (Finset.mem_image.mpr ⟨7, Finset.mem_univ _, rfl⟩)

set_option backward.isDefEq.respectTransparency.types false in
/-- The pallas_call of pipeline 0 over the thread state: entered from every unscoped buffer at `X1`, left at `X2`.
    Its arrays split out of the unscoped buffers — the array two windows read dealt to them in two halves — and put back at
    the exit contents; the generator register into the class invariant and out; nothing owed; no semaphore of the kernel's own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := arrays_of_unscopedBufs0 (dat0 (E1 m) c) (share0_0 _ c) (share0_1 _ c) (share0_rest _ c) (E1 m c) (A_eq0 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (dat0 (E1 m) c) (share0_0 _ c) (share0_1 _ c) (share0_rest _ c)
      (E1 m c) (E2 m c) ((dat0 (E1 m) c).arrAt · cfg0.N) (hF0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The pallas_call of pipeline 1 over the thread state: entered from every unscoped buffer at `X3`, left at `X4`.
    Its arrays split out of the unscoped buffers — the array two windows read dealt to them in two halves — and put back at
    the exit contents; the generator register into the class invariant and out; nothing owed; no semaphore of the kernel's own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := arrays_of_unscopedBufs1 (dat1 (E3 m) c) (share1_0 _ c) (share1_1 _ c) (share1_rest _ c) (E3 m c) (A_eq1 (E3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (dat1 (E3 m) c) (share1_0 _ c) (share1_1 _ c) (share1_rest _ c)
      (E3 m c) (E4 m c) ((dat1 (E3 m) c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The pallas_call of pipeline 2 over the thread state: entered from every unscoped buffer at `X5`, left at `X6`. Its
    arrays, distinct buffers, split out of the unscoped buffers and put back at the exit contents. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KRun.lean ====
/- @main is the run of seven segments — four host stretches and three pallas_calls — whose thread states chain from the
   launch to the return. Hence from any memory with zero counters every weakly fair execution terminates, and every
   final state holds the two results at the last boundary's contents and each of the fifteen argument arrays as
   launched; the frame claim is the latter part alone. -/
import proofs.«168503_j21964462751805_2_alg».proof.Proof.KRunSegs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The first result is the last host stretch's reshape of the second pallas_call's first output array as its write-backs
    leave it. -/
theorem X7_main_v30_eq (c : Dev nD) : X7 m c main_v30
    = fun i => (rfl : main_v20_0.ty.elt = main_v30.ty.elt) ▸ shapeCast main_v30.ty.shape ((dat1 (E3 m) c).arrAt 15 cfg1.N) shapeCasts_S16x256x256_S16x65536 i := by
  unfold X7
  rw [show (hostOps3 : List (HloOp τ sig (Elt F))) = [StableHlo.reshape main_v20_0 main_v30 rfl shapeCasts_S16x256x256_S16x65536] from rfl,
    StableHlo.after_cons, StableHlo.after_nil, StableHlo.reshape_result', X6_main_v20_0]

/-! # @main as segments, and the launch -/

/-- @main's 7 segments in order: a host segment per stretch from its boundary's contents, a region per pallas_call. -/
abbrev segs : List (Pipeline.Seg (pcfgs (F := F)) Gen.adm (pdats m) () defs₀ 𝒱₀ L lv) :=
  [ .host (hseg hostOps0 hostOps0_sub Gen.hostOps0_fresh (X0 m)),
    .region (reg0 m),
    .host (hseg hostOps1 hostOps1_sub Gen.hostOps1_fresh (X2 m)),
    .region (reg1 m),
    .host (hseg hostOps2 hostOps2_sub Gen.hostOps2_fresh (X4 m)),
    .region (reg2 m),
    .host (hseg hostOps3 hostOps3_sub Gen.hostOps3_fresh (X6 m)) ]

/-- @main is the run of the segments. -/
theorem main_run (c : Dev nD) : main (F := F) c = Pipeline.Seg.run (segs m) := (main_chain c).trans (by chain_rfl)

set_option backward.isDefEq.respectTransparency.types false in
/-- From any memory with zero counters, every weakly fair execution of @main on the TensorCores terminates, nothing
    faulting, and every final state holds the two results at the last boundary's contents and the argument arrays as
    launched: the launch over the segments, the last thread state read against the final state, each argument walked
    back through the fold. -/
theorem run_values : θ_run defs (onTc (τ := τ) (main (F := F))) ⟨m, fun _ => 0, ρ⟩ (fun r => ∀ c : Dev nD,
      r.2.mem ((c.tc : Thread nD τ).loc main_v30) = X7 m c (Proc.devRef .tc main_v30)
      ∧ r.2.mem ((c.tc : Thread nD τ).loc main_v29) = X7 m c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c))
    (Tₙ := fun c => StableHlo.held (c : Thread nD τ) (Pipeline.ucRefs τ sig) (X7 m c))
    (hch := ⟨fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X7 m c b)
    (hfin := fun c s' => by
      iintro ⟨Hh, HSI⟩
      unfold StableHlo.held
      imodintro
      iapply (pointsTo_read_all (Pipeline.ucRefs τ sig) (fun b => (((c : Thread nD τ)).1, b)) (X7 m c) s')
      isplitl [Hh] <;> iassumption)
    (hQ := fun s h c =>
      ⟨h c _ (mem_uc main_v30 (by decide)), h c _ (mem_uc main_v29 (by decide)),
       (h c _ (mem_uc main_arg0 (by decide))).trans (X7_main_arg0 m c),
       (h c _ (mem_uc main_arg1 (by decide))).trans (X7_main_arg1 m c),
       (h c _ (mem_uc main_arg2 (by decide))).trans (X7_main_arg2 m c),
       (h c _ (mem_uc main_arg3 (by decide))).trans (X7_main_arg3 m c),
       (h c _ (mem_uc main_arg4 (by decide))).trans (X7_main_arg4 m c),
       (h c _ (mem_uc main_arg5 (by decide))).trans (X7_main_arg5 m c),
       (h c _ (mem_uc main_arg6 (by decide))).trans (X7_main_arg6 m c),
       (h c _ (mem_uc main_arg7 (by decide))).trans (X7_main_arg7 m c),
       (h c _ (mem_uc main_arg8 (by decide))).trans (X7_main_arg8 m c),
       (h c _ (mem_uc main_arg9 (by decide))).trans (X7_main_arg9 m c),
       (h c _ (mem_uc main_arg10 (by decide))).trans (X7_main_arg10 m c),
       (h c _ (mem_uc main_arg11 (by decide))).trans (X7_main_arg11 m c),
       (h c _ (mem_uc main_arg12 (by decide))).trans (X7_main_arg12 m c),
       (h c _ (mem_uc main_arg13 (by decide))).trans (X7_main_arg13 m c),
       (h c _ (mem_uc main_arg14 (by decide))).trans (X7_main_arg14 m c)⟩)

/-- The frame claim at any `F`: every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs (onTc (τ := τ) (main (F := F))) ⟨m, fun _ => 0, ρ⟩).mono (fun r h c => (h c).2.2) (run_values m ρ)

/-- info: 'Cert.KernelIdeal.Hand.run_values' depends on axioms: [propext, Classical.choice, Quot.sound] -/
#guard_msgs in #print axioms run_values

end Cert.KernelIdeal.Hand

end
-- ==== Proof.Spec.lean ====
/-
  The function both programs compute, on the extended reals, index by index.

  A graph of 256 nodes per batch entry (16 entries), node features of width 64.  Every ORDERED pair (s, t) of nodes is an
  edge.  An edge's feature is the source's features followed by the target's (width 128); a first linear layer (W1, b1) of
  width 32 acts on it, so its value is a source part plus a target part plus the bias.  Batch normalisation over ALL
  16·256·256 edges (mean, biased variance as the mean of squared deviations, eps inside the reciprocal square root, scale g1,
  shift be1), leaky ReLU; a second layer (W2, b2) with leaky ReLU; a third (W3, b3) of width 2: a gate logit and a message.
  The gate is the logistic function of the logit; the FIRST result is the gate of every edge.  The gated message of edge
  (s, t) is summed over the 4 targets t ≡ d (mod 64) into entry d of node s's aggregate (width 64).  The node's features
  followed by its aggregate (width 128) go through a linear layer (F1, fb1) of width 16, batch normalisation over all 16·256
  nodes, leaky ReLU and a last layer (F2, fb2) of width 64: the SECOND result.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The fifteen argument arrays, as functions of their indices. -/
structure Args where
  x   : (⟨3, ![16, 256, 64]⟩ : Shape).Idx → EReal
  W1  : (⟨2, ![32, 128]⟩ : Shape).Idx → EReal
  b1  : (⟨1, ![32]⟩ : Shape).Idx → EReal
  g1  : (⟨1, ![32]⟩ : Shape).Idx → EReal
  be1 : (⟨1, ![32]⟩ : Shape).Idx → EReal
  W2  : (⟨2, ![32, 32]⟩ : Shape).Idx → EReal
  b2  : (⟨1, ![32]⟩ : Shape).Idx → EReal
  W3  : (⟨2, ![2, 32]⟩ : Shape).Idx → EReal
  b3  : (⟨1, ![2]⟩ : Shape).Idx → EReal
  F1  : (⟨2, ![16, 128]⟩ : Shape).Idx → EReal
  fb1 : (⟨1, ![16]⟩ : Shape).Idx → EReal
  fg  : (⟨1, ![16]⟩ : Shape).Idx → EReal
  fbb : (⟨1, ![16]⟩ : Shape).Idx → EReal
  F2  : (⟨2, ![64, 16]⟩ : Shape).Idx → EReal
  fb2 : (⟨1, ![64]⟩ : Shape).Idx → EReal

/-- The float literals both programs share, as the values their words denote. -/
def zero : EReal := Ideal.ofBits .f32 0x00000000#32
def slope : EReal := Ideal.ofBits .f32 0x3C23D70A#32
def eps : EReal := Ideal.ofBits .f32 0x3727C5AC#32
def cnt1 : EReal := Ideal.ofBits .f32 0x49800000#32
def cnt2 : EReal := Ideal.ofBits .f32 0x45800000#32

/-- Leaky ReLU: the value itself where it is at least zero, a fixed multiple of it elsewhere. -/
def lrelu (z : EReal) : EReal := Scalar.select (Ideal.cmp .oge z zero) z (slope * z)

/-- Column `64 + k` of a width-128 layer. -/
abbrev hi (k : Fin 64) : Fin 128 := ⟨64 + k.val, by have := k.isLt; omega⟩
/-- Column `k` of a width-128 layer. -/
abbrev lo (k : Fin 64) : Fin 128 := ⟨k.val, by have := k.isLt; omega⟩
/-- The target `g · 64 + d`. -/
abbrev tgt (g : Fin 4) (d : Fin 64) : Fin 256 := ⟨g.val * 64 + d.val, by have := g.isLt; have := d.isLt; omega⟩

variable (a : Args)

/-- The first layer on edge (s, t) of entry b: the source's part, the target's part, the bias. -/
def h1 (b : Fin 16) (s t : Fin 256) (o : Fin 32) : EReal :=
  ((∑ k : Fin 64, a.x (ix3 b s k) * a.W1 (ix2 o (lo k))) + (∑ k : Fin 64, a.x (ix3 b t k) * a.W1 (ix2 o (hi k)))) + a.b1 (ix1 o)

def mean1 (o : Fin 32) : EReal := Ideal.div (∑ b : Fin 16, ∑ s : Fin 256, ∑ t : Fin 256, h1 a b s t o) cnt1

def var1 (o : Fin 32) : EReal :=
  Ideal.div (∑ b : Fin 16, ∑ s : Fin 256, ∑ t : Fin 256, (h1 a b s t o - mean1 a o) * (h1 a b s t o - mean1 a o)) cnt1

def inv1 (o : Fin 32) : EReal := Ideal.rsqrt (var1 a o + eps)

def h1n (b : Fin 16) (s t : Fin 256) (o : Fin 32) : EReal :=
  lrelu ((((h1 a b s t o - mean1 a o) * inv1 a o) * a.g1 (ix1 o)) + a.be1 (ix1 o))

def h2 (b : Fin 16) (s t : Fin 256) (p : Fin 32) : EReal :=
  lrelu ((∑ o : Fin 32, h1n a b s t o * a.W2 (ix2 p o)) + a.b2 (ix1 p))

def out (b : Fin 16) (s t : Fin 256) (j : Fin 2) : EReal :=
  (∑ p : Fin 32, h2 a b s t p * a.W3 (ix2 j p)) + a.b3 (ix1 j)

/-- The gate of edge (s, t). -/
def edge (b : Fin 16) (s t : Fin 256) : EReal := Ideal.logistic (out a b s t 0)

/-- The gated message of edge (s, t). -/
def weighted (b : Fin 16) (s t : Fin 256) : EReal := edge a b s t * out a b s t 1

/-- Entry d of node s's aggregate: the gated messages of the four edges to the targets g · 64 + d. -/
def agg (b : Fin 16) (s : Fin 256) (d : Fin 64) : EReal := ∑ g : Fin 4, weighted a b s (tgt g d)

def h2pre (b : Fin 16) (s : Fin 256) (q : Fin 16) : EReal :=
  ((∑ k : Fin 64, a.x (ix3 b s k) * a.F1 (ix2 q (lo k))) + (∑ k : Fin 64, agg a b s k * a.F1 (ix2 q (hi k)))) + a.fb1 (ix1 q)

def mean2 (q : Fin 16) : EReal := Ideal.div (∑ b : Fin 16, ∑ s : Fin 256, h2pre a b s q) cnt2

def var2 (q : Fin 16) : EReal :=
  Ideal.div (∑ b : Fin 16, ∑ s : Fin 256, (h2pre a b s q - mean2 a q) * (h2pre a b s q - mean2 a q)) cnt2

def inv2 (q : Fin 16) : EReal := Ideal.rsqrt (var2 a q + eps)

def h2n (b : Fin 16) (s : Fin 256) (q : Fin 16) : EReal :=
  lrelu ((((h2pre a b s q - mean2 a q) * inv2 a q) * a.fg (ix1 q)) + a.fbb (ix1 q))

def pred (b : Fin 16) (s : Fin 256) (d : Fin 64) : EReal :=
  (∑ q : Fin 16, h2n a b s q * a.F2 (ix2 d q)) + a.fb2 (ix1 d)

/-- The first result, [16, 65536]: entry (b, e) is the gate of edge (e / 256, e % 256). -/
def edgesOut : (⟨2, ![16, 65536]⟩ : Shape).Idx → EReal := fun i =>
  edge a ⟨(i 0).val, idx2_lt0 i⟩ ⟨(i 1).val / 256, by have := idx2_lt1 i; omega⟩ ⟨(i 1).val % 256, by omega⟩

/-- The second result, [16, 256, 64]. -/
def predOut : (⟨3, ![16, 256, 64]⟩ : Shape).Idx → EReal := fun i =>
  pred a ⟨(i 0).val, (i 0).isLt⟩ ⟨(i 1).val, (i 1).isLt⟩ ⟨(i 2).val, (i 2).isLt⟩

end Cert.Spec

end
-- ==== Proof.KHost.lean ====
/-
  The kernel program's host stretches, read at an index on the extended reals, from any contents W of the buffers.

  Before the first region: W1's source half (columns 0..63) and target half (columns 64..127), and each bias / scale / shift
  vector recast as a one-row matrix.  Between the regions: the two accumulated sums divided by the row count give the mean
  and the mean of squares; the variance is the latter less the square of the mean, cut off below at zero.  After the last
  region: the [16, 256, 256] gates recast as [16, 65536].
-/
import proofs.«168503_j21964462751805_2_alg».proof.Proof.Gen.KernelIdeal.Launch
import proofs.«168503_j21964462751805_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.KHost

open Idealize.ShloMosaic Idealize.ShloMosaic.TcCoe Idealize.ShloMosaic.ValueIdx Cert.KernelIdeal Cert.KernelIdeal.Gen

variable (W : Valuation τ sig (Elt Ideal))

/-- A scalar literal spread over a one-row matrix reads as the literal's value. -/
theorem bcast_const_1n {n : Nat} (w : BitVec 32) (h : S_.BroadcastsInDim (⟨2, ![1, n]⟩ : Shape) ![]) (o : Fin n) :
    broadcastInDim (⟨2, ![1, n]⟩ : Shape) ![] h (constant (F := Ideal) S_ .f32 w) (ix2 (0 : Fin 1) o) = Ideal.ofBits .f32 w :=
  (broadcastInDim_apply _ h _ _ ix0 (fun a => a.elim0)).trans rfl

/-! ## Before the first region -/

theorem v0_at (o : Fin 32) (k : Fin 64) :
    StableHlo.after (hostOps0 (F := Ideal)) W (Proc.devRef .tc main_v0) (ix2 o k) = W (Proc.devRef .tc main_arg1) (ix2 o (Cert.Spec.lo k)) := by
  have e : StableHlo.after (hostOps0 (F := Ideal)) W (Proc.devRef .tc main_v0)
      = extractStridedSlice S32x64 ![0, 0] (W (Proc.devRef .tc main_arg1)) slices_S32x128_S32x64_0_0 := by after_results <;> rfl
  rw [e]; exact slice2_axis1_apply 0 _ _ o k (Cert.Spec.lo k) (Nat.zero_add _).symm

theorem v1_at (o : Fin 32) (k : Fin 64) :
    StableHlo.after (hostOps0 (F := Ideal)) W (Proc.devRef .tc main_v1) (ix2 o k) = W (Proc.devRef .tc main_arg1) (ix2 o (Cert.Spec.hi k)) := by
  have e : StableHlo.after (hostOps0 (F := Ideal)) W (Proc.devRef .tc main_v1)
      = extractStridedSlice S32x64 ![0, 64] (W (Proc.devRef .tc main_arg1)) slices_S32x128_S32x64_0_64 := by after_results <;> rfl
  rw [e]; exact slice2_axis1_apply 64 _ _ o k (Cert.Spec.hi k) rfl

theorem v2_at (o : Fin 32) :
    StableHlo.after (hostOps0 (F := Ideal)) W (Proc.devRef .tc main_v2) (ix2 (0 : Fin 1) o) = W (Proc.devRef .tc main_arg2) (ix1 o) := by
  have e : StableHlo.after (hostOps0 (F := Ideal)) W (Proc.devRef .tc main_v2)
      = shapeCast S1x32 (W (Proc.devRef .tc main_arg2)) shapeCasts_S32_S1x32 := by after_results <;> rfl
  rw [e]; exact shapeCast_a_1a_apply _ _ 0 o

theorem v3_at (o : Fin 32) :
    StableHlo.after (hostOps0 (F := Ideal)) W (Proc.devRef .tc main_v3) (ix2 (0 : Fin 1) o) = W (Proc.devRef .tc main_arg3) (ix1 o) := by
  have e : StableHlo.after (hostOps0 (F := Ideal)) W (Proc.devRef .tc main_v3)
      = shapeCast S1x32 (W (Proc.devRef .tc main_arg3)) shapeCasts_S32_S1x32 := by after_results <;> rfl
  rw [e]; exact shapeCast_a_1a_apply _ _ 0 o

theorem v4_at (o : Fin 32) :
    StableHlo.after (hostOps0 (F := Ideal)) W (Proc.devRef .tc main_v4) (ix2 (0 : Fin 1) o) = W (Proc.devRef .tc main_arg4) (ix1 o) := by
  have e : StableHlo.after (hostOps0 (F := Ideal)) W (Proc.devRef .tc main_v4)
      = shapeCast S1x32 (W (Proc.devRef .tc main_arg4)) shapeCasts_S32_S1x32 := by after_results <;> rfl
  rw [e]; exact shapeCast_a_1a_apply _ _ 0 o

theorem v5_at (o : Fin 32) :
    StableHlo.after (hostOps0 (F := Ideal)) W (Proc.devRef .tc main_v5) (ix2 (0 : Fin 1) o) = W (Proc.devRef .tc main_arg6) (ix1 o) := by
  have e : StableHlo.after (hostOps0 (F := Ideal)) W (Proc.devRef .tc main_v5)
      = shapeCast S1x32 (W (Proc.devRef .tc main_arg6)) shapeCasts_S32_S1x32 := by after_results <;> rfl
  rw [e]; exact shapeCast_a_1a_apply _ _ 0 o

theorem v6_at (j : Fin 2) :
    StableHlo.after (hostOps0 (F := Ideal)) W (Proc.devRef .tc main_v6) (ix2 (0 : Fin 1) j) = W (Proc.devRef .tc main_arg8) (ix1 j) := by
  have e : StableHlo.after (hostOps0 (F := Ideal)) W (Proc.devRef .tc main_v6)
      = shapeCast S1x2 (W (Proc.devRef .tc main_arg8)) shapeCasts_S2_S1x2 := by after_results <;> rfl
  rw [e]; exact shapeCast_a_1a_apply _ _ 0 j

theorem v7_at (q : Fin 16) :
    StableHlo.after (hostOps0 (F := Ideal)) W (Proc.devRef .tc main_v7) (ix2 (0 : Fin 1) q) = W (Proc.devRef .tc main_arg10) (ix1 q) := by
  have e : StableHlo.after (hostOps0 (F := Ideal)) W (Proc.devRef .tc main_v7)
      = shapeCast S1x16 (W (Proc.devRef .tc main_arg10)) shapeCasts_S16_S1x16 := by after_results <;> rfl
  rw [e]; exact shapeCast_a_1a_apply _ _ 0 q

theorem v8_at (q : Fin 16) :
    StableHlo.after (hostOps0 (F := Ideal)) W (Proc.devRef .tc main_v8) (ix2 (0 : Fin 1) q) = W (Proc.devRef .tc main_arg11) (ix1 q) := by
  have e : StableHlo.after (hostOps0 (F := Ideal)) W (Proc.devRef .tc main_v8)
      = shapeCast S1x16 (W (Proc.devRef .tc main_arg11)) shapeCasts_S16_S1x16 := by after_results <;> rfl
  rw [e]; exact shapeCast_a_1a_apply _ _ 0 q

theorem v9_at (q : Fin 16) :
    StableHlo.after (hostOps0 (F := Ideal)) W (Proc.devRef .tc main_v9) (ix2 (0 : Fin 1) q) = W (Proc.devRef .tc main_arg12) (ix1 q) := by
  have e : StableHlo.after (hostOps0 (F := Ideal)) W (Proc.devRef .tc main_v9)
      = shapeCast S1x16 (W (Proc.devRef .tc main_arg12)) shapeCasts_S16_S1x16 := by after_results <;> rfl
  rw [e]; exact shapeCast_a_1a_apply _ _ 0 q

theorem v10_at (d : Fin 64) :
    StableHlo.after (hostOps0 (F := Ideal)) W (Proc.devRef .tc main_v10) (ix2 (0 : Fin 1) d) = W (Proc.devRef .tc main_arg14) (ix1 d) := by
  have e : StableHlo.after (hostOps0 (F := Ideal)) W (Proc.devRef .tc main_v10)
      = shapeCast S1x64 (W (Proc.devRef .tc main_arg14)) shapeCasts_S64_S1x64 := by after_results <;> rfl
  rw [e]; exact shapeCast_a_1a_apply _ _ 0 d

/-! ## Between the first and the second region: the first normalisation's mean and variance -/

theorem v13_at (o : Fin 32) :
    StableHlo.after (hostOps1 (F := Ideal)) W (Proc.devRef .tc main_v13) (ix2 (0 : Fin 1) o)
      = Ideal.div (W (Proc.devRef .tc main_v11_0) (ix2 (0 : Fin 1) o)) Cert.Spec.cnt1 := by
  have e : (StableHlo.after (hostOps1 (F := Ideal)) W (Proc.devRef .tc main_v13) : FVec Ideal S1x32 .f32)
      = Host.divf (F := Ideal) (W (Proc.devRef .tc main_v11_0)) (broadcastInDim S1x32 ![] bcast_S_S1x32 (constant (F := Ideal) S_ .f32 0x49800000#32)) := by
    after_results <;> rfl
  rw [e]
  show Ideal.div _ (broadcastInDim S1x32 ![] bcast_S_S1x32 (constant (F := Ideal) S_ .f32 0x49800000#32) (ix2 (0 : Fin 1) o)) = _
  rw [bcast_const_1n]; rfl

theorem v19_at (o : Fin 32) :
    StableHlo.after (hostOps1 (F := Ideal)) W (Proc.devRef .tc main_v19) (ix2 (0 : Fin 1) o)
      = max (Ideal.div (W (Proc.devRef .tc main_v11_1) (ix2 (0 : Fin 1) o)) Cert.Spec.cnt1
              - Ideal.div (W (Proc.devRef .tc main_v11_0) (ix2 (0 : Fin 1) o)) Cert.Spec.cnt1
                * Ideal.div (W (Proc.devRef .tc main_v11_0) (ix2 (0 : Fin 1) o)) Cert.Spec.cnt1) Cert.Spec.zero := by
  have e : (StableHlo.after (hostOps1 (F := Ideal)) W (Proc.devRef .tc main_v19) : FVec Ideal S1x32 .f32)
      = maximumf (F := Ideal) (subf (Host.divf (F := Ideal) (W (Proc.devRef .tc main_v11_1)) (broadcastInDim S1x32 ![] bcast_S_S1x32 (constant (F := Ideal) S_ .f32 0x49800000#32)))
          (mulf (Host.divf (F := Ideal) (W (Proc.devRef .tc main_v11_0)) (broadcastInDim S1x32 ![] bcast_S_S1x32 (constant (F := Ideal) S_ .f32 0x49800000#32)))
                (Host.divf (F := Ideal) (W (Proc.devRef .tc main_v11_0)) (broadcastInDim S1x32 ![] bcast_S_S1x32 (constant (F := Ideal) S_ .f32 0x49800000#32)))))
          (broadcastInDim S1x32 ![] bcast_S_S1x32 (constant (F := Ideal) S_ .f32 0x00000000#32)) := by
    after_results <;> rfl
  rw [e]
  show max (Ideal.div _ (broadcastInDim S1x32 ![] bcast_S_S1x32 (constant (F := Ideal) S_ .f32 0x49800000#32) (ix2 (0 : Fin 1) o))
        - Ideal.div _ (broadcastInDim S1x32 ![] bcast_S_S1x32 (constant (F := Ideal) S_ .f32 0x49800000#32) (ix2 (0 : Fin 1) o))
          * Ideal.div _ (broadcastInDim S1x32 ![] bcast_S_S1x32 (constant (F := Ideal) S_ .f32 0x49800000#32) (ix2 (0 : Fin 1) o)))
      (broadcastInDim S1x32 ![] bcast_S_S1x32 (constant (F := Ideal) S_ .f32 0x00000000#32) (ix2 (0 : Fin 1) o)) = _
  simp only [bcast_const_1n]; rfl

/-! ## Between the second and the third region: the second normalisation's mean and variance -/

theorem v22_at (q : Fin 16) :
    StableHlo.after (hostOps2 (F := Ideal)) W (Proc.devRef .tc main_v22) (ix2 (0 : Fin 1) q)
      = Ideal.div (W (Proc.devRef .tc main_v20_2) (ix2 (0 : Fin 1) q)) Cert.Spec.cnt2 := by
  have e : (StableHlo.after (hostOps2 (F := Ideal)) W (Proc.devRef .tc main_v22) : FVec Ideal S1x16 .f32)
      = Host.divf (F := Ideal) (W (Proc.devRef .tc main_v20_2)) (broadcastInDim S1x16 ![] bcast_S_S1x16 (constant (F := Ideal) S_ .f32 0x45800000#32)) := by
    after_results <;> rfl
  rw [e]
  show Ideal.div _ (broadcastInDim S1x16 ![] bcast_S_S1x16 (constant (F := Ideal) S_ .f32 0x45800000#32) (ix2 (0 : Fin 1) q)) = _
  rw [bcast_const_1n]; rfl

theorem v28_at (q : Fin 16) :
    StableHlo.after (hostOps2 (F := Ideal)) W (Proc.devRef .tc main_v28) (ix2 (0 : Fin 1) q)
      = max (Ideal.div (W (Proc.devRef .tc main_v20_3) (ix2 (0 : Fin 1) q)) Cert.Spec.cnt2
              - Ideal.div (W (Proc.devRef .tc main_v20_2) (ix2 (0 : Fin 1) q)) Cert.Spec.cnt2
                * Ideal.div (W (Proc.devRef .tc main_v20_2) (ix2 (0 : Fin 1) q)) Cert.Spec.cnt2) Cert.Spec.zero := by
  have e : (StableHlo.after (hostOps2 (F := Ideal)) W (Proc.devRef .tc main_v28) : FVec Ideal S1x16 .f32)
      = maximumf (F := Ideal) (subf (Host.divf (F := Ideal) (W (Proc.devRef .tc main_v20_3)) (broadcastInDim S1x16 ![] bcast_S_S1x16 (constant (F := Ideal) S_ .f32 0x45800000#32)))
          (mulf (Host.divf (F := Ideal) (W (Proc.devRef .tc main_v20_2)) (broadcastInDim S1x16 ![] bcast_S_S1x16 (constant (F := Ideal) S_ .f32 0x45800000#32)))
                (Host.divf (F := Ideal) (W (Proc.devRef .tc main_v20_2)) (broadcastInDim S1x16 ![] bcast_S_S1x16 (constant (F := Ideal) S_ .f32 0x45800000#32)))))
          (broadcastInDim S1x16 ![] bcast_S_S1x16 (constant (F := Ideal) S_ .f32 0x00000000#32)) := by
    after_results <;> rfl
  rw [e]
  show max (Ideal.div _ (broadcastInDim S1x16 ![] bcast_S_S1x16 (constant (F := Ideal) S_ .f32 0x45800000#32) (ix2 (0 : Fin 1) q))
        - Ideal.div _ (broadcastInDim S1x16 ![] bcast_S_S1x16 (constant (F := Ideal) S_ .f32 0x45800000#32) (ix2 (0 : Fin 1) q))
          * Ideal.div _ (broadcastInDim S1x16 ![] bcast_S_S1x16 (constant (F := Ideal) S_ .f32 0x45800000#32) (ix2 (0 : Fin 1) q)))
      (broadcastInDim S1x16 ![] bcast_S_S1x16 (constant (F := Ideal) S_ .f32 0x00000000#32) (ix2 (0 : Fin 1) q)) = _
  simp only [bcast_const_1n]; rfl

/-! ## After the last region -/

theorem v30_at (b : Fin 16) (s t : Fin 256) :
    StableHlo.after (hostOps3 (F := Ideal)) W (Proc.devRef .tc main_v30) (ix2 b ⟨s.val * 256 + t.val, by have := s.isLt; have := t.isLt; omega⟩)
      = W (Proc.devRef .tc main_v20_0) (ix3 b s t) := by
  have e : StableHlo.after (hostOps3 (F := Ideal)) W (Proc.devRef .tc main_v30)
      = shapeCast S16x65536 (W (Proc.devRef .tc main_v20_0)) shapeCasts_S16x256x256_S16x65536 := by after_results <;> rfl
  rw [e]
  refine shapeCast_apply _ _ _ (ix3 b s t) ?_
  rw [Shape.rowMajor_val_three, Shape.rowMajor_val_two]
  show (b.val * 256 + s.val) * 256 + t.val = b.val * 65536 + (s.val * 256 + t.val)
  omega

/-- The same at a flat edge position e: the gate of edge (e / 256, e % 256). -/
theorem v30_flat (b : Fin 16) (e : Fin 65536) :
    StableHlo.after (hostOps3 (F := Ideal)) W (Proc.devRef .tc main_v30) (ix2 b e)
      = W (Proc.devRef .tc main_v20_0) (ix3 b (⟨e.val / 256, by have := e.isLt; omega⟩ : Fin 256) (⟨e.val % 256, by omega⟩ : Fin 256)) := by
  have e' : StableHlo.after (hostOps3 (F := Ideal)) W (Proc.devRef .tc main_v30)
      = shapeCast S16x65536 (W (Proc.devRef .tc main_v20_0)) shapeCasts_S16x256x256_S16x65536 := by after_results <;> rfl
  rw [e']
  refine shapeCast_apply _ _ _ (ix3 b (⟨e.val / 256, by have := e.isLt; omega⟩ : Fin 256) (⟨e.val % 256, by omega⟩ : Fin 256)) ?_
  rw [Shape.rowMajor_val_three, Shape.rowMajor_val_two]
  show (b.val * 256 + e.val / 256) * 256 + e.val % 256 = b.val * 65536 + e.val
  omega

end Cert.KernelIdeal.KHost

end
-- ==== Proof.KArgs.lean ====
/-
  The fifteen argument arrays of the kernel program, at the exact reading, gathered as the specification's arguments.
-/
import proofs.«168503_j21964462751805_2_alg».proof.KernelIdeal
import proofs.«168503_j21964462751805_2_alg».proof.Proof.Spec

noncomputable section

namespace Cert.KernelIdeal.KArgs

open Idealize.ShloMosaic Idealize.ShloMosaic.TcCoe Cert.KernelIdeal

/-- Core `c`'s argument arrays in the memory `m`. -/
def argsOf (m : (ℓ : Loc nD τ sig) → Buf (Elt Ideal) ℓ) (c : Dev nD) : Cert.Spec.Args where
  x   := m ((c.tc : Thread nD τ).loc main_arg0)
  W1  := m ((c.tc : Thread nD τ).loc main_arg1)
  b1  := m ((c.tc : Thread nD τ).loc main_arg2)
  g1  := m ((c.tc : Thread nD τ).loc main_arg3)
  be1 := m ((c.tc : Thread nD τ).loc main_arg4)
  W2  := m ((c.tc : Thread nD τ).loc main_arg5)
  b2  := m ((c.tc : Thread nD τ).loc main_arg6)
  W3  := m ((c.tc : Thread nD τ).loc main_arg7)
  b3  := m ((c.tc : Thread nD τ).loc main_arg8)
  F1  := m ((c.tc : Thread nD τ).loc main_arg9)
  fb1 := m ((c.tc : Thread nD τ).loc main_arg10)
  fg  := m ((c.tc : Thread nD τ).loc main_arg11)
  fbb := m ((c.tc : Thread nD τ).loc main_arg12)
  F2  := m ((c.tc : Thread nD τ).loc main_arg13)
  fb2 := m ((c.tc : Thread nD τ).loc main_arg14)

end Cert.KernelIdeal.KArgs

end
-- ==== Proof.LibReal.lean ====
/-
  The real-number layer under the extended reals.

  An extended real is REAL when it is the image of a real number (neither infinity).  Sums, products, differences,
  maxima, quotients by a nonzero real and reciprocal square roots of positive reals of real values are real; the three
  float words the programs spell denote real numbers.  On real values the extended-real arithmetic is the arithmetic
  of the reals, so the textbook identity

      (1/N) ∑ (z r - m)² = (1/N) ∑ (z r)² - m²,      m = (1/N) ∑ z r,   N = the number of terms,

  holds for extended reals z r that are all real (it fails at the infinities, where a difference may be junk), and
  its left side is the image of a nonnegative real.
-/
import Mathlib.Data.EReal.Operations
import Mathlib.Data.EReal.Inv
import Mathlib.Analysis.SpecialFunctions.Pow.Real
import Idealize.ShloMosaic.PureOps.Ideal
import Idealize.ShloMosaic.PureOps.Ideal.Laws

noncomputable section

open scoped BigOperators

namespace Cert.Lib

open Idealize.ShloMosaic

/-- An extended real that is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real value is neither infinity. -/
theorem IsReal.ne_top {x : EReal} (h : IsReal x) : x ≠ ⊤ := by
  obtain ⟨a, rfl⟩ := h; exact EReal.coe_ne_top a

theorem IsReal.ne_bot {x : EReal} (h : IsReal x) : x ≠ ⊥ := by
  obtain ⟨a, rfl⟩ := h; exact EReal.coe_ne_bot a

/-- An extended real that is neither infinity is real. -/
theorem isReal_of_ne {x : EReal} (hb : x ≠ ⊥) (ht : x ≠ ⊤) : IsReal x := by
  induction x using EReal.rec with
  | bot => exact absurd rfl hb
  | coe a => exact ⟨a, rfl⟩
  | top => exact absurd rfl ht

/-- The sum of two real values is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two real values is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real value is real. -/
theorem IsReal.neg {x : EReal} (hx : IsReal x) : IsReal (-x) := by
  obtain ⟨a, rfl⟩ := hx; exact ⟨-a, (EReal.coe_neg a).symm⟩

/-- The difference of two real values is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The maximum of two real values is real. -/
theorem IsReal.max {x y : EReal} (hx : IsReal x) (hy : IsReal y) : IsReal (max x y) := by
  rcases le_total x y with h | h
  · rw [max_eq_right h]; exact hy
  · rw [max_eq_left h]; exact hx

/-- The minimum of two real values is real. -/
theorem IsReal.min {x y : EReal} (hx : IsReal x) (hy : IsReal y) : IsReal (min x y) := by
  rcases le_total x y with h | h
  · rw [min_eq_left h]; exact hx
  · rw [min_eq_right h]; exact hy

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real values is real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum of real values over a whole finite type is real. -/
theorem IsReal.sum_univ {ι : Type*} [Fintype ι] (f : ι → EReal) (h : ∀ i, IsReal (f i)) :
    IsReal (∑ i, f i) := IsReal.sum _ f fun i _ => h i

/-- The quotient of the images of two reals, the divisor nonzero, is the image of the quotient. -/
theorem div_coe_coe (a : ℝ) {d : ℝ} (hd : d ≠ 0) :
    Ideal.div (a : EReal) (d : EReal) = ((a / d : ℝ) : EReal) := by
  rw [Ideal.div_coe hd, ← EReal.coe_mul, mul_one_div]

/-- The quotient of a real value by a nonzero real is real. -/
theorem IsReal.div_coe {x : EReal} (hx : IsReal x) {d : ℝ} (hd : d ≠ 0) : IsReal (Ideal.div x (d : EReal)) := by
  obtain ⟨a, rfl⟩ := hx; exact ⟨a / d, div_coe_coe a hd⟩

/-- The reciprocal square root of a positive real is the image of the reciprocal of its square root. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_pos {v : ℝ} (hv : 0 < v) : IsReal (Ideal.rsqrt (v : EReal)) :=
  ⟨_, rsqrt_coe_pos hv⟩

/-- The reciprocal square root of a nonnegative real plus a positive real is real. -/
theorem isReal_rsqrt_add_pos {v e : ℝ} (hv : 0 ≤ v) (he : 0 < e) :
    IsReal (Ideal.rsqrt ((v : EReal) + (e : EReal))) := by
  rw [← EReal.coe_add]; exact isReal_rsqrt_pos (by linarith)

/-- The word `0x47435000` denotes the real `50000`. -/
theorem ofBits_50000 : Ideal.ofBits .f32 0x47435000#32 = ((50000 : ℝ) : EReal) := by
  simp [Ideal.ofBits, Ideal.ieee, -EReal.coe_mul]; norm_num

/-- The word `0x3727C5AC` (about `1e-5`) denotes a positive real. -/
theorem ofBits_eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The word `0x3727C5AC` denotes a real. -/
theorem isReal_ofBits_eps : IsReal (Ideal.ofBits .f32 0x3727C5AC#32) := by
  obtain ⟨e, _, h⟩ := ofBits_eps_pos; exact ⟨e, h⟩

/-- The word `0x47435000` denotes a real. -/
theorem isReal_ofBits_50000 : IsReal (Ideal.ofBits .f32 0x47435000#32) := ⟨_, ofBits_50000⟩

/-- The word `0x00000000` denotes a real (zero). -/
theorem isReal_ofBits_zero : IsReal (Ideal.ofBits .f32 0x00000000#32) := by
  rw [Ideal.ofBits_zero_f32]; exact isReal_zero

/-- Real witnesses of a family of real values. -/
theorem exists_real_family {ι : Type*} (z : ι → EReal) (hz : ∀ r, IsReal (z r)) :
    ∃ w : ι → ℝ, z = fun r => (w r : EReal) := by
  choose w hw using hz; exact ⟨w, funext hw⟩

/-- The identity among reals: the mean of the squared deviations from the mean is the mean of the squares less the
    square of the mean, when the divisor is the number of terms. -/
theorem real_var_identity {n : ℕ} (w : Fin n → ℝ) (N : ℝ) (hN : N ≠ 0) (hn : (n : ℝ) = N) :
    (∑ r, (w r - (∑ r, w r) / N) * (w r - (∑ r, w r) / N)) / N
      = (∑ r, w r * w r) / N - (∑ r, w r) / N * ((∑ r, w r) / N) := by
  have h1 : ∑ r, (w r - (∑ r, w r) / N) * (w r - (∑ r, w r) / N)
      = (∑ r, w r * w r) - 2 * ((∑ r, w r) / N) * (∑ r, w r) + N * ((∑ r, w r) / N * ((∑ r, w r) / N)) := by
    have h2 : ∀ r, (w r - (∑ r, w r) / N) * (w r - (∑ r, w r) / N)
        = w r * w r - 2 * ((∑ r, w r) / N) * w r + (∑ r, w r) / N * ((∑ r, w r) / N) := fun r => by ring
    simp only [h2]
    rw [Finset.sum_add_distrib, Finset.sum_sub_distrib, ← Finset.mul_sum, Finset.sum_const, Finset.card_univ,
      Fintype.card_fin, nsmul_eq_mul, hn]
  rw [h1]; field_simp; ring

/-- The variance identity on the extended reals, for real entries: with `mean = (∑ z) / N` and `N` the number of
    entries, `(∑ (z - mean)²) / N = (∑ z²) / N - mean²`. -/
theorem var_identity {n : ℕ} (z : Fin n → EReal) (hz : ∀ r, IsReal (z r)) (N : ℝ) (hN : N ≠ 0) (hn : (n : ℝ) = N) :
    Ideal.div (∑ r, (z r - Ideal.div (∑ r, z r) (N : EReal)) * (z r - Ideal.div (∑ r, z r) (N : EReal))) (N : EReal)
      = Ideal.div (∑ r, z r * z r) (N : EReal)
          - Ideal.div (∑ r, z r) (N : EReal) * Ideal.div (∑ r, z r) (N : EReal) := by
  obtain ⟨w, rfl⟩ := exists_real_family z hz
  simp only [← coe_finset_sum, div_coe_coe _ hN, ← EReal.coe_sub, ← EReal.coe_mul]
  rw [real_var_identity w N hN hn]

/-- The same identity with every sum spelled from a zero start, `0 + ∑`. -/
theorem var_identity_zero_add {n : ℕ} (z : Fin n → EReal) (hz : ∀ r, IsReal (z r)) (N : ℝ) (hN : N ≠ 0)
    (hn : (n : ℝ) = N) :
    Ideal.div (0 + ∑ r, (z r - Ideal.div (0 + ∑ r, z r) (N : EReal)) * (z r - Ideal.div (0 + ∑ r, z r) (N : EReal)))
        (N : EReal)
      = Ideal.div (0 + ∑ r, z r * z r) (N : EReal)
          - Ideal.div (0 + ∑ r, z r) (N : EReal) * Ideal.div (0 + ∑ r, z r) (N : EReal) := by
  simp only [zero_add]; exact var_identity z hz N hN hn

/-- The mean of the squared deviations of real entries is the image of a nonnegative real. -/
theorem var_nonneg {n : ℕ} (z : Fin n → EReal) (hz : ∀ r, IsReal (z r)) (N : ℝ) (hN : N ≠ 0) (hn : (n : ℝ) = N) :
    ∃ v : ℝ, 0 ≤ v ∧
      Ideal.div (∑ r, (z r - Ideal.div (∑ r, z r) (N : EReal)) * (z r - Ideal.div (∑ r, z r) (N : EReal))) (N : EReal)
        = (v : EReal) := by
  obtain ⟨w, rfl⟩ := exists_real_family z hz
  have hNpos : 0 < N := lt_of_le_of_ne (hn ▸ Nat.cast_nonneg n) (Ne.symm hN)
  simp only [← coe_finset_sum, div_coe_coe _ hN, ← EReal.coe_sub, ← EReal.coe_mul]
  exact ⟨_, div_nonneg (Finset.sum_nonneg fun r _ => mul_self_nonneg _) hNpos.le, rfl⟩

/-- The mean of the squares less the square of the mean, of real entries, is the image of a nonnegative real. -/
theorem var_nonneg' {n : ℕ} (z : Fin n → EReal) (hz : ∀ r, IsReal (z r)) (N : ℝ) (hN : N ≠ 0) (hn : (n : ℝ) = N) :
    ∃ v : ℝ, 0 ≤ v ∧
      Ideal.div (∑ r, z r * z r) (N : EReal)
          - Ideal.div (∑ r, z r) (N : EReal) * Ideal.div (∑ r, z r) (N : EReal) = (v : EReal) := by
  rw [← var_identity z hz N hN hn]; exact var_nonneg z hz N hN hn

/-- The reciprocal square root of a nonnegative real plus the stabiliser word `0x3727C5AC` is real. -/
theorem isReal_rsqrt_add_eps {x : EReal} (hx : ∃ v : ℝ, 0 ≤ v ∧ x = (v : EReal)) :
    IsReal (Ideal.rsqrt (x + Ideal.ofBits .f32 0x3727C5AC#32)) := by
  obtain ⟨v, hv, rfl⟩ := hx
  obtain ⟨e, he, h⟩ := ofBits_eps_pos
  rw [h]; exact isReal_rsqrt_add_pos hv he

end Cert.Lib

end
-- ==== Proof.LibVarFintype.lean ====
/-
  The variance identity over any finite index type, and over three nested sums.

  For real entries z (extended reals that are images of reals) indexed by a finite type of N elements,

      (1/N) ∑ (z r - m)² = (1/N) ∑ (z r)² - m²,      m = (1/N) ∑ z r,

  and both sides are the image of a nonnegative real, so taking the maximum with zero changes nothing.  The identity
  needs the entries real: at an infinity a difference is junk.
-/
import proofs.«168503_j21964462751805_2_alg».proof.Proof.LibReal

noncomputable section

open scoped BigOperators

namespace Cert.Lib

open Idealize.ShloMosaic

/-- Among reals, over a finite type of `N` elements: the mean of the squared deviations from the mean is the mean of the
    squares less the square of the mean. -/
theorem real_var_identity_fintype {ι : Type*} [Fintype ι] (w : ι → ℝ) (N : ℝ) (hN : N ≠ 0)
    (hn : (Fintype.card ι : ℝ) = N) :
    (∑ r, (w r - (∑ r, w r) / N) * (w r - (∑ r, w r) / N)) / N
      = (∑ r, w r * w r) / N - (∑ r, w r) / N * ((∑ r, w r) / N) := by
  have h1 : ∑ r, (w r - (∑ r, w r) / N) * (w r - (∑ r, w r) / N)
      = (∑ r, w r * w r) - 2 * ((∑ r, w r) / N) * (∑ r, w r) + N * ((∑ r, w r) / N * ((∑ r, w r) / N)) := by
    have h2 : ∀ r, (w r - (∑ r, w r) / N) * (w r - (∑ r, w r) / N)
        = w r * w r - 2 * ((∑ r, w r) / N) * w r + (∑ r, w r) / N * ((∑ r, w r) / N) := fun r => by ring
    simp only [h2]
    rw [Finset.sum_add_distrib, Finset.sum_sub_distrib, ← Finset.mul_sum, Finset.sum_const, Finset.card_univ,
      nsmul_eq_mul, hn]
  rw [h1]; field_simp; ring

/-- The variance identity on the extended reals for real entries over a finite type of `N` elements. -/
theorem var_identity_fintype {ι : Type*} [Fintype ι] (z : ι → EReal) (hz : ∀ r, IsReal (z r)) (N : ℝ) (hN : N ≠ 0)
    (hn : (Fintype.card ι : ℝ) = N) :
    Ideal.div (∑ r, (z r - Ideal.div (∑ r, z r) (N : EReal)) * (z r - Ideal.div (∑ r, z r) (N : EReal))) (N : EReal)
      = Ideal.div (∑ r, z r * z r) (N : EReal)
          - Ideal.div (∑ r, z r) (N : EReal) * Ideal.div (∑ r, z r) (N : EReal) := by
  obtain ⟨w, rfl⟩ := exists_real_family z hz
  simp only [← coe_finset_sum, div_coe_coe _ hN, ← EReal.coe_sub, ← EReal.coe_mul]
  rw [real_var_identity_fintype w N hN hn]

/-- The mean of the squared deviations of real entries over a finite type is the image of a nonnegative real. -/
theorem var_nonneg_fintype {ι : Type*} [Fintype ι] (z : ι → EReal) (hz : ∀ r, IsReal (z r)) (N : ℝ) (hN : 0 < N) :
    ∃ v : ℝ, 0 ≤ v ∧
      Ideal.div (∑ r, (z r - Ideal.div (∑ r, z r) (N : EReal)) * (z r - Ideal.div (∑ r, z r) (N : EReal))) (N : EReal)
        = (v : EReal) := by
  obtain ⟨w, rfl⟩ := exists_real_family z hz
  simp only [← coe_finset_sum, div_coe_coe _ hN.ne', ← EReal.coe_sub, ← EReal.coe_mul]
  exact ⟨_, div_nonneg (Finset.sum_nonneg fun r _ => mul_self_nonneg _) hN.le, rfl⟩

/-- The maximum of the image of a nonnegative real with zero is that image. -/
theorem max_zero_of_nonneg {x : EReal} (hx : ∃ v : ℝ, 0 ≤ v ∧ x = (v : EReal)) : max x 0 = x := by
  obtain ⟨v, hv, rfl⟩ := hx
  exact max_eq_left (by exact_mod_cast hv)

/-- Three nested sums are one sum over the triples. -/
theorem sum3_eq_sum_prod {M : Type*} [AddCommMonoid M] {A B C : Type*} [Fintype A] [Fintype B] [Fintype C]
    (f : A → B → C → M) : ∑ a, ∑ b, ∑ c, f a b c = ∑ p : A × B × C, f p.1 p.2.1 p.2.2 := by
  rw [Fintype.sum_prod_type]
  exact Finset.sum_congr rfl fun a _ => (Fintype.sum_prod_type (f := fun q : B × C => f a q.1 q.2)).symm

/-- Two nested sums are one sum over the pairs. -/
theorem sum2_eq_sum_prod {M : Type*} [AddCommMonoid M] {A B : Type*} [Fintype A] [Fintype B]
    (f : A → B → M) : ∑ a, ∑ b, f a b = ∑ p : A × B, f p.1 p.2 :=
  (Fintype.sum_prod_type (f := fun q : A × B => f q.1 q.2)).symm

end Cert.Lib

end
-- ==== Proof.SpecReal.lean ====
/-
  Every quantity of the specification is a real number when the fifteen argument arrays hold real numbers only.

  Sums, products and differences of reals are real; the two row counts (2^20 edges, 2^12 nodes) are nonzero reals, so the
  means are real; a variance of real entries is a nonnegative real, and adding the positive stabiliser before the
  reciprocal square root keeps it positive, so the scale is real; leaky ReLU picks one of two reals; the logistic function
  of a real is real.
-/
import proofs.«168503_j21964462751805_2_alg».proof.Proof.Spec
import proofs.«168503_j21964462751805_2_alg».proof.Proof.LibReal
import proofs.«168503_j21964462751805_2_alg».proof.Proof.LibVarFintype

noncomputable section

open scoped BigOperators

namespace Cert.Spec

open Cert.Lib Idealize.ShloMosaic Idealize.ShloMosaic.ValueIdx

/-- Every entry of every argument array is a real number. -/
structure Args.Finite (a : Args) : Prop where
  x   : ∀ i, IsReal (a.x i)
  W1  : ∀ i, IsReal (a.W1 i)
  b1  : ∀ i, IsReal (a.b1 i)
  g1  : ∀ i, IsReal (a.g1 i)
  be1 : ∀ i, IsReal (a.be1 i)
  W2  : ∀ i, IsReal (a.W2 i)
  b2  : ∀ i, IsReal (a.b2 i)
  W3  : ∀ i, IsReal (a.W3 i)
  b3  : ∀ i, IsReal (a.b3 i)
  F1  : ∀ i, IsReal (a.F1 i)
  fb1 : ∀ i, IsReal (a.fb1 i)
  fg  : ∀ i, IsReal (a.fg i)
  fbb : ∀ i, IsReal (a.fbb i)
  F2  : ∀ i, IsReal (a.F2 i)
  fb2 : ∀ i, IsReal (a.fb2 i)

/-- The word `0x49800000` denotes 2^20 = 1048576, the number of edges. -/
theorem cnt1_eq : cnt1 = ((1048576 : ℝ) : EReal) := by
  unfold cnt1; simp [Ideal.ofBits, Ideal.ieee, -EReal.coe_mul]; norm_num

/-- The word `0x45800000` denotes 2^12 = 4096, the number of nodes. -/
theorem cnt2_eq : cnt2 = ((4096 : ℝ) : EReal) := by
  unfold cnt2; simp [Ideal.ofBits, Ideal.ieee, -EReal.coe_mul]; norm_num

theorem zero_eq : zero = 0 := Ideal.ofBits_zero_f32

theorem isReal_slope : IsReal slope := by
  unfold slope; simp [Ideal.ofBits, Ideal.ieee, -EReal.coe_mul]; exact isReal_coe _

/-- Leaky ReLU of a real is real. -/
theorem isReal_lrelu {z : EReal} (hz : IsReal z) : IsReal (lrelu z) := by
  unfold lrelu Scalar.select
  split
  · exact hz
  · exact isReal_slope.mul hz

/-- The logistic function of a real is real. -/
theorem isReal_logistic {z : EReal} (hz : IsReal z) : IsReal (Ideal.logistic z) := by
  obtain ⟨r, rfl⟩ := hz; exact ⟨_, Ideal.logistic_coe (r := r)⟩

/-- The number of (b, s, t) triples. -/
theorem card_edges : (Fintype.card (Fin 16 × Fin 256 × Fin 256) : ℝ) = 1048576 := by
  simp [Fintype.card_prod]

theorem card_nodes : (Fintype.card (Fin 16 × Fin 256) : ℝ) = 4096 := by
  simp [Fintype.card_prod]

variable {a : Args} (ha : a.Finite)
include ha

theorem isReal_h1 (b : Fin 16) (s t : Fin 256) (o : Fin 32) : IsReal (h1 a b s t o) :=
  ((IsReal.sum_univ _ fun k => (ha.x _).mul (ha.W1 _)).add (IsReal.sum_univ _ fun k => (ha.x _).mul (ha.W1 _))).add (ha.b1 _)

theorem isReal_mean1 (o : Fin 32) : IsReal (mean1 a o) := by
  unfold mean1; rw [cnt1_eq]
  exact (IsReal.sum_univ _ fun b => IsReal.sum_univ _ fun s => IsReal.sum_univ _ fun t => isReal_h1 ha b s t o).div_coe (by norm_num)

/-- The first variance is the image of a nonnegative real. -/
theorem var1_nonneg (o : Fin 32) : ∃ v : ℝ, 0 ≤ v ∧ var1 a o = (v : EReal) := by
  unfold var1 mean1; rw [cnt1_eq]
  rw [sum3_eq_sum_prod (fun b s t => h1 a b s t o)]
  rw [sum3_eq_sum_prod (fun b s t => (h1 a b s t o - Ideal.div (∑ p : Fin 16 × Fin 256 × Fin 256, h1 a p.1 p.2.1 p.2.2 o) ((1048576 : ℝ) : EReal)) * (h1 a b s t o - Ideal.div (∑ p : Fin 16 × Fin 256 × Fin 256, h1 a p.1 p.2.1 p.2.2 o) ((1048576 : ℝ) : EReal)))]
  exact var_nonneg_fintype (fun p : Fin 16 × Fin 256 × Fin 256 => h1 a p.1 p.2.1 p.2.2 o) (fun p => isReal_h1 ha _ _ _ _) 1048576 (by norm_num)

theorem isReal_inv1 (o : Fin 32) : IsReal (inv1 a o) := isReal_rsqrt_add_eps (var1_nonneg ha o)

theorem isReal_h1n (b : Fin 16) (s t : Fin 256) (o : Fin 32) : IsReal (h1n a b s t o) :=
  isReal_lrelu (((((isReal_h1 ha b s t o).sub (isReal_mean1 ha o)).mul (isReal_inv1 ha o)).mul (ha.g1 _)).add (ha.be1 _))

theorem isReal_h2 (b : Fin 16) (s t : Fin 256) (p : Fin 32) : IsReal (h2 a b s t p) :=
  isReal_lrelu ((IsReal.sum_univ _ fun o => (isReal_h1n ha b s t o).mul (ha.W2 _)).add (ha.b2 _))

theorem isReal_out (b : Fin 16) (s t : Fin 256) (j : Fin 2) : IsReal (out a b s t j) :=
  (IsReal.sum_univ _ fun p => (isReal_h2 ha b s t p).mul (ha.W3 _)).add (ha.b3 _)

theorem isReal_edge (b : Fin 16) (s t : Fin 256) : IsReal (edge a b s t) := isReal_logistic (isReal_out ha b s t 0)

theorem isReal_weighted (b : Fin 16) (s t : Fin 256) : IsReal (weighted a b s t) :=
  (isReal_edge ha b s t).mul (isReal_out ha b s t 1)

theorem isReal_agg (b : Fin 16) (s : Fin 256) (d : Fin 64) : IsReal (agg a b s d) :=
  IsReal.sum_univ _ fun g => isReal_weighted ha b s _

theorem isReal_h2pre (b : Fin 16) (s : Fin 256) (q : Fin 16) : IsReal (h2pre a b s q) :=
  ((IsReal.sum_univ _ fun k => (ha.x _).mul (ha.F1 _)).add (IsReal.sum_univ _ fun k => (isReal_agg ha b s k).mul (ha.F1 _))).add (ha.fb1 _)

theorem isReal_mean2 (q : Fin 16) : IsReal (mean2 a q) := by
  unfold mean2; rw [cnt2_eq]
  exact (IsReal.sum_univ _ fun b => IsReal.sum_univ _ fun s => isReal_h2pre ha b s q).div_coe (by norm_num)

/-- The second variance is the image of a nonnegative real. -/
theorem var2_nonneg (q : Fin 16) : ∃ v : ℝ, 0 ≤ v ∧ var2 a q = (v : EReal) := by
  unfold var2 mean2; rw [cnt2_eq]
  rw [sum2_eq_sum_prod (fun b s => h2pre a b s q)]
  rw [sum2_eq_sum_prod (fun b s => (h2pre a b s q - Ideal.div (∑ p : Fin 16 × Fin 256, h2pre a p.1 p.2 q) ((4096 : ℝ) : EReal)) * (h2pre a b s q - Ideal.div (∑ p : Fin 16 × Fin 256, h2pre a p.1 p.2 q) ((4096 : ℝ) : EReal)))]
  exact var_nonneg_fintype (fun p : Fin 16 × Fin 256 => h2pre a p.1 p.2 q) (fun p => isReal_h2pre ha _ _ _) 4096 (by norm_num)

theorem isReal_inv2 (q : Fin 16) : IsReal (inv2 a q) := isReal_rsqrt_add_eps (var2_nonneg ha q)

/-- ONE PASS, first normalisation: the mean of the squares less the square of the mean, cut off below at zero, is the
    variance (the mean of the squared deviations). -/
theorem onepass_var1 (o : Fin 32) :
    max (Ideal.div (∑ b : Fin 16, ∑ s : Fin 256, ∑ t : Fin 256, h1 a b s t o * h1 a b s t o) cnt1 - mean1 a o * mean1 a o) zero
      = var1 a o := by
  have hv := var1_nonneg ha o
  have hid : Ideal.div (∑ b : Fin 16, ∑ s : Fin 256, ∑ t : Fin 256, h1 a b s t o * h1 a b s t o) cnt1 - mean1 a o * mean1 a o
      = var1 a o := by
    unfold var1 mean1; rw [cnt1_eq]
    rw [sum3_eq_sum_prod (fun b s t => h1 a b s t o), sum3_eq_sum_prod (fun b s t => h1 a b s t o * h1 a b s t o)]
    rw [sum3_eq_sum_prod (fun b s t => (h1 a b s t o - Ideal.div (∑ p : Fin 16 × Fin 256 × Fin 256, h1 a p.1 p.2.1 p.2.2 o) ((1048576 : ℝ) : EReal)) * (h1 a b s t o - Ideal.div (∑ p : Fin 16 × Fin 256 × Fin 256, h1 a p.1 p.2.1 p.2.2 o) ((1048576 : ℝ) : EReal)))]
    exact (var_identity_fintype (fun p : Fin 16 × Fin 256 × Fin 256 => h1 a p.1 p.2.1 p.2.2 o) (fun p => isReal_h1 ha _ _ _ _) 1048576 (by norm_num) card_edges).symm
  rw [hid, zero_eq]; exact max_zero_of_nonneg hv

/-- ONE PASS, second normalisation. -/
theorem onepass_var2 (q : Fin 16) :
    max (Ideal.div (∑ b : Fin 16, ∑ s : Fin 256, h2pre a b s q * h2pre a b s q) cnt2 - mean2 a q * mean2 a q) zero
      = var2 a q := by
  have hv := var2_nonneg ha q
  have hid : Ideal.div (∑ b : Fin 16, ∑ s : Fin 256, h2pre a b s q * h2pre a b s q) cnt2 - mean2 a q * mean2 a q
      = var2 a q := by
    unfold var2 mean2; rw [cnt2_eq]
    rw [sum2_eq_sum_prod (fun b s => h2pre a b s q), sum2_eq_sum_prod (fun b s => h2pre a b s q * h2pre a b s q)]
    rw [sum2_eq_sum_prod (fun b s => (h2pre a b s q - Ideal.div (∑ p : Fin 16 × Fin 256, h2pre a p.1 p.2 q) ((4096 : ℝ) : EReal)) * (h2pre a b s q - Ideal.div (∑ p : Fin 16 × Fin 256, h2pre a p.1 p.2 q) ((4096 : ℝ) : EReal)))]
    exact (var_identity_fintype (fun p : Fin 16 × Fin 256 => h2pre a p.1 p.2 q) (fun p => isReal_h2pre ha _ _ _) 4096 (by norm_num) card_nodes).symm
  rw [hid, zero_eq]; exact max_zero_of_nonneg hv

end Cert.Spec

end
-- ==== Proof.LibBlockSum.lean ====
/-
  Regrouping a sum over `N * B` consecutive rows into `N` blocks of `B` rows, and a running sum as a finite sum.
  Both hold in any additive commutative monoid: they move and bracket terms and never cancel or distribute, so on the
  extended reals they need no finiteness.
-/
import Mathlib.Algebra.BigOperators.Fin
import Mathlib.Logic.Equiv.Fin.Basic

open scoped BigOperators

namespace Cert.Lib

/-- Row `k` of block `t`, counted from the start, is a row of the whole. -/
theorem blk_lt {N B : Nat} (t : Fin N) (k : Fin B) : t.val * B + k.val < N * B :=
  calc t.val * B + k.val < t.val * B + B := Nat.add_lt_add_left k.isLt _
    _ = (t.val + 1) * B := (Nat.succ_mul _ _).symm
    _ ≤ N * B := Nat.mul_le_mul_right _ t.isLt

/-- A sum over `n = N * B` rows is the sum over the `N` blocks of each block's sum over its `B` rows, row `k` of
    block `t` being row `t * B + k` of the whole. -/
theorem sum_blocks {M : Type*} [AddCommMonoid M] {n : Nat} (N B : Nat) (h : n = N * B) (f : Fin n → M) :
    ∑ r : Fin n, f r = ∑ t : Fin N, ∑ k : Fin B, f ⟨t.val * B + k.val, lt_of_lt_of_eq (blk_lt t k) h.symm⟩ := by
  subst h
  rw [← Fintype.sum_prod_type (f := fun p : Fin N × Fin B => f ⟨p.1.val * B + p.2.val, blk_lt p.1 p.2⟩)]
  refine (Fintype.sum_equiv finProdFinEquiv _ _ fun p => congrArg f (Fin.ext ?_)).symm
  show p.1.val * B + p.2.val = p.2.val + B * p.1.val
  rw [Nat.mul_comm, Nat.add_comm]

/-- The running sum that starts from `0 + s 0` and adds `s (n + 1)` at step `n + 1`. -/
def chain {M : Type*} [AddCommMonoid M] (s : ℕ → M) : ℕ → M
  | 0 => 0 + s 0
  | n + 1 => chain s n + s (n + 1)

/-- After step `n` the running sum is the sum of the first `n + 1` terms. -/
theorem chain_eq_sum {M : Type*} [AddCommMonoid M] (s : ℕ → M) (n : ℕ) :
    chain s n = ∑ t ∈ Finset.range (n + 1), s t := by
  induction n with
  | zero => simp [chain]
  | succ n ih => rw [chain, ih, Finset.sum_range_succ (n := n + 1)]

/-- The same, with the terms indexed by the `N = n + 1` blocks. -/
theorem chain_eq_sum_fin {M : Type*} [AddCommMonoid M] (s : ℕ → M) (N : ℕ) (hN : 0 < N) :
    chain s (N - 1) = ∑ t : Fin N, s t.val := by
  rw [chain_eq_sum, Nat.sub_add_cancel hN, Finset.sum_range]

end Cert.Lib
-- ==== Proof.LibGridSum.lean ====
/-
  Sums taken tile by tile.  A [16, 256, 256] family (batch entry b, source s, target t) is visited in 64 tiles: tile
  p = 4 b + i holds the 64 sources 64 i … 64 i + 63 of entry b against all 256 targets, its 16384 pairs listed row-major
  (r = 256 · (s − 64 i) + t).  Summing inside each tile and then over the tiles is summing over all (b, s, t); likewise
  for a [16, 256] family visited in 64 tiles of 64 sources.  These only move and bracket terms, so they hold in any additive
  commutative monoid — on the extended reals with no finiteness.
-/
import proofs.«168503_j21964462751805_2_alg».proof.Proof.LibBlockSum

open scoped BigOperators

namespace Cert.Lib

private theorem congr3 {A B C M : Type*} (f : A → B → C → M) {a a' : A} {b b' : B} {c c' : C}
    (ha : a = a') (hb : b = b') (hc : c = c') : f a b c = f a' b' c' := by subst ha hb hc; rfl

private theorem congr2 {A B M : Type*} (f : A → B → M) {a a' : A} {b b' : B}
    (ha : a = a') (hb : b = b') : f a b = f a' b' := by subst ha hb; rfl

/-- A sum over the 1048576 row-major positions of a [16, 256, 256] family is the three nested sums. -/
theorem sum_flat_edges {M : Type*} [AddCommMonoid M] (f : Fin 16 → Fin 256 → Fin 256 → M) :
    ∑ e : Fin 1048576, f ⟨e.val / 65536, by have := e.isLt; omega⟩ ⟨e.val / 256 % 256, by omega⟩ ⟨e.val % 256, by omega⟩
      = ∑ b : Fin 16, ∑ s : Fin 256, ∑ t : Fin 256, f b s t := by
  refine (sum_blocks 16 65536 (by decide) _).trans ?_
  refine Finset.sum_congr rfl fun b _ => ?_
  refine (sum_blocks 256 256 (by decide) _).trans ?_
  refine Finset.sum_congr rfl fun s _ => Finset.sum_congr rfl fun t _ => ?_
  have hb := b.isLt; have hs := s.isLt; have ht := t.isLt
  exact congr3 f (Fin.ext (by show (b.val * 65536 + (s.val * 256 + t.val)) / 65536 = b.val; omega))
    (Fin.ext (by show (b.val * 65536 + (s.val * 256 + t.val)) / 256 % 256 = s.val; omega))
    (Fin.ext (by show (b.val * 65536 + (s.val * 256 + t.val)) % 256 = t.val; omega))

/-- Tile by tile over the edges: 64 tiles of 64 sources × 256 targets. -/
theorem sum_tiles_edges {M : Type*} [AddCommMonoid M] (f : Fin 16 → Fin 256 → Fin 256 → M) :
    ∑ p : Fin 64, ∑ r : Fin 16384,
        f ⟨p.val / 4, by have := p.isLt; omega⟩ ⟨p.val % 4 * 64 + r.val / 256, by have := r.isLt; omega⟩ ⟨r.val % 256, by omega⟩
      = ∑ b : Fin 16, ∑ s : Fin 256, ∑ t : Fin 256, f b s t := by
  refine Eq.trans ?_ (sum_flat_edges f)
  refine Eq.symm ((sum_blocks 64 16384 (by decide) _).trans ?_)
  refine Finset.sum_congr rfl fun p _ => Finset.sum_congr rfl fun r _ => Eq.symm ?_
  have hp := p.isLt; have hr := r.isLt
  exact congr3 f (Fin.ext (by show p.val / 4 = (p.val * 16384 + r.val) / 65536; omega))
    (Fin.ext (by show p.val % 4 * 64 + r.val / 256 = (p.val * 16384 + r.val) / 256 % 256; omega))
    (Fin.ext (by show r.val % 256 = (p.val * 16384 + r.val) % 256; omega))

/-- A sum over the 4096 row-major positions of a [16, 256] family is the two nested sums. -/
theorem sum_flat_nodes {M : Type*} [AddCommMonoid M] (f : Fin 16 → Fin 256 → M) :
    ∑ e : Fin 4096, f ⟨e.val / 256, by have := e.isLt; omega⟩ ⟨e.val % 256, by omega⟩
      = ∑ b : Fin 16, ∑ s : Fin 256, f b s := by
  refine (sum_blocks 16 256 (by decide) _).trans ?_
  refine Finset.sum_congr rfl fun b _ => Finset.sum_congr rfl fun s _ => ?_
  have hb := b.isLt; have hs := s.isLt
  exact congr2 f (Fin.ext (by show (b.val * 256 + s.val) / 256 = b.val; omega))
    (Fin.ext (by show (b.val * 256 + s.val) % 256 = s.val; omega))

/-- Tile by tile over the nodes: 64 tiles of 64 sources. -/
theorem sum_tiles_nodes {M : Type*} [AddCommMonoid M] (f : Fin 16 → Fin 256 → M) :
    ∑ p : Fin 64, ∑ r : Fin 64, f ⟨p.val / 4, by have := p.isLt; omega⟩ ⟨p.val % 4 * 64 + r.val, by have := r.isLt; omega⟩
      = ∑ b : Fin 16, ∑ s : Fin 256, f b s := by
  refine Eq.trans ?_ (sum_flat_nodes f)
  refine Eq.symm ((sum_blocks 64 64 (by decide) _).trans ?_)
  refine Finset.sum_congr rfl fun p _ => Finset.sum_congr rfl fun r _ => Eq.symm ?_
  have hp := p.isLt; have hr := r.isLt
  exact congr2 f (Fin.ext (by show p.val / 4 = (p.val * 64 + r.val) / 256; omega))
    (Fin.ext (by show p.val % 4 * 64 + r.val = (p.val * 64 + r.val) % 256; omega))

end Cert.Lib
-- ==== Proof.KChain.lean ====
/-
  From the three regions' arrays to the specification.

  Given what each region leaves in its output arrays as a function of what it found in its input arrays, the buffers are
  followed through the program: the first host stretch cuts W1 into its source and target halves; the first region's
  two arrays are the sum and the sum of squares of the first layer over all edges, tile by tile — which is the sum over
  all (b, s, t); the second stretch turns them into the mean and, on real inputs, the variance (the one-pass form agrees
  with the mean of squared deviations and is nonnegative, so the cut-off at zero is the identity); the second region's
  arrays are then the gates, the node pre-activations and their sum and sum of squares; the third stretch gives the second
  mean and variance the same way; the third region's array is the prediction; the last stretch recasts the gates.
-/
import proofs.«168503_j21964462751805_2_alg».proof.Proof.KRunVals
import proofs.«168503_j21964462751805_2_alg».proof.Proof.KHost
import proofs.«168503_j21964462751805_2_alg».proof.Proof.KArgs
import proofs.«168503_j21964462751805_2_alg».proof.Proof.SpecReal
import proofs.«168503_j21964462751805_2_alg».proof.Proof.LibGridSum

noncomputable section

open scoped BigOperators

namespace Cert.KernelIdeal.KChain

open Idealize.ShloMosaic Idealize.ShloMosaic.TcCoe Idealize.ShloMosaic.ValueIdx
open Cert.KernelIdeal Cert.KernelIdeal.Gen Cert.KernelIdeal.Hand Cert.KernelIdeal.KArgs Cert.Spec Cert.Lib

/-- The buffers' contents on every core, read at the TensorCore's references. -/
abbrev VT : Type := (c : Dev nD) → (b : Ref sig .tc) → Buf (Elt Ideal) ((c : Thread nD τ).loc b)

/-- A buffer's contents read as a function from its indices to the extended reals. -/
abbrev rd (S : Shape) (f : S.Idx → EReal) : S.Idx → EReal := f

/-- The first layer on pair r of tile p, channel o, from the first region's input arrays. -/
def H (V : VT) (c : Dev nD) (p : Fin 64) (r : Fin 16384) (o : Fin 32) : EReal :=
  ((∑ k : Fin 64, rd S16x256x64 (V c main_arg0) (ix3 (⟨p.val / 4, by have := p.isLt; omega⟩ : Fin 16) (⟨p.val % 4 * 64 + r.val / 256, by have := r.isLt; omega⟩ : Fin 256) k) * rd S32x64 (V c main_v0) (ix2 o k))
    + (∑ k : Fin 64, rd S16x256x64 (V c main_arg0) (ix3 (⟨p.val / 4, by have := p.isLt; omega⟩ : Fin 16) (⟨r.val % 256, by omega⟩ : Fin 256) k) * rd S32x64 (V c main_v1) (ix2 o k)))
    + rd S1x32 (V c main_v2) (ix2 (0 : Fin 1) o)

/-- What the first region leaves: the sum and the sum of squares of the first layer, tile by tile. -/
def Final0 : Prop := ∀ (V : VT) (c : Dev nD) (o : Fin 32),
  rd S1x32 ((dat0 V c).arrAt 5 cfg0.N) (ix2 (0 : Fin 1) o) = ∑ p : Fin 64, ∑ r : Fin 16384, H V c p r o
  ∧ rd S1x32 ((dat0 V c).arrAt 6 cfg0.N) (ix2 (0 : Fin 1) o) = ∑ p : Fin 64, ∑ r : Fin 16384, H V c p r o * H V c p r o

/-- The second region's input arrays hold the specification's quantities. -/
structure In1 (V : VT) (c : Dev nD) (a : Args) : Prop where
  hx : ∀ i, rd S16x256x64 (V c main_arg0) i = a.x i
  hW1a : ∀ o k, rd S32x64 (V c main_v0) (ix2 o k) = a.W1 (ix2 o (lo k))
  hW1b : ∀ o k, rd S32x64 (V c main_v1) (ix2 o k) = a.W1 (ix2 o (hi k))
  hb1 : ∀ o, rd S1x32 (V c main_v2) (ix2 (0 : Fin 1) o) = a.b1 (ix1 o)
  hmean : ∀ o, rd S1x32 (V c main_v13) (ix2 (0 : Fin 1) o) = mean1 a o
  hvar : ∀ o, rd S1x32 (V c main_v19) (ix2 (0 : Fin 1) o) = var1 a o
  hg1 : ∀ o, rd S1x32 (V c main_v3) (ix2 (0 : Fin 1) o) = a.g1 (ix1 o)
  hbe1 : ∀ o, rd S1x32 (V c main_v4) (ix2 (0 : Fin 1) o) = a.be1 (ix1 o)
  hW2 : ∀ i, rd S32x32 (V c main_arg5) i = a.W2 i
  hb2 : ∀ p, rd S1x32 (V c main_v5) (ix2 (0 : Fin 1) p) = a.b2 (ix1 p)
  hW3 : ∀ i, rd S2x32 (V c main_arg7) i = a.W3 i
  hb3 : ∀ j, rd S1x2 (V c main_v6) (ix2 (0 : Fin 1) j) = a.b3 (ix1 j)
  hF1 : ∀ i, rd S16x128 (V c main_arg9) i = a.F1 i
  hfb1 : ∀ q, rd S1x16 (V c main_v7) (ix2 (0 : Fin 1) q) = a.fb1 (ix1 q)

/-- What the second region leaves: the gates, the node pre-activations, their sum and sum of squares. -/
def Final1 : Prop := ∀ (V : VT) (c : Dev nD) (a : Args), In1 V c a →
  (∀ (b : Fin 16) (s t : Fin 256), rd S16x256x256 ((dat1 V c).arrAt 15 cfg1.N) (ix3 b s t) = edge a b s t)
  ∧ (∀ (b : Fin 16) (s : Fin 256) (q : Fin 16), rd S16x256x16 ((dat1 V c).arrAt 16 cfg1.N) (ix3 b s q) = h2pre a b s q)
  ∧ (∀ q : Fin 16, rd S1x16 ((dat1 V c).arrAt 17 cfg1.N) (ix2 (0 : Fin 1) q) = ∑ b : Fin 16, ∑ s : Fin 256, h2pre a b s q)
  ∧ (∀ q : Fin 16, rd S1x16 ((dat1 V c).arrAt 18 cfg1.N) (ix2 (0 : Fin 1) q) = ∑ b : Fin 16, ∑ s : Fin 256, h2pre a b s q * h2pre a b s q)

/-- What the third region leaves: the normalised, rectified node layer through the last layer. -/
def Final2 : Prop := ∀ (V : VT) (c : Dev nD) (b : Fin 16) (s : Fin 256) (d : Fin 64),
  rd S16x256x64 ((dat2 V c).arrAt 7 cfg2.N) (ix3 b s d)
    = (∑ q : Fin 16, lrelu ((((rd S16x256x16 (V c main_v20_1) (ix3 b s q) - rd S1x16 (V c main_v22) (ix2 (0 : Fin 1) q))
          * Ideal.rsqrt (rd S1x16 (V c main_v28) (ix2 (0 : Fin 1) q) + eps)) * rd S1x16 (V c main_v8) (ix2 (0 : Fin 1) q))
          + rd S1x16 (V c main_v9) (ix2 (0 : Fin 1) q)) * rd S64x16 (V c main_arg13) (ix2 d q))
        + rd S1x64 (V c main_v10) (ix2 (0 : Fin 1) d)

variable (m : (ℓ : Loc nD τ sig) → Buf (Elt Ideal) ℓ) (c : Dev nD)

/-- A buffer neither the first two host stretches nor the first region writes reaches the second region as launched-and-cut. -/
theorem X3_of_X1 (r : Ref sig .tc) (h1 : r ∉ Gen.hostOps1_W) (h2 : r ∉ ([main_v11_0, main_v11_1] : List (Ref sig .tc))) :
    X3 m c r = X1 m c r := (X3_of m c r h1).trans (X2_of m c r h2)

theorem X5_of_X3 (r : Ref sig .tc) (h1 : r ∉ Gen.hostOps2_W)
    (h2 : r ∉ ([main_v20_0, main_v20_1, main_v20_2, main_v20_3] : List (Ref sig .tc))) :
    X5 m c r = X3 m c r := (X5_of m c r h1).trans (X4_of m c r h2)

/-- With the first region's input arrays at the cut arguments, its first-layer term is the specification's. -/
theorem H_eq (o : Fin 32) (p : Fin 64) (r : Fin 16384) :
    H (E1 m) c p r o = h1 (argsOf m c) ⟨p.val / 4, by have := p.isLt; omega⟩ ⟨p.val % 4 * 64 + r.val / 256, by have := r.isLt; omega⟩ ⟨r.val % 256, by omega⟩ o := by
  unfold H h1
  have e0 : ∀ i, E1 m c main_arg0 i = (argsOf m c).x i := fun i => congrFun (X1_of m c main_arg0 (by decide)) i
  simp only [e0, show ∀ k, E1 m c main_v0 (ix2 o k) = (argsOf m c).W1 (ix2 o (lo k)) from fun k => KHost.v0_at (X0 m c) o k,
    show ∀ k, E1 m c main_v1 (ix2 o k) = (argsOf m c).W1 (ix2 o (hi k)) from fun k => KHost.v1_at (X0 m c) o k,
    show E1 m c main_v2 (ix2 (0 : Fin 1) o) = (argsOf m c).b1 (ix1 o) from KHost.v2_at (X0 m c) o]

/-- The first region's two arrays: the sum and the sum of squares of the first layer over all edges. -/
theorem sums0 (F0 : Final0) (o : Fin 32) :
    (X2 m c (Proc.devRef .tc main_v11_0) (ix2 (0 : Fin 1) o) : EReal)
        = ∑ b : Fin 16, ∑ s : Fin 256, ∑ t : Fin 256, h1 (argsOf m c) b s t o
    ∧ (X2 m c (Proc.devRef .tc main_v11_1) (ix2 (0 : Fin 1) o) : EReal)
        = ∑ b : Fin 16, ∑ s : Fin 256, ∑ t : Fin 256, h1 (argsOf m c) b s t o * h1 (argsOf m c) b s t o := by
  constructor
  · rw [X2_main_v11_0]
    refine ((F0 (E1 m) c o).1).trans ?_
    simp only [H_eq]
    exact sum_tiles_edges (fun b s t => h1 (argsOf m c) b s t o)
  · rw [X2_main_v11_1]
    refine ((F0 (E1 m) c o).2).trans ?_
    simp only [H_eq]
    exact sum_tiles_edges (fun b s t => h1 (argsOf m c) b s t o * h1 (argsOf m c) b s t o)

/-- The mean the second region is handed. -/
theorem mean1_at (F0 : Final0) (o : Fin 32) :
    (StableHlo.after (hostOps1 (F := Ideal)) (X2 m c) (Proc.devRef .tc main_v13) (ix2 (0 : Fin 1) o) : EReal) = mean1 (argsOf m c) o := by
  rw [KHost.v13_at, (sums0 m c F0 o).1]; rfl

/-- The variance the second region is handed: the one-pass form is the variance on real inputs. -/
theorem var1_at (F0 : Final0) (ha : (argsOf m c).Finite) (o : Fin 32) :
    (StableHlo.after (hostOps1 (F := Ideal)) (X2 m c) (Proc.devRef .tc main_v19) (ix2 (0 : Fin 1) o) : EReal) = var1 (argsOf m c) o := by
  rw [KHost.v19_at, (sums0 m c F0 o).1, (sums0 m c F0 o).2]; exact onepass_var1 ha o

/-- The second region's entry. -/
theorem entry1 (F0 : Final0) (ha : (argsOf m c).Finite) : In1 (E3 m) c (argsOf m c) where
  hx := fun i => congrFun ((X3_of_X1 m c main_arg0 (by decide) (by decide)).trans (X1_of m c main_arg0 (by decide))) i
  hW1a := fun o k => (congrFun (X3_of_X1 m c main_v0 (by decide) (by decide)) _).trans (KHost.v0_at (X0 m c) o k)
  hW1b := fun o k => (congrFun (X3_of_X1 m c main_v1 (by decide) (by decide)) _).trans (KHost.v1_at (X0 m c) o k)
  hb1 := fun o => (congrFun (X3_of_X1 m c main_v2 (by decide) (by decide)) _).trans (KHost.v2_at (X0 m c) o)
  hmean := fun o => mean1_at m c F0 o
  hvar := fun o => var1_at m c F0 ha o
  hg1 := fun o => (congrFun (X3_of_X1 m c main_v3 (by decide) (by decide)) _).trans (KHost.v3_at (X0 m c) o)
  hbe1 := fun o => (congrFun (X3_of_X1 m c main_v4 (by decide) (by decide)) _).trans (KHost.v4_at (X0 m c) o)
  hW2 := fun i => congrFun ((X3_of_X1 m c main_arg5 (by decide) (by decide)).trans (X1_of m c main_arg5 (by decide))) i
  hb2 := fun p => (congrFun (X3_of_X1 m c main_v5 (by decide) (by decide)) _).trans (KHost.v5_at (X0 m c) p)
  hW3 := fun i => congrFun ((X3_of_X1 m c main_arg7 (by decide) (by decide)).trans (X1_of m c main_arg7 (by decide))) i
  hb3 := fun j => (congrFun (X3_of_X1 m c main_v6 (by decide) (by decide)) _).trans (KHost.v6_at (X0 m c) j)
  hF1 := fun i => congrFun ((X3_of_X1 m c main_arg9 (by decide) (by decide)).trans (X1_of m c main_arg9 (by decide))) i
  hfb1 := fun q => (congrFun (X3_of_X1 m c main_v7 (by decide) (by decide)) _).trans (KHost.v7_at (X0 m c) q)

/-- The second mean. -/
theorem mean2_at (F0 : Final0) (F1 : Final1) (ha : (argsOf m c).Finite) (q : Fin 16) :
    (StableHlo.after (hostOps2 (F := Ideal)) (X4 m c) (Proc.devRef .tc main_v22) (ix2 (0 : Fin 1) q) : EReal) = mean2 (argsOf m c) q := by
  rw [KHost.v22_at, X4_main_v20_2]
  refine (congrArg (fun z => Ideal.div z cnt2) ((F1 (E3 m) c (argsOf m c) (entry1 m c F0 ha)).2.2.1 q)).trans ?_
  rfl

/-- The second variance. -/
theorem var2_at (F0 : Final0) (F1 : Final1) (ha : (argsOf m c).Finite) (q : Fin 16) :
    (StableHlo.after (hostOps2 (F := Ideal)) (X4 m c) (Proc.devRef .tc main_v28) (ix2 (0 : Fin 1) q) : EReal) = var2 (argsOf m c) q := by
  rw [KHost.v28_at, X4_main_v20_2, X4_main_v20_3]
  have h17 := (F1 (E3 m) c (argsOf m c) (entry1 m c F0 ha)).2.2.1 q
  have h18 := (F1 (E3 m) c (argsOf m c) (entry1 m c F0 ha)).2.2.2 q
  unfold rd at h17 h18
  rw [h17, h18]; exact onepass_var2 ha q

/-- THE CHAIN: from what the three regions leave to the two results in the specification's terms. -/
theorem chain (F0 : Final0) (F1 : Final1) (F2 : Final2) (ha : (argsOf m c).Finite) :
    (∀ (b : Fin 16) (e : Fin 65536),
        (X7 m c main_v30 (ix2 b e) : EReal)
          = edge (argsOf m c) b ⟨e.val / 256, by have := e.isLt; omega⟩ ⟨e.val % 256, by omega⟩)
    ∧ (∀ (b : Fin 16) (s : Fin 256) (d : Fin 64), (X7 m c main_v29 (ix3 b s d) : EReal) = pred (argsOf m c) b s d) := by
  obtain ⟨f15, f16, -, -⟩ := F1 (E3 m) c (argsOf m c) (entry1 m c F0 ha)
  refine ⟨fun b e => ?_, fun b s d => ?_⟩
  · show (StableHlo.after (hostOps3 (F := Ideal)) (X6 m c) (Proc.devRef .tc main_v30) (ix2 b e) : EReal) = _
    rw [KHost.v30_flat, X6_main_v20_0]; exact f15 b _ _
  · have t1 : ∀ q : Fin 16, rd S16x256x16 (E5 m c main_v20_1) (ix3 b s q) = h2pre (argsOf m c) b s q :=
      fun q => (congrFun ((X5_of m c main_v20_1 (by decide)).trans (X4_main_v20_1 m c)) _).trans (f16 b s q)
    have t2 : ∀ q : Fin 16, rd S1x16 (E5 m c main_v22) (ix2 (0 : Fin 1) q) = mean2 (argsOf m c) q := fun q => mean2_at m c F0 F1 ha q
    have t3 : ∀ q : Fin 16, rd S1x16 (E5 m c main_v28) (ix2 (0 : Fin 1) q) = var2 (argsOf m c) q := fun q => var2_at m c F0 F1 ha q
    have t4 : ∀ q : Fin 16, rd S1x16 (E5 m c main_v8) (ix2 (0 : Fin 1) q) = (argsOf m c).fg (ix1 q) := fun q =>
      (congrFun ((X5_of_X3 m c main_v8 (by decide) (by decide)).trans (X3_of_X1 m c main_v8 (by decide) (by decide))) _).trans (KHost.v8_at (X0 m c) q)
    have t5 : ∀ q : Fin 16, rd S1x16 (E5 m c main_v9) (ix2 (0 : Fin 1) q) = (argsOf m c).fbb (ix1 q) := fun q =>
      (congrFun ((X5_of_X3 m c main_v9 (by decide) (by decide)).trans (X3_of_X1 m c main_v9 (by decide) (by decide))) _).trans (KHost.v9_at (X0 m c) q)
    have t6 : ∀ i, rd S64x16 (E5 m c main_arg13) i = (argsOf m c).F2 i := fun i =>
      congrFun (((X5_of_X3 m c main_arg13 (by decide) (by decide)).trans (X3_of_X1 m c main_arg13 (by decide) (by decide))).trans (X1_of m c main_arg13 (by decide))) i
    have t7 : rd S1x64 (E5 m c main_v10) (ix2 (0 : Fin 1) d) = (argsOf m c).fb2 (ix1 d) :=
      (congrFun ((X5_of_X3 m c main_v10 (by decide) (by decide)).trans (X3_of_X1 m c main_v10 (by decide) (by decide))) _).trans (KHost.v10_at (X0 m c) d)
    rw [X7_main_v29]
    refine (F2 (E5 m) c b s d).trans ?_
    simp only [t1, t2, t3, t4, t5, t6, t7]
    rfl

/-- The first result, whole: the gates of all edges. -/
theorem edges_eq (F0 : Final0) (F1 : Final1) (F2 : Final2) (ha : (argsOf m c).Finite) :
    rd S16x65536 (X7 m c main_v30) = edgesOut (argsOf m c) := by
  funext i
  obtain ⟨b, e, rfl⟩ : ∃ (b : Fin 16) (e : Fin 65536), i = ix2 b e := ⟨i 0, i 1, eq_ix2 i⟩
  exact (chain m c F0 F1 F2 ha).1 b e

/-- The second result, whole: the prediction. -/
theorem pred_eq (F0 : Final0) (F1 : Final1) (F2 : Final2) (ha : (argsOf m c).Finite) :
    rd S16x256x64 (X7 m c main_v29) = predOut (argsOf m c) := by
  funext i
  obtain ⟨b, s, d, rfl⟩ : ∃ (b : Fin 16) (s : Fin 256) (d : Fin 64), i = ix3 b s d := ⟨i 0, i 1, i 2, eq_ix3 i⟩
  exact (chain m c F0 F1 F2 ha).2 b s d

end Cert.KernelIdeal.KChain

end
-- ==== Proof.K0Pieces.lean ====
/-
  The first pipelined region: what each control case leaves in the two accumulators, in closed form.  At the first
  point an accumulator ends at the zero row plus the point's sum over the 16384 rows (of the first-layer value for
  the first accumulator, of its square for the second); at a later point at what it held plus that sum.  Each is one
  covering store's payload, read back through the whole buffer.
-/
import proofs.«168503_j21964462751805_2_alg».proof.Proof.K0Dat
import Idealize.ShloMosaic.Lib.Pipeline.Value

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: what each case's found pieces are, as the skeleton's payloads of the input blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- THE FIRST POINT, window 5: the body stores the zero row, reads it back, and leaves the zero row plus the point's
    column sums — the read-back is a covered load of the first store. -/
theorem out0_A_5_eq (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) :
    out0_A_5 c i arg2 harg2 arg3 harg3 arg4 harg4 arg5 harg5 arg6 harg6 arg7 harg7 arg8 harg8 hc0 x0 x1 x2 x3 x4 = k0_pay1 (k0_pay6 x0 x1 x2 x3 x4) (k0_pay3 (F := F)) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x32) hz2, View.readCov_unit_zero (S := S1x32) _ hz2]
  simp only [View.readAt_eq_ld, harg2.read_unread, harg3.read_unread, harg4.read_unread, harg5.read_unread, harg6.read_unread,
    View.ld_unit_zero (S := S1x64x64) hz3, View.ld_unit_zero (S := S1x256x64) hz3, View.ld_unit_zero (S := S32x64) hz2, View.ld_unit_zero (S := S1x32) hz2]

/-- THE FIRST POINT, window 6: the body stores the zero row, reads it back, and leaves the zero row plus the point's
    column sums of squares — the read-back is a covered load of the first store. -/
theorem out0_A_6_eq (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) :
    out0_A_6 c i arg2 harg2 arg3 harg3 arg4 harg4 arg5 harg5 arg6 harg6 arg7 harg7 arg8 harg8 hc0 x0 x1 x2 x3 x4 = k0_pay2 (k0_pay7 x0 x1 x2 x3 x4) (k0_pay4 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x32) hz2, View.readCov_unit_zero (S := S1x32) _ hz2]
  simp only [View.readAt_eq_ld, harg2.read_unread, harg3.read_unread, harg4.read_unread, harg5.read_unread, harg6.read_unread,
    View.ld_unit_zero (S := S1x64x64) hz3, View.ld_unit_zero (S := S1x256x64) hz3, View.ld_unit_zero (S := S32x64) hz2, View.ld_unit_zero (S := S1x32) hz2]

/-- A LATER POINT, window 5: the body leaves, in the accumulator holding `xo5`, `xo5` plus the point's
    column sums — its one covering store's payload, whose loads read the whole buffers. -/
theorem out0_B_5_eq (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 : Vec F S1x32 .f32) (xo6 : Vec F S1x32 .f32) :
    out0_B_5 c i arg2 harg2 arg3 harg3 arg4 harg4 arg5 harg5 arg6 harg6 arg7 harg7 arg8 harg8 hc0 x0 x1 x2 x3 x4 xo5 xo6 = k0_pay1 (k0_pay6 x0 x1 x2 x3 x4) xo5 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero (S := S1x32) hz2]
  simp only [View.readAt_eq_ld, harg2.read_unread, harg3.read_unread, harg4.read_unread, harg5.read_unread, harg6.read_unread, harg7.read_unread, harg8.read_unread,
    View.ld_unit_zero (S := S1x64x64) hz3, View.ld_unit_zero (S := S1x256x64) hz3, View.ld_unit_zero (S := S32x64) hz2, View.ld_unit_zero (S := S1x32) hz2]

/-- A LATER POINT, window 6: the body leaves, in the accumulator holding `xo6`, `xo6` plus the point's
    column sums of squares — its one covering store's payload, whose loads read the whole buffers. -/
theorem out0_B_6_eq (c : Dev nD) (i : grid0.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 : Vec F S1x32 .f32) (xo6 : Vec F S1x32 .f32) :
    out0_B_6 c i arg2 harg2 arg3 harg3 arg4 harg4 arg5 harg5 arg6 harg6 arg7 harg7 arg8 harg8 hc0 x0 x1 x2 x3 x4 xo5 xo6 = k0_pay2 (k0_pay7 x0 x1 x2 x3 x4) xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero (S := S1x32) hz2]
  simp only [View.readAt_eq_ld, harg2.read_unread, harg3.read_unread, harg4.read_unread, harg5.read_unread, harg6.read_unread, harg7.read_unread, harg8.read_unread,
    View.ld_unit_zero (S := S1x64x64) hz3, View.ld_unit_zero (S := S1x256x64) hz3, View.ld_unit_zero (S := S32x64) hz2, View.ld_unit_zero (S := S1x32) hz2]

end Cert.KernelIdeal.Hand

end
-- ==== Proof.Pay0A.lean ====
/-
  Region 0, first-layer values read at an index.

  The [16384, 32] vector of first-layer values: row r stands for the pair (source r / 256 of the tile, target r % 256),
  and channel o of that row is the source's part (a sum over the 64 features of the source against the first half of the
  layer's weights), plus the target's part (the same against the second half), plus the bias.
-/
import proofs.«168503_j21964462751805_2_alg».proof.Proof.Gen.KernelIdeal.Skeleton
import proofs.«168503_j21964462751805_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-! ## Layout operations of the first-layer chain, read at coordinates -/

section Layout
variable {α : Type}

/-- A [64, 256, 32] array flattened to [16384, 32] reads, at row r, the operand at (r / 256, r % 256). -/
theorem cast_rows_apply (x : S64x256x32.Idx → α) (h : S64x256x32.ShapeCasts S16384x32) (r : Fin 16384) (o : Fin 32) :
    shapeCast S16384x32 x h (ix2 r o)
      = x (ix3 (⟨r.val / 256, by have := r.isLt; omega⟩ : Fin 64) (⟨r.val % 256, by omega⟩ : Fin 256) o) :=
  shapeCast_apply x h _ _ (by
    rw [Shape.rowMajor_val_three, Shape.rowMajor_val_two]
    show (r.val / 256 * 256 + r.val % 256) * 32 + o.val = r.val * 32 + o.val
    have := Nat.div_add_mod r.val 256
    omega)

/-- A [64, 32] array cast to [64, 1, 32] reads, at (s, u, o), the operand at (s, o). -/
theorem cast_mid_unit_apply (x : S64x32.Idx → α) (h : S64x32.ShapeCasts S64x1x32) (s : Fin 64) (u : Fin 1) (o : Fin 32) :
    shapeCast S64x1x32 x h (ix3 s u o) = x (ix2 s o) :=
  shapeCast_apply x h _ _ (by
    have hu : u.val = 0 := by omega
    rw [Shape.rowMajor_val_three, Shape.rowMajor_val_two]
    show s.val * 32 + o.val = (s.val * 1 + u.val) * 32 + o.val
    rw [hu, Nat.mul_one, Nat.add_zero])

/-- A [32] array cast to [1, 1, 32] reads, at (u, w, o), the operand at o. -/
theorem cast_two_units_apply (x : S32.Idx → α) (h : S32.ShapeCasts S1x1x32) (u w : Fin 1) (o : Fin 32) :
    shapeCast S1x1x32 x h (ix3 u w o) = x (ix1 o) :=
  shapeCast_apply x h _ _ (by
    have hu : u.val = 0 := by omega
    have hw : w.val = 0 := by omega
    rw [Shape.rowMajor_val_three, Shape.rowMajor_val_one]
    show o.val = (u.val * 1 + w.val) * 32 + o.val
    omega)

/-- A [64, 1, 32] array broadcast to [64, 256, 32] reads, at (s, t, o), the operand at (s, 0, o). -/
theorem bcast_src_apply (x : S64x1x32.Idx → α) (h : S64x1x32.Broadcasts S64x256x32) (s : Fin 64) (t : Fin 256) (o : Fin 32) :
    broadcastTo S64x256x32 x h (ix3 s t o) = x (ix3 s (0 : Fin 1) o) := by
  refine broadcastTo_apply x h (ix3 s t o) (ix3 s (0 : Fin 1) o) fun ax => ?_
  match ax with
  | ⟨0, _⟩ => rfl
  | ⟨1, _⟩ => rfl
  | ⟨2, _⟩ => rfl

/-- A [1, 256, 32] array broadcast to [64, 256, 32] reads, at (s, t, o), the operand at (0, t, o). -/
theorem bcast_tgt_apply (x : S1x256x32.Idx → α) (h : S1x256x32.Broadcasts S64x256x32) (s : Fin 64) (t : Fin 256) (o : Fin 32) :
    broadcastTo S64x256x32 x h (ix3 s t o) = x (ix3 (0 : Fin 1) t o) := by
  refine broadcastTo_apply x h (ix3 s t o) (ix3 (0 : Fin 1) t o) fun ax => ?_
  match ax with
  | ⟨0, _⟩ => rfl
  | ⟨1, _⟩ => rfl
  | ⟨2, _⟩ => rfl

/-- A [1, 1, 32] array broadcast to [64, 256, 32] reads, at (s, t, o), the operand at (0, 0, o). -/
theorem bcast_chan_apply (x : S1x1x32.Idx → α) (h : S1x1x32.Broadcasts S64x256x32) (s : Fin 64) (t : Fin 256) (o : Fin 32) :
    broadcastTo S64x256x32 x h (ix3 s t o) = x (ix3 (0 : Fin 1) (0 : Fin 1) o) := by
  refine broadcastTo_apply x h (ix3 s t o) (ix3 (0 : Fin 1) (0 : Fin 1) o) fun ax => ?_
  match ax with
  | ⟨0, _⟩ => rfl
  | ⟨1, _⟩ => rfl
  | ⟨2, _⟩ => rfl

end Layout

/-! ## The two matrix products, read at coordinates -/

section Products

/-- Left operand's row coordinate of the [64, 64] by [64, 32] product: the result's row. -/
theorem mmS_lhs0 (i : S64x32.Idx) (q : dot_S64x64_S64x32_S64x32_1_0_0_1_n_n.contr.Idx) :
    (dot_S64x64_S64x32_S64x32_1_0_0_1_n_n.lhsIdx i q 0).val = (i 0).val := by
  unfold DotDims.lhsIdx
  rw [dif_neg (show ¬(0 : Fin S64x64.rank) ∈ dot_S64x64_S64x32_S64x32_1_0_0_1_n_n.lhsBatch by decide),
    dif_pos (show (0 : Fin S64x64.rank) ∈ dot_S64x64_S64x32_S64x32_1_0_0_1_n_n.lhsNonContracting by decide)]
  rfl
/-- Left operand's column coordinate: the contracted position. -/
theorem mmS_lhs1 (i : S64x32.Idx) (q : dot_S64x64_S64x32_S64x32_1_0_0_1_n_n.contr.Idx) :
    (dot_S64x64_S64x32_S64x32_1_0_0_1_n_n.lhsIdx i q 1).val = (q ⟨0, by decide⟩).val :=
  dot_S64x64_S64x32_S64x32_1_0_0_1_n_n.lhsIdx_val_of_single rfl i q
/-- Right operand's row coordinate: the contracted position. -/
theorem mmS_rhs0 (i : S64x32.Idx) (q : dot_S64x64_S64x32_S64x32_1_0_0_1_n_n.contr.Idx) :
    (dot_S64x64_S64x32_S64x32_1_0_0_1_n_n.rhsIdx i q 0).val = (q ⟨0, by decide⟩).val :=
  dot_S64x64_S64x32_S64x32_1_0_0_1_n_n.rhsIdx_val_of_single rfl i q
/-- Right operand's column coordinate: the result's column. -/
theorem mmS_rhs1 (i : S64x32.Idx) (q : dot_S64x64_S64x32_S64x32_1_0_0_1_n_n.contr.Idx) :
    (dot_S64x64_S64x32_S64x32_1_0_0_1_n_n.rhsIdx i q 1).val = (i 1).val := by
  unfold DotDims.rhsIdx
  rw [dif_neg (show ¬(1 : Fin S64x32.rank) ∈ dot_S64x64_S64x32_S64x32_1_0_0_1_n_n.rhsBatch by decide),
    dif_pos (show (1 : Fin S64x32.rank) ∈ dot_S64x64_S64x32_S64x32_1_0_0_1_n_n.rhsNonContracting by decide)]
  rfl

/-- The [64, 64] by [64, 32] product accumulated into zero, at (s, o): the sum over the 64 contracted positions. -/
theorem mmS_apply (a : FVec Ideal S64x64 .bf16) (b : FVec Ideal S64x32 .bf16) (s : Fin 64) (o : Fin 32) :
    matmul dot_S64x64_S64x32_S64x32_1_0_0_1_n_n none a b (constant (F := Ideal) S64x32 .f32 0x00000000#32) (ix2 s o)
      = ∑ k : Fin 64, a (ix2 s k) * b (ix2 k o) := by
  refine (Ideal.matmul_constant_zero_apply dot_S64x64_S64x32_S64x32_1_0_0_1_n_n none a b (ix2 s o)).trans ?_
  rw [← Equiv.sum_comp (contrEquiv1 dot_S64x64_S64x32_S64x32_1_0_0_1_n_n 64 rfl rfl).symm]
  refine Finset.sum_congr rfl fun k _ => ?_
  have hk := contrEquiv1_symm_val dot_S64x64_S64x32_S64x32_1_0_0_1_n_n 64 rfl rfl k
  have el : dot_S64x64_S64x32_S64x32_1_0_0_1_n_n.lhsIdx (ix2 s o) ((contrEquiv1 dot_S64x64_S64x32_S64x32_1_0_0_1_n_n 64 rfl rfl).symm k) = ix2 s k :=
    funext fun ax => Fin.ext (by
      match ax with
      | ⟨0, _⟩ => exact mmS_lhs0 _ _
      | ⟨1, _⟩ => exact (mmS_lhs1 _ _).trans hk)
  have er : dot_S64x64_S64x32_S64x32_1_0_0_1_n_n.rhsIdx (ix2 s o) ((contrEquiv1 dot_S64x64_S64x32_S64x32_1_0_0_1_n_n 64 rfl rfl).symm k) = ix2 k o :=
    funext fun ax => Fin.ext (by
      match ax with
      | ⟨0, _⟩ => exact (mmS_rhs0 _ _).trans hk
      | ⟨1, _⟩ => exact mmS_rhs1 _ _)
  rw [el, er]

/-- Left operand's row coordinate of the [256, 64] by [64, 32] product: the result's row. -/
theorem mmT_lhs0 (i : S256x32.Idx) (q : dot_S256x64_S64x32_S256x32_1_0_0_1_n_n.contr.Idx) :
    (dot_S256x64_S64x32_S256x32_1_0_0_1_n_n.lhsIdx i q 0).val = (i 0).val := by
  unfold DotDims.lhsIdx
  rw [dif_neg (show ¬(0 : Fin S256x64.rank) ∈ dot_S256x64_S64x32_S256x32_1_0_0_1_n_n.lhsBatch by decide),
    dif_pos (show (0 : Fin S256x64.rank) ∈ dot_S256x64_S64x32_S256x32_1_0_0_1_n_n.lhsNonContracting by decide)]
  rfl
/-- Left operand's column coordinate: the contracted position. -/
theorem mmT_lhs1 (i : S256x32.Idx) (q : dot_S256x64_S64x32_S256x32_1_0_0_1_n_n.contr.Idx) :
    (dot_S256x64_S64x32_S256x32_1_0_0_1_n_n.lhsIdx i q 1).val = (q ⟨0, by decide⟩).val :=
  dot_S256x64_S64x32_S256x32_1_0_0_1_n_n.lhsIdx_val_of_single rfl i q
/-- Right operand's row coordinate: the contracted position. -/
theorem mmT_rhs0 (i : S256x32.Idx) (q : dot_S256x64_S64x32_S256x32_1_0_0_1_n_n.contr.Idx) :
    (dot_S256x64_S64x32_S256x32_1_0_0_1_n_n.rhsIdx i q 0).val = (q ⟨0, by decide⟩).val :=
  dot_S256x64_S64x32_S256x32_1_0_0_1_n_n.rhsIdx_val_of_single rfl i q
/-- Right operand's column coordinate: the result's column. -/
theorem mmT_rhs1 (i : S256x32.Idx) (q : dot_S256x64_S64x32_S256x32_1_0_0_1_n_n.contr.Idx) :
    (dot_S256x64_S64x32_S256x32_1_0_0_1_n_n.rhsIdx i q 1).val = (i 1).val := by
  unfold DotDims.rhsIdx
  rw [dif_neg (show ¬(1 : Fin S64x32.rank) ∈ dot_S256x64_S64x32_S256x32_1_0_0_1_n_n.rhsBatch by decide),
    dif_pos (show (1 : Fin S64x32.rank) ∈ dot_S256x64_S64x32_S256x32_1_0_0_1_n_n.rhsNonContracting by decide)]
  rfl

/-- The [256, 64] by [64, 32] product accumulated into zero, at (s, o): the sum over the 64 contracted positions. -/
theorem mmT_apply (a : FVec Ideal S256x64 .bf16) (b : FVec Ideal S64x32 .bf16) (s : Fin 256) (o : Fin 32) :
    matmul dot_S256x64_S64x32_S256x32_1_0_0_1_n_n none a b (constant (F := Ideal) S256x32 .f32 0x00000000#32) (ix2 s o)
      = ∑ k : Fin 64, a (ix2 s k) * b (ix2 k o) := by
  refine (Ideal.matmul_constant_zero_apply dot_S256x64_S64x32_S256x32_1_0_0_1_n_n none a b (ix2 s o)).trans ?_
  rw [← Equiv.sum_comp (contrEquiv1 dot_S256x64_S64x32_S256x32_1_0_0_1_n_n 64 rfl rfl).symm]
  refine Finset.sum_congr rfl fun k _ => ?_
  have hk := contrEquiv1_symm_val dot_S256x64_S64x32_S256x32_1_0_0_1_n_n 64 rfl rfl k
  have el : dot_S256x64_S64x32_S256x32_1_0_0_1_n_n.lhsIdx (ix2 s o) ((contrEquiv1 dot_S256x64_S64x32_S256x32_1_0_0_1_n_n 64 rfl rfl).symm k) = ix2 s k :=
    funext fun ax => Fin.ext (by
      match ax with
      | ⟨0, _⟩ => exact mmT_lhs0 _ _
      | ⟨1, _⟩ => exact (mmT_lhs1 _ _).trans hk)
  have er : dot_S256x64_S64x32_S256x32_1_0_0_1_n_n.rhsIdx (ix2 s o) ((contrEquiv1 dot_S256x64_S64x32_S256x32_1_0_0_1_n_n 64 rfl rfl).symm k) = ix2 k o :=
    funext fun ax => Fin.ext (by
      match ax with
      | ⟨0, _⟩ => exact (mmT_rhs0 _ _).trans hk
      | ⟨1, _⟩ => exact mmT_rhs1 _ _)
  rw [el, er]

end Products

end Cert.KernelIdeal.PayValue

end
-- ==== Proof.Pay0B.lean ====
/-
  Region 0: the stored values read at an index.

  Row r of the [16384, 32] first-layer vector stands for the pair (source r / 256 of the tile, target r % 256); its
  channel o is the source's part plus the target's part plus the bias.  The two lane sums are the sum of that value over
  the 16384 rows, and the sum of its square; the two accumulating stores add a lane sum to what the window held, and the
  two zeroing stores write the zero word.
-/
import proofs.«168503_j21964462751805_2_alg».proof.Proof.Pay0A

noncomputable section

open scoped BigOperators

namespace Cert.KernelIdeal.PayValue

open Idealize.ShloMosaic Idealize.ShloMosaic.ValueIdx Cert.KernelIdeal Cert.KernelIdeal.Gen

/-- The first layer on row r (source r / 256 of the tile, target r % 256), channel o: the source's part, the target's
    part, the bias. -/
def h0 (v5 : Vec Ideal S1x64x64 .f32) (v7 : Vec Ideal S1x256x64 .f32) (v10 : Vec Ideal S32x64 .f32)
    (v16 : Vec Ideal S32x64 .f32) (v21 : Vec Ideal S1x32 .f32) (r : Fin 16384) (o : Fin 32) : EReal :=
  ((∑ k : Fin 64, (v5 (ix3 (0 : Fin 1) (⟨r.val / 256, by have := r.isLt; omega⟩ : Fin 64) k) : EReal) * (v10 (ix2 o k) : EReal))
    + (∑ k : Fin 64, (v7 (ix3 (0 : Fin 1) (⟨r.val % 256, by omega⟩ : Fin 256) k) : EReal) * (v16 (ix2 o k) : EReal)))
    + (v21 (ix2 (0 : Fin 1) o) : EReal)

/-- The first-layer vector at (r, o). -/
theorem k0_pay5_apply (v5 : Vec Ideal S1x64x64 .f32) (v7 : Vec Ideal S1x256x64 .f32) (v10 : Vec Ideal S32x64 .f32)
    (v16 : Vec Ideal S32x64 .f32) (v21 : Vec Ideal S1x32 .f32) (r : Fin 16384) (o : Fin 32) :
    Gen.k0_pay5 (F := Ideal) v5 v7 v10 v16 v21 (ix2 r o) = h0 v5 v7 v10 v16 v21 r o := by
  unfold Gen.k0_pay5 h0
  refine (cast_rows_apply _ _ r o).trans ?_
  refine (addf_apply _ _ _).trans ?_
  refine congrArg₂ (· + ·) ((addf_apply _ _ _).trans (congrArg₂ (· + ·) ?_ ?_)) ?_
  · refine (bcast_src_apply _ _ _ _ o).trans ?_
    refine (cast_mid_unit_apply _ _ _ _ o).trans ?_
    refine (mmS_apply _ _ _ o).trans ?_
    refine Finset.sum_congr rfl fun k _ => congrArg₂ (· * ·) ?_ ?_
    · exact shapeCast_1ab_ab_apply v5 _ _ k
    · refine (transpose_ix2_apply _ _ k o).trans ?_
      exact congrFun (shapeCast_self v10 _) (ix2 o k)
  · refine (bcast_tgt_apply _ _ _ _ o).trans ?_
    refine (shapeCast_ab_1ab_apply _ _ _ _ o).trans ?_
    refine (mmT_apply _ _ _ o).trans ?_
    refine Finset.sum_congr rfl fun k _ => congrArg₂ (· * ·) ?_ ?_
    · exact shapeCast_1ab_ab_apply v7 _ _ k
    · refine (transpose_ix2_apply _ _ k o).trans ?_
      exact congrFun (shapeCast_self v16 _) (ix2 o k)
  · refine (bcast_chan_apply _ _ _ _ o).trans ?_
    refine (cast_two_units_apply _ _ _ _ o).trans ?_
    exact shapeCast_1a_a_apply v21 _ o

/-! ## The two lane sums -/

/-- A sum over the 16384 rows of a [16384, 32] vector, at channel o. -/
theorem lane_sum_apply (src : FVec Ideal S16384x32 .f32) (h : S16384x32.Reduces [0] S32) (hφ : FKind.Formats .f32)
    (hacc : (0x00000000#32 : BitVec 32) = FKind.add.neutral .f32 hφ) (o : Fin 32) :
    multiReduction .add [0] S32 src 0x00000000#32 h hφ hacc (ix1 o) = ∑ r : Fin 16384, src (ix2 r o) := by
  refine (Ideal.multiReduction_add_single src 0x00000000#32 h hφ hacc (ix1 o)).trans ?_
  refine Finset.sum_congr rfl fun r _ => congrArg src ?_
  funext ax
  apply Fin.ext
  match ax with
  | ⟨0, _⟩ => rfl
  | ⟨1, _⟩ => rfl

/-- The first lane sum at channel o: the first-layer value summed over the rows. -/
theorem k0_pay6_apply (v5 : Vec Ideal S1x64x64 .f32) (v7 : Vec Ideal S1x256x64 .f32) (v10 : Vec Ideal S32x64 .f32)
    (v16 : Vec Ideal S32x64 .f32) (v21 : Vec Ideal S1x32 .f32) (o : Fin 32) :
    Gen.k0_pay6 (F := Ideal) v5 v7 v10 v16 v21 (ix1 o) = ∑ r : Fin 16384, h0 v5 v7 v10 v16 v21 r o := by
  unfold Gen.k0_pay6
  refine (lane_sum_apply _ _ _ _ o).trans ?_
  exact Finset.sum_congr rfl fun r _ => k0_pay5_apply v5 v7 v10 v16 v21 r o

/-- The second lane sum at channel o: the square of the first-layer value summed over the rows. -/
theorem k0_pay7_apply (v5 : Vec Ideal S1x64x64 .f32) (v7 : Vec Ideal S1x256x64 .f32) (v10 : Vec Ideal S32x64 .f32)
    (v16 : Vec Ideal S32x64 .f32) (v21 : Vec Ideal S1x32 .f32) (o : Fin 32) :
    Gen.k0_pay7 (F := Ideal) v5 v7 v10 v16 v21 (ix1 o)
      = ∑ r : Fin 16384, h0 v5 v7 v10 v16 v21 r o * h0 v5 v7 v10 v16 v21 r o := by
  unfold Gen.k0_pay7
  refine (lane_sum_apply _ _ _ _ o).trans ?_
  refine Finset.sum_congr rfl fun r _ => ?_
  refine (mulf_apply _ _ _).trans ?_
  exact congrArg₂ (· * ·) (k0_pay5_apply v5 v7 v10 v16 v21 r o) (k0_pay5_apply v5 v7 v10 v16 v21 r o)

/-! ## The four stores of the two running sums -/

/-- The accumulating store of the first running sum at channel o: what the window held plus the lane sum. -/
theorem k0_pay1_apply (v32 : FVec Ideal S32 .f32) (v35 : Vec Ideal S1x32 .f32) (o : Fin 32) :
    Gen.k0_pay1 (F := Ideal) v32 v35 (ix2 (0 : Fin 1) o) = (v35 (ix2 (0 : Fin 1) o) : EReal) + (v32 (ix1 o) : EReal) := by
  unfold Gen.k0_pay1
  refine (addf_apply _ _ _).trans ?_
  exact congrArg₂ (· + ·) (congrFun (shapeCast_self v35 _) _) (shapeCast_a_1a_apply v32 _ (0 : Fin 1) o)

/-- The accumulating store of the second running sum, likewise. -/
theorem k0_pay2_apply (v34 : FVec Ideal S32 .f32) (v40 : Vec Ideal S1x32 .f32) (o : Fin 32) :
    Gen.k0_pay2 (F := Ideal) v34 v40 (ix2 (0 : Fin 1) o) = (v40 (ix2 (0 : Fin 1) o) : EReal) + (v34 (ix1 o) : EReal) := by
  unfold Gen.k0_pay2
  refine (addf_apply _ _ _).trans ?_
  exact congrArg₂ (· + ·) (congrFun (shapeCast_self v40 _) _) (shapeCast_a_1a_apply v34 _ (0 : Fin 1) o)

/-- The zeroing store of the first running sum writes the zero word. -/
theorem k0_pay3_apply (o : Fin 32) :
    Gen.k0_pay3 (F := Ideal) (ix2 (0 : Fin 1) o) = Ideal.ofBits .f32 0x00000000#32 := rfl

/-- The zeroing store of the second running sum writes the zero word. -/
theorem k0_pay4_apply (o : Fin 32) :
    Gen.k0_pay4 (F := Ideal) (ix2 (0 : Fin 1) o) = Ideal.ofBits .f32 0x00000000#32 := rfl

end Cert.KernelIdeal.PayValue

end
-- ==== Proof.Val0.lean ====
/-
  Region 0 at the level of arrays: the two running sums of the first-layer statistics.

  The region visits 64 grid points p = (b, i): batch entry b = p / 4, tile i = p % 4 of 64 source nodes.  At each point
  the body adds, to two [1, 32] accumulators that are zeroed at the first point and written back once after the last,
  the sum over the point's 16384 (source, target) pairs of the first-layer value, and of its square.  So after the region
  the two result arrays hold, channel by channel, the sum over all 64 points and 16384 rows of the value and of its
  square, the value being read directly off the region's argument arrays.
-/
import proofs.«168503_j21964462751805_2_alg».proof.Proof.K0Pieces
import proofs.«168503_j21964462751805_2_alg».proof.Proof.Pay0B
import proofs.«168503_j21964462751805_2_alg».proof.Proof.LibBlockSum
import Idealize.ShloMosaic.Lib.Pipeline.Value
import Idealize.ShloMosaic.Lib.ValueIdx

set_option maxRecDepth 16384

noncomputable section

open scoped BigOperators

namespace Cert.KernelIdeal.Val0

open Cert.KernelIdeal Cert.KernelIdeal.Gen Cert.KernelIdeal.Hand Cert.KernelIdeal.PayValue
open Idealize.ShloMosaic Idealize.ShloMosaic.TcCoe Idealize.ShloMosaic.ValueIdx
open Idealize.SL Idealize.SL.Sem
open Idealize.ShloMosaic.Pipeline (Dat)

/-! ## One point's contribution, over any input blocks -/

/-- The first accumulator after the zeroing point: zero plus the point's sum. -/
theorem stepA5 (x0 : Vec Ideal S1x64x64 .f32) (x1 : Vec Ideal S1x256x64 .f32) (x2 : Vec Ideal S32x64 .f32) (x3 : Vec Ideal S32x64 .f32) (x4 : Vec Ideal S1x32 .f32) (o : Fin 32) :
    Gen.k0_pay1 (F := Ideal) (Gen.k0_pay6 x0 x1 x2 x3 x4) (Gen.k0_pay3 (F := Ideal)) (ix2 (0 : Fin 1) o)
      = 0 + ∑ r : Fin 16384, h0 x0 x1 x2 x3 x4 r o := by
  refine (k0_pay1_apply _ _ o).trans ?_
  exact congrArg₂ (· + ·) ((k0_pay3_apply o).trans Ideal.ofBits_zero_f32) (k0_pay6_apply x0 x1 x2 x3 x4 o)

/-- The second accumulator after the zeroing point: zero plus the point's sum of squares. -/
theorem stepA6 (x0 : Vec Ideal S1x64x64 .f32) (x1 : Vec Ideal S1x256x64 .f32) (x2 : Vec Ideal S32x64 .f32) (x3 : Vec Ideal S32x64 .f32) (x4 : Vec Ideal S1x32 .f32) (o : Fin 32) :
    Gen.k0_pay2 (F := Ideal) (Gen.k0_pay7 x0 x1 x2 x3 x4) (Gen.k0_pay4 (F := Ideal)) (ix2 (0 : Fin 1) o)
      = 0 + ∑ r : Fin 16384, h0 x0 x1 x2 x3 x4 r o * h0 x0 x1 x2 x3 x4 r o := by
  refine (k0_pay2_apply _ _ o).trans ?_
  exact congrArg₂ (· + ·) ((k0_pay4_apply o).trans Ideal.ofBits_zero_f32) (k0_pay7_apply x0 x1 x2 x3 x4 o)

/-- The first accumulator after a later point: what it held plus the point's sum. -/
theorem stepB5 (x0 : Vec Ideal S1x64x64 .f32) (x1 : Vec Ideal S1x256x64 .f32) (x2 : Vec Ideal S32x64 .f32) (x3 : Vec Ideal S32x64 .f32) (x4 : Vec Ideal S1x32 .f32) (xo : Vec Ideal S1x32 .f32) (o : Fin 32) :
    Gen.k0_pay1 (F := Ideal) (Gen.k0_pay6 x0 x1 x2 x3 x4) xo (ix2 (0 : Fin 1) o)
      = (xo (ix2 (0 : Fin 1) o) : EReal) + ∑ r : Fin 16384, h0 x0 x1 x2 x3 x4 r o := by
  refine (k0_pay1_apply _ _ o).trans ?_
  exact congrArg₂ (· + ·) rfl (k0_pay6_apply x0 x1 x2 x3 x4 o)

/-- The second accumulator after a later point: what it held plus the point's sum of squares. -/
theorem stepB6 (x0 : Vec Ideal S1x64x64 .f32) (x1 : Vec Ideal S1x256x64 .f32) (x2 : Vec Ideal S32x64 .f32) (x3 : Vec Ideal S32x64 .f32) (x4 : Vec Ideal S1x32 .f32) (xo : Vec Ideal S1x32 .f32) (o : Fin 32) :
    Gen.k0_pay2 (F := Ideal) (Gen.k0_pay7 x0 x1 x2 x3 x4) xo (ix2 (0 : Fin 1) o)
      = (xo (ix2 (0 : Fin 1) o) : EReal) + ∑ r : Fin 16384, h0 x0 x1 x2 x3 x4 r o * h0 x0 x1 x2 x3 x4 r o := by
  refine (k0_pay2_apply _ _ o).trans ?_
  exact congrArg₂ (· + ·) rfl (k0_pay7_apply x0 x1 x2 x3 x4 o)

/-! ## The running sums over the grid -/

-- the buffers' contents when the region is entered
variable (V : (c : Dev nD) → (b : Ref sig .tc) → Buf (Elt Ideal) ((c : Thread nD τ).loc b))

/-- The five input windows' blocks at point t, at their literal vector types. -/
abbrev blk0 (c : Dev nD) (t : Fin cfg0.N) : Vec Ideal S1x64x64 .f32 := iblk0 V c 0 t
abbrev blk1 (c : Dev nD) (t : Fin cfg0.N) : Vec Ideal S1x256x64 .f32 := iblk0 V c 1 t
abbrev blk2 (c : Dev nD) (t : Fin cfg0.N) : Vec Ideal S32x64 .f32 := iblk0 V c 2 t
abbrev blk3 (c : Dev nD) (t : Fin cfg0.N) : Vec Ideal S32x64 .f32 := iblk0 V c 3 t
abbrev blk4 (c : Dev nD) (t : Fin cfg0.N) : Vec Ideal S1x32 .f32 := iblk0 V c 4 t

/-- Point t's sum of the first-layer value over its 16384 rows, channel o. -/
def part5 (c : Dev nD) (o : Fin 32) (t : Fin cfg0.N) : EReal :=
  ∑ r : Fin 16384, h0 (blk0 V c t) (blk1 V c t) (blk2 V c t) (blk3 V c t) (blk4 V c t) r o
/-- Point t's sum of the squared first-layer value over its 16384 rows, channel o. -/
def part6 (c : Dev nD) (o : Fin 32) (t : Fin cfg0.N) : EReal :=
  ∑ r : Fin 16384, h0 (blk0 V c t) (blk1 V c t) (blk2 V c t) (blk3 V c t) (blk4 V c t) r o * h0 (blk0 V c t) (blk1 V c t) (blk2 V c t) (blk3 V c t) (blk4 V c t) r o

/-- The same, indexed by position (zero past the grid). -/
def s5 (c : Dev nD) (o : Fin 32) : ℕ → EReal := fun n => if h : n < cfg0.N then part5 V c o ⟨n, h⟩ else 0
def s6 (c : Dev nD) (o : Fin 32) : ℕ → EReal := fun n => if h : n < cfg0.N then part6 V c o ⟨n, h⟩ else 0

/-- The grid has 64 points. -/
theorem lt64 (t : Fin cfg0.N) : t.val < 64 := lt_of_lt_of_eq t.isLt (show cfg0.N = 64 from N_0)

/-- What the two accumulators hold after position n is the running sum of the points' contributions: by induction on
    the position, the first point being the zeroing case and every later one the adding case. -/
theorem outsAt_eq (c : Dev nD) (o : Fin 32) : ∀ (n : ℕ) (h : n < cfg0.N),
    (((outsAt0 V c n h).1 : S1x32.Idx → EReal) (ix2 (0 : Fin 1) o) = Cert.Lib.chain (s5 V c o) n)
    ∧ (((outsAt0 V c n h).2 : S1x32.Idx → EReal) (ix2 (0 : Fin 1) o) = Cert.Lib.chain (s6 V c o) n)
  | 0, h => by
    have hA : outsAt0 V c 0 h = _ := outsAt0_A V c ⟨0, h⟩ rfl
    have e5 := out0_A_5_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (blk0 V c ⟨0, h⟩) (blk1 V c ⟨0, h⟩) (blk2 V c ⟨0, h⟩) (blk3 V c ⟨0, h⟩) (blk4 V c ⟨0, h⟩)
    have e6 := out0_A_6_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (blk0 V c ⟨0, h⟩) (blk1 V c ⟨0, h⟩) (blk2 V c ⟨0, h⟩) (blk3 V c ⟨0, h⟩) (blk4 V c ⟨0, h⟩)
    have c5 : Cert.Lib.chain (s5 V c o) 0 = 0 + part5 V c o ⟨0, h⟩ := by
      rw [Cert.Lib.chain]; exact congrArg (0 + ·) (dif_pos h)
    have c6 : Cert.Lib.chain (s6 V c o) 0 = 0 + part6 V c o ⟨0, h⟩ := by
      rw [Cert.Lib.chain]; exact congrArg (0 + ·) (dif_pos h)
    constructor
    · refine ((congrFun (congrArg Prod.fst hA) (ix2 (0 : Fin 1) o)).trans (congrFun e5 (ix2 (0 : Fin 1) o))).trans ?_
      exact (stepA5 (blk0 V c ⟨0, h⟩) (blk1 V c ⟨0, h⟩) (blk2 V c ⟨0, h⟩) (blk3 V c ⟨0, h⟩) (blk4 V c ⟨0, h⟩) o).trans c5.symm
    · refine ((congrFun (congrArg Prod.snd hA) (ix2 (0 : Fin 1) o)).trans (congrFun e6 (ix2 (0 : Fin 1) o))).trans ?_
      exact (stepA6 (blk0 V c ⟨0, h⟩) (blk1 V c ⟨0, h⟩) (blk2 V c ⟨0, h⟩) (blk3 V c ⟨0, h⟩) (blk4 V c ⟨0, h⟩) o).trans c6.symm
  | n + 1, h => by
    have hB : ¬(⟨n + 1, h⟩ : Fin cfg0.N).val % 64 = 0 := by
      have hN := lt64 ⟨n + 1, h⟩
      show ¬(n + 1) % 64 = 0
      have : n + 1 < 64 := hN
      omega
    have ih := outsAt_eq c o n (Nat.lt_of_succ_lt h)
    have hBe : outsAt0 V c (n + 1) h = _ := outsAt0_B V c ⟨n + 1, h⟩ hB
    have e5 := out0_B_5_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (blk0 V c ⟨n + 1, h⟩) (blk1 V c ⟨n + 1, h⟩) (blk2 V c ⟨n + 1, h⟩) (blk3 V c ⟨n + 1, h⟩) (blk4 V c ⟨n + 1, h⟩)
      (outsAt0 V c n (Nat.lt_of_succ_lt h)).1 (outsAt0 V c n (Nat.lt_of_succ_lt h)).2
    have e6 := out0_B_6_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (blk0 V c ⟨n + 1, h⟩) (blk1 V c ⟨n + 1, h⟩) (blk2 V c ⟨n + 1, h⟩) (blk3 V c ⟨n + 1, h⟩) (blk4 V c ⟨n + 1, h⟩)
      (outsAt0 V c n (Nat.lt_of_succ_lt h)).1 (outsAt0 V c n (Nat.lt_of_succ_lt h)).2
    have c5 : Cert.Lib.chain (s5 V c o) (n + 1) = Cert.Lib.chain (s5 V c o) n + part5 V c o ⟨n + 1, h⟩ := by
      rw [Cert.Lib.chain]; exact congrArg (Cert.Lib.chain (s5 V c o) n + ·) (dif_pos h)
    have c6 : Cert.Lib.chain (s6 V c o) (n + 1) = Cert.Lib.chain (s6 V c o) n + part6 V c o ⟨n + 1, h⟩ := by
      rw [Cert.Lib.chain]; exact congrArg (Cert.Lib.chain (s6 V c o) n + ·) (dif_pos h)
    constructor
    · refine ((congrFun (congrArg Prod.fst hBe) (ix2 (0 : Fin 1) o)).trans (congrFun e5 (ix2 (0 : Fin 1) o))).trans ?_
      refine (stepB5 (blk0 V c ⟨n + 1, h⟩) (blk1 V c ⟨n + 1, h⟩) (blk2 V c ⟨n + 1, h⟩) (blk3 V c ⟨n + 1, h⟩) (blk4 V c ⟨n + 1, h⟩) (outsAt0 V c n (Nat.lt_of_succ_lt h)).1 o).trans ?_
      exact (congrArg (· + part5 V c o ⟨n + 1, h⟩) ih.1).trans c5.symm
    · refine ((congrFun (congrArg Prod.snd hBe) (ix2 (0 : Fin 1) o)).trans (congrFun e6 (ix2 (0 : Fin 1) o))).trans ?_
      refine (stepB6 (blk0 V c ⟨n + 1, h⟩) (blk1 V c ⟨n + 1, h⟩) (blk2 V c ⟨n + 1, h⟩) (blk3 V c ⟨n + 1, h⟩) (blk4 V c ⟨n + 1, h⟩) (outsAt0 V c n (Nat.lt_of_succ_lt h)).2 o).trans ?_
      exact (congrArg (· + part6 V c o ⟨n + 1, h⟩) ih.2).trans c6.symm

/-- After the last point the two accumulators hold the sums, over the 64 points, of the points' contributions. -/
theorem sums0 (c : Dev nD) (o : Fin 32) (h63 : 63 < cfg0.N) :
    (((outsAt0 V c 63 h63).1 : S1x32.Idx → EReal) (ix2 (0 : Fin 1) o) = ∑ t : Fin cfg0.N, part5 V c o t)
    ∧ (((outsAt0 V c 63 h63).2 : S1x32.Idx → EReal) (ix2 (0 : Fin 1) o) = ∑ t : Fin cfg0.N, part6 V c o t) := by
  have hN : cfg0.N = 64 := N_0
  have e := outsAt_eq V c o 63 h63
  have hs : ∀ s : ℕ → EReal, Cert.Lib.chain s 63 = ∑ t : Fin cfg0.N, s t.val := fun s => by
    have := Cert.Lib.chain_eq_sum_fin s cfg0.N (by omega)
    rwa [show cfg0.N - 1 = 63 by omega] at this
  exact ⟨(e.1.trans (hs _)).trans (Finset.sum_congr rfl fun t _ => dif_pos t.isLt),
    (e.2.trans (hs _)).trans (Finset.sum_congr rfl fun t _ => dif_pos t.isLt)⟩

/-! ## The windows' block indices over the grid -/

theorem idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = 0
    ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-! ## The input blocks, read off the argument arrays -/

/-- Window 0 at point t = (b, i) is rows i * 64 … i * 64 + 63 of entry b of the node features. -/
theorem blk0_apply (c : Dev nD) (t : Fin cfg0.N) (u : Fin 1) (s : Fin 64) (k : Fin 64) :
    (blk0 V c t (ix3 u s k) : EReal)
      = (V c main_arg0 : S16x256x64.Idx → EReal) (ix3 (⟨t.val / 4, by have := lt64 t; omega⟩ : Fin 16)
          (⟨t.val % 4 * 64 + s.val, by have := s.isLt; omega⟩ : Fin 256) k) := by
  obtain ⟨e0, e1, e2⟩ := idx0 t
  have hu : u.val = 0 := by omega
  show ((cfg0.win 0).blk t).view.read (Elt Ideal) (V c (Pipeline.arrRef spec0 0)) (ix3 u s k) = _
  rw [View.read_apply]
  show (V c main_arg0 : S16x256x64.Idx → EReal) _ = _
  refine congrArg (V c main_arg0 : S16x256x64.Idx → EReal) ?_
  funext ax
  apply Fin.ext
  match ax with
  | ⟨0, _⟩ => show win0_0.index t (0 : Fin 3) * 1 + 1 * u.val = t.val / 4; rw [e0, hu]; omega
  | ⟨1, _⟩ => show win0_0.index t (1 : Fin 3) * 64 + 1 * s.val = t.val % 4 * 64 + s.val; rw [e1]; omega
  | ⟨2, _⟩ => show win0_0.index t (2 : Fin 3) * 64 + 1 * k.val = k.val; rw [e2]; omega

/-- Window 1 at point t = (b, i) is all 256 rows of entry b of the node features. -/
theorem blk1_apply (c : Dev nD) (t : Fin cfg0.N) (u : Fin 1) (s : Fin 256) (k : Fin 64) :
    (blk1 V c t (ix3 u s k) : EReal)
      = (V c main_arg0 : S16x256x64.Idx → EReal) (ix3 (⟨t.val / 4, by have := lt64 t; omega⟩ : Fin 16) s k) := by
  obtain ⟨e0, e1, e2⟩ := idx1 t
  have hu : u.val = 0 := by omega
  show ((cfg0.win 1).blk t).view.read (Elt Ideal) (V c (Pipeline.arrRef spec0 1)) (ix3 u s k) = _
  rw [View.read_apply]
  show (V c main_arg0 : S16x256x64.Idx → EReal) _ = _
  refine congrArg (V c main_arg0 : S16x256x64.Idx → EReal) ?_
  funext ax
  apply Fin.ext
  match ax with
  | ⟨0, _⟩ => show win0_1.index t (0 : Fin 3) * 1 + 1 * u.val = t.val / 4; rw [e0, hu]; omega
  | ⟨1, _⟩ => show win0_1.index t (1 : Fin 3) * 256 + 1 * s.val = s.val; rw [e1]; omega
  | ⟨2, _⟩ => show win0_1.index t (2 : Fin 3) * 64 + 1 * k.val = k.val; rw [e2]; omega

/-- Window 2 is its whole array at every point. -/
theorem blk2_apply (c : Dev nD) (t : Fin cfg0.N) (a : Fin 32) (b : Fin 64) :
    (blk2 V c t (ix2 a b) : EReal) = (V c main_v0 : S32x64.Idx → EReal) (ix2 a b) := by
  obtain ⟨e0, e1⟩ := idx2 t
  show ((cfg0.win 2).blk t).view.read (Elt Ideal) (V c (Pipeline.arrRef spec0 2)) (ix2 a b) = _
  rw [View.read_apply]
  show (V c main_v0 : S32x64.Idx → EReal) _ = _
  refine congrArg (V c main_v0 : S32x64.Idx → EReal) ?_
  funext ax
  apply Fin.ext
  match ax with
  | ⟨0, _⟩ => show win0_2.index t (0 : Fin 2) * 32 + 1 * a.val = a.val; rw [e0]; omega
  | ⟨1, _⟩ => show win0_2.index t (1 : Fin 2) * 64 + 1 * b.val = b.val; rw [e1]; omega

/-- Window 3 is its whole array at every point. -/
theorem blk3_apply (c : Dev nD) (t : Fin cfg0.N) (a : Fin 32) (b : Fin 64) :
    (blk3 V c t (ix2 a b) : EReal) = (V c main_v1 : S32x64.Idx → EReal) (ix2 a b) := by
  obtain ⟨e0, e1⟩ := idx3 t
  show ((cfg0.win 3).blk t).view.read (Elt Ideal) (V c (Pipeline.arrRef spec0 3)) (ix2 a b) = _
  rw [View.read_apply]
  show (V c main_v1 : S32x64.Idx → EReal) _ = _
  refine congrArg (V c main_v1 : S32x64.Idx → EReal) ?_
  funext ax
  apply Fin.ext
  match ax with
  | ⟨0, _⟩ => show win0_3.index t (0 : Fin 2) * 32 + 1 * a.val = a.val; rw [e0]; omega
  | ⟨1, _⟩ => show win0_3.index t (1 : Fin 2) * 64 + 1 * b.val = b.val; rw [e1]; omega

/-- Window 4 is its whole array at every point. -/
theorem blk4_apply (c : Dev nD) (t : Fin cfg0.N) (a : Fin 1) (b : Fin 32) :
    (blk4 V c t (ix2 a b) : EReal) = (V c main_v2 : S1x32.Idx → EReal) (ix2 a b) := by
  obtain ⟨e0, e1⟩ := idx4 t
  show ((cfg0.win 4).blk t).view.read (Elt Ideal) (V c (Pipeline.arrRef spec0 4)) (ix2 a b) = _
  rw [View.read_apply]
  show (V c main_v2 : S1x32.Idx → EReal) _ = _
  refine congrArg (V c main_v2 : S1x32.Idx → EReal) ?_
  funext ax
  apply Fin.ext
  match ax with
  | ⟨0, _⟩ => show win0_4.index t (0 : Fin 2) * 1 + 1 * a.val = a.val; rw [e0]; omega
  | ⟨1, _⟩ => show win0_4.index t (1 : Fin 2) * 32 + 1 * b.val = b.val; rw [e1]; omega

/-! ## The first-layer value from the argument arrays -/

/-- The region's four argument arrays, as functions of their literal indices: the node features [16, 256, 64], the two
    halves [32, 64] of the first layer's weights, and its bias [1, 32]. -/
abbrev xArr (c : Dev nD) : S16x256x64.Idx → EReal := V c main_arg0
abbrev wSrc (c : Dev nD) : S32x64.Idx → EReal := V c main_v0
abbrev wTgt (c : Dev nD) : S32x64.Idx → EReal := V c main_v1
abbrev bias (c : Dev nD) : S1x32.Idx → EReal := V c main_v2

/-- The first-layer value of row r at grid point p, channel o, from the region's argument arrays: the entry is p / 4, the
    source node p % 4 * 64 + r / 256, the target node r % 256; the layer's two weight halves and its bias are the
    region's other three arguments. -/
def H (c : Dev nD) (p : Fin 64) (r : Fin 16384) (o : Fin 32) : EReal :=
  ((∑ k : Fin 64, xArr V c (ix3 (⟨p.val / 4, by have := p.isLt; omega⟩ : Fin 16)
        (⟨p.val % 4 * 64 + r.val / 256, by have := p.isLt; have := r.isLt; omega⟩ : Fin 256) k) * wSrc V c (ix2 o k))
    + (∑ k : Fin 64, xArr V c (ix3 (⟨p.val / 4, by have := p.isLt; omega⟩ : Fin 16)
        (⟨r.val % 256, by omega⟩ : Fin 256) k) * wTgt V c (ix2 o k)))
    + bias V c (ix2 (0 : Fin 1) o)

/-- The value over point t's blocks is the value from the argument arrays at p = t. -/
theorem h0_blocks (c : Dev nD) (t : Fin cfg0.N) (r : Fin 16384) (o : Fin 32) :
    h0 (blk0 V c t) (blk1 V c t) (blk2 V c t) (blk3 V c t) (blk4 V c t) r o = H V c ⟨t.val, lt64 t⟩ r o := by
  unfold h0 H
  refine congrArg₂ (· + ·) (congrArg₂ (· + ·) (Finset.sum_congr rfl fun k _ => congrArg₂ (· * ·) ?_ ?_)
    (Finset.sum_congr rfl fun k _ => congrArg₂ (· * ·) ?_ ?_)) ?_
  · exact blk0_apply V c t (0 : Fin 1) (⟨r.val / 256, by have := r.isLt; omega⟩ : Fin 64) k
  · exact blk2_apply V c t o k
  · exact blk1_apply V c t (0 : Fin 1) (⟨r.val % 256, by omega⟩ : Fin 256) k
  · exact blk3_apply V c t o k
  · exact blk4_apply V c t (0 : Fin 1) o

/-! ## The two result arrays after the region -/

/-- An index of result array 1 is in point t's block iff each coordinate is in the block's range on its axis. -/
theorem mem_blk5 (t : Fin cfg0.N) (i : S1x32.Idx) :
    i ∈ ((cfg0.win 5).blk t).view.set ↔ ∀ a : Fin 2, win0_5.index t a * S1x32.size a ≤ (i a).val ∧ (i a).val < win0_5.index t a * S1x32.size a + S1x32.size a := by
  show i ∈ ((View.whole main_v11_0).slice (win0_5.rect t)).set ↔ _
  rw [View.set_slice_whole, Rect.mem_set_unit]
  exact Iff.rfl

/-- Result array 1 after the region is what the body leaves in its accumulator at the last point: the one block
    written back is the whole array. -/
theorem arr5_of (c : Dev nD) (dat : Dat τ (Elt Ideal) Unit ℕ (UR sig nD τ) ℕ cfg0 c) (R : S1x32.Idx → EReal)
    (h : ∀ t : Fin cfg0.N, t.val = 63 → (dat.after 5 t : S1x32.Idx → EReal) = R) :
    (dat.arrAt 5 cfg0.N : S1x32.Idx → EReal) = R := by
  have hN : cfg0.N = 64 := N_0
  refine dat.arrAt_eq_of_cover 5 R (fun t hf => ?_) fun i => ?_
  · have h63 : t.val = 63 := by have := (flush0_5 t).mp hf; have := lt64 t; omega
    show (cfg0.win 5).cut (grid0.coords t) (dat.after 5 t) = _
    funext y
    obtain ⟨e0, e1⟩ := idx5 t
    refine (congrFun (h t h63) y).trans (congrArg R ?_)
    funext a
    apply Fin.ext
    match a with
    | ⟨0, _⟩ => show ((y : S1x32.Idx) 0).val = win0_5.index t (0 : Fin 2) * 1 + 1 * ((y : S1x32.Idx) 0).val; rw [e0]; omega
    | ⟨1, _⟩ => show ((y : S1x32.Idx) 1).val = win0_5.index t (1 : Fin 2) * 32 + 1 * ((y : S1x32.Idx) 1).val; rw [e1]; omega
  · have hi0 : (i 0).val < 1 := (i 0).isLt
    have hi1 : (i 1).val < 32 := (i 1).isLt
    refine ⟨⟨63, by rw [hN]; omega⟩, (flush0_5 _).mpr rfl, ?_⟩
    rw [mem_blk5]
    obtain ⟨e0, e1⟩ := idx5 ⟨63, by rw [hN]; omega⟩
    intro a
    match a with
    | ⟨0, _⟩ => show win0_5.index _ (0 : Fin 2) * 1 ≤ (i 0).val ∧ (i 0).val < win0_5.index _ (0 : Fin 2) * 1 + 1; rw [e0]; omega
    | ⟨1, _⟩ => show win0_5.index _ (1 : Fin 2) * 32 ≤ (i 1).val ∧ (i 1).val < win0_5.index _ (1 : Fin 2) * 32 + 32; rw [e1]; omega

/-- An index of result array 2 is in point t's block iff each coordinate is in the block's range on its axis. -/
theorem mem_blk6 (t : Fin cfg0.N) (i : S1x32.Idx) :
    i ∈ ((cfg0.win 6).blk t).view.set ↔ ∀ a : Fin 2, win0_6.index t a * S1x32.size a ≤ (i a).val ∧ (i a).val < win0_6.index t a * S1x32.size a + S1x32.size a := by
  show i ∈ ((View.whole main_v11_1).slice (win0_6.rect t)).set ↔ _
  rw [View.set_slice_whole, Rect.mem_set_unit]
  exact Iff.rfl

/-- Result array 2 after the region is what the body leaves in its accumulator at the last point: the one block
    written back is the whole array. -/
theorem arr6_of (c : Dev nD) (dat : Dat τ (Elt Ideal) Unit ℕ (UR sig nD τ) ℕ cfg0 c) (R : S1x32.Idx → EReal)
    (h : ∀ t : Fin cfg0.N, t.val = 63 → (dat.after 6 t : S1x32.Idx → EReal) = R) :
    (dat.arrAt 6 cfg0.N : S1x32.Idx → EReal) = R := by
  have hN : cfg0.N = 64 := N_0
  refine dat.arrAt_eq_of_cover 6 R (fun t hf => ?_) fun i => ?_
  · have h63 : t.val = 63 := by have := (flush0_6 t).mp hf; have := lt64 t; omega
    show (cfg0.win 6).cut (grid0.coords t) (dat.after 6 t) = _
    funext y
    obtain ⟨e0, e1⟩ := idx6 t
    refine (congrFun (h t h63) y).trans (congrArg R ?_)
    funext a
    apply Fin.ext
    match a with
    | ⟨0, _⟩ => show ((y : S1x32.Idx) 0).val = win0_6.index t (0 : Fin 2) * 1 + 1 * ((y : S1x32.Idx) 0).val; rw [e0]; omega
    | ⟨1, _⟩ => show ((y : S1x32.Idx) 1).val = win0_6.index t (1 : Fin 2) * 32 + 1 * ((y : S1x32.Idx) 1).val; rw [e1]; omega
  · have hi0 : (i 0).val < 1 := (i 0).isLt
    have hi1 : (i 1).val < 32 := (i 1).isLt
    refine ⟨⟨63, by rw [hN]; omega⟩, (flush0_6 _).mpr rfl, ?_⟩
    rw [mem_blk6]
    obtain ⟨e0, e1⟩ := idx6 ⟨63, by rw [hN]; omega⟩
    intro a
    match a with
    | ⟨0, _⟩ => show win0_6.index _ (0 : Fin 2) * 1 ≤ (i 0).val ∧ (i 0).val < win0_6.index _ (0 : Fin 2) * 1 + 1; rw [e0]; omega
    | ⟨1, _⟩ => show win0_6.index _ (1 : Fin 2) * 32 ≤ (i 1).val ∧ (i 1).val < win0_6.index _ (1 : Fin 2) * 32 + 32; rw [e1]; omega

/-- At the last point the proof data's accumulators are the running sums after position 63. -/
theorem after_last (c : Dev nD) (h63 : 63 < cfg0.N) (t : Fin cfg0.N) (ht : t.val = 63) :
    outsAt0 V c t.val t.isLt = outsAt0 V c 63 h63 := by
  obtain ⟨n, hn⟩ := t
  have hn63 : n = 63 := ht
  subst hn63
  rfl

/-- The first result array, channel o: the first-layer value summed over the 64 points and their 16384 rows. -/
theorem final0_5 (c : Dev nD) (o : Fin 32) :
    ((dat0 V c).arrAt 5 cfg0.N : S1x32.Idx → EReal) (ix2 (0 : Fin 1) o) = ∑ p : Fin 64, ∑ r : Fin 16384, H V c p r o := by
  have hN : cfg0.N = 64 := N_0
  have h63 : 63 < cfg0.N := by omega
  have hA := arr5_of c (dat0 V c) ((outsAt0 V c 63 h63).1 : S1x32.Idx → EReal) (fun t ht =>
    (after0_5 V c t).trans (congrArg Prod.fst (after_last V c h63 t ht)))
  refine (congrFun hA (ix2 (0 : Fin 1) o)).trans ((sums0 V c o h63).1.trans ?_)
  refine Fintype.sum_equiv (finCongr hN) _ _ fun t => ?_
  exact Finset.sum_congr rfl fun r _ => h0_blocks V c t r o

/-- The second result array, channel o: the squared first-layer value summed over the 64 points and their 16384 rows. -/
theorem final0_6 (c : Dev nD) (o : Fin 32) :
    ((dat0 V c).arrAt 6 cfg0.N : S1x32.Idx → EReal) (ix2 (0 : Fin 1) o)
      = ∑ p : Fin 64, ∑ r : Fin 16384, H V c p r o * H V c p r o := by
  have hN : cfg0.N = 64 := N_0
  have h63 : 63 < cfg0.N := by omega
  have hA := arr6_of c (dat0 V c) ((outsAt0 V c 63 h63).2 : S1x32.Idx → EReal) (fun t ht =>
    (after0_6 V c t).trans (congrArg Prod.snd (after_last V c h63 t ht)))
  refine (congrFun hA (ix2 (0 : Fin 1) o)).trans ((sums0 V c o h63).2.trans ?_)
  refine Fintype.sum_equiv (finCongr hN) _ _ fun t => ?_
  exact Finset.sum_congr rfl fun r _ => congrArg₂ (· * ·) (h0_blocks V c t r o) (h0_blocks V c t r o)

end Cert.KernelIdeal.Val0

end
-- ==== Proof.Val1Terms.lean ====
/-
  The main region's stored values as terms of its fifteen loaded blocks: the second layer's values over the tile's
  16384 edges, the gate block, the node layer's pre-activation block, and its column sums and column sums of squares
  over the tile's 64 rows.  These are the program's own payloads composed as the body composes them, for any float
  instance.
-/
import proofs.«168503_j21964462751805_2_alg».proof.Proof.Gen.KernelIdeal.Skeleton

noncomputable section

namespace Cert.KernelIdeal.Val1

open Cert.KernelIdeal Cert.KernelIdeal.Gen
open Idealize.ShloMosaic

variable {F : FTy → Type} [FloatOps F]

/-- The second layer's values over the tile's edges, row-major in (source row, target). -/
def hid (x0 : Vec F S1x64x64 .f32) (x1 : Vec F S1x256x64 .f32) (x2 : Vec F S32x64 .f32) (x3 : Vec F S32x64 .f32)
    (x4 : Vec F S1x32 .f32) (x5 : Vec F S1x32 .f32) (x6 : Vec F S1x32 .f32) (x7 : Vec F S1x32 .f32) (x8 : Vec F S1x32 .f32)
    (x9 : Vec F S32x32 .f32) (x10 : Vec F S1x32 .f32) : FVec F S16384x32 .bf16 :=
  k1_pay9 (k1_pay6 x0 x1 x2 x3 x4) (k1_pay7 x5) (k1_pay8 x6) (Scalar.ofBits .f32 0x3727C5AC#32) x7 x8 x9 x10

/-- The gate block stored at a point. -/
def gateBlk (x0 : Vec F S1x64x64 .f32) (x1 : Vec F S1x256x64 .f32) (x2 : Vec F S32x64 .f32) (x3 : Vec F S32x64 .f32)
    (x4 : Vec F S1x32 .f32) (x5 : Vec F S1x32 .f32) (x6 : Vec F S1x32 .f32) (x7 : Vec F S1x32 .f32) (x8 : Vec F S1x32 .f32)
    (x9 : Vec F S32x32 .f32) (x10 : Vec F S1x32 .f32) (x11 : Vec F S2x32 .f32) (x12 : Vec F S1x2 .f32) : FVec F S1x64x256 .f32 :=
  k1_pay13 (hid x0 x1 x2 x3 x4 x5 x6 x7 x8 x9 x10) (k1_pay10 x11) (constant S16384x2 .f32 0x00000000#32) x12

/-- The node layer's pre-activation over the tile's 64 rows, as a [64, 16] matrix. -/
def nodeMat (x0 : Vec F S1x64x64 .f32) (x1 : Vec F S1x256x64 .f32) (x2 : Vec F S32x64 .f32) (x3 : Vec F S32x64 .f32)
    (x4 : Vec F S1x32 .f32) (x5 : Vec F S1x32 .f32) (x6 : Vec F S1x32 .f32) (x7 : Vec F S1x32 .f32) (x8 : Vec F S1x32 .f32)
    (x9 : Vec F S32x32 .f32) (x10 : Vec F S1x32 .f32) (x11 : Vec F S2x32 .f32) (x12 : Vec F S1x2 .f32)
    (x13 : Vec F S16x128 .f32) (x14 : Vec F S1x16 .f32) : FVec F S64x16 .f32 :=
  k1_pay14 (k1_pay5 x0) (hid x0 x1 x2 x3 x4 x5 x6 x7 x8 x9 x10) (k1_pay10 x11) (constant S16384x2 .f32 0x00000000#32) x12 x13 x14

/-- The pre-activation block stored at a point. -/
def nodeBlk (x0 : Vec F S1x64x64 .f32) (x1 : Vec F S1x256x64 .f32) (x2 : Vec F S32x64 .f32) (x3 : Vec F S32x64 .f32)
    (x4 : Vec F S1x32 .f32) (x5 : Vec F S1x32 .f32) (x6 : Vec F S1x32 .f32) (x7 : Vec F S1x32 .f32) (x8 : Vec F S1x32 .f32)
    (x9 : Vec F S32x32 .f32) (x10 : Vec F S1x32 .f32) (x11 : Vec F S2x32 .f32) (x12 : Vec F S1x2 .f32)
    (x13 : Vec F S16x128 .f32) (x14 : Vec F S1x16 .f32) : FVec F S1x64x16 .f32 :=
  k1_pay15 (k1_pay5 x0) (hid x0 x1 x2 x3 x4 x5 x6 x7 x8 x9 x10) (k1_pay10 x11) (constant S16384x2 .f32 0x00000000#32) x12 x13 x14

/-- The pre-activation's column sums over the tile's rows. -/
def colSum (x0 : Vec F S1x64x64 .f32) (x1 : Vec F S1x256x64 .f32) (x2 : Vec F S32x64 .f32) (x3 : Vec F S32x64 .f32)
    (x4 : Vec F S1x32 .f32) (x5 : Vec F S1x32 .f32) (x6 : Vec F S1x32 .f32) (x7 : Vec F S1x32 .f32) (x8 : Vec F S1x32 .f32)
    (x9 : Vec F S32x32 .f32) (x10 : Vec F S1x32 .f32) (x11 : Vec F S2x32 .f32) (x12 : Vec F S1x2 .f32)
    (x13 : Vec F S16x128 .f32) (x14 : Vec F S1x16 .f32) : FVec F S16 .f32 :=
  k1_pay16 (k1_pay5 x0) (hid x0 x1 x2 x3 x4 x5 x6 x7 x8 x9 x10) (k1_pay10 x11) (constant S16384x2 .f32 0x00000000#32) x12 x13 x14

/-- The column sums of its squares. -/
def colSq (x0 : Vec F S1x64x64 .f32) (x1 : Vec F S1x256x64 .f32) (x2 : Vec F S32x64 .f32) (x3 : Vec F S32x64 .f32)
    (x4 : Vec F S1x32 .f32) (x5 : Vec F S1x32 .f32) (x6 : Vec F S1x32 .f32) (x7 : Vec F S1x32 .f32) (x8 : Vec F S1x32 .f32)
    (x9 : Vec F S32x32 .f32) (x10 : Vec F S1x32 .f32) (x11 : Vec F S2x32 .f32) (x12 : Vec F S1x2 .f32)
    (x13 : Vec F S16x128 .f32) (x14 : Vec F S1x16 .f32) : FVec F S16 .f32 :=
  k1_pay17 (k1_pay5 x0) (hid x0 x1 x2 x3 x4 x5 x6 x7 x8 x9 x10) (k1_pay10 x11) (constant S16384x2 .f32 0x00000000#32) x12 x13 x14

end Cert.KernelIdeal.Val1

end
-- ==== Proof.Val1Piece.lean ====
/-
  What each case of the main region's body leaves in the two block outputs' staging buffers, as the program's payloads of
  the point's loaded blocks: the gate block and the pre-activation block, the same in either case of the body's
  conditional.  Each buffer is written by one store that covers it, whose payload's loads read whole input buffers.
  For any float instance.
-/
import proofs.«168503_j21964462751805_2_alg».proof.Proof.K1Dat
import proofs.«168503_j21964462751805_2_alg».proof.Proof.Val1Terms
import Idealize.ShloMosaic.Lib.Pipeline.Value

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point's case leaves the gate block. -/
theorem outA15 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) :
    out1_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = gateBlk x0 x1 x2 x3 x4 x5 x6 x7 x8 x9 x10 x11 x12 := by
  unfold out1_A_15
  rw [View.read_writes_eq_canon _ _ _ (cover1_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)]
  unfold kernelRun1_A
  dsimp only
  sl_unfold_words
  rw [View.canon_unit_zero hz3]
  unfold gateBlk hid
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x64x64) hz3, View.ld_unit_zero (S := S1x256x64) hz3, View.ld_unit_zero (S := S1x64x256) hz3, View.ld_unit_zero (S := S1x64x16) hz3, View.ld_unit_zero (S := S32x64) hz2, View.ld_unit_zero (S := S1x32) hz2, View.ld_unit_zero (S := S32x32) hz2, View.ld_unit_zero (S := S2x32) hz2, View.ld_unit_zero (S := S1x2) hz2, View.ld_unit_zero (S := S16x128) hz2, View.ld_unit_zero (S := S1x16) hz2, shapeCast_self]

/-- The first point's case leaves the pre-activation block. -/
theorem outA16 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) :
    out1_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = nodeBlk x0 x1 x2 x3 x4 x5 x6 x7 x8 x9 x10 x11 x12 x13 x14 := by
  unfold out1_A_16
  rw [View.read_writes_eq_canon _ _ _ (cover1_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)]
  unfold kernelRun1_A
  dsimp only
  sl_unfold_words
  rw [View.canon_unit_zero hz3]
  unfold nodeBlk hid
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x64x64) hz3, View.ld_unit_zero (S := S1x256x64) hz3, View.ld_unit_zero (S := S1x64x256) hz3, View.ld_unit_zero (S := S1x64x16) hz3, View.ld_unit_zero (S := S32x64) hz2, View.ld_unit_zero (S := S1x32) hz2, View.ld_unit_zero (S := S32x32) hz2, View.ld_unit_zero (S := S2x32) hz2, View.ld_unit_zero (S := S1x2) hz2, View.ld_unit_zero (S := S16x128) hz2, View.ld_unit_zero (S := S1x16) hz2, shapeCast_self]

/-- A later point's case leaves the gate block. -/
theorem outB15 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) :
    out1_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18 = gateBlk x0 x1 x2 x3 x4 x5 x6 x7 x8 x9 x10 x11 x12 := by
  unfold out1_B_15
  rw [View.read_writes_eq_canon _ _ _ (cover1_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18)]
  unfold kernelRun1_B
  dsimp only
  sl_unfold_words
  rw [View.canon_unit_zero hz3]
  unfold gateBlk hid
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x64x64) hz3, View.ld_unit_zero (S := S1x256x64) hz3, View.ld_unit_zero (S := S1x64x256) hz3, View.ld_unit_zero (S := S1x64x16) hz3, View.ld_unit_zero (S := S32x64) hz2, View.ld_unit_zero (S := S1x32) hz2, View.ld_unit_zero (S := S32x32) hz2, View.ld_unit_zero (S := S2x32) hz2, View.ld_unit_zero (S := S1x2) hz2, View.ld_unit_zero (S := S16x128) hz2, View.ld_unit_zero (S := S1x16) hz2, shapeCast_self]

/-- A later point's case leaves the pre-activation block. -/
theorem outB16 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) :
    out1_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18 = nodeBlk x0 x1 x2 x3 x4 x5 x6 x7 x8 x9 x10 x11 x12 x13 x14 := by
  unfold out1_B_16
  rw [View.read_writes_eq_canon _ _ _ (cover1_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18)]
  unfold kernelRun1_B
  dsimp only
  sl_unfold_words
  rw [View.canon_unit_zero hz3]
  unfold nodeBlk hid
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x64x64) hz3, View.ld_unit_zero (S := S1x256x64) hz3, View.ld_unit_zero (S := S1x64x256) hz3, View.ld_unit_zero (S := S1x64x16) hz3, View.ld_unit_zero (S := S32x64) hz2, View.ld_unit_zero (S := S1x32) hz2, View.ld_unit_zero (S := S32x32) hz2, View.ld_unit_zero (S := S2x32) hz2, View.ld_unit_zero (S := S1x2) hz2, View.ld_unit_zero (S := S16x128) hz2, View.ld_unit_zero (S := S1x16) hz2, shapeCast_self]

end Cert.KernelIdeal.Val1

end
-- ==== Proof.Val1Outs.lean ====
/-
  What the two block outputs' staging buffers hold after every grid point of the main region: the point's gate block
  and the point's pre-activation block, of the point's input blocks — in either case of the body's conditional.
-/
import proofs.«168503_j21964462751805_2_alg».proof.Proof.Val1Piece

set_option maxRecDepth 16384

noncomputable section

namespace Cert.KernelIdeal.Val1

open Cert.KernelIdeal Cert.KernelIdeal.Gen Cert.KernelIdeal.Hand
open Idealize.ShloMosaic Idealize.ShloMosaic.TcCoe
open Idealize.SL Idealize.SL.Sem

variable {F : FTy → Type} [FloatOps F]
variable (V : (c : Dev nD) → (b : Ref sig .tc) → Buf (Elt F) ((c : Thread nD τ).loc b))

/-- The gate block of point `t`, of its input blocks. -/
def gateAt (c : Dev nD) (t : Fin cfg1.N) : Vec F S1x64x256 .f32 := gateBlk (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
/-- The pre-activation block of point `t`. -/
def nodeAt (c : Dev nD) (t : Fin cfg1.N) : Vec F S1x64x16 .f32 := nodeBlk (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)

/-- After point `t` the gate buffer holds the point's gate block. -/
theorem outs15 (c : Dev nD) (t : Fin cfg1.N) : (outsAt1 V c t.val t.isLt).1 = gateAt V c t := by
  by_cases h0 : t.val % 64 = 0
  · rw [outsAt1_A V c t h0]
    dsimp only
    unfold gateAt
    exact outA15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
  · rw [outsAt1_B V c t h0]
    dsimp only
    unfold gateAt
    exact outB15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (fun hh => h0 ((hcond1_0 t).mp hh)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).2.2.1 (outsAt1 V c (t.val - 1) (Nat.lt_of_le_of_lt (Nat.sub_le _ _) t.isLt)).2.2.2

/-- After point `t` the pre-activation buffer holds the point's pre-activation block. -/
theorem outs16 (c : Dev nD) (t : Fin cfg1.N) : (outsAt1 V c t.val t.isLt).2.1 = nodeAt V c t := by
  by_cases h0 : t.val % 64 = 0
  · rw [outsAt1_A V c t h0]
    dsimp only
    unfold nodeAt
    exact outA16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
  · rw [outsAt1_B V c t h0]
    dsimp only
    unfold nodeAt
    exact outB16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (fun hh => h0 ((hcond1_0 t).mp hh)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).2.2.1 (outsAt1 V c (t.val - 1) (Nat.lt_of_le_of_lt (Nat.sub_le _ _) t.isLt)).2.2.2

end Cert.KernelIdeal.Val1

end
-- ==== Proof.Val1Arr.lean ====
/-
  From blocks to arrays in the main region.  Two of its outputs (the gates, [16, 256, 256], and the node layer's
  pre-activation, [16, 256, 16]) are written back block by block, one block of 64 source rows of one batch entry at
  every grid point; the other two ([1, 16] accumulators) are written back once, after the last point.  Given what
  each point leaves in the staging buffers, the arrays after the region are read off here, for any proof data of
  the region's pipeline.
-/
import proofs.«168503_j21964462751805_2_alg».proof.Proof.Gen.KernelIdeal.Launch
import proofs.«168503_j21964462751805_2_alg».proof.Proof.Gen.KernelIdeal.Points
import Idealize.ShloMosaic.Lib.Pipeline.Value
import Idealize.ShloMosaic.Lib.ValueIdx

set_option maxRecDepth 16384

noncomputable section

namespace Cert.KernelIdeal.Val1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The grid has 64 points. -/
theorem lt64 (t : Fin cfg1.N) : t.val < 64 := lt_of_lt_of_eq t.isLt (show cfg1.N = 64 from N_1)

/-- The batch entry of grid point `t`: points are visited entry by entry, four tiles to an entry. -/
def pb (t : Fin cfg1.N) : Fin 16 := ⟨t.val / 4, by have := lt64 t; omega⟩
/-- Source row `r` of grid point `t`'s tile, as a node of its entry. -/
def psrc (t : Fin cfg1.N) (r : Fin 64) : Fin 256 := ⟨t.val % 4 * 64 + r.val, by have := r.isLt; omega⟩

/-- The block indices of the gate window over the grid. -/
theorem idx15 : ∀ t : Fin cfg1.N, win1_15.index t (0 : Fin 3) = t.val / 4 ∧ win1_15.index t (1 : Fin 3) = t.val % 4
    ∧ win1_15.index t (2 : Fin 3) = 0 :=
  (by decide +kernel : ∀ t : Fin grid1.N, _)

/-- What point `t` writes back of the gates is block `t` of `G`, when the body leaves `G`'s values there. -/
theorem flushed15_eq (c : Dev nD) (dat : Dat τ (Elt Ideal) Unit ℕ (UR sig nD τ) ℕ cfg1 c)
    (G : S16x256x256.Idx → EReal)
    (h : ∀ (t : Fin cfg1.N) (u : Fin 1) (r : Fin 64) (x : Fin 256),
      (dat.after 15 t : S1x64x256.Idx → EReal) (ix3 u r x) = G (ix3 (pb t) (psrc t r) x)) (t : Fin cfg1.N) :
    dat.flushed 15 t = ((cfg1.win 15).blk t).view.read (Elt Ideal) G := by
  show (cfg1.win 15).cut (grid1.coords t) (dat.after 15 t) = _
  funext y
  obtain ⟨e0, e1, e2⟩ := idx15 t
  refine ((congrArg (dat.after 15 t : S1x64x256.Idx → EReal) (eq_ix3 (y : S1x64x256.Idx))).trans (h t _ _ _)).trans
    (congrArg G ?_)
  funext a
  apply Fin.ext
  have h0 : ((y : S1x64x256.Idx) 0).val = 0 := by have h1 : ((y : S1x64x256.Idx) 0).val < 1 := ((y : S1x64x256.Idx) 0).isLt; omega
  match a with
  | ⟨0, _⟩ => show t.val / 4 = win1_15.index t (0 : Fin 3) * 1 + 1 * ((y : S1x64x256.Idx) 0).val; rw [e0, h0]; omega
  | ⟨1, _⟩ => show t.val % 4 * 64 + ((y : S1x64x256.Idx) 1).val = win1_15.index t (1 : Fin 3) * 64 + 1 * ((y : S1x64x256.Idx) 1).val; rw [e1]; omega
  | ⟨2, _⟩ => show ((y : S1x64x256.Idx) 2).val = win1_15.index t (2 : Fin 3) * 256 + 1 * ((y : S1x64x256.Idx) 2).val; rw [e2]; omega

/-- An index of the gate array is in point `t`'s block iff each coordinate is in the block's range on its axis. -/
theorem mem_blk15 (t : Fin cfg1.N) (i : S16x256x256.Idx) :
    i ∈ ((cfg1.win 15).blk t).view.set ↔ ∀ a : Fin 3, win1_15.index t a * S1x64x256.size a ≤ (i a).val ∧ (i a).val < win1_15.index t a * S1x64x256.size a + S1x64x256.size a := by
  show i ∈ ((View.whole main_v20_0).slice (win1_15.rect t)).set ↔ _
  rw [View.set_slice_whole, Rect.mem_set_unit]
  exact Iff.rfl

/-- The gates after the region: every entry is `G`'s, the point that covers source row `s` of entry `b` being
    `4 b + s / 64`. -/
theorem arr15_of (c : Dev nD) (dat : Dat τ (Elt Ideal) Unit ℕ (UR sig nD τ) ℕ cfg1 c)
    (G : S16x256x256.Idx → EReal)
    (h : ∀ (t : Fin cfg1.N) (u : Fin 1) (r : Fin 64) (x : Fin 256),
      (dat.after 15 t : S1x64x256.Idx → EReal) (ix3 u r x) = G (ix3 (pb t) (psrc t r) x)) :
    (dat.arrAt 15 cfg1.N : S16x256x256.Idx → EReal) = G :=
  dat.arrAt_eq_of_cover 15 G (fun t _ => flushed15_eq c dat G h t) fun i => by
    have hi0 : (i 0).val < 16 := (i 0).isLt
    have hi1 : (i 1).val < 256 := (i 1).isLt
    have hi2 : (i 2).val < 256 := (i 2).isLt
    have hN : cfg1.N = 64 := N_1
    refine ⟨⟨(i 0).val * 4 + (i 1).val / 64, by rw [hN]; omega⟩, flush1_15 _, ?_⟩
    rw [mem_blk15]
    obtain ⟨e0, e1, e2⟩ := idx15 ⟨(i 0).val * 4 + (i 1).val / 64, by rw [hN]; omega⟩
    intro a
    match a with
    | ⟨0, _⟩ => show win1_15.index _ (0 : Fin 3) * 1 ≤ (i 0).val ∧ (i 0).val < win1_15.index _ (0 : Fin 3) * 1 + 1; rw [e0]; dsimp only; omega
    | ⟨1, _⟩ => show win1_15.index _ (1 : Fin 3) * 64 ≤ (i 1).val ∧ (i 1).val < win1_15.index _ (1 : Fin 3) * 64 + 64; rw [e1]; dsimp only; omega
    | ⟨2, _⟩ => show win1_15.index _ (2 : Fin 3) * 256 ≤ (i 2).val ∧ (i 2).val < win1_15.index _ (2 : Fin 3) * 256 + 256; rw [e2]; omega

/-! ## The node layer's pre-activation, [16, 256, 16] -/

/-- The block indices of the pre-activation window over the grid. -/
theorem idx16 : ∀ t : Fin cfg1.N, win1_16.index t (0 : Fin 3) = t.val / 4 ∧ win1_16.index t (1 : Fin 3) = t.val % 4
    ∧ win1_16.index t (2 : Fin 3) = 0 :=
  (by decide +kernel : ∀ t : Fin grid1.N, _)

/-- What point `t` writes back of the pre-activation is block `t` of `G`, when the body leaves `G`'s values there. -/
theorem flushed16_eq (c : Dev nD) (dat : Dat τ (Elt Ideal) Unit ℕ (UR sig nD τ) ℕ cfg1 c)
    (G : S16x256x16.Idx → EReal)
    (h : ∀ (t : Fin cfg1.N) (u : Fin 1) (r : Fin 64) (x : Fin 16),
      (dat.after 16 t : S1x64x16.Idx → EReal) (ix3 u r x) = G (ix3 (pb t) (psrc t r) x)) (t : Fin cfg1.N) :
    dat.flushed 16 t = ((cfg1.win 16).blk t).view.read (Elt Ideal) G := by
  show (cfg1.win 16).cut (grid1.coords t) (dat.after 16 t) = _
  funext y
  obtain ⟨e0, e1, e2⟩ := idx16 t
  refine ((congrArg (dat.after 16 t : S1x64x16.Idx → EReal) (eq_ix3 (y : S1x64x16.Idx))).trans (h t _ _ _)).trans
    (congrArg G ?_)
  funext a
  apply Fin.ext
  have h0 : ((y : S1x64x16.Idx) 0).val = 0 := by have h1 : ((y : S1x64x16.Idx) 0).val < 1 := ((y : S1x64x16.Idx) 0).isLt; omega
  match a with
  | ⟨0, _⟩ => show t.val / 4 = win1_16.index t (0 : Fin 3) * 1 + 1 * ((y : S1x64x16.Idx) 0).val; rw [e0, h0]; omega
  | ⟨1, _⟩ => show t.val % 4 * 64 + ((y : S1x64x16.Idx) 1).val = win1_16.index t (1 : Fin 3) * 64 + 1 * ((y : S1x64x16.Idx) 1).val; rw [e1]; omega
  | ⟨2, _⟩ => show ((y : S1x64x16.Idx) 2).val = win1_16.index t (2 : Fin 3) * 16 + 1 * ((y : S1x64x16.Idx) 2).val; rw [e2]; omega

/-- An index of the pre-activation array is in point `t`'s block iff each coordinate is in the block's range. -/
theorem mem_blk16 (t : Fin cfg1.N) (i : S16x256x16.Idx) :
    i ∈ ((cfg1.win 16).blk t).view.set ↔ ∀ a : Fin 3, win1_16.index t a * S1x64x16.size a ≤ (i a).val ∧ (i a).val < win1_16.index t a * S1x64x16.size a + S1x64x16.size a := by
  show i ∈ ((View.whole main_v20_1).slice (win1_16.rect t)).set ↔ _
  rw [View.set_slice_whole, Rect.mem_set_unit]
  exact Iff.rfl

/-- The pre-activation after the region: every entry is `G`'s. -/
theorem arr16_of (c : Dev nD) (dat : Dat τ (Elt Ideal) Unit ℕ (UR sig nD τ) ℕ cfg1 c)
    (G : S16x256x16.Idx → EReal)
    (h : ∀ (t : Fin cfg1.N) (u : Fin 1) (r : Fin 64) (x : Fin 16),
      (dat.after 16 t : S1x64x16.Idx → EReal) (ix3 u r x) = G (ix3 (pb t) (psrc t r) x)) :
    (dat.arrAt 16 cfg1.N : S16x256x16.Idx → EReal) = G :=
  dat.arrAt_eq_of_cover 16 G (fun t _ => flushed16_eq c dat G h t) fun i => by
    have hi0 : (i 0).val < 16 := (i 0).isLt
    have hi1 : (i 1).val < 256 := (i 1).isLt
    have hi2 : (i 2).val < 16 := (i 2).isLt
    have hN : cfg1.N = 64 := N_1
    refine ⟨⟨(i 0).val * 4 + (i 1).val / 64, by rw [hN]; omega⟩, flush1_16 _, ?_⟩
    rw [mem_blk16]
    obtain ⟨e0, e1, e2⟩ := idx16 ⟨(i 0).val * 4 + (i 1).val / 64, by rw [hN]; omega⟩
    intro a
    match a with
    | ⟨0, _⟩ => show win1_16.index _ (0 : Fin 3) * 1 ≤ (i 0).val ∧ (i 0).val < win1_16.index _ (0 : Fin 3) * 1 + 1; rw [e0]; dsimp only; omega
    | ⟨1, _⟩ => show win1_16.index _ (1 : Fin 3) * 64 ≤ (i 1).val ∧ (i 1).val < win1_16.index _ (1 : Fin 3) * 64 + 64; rw [e1]; dsimp only; omega
    | ⟨2, _⟩ => show win1_16.index _ (2 : Fin 3) * 16 ≤ (i 2).val ∧ (i 2).val < win1_16.index _ (2 : Fin 3) * 16 + 16; rw [e2]; omega

/-! ## The two accumulators, [1, 16]: written back once, after the last point -/

/-- The accumulator windows' block never moves. -/
theorem idx17 : ∀ t : Fin cfg1.N, win1_17.index t (0 : Fin 2) = 0 ∧ win1_17.index t (1 : Fin 2) = 0 :=
  (by decide +kernel : ∀ t : Fin grid1.N, _)
theorem idx18 : ∀ t : Fin cfg1.N, win1_18.index t (0 : Fin 2) = 0 ∧ win1_18.index t (1 : Fin 2) = 0 :=
  (by decide +kernel : ∀ t : Fin grid1.N, _)

/-- An index of an accumulator is in point `t`'s block iff each coordinate is in the block's range. -/
theorem mem_blk17 (t : Fin cfg1.N) (i : S1x16.Idx) :
    i ∈ ((cfg1.win 17).blk t).view.set ↔ ∀ a : Fin 2, win1_17.index t a * S1x16.size a ≤ (i a).val ∧ (i a).val < win1_17.index t a * S1x16.size a + S1x16.size a := by
  show i ∈ ((View.whole main_v20_2).slice (win1_17.rect t)).set ↔ _
  rw [View.set_slice_whole, Rect.mem_set_unit]
  exact Iff.rfl
theorem mem_blk18 (t : Fin cfg1.N) (i : S1x16.Idx) :
    i ∈ ((cfg1.win 18).blk t).view.set ↔ ∀ a : Fin 2, win1_18.index t a * S1x16.size a ≤ (i a).val ∧ (i a).val < win1_18.index t a * S1x16.size a + S1x16.size a := by
  show i ∈ ((View.whole main_v20_3).slice (win1_18.rect t)).set ↔ _
  rw [View.set_slice_whole, Rect.mem_set_unit]
  exact Iff.rfl

/-- The first accumulator after the region is what the body leaves at the last point. -/
theorem arr17_of (c : Dev nD) (dat : Dat τ (Elt Ideal) Unit ℕ (UR sig nD τ) ℕ cfg1 c) (R : S1x16.Idx → EReal)
    (h : ∀ t : Fin cfg1.N, t.val = 63 → (dat.after 17 t : S1x16.Idx → EReal) = R) :
    (dat.arrAt 17 cfg1.N : S1x16.Idx → EReal) = R := by
  have hN : cfg1.N = 64 := N_1
  refine dat.arrAt_eq_of_cover 17 R (fun t hf => ?_) fun i => ?_
  · have h63 : t.val = 63 := by have := (flush1_17 t).mp hf; have := lt64 t; omega
    show (cfg1.win 17).cut (grid1.coords t) (dat.after 17 t) = _
    funext y
    obtain ⟨e0, e1⟩ := idx17 t
    refine (congrFun (h t h63) y).trans (congrArg R ?_)
    funext a
    apply Fin.ext
    match a with
    | ⟨0, _⟩ => show ((y : S1x16.Idx) 0).val = win1_17.index t (0 : Fin 2) * 1 + 1 * ((y : S1x16.Idx) 0).val; rw [e0]; omega
    | ⟨1, _⟩ => show ((y : S1x16.Idx) 1).val = win1_17.index t (1 : Fin 2) * 16 + 1 * ((y : S1x16.Idx) 1).val; rw [e1]; omega
  · have hi0 : (i 0).val < 1 := (i 0).isLt
    have hi1 : (i 1).val < 16 := (i 1).isLt
    refine ⟨⟨63, by rw [hN]; omega⟩, (flush1_17 _).mpr rfl, ?_⟩
    rw [mem_blk17]
    obtain ⟨e0, e1⟩ := idx17 ⟨63, by rw [hN]; omega⟩
    intro a
    match a with
    | ⟨0, _⟩ => show win1_17.index _ (0 : Fin 2) * 1 ≤ (i 0).val ∧ (i 0).val < win1_17.index _ (0 : Fin 2) * 1 + 1; rw [e0]; omega
    | ⟨1, _⟩ => show win1_17.index _ (1 : Fin 2) * 16 ≤ (i 1).val ∧ (i 1).val < win1_17.index _ (1 : Fin 2) * 16 + 16; rw [e1]; omega

/-- The second accumulator likewise. -/
theorem arr18_of (c : Dev nD) (dat : Dat τ (Elt Ideal) Unit ℕ (UR sig nD τ) ℕ cfg1 c) (R : S1x16.Idx → EReal)
    (h : ∀ t : Fin cfg1.N, t.val = 63 → (dat.after 18 t : S1x16.Idx → EReal) = R) :
    (dat.arrAt 18 cfg1.N : S1x16.Idx → EReal) = R := by
  have hN : cfg1.N = 64 := N_1
  refine dat.arrAt_eq_of_cover 18 R (fun t hf => ?_) fun i => ?_
  · have h63 : t.val = 63 := by have := (flush1_18 t).mp hf; have := lt64 t; omega
    show (cfg1.win 18).cut (grid1.coords t) (dat.after 18 t) = _
    funext y
    obtain ⟨e0, e1⟩ := idx18 t
    refine (congrFun (h t h63) y).trans (congrArg R ?_)
    funext a
    apply Fin.ext
    match a with
    | ⟨0, _⟩ => show ((y : S1x16.Idx) 0).val = win1_18.index t (0 : Fin 2) * 1 + 1 * ((y : S1x16.Idx) 0).val; rw [e0]; omega
    | ⟨1, _⟩ => show ((y : S1x16.Idx) 1).val = win1_18.index t (1 : Fin 2) * 16 + 1 * ((y : S1x16.Idx) 1).val; rw [e1]; omega
  · have hi0 : (i 0).val < 1 := (i 0).isLt
    have hi1 : (i 1).val < 16 := (i 1).isLt
    refine ⟨⟨63, by rw [hN]; omega⟩, (flush1_18 _).mpr rfl, ?_⟩
    rw [mem_blk18]
    obtain ⟨e0, e1⟩ := idx18 ⟨63, by rw [hN]; omega⟩
    intro a
    match a with
    | ⟨0, _⟩ => show win1_18.index _ (0 : Fin 2) * 1 ≤ (i 0).val ∧ (i 0).val < win1_18.index _ (0 : Fin 2) * 1 + 1; rw [e0]; omega
    | ⟨1, _⟩ => show win1_18.index _ (1 : Fin 2) * 16 ≤ (i 1).val ∧ (i 1).val < win1_18.index _ (1 : Fin 2) * 16 + 16; rw [e1]; omega

end Cert.KernelIdeal.Val1

end
-- ==== Proof.Val1Blocks.lean ====
/-
  The main region's input blocks read at an index.  At grid point `t` (batch entry `t / 4`, tile `t % 4`) the first
  window holds the tile's 64 source rows of the entry, the second all 256 rows of the entry, and every other window its
  whole array.
-/
import proofs.«168503_j21964462751805_2_alg».proof.Proof.K1Runs
import proofs.«168503_j21964462751805_2_alg».proof.Proof.Val1Arr

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx
open Idealize.SL Idealize.SL.Sem

variable {F : FTy → Type} [FloatOps F]
variable (V : (c : Dev nD) → (b : Ref sig .tc) → Buf (Elt F) ((c : Thread nD τ).loc b))

/-- The block indices of the two input windows that move, over the grid. -/
theorem idxIn0 : ∀ t : Fin cfg1.N, win1_0.index t (0 : Fin 3) = t.val / 4 ∧ win1_0.index t (1 : Fin 3) = t.val % 4
    ∧ win1_0.index t (2 : Fin 3) = 0 :=
  (by decide +kernel : ∀ t : Fin grid1.N, _)
theorem idxIn1 : ∀ t : Fin cfg1.N, win1_1.index t (0 : Fin 3) = t.val / 4 ∧ win1_1.index t (1 : Fin 3) = 0
    ∧ win1_1.index t (2 : Fin 3) = 0 :=
  (by decide +kernel : ∀ t : Fin grid1.N, _)

/-- The tile's source rows: row `r` of the first window's block is row `psrc t r` of entry `pb t`. -/
theorem blk0_apply (c : Dev nD) (t : Fin cfg1.N) (u : Fin 1) (r : Fin 64) (k : Fin 64) :
    (iblk1 V c 0 t : S1x64x64.Idx → Elt F .f32) (ix3 u r k) = (V c main_arg0 : S16x256x64.Idx → Elt F .f32) (ix3 (pb t) (psrc t r) k) := by
  obtain ⟨e0, e1, e2⟩ := idxIn0 t
  unfold iblk1
  rw [View.read_apply]
  show V c main_arg0 _ = V c main_arg0 _
  congr 1
  funext a
  apply Fin.ext
  have hu : u.val = 0 := by omega
  match a with
  | ⟨0, _⟩ => show win1_0.index t (0 : Fin 3) * 1 + 1 * u.val = t.val / 4; rw [e0, hu]; omega
  | ⟨1, _⟩ => show win1_0.index t (1 : Fin 3) * 64 + 1 * r.val = t.val % 4 * 64 + r.val; rw [e1]; omega
  | ⟨2, _⟩ => show win1_0.index t (2 : Fin 3) * 64 + 1 * k.val = k.val; rw [e2]; omega

/-- All the entry's rows: row `x` of the second window's block is row `x` of entry `pb t`. -/
theorem blk1_apply (c : Dev nD) (t : Fin cfg1.N) (u : Fin 1) (x : Fin 256) (k : Fin 64) :
    (iblk1 V c 1 t : S1x256x64.Idx → Elt F .f32) (ix3 u x k) = (V c main_arg0 : S16x256x64.Idx → Elt F .f32) (ix3 (pb t) x k) := by
  obtain ⟨e0, e1, e2⟩ := idxIn1 t
  unfold iblk1
  rw [View.read_apply]
  show V c main_arg0 _ = V c main_arg0 _
  congr 1
  funext a
  apply Fin.ext
  have hu : u.val = 0 := by omega
  match a with
  | ⟨0, _⟩ => show win1_1.index t (0 : Fin 3) * 1 + 1 * u.val = t.val / 4; rw [e0, hu]; omega
  | ⟨1, _⟩ => show win1_1.index t (1 : Fin 3) * 256 + 1 * x.val = x.val; rw [e1]; omega
  | ⟨2, _⟩ => show win1_1.index t (2 : Fin 3) * 64 + 1 * k.val = k.val; rw [e2]; omega

/-! ## The windows that hold a whole array -/

theorem idxIn2 : ∀ t : Fin cfg1.N, win1_2.index t (0 : Fin 2) = 0 ∧ win1_2.index t (1 : Fin 2) = 0 :=
  (by decide +kernel : ∀ t : Fin grid1.N, _)
theorem blk2_apply (c : Dev nD) (t : Fin cfg1.N) (i : S32x64.Idx) :
    (iblk1 V c 2 t : S32x64.Idx → Elt F .f32) i = (V c main_v0 : S32x64.Idx → Elt F .f32) i := by
  obtain ⟨e0, e1⟩ := idxIn2 t
  unfold iblk1
  rw [View.read_apply]
  show V c main_v0 _ = V c main_v0 _
  congr 1
  funext a
  apply Fin.ext
  match a with
  | ⟨0, _⟩ => show win1_2.index t (0 : Fin 2) * 32 + 1 * (i 0).val = (i 0).val; rw [e0]; omega
  | ⟨1, _⟩ => show win1_2.index t (1 : Fin 2) * 64 + 1 * (i 1).val = (i 1).val; rw [e1]; omega

theorem idxIn3 : ∀ t : Fin cfg1.N, win1_3.index t (0 : Fin 2) = 0 ∧ win1_3.index t (1 : Fin 2) = 0 :=
  (by decide +kernel : ∀ t : Fin grid1.N, _)
theorem blk3_apply (c : Dev nD) (t : Fin cfg1.N) (i : S32x64.Idx) :
    (iblk1 V c 3 t : S32x64.Idx → Elt F .f32) i = (V c main_v1 : S32x64.Idx → Elt F .f32) i := by
  obtain ⟨e0, e1⟩ := idxIn3 t
  unfold iblk1
  rw [View.read_apply]
  show V c main_v1 _ = V c main_v1 _
  congr 1
  funext a
  apply Fin.ext
  match a with
  | ⟨0, _⟩ => show win1_3.index t (0 : Fin 2) * 32 + 1 * (i 0).val = (i 0).val; rw [e0]; omega
  | ⟨1, _⟩ => show win1_3.index t (1 : Fin 2) * 64 + 1 * (i 1).val = (i 1).val; rw [e1]; omega

theorem idxIn4 : ∀ t : Fin cfg1.N, win1_4.index t (0 : Fin 2) = 0 ∧ win1_4.index t (1 : Fin 2) = 0 :=
  (by decide +kernel : ∀ t : Fin grid1.N, _)
theorem blk4_apply (c : Dev nD) (t : Fin cfg1.N) (i : S1x32.Idx) :
    (iblk1 V c 4 t : S1x32.Idx → Elt F .f32) i = (V c main_v2 : S1x32.Idx → Elt F .f32) i := by
  obtain ⟨e0, e1⟩ := idxIn4 t
  unfold iblk1
  rw [View.read_apply]
  show V c main_v2 _ = V c main_v2 _
  congr 1
  funext a
  apply Fin.ext
  match a with
  | ⟨0, _⟩ => show win1_4.index t (0 : Fin 2) * 1 + 1 * (i 0).val = (i 0).val; rw [e0]; omega
  | ⟨1, _⟩ => show win1_4.index t (1 : Fin 2) * 32 + 1 * (i 1).val = (i 1).val; rw [e1]; omega

theorem idxIn5 : ∀ t : Fin cfg1.N, win1_5.index t (0 : Fin 2) = 0 ∧ win1_5.index t (1 : Fin 2) = 0 :=
  (by decide +kernel : ∀ t : Fin grid1.N, _)
theorem blk5_apply (c : Dev nD) (t : Fin cfg1.N) (i : S1x32.Idx) :
    (iblk1 V c 5 t : S1x32.Idx → Elt F .f32) i = (V c main_v13 : S1x32.Idx → Elt F .f32) i := by
  obtain ⟨e0, e1⟩ := idxIn5 t
  unfold iblk1
  rw [View.read_apply]
  show V c main_v13 _ = V c main_v13 _
  congr 1
  funext a
  apply Fin.ext
  match a with
  | ⟨0, _⟩ => show win1_5.index t (0 : Fin 2) * 1 + 1 * (i 0).val = (i 0).val; rw [e0]; omega
  | ⟨1, _⟩ => show win1_5.index t (1 : Fin 2) * 32 + 1 * (i 1).val = (i 1).val; rw [e1]; omega

theorem idxIn6 : ∀ t : Fin cfg1.N, win1_6.index t (0 : Fin 2) = 0 ∧ win1_6.index t (1 : Fin 2) = 0 :=
  (by decide +kernel : ∀ t : Fin grid1.N, _)
theorem blk6_apply (c : Dev nD) (t : Fin cfg1.N) (i : S1x32.Idx) :
    (iblk1 V c 6 t : S1x32.Idx → Elt F .f32) i = (V c main_v19 : S1x32.Idx → Elt F .f32) i := by
  obtain ⟨e0, e1⟩ := idxIn6 t
  unfold iblk1
  rw [View.read_apply]
  show V c main_v19 _ = V c main_v19 _
  congr 1
  funext a
  apply Fin.ext
  match a with
  | ⟨0, _⟩ => show win1_6.index t (0 : Fin 2) * 1 + 1 * (i 0).val = (i 0).val; rw [e0]; omega
  | ⟨1, _⟩ => show win1_6.index t (1 : Fin 2) * 32 + 1 * (i 1).val = (i 1).val; rw [e1]; omega

theorem idxIn7 : ∀ t : Fin cfg1.N, win1_7.index t (0 : Fin 2) = 0 ∧ win1_7.index t (1 : Fin 2) = 0 :=
  (by decide +kernel : ∀ t : Fin grid1.N, _)
theorem blk7_apply (c : Dev nD) (t : Fin cfg1.N) (i : S1x32.Idx) :
    (iblk1 V c 7 t : S1x32.Idx → Elt F .f32) i = (V c main_v3 : S1x32.Idx → Elt F .f32) i := by
  obtain ⟨e0, e1⟩ := idxIn7 t
  unfold iblk1
  rw [View.read_apply]
  show V c main_v3 _ = V c main_v3 _
  congr 1
  funext a
  apply Fin.ext
  match a with
  | ⟨0, _⟩ => show win1_7.index t (0 : Fin 2) * 1 + 1 * (i 0).val = (i 0).val; rw [e0]; omega
  | ⟨1, _⟩ => show win1_7.index t (1 : Fin 2) * 32 + 1 * (i 1).val = (i 1).val; rw [e1]; omega

theorem idxIn8 : ∀ t : Fin cfg1.N, win1_8.index t (0 : Fin 2) = 0 ∧ win1_8.index t (1 : Fin 2) = 0 :=
  (by decide +kernel : ∀ t : Fin grid1.N, _)
theorem blk8_apply (c : Dev nD) (t : Fin cfg1.N) (i : S1x32.Idx) :
    (iblk1 V c 8 t : S1x32.Idx → Elt F .f32) i = (V c main_v4 : S1x32.Idx → Elt F .f32) i := by
  obtain ⟨e0, e1⟩ := idxIn8 t
  unfold iblk1
  rw [View.read_apply]
  show V c main_v4 _ = V c main_v4 _
  congr 1
  funext a
  apply Fin.ext
  match a with
  | ⟨0, _⟩ => show win1_8.index t (0 : Fin 2) * 1 + 1 * (i 0).val = (i 0).val; rw [e0]; omega
  | ⟨1, _⟩ => show win1_8.index t (1 : Fin 2) * 32 + 1 * (i 1).val = (i 1).val; rw [e1]; omega

theorem idxIn9 : ∀ t : Fin cfg1.N, win1_9.index t (0 : Fin 2) = 0 ∧ win1_9.index t (1 : Fin 2) = 0 :=
  (by decide +kernel : ∀ t : Fin grid1.N, _)
theorem blk9_apply (c : Dev nD) (t : Fin cfg1.N) (i : S32x32.Idx) :
    (iblk1 V c 9 t : S32x32.Idx → Elt F .f32) i = (V c main_arg5 : S32x32.Idx → Elt F .f32) i := by
  obtain ⟨e0, e1⟩ := idxIn9 t
  unfold iblk1
  rw [View.read_apply]
  show V c main_arg5 _ = V c main_arg5 _
  congr 1
  funext a
  apply Fin.ext
  match a with
  | ⟨0, _⟩ => show win1_9.index t (0 : Fin 2) * 32 + 1 * (i 0).val = (i 0).val; rw [e0]; omega
  | ⟨1, _⟩ => show win1_9.index t (1 : Fin 2) * 32 + 1 * (i 1).val = (i 1).val; rw [e1]; omega

theorem idxIn10 : ∀ t : Fin cfg1.N, win1_10.index t (0 : Fin 2) = 0 ∧ win1_10.index t (1 : Fin 2) = 0 :=
  (by decide +kernel : ∀ t : Fin grid1.N, _)
theorem blk10_apply (c : Dev nD) (t : Fin cfg1.N) (i : S1x32.Idx) :
    (iblk1 V c 10 t : S1x32.Idx → Elt F .f32) i = (V c main_v5 : S1x32.Idx → Elt F .f32) i := by
  obtain ⟨e0, e1⟩ := idxIn10 t
  unfold iblk1
  rw [View.read_apply]
  show V c main_v5 _ = V c main_v5 _
  congr 1
  funext a
  apply Fin.ext
  match a with
  | ⟨0, _⟩ => show win1_10.index t (0 : Fin 2) * 1 + 1 * (i 0).val = (i 0).val; rw [e0]; omega
  | ⟨1, _⟩ => show win1_10.index t (1 : Fin 2) * 32 + 1 * (i 1).val = (i 1).val; rw [e1]; omega

theorem idxIn11 : ∀ t : Fin cfg1.N, win1_11.index t (0 : Fin 2) = 0 ∧ win1_11.index t (1 : Fin 2) = 0 :=
  (by decide +kernel : ∀ t : Fin grid1.N, _)
theorem blk11_apply (c : Dev nD) (t : Fin cfg1.N) (i : S2x32.Idx) :
    (iblk1 V c 11 t : S2x32.Idx → Elt F .f32) i = (V c main_arg7 : S2x32.Idx → Elt F .f32) i := by
  obtain ⟨e0, e1⟩ := idxIn11 t
  unfold iblk1
  rw [View.read_apply]
  show V c main_arg7 _ = V c main_arg7 _
  congr 1
  funext a
  apply Fin.ext
  match a with
  | ⟨0, _⟩ => show win1_11.index t (0 : Fin 2) * 2 + 1 * (i 0).val = (i 0).val; rw [e0]; omega
  | ⟨1, _⟩ => show win1_11.index t (1 : Fin 2) * 32 + 1 * (i 1).val = (i 1).val; rw [e1]; omega

theorem idxIn12 : ∀ t : Fin cfg1.N, win1_12.index t (0 : Fin 2) = 0 ∧ win1_12.index t (1 : Fin 2) = 0 :=
  (by decide +kernel : ∀ t : Fin grid1.N, _)
theorem blk12_apply (c : Dev nD) (t : Fin cfg1.N) (i : S1x2.Idx) :
    (iblk1 V c 12 t : S1x2.Idx → Elt F .f32) i = (V c main_v6 : S1x2.Idx → Elt F .f32) i := by
  obtain ⟨e0, e1⟩ := idxIn12 t
  unfold iblk1
  rw [View.read_apply]
  show V c main_v6 _ = V c main_v6 _
  congr 1
  funext a
  apply Fin.ext
  match a with
  | ⟨0, _⟩ => show win1_12.index t (0 : Fin 2) * 1 + 1 * (i 0).val = (i 0).val; rw [e0]; omega
  | ⟨1, _⟩ => show win1_12.index t (1 : Fin 2) * 2 + 1 * (i 1).val = (i 1).val; rw [e1]; omega

theorem idxIn13 : ∀ t : Fin cfg1.N, win1_13.index t (0 : Fin 2) = 0 ∧ win1_13.index t (1 : Fin 2) = 0 :=
  (by decide +kernel : ∀ t : Fin grid1.N, _)
theorem blk13_apply (c : Dev nD) (t : Fin cfg1.N) (i : S16x128.Idx) :
    (iblk1 V c 13 t : S16x128.Idx → Elt F .f32) i = (V c main_arg9 : S16x128.Idx → Elt F .f32) i := by
  obtain ⟨e0, e1⟩ := idxIn13 t
  unfold iblk1
  rw [View.read_apply]
  show V c main_arg9 _ = V c main_arg9 _
  congr 1
  funext a
  apply Fin.ext
  match a with
  | ⟨0, _⟩ => show win1_13.index t (0 : Fin 2) * 16 + 1 * (i 0).val = (i 0).val; rw [e0]; omega
  | ⟨1, _⟩ => show win1_13.index t (1 : Fin 2) * 128 + 1 * (i 1).val = (i 1).val; rw [e1]; omega

theorem idxIn14 : ∀ t : Fin cfg1.N, win1_14.index t (0 : Fin 2) = 0 ∧ win1_14.index t (1 : Fin 2) = 0 :=
  (by decide +kernel : ∀ t : Fin grid1.N, _)
theorem blk14_apply (c : Dev nD) (t : Fin cfg1.N) (i : S1x16.Idx) :
    (iblk1 V c 14 t : S1x16.Idx → Elt F .f32) i = (V c main_v7 : S1x16.Idx → Elt F .f32) i := by
  obtain ⟨e0, e1⟩ := idxIn14 t
  unfold iblk1
  rw [View.read_apply]
  show V c main_v7 _ = V c main_v7 _
  congr 1
  funext a
  apply Fin.ext
  match a with
  | ⟨0, _⟩ => show win1_14.index t (0 : Fin 2) * 1 + 1 * (i 0).val = (i 0).val; rw [e0]; omega
  | ⟨1, _⟩ => show win1_14.index t (1 : Fin 2) * 16 + 1 * (i 1).val = (i 1).val; rw [e1]; omega

end Cert.KernelIdeal.Val1

end
-- ==== Proof.Pay1aLib.lean ====
/-
  Layout operations read at an index given by coordinates: rank-3 shape casts and broadcasts along unit axes, and
  the cast that merges the two leading axes of a [64, 256, 32] array. Each is the library's general lemma with the
  coordinates' arithmetic discharged.
-/
import proofs.«168503_j21964462751805_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.KernelIdeal.PayValue

open Idealize.ShloMosaic Idealize.ShloMosaic.ValueIdx
open scoped BigOperators

variable {α : Type}

/-! ## Shape casts and broadcasts at rank 3 -/

/-- An `[a]` array cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add, Nat.mul_one, Nat.add_zero])

/-- An `[a, c]` array cast to `[a, 1, c]` reads, at `(i, u, o)`, the operand at `(i, o)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (o : Fin c) : shapeCast ⟨3, ![a, 1, c]⟩ x h (ix3 i u o) = x (ix2 i o) :=
  shapeCast_apply x h _ _ (by
    have hu : u.val = 0 := by omega
    rw [Shape.rowMajor_val_three, Shape.rowMajor_val_two]
    show i.val * c + o.val = (i.val * 1 + u.val) * c + o.val
    rw [hu, Nat.mul_one, Nat.add_zero])

/-- A `[1, 1, c]` array broadcast to `[a, b, c]` reads, at `(i, t, o)`, the operand at `(0, 0, o)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (t : Fin b) (o : Fin c) :
    broadcastTo ⟨3, ![a, b, c]⟩ v h (ix3 i t o) = v (ix3 (0 : Fin 1) (0 : Fin 1) o) := by
  refine broadcastTo_apply v h (ix3 i t o) (ix3 (0 : Fin 1) (0 : Fin 1) o) fun ax => ?_
  match ax with
  | ⟨0, _⟩ => rfl
  | ⟨1, _⟩ => rfl
  | ⟨2, _⟩ =>
    show o.val = if c = 1 then 0 else o.val
    split
    · have := o.isLt; omega
    · rfl

/-- An `[a, 1, c]` array broadcast to `[a, b, c]` reads, at `(i, t, o)`, the operand at `(i, 0, o)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (t : Fin b) (o : Fin c) :
    broadcastTo ⟨3, ![a, b, c]⟩ v h (ix3 i t o) = v (ix3 i (0 : Fin 1) o) := by
  refine broadcastTo_apply v h (ix3 i t o) (ix3 i (0 : Fin 1) o) fun ax => ?_
  match ax with
  | ⟨0, _⟩ =>
    show i.val = if a = 1 then 0 else i.val
    split
    · have := i.isLt; omega
    · rfl
  | ⟨1, _⟩ => rfl
  | ⟨2, _⟩ =>
    show o.val = if c = 1 then 0 else o.val
    split
    · have := o.isLt; omega
    · rfl

/-- A `[1, b, c]` array broadcast to `[a, b, c]` reads, at `(i, t, o)`, the operand at `(0, t, o)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (t : Fin b) (o : Fin c) :
    broadcastTo ⟨3, ![a, b, c]⟩ v h (ix3 i t o) = v (ix3 (0 : Fin 1) t o) := by
  refine broadcastTo_apply v h (ix3 i t o) (ix3 (0 : Fin 1) t o) fun ax => ?_
  match ax with
  | ⟨0, _⟩ => rfl
  | ⟨1, _⟩ =>
    show t.val = if b = 1 then 0 else t.val
    split
    · have := t.isLt; omega
    · rfl
  | ⟨2, _⟩ =>
    show o.val = if c = 1 then 0 else o.val
    split
    · have := o.isLt; omega
    · rfl

/-- A `[64, 256, 32]` array cast to `[16384, 32]` reads, at `(r, p)`, the operand at `(r / 256, r % 256, p)`. -/
theorem shapeCast_64x256x32_16384x32_apply (x : (⟨3, ![64, 256, 32]⟩ : Shape).Idx → α)
    (h : (⟨3, ![64, 256, 32]⟩ : Shape).ShapeCasts ⟨2, ![16384, 32]⟩) (r : Fin 16384) (p : Fin 32) :
    shapeCast ⟨2, ![16384, 32]⟩ x h (ix2 r p)
      = x (ix3 (⟨r.val / 256, by have := r.isLt; omega⟩ : Fin 64) (⟨r.val % 256, by omega⟩ : Fin 256) p) :=
  shapeCast_apply x h _ _ (by
    rw [Shape.rowMajor_val_three, Shape.rowMajor_val_two]
    show (r.val / 256 * 256 + r.val % 256) * 32 + p.val = r.val * 32 + p.val
    have := Nat.div_add_mod' r.val 256
    omega)

end Cert.KernelIdeal.PayValue

end
-- ==== Proof.Pay1aDot.lean ====
/-
  A matrix product into a zero accumulator, read at an index given by coordinates, as the plain sum over the
  contracted axis; stated once for a rank-2 product that contracts the left operand's second axis with the right
  operand's first, and then for the program's three such products into width 32.
-/
import proofs.«168503_j21964462751805_2_alg».proof.Proof.Gen.KernelIdeal.Skeleton
import Idealize.ShloMosaic.Lib.ValueIdx
import Idealize.ShloMosaic.PureOps.Ideal.Laws

set_option pp.maxSteps 5000
set_option pp.deepTerms false

noncomputable section

namespace Cert.KernelIdeal.PayValue

open Idealize.ShloMosaic Idealize.ShloMosaic.ValueIdx
open scoped BigOperators

/-- A product `[M, K] × [K, N]` into the zero splat, read at `(i, o)`: the sum over `k` of the left operand at
    `(i, k)` times the right operand at `(k, o)`. The four hypotheses say which coordinate of the result index and
    of the contraction index each operand axis reads; at a literal record each is `rfl`. -/
theorem matmul_zero_ix2 {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (lhs : FVec Ideal ⟨2, ![M, K]⟩ φ₁) (rhs : FVec Ideal ⟨2, ![K, N]⟩ φ₂) (i : Fin M) (o : Fin N) :
    matmul D none lhs rhs (constant (F := Ideal) ⟨2, ![M, N]⟩ .f32 0x00000000#32) (ix2 i o)
      = ∑ k : Fin K, lhs (ix2 i k) * rhs (ix2 k o) := by
  refine (Ideal.matmul_constant_zero_apply D none lhs rhs (ix2 i o)).trans ?_
  refine (Equiv.sum_comp (contrEquiv1 D K hr hs).symm _).symm.trans ?_
  refine Finset.sum_congr rfl fun k _ => ?_
  have e1 : D.lhsIdx (ix2 i o) ((contrEquiv1 D K hr hs).symm k) = ix2 i k := by
    funext a
    apply Fin.ext
    match a with
    | ⟨0, _⟩ => exact hl0 _ _
    | ⟨1, _⟩ => exact (hl1 _ _).trans (contrEquiv1_symm_val D K hr hs k)
  have e2 : D.rhsIdx (ix2 i o) ((contrEquiv1 D K hr hs).symm k) = ix2 k o := by
    funext a
    apply Fin.ext
    match a with
    | ⟨0, _⟩ => exact (hr0 _ _).trans (contrEquiv1_symm_val D K hr hs k)
    | ⟨1, _⟩ => exact hr1 _ _
  rw [e1, e2]

/-- The source tile's product, `[64, 64] × [64, 32]`. -/
theorem matmul_64x64_64x32_apply {φ₁ φ₂ : FTy} (lhs : FVec Ideal S64x64 φ₁) (rhs : FVec Ideal S64x32 φ₂)
    (i : Fin 64) (o : Fin 32) :
    matmul dot_S64x64_S64x32_S64x32_1_0_0_1_n_n none lhs rhs (constant (F := Ideal) S64x32 .f32 0x00000000#32) (ix2 i o)
      = ∑ k : Fin 64, lhs (ix2 i k) * rhs (ix2 k o) :=
  matmul_zero_ix2 dot_S64x64_S64x32_S64x32_1_0_0_1_n_n rfl rfl (fun _ _ => rfl) (fun _ _ => rfl) (fun _ _ => rfl)
    (fun _ _ => rfl) lhs rhs i o

/-- The target tile's product, `[256, 64] × [64, 32]`. -/
theorem matmul_256x64_64x32_apply {φ₁ φ₂ : FTy} (lhs : FVec Ideal S256x64 φ₁) (rhs : FVec Ideal S64x32 φ₂)
    (t : Fin 256) (o : Fin 32) :
    matmul dot_S256x64_S64x32_S256x32_1_0_0_1_n_n none lhs rhs (constant (F := Ideal) S256x32 .f32 0x00000000#32) (ix2 t o)
      = ∑ k : Fin 64, lhs (ix2 t k) * rhs (ix2 k o) :=
  matmul_zero_ix2 dot_S256x64_S64x32_S256x32_1_0_0_1_n_n rfl rfl (fun _ _ => rfl) (fun _ _ => rfl) (fun _ _ => rfl)
    (fun _ _ => rfl) lhs rhs t o

/-- The second layer's product over all rows, `[16384, 32] × [32, 32]`. -/
theorem matmul_16384x32_32x32_apply {φ₁ φ₂ : FTy} (lhs : FVec Ideal S16384x32 φ₁) (rhs : FVec Ideal S32x32 φ₂)
    (r : Fin 16384) (p : Fin 32) :
    matmul dot_S16384x32_S32x32_S16384x32_1_0_0_1_n_n none lhs rhs (constant (F := Ideal) S16384x32 .f32 0x00000000#32) (ix2 r p)
      = ∑ o : Fin 32, lhs (ix2 r o) * rhs (ix2 o p) :=
  matmul_zero_ix2 dot_S16384x32_S32x32_S16384x32_1_0_0_1_n_n rfl rfl (fun _ _ => rfl) (fun _ _ => rfl) (fun _ _ => rfl)
    (fun _ _ => rfl) lhs rhs r p

end Cert.KernelIdeal.PayValue

end
-- ==== Proof.Pay1aBasic.lean ====
/-
  The relaid values of the main region read at an index: the source tile without its leading unit axis, the two
  per-channel statistics rows read as vectors, and the third layer's weights transposed.
-/
import proofs.«168503_j21964462751805_2_alg».proof.Proof.Gen.KernelIdeal.Skeleton
import Idealize.ShloMosaic.Lib.ValueIdx
import Idealize.ShloMosaic.Lib.ValueLayout

set_option pp.maxSteps 5000
set_option pp.deepTerms false

noncomputable section

namespace Cert.KernelIdeal.PayValue

open Idealize.ShloMosaic Idealize.ShloMosaic.ValueIdx

/-- The source tile `[1, 64, 64]` read as `[64, 64]`: entry `(i, k)` is the tile's entry `(0, i, k)`. -/
theorem k1_pay5_apply (v5 : Vec Ideal S1x64x64 .f32) (i k : Fin 64) :
    Gen.k1_pay5 (F := Ideal) v5 (ix2 i k) = v5 (ix3 (0 : Fin 1) i k) := by
  unfold Gen.k1_pay5
  exact shapeCast_1ab_ab_apply v5 _ i k

/-- A `[1, 32]` row read as a vector: entry `o` is the row's entry `(0, o)`. -/
theorem k1_pay7_apply (v31 : Vec Ideal S1x32 .f32) (o : Fin 32) :
    Gen.k1_pay7 (F := Ideal) v31 (ix1 o) = v31 (ix2 (0 : Fin 1) o) := by
  unfold Gen.k1_pay7
  exact shapeCast_1a_a_apply v31 _ o

/-- The second `[1, 32]` row likewise. -/
theorem k1_pay8_apply (v33 : Vec Ideal S1x32 .f32) (o : Fin 32) :
    Gen.k1_pay8 (F := Ideal) v33 (ix1 o) = v33 (ix2 (0 : Fin 1) o) := by
  unfold Gen.k1_pay8
  exact shapeCast_1a_a_apply v33 _ o

/-- The `[2, 32]` weights transposed: entry `(p, j)` is the weights' entry `(j, p)`; the change of format is the
    identity on extended reals. -/
theorem k1_pay10_apply (v76 : Vec Ideal S2x32 .f32) (p : Fin 32) (j : Fin 2) :
    (Gen.k1_pay10 (F := Ideal) v76 (ix2 p j) : EReal) = v76 (ix2 j p) := by
  unfold Gen.k1_pay10
  exact transpose_ix2_apply (truncf (F := Ideal) .bf16 v76 Gen.bitsLt_bf16_f32) _ p j

end Cert.KernelIdeal.PayValue

end
-- ==== Proof.Pay1aL1.lean ====
/-
  The first layer's values over a source tile and a target tile, read at an index: the source's part of the
  product, the target's part, and the bias.
-/
import proofs.«168503_j21964462751805_2_alg».proof.Proof.Pay1aLib
import proofs.«168503_j21964462751805_2_alg».proof.Proof.Pay1aDot
import proofs.«168503_j21964462751805_2_alg».proof.Proof.Pay1aBasic

set_option pp.maxSteps 5000
set_option pp.deepTerms false

noncomputable section

namespace Cert.KernelIdeal.PayValue

open Idealize.ShloMosaic Idealize.ShloMosaic.ValueIdx
open scoped BigOperators

/-- A first-layer weight block `[32, 64]` transposed: entry `(k, o)` is the block's entry `(o, k)`. -/
theorem transpose_32x64_apply {φ : FTy} (x : FVec Ideal S32x64 φ) (k : Fin 64) (o : Fin 32) :
    transpose S64x32 [1, 0] x Gen.transposes_S32x64_p1_0_S64x32 (ix2 k o) = x (ix2 o k) :=
  transpose_ix2_apply x _ k o

/-- Entry `(i, t, o)` of the first layer's `[64, 256, 32]` values: source row `i` against the first weights' row `o`,
    target row `t` against the second weights' row `o`, and entry `o` of the bias. -/
theorem k1_pay6_apply (v5 : Vec Ideal S1x64x64 .f32) (v7 : Vec Ideal S1x256x64 .f32) (v10 : Vec Ideal S32x64 .f32)
    (v16 : Vec Ideal S32x64 .f32) (v21 : Vec Ideal S1x32 .f32) (i : Fin 64) (t : Fin 256) (o : Fin 32) :
    (Gen.k1_pay6 (F := Ideal) v5 v7 v10 v16 v21 (ix3 i t o) : EReal)
      = ((∑ k : Fin 64, v5 (ix3 (0 : Fin 1) i k) * v10 (ix2 o k))
          + (∑ k : Fin 64, v7 (ix3 (0 : Fin 1) t k) * v16 (ix2 o k)))
        + v21 (ix2 (0 : Fin 1) o) := by
  unfold Gen.k1_pay6
  simp only [addf_apply, broadcastTo_a1c_abc_apply, broadcastTo_1bc_abc_apply, broadcastTo_11c_abc_apply,
    shapeCast_ac_a1c_apply, shapeCast_ab_1ab_apply, shapeCast_a_11a_apply, shapeCast_1a_a_apply,
    matmul_64x64_64x32_apply, matmul_256x64_64x32_apply, transpose_32x64_apply, truncf_apply, shapeCast_self,
    shapeCast_1ab_ab_apply, k1_pay5_apply]
  refine congrArg₂ (· + ·) (congrArg₂ (· + ·) (Finset.sum_congr rfl fun k _ => ?_) (Finset.sum_congr rfl fun k _ => ?_)) rfl
  · exact congrArg (v5 (ix3 (0 : Fin 1) i k) * ·) (transpose_32x64_apply _ k o)
  · exact congrArg (v7 (ix3 (0 : Fin 1) t k) * ·) (transpose_32x64_apply _ k o)

end Cert.KernelIdeal.PayValue

end
-- ==== Proof.Pay1aL2.lean ====
/-
  The second layer's values over all 16384 rows of a source tile against a target tile, read at an index: row `r`
  is the pair (source `r / 256`, target `r % 256`); each first-layer value is normalised by the channel's mean and
  variance, scaled and shifted, passed through the leaky ReLU, contracted against the second weights' row, biased,
  and passed through the leaky ReLU again.
-/
import proofs.«168503_j21964462751805_2_alg».proof.Proof.Pay1aLib
import proofs.«168503_j21964462751805_2_alg».proof.Proof.Pay1aDot
import proofs.«168503_j21964462751805_2_alg».proof.Proof.Spec

set_option pp.maxSteps 5000
set_option pp.deepTerms false

noncomputable section

namespace Cert.KernelIdeal.PayValue

open Idealize.ShloMosaic Idealize.ShloMosaic.ValueIdx
open scoped BigOperators

/-- A reciprocal square root at an index is the reciprocal square root of the element. -/
theorem rsqrt_apply {s : Shape} {φ : FTy} (a : FVec Ideal s φ) (i : s.Idx) : rsqrt a i = Ideal.rsqrt (a i) := rfl

/-- The second weights `[32, 32]` transposed: entry `(o, p)` is the weights' entry `(p, o)`. -/
theorem transpose_32x32_apply {φ : FTy} (x : FVec Ideal S32x32 φ) (o p : Fin 32) :
    transpose S32x32 [1, 0] x Gen.transposes_S32x32_p1_0_S32x32 (ix2 o p) = x (ix2 p o) :=
  transpose_ix2_apply x _ o p

/-- The printed leaky ReLU at one element is the specification's. -/
theorem lrelu_eq (z : EReal) :
    Scalar.select (FloatOps.cmpf (F := Ideal) (φ := .f32) .oge z (Scalar.ofBits (F := Ideal) .f32 0x00000000#32)) z
        (Scalar.ofBits (F := Ideal) .f32 0x3C23D70A#32 * z)
      = Cert.Spec.lrelu z := rfl

/-- Entry `(r, p)` of the second layer's `[16384, 32]` values. -/
theorem k1_pay9_apply (v30 : FVec Ideal S64x256x32 .f32) (v32 : FVec Ideal S32 .f32) (v34 : FVec Ideal S32 .f32)
    (cst_18 : Ideal .f32) (v38 : Vec Ideal S1x32 .f32) (v40 : Vec Ideal S1x32 .f32) (v61 : Vec Ideal S32x32 .f32)
    (v65 : Vec Ideal S1x32 .f32) (r : Fin 16384) (p : Fin 32) :
    (Gen.k1_pay9 (F := Ideal) v30 v32 v34 cst_18 v38 v40 v61 v65 (ix2 r p) : EReal)
      = Cert.Spec.lrelu
          ((∑ o : Fin 32,
              Cert.Spec.lrelu
                  ((((v30 (ix3 (⟨r.val / 256, by have := r.isLt; omega⟩ : Fin 64) (⟨r.val % 256, by omega⟩ : Fin 256) o)
                        - v32 (ix1 o))
                      * Ideal.rsqrt (v34 (ix1 o) + cst_18))
                    * v38 (ix2 (0 : Fin 1) o))
                  + v40 (ix2 (0 : Fin 1) o))
                * v61 (ix2 p o))
            + v65 (ix2 (0 : Fin 1) p)) := by
  unfold Gen.k1_pay9
  simp only [truncf_apply, rsqrt_apply, select_apply, cmpf_apply, mulf_apply, addf_apply, subf_apply, broadcast_apply,
    broadcastTo_1b_ab_apply, shapeCast_a_1a_apply, shapeCast_1a_a_apply, matmul_16384x32_32x32_apply,
    transpose_32x32_apply, shapeCast_64x256x32_16384x32_apply, broadcastTo_11c_abc_apply, shapeCast_a_11a_apply,
    lrelu_eq]
  exact congrArg Cert.Spec.lrelu (congrArg₂ (· + ·)
    (Finset.sum_congr rfl fun o _ => congrArg (_ * ·) (transpose_32x32_apply _ o p)) rfl)

end Cert.KernelIdeal.PayValue

end
-- ==== Proof.Pay1bLogit.lean ====
/-
  The third edge layer of the main region, read at an index on the extended reals: the [16384, 2] matrix of
  (gate logit, message) per edge row is the contraction of the second-layer values with the transposed third
  weight matrix over the 32 hidden units, plus the bias row.
-/
import proofs.«168503_j21964462751805_2_alg».proof.Proof.Gen.KernelIdeal.Skeleton
import proofs.«168503_j21964462751805_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.KernelIdeal.PayValue

open Idealize.ShloMosaic Idealize.ShloMosaic.ValueIdx
open Cert.KernelIdeal Cert.KernelIdeal.Gen

/-- Row `i · 256 + t` of the [16384, …] edge matrices: the edge from source row `i` of the tile to target `t`. -/
abbrev erow (i : Fin 64) (t : Fin 256) : Fin 16384 := ⟨i.val * 256 + t.val, by have := i.isLt; have := t.isLt; omega⟩

/-- The logistic function of a vector, lane by lane. -/
theorem logistic_apply {s : Shape} {φ : FTy} (x : FVec Ideal s φ) (i : s.Idx) : logistic x i = Ideal.logistic (x i) := rfl

/-- The [16384,32] × [32,2] contraction into the zero accumulator is the plain sum over the 32 hidden units. -/
theorem logit_matmul_apply (v75 : FVec Ideal S16384x32 .bf16) (v78 : FVec Ideal S32x2 .bf16) (r : Fin 16384) (j : Fin 2) :
    matmul dot_S16384x32_S32x2_S16384x2_1_0_0_1_n_n none v75 v78 (constant (F := Ideal) S16384x2 .f32 0x00000000#32) (ix2 r j)
      = ∑ p : Fin 32, v75 (ix2 r p) * v78 (ix2 p j) := by
  refine (Ideal.matmul_constant_zero_apply dot_S16384x32_S32x2_S16384x2_1_0_0_1_n_n none v75 v78 (ix2 r j)).trans ?_
  rw [← Equiv.sum_comp (contrEquiv1 dot_S16384x32_S32x2_S16384x2_1_0_0_1_n_n 32 rfl rfl).symm]
  refine Finset.sum_congr rfl fun k _ => ?_
  have hk := contrEquiv1_symm_val dot_S16384x32_S32x2_S16384x2_1_0_0_1_n_n 32 rfl rfl k
  have el : dot_S16384x32_S32x2_S16384x2_1_0_0_1_n_n.lhsIdx (ix2 r j)
      ((contrEquiv1 dot_S16384x32_S32x2_S16384x2_1_0_0_1_n_n 32 rfl rfl).symm k) = ix2 r k := funext fun a => Fin.ext (by
    match a with
    | ⟨0, _⟩ =>
      show (dot_S16384x32_S32x2_S16384x2_1_0_0_1_n_n.lhsIdx (ix2 r j) _ (0 : Fin S16384x32.rank)).val = r.val
      unfold DotDims.lhsIdx
      rw [dif_neg (show ¬(0 : Fin S16384x32.rank) ∈ dot_S16384x32_S32x2_S16384x2_1_0_0_1_n_n.lhsBatch by decide),
        dif_pos (show (0 : Fin S16384x32.rank) ∈ dot_S16384x32_S32x2_S16384x2_1_0_0_1_n_n.lhsNonContracting by decide)]
      rfl
    | ⟨1, _⟩ => exact (DotDims.lhsIdx_val_of_single (d := dot_S16384x32_S32x2_S16384x2_1_0_0_1_n_n) (cl := (1 : Fin S16384x32.rank)) rfl _ _).trans hk)
  have er : dot_S16384x32_S32x2_S16384x2_1_0_0_1_n_n.rhsIdx (ix2 r j)
      ((contrEquiv1 dot_S16384x32_S32x2_S16384x2_1_0_0_1_n_n 32 rfl rfl).symm k) = ix2 k j := funext fun a => Fin.ext (by
    match a with
    | ⟨0, _⟩ => exact (DotDims.rhsIdx_val_of_single (d := dot_S16384x32_S32x2_S16384x2_1_0_0_1_n_n) (cr := (0 : Fin S32x2.rank)) rfl _ _).trans hk
    | ⟨1, _⟩ =>
      show (dot_S16384x32_S32x2_S16384x2_1_0_0_1_n_n.rhsIdx (ix2 r j) _ (1 : Fin S32x2.rank)).val = j.val
      unfold DotDims.rhsIdx
      rw [dif_neg (show ¬(1 : Fin S32x2.rank) ∈ dot_S16384x32_S32x2_S16384x2_1_0_0_1_n_n.rhsBatch by decide),
        dif_pos (show (1 : Fin S32x2.rank) ∈ dot_S16384x32_S32x2_S16384x2_1_0_0_1_n_n.rhsNonContracting by decide)]
      rfl)
  rw [el, er]

/-- The bias row [1,2], recast and broadcast down the 16384 rows, read at (r, j). -/
theorem logit_bias_apply (v80 : Vec Ideal S1x2 .f32) (r : Fin 16384) (j : Fin 2) :
    broadcastTo S16384x2 (shapeCast S1x2 (shapeCast S2 v80 shapeCasts_S1x2_S2) shapeCasts_S2_S1x2) broadcasts_S1x2_S16384x2 (ix2 r j)
      = v80 (ix2 0 j) := by
  refine (broadcastTo_apply _ broadcasts_S1x2_S16384x2 (ix2 r j) (ix2 (0 : Fin 1) j) (fun a => by
    match a with
    | ⟨0, _⟩ => rfl
    | ⟨1, _⟩ => rfl)).trans ?_
  refine (shapeCast_apply _ shapeCasts_S2_S1x2 (ix2 (0 : Fin 1) j) (ix1 j) (by
    rw [Shape.rowMajor_val_one, Shape.rowMajor_val_two]; show j.val = 0 * 2 + j.val; omega)).trans ?_
  exact shapeCast_apply _ shapeCasts_S1x2_S2 (ix1 j) (ix2 (0 : Fin 1) j) (by
    rw [Shape.rowMajor_val_one, Shape.rowMajor_val_two]; show 0 * 2 + j.val = j.val; omega)

/-- The (gate logit, message) pair of edge row `r`: column `j` is the sum over the 32 hidden units of the second-layer
    value times the transposed third weight, plus the bias. -/
theorem k1_pay11_apply (v75 : FVec Ideal S16384x32 .bf16) (v78 : FVec Ideal S32x2 .bf16) (cst_34 : FVec Ideal S16384x2 .f32)
    (v80 : Vec Ideal S1x2 .f32) (hc : cst_34 = constant (F := Ideal) S16384x2 .f32 0x00000000#32) (r : Fin 16384) (j : Fin 2) :
    Gen.k1_pay11 v75 v78 cst_34 v80 (ix2 r j)
      = (∑ p : Fin 32, v75 (ix2 r p) * v78 (ix2 p j)) + v80 (ix2 0 j) := by
  subst hc
  unfold Gen.k1_pay11
  exact congrArg₂ (· + ·) (logit_matmul_apply v75 v78 r j) (logit_bias_apply v80 r j)

end Cert.KernelIdeal.PayValue

end
-- ==== Proof.Pay1bGate.lean ====
/-
  The gate of every edge in the main region, read at an index on the extended reals: the logistic function of the gate
  logit (column 0 of the third layer), first as the flat [16384] vector, then as the stored [1, 64, 256] block whose
  entry (i, t) is the gate of the edge from source row i of the tile to target t.
-/
import proofs.«168503_j21964462751805_2_alg».proof.Proof.Gen.KernelIdeal.Skeleton
import proofs.«168503_j21964462751805_2_alg».proof.Proof.Spec
import proofs.«168503_j21964462751805_2_alg».proof.Proof.Pay1bLogit
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.KernelIdeal.PayValue

open Idealize.ShloMosaic Idealize.ShloMosaic.ValueIdx
open Cert.KernelIdeal Cert.KernelIdeal.Gen

/-- Column `c` of the [16384, 2] third-layer matrix, flattened to [16384], read at row `r`. -/
theorem column_apply (X : FVec Ideal S16384x2 .f32) (o : Nat) (h : S16384x2.Slices ![0, o] S16384x1) (c : Fin 2) (hc : c.val = o)
    (r : Fin 16384) :
    shapeCast S16384 (extractStridedSlice S16384x1 ![0, o] X h) shapeCasts_S16384x1_S16384 (ix1 r) = X (ix2 r c) := by
  refine (shapeCast_apply _ shapeCasts_S16384x1_S16384 (ix1 r) (ix2 r (0 : Fin 1)) (by
    rw [Shape.rowMajor_val_one, Shape.rowMajor_val_two]; show r.val * 1 + 0 = r.val; omega)).trans ?_
  exact slice2_axis1_apply o X h r (0 : Fin 1) c (by show c.val = o + 0; omega)

/-- The flat gate vector: the logistic function of the gate logit of edge row `r`. -/
theorem k1_pay12_apply (v75 : FVec Ideal S16384x32 .bf16) (v78 : FVec Ideal S32x2 .bf16) (cst_34 : FVec Ideal S16384x2 .f32)
    (v80 : Vec Ideal S1x2 .f32) (r : Fin 16384) :
    Gen.k1_pay12 v75 v78 cst_34 v80 (ix1 r) = Ideal.logistic (Gen.k1_pay11 v75 v78 cst_34 v80 (ix2 r 0)) := by
  unfold Gen.k1_pay12
  refine (logistic_apply _ _).trans (congrArg Ideal.logistic ?_)
  exact column_apply (Gen.k1_pay11 v75 v78 cst_34 v80) 0 slices_S16384x2_o0_0_S16384x1 0 rfl r

/-- Every edge row is the row of its (source row, target) pair. -/
theorem erow_div_mod (r : Fin 16384) :
    erow ⟨r.val / 256, by have := r.isLt; omega⟩ ⟨r.val % 256, by omega⟩ = r :=
  Fin.ext (by show r.val / 256 * 256 + r.val % 256 = r.val; omega)

/-- A flat [16384] vector recast to [64, 256]: entry (i, t) is entry `i · 256 + t`. -/
theorem unflatten_apply (x : FVec Ideal S16384 .f32) (i : Fin 64) (t : Fin 256) :
    shapeCast S64x256 x shapeCasts_S16384_S64x256 (ix2 i t) = x (ix1 (erow i t)) :=
  shapeCast_apply _ shapeCasts_S16384_S64x256 (ix2 i t) (ix1 (erow i t)) (by
    rw [Shape.rowMajor_val_one, Shape.rowMajor_val_two]; rfl)

/-- The stored gate block [1, 64, 256]: entry (i, t) is the gate of the edge from source row `i` to target `t`. -/
theorem k1_pay13_apply (v75 : FVec Ideal S16384x32 .bf16) (v78 : FVec Ideal S32x2 .bf16) (cst_34 : FVec Ideal S16384x2 .f32)
    (v80 : Vec Ideal S1x2 .f32) (i : Fin 64) (t : Fin 256) :
    Gen.k1_pay13 v75 v78 cst_34 v80 (ix3 0 i t)
      = Ideal.logistic (Gen.k1_pay11 v75 v78 cst_34 v80 (ix2 (erow i t) 0)) := by
  unfold Gen.k1_pay13
  refine (shapeCast_ab_1ab_apply _ shapeCasts_S64x256_S1x64x256 (0 : Fin 1) i t).trans ?_
  refine (unflatten_apply _ i t).trans ?_
  exact k1_pay12_apply v75 v78 cst_34 v80 (erow i t)

/-- The same with the gate logit written out: the logistic function of the contraction over the 32 hidden units plus the bias. -/
theorem k1_pay13_value (v75 : FVec Ideal S16384x32 .bf16) (v78 : FVec Ideal S32x2 .bf16) (cst_34 : FVec Ideal S16384x2 .f32)
    (v80 : Vec Ideal S1x2 .f32) (hc : cst_34 = constant (F := Ideal) S16384x2 .f32 0x00000000#32) (i : Fin 64) (t : Fin 256) :
    Gen.k1_pay13 v75 v78 cst_34 v80 (ix3 0 i t)
      = Ideal.logistic ((∑ p : Fin 32, v75 (ix2 (erow i t) p) * v78 (ix2 p 0)) + v80 (ix2 0 0)) :=
  (k1_pay13_apply v75 v78 cst_34 v80 i t).trans (congrArg Ideal.logistic (k1_pay11_apply v75 v78 cst_34 v80 hc (erow i t) 0))

end Cert.KernelIdeal.PayValue

end
-- ==== Proof.Val1Edge.lean ====
/-
  The gate block of one grid point is the specification's gates.  At the point of batch entry `b` whose tile holds the
  source nodes `src 0 … src 63`, with the loaded blocks holding the specification's quantities (the tile's rows and all
  target rows of the input, the two halves of the first weights, the first bias, the first normalisation's mean and
  variance, its scale and shift, the second and third layers' weights and biases), the first layer over the tile is
  `h1`, the second `h2`, the third `out`, and the stored gate of (row `r`, target `t`) is `edge a b (src r) t`.
-/
import proofs.«168503_j21964462751805_2_alg».proof.Proof.Val1Terms
import proofs.«168503_j21964462751805_2_alg».proof.Proof.Pay1aL1
import proofs.«168503_j21964462751805_2_alg».proof.Proof.Pay1aL2
import proofs.«168503_j21964462751805_2_alg».proof.Proof.Pay1bGate
import proofs.«168503_j21964462751805_2_alg».proof.Proof.Spec

noncomputable section

namespace Cert.KernelIdeal.Val1

open Cert.KernelIdeal Cert.KernelIdeal.Gen Cert.KernelIdeal.PayValue
open Idealize.ShloMosaic Idealize.ShloMosaic.ValueIdx
open scoped BigOperators

variable (a : Cert.Spec.Args) (b : Fin 16) (src : Fin 64 → Fin 256)
variable (x0 : Vec Ideal S1x64x64 .f32) (x1 : Vec Ideal S1x256x64 .f32) (x2 : Vec Ideal S32x64 .f32) (x3 : Vec Ideal S32x64 .f32)
  (x4 : Vec Ideal S1x32 .f32) (x5 : Vec Ideal S1x32 .f32) (x6 : Vec Ideal S1x32 .f32) (x7 : Vec Ideal S1x32 .f32) (x8 : Vec Ideal S1x32 .f32)
  (x9 : Vec Ideal S32x32 .f32) (x10 : Vec Ideal S1x32 .f32) (x11 : Vec Ideal S2x32 .f32) (x12 : Vec Ideal S1x2 .f32)

/-- The first layer over the tile. -/
theorem l1_eq (h0 : ∀ r k, x0 (ix3 (0 : Fin 1) r k) = a.x (ix3 b (src r) k)) (h1 : ∀ t k, x1 (ix3 (0 : Fin 1) t k) = a.x (ix3 b t k))
    (h2 : ∀ o k, x2 (ix2 o k) = a.W1 (ix2 o (Cert.Spec.lo k))) (h3 : ∀ o k, x3 (ix2 o k) = a.W1 (ix2 o (Cert.Spec.hi k)))
    (h4 : ∀ o, x4 (ix2 (0 : Fin 1) o) = a.b1 (ix1 o)) (r : Fin 64) (t : Fin 256) (o : Fin 32) :
    (k1_pay6 (F := Ideal) x0 x1 x2 x3 x4 (ix3 r t o) : EReal) = Cert.Spec.h1 a b (src r) t o := by
  rw [k1_pay6_apply]
  unfold Cert.Spec.h1
  simp only [h0, h1, h2, h3, h4]

/-- The second layer over the tile's edges: row `R` of the [16384, 32] matrix is the edge (source row `R / 256`,
    target `R % 256`). -/
theorem l2_eq (h0 : ∀ r k, x0 (ix3 (0 : Fin 1) r k) = a.x (ix3 b (src r) k)) (h1 : ∀ t k, x1 (ix3 (0 : Fin 1) t k) = a.x (ix3 b t k))
    (h2 : ∀ o k, x2 (ix2 o k) = a.W1 (ix2 o (Cert.Spec.lo k))) (h3 : ∀ o k, x3 (ix2 o k) = a.W1 (ix2 o (Cert.Spec.hi k)))
    (h4 : ∀ o, x4 (ix2 (0 : Fin 1) o) = a.b1 (ix1 o)) (h5 : ∀ o, x5 (ix2 (0 : Fin 1) o) = Cert.Spec.mean1 a o)
    (h6 : ∀ o, x6 (ix2 (0 : Fin 1) o) = Cert.Spec.var1 a o) (h7 : ∀ o, x7 (ix2 (0 : Fin 1) o) = a.g1 (ix1 o))
    (h8 : ∀ o, x8 (ix2 (0 : Fin 1) o) = a.be1 (ix1 o)) (h9 : ∀ i, x9 i = a.W2 i) (h10 : ∀ p, x10 (ix2 (0 : Fin 1) p) = a.b2 (ix1 p))
    (r : Fin 64) (t : Fin 256) (p : Fin 32) :
    (hid x0 x1 x2 x3 x4 x5 x6 x7 x8 x9 x10 (ix2 (erow r t) p) : EReal) = Cert.Spec.h2 a b (src r) t p := by
  unfold hid
  rw [k1_pay9_apply]
  have e1 : (⟨(erow r t).val / 256, by have := (erow r t).isLt; omega⟩ : Fin 64) = r :=
    Fin.ext (by show (r.val * 256 + t.val) / 256 = r.val; have := t.isLt; omega)
  have e2 : (⟨(erow r t).val % 256, by omega⟩ : Fin 256) = t :=
    Fin.ext (by show (r.val * 256 + t.val) % 256 = t.val; have := t.isLt; omega)
  rw [e1, e2]
  unfold Cert.Spec.h2 Cert.Spec.h1n Cert.Spec.inv1
  simp only [l1_eq a b src x0 x1 x2 x3 x4 h0 h1 h2 h3 h4, k1_pay7_apply, k1_pay8_apply, h5, h6, h7, h8, h9, h10]
  try rfl

/-- The third layer over the tile's edges: the gate logit (`j = 0`) and the message (`j = 1`). -/
theorem l3_eq (h0 : ∀ r k, x0 (ix3 (0 : Fin 1) r k) = a.x (ix3 b (src r) k)) (h1 : ∀ t k, x1 (ix3 (0 : Fin 1) t k) = a.x (ix3 b t k))
    (h2 : ∀ o k, x2 (ix2 o k) = a.W1 (ix2 o (Cert.Spec.lo k))) (h3 : ∀ o k, x3 (ix2 o k) = a.W1 (ix2 o (Cert.Spec.hi k)))
    (h4 : ∀ o, x4 (ix2 (0 : Fin 1) o) = a.b1 (ix1 o)) (h5 : ∀ o, x5 (ix2 (0 : Fin 1) o) = Cert.Spec.mean1 a o)
    (h6 : ∀ o, x6 (ix2 (0 : Fin 1) o) = Cert.Spec.var1 a o) (h7 : ∀ o, x7 (ix2 (0 : Fin 1) o) = a.g1 (ix1 o))
    (h8 : ∀ o, x8 (ix2 (0 : Fin 1) o) = a.be1 (ix1 o)) (h9 : ∀ i, x9 i = a.W2 i) (h10 : ∀ p, x10 (ix2 (0 : Fin 1) p) = a.b2 (ix1 p))
    (h11 : ∀ i, x11 i = a.W3 i) (h12 : ∀ j, x12 (ix2 (0 : Fin 1) j) = a.b3 (ix1 j))
    (r : Fin 64) (t : Fin 256) (j : Fin 2) :
    (k1_pay11 (hid x0 x1 x2 x3 x4 x5 x6 x7 x8 x9 x10) (k1_pay10 x11) (constant (F := Ideal) S16384x2 .f32 0x00000000#32) x12
        (ix2 (erow r t) j) : EReal) = Cert.Spec.out a b (src r) t j := by
  rw [k1_pay11_apply _ _ _ _ rfl]
  unfold Cert.Spec.out
  simp only [l2_eq a b src x0 x1 x2 x3 x4 x5 x6 x7 x8 x9 x10 h0 h1 h2 h3 h4 h5 h6 h7 h8 h9 h10, k1_pay10_apply, h11, h12]

/-- The stored gate of (row `r`, target `t`) is the specification's gate of the edge from `src r` to `t`. -/
theorem gate_eq (h0 : ∀ r k, x0 (ix3 (0 : Fin 1) r k) = a.x (ix3 b (src r) k)) (h1 : ∀ t k, x1 (ix3 (0 : Fin 1) t k) = a.x (ix3 b t k))
    (h2 : ∀ o k, x2 (ix2 o k) = a.W1 (ix2 o (Cert.Spec.lo k))) (h3 : ∀ o k, x3 (ix2 o k) = a.W1 (ix2 o (Cert.Spec.hi k)))
    (h4 : ∀ o, x4 (ix2 (0 : Fin 1) o) = a.b1 (ix1 o)) (h5 : ∀ o, x5 (ix2 (0 : Fin 1) o) = Cert.Spec.mean1 a o)
    (h6 : ∀ o, x6 (ix2 (0 : Fin 1) o) = Cert.Spec.var1 a o) (h7 : ∀ o, x7 (ix2 (0 : Fin 1) o) = a.g1 (ix1 o))
    (h8 : ∀ o, x8 (ix2 (0 : Fin 1) o) = a.be1 (ix1 o)) (h9 : ∀ i, x9 i = a.W2 i) (h10 : ∀ p, x10 (ix2 (0 : Fin 1) p) = a.b2 (ix1 p))
    (h11 : ∀ i, x11 i = a.W3 i) (h12 : ∀ j, x12 (ix2 (0 : Fin 1) j) = a.b3 (ix1 j))
    (u : Fin 1) (r : Fin 64) (t : Fin 256) :
    (gateBlk x0 x1 x2 x3 x4 x5 x6 x7 x8 x9 x10 x11 x12 (ix3 u r t) : EReal) = Cert.Spec.edge a b (src r) t := by
  obtain rfl : u = 0 := Subsingleton.elim _ _
  unfold gateBlk
  rw [k1_pay13_apply]
  unfold Cert.Spec.edge
  exact congrArg Ideal.logistic (l3_eq a b src x0 x1 x2 x3 x4 x5 x6 x7 x8 x9 x10 x11 x12 h0 h1 h2 h3 h4 h5 h6 h7 h8 h9 h10 h11 h12 r t 0)

end Cert.KernelIdeal.Val1

end
-- ==== Proof.Pay1bNode.lean ====
/-
  The node layer's pre-activation in the main region, read at an index on the extended reals. Each edge's message is
  gated (the logistic function of its gate logit times its message value); node i's aggregate at entry k is the sum of
  the gated messages of its four edges to the targets g · 64 + k; the node's 64 features followed by its 64 aggregate
  entries are contracted with the [16, 128] weight matrix (its columns 0..63 against the features, 64..127 against the
  aggregate), and the bias row is added.
-/
import proofs.«168503_j21964462751805_2_alg».proof.Proof.Gen.KernelIdeal.Skeleton
import proofs.«168503_j21964462751805_2_alg».proof.Proof.Spec
import proofs.«168503_j21964462751805_2_alg».proof.Proof.Pay1bGate
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.KernelIdeal.PayValue

open Idealize.ShloMosaic Idealize.ShloMosaic.ValueIdx
open Cert.KernelIdeal Cert.KernelIdeal.Gen

open Cert.Spec (lo hi tgt)

/-- The gated message of the edge from source row `i` of the tile to target `t`: its gate times its message value. -/
def gated (v75 : FVec Ideal S16384x32 .bf16) (v78 : FVec Ideal S32x2 .bf16) (cst_34 : FVec Ideal S16384x2 .f32)
    (v80 : Vec Ideal S1x2 .f32) (i : Fin 64) (t : Fin 256) : EReal :=
  Ideal.logistic (Gen.k1_pay11 v75 v78 cst_34 v80 (ix2 (erow i t) 0)) * Gen.k1_pay11 v75 v78 cst_34 v80 (ix2 (erow i t) 1)

/-- The gated message with both third-layer columns written out as contractions over the 32 hidden units plus the bias. -/
theorem gated_value (v75 : FVec Ideal S16384x32 .bf16) (v78 : FVec Ideal S32x2 .bf16) (cst_34 : FVec Ideal S16384x2 .f32)
    (v80 : Vec Ideal S1x2 .f32) (hc : cst_34 = constant (F := Ideal) S16384x2 .f32 0x00000000#32) (i : Fin 64) (t : Fin 256) :
    gated v75 v78 cst_34 v80 i t
      = Ideal.logistic ((∑ p : Fin 32, v75 (ix2 (erow i t) p) * v78 (ix2 p 0)) + v80 (ix2 0 0))
          * ((∑ p : Fin 32, v75 (ix2 (erow i t) p) * v78 (ix2 p 1)) + v80 (ix2 0 1)) :=
  congrArg₂ (· * ·) (congrArg Ideal.logistic (k1_pay11_apply v75 v78 cst_34 v80 hc (erow i t) 0))
    (k1_pay11_apply v75 v78 cst_34 v80 hc (erow i t) 1)

/-- The [64, 256] matrix of gated messages, as the body builds it from the flat gate vector and message column. -/
theorem gated_apply (v75 : FVec Ideal S16384x32 .bf16) (v78 : FVec Ideal S32x2 .bf16) (cst_34 : FVec Ideal S16384x2 .f32)
    (v80 : Vec Ideal S1x2 .f32) (i : Fin 64) (t : Fin 256) :
    shapeCast S64x256 (mulf (Gen.k1_pay12 v75 v78 cst_34 v80)
        (shapeCast S16384 (extractStridedSlice S16384x1 ![0, 1] (Gen.k1_pay11 v75 v78 cst_34 v80) slices_S16384x2_o0_1_S16384x1)
          shapeCasts_S16384x1_S16384)) shapeCasts_S16384_S64x256 (ix2 i t)
      = gated v75 v78 cst_34 v80 i t := by
  refine (unflatten_apply _ i t).trans ?_
  refine (mulf_apply _ _ _).trans ?_
  exact congrArg₂ (· * ·) (k1_pay12_apply v75 v78 cst_34 v80 (erow i t))
    (column_apply (Gen.k1_pay11 v75 v78 cst_34 v80) 1 slices_S16384x2_o0_1_S16384x1 1 rfl (erow i t))

/-- The four column blocks of a [64, 256] matrix added left to right: entry (i, k) is the sum over the four targets
    g · 64 + k. -/
theorem agg_apply (X : FVec Ideal S64x256 .f32) (i k : Fin 64) :
    addf (addf (addf (extractStridedSlice S64x64 ![0, 0] X slices_S64x256_o0_0_S64x64)
          (extractStridedSlice S64x64 ![0, 64] X slices_S64x256_o0_64_S64x64))
        (extractStridedSlice S64x64 ![0, 128] X slices_S64x256_o0_128_S64x64))
      (extractStridedSlice S64x64 ![0, 192] X slices_S64x256_o0_192_S64x64) (ix2 i k)
      = ∑ g : Fin 4, X (ix2 i (tgt g k)) := by
  refine Eq.trans ?_ (Fin.sum_univ_four fun g : Fin 4 => X (ix2 i (tgt g k))).symm
  refine congrArg₂ (· + ·) (congrArg₂ (· + ·) (congrArg₂ (· + ·) ?_ ?_) ?_) ?_
  · exact slice2_axis1_apply 0 X slices_S64x256_o0_0_S64x64 i k (tgt 0 k) (by show 0 * 64 + k.val = 0 + k.val; omega)
  · exact slice2_axis1_apply 64 X slices_S64x256_o0_64_S64x64 i k (tgt 1 k) (by show 1 * 64 + k.val = 64 + k.val; omega)
  · exact slice2_axis1_apply 128 X slices_S64x256_o0_128_S64x64 i k (tgt 2 k) (by show 2 * 64 + k.val = 128 + k.val; omega)
  · exact slice2_axis1_apply 192 X slices_S64x256_o0_192_S64x64 i k (tgt 3 k) (by show 3 * 64 + k.val = 192 + k.val; omega)

/-- Two [64, 64] blocks side by side: a column in the left half reads the first block. -/
theorem concat_lo (A B : FVec Ideal S64x64 .f32) (i k : Fin 64) :
    concatenate S64x128 1 [⟨S64x64, A⟩, ⟨S64x64, B⟩] concatenates_S64x64_S64x64_S64x128_d1 (ix2 i (lo k)) = A (ix2 i k) :=
  concatenate_pair_apply_left (1 : Fin S64x128.rank) A B concatenates_S64x64_S64x64_S64x128_d1 (ix2 i (lo k)) rfl (ix2 i k)
    (fun b => by
      match b with
      | ⟨0, _⟩ => rfl
      | ⟨1, _⟩ => rfl)

/-- Two [64, 64] blocks side by side: a column in the right half reads the second block. -/
theorem concat_hi (A B : FVec Ideal S64x64 .f32) (i k : Fin 64) :
    concatenate S64x128 1 [⟨S64x64, A⟩, ⟨S64x64, B⟩] concatenates_S64x64_S64x64_S64x128_d1 (ix2 i (hi k)) = B (ix2 i k) :=
  concatenate_pair_apply_right (1 : Fin S64x128.rank) A B concatenates_S64x64_S64x64_S64x128_d1 (ix2 i (hi k)) rfl rfl (ix2 i k)
    (fun b hb => by
      match b, hb with
      | ⟨0, _⟩, _ => rfl
      | ⟨1, _⟩, hb => exact absurd rfl hb)
    (by show k.val + 64 = 64 + k.val; omega)

/-- The [64,128] × [128,16] contraction into the zero accumulator is the plain sum over the 128 columns. -/
theorem node_matmul_apply (A : FVec Ideal S64x128 .bf16) (B : FVec Ideal S128x16 .bf16) (i : Fin 64) (j : Fin 16) :
    matmul dot_S64x128_S128x16_S64x16_1_0_0_1_n_n none A B (constant (F := Ideal) S64x16 .f32 0x00000000#32) (ix2 i j)
      = ∑ p : Fin 128, A (ix2 i p) * B (ix2 p j) := by
  refine (Ideal.matmul_constant_zero_apply dot_S64x128_S128x16_S64x16_1_0_0_1_n_n none A B (ix2 i j)).trans ?_
  rw [← Equiv.sum_comp (contrEquiv1 dot_S64x128_S128x16_S64x16_1_0_0_1_n_n 128 rfl rfl).symm]
  refine Finset.sum_congr rfl fun k _ => ?_
  have hk := contrEquiv1_symm_val dot_S64x128_S128x16_S64x16_1_0_0_1_n_n 128 rfl rfl k
  have el : dot_S64x128_S128x16_S64x16_1_0_0_1_n_n.lhsIdx (ix2 i j)
      ((contrEquiv1 dot_S64x128_S128x16_S64x16_1_0_0_1_n_n 128 rfl rfl).symm k) = ix2 i k := funext fun a => Fin.ext (by
    match a with
    | ⟨0, _⟩ =>
      show (dot_S64x128_S128x16_S64x16_1_0_0_1_n_n.lhsIdx (ix2 i j) _ (0 : Fin S64x128.rank)).val = i.val
      unfold DotDims.lhsIdx
      rw [dif_neg (show ¬(0 : Fin S64x128.rank) ∈ dot_S64x128_S128x16_S64x16_1_0_0_1_n_n.lhsBatch by decide),
        dif_pos (show (0 : Fin S64x128.rank) ∈ dot_S64x128_S128x16_S64x16_1_0_0_1_n_n.lhsNonContracting by decide)]
      rfl
    | ⟨1, _⟩ => exact (DotDims.lhsIdx_val_of_single (d := dot_S64x128_S128x16_S64x16_1_0_0_1_n_n) (cl := (1 : Fin S64x128.rank)) rfl _ _).trans hk)
  have er : dot_S64x128_S128x16_S64x16_1_0_0_1_n_n.rhsIdx (ix2 i j)
      ((contrEquiv1 dot_S64x128_S128x16_S64x16_1_0_0_1_n_n 128 rfl rfl).symm k) = ix2 k j := funext fun a => Fin.ext (by
    match a with
    | ⟨0, _⟩ => exact (DotDims.rhsIdx_val_of_single (d := dot_S64x128_S128x16_S64x16_1_0_0_1_n_n) (cr := (0 : Fin S128x16.rank)) rfl _ _).trans hk
    | ⟨1, _⟩ =>
      show (dot_S64x128_S128x16_S64x16_1_0_0_1_n_n.rhsIdx (ix2 i j) _ (1 : Fin S128x16.rank)).val = j.val
      unfold DotDims.rhsIdx
      rw [dif_neg (show ¬(1 : Fin S128x16.rank) ∈ dot_S64x128_S128x16_S64x16_1_0_0_1_n_n.rhsBatch by decide),
        dif_pos (show (1 : Fin S128x16.rank) ∈ dot_S64x128_S128x16_S64x16_1_0_0_1_n_n.rhsNonContracting by decide)]
      rfl)
  rw [el, er]

/-- A sum over 128 columns is the sum over the left 64 plus the sum over the right 64. -/
theorem sum_lo_hi (f : Fin 128 → EReal) :
    ∑ k : Fin 128, f k = (∑ k : Fin 64, f (lo k)) + ∑ k : Fin 64, f (hi k) :=
  Fin.sum_univ_add (a := 64) (b := 64) f

/-- The bias row [1,16], recast and broadcast down the 64 rows, read at (i, q). -/
theorem node_bias_apply (v109 : Vec Ideal S1x16 .f32) (i : Fin 64) (q : Fin 16) :
    broadcastTo S64x16 (shapeCast S1x16 (shapeCast S16 v109 shapeCasts_S1x16_S16) shapeCasts_S16_S1x16) broadcasts_S1x16_S64x16 (ix2 i q)
      = v109 (ix2 0 q) := by
  refine (broadcastTo_1b_ab_apply _ broadcasts_S1x16_S64x16 i q).trans ?_
  refine (shapeCast_a_1a_apply _ shapeCasts_S16_S1x16 (0 : Fin 1) q).trans ?_
  exact shapeCast_1a_a_apply v109 shapeCasts_S1x16_S16 q

/-- The node layer's pre-activation at node row `i`, unit `q`. -/
theorem k1_pay14_apply (v6 : FVec Ideal S64x64 .f32) (v75 : FVec Ideal S16384x32 .bf16) (v78 : FVec Ideal S32x2 .bf16)
    (cst_34 : FVec Ideal S16384x2 .f32) (v80 : Vec Ideal S1x2 .f32) (v105 : Vec Ideal S16x128 .f32) (v109 : Vec Ideal S1x16 .f32)
    (i : Fin 64) (q : Fin 16) :
    Gen.k1_pay14 v6 v75 v78 cst_34 v80 v105 v109 (ix2 i q)
      = ((∑ k : Fin 64, v6 (ix2 i k) * v105 (ix2 q (lo k)))
          + (∑ k : Fin 64, (∑ g : Fin 4, gated v75 v78 cst_34 v80 i (tgt g k)) * v105 (ix2 q (hi k))))
        + v109 (ix2 0 q) := by
  unfold Gen.k1_pay14
  refine congrArg₂ (· + ·) ?_ (node_bias_apply v109 i q)
  refine (node_matmul_apply _ _ i q).trans ?_
  refine (sum_lo_hi _).trans ?_
  refine congrArg₂ (· + ·) (Finset.sum_congr rfl fun k _ => ?_) (Finset.sum_congr rfl fun k _ => ?_)
  · refine congrArg₂ (· * ·) ?_ ?_
    · exact concat_lo _ _ i k
    · exact transpose_ix2_apply _ transposes_S16x128_p1_0_S128x16 (lo k) q
  · refine congrArg₂ (· * ·) ?_ ?_
    · refine (concat_hi _ _ i k).trans ?_
      refine (agg_apply _ i k).trans ?_
      exact Finset.sum_congr rfl fun g _ => gated_apply v75 v78 cst_34 v80 i (tgt g k)
    · exact transpose_ix2_apply _ transposes_S16x128_p1_0_S128x16 (hi k) q

end Cert.KernelIdeal.PayValue

end
-- ==== Proof.Pay1bStats.lean ====
/-
  What the main region stores and carries of the node layer's pre-activation, read at an index on the extended reals:
  the stored [1, 64, 16] block is the pre-activation itself; the two [16] vectors handed to the running statistics are
  its column sums over the 64 node rows of the tile, and the column sums of its square.
-/
import proofs.«168503_j21964462751805_2_alg».proof.Proof.Gen.KernelIdeal.Skeleton
import proofs.«168503_j21964462751805_2_alg».proof.Proof.Spec
import proofs.«168503_j21964462751805_2_alg».proof.Proof.Pay1bNode
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.KernelIdeal.PayValue

open Idealize.ShloMosaic Idealize.ShloMosaic.ValueIdx
open Cert.KernelIdeal Cert.KernelIdeal.Gen

/-- The stored pre-activation block [1, 64, 16]: entry (i, q) is the pre-activation of node row `i`, unit `q`. -/
theorem k1_pay15_apply (v6 : FVec Ideal S64x64 .f32) (v75 : FVec Ideal S16384x32 .bf16) (v78 : FVec Ideal S32x2 .bf16)
    (cst_34 : FVec Ideal S16384x2 .f32) (v80 : Vec Ideal S1x2 .f32) (v105 : Vec Ideal S16x128 .f32) (v109 : Vec Ideal S1x16 .f32)
    (i : Fin 64) (q : Fin 16) :
    Gen.k1_pay15 v6 v75 v78 cst_34 v80 v105 v109 (ix3 0 i q) = Gen.k1_pay14 v6 v75 v78 cst_34 v80 v105 v109 (ix2 i q) := by
  unfold Gen.k1_pay15
  exact shapeCast_ab_1ab_apply _ shapeCasts_S64x16_S1x64x16 (0 : Fin 1) i q

/-- The sum of a [64, 16] matrix down its 64 rows, from the zero word: at column `q` the plain sum of the column. -/
theorem colsum_apply (X : FVec Ideal S64x16 .f32) (q : Fin 16) :
    multiReduction .add [0] S16 X 0x00000000#32 reduces_S64x16_S16 (.inl rfl) rfl (ix1 q) = ∑ i : Fin 64, X (ix2 i q) := by
  refine (Ideal.multiReduction_add_single X 0x00000000#32 reduces_S64x16_S16 (.inl rfl) rfl (ix1 q)).trans ?_
  refine Finset.sum_congr rfl fun i _ => congrArg X (funext fun a => Fin.ext ?_)
  match a with
  | ⟨0, _⟩ => rfl
  | ⟨1, _⟩ => rfl

/-- The column sums of the pre-activation over the tile's 64 node rows. -/
theorem k1_pay16_apply (v6 : FVec Ideal S64x64 .f32) (v75 : FVec Ideal S16384x32 .bf16) (v78 : FVec Ideal S32x2 .bf16)
    (cst_34 : FVec Ideal S16384x2 .f32) (v80 : Vec Ideal S1x2 .f32) (v105 : Vec Ideal S16x128 .f32) (v109 : Vec Ideal S1x16 .f32)
    (q : Fin 16) :
    Gen.k1_pay16 v6 v75 v78 cst_34 v80 v105 v109 (ix1 q)
      = ∑ i : Fin 64, Gen.k1_pay14 v6 v75 v78 cst_34 v80 v105 v109 (ix2 i q) := by
  unfold Gen.k1_pay16
  exact colsum_apply _ q

/-- The column sums of the squared pre-activation over the tile's 64 node rows. -/
theorem k1_pay17_apply (v6 : FVec Ideal S64x64 .f32) (v75 : FVec Ideal S16384x32 .bf16) (v78 : FVec Ideal S32x2 .bf16)
    (cst_34 : FVec Ideal S16384x2 .f32) (v80 : Vec Ideal S1x2 .f32) (v105 : Vec Ideal S16x128 .f32) (v109 : Vec Ideal S1x16 .f32)
    (q : Fin 16) :
    Gen.k1_pay17 v6 v75 v78 cst_34 v80 v105 v109 (ix1 q)
      = ∑ i : Fin 64, Gen.k1_pay14 v6 v75 v78 cst_34 v80 v105 v109 (ix2 i q) * Gen.k1_pay14 v6 v75 v78 cst_34 v80 v105 v109 (ix2 i q) := by
  unfold Gen.k1_pay17
  refine (colsum_apply _ q).trans ?_
  exact Finset.sum_congr rfl fun i _ => mulf_apply _ _ _

end Cert.KernelIdeal.PayValue

end
-- ==== Proof.Val1Node.lean ====
/-
  The node layer's pre-activation block of one grid point, and its column sums, are the specification's.  With the
  loaded blocks holding the specification's quantities, the gated message of (row `r`, target `t`) is
  `weighted a b (src r) t`, so row `r`'s aggregate is `agg a b (src r)` and its pre-activation `h2pre a b (src r)`;
  the two vectors handed to the running statistics are the sums of that, and of its square, over the tile's 64 rows.
-/
import proofs.«168503_j21964462751805_2_alg».proof.Proof.Val1Edge
import proofs.«168503_j21964462751805_2_alg».proof.Proof.Pay1bStats

noncomputable section

namespace Cert.KernelIdeal.Val1

open Cert.KernelIdeal Cert.KernelIdeal.Gen Cert.KernelIdeal.PayValue
open Idealize.ShloMosaic Idealize.ShloMosaic.ValueIdx
open scoped BigOperators

variable (a : Cert.Spec.Args) (b : Fin 16) (src : Fin 64 → Fin 256)
variable (x0 : Vec Ideal S1x64x64 .f32) (x1 : Vec Ideal S1x256x64 .f32) (x2 : Vec Ideal S32x64 .f32) (x3 : Vec Ideal S32x64 .f32)
  (x4 : Vec Ideal S1x32 .f32) (x5 : Vec Ideal S1x32 .f32) (x6 : Vec Ideal S1x32 .f32) (x7 : Vec Ideal S1x32 .f32) (x8 : Vec Ideal S1x32 .f32)
  (x9 : Vec Ideal S32x32 .f32) (x10 : Vec Ideal S1x32 .f32) (x11 : Vec Ideal S2x32 .f32) (x12 : Vec Ideal S1x2 .f32)
  (x13 : Vec Ideal S16x128 .f32) (x14 : Vec Ideal S1x16 .f32)

/-- The gated message of (row `r`, target `t`). -/
theorem gated_eq (h0 : ∀ r k, x0 (ix3 (0 : Fin 1) r k) = a.x (ix3 b (src r) k)) (h1 : ∀ t k, x1 (ix3 (0 : Fin 1) t k) = a.x (ix3 b t k))
    (h2 : ∀ o k, x2 (ix2 o k) = a.W1 (ix2 o (Cert.Spec.lo k))) (h3 : ∀ o k, x3 (ix2 o k) = a.W1 (ix2 o (Cert.Spec.hi k)))
    (h4 : ∀ o, x4 (ix2 (0 : Fin 1) o) = a.b1 (ix1 o)) (h5 : ∀ o, x5 (ix2 (0 : Fin 1) o) = Cert.Spec.mean1 a o)
    (h6 : ∀ o, x6 (ix2 (0 : Fin 1) o) = Cert.Spec.var1 a o) (h7 : ∀ o, x7 (ix2 (0 : Fin 1) o) = a.g1 (ix1 o))
    (h8 : ∀ o, x8 (ix2 (0 : Fin 1) o) = a.be1 (ix1 o)) (h9 : ∀ i, x9 i = a.W2 i) (h10 : ∀ p, x10 (ix2 (0 : Fin 1) p) = a.b2 (ix1 p))
    (h11 : ∀ i, x11 i = a.W3 i) (h12 : ∀ j, x12 (ix2 (0 : Fin 1) j) = a.b3 (ix1 j))
    (r : Fin 64) (t : Fin 256) :
    gated (hid x0 x1 x2 x3 x4 x5 x6 x7 x8 x9 x10) (k1_pay10 x11) (constant (F := Ideal) S16384x2 .f32 0x00000000#32) x12 r t
      = Cert.Spec.weighted a b (src r) t := by
  unfold gated Cert.Spec.weighted Cert.Spec.edge
  rw [l3_eq a b src x0 x1 x2 x3 x4 x5 x6 x7 x8 x9 x10 x11 x12 h0 h1 h2 h3 h4 h5 h6 h7 h8 h9 h10 h11 h12 r t 0,
    l3_eq a b src x0 x1 x2 x3 x4 x5 x6 x7 x8 x9 x10 x11 x12 h0 h1 h2 h3 h4 h5 h6 h7 h8 h9 h10 h11 h12 r t 1]

/-- Row `r`'s pre-activation. -/
theorem nodeMat_eq (h0 : ∀ r k, x0 (ix3 (0 : Fin 1) r k) = a.x (ix3 b (src r) k)) (h1 : ∀ t k, x1 (ix3 (0 : Fin 1) t k) = a.x (ix3 b t k))
    (h2 : ∀ o k, x2 (ix2 o k) = a.W1 (ix2 o (Cert.Spec.lo k))) (h3 : ∀ o k, x3 (ix2 o k) = a.W1 (ix2 o (Cert.Spec.hi k)))
    (h4 : ∀ o, x4 (ix2 (0 : Fin 1) o) = a.b1 (ix1 o)) (h5 : ∀ o, x5 (ix2 (0 : Fin 1) o) = Cert.Spec.mean1 a o)
    (h6 : ∀ o, x6 (ix2 (0 : Fin 1) o) = Cert.Spec.var1 a o) (h7 : ∀ o, x7 (ix2 (0 : Fin 1) o) = a.g1 (ix1 o))
    (h8 : ∀ o, x8 (ix2 (0 : Fin 1) o) = a.be1 (ix1 o)) (h9 : ∀ i, x9 i = a.W2 i) (h10 : ∀ p, x10 (ix2 (0 : Fin 1) p) = a.b2 (ix1 p))
    (h11 : ∀ i, x11 i = a.W3 i) (h12 : ∀ j, x12 (ix2 (0 : Fin 1) j) = a.b3 (ix1 j))
    (h13 : ∀ i, x13 i = a.F1 i) (h14 : ∀ q, x14 (ix2 (0 : Fin 1) q) = a.fb1 (ix1 q)) (r : Fin 64) (q : Fin 16) :
    (nodeMat x0 x1 x2 x3 x4 x5 x6 x7 x8 x9 x10 x11 x12 x13 x14 (ix2 r q) : EReal) = Cert.Spec.h2pre a b (src r) q := by
  unfold nodeMat
  rw [k1_pay14_apply]
  unfold Cert.Spec.h2pre Cert.Spec.agg
  simp only [gated_eq a b src x0 x1 x2 x3 x4 x5 x6 x7 x8 x9 x10 x11 x12 h0 h1 h2 h3 h4 h5 h6 h7 h8 h9 h10 h11 h12, k1_pay5_apply,
    h0, h13, h14]

/-- The stored pre-activation block. -/
theorem nodeBlk_eq (h0 : ∀ r k, x0 (ix3 (0 : Fin 1) r k) = a.x (ix3 b (src r) k)) (h1 : ∀ t k, x1 (ix3 (0 : Fin 1) t k) = a.x (ix3 b t k))
    (h2 : ∀ o k, x2 (ix2 o k) = a.W1 (ix2 o (Cert.Spec.lo k))) (h3 : ∀ o k, x3 (ix2 o k) = a.W1 (ix2 o (Cert.Spec.hi k)))
    (h4 : ∀ o, x4 (ix2 (0 : Fin 1) o) = a.b1 (ix1 o)) (h5 : ∀ o, x5 (ix2 (0 : Fin 1) o) = Cert.Spec.mean1 a o)
    (h6 : ∀ o, x6 (ix2 (0 : Fin 1) o) = Cert.Spec.var1 a o) (h7 : ∀ o, x7 (ix2 (0 : Fin 1) o) = a.g1 (ix1 o))
    (h8 : ∀ o, x8 (ix2 (0 : Fin 1) o) = a.be1 (ix1 o)) (h9 : ∀ i, x9 i = a.W2 i) (h10 : ∀ p, x10 (ix2 (0 : Fin 1) p) = a.b2 (ix1 p))
    (h11 : ∀ i, x11 i = a.W3 i) (h12 : ∀ j, x12 (ix2 (0 : Fin 1) j) = a.b3 (ix1 j))
    (h13 : ∀ i, x13 i = a.F1 i) (h14 : ∀ q, x14 (ix2 (0 : Fin 1) q) = a.fb1 (ix1 q)) (u : Fin 1) (r : Fin 64) (q : Fin 16) :
    (nodeBlk x0 x1 x2 x3 x4 x5 x6 x7 x8 x9 x10 x11 x12 x13 x14 (ix3 u r q) : EReal) = Cert.Spec.h2pre a b (src r) q := by
  obtain rfl : u = 0 := Subsingleton.elim _ _
  unfold nodeBlk
  rw [k1_pay15_apply]
  exact nodeMat_eq a b src x0 x1 x2 x3 x4 x5 x6 x7 x8 x9 x10 x11 x12 x13 x14 h0 h1 h2 h3 h4 h5 h6 h7 h8 h9 h10 h11 h12 h13 h14 r q

/-- The column sums over the tile's rows. -/
theorem colSum_eq (h0 : ∀ r k, x0 (ix3 (0 : Fin 1) r k) = a.x (ix3 b (src r) k)) (h1 : ∀ t k, x1 (ix3 (0 : Fin 1) t k) = a.x (ix3 b t k))
    (h2 : ∀ o k, x2 (ix2 o k) = a.W1 (ix2 o (Cert.Spec.lo k))) (h3 : ∀ o k, x3 (ix2 o k) = a.W1 (ix2 o (Cert.Spec.hi k)))
    (h4 : ∀ o, x4 (ix2 (0 : Fin 1) o) = a.b1 (ix1 o)) (h5 : ∀ o, x5 (ix2 (0 : Fin 1) o) = Cert.Spec.mean1 a o)
    (h6 : ∀ o, x6 (ix2 (0 : Fin 1) o) = Cert.Spec.var1 a o) (h7 : ∀ o, x7 (ix2 (0 : Fin 1) o) = a.g1 (ix1 o))
    (h8 : ∀ o, x8 (ix2 (0 : Fin 1) o) = a.be1 (ix1 o)) (h9 : ∀ i, x9 i = a.W2 i) (h10 : ∀ p, x10 (ix2 (0 : Fin 1) p) = a.b2 (ix1 p))
    (h11 : ∀ i, x11 i = a.W3 i) (h12 : ∀ j, x12 (ix2 (0 : Fin 1) j) = a.b3 (ix1 j))
    (h13 : ∀ i, x13 i = a.F1 i) (h14 : ∀ q, x14 (ix2 (0 : Fin 1) q) = a.fb1 (ix1 q)) (q : Fin 16) :
    (colSum x0 x1 x2 x3 x4 x5 x6 x7 x8 x9 x10 x11 x12 x13 x14 (ix1 q) : EReal) = ∑ r : Fin 64, Cert.Spec.h2pre a b (src r) q := by
  unfold colSum
  rw [k1_pay16_apply]
  exact Finset.sum_congr rfl fun r _ =>
    nodeMat_eq a b src x0 x1 x2 x3 x4 x5 x6 x7 x8 x9 x10 x11 x12 x13 x14 h0 h1 h2 h3 h4 h5 h6 h7 h8 h9 h10 h11 h12 h13 h14 r q

/-- The column sums of squares over the tile's rows. -/
theorem colSq_eq (h0 : ∀ r k, x0 (ix3 (0 : Fin 1) r k) = a.x (ix3 b (src r) k)) (h1 : ∀ t k, x1 (ix3 (0 : Fin 1) t k) = a.x (ix3 b t k))
    (h2 : ∀ o k, x2 (ix2 o k) = a.W1 (ix2 o (Cert.Spec.lo k))) (h3 : ∀ o k, x3 (ix2 o k) = a.W1 (ix2 o (Cert.Spec.hi k)))
    (h4 : ∀ o, x4 (ix2 (0 : Fin 1) o) = a.b1 (ix1 o)) (h5 : ∀ o, x5 (ix2 (0 : Fin 1) o) = Cert.Spec.mean1 a o)
    (h6 : ∀ o, x6 (ix2 (0 : Fin 1) o) = Cert.Spec.var1 a o) (h7 : ∀ o, x7 (ix2 (0 : Fin 1) o) = a.g1 (ix1 o))
    (h8 : ∀ o, x8 (ix2 (0 : Fin 1) o) = a.be1 (ix1 o)) (h9 : ∀ i, x9 i = a.W2 i) (h10 : ∀ p, x10 (ix2 (0 : Fin 1) p) = a.b2 (ix1 p))
    (h11 : ∀ i, x11 i = a.W3 i) (h12 : ∀ j, x12 (ix2 (0 : Fin 1) j) = a.b3 (ix1 j))
    (h13 : ∀ i, x13 i = a.F1 i) (h14 : ∀ q, x14 (ix2 (0 : Fin 1) q) = a.fb1 (ix1 q)) (q : Fin 16) :
    (colSq x0 x1 x2 x3 x4 x5 x6 x7 x8 x9 x10 x11 x12 x13 x14 (ix1 q) : EReal)
      = ∑ r : Fin 64, Cert.Spec.h2pre a b (src r) q * Cert.Spec.h2pre a b (src r) q := by
  unfold colSq
  rw [k1_pay17_apply]
  exact Finset.sum_congr rfl fun r _ => congrArg₂ (· * ·)
    (nodeMat_eq a b src x0 x1 x2 x3 x4 x5 x6 x7 x8 x9 x10 x11 x12 x13 x14 h0 h1 h2 h3 h4 h5 h6 h7 h8 h9 h10 h11 h12 h13 h14 r q)
    (nodeMat_eq a b src x0 x1 x2 x3 x4 x5 x6 x7 x8 x9 x10 x11 x12 x13 x14 h0 h1 h2 h3 h4 h5 h6 h7 h8 h9 h10 h11 h12 h13 h14 r q)

end Cert.KernelIdeal.Val1

end
-- ==== Proof.Val1FinalA.lean ====
/-
  What the main region's two block outputs hold after the region, in the specification's terms, when its input arrays
  hold the specification's quantities: the gates of all edges, and the node layer's pre-activation.
-/
import proofs.«168503_j21964462751805_2_alg».proof.Proof.Val1Outs
import proofs.«168503_j21964462751805_2_alg».proof.Proof.Val1Blocks
import proofs.«168503_j21964462751805_2_alg».proof.Proof.Val1Node

set_option maxRecDepth 16384

noncomputable section

namespace Cert.KernelIdeal.Val1

open Cert.KernelIdeal Cert.KernelIdeal.Gen Cert.KernelIdeal.Hand
open Idealize.ShloMosaic Idealize.ShloMosaic.TcCoe
open Idealize.SL Idealize.SL.Sem
open Cert.KernelIdeal.PayValue Idealize.ShloMosaic.ValueIdx
open scoped BigOperators

variable (V : (c : Dev nD) → (b : Ref sig .tc) → Buf (Elt Ideal) ((c : Thread nD τ).loc b)) (c : Dev nD) (a : Cert.Spec.Args)

/-- The gate block of point `t` is the gates of its tile's edges. -/
theorem gateAt_apply (hx : ∀ i, (V c main_arg0 : S16x256x64.Idx → EReal) i = a.x i)
    (hW1a : ∀ o k, (V c main_v0 : S32x64.Idx → EReal) (ix2 o k) = a.W1 (ix2 o (Cert.Spec.lo k)))
    (hW1b : ∀ o k, (V c main_v1 : S32x64.Idx → EReal) (ix2 o k) = a.W1 (ix2 o (Cert.Spec.hi k)))
    (hb1 : ∀ o, (V c main_v2 : S1x32.Idx → EReal) (ix2 (0 : Fin 1) o) = a.b1 (ix1 o))
    (hmean : ∀ o, (V c main_v13 : S1x32.Idx → EReal) (ix2 (0 : Fin 1) o) = Cert.Spec.mean1 a o)
    (hvar : ∀ o, (V c main_v19 : S1x32.Idx → EReal) (ix2 (0 : Fin 1) o) = Cert.Spec.var1 a o)
    (hg1 : ∀ o, (V c main_v3 : S1x32.Idx → EReal) (ix2 (0 : Fin 1) o) = a.g1 (ix1 o))
    (hbe1 : ∀ o, (V c main_v4 : S1x32.Idx → EReal) (ix2 (0 : Fin 1) o) = a.be1 (ix1 o))
    (hW2 : ∀ i, (V c main_arg5 : S32x32.Idx → EReal) i = a.W2 i)
    (hb2 : ∀ p, (V c main_v5 : S1x32.Idx → EReal) (ix2 (0 : Fin 1) p) = a.b2 (ix1 p))
    (hW3 : ∀ i, (V c main_arg7 : S2x32.Idx → EReal) i = a.W3 i)
    (hb3 : ∀ j, (V c main_v6 : S1x2.Idx → EReal) (ix2 (0 : Fin 1) j) = a.b3 (ix1 j))
    (hF1 : ∀ i, (V c main_arg9 : S16x128.Idx → EReal) i = a.F1 i)
    (hfb1 : ∀ q, (V c main_v7 : S1x16.Idx → EReal) (ix2 (0 : Fin 1) q) = a.fb1 (ix1 q))
    (t : Fin cfg1.N) (u : Fin 1) (r : Fin 64) (x : Fin 256) :
    (gateAt V c t : S1x64x256.Idx → EReal) (ix3 u r x) = Cert.Spec.edge a (pb t) (psrc t r) x :=
  gate_eq a (pb t) (psrc t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
    (fun r k => (blk0_apply V c t 0 r k).trans (hx _))
    (fun x k => (blk1_apply V c t 0 x k).trans (hx _))
    (fun o k => (blk2_apply V c t (ix2 o k)).trans (hW1a o k))
    (fun o k => (blk3_apply V c t (ix2 o k)).trans (hW1b o k))
    (fun o => (blk4_apply V c t (ix2 0 o)).trans (hb1 o))
    (fun o => (blk5_apply V c t (ix2 0 o)).trans (hmean o))
    (fun o => (blk6_apply V c t (ix2 0 o)).trans (hvar o))
    (fun o => (blk7_apply V c t (ix2 0 o)).trans (hg1 o))
    (fun o => (blk8_apply V c t (ix2 0 o)).trans (hbe1 o))
    (fun i => (blk9_apply V c t i).trans (hW2 i))
    (fun p => (blk10_apply V c t (ix2 0 p)).trans (hb2 p))
    (fun i => (blk11_apply V c t i).trans (hW3 i))
    (fun j => (blk12_apply V c t (ix2 0 j)).trans (hb3 j)) u r x

/-- The pre-activation block of point `t` is its tile's rows'. -/
theorem nodeAt_apply (hx : ∀ i, (V c main_arg0 : S16x256x64.Idx → EReal) i = a.x i)
    (hW1a : ∀ o k, (V c main_v0 : S32x64.Idx → EReal) (ix2 o k) = a.W1 (ix2 o (Cert.Spec.lo k)))
    (hW1b : ∀ o k, (V c main_v1 : S32x64.Idx → EReal) (ix2 o k) = a.W1 (ix2 o (Cert.Spec.hi k)))
    (hb1 : ∀ o, (V c main_v2 : S1x32.Idx → EReal) (ix2 (0 : Fin 1) o) = a.b1 (ix1 o))
    (hmean : ∀ o, (V c main_v13 : S1x32.Idx → EReal) (ix2 (0 : Fin 1) o) = Cert.Spec.mean1 a o)
    (hvar : ∀ o, (V c main_v19 : S1x32.Idx → EReal) (ix2 (0 : Fin 1) o) = Cert.Spec.var1 a o)
    (hg1 : ∀ o, (V c main_v3 : S1x32.Idx → EReal) (ix2 (0 : Fin 1) o) = a.g1 (ix1 o))
    (hbe1 : ∀ o, (V c main_v4 : S1x32.Idx → EReal) (ix2 (0 : Fin 1) o) = a.be1 (ix1 o))
    (hW2 : ∀ i, (V c main_arg5 : S32x32.Idx → EReal) i = a.W2 i)
    (hb2 : ∀ p, (V c main_v5 : S1x32.Idx → EReal) (ix2 (0 : Fin 1) p) = a.b2 (ix1 p))
    (hW3 : ∀ i, (V c main_arg7 : S2x32.Idx → EReal) i = a.W3 i)
    (hb3 : ∀ j, (V c main_v6 : S1x2.Idx → EReal) (ix2 (0 : Fin 1) j) = a.b3 (ix1 j))
    (hF1 : ∀ i, (V c main_arg9 : S16x128.Idx → EReal) i = a.F1 i)
    (hfb1 : ∀ q, (V c main_v7 : S1x16.Idx → EReal) (ix2 (0 : Fin 1) q) = a.fb1 (ix1 q))
    (t : Fin cfg1.N) (u : Fin 1) (r : Fin 64) (q : Fin 16) :
    (nodeAt V c t : S1x64x16.Idx → EReal) (ix3 u r q) = Cert.Spec.h2pre a (pb t) (psrc t r) q :=
  nodeBlk_eq a (pb t) (psrc t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    (fun r k => (blk0_apply V c t 0 r k).trans (hx _))
    (fun x k => (blk1_apply V c t 0 x k).trans (hx _))
    (fun o k => (blk2_apply V c t (ix2 o k)).trans (hW1a o k))
    (fun o k => (blk3_apply V c t (ix2 o k)).trans (hW1b o k))
    (fun o => (blk4_apply V c t (ix2 0 o)).trans (hb1 o))
    (fun o => (blk5_apply V c t (ix2 0 o)).trans (hmean o))
    (fun o => (blk6_apply V c t (ix2 0 o)).trans (hvar o))
    (fun o => (blk7_apply V c t (ix2 0 o)).trans (hg1 o))
    (fun o => (blk8_apply V c t (ix2 0 o)).trans (hbe1 o))
    (fun i => (blk9_apply V c t i).trans (hW2 i))
    (fun p => (blk10_apply V c t (ix2 0 p)).trans (hb2 p))
    (fun i => (blk11_apply V c t i).trans (hW3 i))
    (fun j => (blk12_apply V c t (ix2 0 j)).trans (hb3 j))
    (fun i => (blk13_apply V c t i).trans (hF1 i))
    (fun q => (blk14_apply V c t (ix2 0 q)).trans (hfb1 q)) u r q

/-- The gates after the region. -/
theorem final1_15 (hx : ∀ i, (V c main_arg0 : S16x256x64.Idx → EReal) i = a.x i)
    (hW1a : ∀ o k, (V c main_v0 : S32x64.Idx → EReal) (ix2 o k) = a.W1 (ix2 o (Cert.Spec.lo k)))
    (hW1b : ∀ o k, (V c main_v1 : S32x64.Idx → EReal) (ix2 o k) = a.W1 (ix2 o (Cert.Spec.hi k)))
    (hb1 : ∀ o, (V c main_v2 : S1x32.Idx → EReal) (ix2 (0 : Fin 1) o) = a.b1 (ix1 o))
    (hmean : ∀ o, (V c main_v13 : S1x32.Idx → EReal) (ix2 (0 : Fin 1) o) = Cert.Spec.mean1 a o)
    (hvar : ∀ o, (V c main_v19 : S1x32.Idx → EReal) (ix2 (0 : Fin 1) o) = Cert.Spec.var1 a o)
    (hg1 : ∀ o, (V c main_v3 : S1x32.Idx → EReal) (ix2 (0 : Fin 1) o) = a.g1 (ix1 o))
    (hbe1 : ∀ o, (V c main_v4 : S1x32.Idx → EReal) (ix2 (0 : Fin 1) o) = a.be1 (ix1 o))
    (hW2 : ∀ i, (V c main_arg5 : S32x32.Idx → EReal) i = a.W2 i)
    (hb2 : ∀ p, (V c main_v5 : S1x32.Idx → EReal) (ix2 (0 : Fin 1) p) = a.b2 (ix1 p))
    (hW3 : ∀ i, (V c main_arg7 : S2x32.Idx → EReal) i = a.W3 i)
    (hb3 : ∀ j, (V c main_v6 : S1x2.Idx → EReal) (ix2 (0 : Fin 1) j) = a.b3 (ix1 j))
    (hF1 : ∀ i, (V c main_arg9 : S16x128.Idx → EReal) i = a.F1 i)
    (hfb1 : ∀ q, (V c main_v7 : S1x16.Idx → EReal) (ix2 (0 : Fin 1) q) = a.fb1 (ix1 q))
    (b : Fin 16) (s t : Fin 256) :
    ((dat1 V c).arrAt 15 cfg1.N : S16x256x256.Idx → EReal) (ix3 b s t) = Cert.Spec.edge a b s t := by
  have e := arr15_of c (dat1 V c) (fun i => Cert.Spec.edge a ⟨(i 0).val, (i 0).isLt⟩ ⟨(i 1).val, (i 1).isLt⟩ ⟨(i 2).val, (i 2).isLt⟩)
    (fun p u r x => by
      rw [after1_15, outs15]
      exact gateAt_apply V c a hx hW1a hW1b hb1 hmean hvar hg1 hbe1 hW2 hb2 hW3 hb3 hF1 hfb1 p u r x)
  exact congrFun e (ix3 b s t)

/-- The node layer's pre-activation after the region. -/
theorem final1_16 (hx : ∀ i, (V c main_arg0 : S16x256x64.Idx → EReal) i = a.x i)
    (hW1a : ∀ o k, (V c main_v0 : S32x64.Idx → EReal) (ix2 o k) = a.W1 (ix2 o (Cert.Spec.lo k)))
    (hW1b : ∀ o k, (V c main_v1 : S32x64.Idx → EReal) (ix2 o k) = a.W1 (ix2 o (Cert.Spec.hi k)))
    (hb1 : ∀ o, (V c main_v2 : S1x32.Idx → EReal) (ix2 (0 : Fin 1) o) = a.b1 (ix1 o))
    (hmean : ∀ o, (V c main_v13 : S1x32.Idx → EReal) (ix2 (0 : Fin 1) o) = Cert.Spec.mean1 a o)
    (hvar : ∀ o, (V c main_v19 : S1x32.Idx → EReal) (ix2 (0 : Fin 1) o) = Cert.Spec.var1 a o)
    (hg1 : ∀ o, (V c main_v3 : S1x32.Idx → EReal) (ix2 (0 : Fin 1) o) = a.g1 (ix1 o))
    (hbe1 : ∀ o, (V c main_v4 : S1x32.Idx → EReal) (ix2 (0 : Fin 1) o) = a.be1 (ix1 o))
    (hW2 : ∀ i, (V c main_arg5 : S32x32.Idx → EReal) i = a.W2 i)
    (hb2 : ∀ p, (V c main_v5 : S1x32.Idx → EReal) (ix2 (0 : Fin 1) p) = a.b2 (ix1 p))
    (hW3 : ∀ i, (V c main_arg7 : S2x32.Idx → EReal) i = a.W3 i)
    (hb3 : ∀ j, (V c main_v6 : S1x2.Idx → EReal) (ix2 (0 : Fin 1) j) = a.b3 (ix1 j))
    (hF1 : ∀ i, (V c main_arg9 : S16x128.Idx → EReal) i = a.F1 i)
    (hfb1 : ∀ q, (V c main_v7 : S1x16.Idx → EReal) (ix2 (0 : Fin 1) q) = a.fb1 (ix1 q))
    (b : Fin 16) (s : Fin 256) (q : Fin 16) :
    ((dat1 V c).arrAt 16 cfg1.N : S16x256x16.Idx → EReal) (ix3 b s q) = Cert.Spec.h2pre a b s q := by
  have e := arr16_of c (dat1 V c) (fun i => Cert.Spec.h2pre a ⟨(i 0).val, (i 0).isLt⟩ ⟨(i 1).val, (i 1).isLt⟩ ⟨(i 2).val, (i 2).isLt⟩)
    (fun p u r x => by
      rw [after1_16, outs16]
      exact nodeAt_apply V c a hx hW1a hW1b hb1 hmean hvar hg1 hbe1 hW2 hb2 hW3 hb3 hF1 hfb1 p u r x)
  exact congrFun e (ix3 b s q)

end Cert.KernelIdeal.Val1

end
-- ==== Proof.Val1PieceAcc.lean ====
/-
  What each case of the main region's body leaves in the two accumulators' staging buffers, as the program's payloads
  of the point's loaded blocks: at the first point the zero row plus the tile's column sums (of the pre-activation, and
  of its square), at every later point what the buffer held plus them.  For any float instance.
-/
import proofs.«168503_j21964462751805_2_alg».proof.Proof.K1Dat
import proofs.«168503_j21964462751805_2_alg».proof.Proof.Val1Terms
import Idealize.ShloMosaic.Lib.Pipeline.Value
import Idealize.ShloMosaic.Lib.Tactic

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

theorem hzA2 : (![0, 0] : Fin 2 → Nat) = fun _ => 0 := funext fun a => by fin_cases a <;> rfl
theorem hzA3 : (![0, 0, 0] : Fin 3 → Nat) = fun _ => 0 := funext fun a => by fin_cases a <;> rfl

/-- The first point, first accumulator: the zero row is stored and read back, and the tile's column sums are added. -/
theorem outA17 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i) (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) :
    out1_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = k1_pay1 (colSum x0 x1 x2 x3 x4 x5 x6 x7 x8 x9 x10 x11 x12 x13 x14) (k1_pay3 (F := F)) := by
  unfold out1_A_17
  rw [View.read_writes_eq_canon _ _ _ (cover1_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)]
  unfold kernelRun1_A
  dsimp only
  sl_unfold_words
  rw [View.canon_cons_unit_zero (S := S1x16) hzA2, View.readCov_unit_zero (S := S1x16) _ hzA2]
  simp only [View.readAt_eq_ld, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread, harg16.read_unread,
    View.ld_unit_zero (S := S1x64x64) hzA3, View.ld_unit_zero (S := S1x256x64) hzA3, View.ld_unit_zero (S := S32x64) hzA2,
    View.ld_unit_zero (S := S1x32) hzA2, View.ld_unit_zero (S := S32x32) hzA2, View.ld_unit_zero (S := S2x32) hzA2,
    View.ld_unit_zero (S := S1x2) hzA2, View.ld_unit_zero (S := S16x128) hzA2, View.ld_unit_zero (S := S1x16) hzA2]
  rfl

/-- The first point, second accumulator: the zero row plus the tile's column sums of squares. -/
theorem outA18 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i) (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) :
    out1_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = k1_pay2 (colSq x0 x1 x2 x3 x4 x5 x6 x7 x8 x9 x10 x11 x12 x13 x14) (k1_pay4 (F := F)) := by
  unfold out1_A_18
  rw [View.read_writes_eq_canon _ _ _ (cover1_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)]
  unfold kernelRun1_A
  dsimp only
  sl_unfold_words
  rw [View.canon_cons_unit_zero (S := S1x16) hzA2, View.readCov_unit_zero (S := S1x16) _ hzA2]
  simp only [View.readAt_eq_ld, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread, harg16.read_unread,
    View.ld_unit_zero (S := S1x64x64) hzA3, View.ld_unit_zero (S := S1x256x64) hzA3, View.ld_unit_zero (S := S32x64) hzA2,
    View.ld_unit_zero (S := S1x32) hzA2, View.ld_unit_zero (S := S32x32) hzA2, View.ld_unit_zero (S := S2x32) hzA2,
    View.ld_unit_zero (S := S1x2) hzA2, View.ld_unit_zero (S := S16x128) hzA2, View.ld_unit_zero (S := S1x16) hzA2]
  rfl

/-- A later point, first accumulator: what the buffer held plus the tile's column sums. -/
theorem outB17 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i) (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) :
    out1_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18 = k1_pay1 (colSum x0 x1 x2 x3 x4 x5 x6 x7 x8 x9 x10 x11 x12 x13 x14) xo17 := by
  unfold out1_B_17
  rw [View.read_writes_eq_canon _ _ _ (cover1_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18)]
  unfold kernelRun1_B
  dsimp only
  sl_unfold_words
  rw [View.canon_unit_zero (S := S1x16) hzA2]
  simp only [View.readAt_eq_ld, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread, harg16.read_unread, harg19.read_unread, harg20.read_unread,
    View.ld_unit_zero (S := S1x64x64) hzA3, View.ld_unit_zero (S := S1x256x64) hzA3, View.ld_unit_zero (S := S32x64) hzA2,
    View.ld_unit_zero (S := S1x32) hzA2, View.ld_unit_zero (S := S32x32) hzA2, View.ld_unit_zero (S := S2x32) hzA2,
    View.ld_unit_zero (S := S1x2) hzA2, View.ld_unit_zero (S := S16x128) hzA2, View.ld_unit_zero (S := S1x16) hzA2]
  rfl

/-- A later point, second accumulator: what the buffer held plus the tile's column sums of squares. -/
theorem outB18 (c : Dev nD) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i) (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) (xo18 : Vec F S1x16 .f32) :
    out1_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18 = k1_pay2 (colSq x0 x1 x2 x3 x4 x5 x6 x7 x8 x9 x10 x11 x12 x13 x14) xo18 := by
  unfold out1_B_18
  rw [View.read_writes_eq_canon _ _ _ (cover1_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo17 xo18)]
  unfold kernelRun1_B
  dsimp only
  sl_unfold_words
  rw [View.canon_unit_zero (S := S1x16) hzA2]
  simp only [View.readAt_eq_ld, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread, harg16.read_unread, harg19.read_unread, harg20.read_unread,
    View.ld_unit_zero (S := S1x64x64) hzA3, View.ld_unit_zero (S := S1x256x64) hzA3, View.ld_unit_zero (S := S32x64) hzA2,
    View.ld_unit_zero (S := S1x32) hzA2, View.ld_unit_zero (S := S32x32) hzA2, View.ld_unit_zero (S := S2x32) hzA2,
    View.ld_unit_zero (S := S1x2) hzA2, View.ld_unit_zero (S := S16x128) hzA2, View.ld_unit_zero (S := S1x16) hzA2]
  rfl

end Cert.KernelIdeal.Val1

end
-- ==== Proof.Val1OutsAcc.lean ====
/-
  What the two accumulators' staging buffers hold after every grid point of the main region: the running sum — from the
  zero row — of the tiles' column sums (of the pre-activation, and of its square) up to the point.  By induction on
  the point: the first point is the case that zeroes, every later point the case that adds to what the point before left.
-/
import proofs.«168503_j21964462751805_2_alg».proof.Proof.Val1Outs
import proofs.«168503_j21964462751805_2_alg».proof.Proof.Val1PieceAcc

set_option maxRecDepth 16384

noncomputable section

namespace Cert.KernelIdeal.Val1

open Cert.KernelIdeal Cert.KernelIdeal.Gen Cert.KernelIdeal.Hand
open Idealize.ShloMosaic Idealize.ShloMosaic.TcCoe
open Idealize.SL Idealize.SL.Sem

variable {F : FTy → Type} [FloatOps F]
variable (V : (c : Dev nD) → (b : Ref sig .tc) → Buf (Elt F) ((c : Thread nD τ).loc b))

/-- The tile's column sums at point `t`. -/
def sumAt (c : Dev nD) (t : Fin cfg1.N) : FVec F S16 .f32 := colSum (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
/-- The tile's column sums of squares at point `t`. -/
def sqAt (c : Dev nD) (t : Fin cfg1.N) : FVec F S16 .f32 := colSq (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)

/-- At the first point the accumulators hold the zero row plus the tile's sums. -/
theorem accA (c : Dev nD) (t : Fin cfg1.N) (h0 : t.val % 64 = 0) :
    (outsAt1 V c t.val t.isLt).2.2 = (k1_pay1 (sumAt V c t) (k1_pay3 (F := F)), k1_pay2 (sqAt V c t) (k1_pay4 (F := F))) := by
  rw [outsAt1_A V c t h0]
  dsimp only
  unfold sumAt sqAt
  exact congrArg₂ Prod.mk
    (outA17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t))
    (outA18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t))

/-- At a later point they hold what the point before left plus the tile's sums. -/
theorem accB (c : Dev nD) (t : Fin cfg1.N) (h0 : ¬t.val % 64 = 0) :
    (outsAt1 V c t.val t.isLt).2.2
      = (k1_pay1 (sumAt V c t) (outsAt1 V c (t.val - 1) (Nat.lt_of_le_of_lt (Nat.sub_le _ _) t.isLt)).2.2.1,
         k1_pay2 (sqAt V c t) (outsAt1 V c (t.val - 1) (Nat.lt_of_le_of_lt (Nat.sub_le _ _) t.isLt)).2.2.2) := by
  rw [outsAt1_B V c t h0]
  dsimp only
  unfold sumAt sqAt
  exact congrArg₂ Prod.mk
    (outB17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (fun hh => h0 ((hcond1_0 t).mp hh)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).2.2.1 (outsAt1 V c (t.val - 1) (Nat.lt_of_le_of_lt (Nat.sub_le _ _) t.isLt)).2.2.2)
    (outB18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (fun hh => h0 ((hcond1_0 t).mp hh)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).2.2.1 (outsAt1 V c (t.val - 1) (Nat.lt_of_le_of_lt (Nat.sub_le _ _) t.isLt)).2.2.2)

/-- The first accumulator after point `n`: the zero row plus the first tile's sums, then plus each later tile's. -/
def acc17 (c : Dev nD) : (n : ℕ) → n < cfg1.N → Vec F S1x16 .f32
  | 0, h => k1_pay1 (sumAt V c ⟨0, h⟩) (k1_pay3 (F := F))
  | n + 1, h => k1_pay1 (sumAt V c ⟨n + 1, h⟩) (acc17 c n (Nat.lt_of_succ_lt h))
/-- The second accumulator after point `n`, likewise of the sums of squares. -/
def acc18 (c : Dev nD) : (n : ℕ) → n < cfg1.N → Vec F S1x16 .f32
  | 0, h => k1_pay2 (sqAt V c ⟨0, h⟩) (k1_pay4 (F := F))
  | n + 1, h => k1_pay2 (sqAt V c ⟨n + 1, h⟩) (acc18 c n (Nat.lt_of_succ_lt h))

/-- What the two accumulators' staging buffers hold after point `n`. -/
theorem outsAcc_eq (c : Dev nD) : ∀ (n : ℕ) (h : n < cfg1.N),
    (outsAt1 V c n h).2.2 = (acc17 V c n h, acc18 V c n h)
  | 0, h => accA V c ⟨0, h⟩ rfl
  | n + 1, h => by
    have hN : cfg1.N = 64 := N_1
    have hB : ¬(⟨n + 1, h⟩ : Fin cfg1.N).val % 64 = 0 := by show ¬(n + 1) % 64 = 0; omega
    have ih := outsAcc_eq c n (Nat.lt_of_succ_lt h)
    refine (accB V c ⟨n + 1, h⟩ hB).trans ?_
    show (k1_pay1 (sumAt V c ⟨n + 1, h⟩) (outsAt1 V c n (Nat.lt_of_succ_lt h)).2.2.1,
        k1_pay2 (sqAt V c ⟨n + 1, h⟩) (outsAt1 V c n (Nat.lt_of_succ_lt h)).2.2.2)
      = (k1_pay1 (sumAt V c ⟨n + 1, h⟩) (acc17 V c n (Nat.lt_of_succ_lt h)),
        k1_pay2 (sqAt V c ⟨n + 1, h⟩) (acc18 V c n (Nat.lt_of_succ_lt h)))
    rw [ih]

end Cert.KernelIdeal.Val1

end
-- ==== Proof.Pay1bAcc.lean ====
/-
  The two running sums of the node layer's batch statistics in the main region, read at an index on the extended reals:
  at every grid point but the first the stored [1, 16] row is the row held so far plus this point's column sums (of the
  pre-activation, and of its square); at the first point the stored rows are the zero word.
-/
import proofs.«168503_j21964462751805_2_alg».proof.Proof.Gen.KernelIdeal.Skeleton
import proofs.«168503_j21964462751805_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.KernelIdeal.PayValue

open Idealize.ShloMosaic Idealize.ShloMosaic.ValueIdx
open Cert.KernelIdeal Cert.KernelIdeal.Gen

/-- The running sum of the node pre-activation: the row so far plus this point's column sum. -/
theorem k1_pay1_apply (v117 : FVec Ideal S16 .f32) (v120 : Vec Ideal S1x16 .f32) (q : Fin 16) :
    Gen.k1_pay1 v117 v120 (ix2 0 q) = v120 (ix2 0 q) + v117 (ix1 q) := by
  unfold Gen.k1_pay1
  refine congrArg₂ (· + ·) ?_ ?_
  · exact congrFun (shapeCast_self v120 shapeCasts_S1x16_S1x16) (ix2 0 q)
  · exact shapeCast_a_1a_apply v117 shapeCasts_S16_S1x16 (0 : Fin 1) q

/-- The running sum of the squared node pre-activation: the row so far plus this point's column sum of squares. -/
theorem k1_pay2_apply (v119 : FVec Ideal S16 .f32) (v125 : Vec Ideal S1x16 .f32) (q : Fin 16) :
    Gen.k1_pay2 v119 v125 (ix2 0 q) = v125 (ix2 0 q) + v119 (ix1 q) := by
  unfold Gen.k1_pay2
  refine congrArg₂ (· + ·) ?_ ?_
  · exact congrFun (shapeCast_self v125 shapeCasts_S1x16_S1x16) (ix2 0 q)
  · exact shapeCast_a_1a_apply v119 shapeCasts_S16_S1x16 (0 : Fin 1) q

/-- The first point's reset of the running sum: the zero word everywhere. -/
theorem k1_pay3_apply (j : S1x16.Idx) : Gen.k1_pay3 (F := Ideal) j = Ideal.ofBits .f32 0x00000000#32 := rfl

/-- The first point's reset of the running sum of squares: the zero word everywhere. -/
theorem k1_pay4_apply (j : S1x16.Idx) : Gen.k1_pay4 (F := Ideal) j = Ideal.ofBits .f32 0x00000000#32 := rfl

end Cert.KernelIdeal.PayValue

end
-- ==== Proof.Val1Final.lean ====
/-
  What the main region's two accumulators hold after the region, in the specification's terms: the sum of the node
  layer's pre-activation, and of its square, over all nodes of all batch entries — accumulated tile by tile from the
  zero row, which is the sum over all (entry, node) since the tiles partition them.
-/
import proofs.«168503_j21964462751805_2_alg».proof.Proof.Val1FinalA
import proofs.«168503_j21964462751805_2_alg».proof.Proof.Val1OutsAcc
import proofs.«168503_j21964462751805_2_alg».proof.Proof.Pay1bAcc
import proofs.«168503_j21964462751805_2_alg».proof.Proof.LibGridSum

set_option maxRecDepth 16384

noncomputable section

namespace Cert.KernelIdeal.Val1

open Cert.KernelIdeal Cert.KernelIdeal.Gen Cert.KernelIdeal.Hand
open Idealize.ShloMosaic Idealize.ShloMosaic.TcCoe
open Idealize.SL Idealize.SL.Sem
open Cert.KernelIdeal.PayValue Idealize.ShloMosaic.ValueIdx
open scoped BigOperators

variable (V : (c : Dev nD) → (b : Ref sig .tc) → Buf (Elt Ideal) ((c : Thread nD τ).loc b)) (c : Dev nD) (a : Cert.Spec.Args)

/-- The tile's column sums at point `t`. -/
theorem sumAt_apply (hx : ∀ i, (V c main_arg0 : S16x256x64.Idx → EReal) i = a.x i)
    (hW1a : ∀ o k, (V c main_v0 : S32x64.Idx → EReal) (ix2 o k) = a.W1 (ix2 o (Cert.Spec.lo k)))
    (hW1b : ∀ o k, (V c main_v1 : S32x64.Idx → EReal) (ix2 o k) = a.W1 (ix2 o (Cert.Spec.hi k)))
    (hb1 : ∀ o, (V c main_v2 : S1x32.Idx → EReal) (ix2 (0 : Fin 1) o) = a.b1 (ix1 o))
    (hmean : ∀ o, (V c main_v13 : S1x32.Idx → EReal) (ix2 (0 : Fin 1) o) = Cert.Spec.mean1 a o)
    (hvar : ∀ o, (V c main_v19 : S1x32.Idx → EReal) (ix2 (0 : Fin 1) o) = Cert.Spec.var1 a o)
    (hg1 : ∀ o, (V c main_v3 : S1x32.Idx → EReal) (ix2 (0 : Fin 1) o) = a.g1 (ix1 o))
    (hbe1 : ∀ o, (V c main_v4 : S1x32.Idx → EReal) (ix2 (0 : Fin 1) o) = a.be1 (ix1 o))
    (hW2 : ∀ i, (V c main_arg5 : S32x32.Idx → EReal) i = a.W2 i)
    (hb2 : ∀ p, (V c main_v5 : S1x32.Idx → EReal) (ix2 (0 : Fin 1) p) = a.b2 (ix1 p))
    (hW3 : ∀ i, (V c main_arg7 : S2x32.Idx → EReal) i = a.W3 i)
    (hb3 : ∀ j, (V c main_v6 : S1x2.Idx → EReal) (ix2 (0 : Fin 1) j) = a.b3 (ix1 j))
    (hF1 : ∀ i, (V c main_arg9 : S16x128.Idx → EReal) i = a.F1 i)
    (hfb1 : ∀ q, (V c main_v7 : S1x16.Idx → EReal) (ix2 (0 : Fin 1) q) = a.fb1 (ix1 q))
    (t : Fin cfg1.N) (q : Fin 16) :
    (sumAt V c t : S16.Idx → EReal) (ix1 q) = ∑ r : Fin 64, Cert.Spec.h2pre a (pb t) (psrc t r) q :=
  colSum_eq a (pb t) (psrc t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    (fun r k => (blk0_apply V c t 0 r k).trans (hx _))
    (fun x k => (blk1_apply V c t 0 x k).trans (hx _))
    (fun o k => (blk2_apply V c t (ix2 o k)).trans (hW1a o k))
    (fun o k => (blk3_apply V c t (ix2 o k)).trans (hW1b o k))
    (fun o => (blk4_apply V c t (ix2 0 o)).trans (hb1 o))
    (fun o => (blk5_apply V c t (ix2 0 o)).trans (hmean o))
    (fun o => (blk6_apply V c t (ix2 0 o)).trans (hvar o))
    (fun o => (blk7_apply V c t (ix2 0 o)).trans (hg1 o))
    (fun o => (blk8_apply V c t (ix2 0 o)).trans (hbe1 o))
    (fun i => (blk9_apply V c t i).trans (hW2 i))
    (fun p => (blk10_apply V c t (ix2 0 p)).trans (hb2 p))
    (fun i => (blk11_apply V c t i).trans (hW3 i))
    (fun j => (blk12_apply V c t (ix2 0 j)).trans (hb3 j))
    (fun i => (blk13_apply V c t i).trans (hF1 i))
    (fun q => (blk14_apply V c t (ix2 0 q)).trans (hfb1 q)) q

/-- The tile's column sums of squares at point `t`. -/
theorem sqAt_apply (hx : ∀ i, (V c main_arg0 : S16x256x64.Idx → EReal) i = a.x i)
    (hW1a : ∀ o k, (V c main_v0 : S32x64.Idx → EReal) (ix2 o k) = a.W1 (ix2 o (Cert.Spec.lo k)))
    (hW1b : ∀ o k, (V c main_v1 : S32x64.Idx → EReal) (ix2 o k) = a.W1 (ix2 o (Cert.Spec.hi k)))
    (hb1 : ∀ o, (V c main_v2 : S1x32.Idx → EReal) (ix2 (0 : Fin 1) o) = a.b1 (ix1 o))
    (hmean : ∀ o, (V c main_v13 : S1x32.Idx → EReal) (ix2 (0 : Fin 1) o) = Cert.Spec.mean1 a o)
    (hvar : ∀ o, (V c main_v19 : S1x32.Idx → EReal) (ix2 (0 : Fin 1) o) = Cert.Spec.var1 a o)
    (hg1 : ∀ o, (V c main_v3 : S1x32.Idx → EReal) (ix2 (0 : Fin 1) o) = a.g1 (ix1 o))
    (hbe1 : ∀ o, (V c main_v4 : S1x32.Idx → EReal) (ix2 (0 : Fin 1) o) = a.be1 (ix1 o))
    (hW2 : ∀ i, (V c main_arg5 : S32x32.Idx → EReal) i = a.W2 i)
    (hb2 : ∀ p, (V c main_v5 : S1x32.Idx → EReal) (ix2 (0 : Fin 1) p) = a.b2 (ix1 p))
    (hW3 : ∀ i, (V c main_arg7 : S2x32.Idx → EReal) i = a.W3 i)
    (hb3 : ∀ j, (V c main_v6 : S1x2.Idx → EReal) (ix2 (0 : Fin 1) j) = a.b3 (ix1 j))
    (hF1 : ∀ i, (V c main_arg9 : S16x128.Idx → EReal) i = a.F1 i)
    (hfb1 : ∀ q, (V c main_v7 : S1x16.Idx → EReal) (ix2 (0 : Fin 1) q) = a.fb1 (ix1 q))
    (t : Fin cfg1.N) (q : Fin 16) :
    (sqAt V c t : S16.Idx → EReal) (ix1 q)
      = ∑ r : Fin 64, Cert.Spec.h2pre a (pb t) (psrc t r) q * Cert.Spec.h2pre a (pb t) (psrc t r) q :=
  colSq_eq a (pb t) (psrc t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    (fun r k => (blk0_apply V c t 0 r k).trans (hx _))
    (fun x k => (blk1_apply V c t 0 x k).trans (hx _))
    (fun o k => (blk2_apply V c t (ix2 o k)).trans (hW1a o k))
    (fun o k => (blk3_apply V c t (ix2 o k)).trans (hW1b o k))
    (fun o => (blk4_apply V c t (ix2 0 o)).trans (hb1 o))
    (fun o => (blk5_apply V c t (ix2 0 o)).trans (hmean o))
    (fun o => (blk6_apply V c t (ix2 0 o)).trans (hvar o))
    (fun o => (blk7_apply V c t (ix2 0 o)).trans (hg1 o))
    (fun o => (blk8_apply V c t (ix2 0 o)).trans (hbe1 o))
    (fun i => (blk9_apply V c t i).trans (hW2 i))
    (fun p => (blk10_apply V c t (ix2 0 p)).trans (hb2 p))
    (fun i => (blk11_apply V c t i).trans (hW3 i))
    (fun j => (blk12_apply V c t (ix2 0 j)).trans (hb3 j))
    (fun i => (blk13_apply V c t i).trans (hF1 i))
    (fun q => (blk14_apply V c t (ix2 0 q)).trans (hfb1 q)) q

/-- An accumulator after point `n`, read at a unit: the running sum, from zero, of the tiles' sums up to `n`. -/
theorem acc17_apply (q : Fin 16) : ∀ (n : ℕ) (h : n < cfg1.N),
    (acc17 V c n h : S1x16.Idx → EReal) (ix2 (0 : Fin 1) q)
      = Cert.Lib.chain (fun m => if hm : m < cfg1.N then (sumAt V c ⟨m, hm⟩ : S16.Idx → EReal) (ix1 q) else 0) n
  | 0, h => by
    show (k1_pay1 (sumAt V c ⟨0, h⟩) (k1_pay3 (F := Ideal)) : S1x16.Idx → EReal) (ix2 (0 : Fin 1) q) = 0 + _
    rw [k1_pay1_apply, k1_pay3_apply, Ideal.ofBits_zero_f32]
    beta_reduce
    rw [dif_pos h]
  | n + 1, h => by
    show (k1_pay1 (sumAt V c ⟨n + 1, h⟩) (acc17 V c n (Nat.lt_of_succ_lt h)) : S1x16.Idx → EReal) (ix2 (0 : Fin 1) q) = _ + _
    rw [k1_pay1_apply, acc17_apply q n]
    beta_reduce
    rw [dif_pos h]

theorem acc18_apply (q : Fin 16) : ∀ (n : ℕ) (h : n < cfg1.N),
    (acc18 V c n h : S1x16.Idx → EReal) (ix2 (0 : Fin 1) q)
      = Cert.Lib.chain (fun m => if hm : m < cfg1.N then (sqAt V c ⟨m, hm⟩ : S16.Idx → EReal) (ix1 q) else 0) n
  | 0, h => by
    show (k1_pay2 (sqAt V c ⟨0, h⟩) (k1_pay4 (F := Ideal)) : S1x16.Idx → EReal) (ix2 (0 : Fin 1) q) = 0 + _
    rw [k1_pay2_apply, k1_pay4_apply, Ideal.ofBits_zero_f32]
    beta_reduce
    rw [dif_pos h]
  | n + 1, h => by
    show (k1_pay2 (sqAt V c ⟨n + 1, h⟩) (acc18 V c n (Nat.lt_of_succ_lt h)) : S1x16.Idx → EReal) (ix2 (0 : Fin 1) q) = _ + _
    rw [k1_pay2_apply, acc18_apply q n]
    beta_reduce
    rw [dif_pos h]

/-- The sum of the node layer's pre-activation over all nodes, after the region. -/
theorem final1_17 (hx : ∀ i, (V c main_arg0 : S16x256x64.Idx → EReal) i = a.x i)
    (hW1a : ∀ o k, (V c main_v0 : S32x64.Idx → EReal) (ix2 o k) = a.W1 (ix2 o (Cert.Spec.lo k)))
    (hW1b : ∀ o k, (V c main_v1 : S32x64.Idx → EReal) (ix2 o k) = a.W1 (ix2 o (Cert.Spec.hi k)))
    (hb1 : ∀ o, (V c main_v2 : S1x32.Idx → EReal) (ix2 (0 : Fin 1) o) = a.b1 (ix1 o))
    (hmean : ∀ o, (V c main_v13 : S1x32.Idx → EReal) (ix2 (0 : Fin 1) o) = Cert.Spec.mean1 a o)
    (hvar : ∀ o, (V c main_v19 : S1x32.Idx → EReal) (ix2 (0 : Fin 1) o) = Cert.Spec.var1 a o)
    (hg1 : ∀ o, (V c main_v3 : S1x32.Idx → EReal) (ix2 (0 : Fin 1) o) = a.g1 (ix1 o))
    (hbe1 : ∀ o, (V c main_v4 : S1x32.Idx → EReal) (ix2 (0 : Fin 1) o) = a.be1 (ix1 o))
    (hW2 : ∀ i, (V c main_arg5 : S32x32.Idx → EReal) i = a.W2 i)
    (hb2 : ∀ p, (V c main_v5 : S1x32.Idx → EReal) (ix2 (0 : Fin 1) p) = a.b2 (ix1 p))
    (hW3 : ∀ i, (V c main_arg7 : S2x32.Idx → EReal) i = a.W3 i)
    (hb3 : ∀ j, (V c main_v6 : S1x2.Idx → EReal) (ix2 (0 : Fin 1) j) = a.b3 (ix1 j))
    (hF1 : ∀ i, (V c main_arg9 : S16x128.Idx → EReal) i = a.F1 i)
    (hfb1 : ∀ q, (V c main_v7 : S1x16.Idx → EReal) (ix2 (0 : Fin 1) q) = a.fb1 (ix1 q))
    (q : Fin 16) :
    ((dat1 V c).arrAt 17 cfg1.N : S1x16.Idx → EReal) (ix2 (0 : Fin 1) q) = ∑ b : Fin 16, ∑ s : Fin 256, Cert.Spec.h2pre a b s q := by
  have hN : cfg1.N = 64 := N_1
  have h63 : 63 < cfg1.N := by rw [hN]; omega
  have e := arr17_of c (dat1 V c) (acc17 V c 63 h63) (fun t ht => by
    obtain ⟨n, hn⟩ := t
    obtain rfl : n = 63 := ht
    rw [after1_17, outsAcc_eq])
  refine (congrFun e (ix2 (0 : Fin 1) q)).trans ?_
  show (acc17 V c 63 h63 : S1x16.Idx → EReal) (ix2 (0 : Fin 1) q) = _
  rw [acc17_apply V c q 63 h63, Cert.Lib.chain_eq_sum_fin _ 64 (by omega)]
  refine Eq.trans ?_ (Cert.Lib.sum_tiles_nodes fun b s => Cert.Spec.h2pre a b s q)
  refine Finset.sum_congr rfl fun p _ => ?_
  have hp : p.val < cfg1.N := by rw [hN]; exact p.isLt
  beta_reduce
  rw [dif_pos hp]
  exact sumAt_apply V c a hx hW1a hW1b hb1 hmean hvar hg1 hbe1 hW2 hb2 hW3 hb3 hF1 hfb1 ⟨p.val, hp⟩ q

/-- The sum of its squares over all nodes, after the region. -/
theorem final1_18 (hx : ∀ i, (V c main_arg0 : S16x256x64.Idx → EReal) i = a.x i)
    (hW1a : ∀ o k, (V c main_v0 : S32x64.Idx → EReal) (ix2 o k) = a.W1 (ix2 o (Cert.Spec.lo k)))
    (hW1b : ∀ o k, (V c main_v1 : S32x64.Idx → EReal) (ix2 o k) = a.W1 (ix2 o (Cert.Spec.hi k)))
    (hb1 : ∀ o, (V c main_v2 : S1x32.Idx → EReal) (ix2 (0 : Fin 1) o) = a.b1 (ix1 o))
    (hmean : ∀ o, (V c main_v13 : S1x32.Idx → EReal) (ix2 (0 : Fin 1) o) = Cert.Spec.mean1 a o)
    (hvar : ∀ o, (V c main_v19 : S1x32.Idx → EReal) (ix2 (0 : Fin 1) o) = Cert.Spec.var1 a o)
    (hg1 : ∀ o, (V c main_v3 : S1x32.Idx → EReal) (ix2 (0 : Fin 1) o) = a.g1 (ix1 o))
    (hbe1 : ∀ o, (V c main_v4 : S1x32.Idx → EReal) (ix2 (0 : Fin 1) o) = a.be1 (ix1 o))
    (hW2 : ∀ i, (V c main_arg5 : S32x32.Idx → EReal) i = a.W2 i)
    (hb2 : ∀ p, (V c main_v5 : S1x32.Idx → EReal) (ix2 (0 : Fin 1) p) = a.b2 (ix1 p))
    (hW3 : ∀ i, (V c main_arg7 : S2x32.Idx → EReal) i = a.W3 i)
    (hb3 : ∀ j, (V c main_v6 : S1x2.Idx → EReal) (ix2 (0 : Fin 1) j) = a.b3 (ix1 j))
    (hF1 : ∀ i, (V c main_arg9 : S16x128.Idx → EReal) i = a.F1 i)
    (hfb1 : ∀ q, (V c main_v7 : S1x16.Idx → EReal) (ix2 (0 : Fin 1) q) = a.fb1 (ix1 q))
    (q : Fin 16) :
    ((dat1 V c).arrAt 18 cfg1.N : S1x16.Idx → EReal) (ix2 (0 : Fin 1) q)
      = ∑ b : Fin 16, ∑ s : Fin 256, Cert.Spec.h2pre a b s q * Cert.Spec.h2pre a b s q := by
  have hN : cfg1.N = 64 := N_1
  have h63 : 63 < cfg1.N := by rw [hN]; omega
  have e := arr18_of c (dat1 V c) (acc18 V c 63 h63) (fun t ht => by
    obtain ⟨n, hn⟩ := t
    obtain rfl : n = 63 := ht
    rw [after1_18, outsAcc_eq])
  refine (congrFun e (ix2 (0 : Fin 1) q)).trans ?_
  show (acc18 V c 63 h63 : S1x16.Idx → EReal) (ix2 (0 : Fin 1) q) = _
  rw [acc18_apply V c q 63 h63, Cert.Lib.chain_eq_sum_fin _ 64 (by omega)]
  refine Eq.trans ?_ (Cert.Lib.sum_tiles_nodes fun b s => Cert.Spec.h2pre a b s q * Cert.Spec.h2pre a b s q)
  refine Finset.sum_congr rfl fun p _ => ?_
  have hp : p.val < cfg1.N := by rw [hN]; exact p.isLt
  beta_reduce
  rw [dif_pos hp]
  exact sqAt_apply V c a hx hW1a hW1b hb1 hmean hvar hg1 hbe1 hW2 hb2 hW3 hb3 hF1 hfb1 ⟨p.val, hp⟩ q

end Cert.KernelIdeal.Val1

end
-- ==== Proof.Pay2.lean ====
/-
  Region 2's payloads read at an index, on the extended reals.

  The body normalises a [256,16] block column by column (subtract the mean, multiply by the reciprocal square root of
  the variance plus eps, scale, shift), applies leaky ReLU, multiplies by the transpose of a [64,16] matrix and adds a
  bias row.  Read at (s, d) this is a sum over the 16 columns plus the bias at d.
-/
import proofs.«168503_j21964462751805_2_alg».proof.Proof.Gen.KernelIdeal.Skeleton
import proofs.«168503_j21964462751805_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen
open Idealize.ShloMosaic Idealize.ShloMosaic.ValueIdx

/-- The product of a [256,16] matrix with a [16,64] matrix into a zero accumulator, read at (s, d): the sum over the
    16 contracted coordinates of the products of the entries. -/
theorem matmul2_apply (A : FVec Ideal S256x16 .bf16) (B : FVec Ideal S16x64 .bf16) (s : Fin 256) (d : Fin 64) :
    matmul dot_S256x16_S16x64_S256x64_1_0_0_1_n_n none A B (constant (F := Ideal) S256x64 .f32 0x00000000#32) (ix2 s d)
      = ∑ q : Fin 16, A (ix2 s q) * B (ix2 q d) := by
  refine (Ideal.matmul_constant_zero_apply dot_S256x16_S16x64_S256x64_1_0_0_1_n_n none A B (ix2 s d)).trans ?_
  rw [← Equiv.sum_comp (contrEquiv1 dot_S256x16_S16x64_S256x64_1_0_0_1_n_n 16 rfl rfl).symm]
  refine Finset.sum_congr rfl fun q _ => ?_
  have cq := contrEquiv1_symm_val dot_S256x16_S16x64_S256x64_1_0_0_1_n_n 16 rfl rfl q
  have l2 : dot_S256x16_S16x64_S256x64_1_0_0_1_n_n.lhsIdx (ix2 s d)
      ((contrEquiv1 dot_S256x16_S16x64_S256x64_1_0_0_1_n_n 16 rfl rfl).symm q) = ix2 s q := by
    funext ax; apply Fin.ext
    match ax with
    | ⟨0, _⟩ => simp [DotDims.lhsIdx, dot_S256x16_S16x64_S256x64_1_0_0_1_n_n]; rfl
    | ⟨1, _⟩ => simp [DotDims.lhsIdx, dot_S256x16_S16x64_S256x64_1_0_0_1_n_n]; exact cq
  have r2 : dot_S256x16_S16x64_S256x64_1_0_0_1_n_n.rhsIdx (ix2 s d)
      ((contrEquiv1 dot_S256x16_S16x64_S256x64_1_0_0_1_n_n 16 rfl rfl).symm q) = ix2 q d := by
    funext ax; apply Fin.ext
    match ax with
    | ⟨0, _⟩ => simp [DotDims.rhsIdx, dot_S256x16_S16x64_S256x64_1_0_0_1_n_n]; exact cq
    | ⟨1, _⟩ => simp [DotDims.rhsIdx, dot_S256x16_S16x64_S256x64_1_0_0_1_n_n]; rfl
  rw [l2, r2]

/-- Leaky ReLU of a vector, read at an index. -/
theorem lrelu_vec_apply {S : Shape} (z : FVec Ideal S .f32) (i : S.Idx) :
    select (cmpf .oge z (broadcast S (Scalar.ofBits (F := Ideal) .f32 0x00000000#32))) z
        (mulf (broadcast S (Scalar.ofBits (F := Ideal) .f32 0x3C23D70A#32)) z) i
      = Cert.Spec.lrelu (z i) := rfl

/-- The normalised, scaled and shifted block before the activation: every [1,16] row is brought to [16] and back and
    broadcast over the 256 rows. -/
def pre2 (v0 : Vec Ideal S1x256x16 .f32) (v2 v4 v9 v11 : Vec Ideal S1x16 .f32) : FVec Ideal S256x16 .f32 :=
  addf (mulf (mulf
      (subf (shapeCast S256x16 v0 shapeCasts_S1x256x16_S256x16)
        (broadcastTo S256x16 (shapeCast S1x16 (shapeCast S16 v2 shapeCasts_S1x16_S16) shapeCasts_S16_S1x16) broadcasts_S1x16_S256x16))
      (broadcastTo S256x16 (shapeCast S1x16
        (rsqrt (addf (shapeCast S16 v4 shapeCasts_S1x16_S16) (broadcast S16 (Scalar.ofBits (F := Ideal) .f32 0x3727C5AC#32))))
        shapeCasts_S16_S1x16) broadcasts_S1x16_S256x16))
      (broadcastTo S256x16 (shapeCast S1x16 (shapeCast S16 v9 shapeCasts_S1x16_S16) shapeCasts_S16_S1x16) broadcasts_S1x16_S256x16))
    (broadcastTo S256x16 (shapeCast S1x16 (shapeCast S16 v11 shapeCasts_S1x16_S16) shapeCasts_S16_S1x16) broadcasts_S1x16_S256x16)

/-- A [1,16] row brought to [16], back to [1,16] and broadcast over 256 rows reads, at (s, q), the row at q. -/
theorem row_apply (v : Vec Ideal S1x16 .f32) (s : Fin 256) (q : Fin 16) :
    broadcastTo S256x16 (shapeCast S1x16 (shapeCast S16 v shapeCasts_S1x16_S16) shapeCasts_S16_S1x16) broadcasts_S1x16_S256x16 (ix2 s q)
      = v (ix2 (0 : Fin 1) q) := by
  rw [shapeCast_shapeCast]
  exact broadcastTo_1b_ab_apply v broadcasts_S1x16_S256x16 s q

/-- The block before the activation at (s, q). -/
theorem pre2_apply (v0 : Vec Ideal S1x256x16 .f32) (v2 v4 v9 v11 : Vec Ideal S1x16 .f32) (s : Fin 256) (q : Fin 16) :
    pre2 v0 v2 v4 v9 v11 (ix2 s q)
      = (((v0 (ix3 (0 : Fin 1) s q) - v2 (ix2 (0 : Fin 1) q)) * Ideal.rsqrt (v4 (ix2 (0 : Fin 1) q) + Cert.Spec.eps)) * v9 (ix2 (0 : Fin 1) q))
          + v11 (ix2 (0 : Fin 1) q) := by
  unfold pre2
  rw [addf_apply, mulf_apply, mulf_apply, subf_apply, row_apply, row_apply, row_apply,
    shapeCast_1ab_ab_apply v0 shapeCasts_S1x256x16_S256x16 s q,
    broadcastTo_1b_ab_apply _ broadcasts_S1x16_S256x16 s q,
    shapeCast_a_1a_apply _ shapeCasts_S16_S1x16 (0 : Fin 1) q]
  show _ * Ideal.rsqrt (shapeCast S16 v4 shapeCasts_S1x16_S16 (ix1 q) + Ideal.ofBits .f32 0x3727C5AC#32) * _ + _ = _
  rw [shapeCast_1a_a_apply v4 shapeCasts_S1x16_S16 q]
  rfl

/-- The payload is the product of the activated block with the transposed weights, plus the bias row. -/
theorem k2_pay2_eq (v0 : Vec Ideal S1x256x16 .f32) (v2 v4 v9 v11 : Vec Ideal S1x16 .f32) (v31 : Vec Ideal S64x16 .f32)
    (v35 : Vec Ideal S1x64 .f32) :
    Gen.k2_pay2 (F := Ideal) v0 v2 v4 v9 v11 v31 v35
      = addf (matmul dot_S256x16_S16x64_S256x64_1_0_0_1_n_n none
            (truncf .bf16 (select (cmpf .oge (pre2 v0 v2 v4 v9 v11) (broadcast S256x16 (Scalar.ofBits (F := Ideal) .f32 0x00000000#32)))
              (pre2 v0 v2 v4 v9 v11) (mulf (broadcast S256x16 (Scalar.ofBits (F := Ideal) .f32 0x3C23D70A#32)) (pre2 v0 v2 v4 v9 v11)))
              bitsLt_bf16_f32)
            (transpose S16x64 [1, 0] (truncf .bf16 v31 bitsLt_bf16_f32) transposes_S64x16_p1_0_S16x64)
            (constant (F := Ideal) S256x64 .f32 0x00000000#32))
          (broadcastTo S256x64 (shapeCast S1x64 (shapeCast S64 v35 shapeCasts_S1x64_S64) shapeCasts_S64_S1x64) broadcasts_S1x64_S256x64) := rfl

/-- THE PAYLOAD AT (s, d): the sum over the 16 columns of the activated entry times the weight, plus the bias. -/
theorem k2_pay2_apply (v0 : Vec Ideal S1x256x16 .f32) (v2 v4 v9 v11 : Vec Ideal S1x16 .f32) (v31 : Vec Ideal S64x16 .f32)
    (v35 : Vec Ideal S1x64 .f32) (s : Fin 256) (d : Fin 64) :
    Gen.k2_pay2 (F := Ideal) v0 v2 v4 v9 v11 v31 v35 (ix2 s d)
      = (∑ q : Fin 16, Cert.Spec.lrelu ((((v0 (ix3 (0 : Fin 1) s q) - v2 (ix2 (0 : Fin 1) q))
            * Ideal.rsqrt (v4 (ix2 (0 : Fin 1) q) + Cert.Spec.eps)) * v9 (ix2 (0 : Fin 1) q)) + v11 (ix2 (0 : Fin 1) q))
          * v31 (ix2 d q)) + v35 (ix2 (0 : Fin 1) d) := by
  rw [k2_pay2_eq, addf_apply, matmul2_apply]
  refine congrArg₂ (· + ·) (Finset.sum_congr rfl fun q _ => congrArg₂ (· * ·) ?_ ?_) ?_
  · rw [truncf_apply, lrelu_vec_apply, pre2_apply]
  · rw [transpose_ix2_apply _ transposes_S64x16_p1_0_S16x64 q d, truncf_apply]
  · rw [shapeCast_shapeCast]
    exact broadcastTo_1b_ab_apply v35 broadcasts_S1x64_S256x64 s d

/-- The stored block is the payload with a leading unit axis. -/
theorem k2_pay1_apply (v39 : FVec Ideal S256x64 .f32) (s : Fin 256) (d : Fin 64) :
    Gen.k2_pay1 (F := Ideal) v39 (ix3 (0 : Fin 1) s d) = v39 (ix2 s d) :=
  shapeCast_ab_1ab_apply v39 shapeCasts_S256x64_S1x256x64 (0 : Fin 1) s d

end Cert.KernelIdeal.PayValue

end
-- ==== Proof.Val2.lean ====
/-
  Region 2 at the level of arrays: what its output array holds after the region, index by index.

  The grid has 16 points; point t stages entry t of the [16,256,16] input (a [1,256,16] block) and the six whole
  parameter arrays, and writes back entry t of the [16,256,64] output.  The 16 output blocks tile the array, and what
  point t writes is block t of one whole-array function of the input arrays.
-/
import proofs.«168503_j21964462751805_2_alg».proof.Proof.K2Dat
import proofs.«168503_j21964462751805_2_alg».proof.Proof.Pay2
import Idealize.ShloMosaic.Lib.Pipeline.Value
import Idealize.ShloMosaic.Lib.ValueIdx

noncomputable section

open scoped BigOperators

namespace Cert.KernelIdeal.Val2

open Cert.KernelIdeal Cert.KernelIdeal.Gen Cert.KernelIdeal.Hand Cert.KernelIdeal.PayValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The batch entry a grid point works on. -/
def pb (t : Fin cfg2.N) : Fin 16 := ⟨t.val, lt_of_lt_of_eq t.isLt N_2⟩

/-- The printed index maps, decided over the 16 points: the blocked windows sit at entry t, the others at the origin. -/
theorem idx_facts : ∀ t : Fin cfg2.N,
    win2_0.index t (0 : Fin 3) = t.val ∧ win2_0.index t (1 : Fin 3) = 0 ∧ win2_0.index t (2 : Fin 3) = 0
    ∧ win2_7.index t (0 : Fin 3) = t.val ∧ win2_7.index t (1 : Fin 3) = 0 ∧ win2_7.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- The input block at point t is entry t of the [16,256,16] array. -/
theorem iblk2_0_apply (c : Dev nD) (t : Fin cfg2.N) (u : Fin 1) (s : Fin 256) (q : Fin 16) :
    (iblk2 V c 0 t : S1x256x16.Idx → EReal) (ix3 u s q) = V c main_v20_1 (ix3 (pb t) s q) := by
  obtain ⟨e0, e1, e2, -⟩ := idx_facts t
  unfold iblk2
  rw [View.read_apply]
  show V c main_v20_1 _ = V c main_v20_1 _
  congr 1
  funext a
  apply Fin.ext
  match a with
  | ⟨0, _⟩ => show win2_0.index t (0 : Fin 3) * 1 + 1 * u.val = t.val; have := u.isLt; omega
  | ⟨1, _⟩ => show win2_0.index t (1 : Fin 3) * 256 + 1 * s.val = s.val; omega
  | ⟨2, _⟩ => show win2_0.index t (2 : Fin 3) * 16 + 1 * q.val = q.val; omega

/-- The six parameter windows hold their whole arrays at every point. -/
theorem iblk2_1_eq (c : Dev nD) (t : Fin cfg2.N) : (iblk2 V c 1 t : S1x16.Idx → EReal) = V c main_v22 := by
  obtain ⟨-, -, -, -, -, -, e0, e1, -, -, -, -, -, -, -, -, -, -⟩ := idx_facts t
  funext j
  unfold iblk2
  rw [View.read_apply]
  show V c main_v22 _ = V c main_v22 _
  congr 1
  funext a
  apply Fin.ext
  match a with
  | ⟨0, _⟩ => show win2_1.index t (0 : Fin 2) * 1 + 1 * (j 0).val = (j 0).val; omega
  | ⟨1, _⟩ => show win2_1.index t (1 : Fin 2) * 16 + 1 * (j 1).val = (j 1).val; omega

theorem iblk2_2_eq (c : Dev nD) (t : Fin cfg2.N) : (iblk2 V c 2 t : S1x16.Idx → EReal) = V c main_v28 := by
  obtain ⟨-, -, -, -, -, -, -, -, e0, e1, -, -, -, -, -, -, -, -⟩ := idx_facts t
  funext j
  unfold iblk2
  rw [View.read_apply]
  show V c main_v28 _ = V c main_v28 _
  congr 1
  funext a
  apply Fin.ext
  match a with
  | ⟨0, _⟩ => show win2_2.index t (0 : Fin 2) * 1 + 1 * (j 0).val = (j 0).val; omega
  | ⟨1, _⟩ => show win2_2.index t (1 : Fin 2) * 16 + 1 * (j 1).val = (j 1).val; omega

theorem iblk2_3_eq (c : Dev nD) (t : Fin cfg2.N) : (iblk2 V c 3 t : S1x16.Idx → EReal) = V c main_v8 := by
  obtain ⟨-, -, -, -, -, -, -, -, -, -, e0, e1, -, -, -, -, -, -⟩ := idx_facts t
  funext j
  unfold iblk2
  rw [View.read_apply]
  show V c main_v8 _ = V c main_v8 _
  congr 1
  funext a
  apply Fin.ext
  match a with
  | ⟨0, _⟩ => show win2_3.index t (0 : Fin 2) * 1 + 1 * (j 0).val = (j 0).val; omega
  | ⟨1, _⟩ => show win2_3.index t (1 : Fin 2) * 16 + 1 * (j 1).val = (j 1).val; omega

theorem iblk2_4_eq (c : Dev nD) (t : Fin cfg2.N) : (iblk2 V c 4 t : S1x16.Idx → EReal) = V c main_v9 := by
  obtain ⟨-, -, -, -, -, -, -, -, -, -, -, -, e0, e1, -, -, -, -⟩ := idx_facts t
  funext j
  unfold iblk2
  rw [View.read_apply]
  show V c main_v9 _ = V c main_v9 _
  congr 1
  funext a
  apply Fin.ext
  match a with
  | ⟨0, _⟩ => show win2_4.index t (0 : Fin 2) * 1 + 1 * (j 0).val = (j 0).val; omega
  | ⟨1, _⟩ => show win2_4.index t (1 : Fin 2) * 16 + 1 * (j 1).val = (j 1).val; omega

theorem iblk2_5_eq (c : Dev nD) (t : Fin cfg2.N) : (iblk2 V c 5 t : S64x16.Idx → EReal) = V c main_arg13 := by
  obtain ⟨-, -, -, -, -, -, -, -, -, -, -, -, -, -, e0, e1, -, -⟩ := idx_facts t
  funext j
  unfold iblk2
  rw [View.read_apply]
  show V c main_arg13 _ = V c main_arg13 _
  congr 1
  funext a
  apply Fin.ext
  match a with
  | ⟨0, _⟩ => show win2_5.index t (0 : Fin 2) * 64 + 1 * (j 0).val = (j 0).val; omega
  | ⟨1, _⟩ => show win2_5.index t (1 : Fin 2) * 16 + 1 * (j 1).val = (j 1).val; omega

theorem iblk2_6_eq (c : Dev nD) (t : Fin cfg2.N) : (iblk2 V c 6 t : S1x64.Idx → EReal) = V c main_v10 := by
  obtain ⟨-, -, -, -, -, -, -, -, -, -, -, -, -, -, -, -, e0, e1⟩ := idx_facts t
  funext j
  unfold iblk2
  rw [View.read_apply]
  show V c main_v10 _ = V c main_v10 _
  congr 1
  funext a
  apply Fin.ext
  match a with
  | ⟨0, _⟩ => show win2_6.index t (0 : Fin 2) * 1 + 1 * (j 0).val = (j 0).val; omega
  | ⟨1, _⟩ => show win2_6.index t (1 : Fin 2) * 64 + 1 * (j 1).val = (j 1).val; omega

/-- The arrays region 2 finds, as functions of their indices on the extended reals: the node layer's pre-activation
    [16,256,16], its mean and variance rows, the scale and shift rows, the last layer's weights [64,16] and bias row. -/
abbrev inH (c : Dev nD) : S16x256x16.Idx → EReal := V c main_v20_1
abbrev inMean (c : Dev nD) : S1x16.Idx → EReal := V c main_v22
abbrev inVar (c : Dev nD) : S1x16.Idx → EReal := V c main_v28
abbrev inScale (c : Dev nD) : S1x16.Idx → EReal := V c main_v8
abbrev inShift (c : Dev nD) : S1x16.Idx → EReal := V c main_v9
abbrev inW (c : Dev nD) : S64x16.Idx → EReal := V c main_arg13
abbrev inBias (c : Dev nD) : S1x64.Idx → EReal := V c main_v10

/-- What the output array holds at (b, s, d), from the arrays the region finds. -/
def val2 (c : Dev nD) (b : Fin 16) (s : Fin 256) (d : Fin 64) : EReal :=
  (∑ q : Fin 16, Cert.Spec.lrelu ((((inH V c (ix3 b s q) - inMean V c (ix2 (0 : Fin 1) q))
        * Ideal.rsqrt (inVar V c (ix2 (0 : Fin 1) q) + Cert.Spec.eps)) * inScale V c (ix2 (0 : Fin 1) q)) + inShift V c (ix2 (0 : Fin 1) q))
      * inW V c (ix2 d q)) + inBias V c (ix2 (0 : Fin 1) d)

/-- The whole output array as one function of the input arrays. -/
def G2 (c : Dev nD) : S16x256x64.Idx → EReal := fun i =>
  val2 V c ⟨(i 0).val, (i 0).isLt⟩ ⟨(i 1).val, (i 1).isLt⟩ ⟨(i 2).val, (i 2).isLt⟩

/-- What the body leaves in the output's staging buffer, read at (0, s, d), from the staged blocks: the one store covers
    the buffer and every load reads a whole buffer. -/
theorem out2_7_apply (x0 : Vec Ideal S1x256x16 .f32) (x1 x2 x3 x4 : Vec Ideal S1x16 .f32) (x5 : Vec Ideal S64x16 .f32)
    (x6 : Vec Ideal S1x64 .f32) (s : Fin 256) (d : Fin 64) :
    (out2_7 x0 x1 x2 x3 x4 x5 x6 : S1x256x64.Idx → EReal) (ix3 (0 : Fin 1) s d)
      = (∑ q : Fin 16, Cert.Spec.lrelu ((((x0 (ix3 (0 : Fin 1) s q) - x1 (ix2 (0 : Fin 1) q))
            * Ideal.rsqrt (x2 (ix2 (0 : Fin 1) q) + Cert.Spec.eps)) * x3 (ix2 (0 : Fin 1) q)) + x4 (ix2 (0 : Fin 1) q))
          * x5 (ix2 d q)) + x6 (ix2 (0 : Fin 1) d) := by
  unfold out2_7
  rw [View.canon_unit_zero hz3]
  simp only [View.ld_unit_zero (S := S1x256x16) hz3, View.ld_unit_zero (S := S1x16) hz2, View.ld_unit_zero (S := S64x16) hz2,
    View.ld_unit_zero (S := S1x64) hz2]
  exact (k2_pay1_apply _ s d).trans (k2_pay2_apply x0 x1 x2 x3 x4 x5 x6 s d)

/-- What point t leaves in the output's staging buffer is entry t of the whole-array function. -/
theorem after7_apply (c : Dev nD) (t : Fin cfg2.N) (u : Fin 1) (s : Fin 256) (d : Fin 64) :
    ((dat2 V c).after 7 t : S1x256x64.Idx → EReal) (ix3 u s d) = G2 V c (ix3 (pb t) s d) := by
  obtain rfl : u = 0 := Fin.ext (by have := u.isLt; omega)
  rw [after2_7]
  refine (out2_7_apply (iblk2 V c 0 t) (iblk2 V c 1 t) (iblk2 V c 2 t) (iblk2 V c 3 t) (iblk2 V c 4 t) (iblk2 V c 5 t)
    (iblk2 V c 6 t) s d).trans ?_
  show _ = val2 V c (pb t) s d
  unfold val2
  refine congrArg₂ (· + ·) (Finset.sum_congr rfl fun q _ => ?_) ?_
  · rw [iblk2_0_apply V c t 0 s q, iblk2_1_eq V c t, iblk2_2_eq V c t, iblk2_3_eq V c t, iblk2_4_eq V c t, iblk2_5_eq V c t]
  · rw [iblk2_6_eq V c t]

/-- A staging buffer's contents cut to the transfer are block t of a whole-array function G when they are G's values
    at entry t. -/
theorem cut7_eq (c : Dev nD) (t : Fin cfg2.N) (X : S1x256x64.Idx → EReal) (G : S16x256x64.Idx → EReal)
    (h : ∀ (u : Fin 1) (s : Fin 256) (d : Fin 64), X (ix3 u s d) = G (ix3 (pb t) s d)) :
    (cfg2.win 7).cut (grid2.coords t) X = ((cfg2.win 7).blk t).view.read (Elt Ideal) G := by
  funext y
  obtain ⟨-, -, -, f0, f1, f2, -⟩ := idx_facts t
  refine ((congrArg X (eq_ix3 (y : S1x256x64.Idx))).trans (h _ _ _)).trans (congrArg G ?_)
  funext a
  apply Fin.ext
  have h0 : ((y : S1x256x64.Idx) 0).val = 0 := by
    have h1 : ((y : S1x256x64.Idx) 0).val < 1 := ((y : S1x256x64.Idx) 0).isLt
    omega
  match a with
  | ⟨0, _⟩ => show t.val = win2_7.index t (0 : Fin 3) * 1 + 1 * ((y : S1x256x64.Idx) 0).val; rw [f0, h0]; omega
  | ⟨1, _⟩ => show ((y : S1x256x64.Idx) 1).val = win2_7.index t (1 : Fin 3) * 256 + 1 * ((y : S1x256x64.Idx) 1).val; rw [f1]; omega
  | ⟨2, _⟩ => show ((y : S1x256x64.Idx) 2).val = win2_7.index t (2 : Fin 3) * 64 + 1 * ((y : S1x256x64.Idx) 2).val; rw [f2]; omega

/-- What point t writes back is block t of the whole-array function. -/
theorem flushed7_eq (c : Dev nD) (t : Fin cfg2.N) :
    (dat2 V c).flushed 7 t = ((cfg2.win 7).blk t).view.read (Elt Ideal) (G2 V c) := by
  show (cfg2.win 7).cut (grid2.coords t) ((dat2 V c).after 7 t) = _
  exact cut7_eq c t _ _ (after7_apply V c t)

/-- An index of the output array is in point t's block iff each coordinate is in the block's range on its axis. -/
theorem mem_blk7 (t : Fin cfg2.N) (i : S16x256x64.Idx) :
    i ∈ ((cfg2.win 7).blk t).view.set ↔ ∀ a : Fin 3, win2_7.index t a * S1x256x64.size a ≤ (i a).val
      ∧ (i a).val < win2_7.index t a * S1x256x64.size a + S1x256x64.size a := by
  show i ∈ ((View.whole main_v29).slice (win2_7.rect t)).set ↔ _
  rw [View.set_slice_whole, Rect.mem_set_unit]
  exact Iff.rfl

/-- The output array after the region: the point that covers entry b is point b, and the 16 blocks tile the array. -/
theorem arr7_eq (c : Dev nD) : ((dat2 V c).arrAt 7 cfg2.N : S16x256x64.Idx → EReal) = G2 V c :=
  (dat2 V c).arrAt_eq_of_cover 7 (G2 V c) (fun t _ => flushed7_eq V c t) fun i => by
    have hi0 : (i 0).val < 16 := (i 0).isLt
    have hi1 : (i 1).val < 256 := (i 1).isLt
    have hi2 : (i 2).val < 64 := (i 2).isLt
    have hN : cfg2.N = 16 := N_2
    refine ⟨⟨(i 0).val, by rw [hN]; exact hi0⟩, flush2_7 _, ?_⟩
    rw [mem_blk7]
    obtain ⟨-, -, -, f0, f1, f2, -⟩ := idx_facts ⟨(i 0).val, by rw [hN]; exact hi0⟩
    intro a
    match a with
    | ⟨0, _⟩ => show win2_7.index _ (0 : Fin 3) * 1 ≤ (i 0).val ∧ (i 0).val < win2_7.index _ (0 : Fin 3) * 1 + 1; rw [f0]; dsimp only; omega
    | ⟨1, _⟩ => show win2_7.index _ (1 : Fin 3) * 256 ≤ (i 1).val ∧ (i 1).val < win2_7.index _ (1 : Fin 3) * 256 + 256; rw [f1]; omega
    | ⟨2, _⟩ => show win2_7.index _ (2 : Fin 3) * 64 ≤ (i 2).val ∧ (i 2).val < win2_7.index _ (2 : Fin 3) * 64 + 64; rw [f2]; omega

/-- THE ARRAY-LEVEL VALUE of region 2: entry (b, s, d) of the output array after the region. -/
theorem final2 (c : Dev nD) (b : Fin 16) (s : Fin 256) (d : Fin 64) :
    ((dat2 V c).arrAt 7 cfg2.N : S16x256x64.Idx → EReal) (ix3 b s d)
      = (∑ q : Fin 16, Cert.Spec.lrelu ((((inH V c (ix3 b s q) - inMean V c (ix2 (0 : Fin 1) q))
        * Ideal.rsqrt (inVar V c (ix2 (0 : Fin 1) q) + Cert.Spec.eps)) * inScale V c (ix2 (0 : Fin 1) q)) + inShift V c (ix2 (0 : Fin 1) q))
      * inW V c (ix2 d q)) + inBias V c (ix2 (0 : Fin 1) d) :=
  (congrFun (arr7_eq V c) (ix3 b s d)).trans rfl

end Cert.KernelIdeal.Val2

end
-- ==== Proof.KValue.lean ====
/-
  The kernel program's run with its two results named in the specification's terms.

  The frame run leaves each result at the last buffer contents of the fold over @main's items; the chain through the
  three regions and the host stretches identifies those contents with the specification, given real inputs.
-/
import proofs.«168503_j21964462751805_2_alg».proof.Proof.KRun
import proofs.«168503_j21964462751805_2_alg».proof.Proof.KChain
import proofs.«168503_j21964462751805_2_alg».proof.Proof.Val0
import proofs.«168503_j21964462751805_2_alg».proof.Proof.Val1Final
import proofs.«168503_j21964462751805_2_alg».proof.Proof.Val2

noncomputable section

open scoped BigOperators

namespace Cert.KernelIdeal.KValue

open Idealize.ShloMosaic Idealize.ShloMosaic.TcCoe Idealize.ShloMosaic.ValueIdx Idealize.SL.Sem
open Cert.KernelIdeal Cert.KernelIdeal.Hand Cert.KernelIdeal.KArgs Cert.KernelIdeal.KChain

/-- The first region's arrays. -/
theorem F0 : Final0 := fun V c o =>
  ⟨(Cert.KernelIdeal.Val0.final0_5 V c o).trans rfl, (Cert.KernelIdeal.Val0.final0_6 V c o).trans rfl⟩

/-- The second region's arrays. -/
theorem F1 : Final1 := fun V c a h =>
  ⟨fun b s t => Cert.KernelIdeal.Val1.final1_15 V c a h.hx h.hW1a h.hW1b h.hb1 h.hmean h.hvar h.hg1 h.hbe1 h.hW2 h.hb2 h.hW3 h.hb3 h.hF1 h.hfb1 b s t,
   fun b s q => Cert.KernelIdeal.Val1.final1_16 V c a h.hx h.hW1a h.hW1b h.hb1 h.hmean h.hvar h.hg1 h.hbe1 h.hW2 h.hb2 h.hW3 h.hb3 h.hF1 h.hfb1 b s q,
   fun q => Cert.KernelIdeal.Val1.final1_17 V c a h.hx h.hW1a h.hW1b h.hb1 h.hmean h.hvar h.hg1 h.hbe1 h.hW2 h.hb2 h.hW3 h.hb3 h.hF1 h.hfb1 q,
   fun q => Cert.KernelIdeal.Val1.final1_18 V c a h.hx h.hW1a h.hW1b h.hb1 h.hmean h.hvar h.hg1 h.hbe1 h.hW2 h.hb2 h.hW3 h.hb3 h.hF1 h.hfb1 q⟩

/-- The third region's array. -/
theorem F2 : Final2 := fun V c b s d => (Cert.KernelIdeal.Val2.final2 V c b s d).trans rfl

/-- THE RUN: on real inputs every weakly fair execution of the kernel program at the exact reading terminates with its
    two results at the specification's values and its arguments unchanged. -/
theorem run (m : (ℓ : Loc nD τ sig) → Buf (Elt Ideal) ℓ) (ρ : Dev nD → PrngReg) (hfin : ∀ c : Dev nD, (argsOf m c).Finite) :
    θ_run (defs (F := Ideal)) (onTc (τ := τ) (main (F := Ideal))) ⟨m, fun _ => 0, ρ⟩ (fun r => ∀ c : Dev nD,
      r.2.mem ((c.tc : Thread nD τ).loc main_v30) = Cert.Spec.edgesOut (argsOf m c)
      ∧ r.2.mem ((c.tc : Thread nD τ).loc main_v29) = Cert.Spec.predOut (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (defs (F := Ideal)) _ _).mono (fun r h c =>
    ⟨(h c).1.trans (edges_eq m c F0 F1 F2 (hfin c)), (h c).2.1.trans (pred_eq m c F0 F1 F2 (hfin c)), (h c).2.2⟩)
    (Cert.KernelIdeal.Hand.run_values (F := Ideal) m ρ)

end Cert.KernelIdeal.KValue

end
-- ==== Proof.PreFinite.lean ====
/-
  The precondition read back: every entry of every argument array is a real number.

  The precondition is the conjunction, over the fifteen argument arrays, of the test "every entry x of the array has
  |x| < +inf".  On the extended reals |x| is max x (-x) and the word 0x7F800000 denotes the top element, so the test at
  one entry says max x (-x) < ⊤: x is neither infinity, hence the image of a real number.  A conjunction over all entries
  that comes out true was true at every entry.
-/
import Idealize.ShloMosaic.Lib.ReduceAll
import proofs.«168503_j21964462751805_2_alg».proof.Defs
import proofs.«168503_j21964462751805_2_alg».proof.Proof.KArgs
import proofs.«168503_j21964462751805_2_alg».proof.Proof.SpecReal

noncomputable section

namespace Cert.KernelIdeal.PreFinite

open Idealize.ShloMosaic Cert.Lib Cert.Pre_finite_inputs

/-- The shape of no axes has one index. -/
instance : Subsingleton S_.Idx := ⟨fun a b => funext fun d => d.elim0⟩

/-- The word `0x7F800000` denotes the top element. -/
theorem inf_eq_top : Ideal.ofBits .f32 0x7F800000#32 = (⊤ : EReal) := by
  simp [Ideal.ofBits, Ideal.ieee]

/-- An entry whose test `|x| < +inf` is true is a real number. -/
theorem isReal_of_test {x : EReal}
    (h : Ideal.cmp .olt (max x (-x)) (Ideal.ofBits .f32 0x7F800000#32) = 1#1) : IsReal x := by
  rw [inf_eq_top] at h
  have hb : ∀ b : Bool, BitVec.ofBool b = 1#1 → b = true := by decide
  have hlt : max x (-x) < ⊤ := of_decide_eq_true (hb _ h)
  refine isReal_of_ne ?_ ?_
  · rintro rfl; simp at hlt
  · rintro rfl; simp at hlt

/-- An array whose test "all entries have `|x| < +inf`" is true holds real numbers only. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ValueIdx.ix0 = 1#1) (i : s.Idx) : IsReal (x i) := by
  have e := Host.reduce_andi_all _ _ hr hu _ h i
  exact isReal_of_test e

/-- The precondition makes every entry of every argument array of every core a real number. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.KArgs.argsOf m c).Finite := by
  have h0 := congrFun (h c) ValueIdx.ix0
  dsimp only [fn, fn_part1, fn_part2, fn_part3, fn_part4] at h0
  simp only [andi, IntOp.andi_eq_one] at h0
  obtain ⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩ := h0
  exact
    { x   := all_real _ _ _ _ e0
      W1  := all_real _ _ _ _ e1
      b1  := all_real _ _ _ _ e2
      g1  := all_real _ _ _ _ e3
      be1 := all_real _ _ _ _ e4
      W2  := all_real _ _ _ _ e5
      b2  := all_real _ _ _ _ e6
      W3  := all_real _ _ _ _ e7
      b3  := all_real _ _ _ _ e8
      F1  := all_real _ _ _ _ e9
      fb1 := all_real _ _ _ _ e10
      fg  := all_real _ _ _ _ e11
      fbb := all_real _ _ _ _ e12
      F2  := all_real _ _ _ _ e13
      fb2 := all_real _ _ _ _ e14 }

end Cert.KernelIdeal.PreFinite

end
-- ==== Proof.RefRunOps.lean ====
/-
  The reference program's @main as a straight line of host operations.  The program is printed in three windows of
  statements; each window's operations are listed in order, the three calls of the leaky ReLU replaced by the seven
  operations of the called function's body (a constant zero, its broadcast, the comparison with it, the slope's
  conversion and broadcast, the product, and the nested select) over the buffers of that call.  The whole line is the
  concatenation of the three lists, and @main is the sequence of its operations: each window is the sequence of its own
  list (the called functions' bodies unfolded and the sequencing re-associated), and sequences run one after the other are
  the sequence of the concatenation.
-/
import proofs.«168503_j21964462751805_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The host operations of the program's window `main_part0`, in order: the first sixty operations of @main. -/
abbrev ops0 : List (HloOp τ sig (Elt F)) :=
  [ StableHlo.nullary main_v0 (iotaInDim S256 32 0),
    StableHlo.unary main_v0 main_v1 (broadcastInDim S256x256 ![0] bcast_S256_S256x256_0 : (⟨S256, .i32⟩ : BufTy).Contents (Elt F) → (⟨S256x256, .i32⟩ : BufTy).Contents (Elt F)),
    StableHlo.reshape main_v1 main_v2 rfl shapeCasts_S256x256_S65536,
    StableHlo.nullary main_v3 (iotaInDim S256 32 0),
    StableHlo.reshape main_v3 main_v4 rfl shapeCasts_S256_S1x256,
    StableHlo.unary main_v4 main_v5 (broadcastInDim S256x256 ![0, 1] bcast_S1x256_S256x256_0_1 : (⟨S1x256, .i32⟩ : BufTy).Contents (Elt F) → (⟨S256x256, .i32⟩ : BufTy).Contents (Elt F)),
    StableHlo.reshape main_v5 main_v6 rfl shapeCasts_S256x256_S65536,
    StableHlo.nullary main_c (constantI S_ 32 0#32),
    StableHlo.unary main_c main_v7 (broadcastInDim S65536 ![] bcast_S_S65536 : (⟨S_, .i32⟩ : BufTy).Contents (Elt F) → (⟨S65536, .i32⟩ : BufTy).Contents (Elt F)),
    StableHlo.binary main_v2 main_v7 main_v8 (cmpi .slt : (⟨S65536, .i32⟩ : BufTy).Contents (Elt F) → (⟨S65536, .i32⟩ : BufTy).Contents (Elt F) → (⟨S65536, .i1⟩ : BufTy).Contents (Elt F)),
    StableHlo.nullary main_c_0 (constantI S_ 32 256#32),
    StableHlo.unary main_c_0 main_v9 (broadcastInDim S65536 ![] bcast_S_S65536 : (⟨S_, .i32⟩ : BufTy).Contents (Elt F) → (⟨S65536, .i32⟩ : BufTy).Contents (Elt F)),
    StableHlo.binary main_v2 main_v9 main_v10 (addi : (⟨S65536, .i32⟩ : BufTy).Contents (Elt F) → (⟨S65536, .i32⟩ : BufTy).Contents (Elt F) → (⟨S65536, .i32⟩ : BufTy).Contents (Elt F)),
    StableHlo.ternary main_v8 main_v10 main_v2 main_v11 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v11 main_v12 (broadcastInDim S65536x1 ![0] bcast_S65536_S65536x1_0 : (⟨S65536, .i32⟩ : BufTy).Contents (Elt F) → (⟨S65536x1, .i32⟩ : BufTy).Contents (Elt F)),
    StableHlo.binary main_arg0 main_v12 main_v13 ((fun x i => Host.gather gather_S16x256x64_S65536x1_S16x65536x64_02_1_n_n_1_1_16164 x i) : (⟨S16x256x64, .f32⟩ : BufTy).Contents (Elt F) → (⟨S65536x1, .i32⟩ : BufTy).Contents (Elt F) → (⟨S16x65536x64, .f32⟩ : BufTy).Contents (Elt F)),
    StableHlo.nullary main_c_1 (constantI S_ 32 0#32),
    StableHlo.unary main_c_1 main_v14 (broadcastInDim S65536 ![] bcast_S_S65536 : (⟨S_, .i32⟩ : BufTy).Contents (Elt F) → (⟨S65536, .i32⟩ : BufTy).Contents (Elt F)),
    StableHlo.binary main_v6 main_v14 main_v15 (cmpi .slt : (⟨S65536, .i32⟩ : BufTy).Contents (Elt F) → (⟨S65536, .i32⟩ : BufTy).Contents (Elt F) → (⟨S65536, .i1⟩ : BufTy).Contents (Elt F)),
    StableHlo.nullary main_c_2 (constantI S_ 32 256#32),
    StableHlo.unary main_c_2 main_v16 (broadcastInDim S65536 ![] bcast_S_S65536 : (⟨S_, .i32⟩ : BufTy).Contents (Elt F) → (⟨S65536, .i32⟩ : BufTy).Contents (Elt F)),
    StableHlo.binary main_v6 main_v16 main_v17 (addi : (⟨S65536, .i32⟩ : BufTy).Contents (Elt F) → (⟨S65536, .i32⟩ : BufTy).Contents (Elt F) → (⟨S65536, .i32⟩ : BufTy).Contents (Elt F)),
    StableHlo.ternary main_v15 main_v17 main_v6 main_v18 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v18 main_v19 (broadcastInDim S65536x1 ![0] bcast_S65536_S65536x1_0 : (⟨S65536, .i32⟩ : BufTy).Contents (Elt F) → (⟨S65536x1, .i32⟩ : BufTy).Contents (Elt F)),
    StableHlo.binary main_arg0 main_v19 main_v20 ((fun x i => Host.gather gather_S16x256x64_S65536x1_S16x65536x64_02_1_n_n_1_1_16164 x i) : (⟨S16x256x64, .f32⟩ : BufTy).Contents (Elt F) → (⟨S65536x1, .i32⟩ : BufTy).Contents (Elt F) → (⟨S16x65536x64, .f32⟩ : BufTy).Contents (Elt F)),
    StableHlo.binary main_v13 main_v20 main_v21 ((fun a b => concatenate S16x65536x128 2 [⟨S16x65536x64, a⟩, ⟨S16x65536x64, b⟩] concatenates_S16x65536x64_S16x65536x64_S16x65536x128_d2) : (⟨S16x65536x64, .f32⟩ : BufTy).Contents (Elt F) → (⟨S16x65536x64, .f32⟩ : BufTy).Contents (Elt F) → (⟨S16x65536x128, .f32⟩ : BufTy).Contents (Elt F)),
    StableHlo.reshape main_v21 main_v22 rfl shapeCasts_S16x65536x128_S1048576x128,
    StableHlo.unary main_arg1 main_v23 ((transpose S128x32 [1, 0] · transposes_S32x128_S128x32_1_0) : (⟨S32x128, .f32⟩ : BufTy).Contents (Elt F) → (⟨S128x32, .f32⟩ : BufTy).Contents (Elt F)),
    StableHlo.binary main_v22 main_v23 main_v24 ((fun l r => Host.dotGeneral dot_S1048576x128_S128x32_S1048576x32_1_0_0_1_n_n none l r) : (⟨S1048576x128, .f32⟩ : BufTy).Contents (Elt F) → (⟨S128x32, .f32⟩ : BufTy).Contents (Elt F) → (⟨S1048576x32, .f32⟩ : BufTy).Contents (Elt F)),
    StableHlo.unary main_arg2 main_v25 (broadcastInDim S1x32 ![1] bcast_S32_S1x32_1 : (⟨S32, .f32⟩ : BufTy).Contents (Elt F) → (⟨S1x32, .f32⟩ : BufTy).Contents (Elt F)),
    StableHlo.unary main_v25 main_v26 (broadcastInDim S1048576x32 ![0, 1] bcast_S1x32_S1048576x32_0_1 : (⟨S1x32, .f32⟩ : BufTy).Contents (Elt F) → (⟨S1048576x32, .f32⟩ : BufTy).Contents (Elt F)),
    StableHlo.binary main_v24 main_v26 main_v27 (addf : (⟨S1048576x32, .f32⟩ : BufTy).Contents (Elt F) → (⟨S1048576x32, .f32⟩ : BufTy).Contents (Elt F) → (⟨S1048576x32, .f32⟩ : BufTy).Contents (Elt F)),
    StableHlo.nullary main_cst (constant S_ .f32 0x00000000#32),
    StableHlo.binary main_v27 main_cst main_v28 ((fun x v => Host.reduceAdd x v reducesTo_S1048576x32_S32_d0 h_S_) : (⟨S1048576x32, .f32⟩ : BufTy).Contents (Elt F) → (⟨S_, .f32⟩ : BufTy).Contents (Elt F) → (⟨S32, .f32⟩ : BufTy).Contents (Elt F)),
    StableHlo.nullary main_cst_3 (constant S_ .f32 0x49800000#32),
    StableHlo.unary main_cst_3 main_v29 (broadcastInDim S32 ![] bcast_S_S32 : (⟨S_, .f32⟩ : BufTy).Contents (Elt F) → (⟨S32, .f32⟩ : BufTy).Contents (Elt F)),
    StableHlo.binary main_v28 main_v29 main_v30 (Host.divf : (⟨S32, .f32⟩ : BufTy).Contents (Elt F) → (⟨S32, .f32⟩ : BufTy).Contents (Elt F) → (⟨S32, .f32⟩ : BufTy).Contents (Elt F)),
    StableHlo.unary main_v30 main_v31 (broadcastInDim S1x32 ![1] bcast_S32_S1x32_1 : (⟨S32, .f32⟩ : BufTy).Contents (Elt F) → (⟨S1x32, .f32⟩ : BufTy).Contents (Elt F)),
    StableHlo.unary main_v31 main_v32 (broadcastInDim S1048576x32 ![0, 1] bcast_S1x32_S1048576x32_0_1 : (⟨S1x32, .f32⟩ : BufTy).Contents (Elt F) → (⟨S1048576x32, .f32⟩ : BufTy).Contents (Elt F)),
    StableHlo.binary main_v27 main_v32 main_v33 (subf : (⟨S1048576x32, .f32⟩ : BufTy).Contents (Elt F) → (⟨S1048576x32, .f32⟩ : BufTy).Contents (Elt F) → (⟨S1048576x32, .f32⟩ : BufTy).Contents (Elt F)),
    StableHlo.binary main_v33 main_v33 main_v34 (mulf : (⟨S1048576x32, .f32⟩ : BufTy).Contents (Elt F) → (⟨S1048576x32, .f32⟩ : BufTy).Contents (Elt F) → (⟨S1048576x32, .f32⟩ : BufTy).Contents (Elt F)),
    StableHlo.nullary main_cst_4 (constant S_ .f32 0x00000000#32),
    StableHlo.binary main_v34 main_cst_4 main_v35 ((fun x v => Host.reduceAdd x v reducesTo_S1048576x32_S32_d0 h_S_) : (⟨S1048576x32, .f32⟩ : BufTy).Contents (Elt F) → (⟨S_, .f32⟩ : BufTy).Contents (Elt F) → (⟨S32, .f32⟩ : BufTy).Contents (Elt F)),
    StableHlo.nullary main_cst_5 (constant S_ .f32 0x49800000#32),
    StableHlo.unary main_cst_5 main_v36 (broadcastInDim S32 ![] bcast_S_S32 : (⟨S_, .f32⟩ : BufTy).Contents (Elt F) → (⟨S32, .f32⟩ : BufTy).Contents (Elt F)),
    StableHlo.binary main_v35 main_v36 main_v37 (Host.divf : (⟨S32, .f32⟩ : BufTy).Contents (Elt F) → (⟨S32, .f32⟩ : BufTy).Contents (Elt F) → (⟨S32, .f32⟩ : BufTy).Contents (Elt F)),
    StableHlo.unary main_v30 main_v38 (broadcastInDim S1x32 ![1] bcast_S32_S1x32_1 : (⟨S32, .f32⟩ : BufTy).Contents (Elt F) → (⟨S1x32, .f32⟩ : BufTy).Contents (Elt F)),
    StableHlo.unary main_v38 main_v39 (broadcastInDim S1048576x32 ![0, 1] bcast_S1x32_S1048576x32_0_1 : (⟨S1x32, .f32⟩ : BufTy).Contents (Elt F) → (⟨S1048576x32, .f32⟩ : BufTy).Contents (Elt F)),
    StableHlo.binary main_v27 main_v39 main_v40 (subf : (⟨S1048576x32, .f32⟩ : BufTy).Contents (Elt F) → (⟨S1048576x32, .f32⟩ : BufTy).Contents (Elt F) → (⟨S1048576x32, .f32⟩ : BufTy).Contents (Elt F)),
    StableHlo.nullary main_cst_6 (constant S_ .f32 0x3727C5AC#32),
    StableHlo.unary main_cst_6 main_v41 (broadcastInDim S32 ![] bcast_S_S32 : (⟨S_, .f32⟩ : BufTy).Contents (Elt F) → (⟨S32, .f32⟩ : BufTy).Contents (Elt F)),
    StableHlo.binary main_v37 main_v41 main_v42 (addf : (⟨S32, .f32⟩ : BufTy).Contents (Elt F) → (⟨S32, .f32⟩ : BufTy).Contents (Elt F) → (⟨S32, .f32⟩ : BufTy).Contents (Elt F)),
    StableHlo.unary main_v42 main_v43 (Host.rsqrt : (⟨S32, .f32⟩ : BufTy).Contents (Elt F) → (⟨S32, .f32⟩ : BufTy).Contents (Elt F)),
    StableHlo.unary main_v43 main_v44 (broadcastInDim S1x32 ![1] bcast_S32_S1x32_1 : (⟨S32, .f32⟩ : BufTy).Contents (Elt F) → (⟨S1x32, .f32⟩ : BufTy).Contents (Elt F)),
    StableHlo.unary main_v44 main_v45 (broadcastInDim S1048576x32 ![0, 1] bcast_S1x32_S1048576x32_0_1 : (⟨S1x32, .f32⟩ : BufTy).Contents (Elt F) → (⟨S1048576x32, .f32⟩ : BufTy).Contents (Elt F)),
    StableHlo.binary main_v40 main_v45 main_v46 (mulf : (⟨S1048576x32, .f32⟩ : BufTy).Contents (Elt F) → (⟨S1048576x32, .f32⟩ : BufTy).Contents (Elt F) → (⟨S1048576x32, .f32⟩ : BufTy).Contents (Elt F)),
    StableHlo.unary main_arg3 main_v47 (broadcastInDim S1x32 ![1] bcast_S32_S1x32_1 : (⟨S32, .f32⟩ : BufTy).Contents (Elt F) → (⟨S1x32, .f32⟩ : BufTy).Contents (Elt F)),
    StableHlo.unary main_v47 main_v48 (broadcastInDim S1048576x32 ![0, 1] bcast_S1x32_S1048576x32_0_1 : (⟨S1x32, .f32⟩ : BufTy).Contents (Elt F) → (⟨S1048576x32, .f32⟩ : BufTy).Contents (Elt F)),
    StableHlo.binary main_v46 main_v48 main_v49 (mulf : (⟨S1048576x32, .f32⟩ : BufTy).Contents (Elt F) → (⟨S1048576x32, .f32⟩ : BufTy).Contents (Elt F) → (⟨S1048576x32, .f32⟩ : BufTy).Contents (Elt F)),
    StableHlo.unary main_arg4 main_v50 (broadcastInDim S1x32 ![1] bcast_S32_S1x32_1 : (⟨S32, .f32⟩ : BufTy).Contents (Elt F) → (⟨S1x32, .f32⟩ : BufTy).Contents (Elt F)) ]

/-- The host operations of the program's window `main_part1`, in order: operations 61 … 132 of @main: its statements 61 … 120, the two calls of @leaky_relu each replaced by the seven operations of its body (the nested @_where's select last) over that call's buffers. -/
abbrev ops1 : List (HloOp τ sig (Elt F)) :=
  [ StableHlo.unary main_v50 main_v51 (broadcastInDim S1048576x32 ![0, 1] bcast_S1x32_S1048576x32_0_1 : (⟨S1x32, .f32⟩ : BufTy).Contents (Elt F) → (⟨S1048576x32, .f32⟩ : BufTy).Contents (Elt F)),
    StableHlo.binary main_v49 main_v51 main_v52 (addf : (⟨S1048576x32, .f32⟩ : BufTy).Contents (Elt F) → (⟨S1048576x32, .f32⟩ : BufTy).Contents (Elt F) → (⟨S1048576x32, .f32⟩ : BufTy).Contents (Elt F)),
    StableHlo.nullary main_cst_7 (constant S_ .f32 0x3C23D70A#32),
    StableHlo.TRef.nullary main_call0.cst (constant S_ .f32 0x00000000#32),
    StableHlo.TRef.unary main_call0.cst main_call0.v0 (broadcastInDim S1048576x32 ![] bcast_S_S1048576x32),
    StableHlo.TRef.binary (StableHlo.TRef.of main_v52 : StableHlo.TRef sig ⟨S1048576x32, .f32⟩) main_call0.v0 main_call0.v1 (cmpf .oge),
    StableHlo.TRef.unary (StableHlo.TRef.of main_cst_7 : StableHlo.TRef sig ⟨S_, .f32⟩) main_call0.v2 id,
    StableHlo.TRef.unary main_call0.v2 main_call0.v3 (broadcastInDim S1048576x32 ![] bcast_S_S1048576x32),
    StableHlo.TRef.binary main_call0.v3 (StableHlo.TRef.of main_v52 : StableHlo.TRef sig ⟨S1048576x32, .f32⟩) main_call0.v4 mulf,
    StableHlo.TRef.ternary main_call0.v1 (StableHlo.TRef.of main_v52 : StableHlo.TRef sig ⟨S1048576x32, .f32⟩) main_call0.v4 main_call0.call0.v0 select,
    StableHlo.unary main_arg5 main_v54 ((transpose S32x32 [1, 0] · transposes_S32x32_S32x32_1_0) : (⟨S32x32, .f32⟩ : BufTy).Contents (Elt F) → (⟨S32x32, .f32⟩ : BufTy).Contents (Elt F)),
    StableHlo.binary main_v53 main_v54 main_v55 ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F)),
    StableHlo.unary main_arg6 main_v56 (broadcastInDim S1x32 ![1] bcast_S32_S1x32_1 : (⟨S32, .f32⟩ : BufTy).Contents (Elt F) → (⟨S1x32, .f32⟩ : BufTy).Contents (Elt F)),
    StableHlo.unary main_v56 main_v57 (broadcastInDim S1048576x32 ![0, 1] bcast_S1x32_S1048576x32_0_1 : (⟨S1x32, .f32⟩ : BufTy).Contents (Elt F) → (⟨S1048576x32, .f32⟩ : BufTy).Contents (Elt F)),
    StableHlo.binary main_v55 main_v57 main_v58 (addf : (⟨S1048576x32, .f32⟩ : BufTy).Contents (Elt F) → (⟨S1048576x32, .f32⟩ : BufTy).Contents (Elt F) → (⟨S1048576x32, .f32⟩ : BufTy).Contents (Elt F)),
    StableHlo.nullary main_cst_8 (constant S_ .f32 0x3C23D70A#32),
    StableHlo.TRef.nullary main_call1.cst (constant S_ .f32 0x00000000#32),
    StableHlo.TRef.unary main_call1.cst main_call1.v0 (broadcastInDim S1048576x32 ![] bcast_S_S1048576x32),
    StableHlo.TRef.binary (StableHlo.TRef.of main_v58 : StableHlo.TRef sig ⟨S1048576x32, .f32⟩) main_call1.v0 main_call1.v1 (cmpf .oge),
    StableHlo.TRef.unary (StableHlo.TRef.of main_cst_8 : StableHlo.TRef sig ⟨S_, .f32⟩) main_call1.v2 id,
    StableHlo.TRef.unary main_call1.v2 main_call1.v3 (broadcastInDim S1048576x32 ![] bcast_S_S1048576x32),
    StableHlo.TRef.binary main_call1.v3 (StableHlo.TRef.of main_v58 : StableHlo.TRef sig ⟨S1048576x32, .f32⟩) main_call1.v4 mulf,
    StableHlo.TRef.ternary main_call1.v1 (StableHlo.TRef.of main_v58 : StableHlo.TRef sig ⟨S1048576x32, .f32⟩) main_call1.v4 main_call1.call0.v0 select,
    StableHlo.unary main_arg7 main_v60 ((transpose S32x2 [1, 0] · transposes_S2x32_S32x2_1_0) : (⟨S2x32, .f32⟩ : BufTy).Contents (Elt F) → (⟨S32x2, .f32⟩ : BufTy).Contents (Elt F)),
    StableHlo.binary main_v59 main_v60 main_v61 ((fun l r => Host.dotGeneral dot_S1048576x32_S32x2_S1048576x2_1_0_0_1_n_n none l r) : (⟨S1048576x32, .f32⟩ : BufTy).Contents (Elt F) → (⟨S32x2, .f32⟩ : BufTy).Contents (Elt F) → (⟨S1048576x2, .f32⟩ : BufTy).Contents (Elt F)),
    StableHlo.unary main_arg8 main_v62 (broadcastInDim S1x2 ![1] bcast_S2_S1x2_1 : (⟨S2, .f32⟩ : BufTy).Contents (Elt F) → (⟨S1x2, .f32⟩ : BufTy).Contents (Elt F)),
    StableHlo.unary main_v62 main_v63 (broadcastInDim S1048576x2 ![0, 1] bcast_S1x2_S1048576x2_0_1 : (⟨S1x2, .f32⟩ : BufTy).Contents (Elt F) → (⟨S1048576x2, .f32⟩ : BufTy).Contents (Elt F)),
    StableHlo.binary main_v61 main_v63 main_v64 (addf : (⟨S1048576x2, .f32⟩ : BufTy).Contents (Elt F) → (⟨S1048576x2, .f32⟩ : BufTy).Contents (Elt F) → (⟨S1048576x2, .f32⟩ : BufTy).Contents (Elt F)),
    StableHlo.reshape main_v64 main_v65 rfl shapeCasts_S1048576x2_S16x65536x2,
    StableHlo.unary main_v65 main_v66 ((extractStridedSlice S16x65536x1 ![0, 0, 0] · slices_S16x65536x2_S16x65536x1_0_0_0) : (⟨S16x65536x2, .f32⟩ : BufTy).Contents (Elt F) → (⟨S16x65536x1, .f32⟩ : BufTy).Contents (Elt F)),
    StableHlo.reshape main_v66 main_v67 rfl shapeCasts_S16x65536x1_S16x65536,
    StableHlo.unary main_v67 main_v68 (Host.negf : (⟨S16x65536, .f32⟩ : BufTy).Contents (Elt F) → (⟨S16x65536, .f32⟩ : BufTy).Contents (Elt F)),
    StableHlo.unary main_v68 main_v69 (Host.exp : (⟨S16x65536, .f32⟩ : BufTy).Contents (Elt F) → (⟨S16x65536, .f32⟩ : BufTy).Contents (Elt F)),
    StableHlo.nullary main_cst_9 (constant S_ .f32 0x3F800000#32),
    StableHlo.unary main_cst_9 main_v70 (broadcastInDim S16x65536 ![] bcast_S_S16x65536 : (⟨S_, .f32⟩ : BufTy).Contents (Elt F) → (⟨S16x65536, .f32⟩ : BufTy).Contents (Elt F)),
    StableHlo.binary main_v70 main_v69 main_v71 (addf : (⟨S16x65536, .f32⟩ : BufTy).Contents (Elt F) → (⟨S16x65536, .f32⟩ : BufTy).Contents (Elt F) → (⟨S16x65536, .f32⟩ : BufTy).Contents (Elt F)),
    StableHlo.nullary main_cst_10 (constant S_ .f32 0x3F800000#32),
    StableHlo.unary main_cst_10 main_v72 (broadcastInDim S16x65536 ![] bcast_S_S16x65536 : (⟨S_, .f32⟩ : BufTy).Contents (Elt F) → (⟨S16x65536, .f32⟩ : BufTy).Contents (Elt F)),
    StableHlo.binary main_v72 main_v71 main_v73 (Host.divf : (⟨S16x65536, .f32⟩ : BufTy).Contents (Elt F) → (⟨S16x65536, .f32⟩ : BufTy).Contents (Elt F) → (⟨S16x65536, .f32⟩ : BufTy).Contents (Elt F)),
    StableHlo.unary main_v65 main_v74 ((extractStridedSlice S16x65536x1 ![0, 0, 1] · slices_S16x65536x2_S16x65536x1_0_0_1) : (⟨S16x65536x2, .f32⟩ : BufTy).Contents (Elt F) → (⟨S16x65536x1, .f32⟩ : BufTy).Contents (Elt F)),
    StableHlo.reshape main_v74 main_v75 rfl shapeCasts_S16x65536x1_S16x65536,
    StableHlo.binary main_v73 main_v75 main_v76 (mulf : (⟨S16x65536, .f32⟩ : BufTy).Contents (Elt F) → (⟨S16x65536, .f32⟩ : BufTy).Contents (Elt F) → (⟨S16x65536, .f32⟩ : BufTy).Contents (Elt F)),
    StableHlo.reshape main_v76 main_v77 rfl shapeCasts_S16x65536_S16x256x4x64,
    StableHlo.nullary main_cst_11 (constant S_ .f32 0x00000000#32),
    StableHlo.binary main_v77 main_cst_11 main_v78 ((fun x v => Host.reduceAdd x v reducesTo_S16x256x4x64_S16x256x64_d2 h_S_) : (⟨S16x256x4x64, .f32⟩ : BufTy).Contents (Elt F) → (⟨S_, .f32⟩ : BufTy).Contents (Elt F) → (⟨S16x256x64, .f32⟩ : BufTy).Contents (Elt F)),
    StableHlo.binary main_arg0 main_v78 main_v79 ((fun a b => concatenate S16x256x128 2 [⟨S16x256x64, a⟩, ⟨S16x256x64, b⟩] concatenates_S16x256x64_S16x256x64_S16x256x128_d2) : (⟨S16x256x64, .f32⟩ : BufTy).Contents (Elt F) → (⟨S16x256x64, .f32⟩ : BufTy).Contents (Elt F) → (⟨S16x256x128, .f32⟩ : BufTy).Contents (Elt F)),
    StableHlo.reshape main_v79 main_v80 rfl shapeCasts_S16x256x128_S4096x128,
    StableHlo.unary main_arg9 main_v81 ((transpose S128x16 [1, 0] · transposes_S16x128_S128x16_1_0) : (⟨S16x128, .f32⟩ : BufTy).Contents (Elt F) → (⟨S128x16, .f32⟩ : BufTy).Contents (Elt F)),
    StableHlo.binary main_v80 main_v81 main_v82 ((fun l r => Host.dotGeneral dot_S4096x128_S128x16_S4096x16_1_0_0_1_n_n none l r) : (⟨S4096x128, .f32⟩ : BufTy).Contents (Elt F) → (⟨S128x16, .f32⟩ : BufTy).Contents (Elt F) → (⟨S4096x16, .f32⟩ : BufTy).Contents (Elt F)),
    StableHlo.unary main_arg10 main_v83 (broadcastInDim S1x16 ![1] bcast_S16_S1x16_1 : (⟨S16, .f32⟩ : BufTy).Contents (Elt F) → (⟨S1x16, .f32⟩ : BufTy).Contents (Elt F)),
    StableHlo.unary main_v83 main_v84 (broadcastInDim S4096x16 ![0, 1] bcast_S1x16_S4096x16_0_1 : (⟨S1x16, .f32⟩ : BufTy).Contents (Elt F) → (⟨S4096x16, .f32⟩ : BufTy).Contents (Elt F)),
    StableHlo.binary main_v82 main_v84 main_v85 (addf : (⟨S4096x16, .f32⟩ : BufTy).Contents (Elt F) → (⟨S4096x16, .f32⟩ : BufTy).Contents (Elt F) → (⟨S4096x16, .f32⟩ : BufTy).Contents (Elt F)),
    StableHlo.nullary main_cst_12 (constant S_ .f32 0x00000000#32),
    StableHlo.binary main_v85 main_cst_12 main_v86 ((fun x v => Host.reduceAdd x v reducesTo_S4096x16_S16_d0 h_S_) : (⟨S4096x16, .f32⟩ : BufTy).Contents (Elt F) → (⟨S_, .f32⟩ : BufTy).Contents (Elt F) → (⟨S16, .f32⟩ : BufTy).Contents (Elt F)),
    StableHlo.nullary main_cst_13 (constant S_ .f32 0x45800000#32),
    StableHlo.unary main_cst_13 main_v87 (broadcastInDim S16 ![] bcast_S_S16 : (⟨S_, .f32⟩ : BufTy).Contents (Elt F) → (⟨S16, .f32⟩ : BufTy).Contents (Elt F)),
    StableHlo.binary main_v86 main_v87 main_v88 (Host.divf : (⟨S16, .f32⟩ : BufTy).Contents (Elt F) → (⟨S16, .f32⟩ : BufTy).Contents (Elt F) → (⟨S16, .f32⟩ : BufTy).Contents (Elt F)),
    StableHlo.unary main_v88 main_v89 (broadcastInDim S1x16 ![1] bcast_S16_S1x16_1 : (⟨S16, .f32⟩ : BufTy).Contents (Elt F) → (⟨S1x16, .f32⟩ : BufTy).Contents (Elt F)),
    StableHlo.unary main_v89 main_v90 (broadcastInDim S4096x16 ![0, 1] bcast_S1x16_S4096x16_0_1 : (⟨S1x16, .f32⟩ : BufTy).Contents (Elt F) → (⟨S4096x16, .f32⟩ : BufTy).Contents (Elt F)),
    StableHlo.binary main_v85 main_v90 main_v91 (subf : (⟨S4096x16, .f32⟩ : BufTy).Contents (Elt F) → (⟨S4096x16, .f32⟩ : BufTy).Contents (Elt F) → (⟨S4096x16, .f32⟩ : BufTy).Contents (Elt F)),
    StableHlo.binary main_v91 main_v91 main_v92 (mulf : (⟨S4096x16, .f32⟩ : BufTy).Contents (Elt F) → (⟨S4096x16, .f32⟩ : BufTy).Contents (Elt F) → (⟨S4096x16, .f32⟩ : BufTy).Contents (Elt F)),
    StableHlo.nullary main_cst_14 (constant S_ .f32 0x00000000#32),
    StableHlo.binary main_v92 main_cst_14 main_v93 ((fun x v => Host.reduceAdd x v reducesTo_S4096x16_S16_d0 h_S_) : (⟨S4096x16, .f32⟩ : BufTy).Contents (Elt F) → (⟨S_, .f32⟩ : BufTy).Contents (Elt F) → (⟨S16, .f32⟩ : BufTy).Contents (Elt F)),
    StableHlo.nullary main_cst_15 (constant S_ .f32 0x45800000#32),
    StableHlo.unary main_cst_15 main_v94 (broadcastInDim S16 ![] bcast_S_S16 : (⟨S_, .f32⟩ : BufTy).Contents (Elt F) → (⟨S16, .f32⟩ : BufTy).Contents (Elt F)),
    StableHlo.binary main_v93 main_v94 main_v95 (Host.divf : (⟨S16, .f32⟩ : BufTy).Contents (Elt F) → (⟨S16, .f32⟩ : BufTy).Contents (Elt F) → (⟨S16, .f32⟩ : BufTy).Contents (Elt F)),
    StableHlo.unary main_v88 main_v96 (broadcastInDim S1x16 ![1] bcast_S16_S1x16_1 : (⟨S16, .f32⟩ : BufTy).Contents (Elt F) → (⟨S1x16, .f32⟩ : BufTy).Contents (Elt F)),
    StableHlo.unary main_v96 main_v97 (broadcastInDim S4096x16 ![0, 1] bcast_S1x16_S4096x16_0_1 : (⟨S1x16, .f32⟩ : BufTy).Contents (Elt F) → (⟨S4096x16, .f32⟩ : BufTy).Contents (Elt F)),
    StableHlo.binary main_v85 main_v97 main_v98 (subf : (⟨S4096x16, .f32⟩ : BufTy).Contents (Elt F) → (⟨S4096x16, .f32⟩ : BufTy).Contents (Elt F) → (⟨S4096x16, .f32⟩ : BufTy).Contents (Elt F)),
    StableHlo.nullary main_cst_16 (constant S_ .f32 0x3727C5AC#32),
    StableHlo.unary main_cst_16 main_v99 (broadcastInDim S16 ![] bcast_S_S16 : (⟨S_, .f32⟩ : BufTy).Contents (Elt F) → (⟨S16, .f32⟩ : BufTy).Contents (Elt F)),
    StableHlo.binary main_v95 main_v99 main_v100 (addf : (⟨S16, .f32⟩ : BufTy).Contents (Elt F) → (⟨S16, .f32⟩ : BufTy).Contents (Elt F) → (⟨S16, .f32⟩ : BufTy).Contents (Elt F)) ]

/-- The host operations of the program's window `main_part2`, in order: operations 133 … 156 of @main: its statements 121 … 138, the call of @leaky_relu_0 replaced by the seven operations of its body over that call's buffers. -/
abbrev ops2 : List (HloOp τ sig (Elt F)) :=
  [ StableHlo.unary main_v100 main_v101 (Host.rsqrt : (⟨S16, .f32⟩ : BufTy).Contents (Elt F) → (⟨S16, .f32⟩ : BufTy).Contents (Elt F)),
    StableHlo.unary main_v101 main_v102 (broadcastInDim S1x16 ![1] bcast_S16_S1x16_1 : (⟨S16, .f32⟩ : BufTy).Contents (Elt F) → (⟨S1x16, .f32⟩ : BufTy).Contents (Elt F)),
    StableHlo.unary main_v102 main_v103 (broadcastInDim S4096x16 ![0, 1] bcast_S1x16_S4096x16_0_1 : (⟨S1x16, .f32⟩ : BufTy).Contents (Elt F) → (⟨S4096x16, .f32⟩ : BufTy).Contents (Elt F)),
    StableHlo.binary main_v98 main_v103 main_v104 (mulf : (⟨S4096x16, .f32⟩ : BufTy).Contents (Elt F) → (⟨S4096x16, .f32⟩ : BufTy).Contents (Elt F) → (⟨S4096x16, .f32⟩ : BufTy).Contents (Elt F)),
    StableHlo.unary main_arg11 main_v105 (broadcastInDim S1x16 ![1] bcast_S16_S1x16_1 : (⟨S16, .f32⟩ : BufTy).Contents (Elt F) → (⟨S1x16, .f32⟩ : BufTy).Contents (Elt F)),
    StableHlo.unary main_v105 main_v106 (broadcastInDim S4096x16 ![0, 1] bcast_S1x16_S4096x16_0_1 : (⟨S1x16, .f32⟩ : BufTy).Contents (Elt F) → (⟨S4096x16, .f32⟩ : BufTy).Contents (Elt F)),
    StableHlo.binary main_v104 main_v106 main_v107 (mulf : (⟨S4096x16, .f32⟩ : BufTy).Contents (Elt F) → (⟨S4096x16, .f32⟩ : BufTy).Contents (Elt F) → (⟨S4096x16, .f32⟩ : BufTy).Contents (Elt F)),
    StableHlo.unary main_arg12 main_v108 (broadcastInDim S1x16 ![1] bcast_S16_S1x16_1 : (⟨S16, .f32⟩ : BufTy).Contents (Elt F) → (⟨S1x16, .f32⟩ : BufTy).Contents (Elt F)),
    StableHlo.unary main_v108 main_v109 (broadcastInDim S4096x16 ![0, 1] bcast_S1x16_S4096x16_0_1 : (⟨S1x16, .f32⟩ : BufTy).Contents (Elt F) → (⟨S4096x16, .f32⟩ : BufTy).Contents (Elt F)),
    StableHlo.binary main_v107 main_v109 main_v110 (addf : (⟨S4096x16, .f32⟩ : BufTy).Contents (Elt F) → (⟨S4096x16, .f32⟩ : BufTy).Contents (Elt F) → (⟨S4096x16, .f32⟩ : BufTy).Contents (Elt F)),
    StableHlo.nullary main_cst_17 (constant S_ .f32 0x3C23D70A#32),
    StableHlo.TRef.nullary main_call2.cst (constant S_ .f32 0x00000000#32),
    StableHlo.TRef.unary main_call2.cst main_call2.v0 (broadcastInDim S4096x16 ![] bcast_S_S4096x16),
    StableHlo.TRef.binary (StableHlo.TRef.of main_v110 : StableHlo.TRef sig ⟨S4096x16, .f32⟩) main_call2.v0 main_call2.v1 (cmpf .oge),
    StableHlo.TRef.unary (StableHlo.TRef.of main_cst_17 : StableHlo.TRef sig ⟨S_, .f32⟩) main_call2.v2 id,
    StableHlo.TRef.unary main_call2.v2 main_call2.v3 (broadcastInDim S4096x16 ![] bcast_S_S4096x16),
    StableHlo.TRef.binary main_call2.v3 (StableHlo.TRef.of main_v110 : StableHlo.TRef sig ⟨S4096x16, .f32⟩) main_call2.v4 mulf,
    StableHlo.TRef.ternary main_call2.v1 (StableHlo.TRef.of main_v110 : StableHlo.TRef sig ⟨S4096x16, .f32⟩) main_call2.v4 main_call2.call0.v0 select,
    StableHlo.unary main_arg13 main_v112 ((transpose S16x64 [1, 0] · transposes_S64x16_S16x64_1_0) : (⟨S64x16, .f32⟩ : BufTy).Contents (Elt F) → (⟨S16x64, .f32⟩ : BufTy).Contents (Elt F)),
    StableHlo.binary main_v111 main_v112 main_v113 ((fun l r => Host.dotGeneral dot_S4096x16_S16x64_S4096x64_1_0_0_1_n_n none l r) : (⟨S4096x16, .f32⟩ : BufTy).Contents (Elt F) → (⟨S16x64, .f32⟩ : BufTy).Contents (Elt F) → (⟨S4096x64, .f32⟩ : BufTy).Contents (Elt F)),
    StableHlo.unary main_arg14 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S4096x64 ![0, 1] bcast_S1x64_S4096x64_0_1 : (⟨S1x64, .f32⟩ : BufTy).Contents (Elt F) → (⟨S4096x64, .f32⟩ : BufTy).Contents (Elt F)),
    StableHlo.binary main_v113 main_v115 main_v116 (addf : (⟨S4096x64, .f32⟩ : BufTy).Contents (Elt F) → (⟨S4096x64, .f32⟩ : BufTy).Contents (Elt F) → (⟨S4096x64, .f32⟩ : BufTy).Contents (Elt F)),
    StableHlo.reshape main_v116 main_v117 rfl shapeCasts_S4096x64_S16x256x64 ]

/-- @main's 156 host operations in program order, a called function's operations standing at its call site. -/
abbrev ops : List (HloOp τ sig (Elt F)) := ops0 ++ (ops1 ++ ops2)

set_option maxRecDepth 8192 in
theorem main_part0_eq (c : Dev nD) : main_part0 (F := F) c = seq ops0 := rfl

set_option maxRecDepth 8192 in
set_option maxHeartbeats 4000000 in
theorem main_part1_eq (c : Dev nD) : main_part1 (F := F) c = seq ops1 := by
  simp only [main_part1, fn_leaky_relu.body, fn_where.body, seq, bind_assoc, pure_bind]
  rfl

set_option maxRecDepth 8192 in
set_option maxHeartbeats 4000000 in
theorem main_part2_eq (c : Dev nD) : main_part2 (F := F) c = seq ops2 := by
  simp only [main_part2, fn_leaky_relu_0.body, fn_where_1.body, seq, bind_assoc, pure_bind]

set_option maxRecDepth 8192 in
/-- @main is the straight line of its operations: each window is the line of its own, and lines run one after the other are their concatenation run as one. -/
theorem main_eq (c : Dev nD) : main (F := F) c = seq ops := by
  simp only [ops, seq_append, ← main_part0_eq c, ← main_part1_eq c, ← main_part2_eq c]
  rfl

end Cert.ReferenceIdeal.RefRun

end
-- ==== Proof.RefRun.lean ====
/-
  The run of the reference program.  Its signature scopes no TensorCore buffer and no semaphore, every operation of its
  line touches TensorCore references only, and each writes one buffer; so from any memory with zero counters every
  weakly fair execution of @main terminates with every buffer at the fold of the operations over the launch contents.
  The fifteen arguments are written by no operation (the buffers each window writes are listed, and an argument is in
  none of the lists), so they end unchanged; the two results are stated at the fold.
-/
import proofs.«168503_j21964462751805_2_alg».proof.Proof.Gen.ReferenceIdeal
import proofs.«168503_j21964462751805_2_alg».proof.Proof.RefRunOps
import Idealize.ShloMosaic.Lib.Pipeline.Frame
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The signature scopes no TensorCore buffer and no semaphore: the program is one of tensor values only. -/
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

set_option maxRecDepth 8192 in
theorem ops0_sub : (ops0 : List (HloOp τ sig (Elt F))).Forall fun op => op.bufs ⊆ tcRefs τ sig :=
  ⟨nullary_bufs_sub .., unary_bufs_sub .., reshape_bufs_sub .., nullary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., reshape_bufs_sub .., unary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..⟩

set_option maxRecDepth 8192 in
theorem ops1_sub : (ops1 : List (HloOp τ sig (Elt F))).Forall fun op => op.bufs ⊆ tcRefs τ sig :=
  ⟨unary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    binary_bufs_sub .., unary_bufs_sub .., unary_bufs_sub .., binary_bufs_sub .., reshape_bufs_sub .., unary_bufs_sub ..,
    reshape_bufs_sub .., unary_bufs_sub .., unary_bufs_sub .., nullary_bufs_sub .., unary_bufs_sub .., binary_bufs_sub ..,
    nullary_bufs_sub .., unary_bufs_sub .., binary_bufs_sub .., unary_bufs_sub .., reshape_bufs_sub .., binary_bufs_sub ..,
    reshape_bufs_sub .., nullary_bufs_sub .., binary_bufs_sub .., binary_bufs_sub .., reshape_bufs_sub .., unary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..⟩

set_option maxRecDepth 8192 in
theorem ops2_sub : (ops2 : List (HloOp τ sig (Elt F))).Forall fun op => op.bufs ⊆ tcRefs τ sig :=
  ⟨unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., binary_bufs_sub .., unary_bufs_sub .., unary_bufs_sub .., binary_bufs_sub .., reshape_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-! ## What the operations write

Each operation writes its one result buffer. The references a window writes are listed, so that whether a given
reference is among them is decided over references in one pass; a reference a window does not write keeps its
contents through it. -/

/-- The buffers the operations of `ops0` write, in order. -/
abbrev ops0_W : List (Ref sig .tc) :=
  [main_v0, main_v1, main_v2, main_v3, main_v4, main_v5, main_v6, main_c, main_v7, main_v8,
    main_c_0, main_v9, main_v10, main_v11, main_v12, main_v13, main_c_1, main_v14, main_v15, main_c_2,
    main_v16, main_v17, main_v18, main_v19, main_v20, main_v21, main_v22, main_v23, main_v24, main_v25,
    main_v26, main_v27, main_cst, main_v28, main_cst_3, main_v29, main_v30, main_v31, main_v32, main_v33,
    main_v34, main_cst_4, main_v35, main_cst_5, main_v36, main_v37, main_v38, main_v39, main_v40, main_cst_6,
    main_v41, main_v42, main_v43, main_v44, main_v45, main_v46, main_v47, main_v48, main_v49, main_v50]

set_option maxRecDepth 8192 in
theorem ops0_writes : (ops0 : List (HloOp τ sig (Elt F))).Forall fun op =>
    op.writes ⊆ (ops0_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer that no operation of `ops0` writes keeps its contents through them. -/
theorem ops0_keep (V : Valuation τ sig (Elt F)) (r : Ref sig .tc) (h : r ∉ ops0_W) :
    after ops0 V (Proc.devRef .tc r) = V (Proc.devRef .tc r) :=
  after_of_writes_sub ops0 V ops0_writes h

/-- The buffers the operations of `ops1` write, in order. -/
abbrev ops1_W : List (Ref sig .tc) :=
  [main_v51, main_v52, main_cst_7, main_call0_cst, main_call0_v0, main_call0_v1, main_call0_v2, main_call0_v3, main_call0_v4, main_v53,
    main_v54, main_v55, main_v56, main_v57, main_v58, main_cst_8, main_call1_cst, main_call1_v0, main_call1_v1, main_call1_v2,
    main_call1_v3, main_call1_v4, main_v59, main_v60, main_v61, main_v62, main_v63, main_v64, main_v65, main_v66,
    main_v67, main_v68, main_v69, main_cst_9, main_v70, main_v71, main_cst_10, main_v72, main_v73, main_v74,
    main_v75, main_v76, main_v77, main_cst_11, main_v78, main_v79, main_v80, main_v81, main_v82, main_v83,
    main_v84, main_v85, main_cst_12, main_v86, main_cst_13, main_v87, main_v88, main_v89, main_v90, main_v91,
    main_v92, main_cst_14, main_v93, main_cst_15, main_v94, main_v95, main_v96, main_v97, main_v98, main_cst_16,
    main_v99, main_v100]

set_option maxRecDepth 8192 in
theorem ops1_writes : (ops1 : List (HloOp τ sig (Elt F))).Forall fun op =>
    op.writes ⊆ (ops1_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer that no operation of `ops1` writes keeps its contents through them. -/
theorem ops1_keep (V : Valuation τ sig (Elt F)) (r : Ref sig .tc) (h : r ∉ ops1_W) :
    after ops1 V (Proc.devRef .tc r) = V (Proc.devRef .tc r) :=
  after_of_writes_sub ops1 V ops1_writes h

/-- The buffers the operations of `ops2` write, in order. -/
abbrev ops2_W : List (Ref sig .tc) :=
  [main_v101, main_v102, main_v103, main_v104, main_v105, main_v106, main_v107, main_v108, main_v109, main_v110,
    main_cst_17, main_call2_cst, main_call2_v0, main_call2_v1, main_call2_v2, main_call2_v3, main_call2_v4, main_v111, main_v112, main_v113,
    main_v114, main_v115, main_v116, main_v117]

set_option maxRecDepth 8192 in
theorem ops2_writes : (ops2 : List (HloOp τ sig (Elt F))).Forall fun op =>
    op.writes ⊆ (ops2_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer that no operation of `ops2` writes keeps its contents through them. -/
theorem ops2_keep (V : Valuation τ sig (Elt F)) (r : Ref sig .tc) (h : r ∉ ops2_W) :
    after ops2 V (Proc.devRef .tc r) = V (Proc.devRef .tc r) :=
  after_of_writes_sub ops2 V ops2_writes h

/-- The whole line run from `V` is its three windows run one after the other. -/
theorem after_ops (V : Valuation τ sig (Elt F)) : after ops V = after ops2 (after ops1 (after ops0 V)) := by
  simp only [ops, after_append]

/-- A buffer none of the three windows writes — an argument of @main — keeps its contents through the whole line. -/
theorem ops_keep (V : Valuation τ sig (Elt F)) (r : Ref sig .tc) (h0 : r ∉ ops0_W) (h1 : r ∉ ops1_W) (h2 : r ∉ ops2_W) :
    after ops V (Proc.devRef .tc r) = V (Proc.devRef .tc r) := by
  rw [after_ops, ops2_keep _ r h2, ops1_keep _ r h1, ops0_keep _ r h0]

/-- On every device, for any float values, from any memory with zero counters: every weakly fair execution of @main
    terminates, with each result buffer at the fold of the operations over the launch contents and every argument
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v73) = StableHlo.after ops (fun b => m (c, b)) (Proc.devRef .tc main_v73)
      ∧ r.2.mem ((c.tc : Thread nD τ).loc main_v117) = StableHlo.after ops (fun b => m (c, b)) (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨h c main_v73, h c main_v117,
      (h c main_arg0).trans (ops_keep _ main_arg0 (by decide) (by decide) (by decide)),
      (h c main_arg1).trans (ops_keep _ main_arg1 (by decide) (by decide) (by decide)),
      (h c main_arg2).trans (ops_keep _ main_arg2 (by decide) (by decide) (by decide)),
      (h c main_arg3).trans (ops_keep _ main_arg3 (by decide) (by decide) (by decide)),
      (h c main_arg4).trans (ops_keep _ main_arg4 (by decide) (by decide) (by decide)),
      (h c main_arg5).trans (ops_keep _ main_arg5 (by decide) (by decide) (by decide)),
      (h c main_arg6).trans (ops_keep _ main_arg6 (by decide) (by decide) (by decide)),
      (h c main_arg7).trans (ops_keep _ main_arg7 (by decide) (by decide) (by decide)),
      (h c main_arg8).trans (ops_keep _ main_arg8 (by decide) (by decide) (by decide)),
      (h c main_arg9).trans (ops_keep _ main_arg9 (by decide) (by decide) (by decide)),
      (h c main_arg10).trans (ops_keep _ main_arg10 (by decide) (by decide) (by decide)),
      (h c main_arg11).trans (ops_keep _ main_arg11 (by decide) (by decide) (by decide)),
      (h c main_arg12).trans (ops_keep _ main_arg12 (by decide) (by decide) (by decide)),
      (h c main_arg13).trans (ops_keep _ main_arg13 (by decide) (by decide) (by decide)),
      (h c main_arg14).trans (ops_keep _ main_arg14 (by decide) (by decide) (by decide))⟩)
    (run_seq scopedRefs_eq scopedSems_eq defs main (fun _ => ops) main_eq (fun _ => ops_sub) m ρ)

end Cert.ReferenceIdeal.RefRun

end
-- ==== Proof.RefValueStages.lean ====
/-
  The reference program's host operations as pure functions of the fifteen argument arrays, one definition per
  operation of @main in program order (the three leaky-ReLU calls inlined, seven operations each), each the function
  its operation denotes, read at the extended reals.  No array is ever evaluated: the definitions are only unfolded at a
  symbolic index by the modules that import this one.
-/
import proofs.«168503_j21964462751805_2_alg».proof.ReferenceIdeal
import proofs.«168503_j21964462751805_2_alg».proof.Proof.Spec
import Idealize.ShloMosaic.Lib.ValueLayout
import Idealize.ShloMosaic.Lib.IdealHost
import Idealize.ShloMosaic.Lib.Pipeline.Value

noncomputable section

namespace Cert.ReferenceIdeal.RefValue

open Idealize.ShloMosaic Idealize.ShloMosaic.ValueIdx Cert.ReferenceIdeal

variable [Facts]
open Facts₀ Facts

/-- %0 = stablehlo.iota dim = 0 : tensor<256xi32>  @ reference:46 -/
def v0 (a : Cert.Spec.Args) : (⟨S256, .i32⟩ : BufTy).Contents (Elt Ideal) :=
  iotaInDim S256 32 0

/-- %1 = stablehlo.broadcast_in_dim %0, dims = [0] : (tensor<256xi32>) -> tensor<256x256xi32>  @ reference:46 -/
def v1 (a : Cert.Spec.Args) : (⟨S256x256, .i32⟩ : BufTy).Contents (Elt Ideal) :=
  (broadcastInDim S256x256 ![0] bcast_S256_S256x256_0 : (⟨S256, .i32⟩ : BufTy).Contents (Elt Ideal) → (⟨S256x256, .i32⟩ : BufTy).Contents (Elt Ideal)) (v0 a)

/-- %2 = stablehlo.reshape %1 : (tensor<256x256xi32>) -> tensor<65536xi32>  @ reference:46 -/
def v2 (a : Cert.Spec.Args) : (⟨S65536, .i32⟩ : BufTy).Contents (Elt Ideal) :=
  shapeCast S65536 (v1 a) shapeCasts_S256x256_S65536

/-- %3 = stablehlo.iota dim = 0 : tensor<256xi32>  @ reference:47 -/
def v3 (a : Cert.Spec.Args) : (⟨S256, .i32⟩ : BufTy).Contents (Elt Ideal) :=
  iotaInDim S256 32 0

/-- %4 = stablehlo.reshape %3 : (tensor<256xi32>) -> tensor<1x256xi32>  @ reference:47 -/
def v4 (a : Cert.Spec.Args) : (⟨S1x256, .i32⟩ : BufTy).Contents (Elt Ideal) :=
  shapeCast S1x256 (v3 a) shapeCasts_S256_S1x256

/-- %5 = stablehlo.broadcast_in_dim %4, dims = [0, 1] : (tensor<1x256xi32>) -> tensor<256x256xi32>  @ reference:47 -/
def v5 (a : Cert.Spec.Args) : (⟨S256x256, .i32⟩ : BufTy).Contents (Elt Ideal) :=
  (broadcastInDim S256x256 ![0, 1] bcast_S1x256_S256x256_0_1 : (⟨S1x256, .i32⟩ : BufTy).Contents (Elt Ideal) → (⟨S256x256, .i32⟩ : BufTy).Contents (Elt Ideal)) (v4 a)

/-- %6 = stablehlo.reshape %5 : (tensor<256x256xi32>) -> tensor<65536xi32>  @ reference:47 -/
def v6 (a : Cert.Spec.Args) : (⟨S65536, .i32⟩ : BufTy).Contents (Elt Ideal) :=
  shapeCast S65536 (v5 a) shapeCasts_S256x256_S65536

/-- %c = stablehlo.constant dense<0> : tensor<i32> -/
def ci (a : Cert.Spec.Args) : (⟨S_, .i32⟩ : BufTy).Contents (Elt Ideal) :=
  constantI S_ 32 0#32

/-- %7 = stablehlo.broadcast_in_dim %c, dims = [] : (tensor<i32>) -> tensor<65536xi32>  @ reference:49 -/
def v7 (a : Cert.Spec.Args) : (⟨S65536, .i32⟩ : BufTy).Contents (Elt Ideal) :=
  (broadcastInDim S65536 ![] bcast_S_S65536 : (⟨S_, .i32⟩ : BufTy).Contents (Elt Ideal) → (⟨S65536, .i32⟩ : BufTy).Contents (Elt Ideal)) (ci a)

/-- %8 = stablehlo.compare LT, %2, %7, SIGNED : (tensor<65536xi32>, tensor<65536xi32>) -> tensor<65536xi1>  @ reference:49 -/
def v8 (a : Cert.Spec.Args) : (⟨S65536, .i1⟩ : BufTy).Contents (Elt Ideal) :=
  (cmpi .slt : (⟨S65536, .i32⟩ : BufTy).Contents (Elt Ideal) → (⟨S65536, .i32⟩ : BufTy).Contents (Elt Ideal) → (⟨S65536, .i1⟩ : BufTy).Contents (Elt Ideal)) (v2 a) (v7 a)

/-- %c_0 = stablehlo.constant dense<256> : tensor<i32> -/
def ci_0 (a : Cert.Spec.Args) : (⟨S_, .i32⟩ : BufTy).Contents (Elt Ideal) :=
  constantI S_ 32 256#32

/-- %9 = stablehlo.broadcast_in_dim %c_0, dims = [] : (tensor<i32>) -> tensor<65536xi32>  @ reference:49 -/
def v9 (a : Cert.Spec.Args) : (⟨S65536, .i32⟩ : BufTy).Contents (Elt Ideal) :=
  (broadcastInDim S65536 ![] bcast_S_S65536 : (⟨S_, .i32⟩ : BufTy).Contents (Elt Ideal) → (⟨S65536, .i32⟩ : BufTy).Contents (Elt Ideal)) (ci_0 a)

/-- %10 = stablehlo.add %2, %9 : tensor<65536xi32>  @ reference:49 -/
def v10 (a : Cert.Spec.Args) : (⟨S65536, .i32⟩ : BufTy).Contents (Elt Ideal) :=
  (addi : (⟨S65536, .i32⟩ : BufTy).Contents (Elt Ideal) → (⟨S65536, .i32⟩ : BufTy).Contents (Elt Ideal) → (⟨S65536, .i32⟩ : BufTy).Contents (Elt Ideal)) (v2 a) (v9 a)

/-- %11 = stablehlo.select %8, %10, %2 : tensor<65536xi1>, tensor<65536xi32>  @ reference:49 -/
def v11 (a : Cert.Spec.Args) : (⟨S65536, .i32⟩ : BufTy).Contents (Elt Ideal) :=
  (select : (⟨S65536, .i1⟩ : BufTy).Contents (Elt Ideal) → (⟨S65536, .i32⟩ : BufTy).Contents (Elt Ideal) → (⟨S65536, .i32⟩ : BufTy).Contents (Elt Ideal) → (⟨S65536, .i32⟩ : BufTy).Contents (Elt Ideal)) (v8 a) (v10 a) (v2 a)

/-- %12 = stablehlo.broadcast_in_dim %11, dims = [0] : (tensor<65536xi32>) -> tensor<65536x1xi32>  @ reference:49 -/
def v12 (a : Cert.Spec.Args) : (⟨S65536x1, .i32⟩ : BufTy).Contents (Elt Ideal) :=
  (broadcastInDim S65536x1 ![0] bcast_S65536_S65536x1_0 : (⟨S65536, .i32⟩ : BufTy).Contents (Elt Ideal) → (⟨S65536x1, .i32⟩ : BufTy).Contents (Elt Ideal)) (v11 a)

/-- %13 = "stablehlo.gather"(%arg0, %12) <{dimension_numbers = #stablehlo.gather<offset_dims = [0, 2], collapsed_slice_dims = [1], start_index_map = [1], index_vector_dim = 1>, indices_are_sorted = false, slice_sizes = array<i64: 16, 1, 64>}> : (tensor<16x256x64xf32>, tensor<65536x1xi32>) -> tensor<16x65536x64xf32>  @ reference:49 -/
def v13 (a : Cert.Spec.Args) : (⟨S16x65536x64, .f32⟩ : BufTy).Contents (Elt Ideal) :=
  ((fun x i => Host.gather gather_S16x256x64_S65536x1_S16x65536x64_02_1_n_n_1_1_16164 x i) : (⟨S16x256x64, .f32⟩ : BufTy).Contents (Elt Ideal) → (⟨S65536x1, .i32⟩ : BufTy).Contents (Elt Ideal) → (⟨S16x65536x64, .f32⟩ : BufTy).Contents (Elt Ideal)) a.x (v12 a)

/-- %c_1 = stablehlo.constant dense<0> : tensor<i32> -/
def ci_1 (a : Cert.Spec.Args) : (⟨S_, .i32⟩ : BufTy).Contents (Elt Ideal) :=
  constantI S_ 32 0#32

/-- %14 = stablehlo.broadcast_in_dim %c_1, dims = [] : (tensor<i32>) -> tensor<65536xi32>  @ reference:49 -/
def v14 (a : Cert.Spec.Args) : (⟨S65536, .i32⟩ : BufTy).Contents (Elt Ideal) :=
  (broadcastInDim S65536 ![] bcast_S_S65536 : (⟨S_, .i32⟩ : BufTy).Contents (Elt Ideal) → (⟨S65536, .i32⟩ : BufTy).Contents (Elt Ideal)) (ci_1 a)

/-- %15 = stablehlo.compare LT, %6, %14, SIGNED : (tensor<65536xi32>, tensor<65536xi32>) -> tensor<65536xi1>  @ reference:49 -/
def v15 (a : Cert.Spec.Args) : (⟨S65536, .i1⟩ : BufTy).Contents (Elt Ideal) :=
  (cmpi .slt : (⟨S65536, .i32⟩ : BufTy).Contents (Elt Ideal) → (⟨S65536, .i32⟩ : BufTy).Contents (Elt Ideal) → (⟨S65536, .i1⟩ : BufTy).Contents (Elt Ideal)) (v6 a) (v14 a)

/-- %c_2 = stablehlo.constant dense<256> : tensor<i32> -/
def ci_2 (a : Cert.Spec.Args) : (⟨S_, .i32⟩ : BufTy).Contents (Elt Ideal) :=
  constantI S_ 32 256#32

/-- %16 = stablehlo.broadcast_in_dim %c_2, dims = [] : (tensor<i32>) -> tensor<65536xi32>  @ reference:49 -/
def v16 (a : Cert.Spec.Args) : (⟨S65536, .i32⟩ : BufTy).Contents (Elt Ideal) :=
  (broadcastInDim S65536 ![] bcast_S_S65536 : (⟨S_, .i32⟩ : BufTy).Contents (Elt Ideal) → (⟨S65536, .i32⟩ : BufTy).Contents (Elt Ideal)) (ci_2 a)

/-- %17 = stablehlo.add %6, %16 : tensor<65536xi32>  @ reference:49 -/
def v17 (a : Cert.Spec.Args) : (⟨S65536, .i32⟩ : BufTy).Contents (Elt Ideal) :=
  (addi : (⟨S65536, .i32⟩ : BufTy).Contents (Elt Ideal) → (⟨S65536, .i32⟩ : BufTy).Contents (Elt Ideal) → (⟨S65536, .i32⟩ : BufTy).Contents (Elt Ideal)) (v6 a) (v16 a)

/-- %18 = stablehlo.select %15, %17, %6 : tensor<65536xi1>, tensor<65536xi32>  @ reference:49 -/
def v18 (a : Cert.Spec.Args) : (⟨S65536, .i32⟩ : BufTy).Contents (Elt Ideal) :=
  (select : (⟨S65536, .i1⟩ : BufTy).Contents (Elt Ideal) → (⟨S65536, .i32⟩ : BufTy).Contents (Elt Ideal) → (⟨S65536, .i32⟩ : BufTy).Contents (Elt Ideal) → (⟨S65536, .i32⟩ : BufTy).Contents (Elt Ideal)) (v15 a) (v17 a) (v6 a)

/-- %19 = stablehlo.broadcast_in_dim %18, dims = [0] : (tensor<65536xi32>) -> tensor<65536x1xi32>  @ reference:49 -/
def v19 (a : Cert.Spec.Args) : (⟨S65536x1, .i32⟩ : BufTy).Contents (Elt Ideal) :=
  (broadcastInDim S65536x1 ![0] bcast_S65536_S65536x1_0 : (⟨S65536, .i32⟩ : BufTy).Contents (Elt Ideal) → (⟨S65536x1, .i32⟩ : BufTy).Contents (Elt Ideal)) (v18 a)

/-- %20 = "stablehlo.gather"(%arg0, %19) <{dimension_numbers = #stablehlo.gather<offset_dims = [0, 2], collapsed_slice_dims = [1], start_index_map = [1], index_vector_dim = 1>, indices_are_sorted = false, slice_sizes = array<i64: 16, 1, 64>}> : (tensor<16x256x64xf32>, tensor<65536x1xi32>) -> tensor<16x65536x64xf32>  @ reference:49 -/
def v20 (a : Cert.Spec.Args) : (⟨S16x65536x64, .f32⟩ : BufTy).Contents (Elt Ideal) :=
  ((fun x i => Host.gather gather_S16x256x64_S65536x1_S16x65536x64_02_1_n_n_1_1_16164 x i) : (⟨S16x256x64, .f32⟩ : BufTy).Contents (Elt Ideal) → (⟨S65536x1, .i32⟩ : BufTy).Contents (Elt Ideal) → (⟨S16x65536x64, .f32⟩ : BufTy).Contents (Elt Ideal)) a.x (v19 a)

/-- %21 = stablehlo.concatenate %13, %20, dim = 2 : (tensor<16x65536x64xf32>, tensor<16x65536x64xf32>) -> tensor<16x65536x128xf32>  @ reference:49 -/
def v21 (a : Cert.Spec.Args) : (⟨S16x65536x128, .f32⟩ : BufTy).Contents (Elt Ideal) :=
  ((fun a b => concatenate S16x65536x128 2 [⟨S16x65536x64, a⟩, ⟨S16x65536x64, b⟩] concatenates_S16x65536x64_S16x65536x64_S16x65536x128_d2) : (⟨S16x65536x64, .f32⟩ : BufTy).Contents (Elt Ideal) → (⟨S16x65536x64, .f32⟩ : BufTy).Contents (Elt Ideal) → (⟨S16x65536x128, .f32⟩ : BufTy).Contents (Elt Ideal)) (v13 a) (v20 a)

/-- %22 = stablehlo.reshape %21 : (tensor<16x65536x128xf32>) -> tensor<1048576x128xf32>  @ reference:50 -/
def v22 (a : Cert.Spec.Args) : (⟨S1048576x128, .f32⟩ : BufTy).Contents (Elt Ideal) :=
  shapeCast S1048576x128 (v21 a) shapeCasts_S16x65536x128_S1048576x128

/-- %23 = stablehlo.transpose %arg1, dims = [1, 0] : (tensor<32x128xf32>) -> tensor<128x32xf32>  @ reference:51 -/
def v23 (a : Cert.Spec.Args) : (⟨S128x32, .f32⟩ : BufTy).Contents (Elt Ideal) :=
  ((transpose S128x32 [1, 0] · transposes_S32x128_S128x32_1_0) : (⟨S32x128, .f32⟩ : BufTy).Contents (Elt Ideal) → (⟨S128x32, .f32⟩ : BufTy).Contents (Elt Ideal)) a.W1

/-- %24 = stablehlo.dot_general %22, %23, contracting_dims = [1] x [0], precision = [DEFAULT, DEFAULT] : (tensor<1048576x128xf32>, tensor<128x32xf32>) -> tensor<1048576x32xf32>  @ reference:51 -/
def v24 (a : Cert.Spec.Args) : (⟨S1048576x32, .f32⟩ : BufTy).Contents (Elt Ideal) :=
  ((fun l r => Host.dotGeneral (F := Ideal) (φ₁ := .f32) (φ₂ := .f32) dot_S1048576x128_S128x32_S1048576x32_1_0_0_1_n_n none l r) : (⟨S1048576x128, .f32⟩ : BufTy).Contents (Elt Ideal) → (⟨S128x32, .f32⟩ : BufTy).Contents (Elt Ideal) → (⟨S1048576x32, .f32⟩ : BufTy).Contents (Elt Ideal)) (v22 a) (v23 a)

/-- %25 = stablehlo.broadcast_in_dim %arg2, dims = [1] : (tensor<32xf32>) -> tensor<1x32xf32>  @ reference:51 -/
def v25 (a : Cert.Spec.Args) : (⟨S1x32, .f32⟩ : BufTy).Contents (Elt Ideal) :=
  (broadcastInDim S1x32 ![1] bcast_S32_S1x32_1 : (⟨S32, .f32⟩ : BufTy).Contents (Elt Ideal) → (⟨S1x32, .f32⟩ : BufTy).Contents (Elt Ideal)) a.b1

/-- %26 = stablehlo.broadcast_in_dim %25, dims = [0, 1] : (tensor<1x32xf32>) -> tensor<1048576x32xf32>  @ reference:51 -/
def v26 (a : Cert.Spec.Args) : (⟨S1048576x32, .f32⟩ : BufTy).Contents (Elt Ideal) :=
  (broadcastInDim S1048576x32 ![0, 1] bcast_S1x32_S1048576x32_0_1 : (⟨S1x32, .f32⟩ : BufTy).Contents (Elt Ideal) → (⟨S1048576x32, .f32⟩ : BufTy).Contents (Elt Ideal)) (v25 a)

/-- %27 = stablehlo.add %24, %26 : tensor<1048576x32xf32>  @ reference:51 -/
def v27 (a : Cert.Spec.Args) : (⟨S1048576x32, .f32⟩ : BufTy).Contents (Elt Ideal) :=
  (addf (F := Ideal) (φ := .f32) : (⟨S1048576x32, .f32⟩ : BufTy).Contents (Elt Ideal) → (⟨S1048576x32, .f32⟩ : BufTy).Contents (Elt Ideal) → (⟨S1048576x32, .f32⟩ : BufTy).Contents (Elt Ideal)) (v24 a) (v26 a)

/-- %cst = stablehlo.constant dense<0.000000e+00> : tensor<f32> -/
def cst (a : Cert.Spec.Args) : (⟨S_, .f32⟩ : BufTy).Contents (Elt Ideal) :=
  constant (F := Ideal) S_ .f32 0x00000000#32

/-- %28 = stablehlo.reduce(%27 init: %cst) applies stablehlo.add across dimensions = [0] : (tensor<1048576x32xf32>, tensor<f32>) -> tensor<32xf32> {  @ reference:8 -/
def v28 (a : Cert.Spec.Args) : (⟨S32, .f32⟩ : BufTy).Contents (Elt Ideal) :=
  ((fun x v => Host.reduceAdd (F := Ideal) (φ := .f32) x v reducesTo_S1048576x32_S32_d0 h_S_) : (⟨S1048576x32, .f32⟩ : BufTy).Contents (Elt Ideal) → (⟨S_, .f32⟩ : BufTy).Contents (Elt Ideal) → (⟨S32, .f32⟩ : BufTy).Contents (Elt Ideal)) (v27 a) (cst a)

/-- %cst_3 = stablehlo.constant dense<0x49800000> : tensor<f32> -/
def cst_3 (a : Cert.Spec.Args) : (⟨S_, .f32⟩ : BufTy).Contents (Elt Ideal) :=
  constant (F := Ideal) S_ .f32 0x49800000#32

/-- %29 = stablehlo.broadcast_in_dim %cst_3, dims = [] : (tensor<f32>) -> tensor<32xf32>  @ reference:8 -/
def v29 (a : Cert.Spec.Args) : (⟨S32, .f32⟩ : BufTy).Contents (Elt Ideal) :=
  (broadcastInDim S32 ![] bcast_S_S32 : (⟨S_, .f32⟩ : BufTy).Contents (Elt Ideal) → (⟨S32, .f32⟩ : BufTy).Contents (Elt Ideal)) (cst_3 a)

/-- %30 = stablehlo.divide %28, %29 : tensor<32xf32>  @ reference:8 -/
def v30 (a : Cert.Spec.Args) : (⟨S32, .f32⟩ : BufTy).Contents (Elt Ideal) :=
  (Host.divf (F := Ideal) (φ := .f32) : (⟨S32, .f32⟩ : BufTy).Contents (Elt Ideal) → (⟨S32, .f32⟩ : BufTy).Contents (Elt Ideal) → (⟨S32, .f32⟩ : BufTy).Contents (Elt Ideal)) (v28 a) (v29 a)

/-- %31 = stablehlo.broadcast_in_dim %30, dims = [1] : (tensor<32xf32>) -> tensor<1x32xf32>  @ reference:9 -/
def v31 (a : Cert.Spec.Args) : (⟨S1x32, .f32⟩ : BufTy).Contents (Elt Ideal) :=
  (broadcastInDim S1x32 ![1] bcast_S32_S1x32_1 : (⟨S32, .f32⟩ : BufTy).Contents (Elt Ideal) → (⟨S1x32, .f32⟩ : BufTy).Contents (Elt Ideal)) (v30 a)

/-- %32 = stablehlo.broadcast_in_dim %31, dims = [0, 1] : (tensor<1x32xf32>) -> tensor<1048576x32xf32>  @ reference:9 -/
def v32 (a : Cert.Spec.Args) : (⟨S1048576x32, .f32⟩ : BufTy).Contents (Elt Ideal) :=
  (broadcastInDim S1048576x32 ![0, 1] bcast_S1x32_S1048576x32_0_1 : (⟨S1x32, .f32⟩ : BufTy).Contents (Elt Ideal) → (⟨S1048576x32, .f32⟩ : BufTy).Contents (Elt Ideal)) (v31 a)

/-- %33 = stablehlo.subtract %27, %32 : tensor<1048576x32xf32>  @ reference:9 -/
def v33 (a : Cert.Spec.Args) : (⟨S1048576x32, .f32⟩ : BufTy).Contents (Elt Ideal) :=
  (subf (F := Ideal) (φ := .f32) : (⟨S1048576x32, .f32⟩ : BufTy).Contents (Elt Ideal) → (⟨S1048576x32, .f32⟩ : BufTy).Contents (Elt Ideal) → (⟨S1048576x32, .f32⟩ : BufTy).Contents (Elt Ideal)) (v27 a) (v32 a)

/-- %34 = stablehlo.multiply %33, %33 : tensor<1048576x32xf32>  @ reference:9 -/
def v34 (a : Cert.Spec.Args) : (⟨S1048576x32, .f32⟩ : BufTy).Contents (Elt Ideal) :=
  (mulf (F := Ideal) (φ := .f32) : (⟨S1048576x32, .f32⟩ : BufTy).Contents (Elt Ideal) → (⟨S1048576x32, .f32⟩ : BufTy).Contents (Elt Ideal) → (⟨S1048576x32, .f32⟩ : BufTy).Contents (Elt Ideal)) (v33 a) (v33 a)

/-- %cst_4 = stablehlo.constant dense<0.000000e+00> : tensor<f32> -/
def cst_4 (a : Cert.Spec.Args) : (⟨S_, .f32⟩ : BufTy).Contents (Elt Ideal) :=
  constant (F := Ideal) S_ .f32 0x00000000#32

/-- %35 = stablehlo.reduce(%34 init: %cst_4) applies stablehlo.add across dimensions = [0] : (tensor<1048576x32xf32>, tensor<f32>) -> tensor<32xf32> {  @ reference:9 -/
def v35 (a : Cert.Spec.Args) : (⟨S32, .f32⟩ : BufTy).Contents (Elt Ideal) :=
  ((fun x v => Host.reduceAdd (F := Ideal) (φ := .f32) x v reducesTo_S1048576x32_S32_d0 h_S_) : (⟨S1048576x32, .f32⟩ : BufTy).Contents (Elt Ideal) → (⟨S_, .f32⟩ : BufTy).Contents (Elt Ideal) → (⟨S32, .f32⟩ : BufTy).Contents (Elt Ideal)) (v34 a) (cst_4 a)

/-- %cst_5 = stablehlo.constant dense<0x49800000> : tensor<f32> -/
def cst_5 (a : Cert.Spec.Args) : (⟨S_, .f32⟩ : BufTy).Contents (Elt Ideal) :=
  constant (F := Ideal) S_ .f32 0x49800000#32

/-- %36 = stablehlo.broadcast_in_dim %cst_5, dims = [] : (tensor<f32>) -> tensor<32xf32>  @ reference:9 -/
def v36 (a : Cert.Spec.Args) : (⟨S32, .f32⟩ : BufTy).Contents (Elt Ideal) :=
  (broadcastInDim S32 ![] bcast_S_S32 : (⟨S_, .f32⟩ : BufTy).Contents (Elt Ideal) → (⟨S32, .f32⟩ : BufTy).Contents (Elt Ideal)) (cst_5 a)

/-- %37 = stablehlo.divide %35, %36 : tensor<32xf32>  @ reference:9 -/
def v37 (a : Cert.Spec.Args) : (⟨S32, .f32⟩ : BufTy).Contents (Elt Ideal) :=
  (Host.divf (F := Ideal) (φ := .f32) : (⟨S32, .f32⟩ : BufTy).Contents (Elt Ideal) → (⟨S32, .f32⟩ : BufTy).Contents (Elt Ideal) → (⟨S32, .f32⟩ : BufTy).Contents (Elt Ideal)) (v35 a) (v36 a)

/-- %38 = stablehlo.broadcast_in_dim %30, dims = [1] : (tensor<32xf32>) -> tensor<1x32xf32>  @ reference:10 -/
def v38 (a : Cert.Spec.Args) : (⟨S1x32, .f32⟩ : BufTy).Contents (Elt Ideal) :=
  (broadcastInDim S1x32 ![1] bcast_S32_S1x32_1 : (⟨S32, .f32⟩ : BufTy).Contents (Elt Ideal) → (⟨S1x32, .f32⟩ : BufTy).Contents (Elt Ideal)) (v30 a)

/-- %39 = stablehlo.broadcast_in_dim %38, dims = [0, 1] : (tensor<1x32xf32>) -> tensor<1048576x32xf32>  @ reference:10 -/
def v39 (a : Cert.Spec.Args) : (⟨S1048576x32, .f32⟩ : BufTy).Contents (Elt Ideal) :=
  (broadcastInDim S1048576x32 ![0, 1] bcast_S1x32_S1048576x32_0_1 : (⟨S1x32, .f32⟩ : BufTy).Contents (Elt Ideal) → (⟨S1048576x32, .f32⟩ : BufTy).Contents (Elt Ideal)) (v38 a)

/-- %40 = stablehlo.subtract %27, %39 : tensor<1048576x32xf32>  @ reference:10 -/
def v40 (a : Cert.Spec.Args) : (⟨S1048576x32, .f32⟩ : BufTy).Contents (Elt Ideal) :=
  (subf (F := Ideal) (φ := .f32) : (⟨S1048576x32, .f32⟩ : BufTy).Contents (Elt Ideal) → (⟨S1048576x32, .f32⟩ : BufTy).Contents (Elt Ideal) → (⟨S1048576x32, .f32⟩ : BufTy).Contents (Elt Ideal)) (v27 a) (v39 a)

/-- %cst_6 = stablehlo.constant dense<9.99999974E-6> : tensor<f32> -/
def cst_6 (a : Cert.Spec.Args) : (⟨S_, .f32⟩ : BufTy).Contents (Elt Ideal) :=
  constant (F := Ideal) S_ .f32 0x3727C5AC#32

/-- %41 = stablehlo.broadcast_in_dim %cst_6, dims = [] : (tensor<f32>) -> tensor<32xf32>  @ reference:10 -/
def v41 (a : Cert.Spec.Args) : (⟨S32, .f32⟩ : BufTy).Contents (Elt Ideal) :=
  (broadcastInDim S32 ![] bcast_S_S32 : (⟨S_, .f32⟩ : BufTy).Contents (Elt Ideal) → (⟨S32, .f32⟩ : BufTy).Contents (Elt Ideal)) (cst_6 a)

/-- %42 = stablehlo.add %37, %41 : tensor<32xf32>  @ reference:10 -/
def v42 (a : Cert.Spec.Args) : (⟨S32, .f32⟩ : BufTy).Contents (Elt Ideal) :=
  (addf (F := Ideal) (φ := .f32) : (⟨S32, .f32⟩ : BufTy).Contents (Elt Ideal) → (⟨S32, .f32⟩ : BufTy).Contents (Elt Ideal) → (⟨S32, .f32⟩ : BufTy).Contents (Elt Ideal)) (v37 a) (v41 a)

/-- %43 = stablehlo.rsqrt %42 : tensor<32xf32>  @ reference:10 -/
def v43 (a : Cert.Spec.Args) : (⟨S32, .f32⟩ : BufTy).Contents (Elt Ideal) :=
  (Host.rsqrt (F := Ideal) (φ := .f32) : (⟨S32, .f32⟩ : BufTy).Contents (Elt Ideal) → (⟨S32, .f32⟩ : BufTy).Contents (Elt Ideal)) (v42 a)

/-- %44 = stablehlo.broadcast_in_dim %43, dims = [1] : (tensor<32xf32>) -> tensor<1x32xf32>  @ reference:10 -/
def v44 (a : Cert.Spec.Args) : (⟨S1x32, .f32⟩ : BufTy).Contents (Elt Ideal) :=
  (broadcastInDim S1x32 ![1] bcast_S32_S1x32_1 : (⟨S32, .f32⟩ : BufTy).Contents (Elt Ideal) → (⟨S1x32, .f32⟩ : BufTy).Contents (Elt Ideal)) (v43 a)

/-- %45 = stablehlo.broadcast_in_dim %44, dims = [0, 1] : (tensor<1x32xf32>) -> tensor<1048576x32xf32>  @ reference:10 -/
def v45 (a : Cert.Spec.Args) : (⟨S1048576x32, .f32⟩ : BufTy).Contents (Elt Ideal) :=
  (broadcastInDim S1048576x32 ![0, 1] bcast_S1x32_S1048576x32_0_1 : (⟨S1x32, .f32⟩ : BufTy).Contents (Elt Ideal) → (⟨S1048576x32, .f32⟩ : BufTy).Contents (Elt Ideal)) (v44 a)

/-- %46 = stablehlo.multiply %40, %45 : tensor<1048576x32xf32>  @ reference:10 -/
def v46 (a : Cert.Spec.Args) : (⟨S1048576x32, .f32⟩ : BufTy).Contents (Elt Ideal) :=
  (mulf (F := Ideal) (φ := .f32) : (⟨S1048576x32, .f32⟩ : BufTy).Contents (Elt Ideal) → (⟨S1048576x32, .f32⟩ : BufTy).Contents (Elt Ideal) → (⟨S1048576x32, .f32⟩ : BufTy).Contents (Elt Ideal)) (v40 a) (v45 a)

/-- %47 = stablehlo.broadcast_in_dim %arg3, dims = [1] : (tensor<32xf32>) -> tensor<1x32xf32>  @ reference:10 -/
def v47 (a : Cert.Spec.Args) : (⟨S1x32, .f32⟩ : BufTy).Contents (Elt Ideal) :=
  (broadcastInDim S1x32 ![1] bcast_S32_S1x32_1 : (⟨S32, .f32⟩ : BufTy).Contents (Elt Ideal) → (⟨S1x32, .f32⟩ : BufTy).Contents (Elt Ideal)) a.g1

/-- %48 = stablehlo.broadcast_in_dim %47, dims = [0, 1] : (tensor<1x32xf32>) -> tensor<1048576x32xf32>  @ reference:10 -/
def v48 (a : Cert.Spec.Args) : (⟨S1048576x32, .f32⟩ : BufTy).Contents (Elt Ideal) :=
  (broadcastInDim S1048576x32 ![0, 1] bcast_S1x32_S1048576x32_0_1 : (⟨S1x32, .f32⟩ : BufTy).Contents (Elt Ideal) → (⟨S1048576x32, .f32⟩ : BufTy).Contents (Elt Ideal)) (v47 a)

/-- %49 = stablehlo.multiply %46, %48 : tensor<1048576x32xf32>  @ reference:10 -/
def v49 (a : Cert.Spec.Args) : (⟨S1048576x32, .f32⟩ : BufTy).Contents (Elt Ideal) :=
  (mulf (F := Ideal) (φ := .f32) : (⟨S1048576x32, .f32⟩ : BufTy).Contents (Elt Ideal) → (⟨S1048576x32, .f32⟩ : BufTy).Contents (Elt Ideal) → (⟨S1048576x32, .f32⟩ : BufTy).Contents (Elt Ideal)) (v46 a) (v48 a)

/-- %50 = stablehlo.broadcast_in_dim %arg4, dims = [1] : (tensor<32xf32>) -> tensor<1x32xf32>  @ reference:10 -/
def v50 (a : Cert.Spec.Args) : (⟨S1x32, .f32⟩ : BufTy).Contents (Elt Ideal) :=
  (broadcastInDim S1x32 ![1] bcast_S32_S1x32_1 : (⟨S32, .f32⟩ : BufTy).Contents (Elt Ideal) → (⟨S1x32, .f32⟩ : BufTy).Contents (Elt Ideal)) a.be1

/-- %51 = stablehlo.broadcast_in_dim %50, dims = [0, 1] : (tensor<1x32xf32>) -> tensor<1048576x32xf32>  @ reference:10 -/
def v51 (a : Cert.Spec.Args) : (⟨S1048576x32, .f32⟩ : BufTy).Contents (Elt Ideal) :=
  (broadcastInDim S1048576x32 ![0, 1] bcast_S1x32_S1048576x32_0_1 : (⟨S1x32, .f32⟩ : BufTy).Contents (Elt Ideal) → (⟨S1048576x32, .f32⟩ : BufTy).Contents (Elt Ideal)) (v50 a)

/-- %52 = stablehlo.add %49, %51 : tensor<1048576x32xf32>  @ reference:10 -/
def v52 (a : Cert.Spec.Args) : (⟨S1048576x32, .f32⟩ : BufTy).Contents (Elt Ideal) :=
  (addf (F := Ideal) (φ := .f32) : (⟨S1048576x32, .f32⟩ : BufTy).Contents (Elt Ideal) → (⟨S1048576x32, .f32⟩ : BufTy).Contents (Elt Ideal) → (⟨S1048576x32, .f32⟩ : BufTy).Contents (Elt Ideal)) (v49 a) (v51 a)

/-- %cst_7 = stablehlo.constant dense<0.00999999977> : tensor<f32> -/
def cst_7 (a : Cert.Spec.Args) : (⟨S_, .f32⟩ : BufTy).Contents (Elt Ideal) :=
  constant (F := Ideal) S_ .f32 0x3C23D70A#32

/-- leaky_relu's zero -/
def call0_cst (a : Cert.Spec.Args) : (⟨S_, .f32⟩ : BufTy).Contents (Elt Ideal) :=
  constant (F := Ideal) S_ .f32 0x00000000#32

/-- leaky_relu's zero, broadcast -/
def call0_v0 (a : Cert.Spec.Args) : (⟨S1048576x32, .f32⟩ : BufTy).Contents (Elt Ideal) :=
  broadcastInDim S1048576x32 ![] bcast_S_S1048576x32 (call0_cst a)

/-- the comparison with zero -/
def call0_v1 (a : Cert.Spec.Args) : (⟨S1048576x32, .i1⟩ : BufTy).Contents (Elt Ideal) :=
  cmpf (F := Ideal) (φ := .f32) .oge (v52 a) (call0_v0 a)

/-- the slope, converted to its own format -/
def call0_v2 (a : Cert.Spec.Args) : (⟨S_, .f32⟩ : BufTy).Contents (Elt Ideal) :=
  id (cst_7 a)

/-- the slope, broadcast -/
def call0_v3 (a : Cert.Spec.Args) : (⟨S1048576x32, .f32⟩ : BufTy).Contents (Elt Ideal) :=
  broadcastInDim S1048576x32 ![] bcast_S_S1048576x32 (call0_v2 a)

/-- slope times the value -/
def call0_v4 (a : Cert.Spec.Args) : (⟨S1048576x32, .f32⟩ : BufTy).Contents (Elt Ideal) :=
  mulf (F := Ideal) (φ := .f32) (call0_v3 a) (v52 a)

/-- leaky ReLU: the value where it is at least zero, slope times it elsewhere -/
def v53 (a : Cert.Spec.Args) : (⟨S1048576x32, .f32⟩ : BufTy).Contents (Elt Ideal) :=
  select (call0_v1 a) (v52 a) (call0_v4 a)

/-- %54 = stablehlo.transpose %arg5, dims = [1, 0] : (tensor<32x32xf32>) -> tensor<32x32xf32>  @ reference:53 -/
def v54 (a : Cert.Spec.Args) : (⟨S32x32, .f32⟩ : BufTy).Contents (Elt Ideal) :=
  ((transpose S32x32 [1, 0] · transposes_S32x32_S32x32_1_0) : (⟨S32x32, .f32⟩ : BufTy).Contents (Elt Ideal) → (⟨S32x32, .f32⟩ : BufTy).Contents (Elt Ideal)) a.W2

/-- %55 = stablehlo.dot_general %53, %54, contracting_dims = [1] x [0], precision = [DEFAULT, DEFAULT] : (tensor<1048576x32xf32>, tensor<32x32xf32>) -> tensor<1048576x32xf32>  @ reference:53 -/
def v55 (a : Cert.Spec.Args) : (⟨S1048576x32, .f32⟩ : BufTy).Contents (Elt Ideal) :=
  ((fun l r => Host.dotGeneral (F := Ideal) (φ₁ := .f32) (φ₂ := .f32) dot_S1048576x32_S32x32_S1048576x32_1_0_0_1_n_n none l r) : (⟨S1048576x32, .f32⟩ : BufTy).Contents (Elt Ideal) → (⟨S32x32, .f32⟩ : BufTy).Contents (Elt Ideal) → (⟨S1048576x32, .f32⟩ : BufTy).Contents (Elt Ideal)) (v53 a) (v54 a)

/-- %56 = stablehlo.broadcast_in_dim %arg6, dims = [1] : (tensor<32xf32>) -> tensor<1x32xf32>  @ reference:53 -/
def v56 (a : Cert.Spec.Args) : (⟨S1x32, .f32⟩ : BufTy).Contents (Elt Ideal) :=
  (broadcastInDim S1x32 ![1] bcast_S32_S1x32_1 : (⟨S32, .f32⟩ : BufTy).Contents (Elt Ideal) → (⟨S1x32, .f32⟩ : BufTy).Contents (Elt Ideal)) a.b2

/-- %57 = stablehlo.broadcast_in_dim %56, dims = [0, 1] : (tensor<1x32xf32>) -> tensor<1048576x32xf32>  @ reference:53 -/
def v57 (a : Cert.Spec.Args) : (⟨S1048576x32, .f32⟩ : BufTy).Contents (Elt Ideal) :=
  (broadcastInDim S1048576x32 ![0, 1] bcast_S1x32_S1048576x32_0_1 : (⟨S1x32, .f32⟩ : BufTy).Contents (Elt Ideal) → (⟨S1048576x32, .f32⟩ : BufTy).Contents (Elt Ideal)) (v56 a)

/-- %58 = stablehlo.add %55, %57 : tensor<1048576x32xf32>  @ reference:53 -/
def v58 (a : Cert.Spec.Args) : (⟨S1048576x32, .f32⟩ : BufTy).Contents (Elt Ideal) :=
  (addf (F := Ideal) (φ := .f32) : (⟨S1048576x32, .f32⟩ : BufTy).Contents (Elt Ideal) → (⟨S1048576x32, .f32⟩ : BufTy).Contents (Elt Ideal) → (⟨S1048576x32, .f32⟩ : BufTy).Contents (Elt Ideal)) (v55 a) (v57 a)

/-- %cst_8 = stablehlo.constant dense<0.00999999977> : tensor<f32> -/
def cst_8 (a : Cert.Spec.Args) : (⟨S_, .f32⟩ : BufTy).Contents (Elt Ideal) :=
  constant (F := Ideal) S_ .f32 0x3C23D70A#32

/-- leaky_relu's zero -/
def call1_cst (a : Cert.Spec.Args) : (⟨S_, .f32⟩ : BufTy).Contents (Elt Ideal) :=
  constant (F := Ideal) S_ .f32 0x00000000#32

/-- leaky_relu's zero, broadcast -/
def call1_v0 (a : Cert.Spec.Args) : (⟨S1048576x32, .f32⟩ : BufTy).Contents (Elt Ideal) :=
  broadcastInDim S1048576x32 ![] bcast_S_S1048576x32 (call1_cst a)

/-- the comparison with zero -/
def call1_v1 (a : Cert.Spec.Args) : (⟨S1048576x32, .i1⟩ : BufTy).Contents (Elt Ideal) :=
  cmpf (F := Ideal) (φ := .f32) .oge (v58 a) (call1_v0 a)

/-- the slope, converted to its own format -/
def call1_v2 (a : Cert.Spec.Args) : (⟨S_, .f32⟩ : BufTy).Contents (Elt Ideal) :=
  id (cst_8 a)

/-- the slope, broadcast -/
def call1_v3 (a : Cert.Spec.Args) : (⟨S1048576x32, .f32⟩ : BufTy).Contents (Elt Ideal) :=
  broadcastInDim S1048576x32 ![] bcast_S_S1048576x32 (call1_v2 a)

/-- slope times the value -/
def call1_v4 (a : Cert.Spec.Args) : (⟨S1048576x32, .f32⟩ : BufTy).Contents (Elt Ideal) :=
  mulf (F := Ideal) (φ := .f32) (call1_v3 a) (v58 a)

/-- leaky ReLU: the value where it is at least zero, slope times it elsewhere -/
def v59 (a : Cert.Spec.Args) : (⟨S1048576x32, .f32⟩ : BufTy).Contents (Elt Ideal) :=
  select (call1_v1 a) (v58 a) (call1_v4 a)

/-- %60 = stablehlo.transpose %arg7, dims = [1, 0] : (tensor<2x32xf32>) -> tensor<32x2xf32>  @ reference:54 -/
def v60 (a : Cert.Spec.Args) : (⟨S32x2, .f32⟩ : BufTy).Contents (Elt Ideal) :=
  ((transpose S32x2 [1, 0] · transposes_S2x32_S32x2_1_0) : (⟨S2x32, .f32⟩ : BufTy).Contents (Elt Ideal) → (⟨S32x2, .f32⟩ : BufTy).Contents (Elt Ideal)) a.W3

/-- %61 = stablehlo.dot_general %59, %60, contracting_dims = [1] x [0], precision = [DEFAULT, DEFAULT] : (tensor<1048576x32xf32>, tensor<32x2xf32>) -> tensor<1048576x2xf32>  @ reference:54 -/
def v61 (a : Cert.Spec.Args) : (⟨S1048576x2, .f32⟩ : BufTy).Contents (Elt Ideal) :=
  ((fun l r => Host.dotGeneral (F := Ideal) (φ₁ := .f32) (φ₂ := .f32) dot_S1048576x32_S32x2_S1048576x2_1_0_0_1_n_n none l r) : (⟨S1048576x32, .f32⟩ : BufTy).Contents (Elt Ideal) → (⟨S32x2, .f32⟩ : BufTy).Contents (Elt Ideal) → (⟨S1048576x2, .f32⟩ : BufTy).Contents (Elt Ideal)) (v59 a) (v60 a)

/-- %62 = stablehlo.broadcast_in_dim %arg8, dims = [1] : (tensor<2xf32>) -> tensor<1x2xf32>  @ reference:54 -/
def v62 (a : Cert.Spec.Args) : (⟨S1x2, .f32⟩ : BufTy).Contents (Elt Ideal) :=
  (broadcastInDim S1x2 ![1] bcast_S2_S1x2_1 : (⟨S2, .f32⟩ : BufTy).Contents (Elt Ideal) → (⟨S1x2, .f32⟩ : BufTy).Contents (Elt Ideal)) a.b3

/-- %63 = stablehlo.broadcast_in_dim %62, dims = [0, 1] : (tensor<1x2xf32>) -> tensor<1048576x2xf32>  @ reference:54 -/
def v63 (a : Cert.Spec.Args) : (⟨S1048576x2, .f32⟩ : BufTy).Contents (Elt Ideal) :=
  (broadcastInDim S1048576x2 ![0, 1] bcast_S1x2_S1048576x2_0_1 : (⟨S1x2, .f32⟩ : BufTy).Contents (Elt Ideal) → (⟨S1048576x2, .f32⟩ : BufTy).Contents (Elt Ideal)) (v62 a)

/-- %64 = stablehlo.add %61, %63 : tensor<1048576x2xf32>  @ reference:54 -/
def v64 (a : Cert.Spec.Args) : (⟨S1048576x2, .f32⟩ : BufTy).Contents (Elt Ideal) :=
  (addf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) (v61 a) (v63 a)

/-- %65 = stablehlo.reshape %64 : (tensor<1048576x2xf32>) -> tensor<16x65536x2xf32>  @ reference:54 -/
def v65 (a : Cert.Spec.Args) : (⟨S16x65536x2, .f32⟩ : BufTy).Contents (Elt Ideal) :=
  shapeCast S16x65536x2 (v64 a) shapeCasts_S1048576x2_S16x65536x2

/-- %66 = stablehlo.slice %65 [0:16, 0:65536, 0:1] : (tensor<16x65536x2xf32>) -> tensor<16x65536x1xf32>  @ reference:55 -/
def v66 (a : Cert.Spec.Args) : (⟨S16x65536x1, .f32⟩ : BufTy).Contents (Elt Ideal) :=
  ((extractStridedSlice S16x65536x1 ![0, 0, 0] · slices_S16x65536x2_S16x65536x1_0_0_0) : (⟨S16x65536x2, .f32⟩ : BufTy).Contents (Elt Ideal) → (⟨S16x65536x1, .f32⟩ : BufTy).Contents (Elt Ideal)) (v65 a)

/-- %67 = stablehlo.reshape %66 : (tensor<16x65536x1xf32>) -> tensor<16x65536xf32>  @ reference:55 -/
def v67 (a : Cert.Spec.Args) : (⟨S16x65536, .f32⟩ : BufTy).Contents (Elt Ideal) :=
  shapeCast S16x65536 (v66 a) shapeCasts_S16x65536x1_S16x65536

/-- %68 = stablehlo.negate %67 : tensor<16x65536xf32>  @ reference:55 -/
def v68 (a : Cert.Spec.Args) : (⟨S16x65536, .f32⟩ : BufTy).Contents (Elt Ideal) :=
  (Host.negf (F := Ideal) (φ := .f32) : (⟨S16x65536, .f32⟩ : BufTy).Contents (Elt Ideal) → (⟨S16x65536, .f32⟩ : BufTy).Contents (Elt Ideal)) (v67 a)

/-- %69 = stablehlo.exponential %68 : tensor<16x65536xf32>  @ reference:55 -/
def v69 (a : Cert.Spec.Args) : (⟨S16x65536, .f32⟩ : BufTy).Contents (Elt Ideal) :=
  (Host.exp (F := Ideal) (φ := .f32) : (⟨S16x65536, .f32⟩ : BufTy).Contents (Elt Ideal) → (⟨S16x65536, .f32⟩ : BufTy).Contents (Elt Ideal)) (v68 a)

/-- %cst_9 = stablehlo.constant dense<1.000000e+00> : tensor<f32> -/
def cst_9 (a : Cert.Spec.Args) : (⟨S_, .f32⟩ : BufTy).Contents (Elt Ideal) :=
  constant (F := Ideal) S_ .f32 0x3F800000#32

/-- %70 = stablehlo.broadcast_in_dim %cst_9, dims = [] : (tensor<f32>) -> tensor<16x65536xf32>  @ reference:55 -/
def v70 (a : Cert.Spec.Args) : (⟨S16x65536, .f32⟩ : BufTy).Contents (Elt Ideal) :=
  (broadcastInDim S16x65536 ![] bcast_S_S16x65536 : (⟨S_, .f32⟩ : BufTy).Contents (Elt Ideal) → (⟨S16x65536, .f32⟩ : BufTy).Contents (Elt Ideal)) (cst_9 a)

/-- %71 = stablehlo.add %70, %69 : tensor<16x65536xf32>  @ reference:55 -/
def v71 (a : Cert.Spec.Args) : (⟨S16x65536, .f32⟩ : BufTy).Contents (Elt Ideal) :=
  (addf (F := Ideal) (φ := .f32) : (⟨S16x65536, .f32⟩ : BufTy).Contents (Elt Ideal) → (⟨S16x65536, .f32⟩ : BufTy).Contents (Elt Ideal) → (⟨S16x65536, .f32⟩ : BufTy).Contents (Elt Ideal)) (v70 a) (v69 a)

/-- %cst_10 = stablehlo.constant dense<1.000000e+00> : tensor<f32> -/
def cst_10 (a : Cert.Spec.Args) : (⟨S_, .f32⟩ : BufTy).Contents (Elt Ideal) :=
  constant (F := Ideal) S_ .f32 0x3F800000#32

/-- %72 = stablehlo.broadcast_in_dim %cst_10, dims = [] : (tensor<f32>) -> tensor<16x65536xf32>  @ reference:55 -/
def v72 (a : Cert.Spec.Args) : (⟨S16x65536, .f32⟩ : BufTy).Contents (Elt Ideal) :=
  (broadcastInDim S16x65536 ![] bcast_S_S16x65536 : (⟨S_, .f32⟩ : BufTy).Contents (Elt Ideal) → (⟨S16x65536, .f32⟩ : BufTy).Contents (Elt Ideal)) (cst_10 a)

/-- %73 = stablehlo.divide %72, %71 : tensor<16x65536xf32>  @ reference:55 -/
def v73 (a : Cert.Spec.Args) : (⟨S16x65536, .f32⟩ : BufTy).Contents (Elt Ideal) :=
  (Host.divf (F := Ideal) (φ := .f32) : (⟨S16x65536, .f32⟩ : BufTy).Contents (Elt Ideal) → (⟨S16x65536, .f32⟩ : BufTy).Contents (Elt Ideal) → (⟨S16x65536, .f32⟩ : BufTy).Contents (Elt Ideal)) (v72 a) (v71 a)

/-- %74 = stablehlo.slice %65 [0:16, 0:65536, 1:2] : (tensor<16x65536x2xf32>) -> tensor<16x65536x1xf32>  @ reference:56 -/
def v74 (a : Cert.Spec.Args) : (⟨S16x65536x1, .f32⟩ : BufTy).Contents (Elt Ideal) :=
  ((extractStridedSlice S16x65536x1 ![0, 0, 1] · slices_S16x65536x2_S16x65536x1_0_0_1) : (⟨S16x65536x2, .f32⟩ : BufTy).Contents (Elt Ideal) → (⟨S16x65536x1, .f32⟩ : BufTy).Contents (Elt Ideal)) (v65 a)

/-- %75 = stablehlo.reshape %74 : (tensor<16x65536x1xf32>) -> tensor<16x65536xf32>  @ reference:56 -/
def v75 (a : Cert.Spec.Args) : (⟨S16x65536, .f32⟩ : BufTy).Contents (Elt Ideal) :=
  shapeCast S16x65536 (v74 a) shapeCasts_S16x65536x1_S16x65536

/-- %76 = stablehlo.multiply %73, %75 : tensor<16x65536xf32>  @ reference:57 -/
def v76 (a : Cert.Spec.Args) : (⟨S16x65536, .f32⟩ : BufTy).Contents (Elt Ideal) :=
  (mulf (F := Ideal) (φ := .f32) : (⟨S16x65536, .f32⟩ : BufTy).Contents (Elt Ideal) → (⟨S16x65536, .f32⟩ : BufTy).Contents (Elt Ideal) → (⟨S16x65536, .f32⟩ : BufTy).Contents (Elt Ideal)) (v73 a) (v75 a)

/-- %77 = stablehlo.reshape %76 : (tensor<16x65536xf32>) -> tensor<16x256x4x64xf32>  @ reference:59 -/
def v77 (a : Cert.Spec.Args) : (⟨S16x256x4x64, .f32⟩ : BufTy).Contents (Elt Ideal) :=
  shapeCast S16x256x4x64 (v76 a) shapeCasts_S16x65536_S16x256x4x64

/-- %cst_11 = stablehlo.constant dense<0.000000e+00> : tensor<f32> -/
def cst_11 (a : Cert.Spec.Args) : (⟨S_, .f32⟩ : BufTy).Contents (Elt Ideal) :=
  constant (F := Ideal) S_ .f32 0x00000000#32

/-- %78 = stablehlo.reduce(%77 init: %cst_11) applies stablehlo.add across dimensions = [2] : (tensor<16x256x4x64xf32>, tensor<f32>) -> tensor<16x256x64xf32> {  @ reference:59 -/
def v78 (a : Cert.Spec.Args) : (⟨S16x256x64, .f32⟩ : BufTy).Contents (Elt Ideal) :=
  ((fun x v => Host.reduceAdd (F := Ideal) (φ := .f32) x v reducesTo_S16x256x4x64_S16x256x64_d2 h_S_) : (⟨S16x256x4x64, .f32⟩ : BufTy).Contents (Elt Ideal) → (⟨S_, .f32⟩ : BufTy).Contents (Elt Ideal) → (⟨S16x256x64, .f32⟩ : BufTy).Contents (Elt Ideal)) (v77 a) (cst_11 a)

/-- %79 = stablehlo.concatenate %arg0, %78, dim = 2 : (tensor<16x256x64xf32>, tensor<16x256x64xf32>) -> tensor<16x256x128xf32>  @ reference:60 -/
def v79 (a : Cert.Spec.Args) : (⟨S16x256x128, .f32⟩ : BufTy).Contents (Elt Ideal) :=
  ((fun a b => concatenate S16x256x128 2 [⟨S16x256x64, a⟩, ⟨S16x256x64, b⟩] concatenates_S16x256x64_S16x256x64_S16x256x128_d2) : (⟨S16x256x64, .f32⟩ : BufTy).Contents (Elt Ideal) → (⟨S16x256x64, .f32⟩ : BufTy).Contents (Elt Ideal) → (⟨S16x256x128, .f32⟩ : BufTy).Contents (Elt Ideal)) a.x (v78 a)

/-- %80 = stablehlo.reshape %79 : (tensor<16x256x128xf32>) -> tensor<4096x128xf32>  @ reference:60 -/
def v80 (a : Cert.Spec.Args) : (⟨S4096x128, .f32⟩ : BufTy).Contents (Elt Ideal) :=
  shapeCast S4096x128 (v79 a) shapeCasts_S16x256x128_S4096x128

/-- %81 = stablehlo.transpose %arg9, dims = [1, 0] : (tensor<16x128xf32>) -> tensor<128x16xf32>  @ reference:61 -/
def v81 (a : Cert.Spec.Args) : (⟨S128x16, .f32⟩ : BufTy).Contents (Elt Ideal) :=
  ((transpose S128x16 [1, 0] · transposes_S16x128_S128x16_1_0) : (⟨S16x128, .f32⟩ : BufTy).Contents (Elt Ideal) → (⟨S128x16, .f32⟩ : BufTy).Contents (Elt Ideal)) a.F1

/-- %82 = stablehlo.dot_general %80, %81, contracting_dims = [1] x [0], precision = [DEFAULT, DEFAULT] : (tensor<4096x128xf32>, tensor<128x16xf32>) -> tensor<4096x16xf32>  @ reference:61 -/
def v82 (a : Cert.Spec.Args) : (⟨S4096x16, .f32⟩ : BufTy).Contents (Elt Ideal) :=
  ((fun l r => Host.dotGeneral (F := Ideal) (φ₁ := .f32) (φ₂ := .f32) dot_S4096x128_S128x16_S4096x16_1_0_0_1_n_n none l r) : (⟨S4096x128, .f32⟩ : BufTy).Contents (Elt Ideal) → (⟨S128x16, .f32⟩ : BufTy).Contents (Elt Ideal) → (⟨S4096x16, .f32⟩ : BufTy).Contents (Elt Ideal)) (v80 a) (v81 a)

/-- %83 = stablehlo.broadcast_in_dim %arg10, dims = [1] : (tensor<16xf32>) -> tensor<1x16xf32>  @ reference:61 -/
def v83 (a : Cert.Spec.Args) : (⟨S1x16, .f32⟩ : BufTy).Contents (Elt Ideal) :=
  (broadcastInDim S1x16 ![1] bcast_S16_S1x16_1 : (⟨S16, .f32⟩ : BufTy).Contents (Elt Ideal) → (⟨S1x16, .f32⟩ : BufTy).Contents (Elt Ideal)) a.fb1

/-- %84 = stablehlo.broadcast_in_dim %83, dims = [0, 1] : (tensor<1x16xf32>) -> tensor<4096x16xf32>  @ reference:61 -/
def v84 (a : Cert.Spec.Args) : (⟨S4096x16, .f32⟩ : BufTy).Contents (Elt Ideal) :=
  (broadcastInDim S4096x16 ![0, 1] bcast_S1x16_S4096x16_0_1 : (⟨S1x16, .f32⟩ : BufTy).Contents (Elt Ideal) → (⟨S4096x16, .f32⟩ : BufTy).Contents (Elt Ideal)) (v83 a)

/-- %85 = stablehlo.add %82, %84 : tensor<4096x16xf32>  @ reference:61 -/
def v85 (a : Cert.Spec.Args) : (⟨S4096x16, .f32⟩ : BufTy).Contents (Elt Ideal) :=
  (addf (F := Ideal) (φ := .f32) : (⟨S4096x16, .f32⟩ : BufTy).Contents (Elt Ideal) → (⟨S4096x16, .f32⟩ : BufTy).Contents (Elt Ideal) → (⟨S4096x16, .f32⟩ : BufTy).Contents (Elt Ideal)) (v82 a) (v84 a)

/-- %cst_12 = stablehlo.constant dense<0.000000e+00> : tensor<f32> -/
def cst_12 (a : Cert.Spec.Args) : (⟨S_, .f32⟩ : BufTy).Contents (Elt Ideal) :=
  constant (F := Ideal) S_ .f32 0x00000000#32

/-- %86 = stablehlo.reduce(%85 init: %cst_12) applies stablehlo.add across dimensions = [0] : (tensor<4096x16xf32>, tensor<f32>) -> tensor<16xf32> {  @ reference:8 -/
def v86 (a : Cert.Spec.Args) : (⟨S16, .f32⟩ : BufTy).Contents (Elt Ideal) :=
  ((fun x v => Host.reduceAdd (F := Ideal) (φ := .f32) x v reducesTo_S4096x16_S16_d0 h_S_) : (⟨S4096x16, .f32⟩ : BufTy).Contents (Elt Ideal) → (⟨S_, .f32⟩ : BufTy).Contents (Elt Ideal) → (⟨S16, .f32⟩ : BufTy).Contents (Elt Ideal)) (v85 a) (cst_12 a)

/-- %cst_13 = stablehlo.constant dense<4.096000e+03> : tensor<f32> -/
def cst_13 (a : Cert.Spec.Args) : (⟨S_, .f32⟩ : BufTy).Contents (Elt Ideal) :=
  constant (F := Ideal) S_ .f32 0x45800000#32

/-- %87 = stablehlo.broadcast_in_dim %cst_13, dims = [] : (tensor<f32>) -> tensor<16xf32>  @ reference:8 -/
def v87 (a : Cert.Spec.Args) : (⟨S16, .f32⟩ : BufTy).Contents (Elt Ideal) :=
  (broadcastInDim S16 ![] bcast_S_S16 : (⟨S_, .f32⟩ : BufTy).Contents (Elt Ideal) → (⟨S16, .f32⟩ : BufTy).Contents (Elt Ideal)) (cst_13 a)

/-- %88 = stablehlo.divide %86, %87 : tensor<16xf32>  @ reference:8 -/
def v88 (a : Cert.Spec.Args) : (⟨S16, .f32⟩ : BufTy).Contents (Elt Ideal) :=
  (Host.divf (F := Ideal) (φ := .f32) : (⟨S16, .f32⟩ : BufTy).Contents (Elt Ideal) → (⟨S16, .f32⟩ : BufTy).Contents (Elt Ideal) → (⟨S16, .f32⟩ : BufTy).Contents (Elt Ideal)) (v86 a) (v87 a)

/-- %89 = stablehlo.broadcast_in_dim %88, dims = [1] : (tensor<16xf32>) -> tensor<1x16xf32>  @ reference:9 -/
def v89 (a : Cert.Spec.Args) : (⟨S1x16, .f32⟩ : BufTy).Contents (Elt Ideal) :=
  (broadcastInDim S1x16 ![1] bcast_S16_S1x16_1 : (⟨S16, .f32⟩ : BufTy).Contents (Elt Ideal) → (⟨S1x16, .f32⟩ : BufTy).Contents (Elt Ideal)) (v88 a)

/-- %90 = stablehlo.broadcast_in_dim %89, dims = [0, 1] : (tensor<1x16xf32>) -> tensor<4096x16xf32>  @ reference:9 -/
def v90 (a : Cert.Spec.Args) : (⟨S4096x16, .f32⟩ : BufTy).Contents (Elt Ideal) :=
  (broadcastInDim S4096x16 ![0, 1] bcast_S1x16_S4096x16_0_1 : (⟨S1x16, .f32⟩ : BufTy).Contents (Elt Ideal) → (⟨S4096x16, .f32⟩ : BufTy).Contents (Elt Ideal)) (v89 a)

/-- %91 = stablehlo.subtract %85, %90 : tensor<4096x16xf32>  @ reference:9 -/
def v91 (a : Cert.Spec.Args) : (⟨S4096x16, .f32⟩ : BufTy).Contents (Elt Ideal) :=
  (subf (F := Ideal) (φ := .f32) : (⟨S4096x16, .f32⟩ : BufTy).Contents (Elt Ideal) → (⟨S4096x16, .f32⟩ : BufTy).Contents (Elt Ideal) → (⟨S4096x16, .f32⟩ : BufTy).Contents (Elt Ideal)) (v85 a) (v90 a)

/-- %92 = stablehlo.multiply %91, %91 : tensor<4096x16xf32>  @ reference:9 -/
def v92 (a : Cert.Spec.Args) : (⟨S4096x16, .f32⟩ : BufTy).Contents (Elt Ideal) :=
  (mulf (F := Ideal) (φ := .f32) : (⟨S4096x16, .f32⟩ : BufTy).Contents (Elt Ideal) → (⟨S4096x16, .f32⟩ : BufTy).Contents (Elt Ideal) → (⟨S4096x16, .f32⟩ : BufTy).Contents (Elt Ideal)) (v91 a) (v91 a)

/-- %cst_14 = stablehlo.constant dense<0.000000e+00> : tensor<f32> -/
def cst_14 (a : Cert.Spec.Args) : (⟨S_, .f32⟩ : BufTy).Contents (Elt Ideal) :=
  constant (F := Ideal) S_ .f32 0x00000000#32

/-- %93 = stablehlo.reduce(%92 init: %cst_14) applies stablehlo.add across dimensions = [0] : (tensor<4096x16xf32>, tensor<f32>) -> tensor<16xf32> {  @ reference:9 -/
def v93 (a : Cert.Spec.Args) : (⟨S16, .f32⟩ : BufTy).Contents (Elt Ideal) :=
  ((fun x v => Host.reduceAdd (F := Ideal) (φ := .f32) x v reducesTo_S4096x16_S16_d0 h_S_) : (⟨S4096x16, .f32⟩ : BufTy).Contents (Elt Ideal) → (⟨S_, .f32⟩ : BufTy).Contents (Elt Ideal) → (⟨S16, .f32⟩ : BufTy).Contents (Elt Ideal)) (v92 a) (cst_14 a)

/-- %cst_15 = stablehlo.constant dense<4.096000e+03> : tensor<f32> -/
def cst_15 (a : Cert.Spec.Args) : (⟨S_, .f32⟩ : BufTy).Contents (Elt Ideal) :=
  constant (F := Ideal) S_ .f32 0x45800000#32

/-- %94 = stablehlo.broadcast_in_dim %cst_15, dims = [] : (tensor<f32>) -> tensor<16xf32>  @ reference:9 -/
def v94 (a : Cert.Spec.Args) : (⟨S16, .f32⟩ : BufTy).Contents (Elt Ideal) :=
  (broadcastInDim S16 ![] bcast_S_S16 : (⟨S_, .f32⟩ : BufTy).Contents (Elt Ideal) → (⟨S16, .f32⟩ : BufTy).Contents (Elt Ideal)) (cst_15 a)

/-- %95 = stablehlo.divide %93, %94 : tensor<16xf32>  @ reference:9 -/
def v95 (a : Cert.Spec.Args) : (⟨S16, .f32⟩ : BufTy).Contents (Elt Ideal) :=
  (Host.divf (F := Ideal) (φ := .f32) : (⟨S16, .f32⟩ : BufTy).Contents (Elt Ideal) → (⟨S16, .f32⟩ : BufTy).Contents (Elt Ideal) → (⟨S16, .f32⟩ : BufTy).Contents (Elt Ideal)) (v93 a) (v94 a)

/-- %96 = stablehlo.broadcast_in_dim %88, dims = [1] : (tensor<16xf32>) -> tensor<1x16xf32>  @ reference:10 -/
def v96 (a : Cert.Spec.Args) : (⟨S1x16, .f32⟩ : BufTy).Contents (Elt Ideal) :=
  (broadcastInDim S1x16 ![1] bcast_S16_S1x16_1 : (⟨S16, .f32⟩ : BufTy).Contents (Elt Ideal) → (⟨S1x16, .f32⟩ : BufTy).Contents (Elt Ideal)) (v88 a)

/-- %97 = stablehlo.broadcast_in_dim %96, dims = [0, 1] : (tensor<1x16xf32>) -> tensor<4096x16xf32>  @ reference:10 -/
def v97 (a : Cert.Spec.Args) : (⟨S4096x16, .f32⟩ : BufTy).Contents (Elt Ideal) :=
  (broadcastInDim S4096x16 ![0, 1] bcast_S1x16_S4096x16_0_1 : (⟨S1x16, .f32⟩ : BufTy).Contents (Elt Ideal) → (⟨S4096x16, .f32⟩ : BufTy).Contents (Elt Ideal)) (v96 a)

/-- %98 = stablehlo.subtract %85, %97 : tensor<4096x16xf32>  @ reference:10 -/
def v98 (a : Cert.Spec.Args) : (⟨S4096x16, .f32⟩ : BufTy).Contents (Elt Ideal) :=
  (subf (F := Ideal) (φ := .f32) : (⟨S4096x16, .f32⟩ : BufTy).Contents (Elt Ideal) → (⟨S4096x16, .f32⟩ : BufTy).Contents (Elt Ideal) → (⟨S4096x16, .f32⟩ : BufTy).Contents (Elt Ideal)) (v85 a) (v97 a)

/-- %cst_16 = stablehlo.constant dense<9.99999974E-6> : tensor<f32> -/
def cst_16 (a : Cert.Spec.Args) : (⟨S_, .f32⟩ : BufTy).Contents (Elt Ideal) :=
  constant (F := Ideal) S_ .f32 0x3727C5AC#32

/-- %99 = stablehlo.broadcast_in_dim %cst_16, dims = [] : (tensor<f32>) -> tensor<16xf32>  @ reference:10 -/
def v99 (a : Cert.Spec.Args) : (⟨S16, .f32⟩ : BufTy).Contents (Elt Ideal) :=
  (broadcastInDim S16 ![] bcast_S_S16 : (⟨S_, .f32⟩ : BufTy).Contents (Elt Ideal) → (⟨S16, .f32⟩ : BufTy).Contents (Elt Ideal)) (cst_16 a)

/-- %100 = stablehlo.add %95, %99 : tensor<16xf32>  @ reference:10 -/
def v100 (a : Cert.Spec.Args) : (⟨S16, .f32⟩ : BufTy).Contents (Elt Ideal) :=
  (addf (F := Ideal) (φ := .f32) : (⟨S16, .f32⟩ : BufTy).Contents (Elt Ideal) → (⟨S16, .f32⟩ : BufTy).Contents (Elt Ideal) → (⟨S16, .f32⟩ : BufTy).Contents (Elt Ideal)) (v95 a) (v99 a)

/-- %101 = stablehlo.rsqrt %100 : tensor<16xf32>  @ reference:10 -/
def v101 (a : Cert.Spec.Args) : (⟨S16, .f32⟩ : BufTy).Contents (Elt Ideal) :=
  (Host.rsqrt (F := Ideal) (φ := .f32) : (⟨S16, .f32⟩ : BufTy).Contents (Elt Ideal) → (⟨S16, .f32⟩ : BufTy).Contents (Elt Ideal)) (v100 a)

/-- %102 = stablehlo.broadcast_in_dim %101, dims = [1] : (tensor<16xf32>) -> tensor<1x16xf32>  @ reference:10 -/
def v102 (a : Cert.Spec.Args) : (⟨S1x16, .f32⟩ : BufTy).Contents (Elt Ideal) :=
  (broadcastInDim S1x16 ![1] bcast_S16_S1x16_1 : (⟨S16, .f32⟩ : BufTy).Contents (Elt Ideal) → (⟨S1x16, .f32⟩ : BufTy).Contents (Elt Ideal)) (v101 a)

/-- %103 = stablehlo.broadcast_in_dim %102, dims = [0, 1] : (tensor<1x16xf32>) -> tensor<4096x16xf32>  @ reference:10 -/
def v103 (a : Cert.Spec.Args) : (⟨S4096x16, .f32⟩ : BufTy).Contents (Elt Ideal) :=
  (broadcastInDim S4096x16 ![0, 1] bcast_S1x16_S4096x16_0_1 : (⟨S1x16, .f32⟩ : BufTy).Contents (Elt Ideal) → (⟨S4096x16, .f32⟩ : BufTy).Contents (Elt Ideal)) (v102 a)

/-- %104 = stablehlo.multiply %98, %103 : tensor<4096x16xf32>  @ reference:10 -/
def v104 (a : Cert.Spec.Args) : (⟨S4096x16, .f32⟩ : BufTy).Contents (Elt Ideal) :=
  (mulf (F := Ideal) (φ := .f32) : (⟨S4096x16, .f32⟩ : BufTy).Contents (Elt Ideal) → (⟨S4096x16, .f32⟩ : BufTy).Contents (Elt Ideal) → (⟨S4096x16, .f32⟩ : BufTy).Contents (Elt Ideal)) (v98 a) (v103 a)

/-- %105 = stablehlo.broadcast_in_dim %arg11, dims = [1] : (tensor<16xf32>) -> tensor<1x16xf32>  @ reference:10 -/
def v105 (a : Cert.Spec.Args) : (⟨S1x16, .f32⟩ : BufTy).Contents (Elt Ideal) :=
  (broadcastInDim S1x16 ![1] bcast_S16_S1x16_1 : (⟨S16, .f32⟩ : BufTy).Contents (Elt Ideal) → (⟨S1x16, .f32⟩ : BufTy).Contents (Elt Ideal)) a.fg

/-- %106 = stablehlo.broadcast_in_dim %105, dims = [0, 1] : (tensor<1x16xf32>) -> tensor<4096x16xf32>  @ reference:10 -/
def v106 (a : Cert.Spec.Args) : (⟨S4096x16, .f32⟩ : BufTy).Contents (Elt Ideal) :=
  (broadcastInDim S4096x16 ![0, 1] bcast_S1x16_S4096x16_0_1 : (⟨S1x16, .f32⟩ : BufTy).Contents (Elt Ideal) → (⟨S4096x16, .f32⟩ : BufTy).Contents (Elt Ideal)) (v105 a)

/-- %107 = stablehlo.multiply %104, %106 : tensor<4096x16xf32>  @ reference:10 -/
def v107 (a : Cert.Spec.Args) : (⟨S4096x16, .f32⟩ : BufTy).Contents (Elt Ideal) :=
  (mulf (F := Ideal) (φ := .f32) : (⟨S4096x16, .f32⟩ : BufTy).Contents (Elt Ideal) → (⟨S4096x16, .f32⟩ : BufTy).Contents (Elt Ideal) → (⟨S4096x16, .f32⟩ : BufTy).Contents (Elt Ideal)) (v104 a) (v106 a)

/-- %108 = stablehlo.broadcast_in_dim %arg12, dims = [1] : (tensor<16xf32>) -> tensor<1x16xf32>  @ reference:10 -/
def v108 (a : Cert.Spec.Args) : (⟨S1x16, .f32⟩ : BufTy).Contents (Elt Ideal) :=
  (broadcastInDim S1x16 ![1] bcast_S16_S1x16_1 : (⟨S16, .f32⟩ : BufTy).Contents (Elt Ideal) → (⟨S1x16, .f32⟩ : BufTy).Contents (Elt Ideal)) a.fbb

/-- %109 = stablehlo.broadcast_in_dim %108, dims = [0, 1] : (tensor<1x16xf32>) -> tensor<4096x16xf32>  @ reference:10 -/
def v109 (a : Cert.Spec.Args) : (⟨S4096x16, .f32⟩ : BufTy).Contents (Elt Ideal) :=
  (broadcastInDim S4096x16 ![0, 1] bcast_S1x16_S4096x16_0_1 : (⟨S1x16, .f32⟩ : BufTy).Contents (Elt Ideal) → (⟨S4096x16, .f32⟩ : BufTy).Contents (Elt Ideal)) (v108 a)

/-- %110 = stablehlo.add %107, %109 : tensor<4096x16xf32>  @ reference:10 -/
def v110 (a : Cert.Spec.Args) : (⟨S4096x16, .f32⟩ : BufTy).Contents (Elt Ideal) :=
  (addf (F := Ideal) (φ := .f32) : (⟨S4096x16, .f32⟩ : BufTy).Contents (Elt Ideal) → (⟨S4096x16, .f32⟩ : BufTy).Contents (Elt Ideal) → (⟨S4096x16, .f32⟩ : BufTy).Contents (Elt Ideal)) (v107 a) (v109 a)

/-- %cst_17 = stablehlo.constant dense<0.00999999977> : tensor<f32> -/
def cst_17 (a : Cert.Spec.Args) : (⟨S_, .f32⟩ : BufTy).Contents (Elt Ideal) :=
  constant (F := Ideal) S_ .f32 0x3C23D70A#32

/-- leaky_relu's zero -/
def call2_cst (a : Cert.Spec.Args) : (⟨S_, .f32⟩ : BufTy).Contents (Elt Ideal) :=
  constant (F := Ideal) S_ .f32 0x00000000#32

/-- leaky_relu's zero, broadcast -/
def call2_v0 (a : Cert.Spec.Args) : (⟨S4096x16, .f32⟩ : BufTy).Contents (Elt Ideal) :=
  broadcastInDim S4096x16 ![] bcast_S_S4096x16 (call2_cst a)

/-- the comparison with zero -/
def call2_v1 (a : Cert.Spec.Args) : (⟨S4096x16, .i1⟩ : BufTy).Contents (Elt Ideal) :=
  cmpf (F := Ideal) (φ := .f32) .oge (v110 a) (call2_v0 a)

/-- the slope, converted to its own format -/
def call2_v2 (a : Cert.Spec.Args) : (⟨S_, .f32⟩ : BufTy).Contents (Elt Ideal) :=
  id (cst_17 a)

/-- the slope, broadcast -/
def call2_v3 (a : Cert.Spec.Args) : (⟨S4096x16, .f32⟩ : BufTy).Contents (Elt Ideal) :=
  broadcastInDim S4096x16 ![] bcast_S_S4096x16 (call2_v2 a)

/-- slope times the value -/
def call2_v4 (a : Cert.Spec.Args) : (⟨S4096x16, .f32⟩ : BufTy).Contents (Elt Ideal) :=
  mulf (F := Ideal) (φ := .f32) (call2_v3 a) (v110 a)

/-- leaky ReLU: the value where it is at least zero, slope times it elsewhere -/
def v111 (a : Cert.Spec.Args) : (⟨S4096x16, .f32⟩ : BufTy).Contents (Elt Ideal) :=
  select (call2_v1 a) (v110 a) (call2_v4 a)

/-- %112 = stablehlo.transpose %arg13, dims = [1, 0] : (tensor<64x16xf32>) -> tensor<16x64xf32>  @ reference:63 -/
def v112 (a : Cert.Spec.Args) : (⟨S16x64, .f32⟩ : BufTy).Contents (Elt Ideal) :=
  ((transpose S16x64 [1, 0] · transposes_S64x16_S16x64_1_0) : (⟨S64x16, .f32⟩ : BufTy).Contents (Elt Ideal) → (⟨S16x64, .f32⟩ : BufTy).Contents (Elt Ideal)) a.F2

/-- %113 = stablehlo.dot_general %111, %112, contracting_dims = [1] x [0], precision = [DEFAULT, DEFAULT] : (tensor<4096x16xf32>, tensor<16x64xf32>) -> tensor<4096x64xf32>  @ reference:63 -/
def v113 (a : Cert.Spec.Args) : (⟨S4096x64, .f32⟩ : BufTy).Contents (Elt Ideal) :=
  ((fun l r => Host.dotGeneral (F := Ideal) (φ₁ := .f32) (φ₂ := .f32) dot_S4096x16_S16x64_S4096x64_1_0_0_1_n_n none l r) : (⟨S4096x16, .f32⟩ : BufTy).Contents (Elt Ideal) → (⟨S16x64, .f32⟩ : BufTy).Contents (Elt Ideal) → (⟨S4096x64, .f32⟩ : BufTy).Contents (Elt Ideal)) (v111 a) (v112 a)

/-- %114 = stablehlo.broadcast_in_dim %arg14, dims = [1] : (tensor<64xf32>) -> tensor<1x64xf32>  @ reference:63 -/
def v114 (a : Cert.Spec.Args) : (⟨S1x64, .f32⟩ : BufTy).Contents (Elt Ideal) :=
  (broadcastInDim S1x64 ![1] bcast_S64_S1x64_1 : (⟨S64, .f32⟩ : BufTy).Contents (Elt Ideal) → (⟨S1x64, .f32⟩ : BufTy).Contents (Elt Ideal)) a.fb2

/-- %115 = stablehlo.broadcast_in_dim %114, dims = [0, 1] : (tensor<1x64xf32>) -> tensor<4096x64xf32>  @ reference:63 -/
def v115 (a : Cert.Spec.Args) : (⟨S4096x64, .f32⟩ : BufTy).Contents (Elt Ideal) :=
  (broadcastInDim S4096x64 ![0, 1] bcast_S1x64_S4096x64_0_1 : (⟨S1x64, .f32⟩ : BufTy).Contents (Elt Ideal) → (⟨S4096x64, .f32⟩ : BufTy).Contents (Elt Ideal)) (v114 a)

/-- %116 = stablehlo.add %113, %115 : tensor<4096x64xf32>  @ reference:63 -/
def v116 (a : Cert.Spec.Args) : (⟨S4096x64, .f32⟩ : BufTy).Contents (Elt Ideal) :=
  (addf (F := Ideal) (φ := .f32) : (⟨S4096x64, .f32⟩ : BufTy).Contents (Elt Ideal) → (⟨S4096x64, .f32⟩ : BufTy).Contents (Elt Ideal) → (⟨S4096x64, .f32⟩ : BufTy).Contents (Elt Ideal)) (v113 a) (v115 a)

/-- %117 = stablehlo.reshape %116 : (tensor<4096x64xf32>) -> tensor<16x256x64xf32>  @ reference:63 -/
def v117 (a : Cert.Spec.Args) : (⟨S16x256x64, .f32⟩ : BufTy).Contents (Elt Ideal) :=
  shapeCast S16x256x64 (v116 a) shapeCasts_S4096x64_S16x256x64

end Cert.ReferenceIdeal.RefValue

end
-- ==== Proof.RefValueSums.lean ====
/-
  Sums re-indexed.  A sum over the 1048576 rows (entry b, source s, target t: row b · 65536 + s · 256 + t) is the
  nested sum over (b, s, t); a sum over the 4096 node rows (row b · 256 + s) the nested sum over (b, s); a sum over
  128 columns the sum over the first 64 plus the sum over the last 64.  A dot product with one contracted axis,
  read at an index, is the sum over that axis's coordinate of the products of the operands' factors.
-/
import proofs.«168503_j21964462751805_2_alg».proof.Proof.Spec
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx

/-- Edge number s · 256 + t of the ordered pair (s, t). -/
def edgeNo (s t : Fin 256) : Fin 65536 := ⟨s.val * 256 + t.val, by have := s.isLt; have := t.isLt; omega⟩

/-- Row b · 65536 + s · 256 + t of edge (s, t) of entry b. -/
def row (b : Fin 16) (s t : Fin 256) : Fin 1048576 :=
  ⟨b.val * 65536 + s.val * 256 + t.val, by have := b.isLt; have := s.isLt; have := t.isLt; omega⟩

/-- Row b · 256 + s of node s of entry b. -/
def node (b : Fin 16) (s : Fin 256) : Fin 4096 := ⟨b.val * 256 + s.val, by have := b.isLt; have := s.isLt; omega⟩

/-- The rows are the triples (b, s, t). -/
def rowEquiv : Fin 16 × Fin 256 × Fin 256 ≃ Fin 1048576 where
  toFun p := row p.1 p.2.1 p.2.2
  invFun r := (⟨r.val / 65536, by have := r.isLt; omega⟩, ⟨r.val / 256 % 256, by omega⟩, ⟨r.val % 256, by omega⟩)
  left_inv p := by
    obtain ⟨b, s, t⟩ := p
    have := b.isLt; have := s.isLt; have := t.isLt
    refine Prod.ext (Fin.ext ?_) (Prod.ext (Fin.ext ?_) (Fin.ext ?_))
    · show (b.val * 65536 + s.val * 256 + t.val) / 65536 = b.val; omega
    · show (b.val * 65536 + s.val * 256 + t.val) / 256 % 256 = s.val; omega
    · show (b.val * 65536 + s.val * 256 + t.val) % 256 = t.val; omega
  right_inv r := by
    have := r.isLt
    refine Fin.ext ?_
    show r.val / 65536 * 65536 + r.val / 256 % 256 * 256 + r.val % 256 = r.val
    omega

/-- A sum over the rows is the nested sum over entries, sources and targets. -/
theorem sum_rows {M : Type*} [AddCommMonoid M] (f : Fin 1048576 → M) :
    ∑ r, f r = ∑ b : Fin 16, ∑ s : Fin 256, ∑ t : Fin 256, f (row b s t) := by
  rw [← Equiv.sum_comp rowEquiv f, Fintype.sum_prod_type]
  refine Finset.sum_congr rfl fun b _ => ?_
  rw [Fintype.sum_prod_type]
  rfl

/-- The node rows are the pairs (b, s). -/
def nodeEquiv : Fin 16 × Fin 256 ≃ Fin 4096 where
  toFun p := node p.1 p.2
  invFun r := (⟨r.val / 256, by have := r.isLt; omega⟩, ⟨r.val % 256, by omega⟩)
  left_inv p := by
    obtain ⟨b, s⟩ := p
    have := b.isLt; have := s.isLt
    refine Prod.ext (Fin.ext ?_) (Fin.ext ?_)
    · show (b.val * 256 + s.val) / 256 = b.val; omega
    · show (b.val * 256 + s.val) % 256 = s.val; omega
  right_inv r := by
    have := r.isLt
    refine Fin.ext ?_
    show r.val / 256 * 256 + r.val % 256 = r.val
    omega

/-- A sum over the node rows is the nested sum over entries and nodes. -/
theorem sum_nodes {M : Type*} [AddCommMonoid M] (f : Fin 4096 → M) :
    ∑ r, f r = ∑ b : Fin 16, ∑ s : Fin 256, f (node b s) := by
  rw [← Equiv.sum_comp nodeEquiv f, Fintype.sum_prod_type]
  rfl

/-- A sum over 128 columns is the sum over the first 64 plus the sum over the last 64. -/
theorem sum_halves {M : Type*} [AddCommMonoid M] (f : Fin 128 → M) :
    ∑ c, f c = (∑ k : Fin 64, f (Cert.Spec.lo k)) + ∑ k : Fin 64, f (Cert.Spec.hi k) :=
  Fin.sum_univ_add (a := 64) (b := 64) (f : Fin (64 + 64) → M)

/-- A host dot product with ONE contracted axis of extent K, read at an index: the sum over the contracted coordinate
    of the products of the factors the operands have at the dot's operand indices. -/
theorem dot_sum {sl sr so : Shape} (D : DotDims sl sr so) (K : Nat) (hr : D.contr.rank = 1)
    (hs : D.contr.size ⟨0, by omega⟩ = K) (l : FVec Ideal sl .f32) (r : FVec Ideal sr .f32) (j : so.Idx)
    (L R : Fin K → EReal) (hl : ∀ c, l (D.lhsIdx j ((contrEquiv1 D K hr hs).symm c)) = L c)
    (hrr : ∀ c, r (D.rhsIdx j ((contrEquiv1 D K hr hs).symm c)) = R c) :
    Host.dotGeneral (F := Ideal) D none l r j = ∑ c : Fin K, L c * R c := by
  show FloatOps.dotGeneral D none .single l r j = _
  rw [Ideal.dotGeneral_apply, ← Equiv.sum_comp (contrEquiv1 D K hr hs).symm]
  exact Finset.sum_congr rfl fun c _ => by rw [hl c, hrr c]

end Cert.ReferenceIdeal.RefValue

end
-- ==== Proof.RefValueB1.lean ====
/-
  From the first normalisation's result to the gate.  Row e of the 1048576 edge rows is edge (s, t) of entry b with
  b = e / 65536, s = e / 256 % 256, t = e % 256.  Leaky ReLU of the normalised first layer is h1n; the second layer
  (W2, b2) with leaky ReLU is h2; the third (W3, b3) is out; reshaped to [16, 65536, 2], column 0 through
  1 / (1 + exp (−x)) is the gate: the first result.
-/
import proofs.«168503_j21964462751805_2_alg».proof.Proof.RefValueStages
import proofs.«168503_j21964462751805_2_alg».proof.Proof.RefValueSums

noncomputable section

open scoped BigOperators

namespace Cert.ReferenceIdeal.RefValue

open Idealize.ShloMosaic Idealize.ShloMosaic.ValueIdx Cert.ReferenceIdeal Cert.Spec

variable [Facts]
open Facts₀ Facts

/-- The entry of edge row e. -/
abbrev eb (e : Fin 1048576) : Fin 16 := ⟨e.val / 65536, by have := e.isLt; omega⟩
/-- The source of edge row e. -/
abbrev es (e : Fin 1048576) : Fin 256 := ⟨e.val / 256 % 256, by omega⟩
/-- The target of edge row e. -/
abbrev et (e : Fin 1048576) : Fin 256 := ⟨e.val % 256, by omega⟩

/-- The argument of the leaky ReLU in h1n: the first layer normalised, scaled and shifted. -/
def h1pre (a : Args) (b : Fin 16) (s t : Fin 256) (o : Fin 32) : EReal :=
  (((h1 a b s t o - mean1 a o) * inv1 a o) * a.g1 (ix1 o)) + a.be1 (ix1 o)

/-- The first leaky ReLU, element by element. -/
theorem v53_eq (a : Args) (i : S1048576x32.Idx) : v53 a i = lrelu (v52 a i) := by
  have h0 : call0_v0 a i = zero := by
    unfold call0_v0; exact broadcastInDim_scalar_apply _ _ _
  have h3 : call0_v3 a i = slope := by
    unfold call0_v3; exact broadcastInDim_scalar_apply _ _ _
  show Scalar.select (Ideal.cmp .oge (v52 a i) (call0_v0 a i)) (v52 a i) (call0_v3 a i * v52 a i) = _
  rw [h0, h3]; rfl

/-- The second leaky ReLU, element by element. -/
theorem v59_eq (a : Args) (i : S1048576x32.Idx) : v59 a i = lrelu (v58 a i) := by
  have h0 : call1_v0 a i = zero := by
    unfold call1_v0; exact broadcastInDim_scalar_apply _ _ _
  have h3 : call1_v3 a i = slope := by
    unfold call1_v3; exact broadcastInDim_scalar_apply _ _ _
  show Scalar.select (Ideal.cmp .oge (v58 a i) (call1_v0 a i)) (v58 a i) (call1_v3 a i * v58 a i) = _
  rw [h0, h3]; rfl

/-- W2 transposed. -/
theorem v54_apply (a : Args) (o p : Fin 32) : v54 a (ix2 o p) = a.W2 (ix2 p o) := by
  unfold v54; exact transpose_ix2_apply a.W2 transposes_S32x32_S32x32_1_0 o p

/-- W3 transposed. -/
theorem v60_apply (a : Args) (p : Fin 32) (j : Fin 2) : v60 a (ix2 p j) = a.W3 (ix2 j p) := by
  unfold v60; exact transpose_ix2_apply a.W3 transposes_S2x32_S32x2_1_0 p j

/-- A vector broadcast along the rows: [n] to [1, n] to [R, n]. -/
theorem bcast_rows {α : Type} {R n : Nat} (hn : n ≠ 1)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2))
    (x : (⟨1, ![n]⟩ : Shape).Idx → α) (r : Fin R) (o : Fin n) :
    broadcastInDim ⟨2, ![R, n]⟩ ![0, 1] h2 (broadcastInDim ⟨2, ![1, n]⟩ ![1] h1 x) (ix2 r o) = x (ix1 o) := by
  refine (broadcastInDim_apply _ h2 _ (ix2 r o) (ix2 (0 : Fin 1) o)
    (fun c => match c with | ⟨0, _⟩ => rfl | ⟨1, _⟩ => (if_neg hn).symm)).trans ?_
  exact broadcastInDim_apply _ h1 x (ix2 (0 : Fin 1) o) (ix1 o) (fun c => match c with | ⟨0, _⟩ => (if_neg hn).symm)

/-- The second layer's product, at row e and column p. -/
theorem v55_apply (a : Args) (e : Fin 1048576) (p : Fin 32) :
    v55 a (ix2 e p) = ∑ o : Fin 32, v53 a (ix2 e o) * a.W2 (ix2 p o) := by
  unfold v55
  refine dot_sum dot_S1048576x32_S32x32_S1048576x32_1_0_0_1_n_n 32 rfl rfl (v53 a) (v54 a) (ix2 e p)
    (fun o => v53 a (ix2 e o)) (fun o => a.W2 (ix2 p o)) (fun o => ?_) (fun o => ?_)
  · refine congrArg (v53 a) (funext fun d => ?_)
    match d with
    | ⟨0, _⟩ => exact Fin.ext rfl
    | ⟨1, _⟩ => exact Fin.ext rfl
  · refine (congrArg (v54 a) (funext fun d => ?_)).trans (v54_apply a o p)
    match d with
    | ⟨0, _⟩ => exact Fin.ext rfl
    | ⟨1, _⟩ => exact Fin.ext rfl

/-- The second layer before its leaky ReLU. -/
theorem v58_apply (a : Args) (e : Fin 1048576) (p : Fin 32) :
    v58 a (ix2 e p) = (∑ o : Fin 32, v53 a (ix2 e o) * a.W2 (ix2 p o)) + a.b2 (ix1 p) := by
  show v55 a (ix2 e p) + v57 a (ix2 e p) = _
  rw [v55_apply]
  congr 1
  unfold v57 v56
  exact bcast_rows (by decide) bcast_S32_S1x32_1 bcast_S1x32_S1048576x32_0_1 a.b2 e p

/-- The third layer's product, at row e and column j. -/
theorem v61_apply (a : Args) (e : Fin 1048576) (j : Fin 2) :
    v61 a (ix2 e j) = ∑ p : Fin 32, v59 a (ix2 e p) * a.W3 (ix2 j p) := by
  unfold v61
  refine dot_sum dot_S1048576x32_S32x2_S1048576x2_1_0_0_1_n_n 32 rfl rfl (v59 a) (v60 a) (ix2 e j)
    (fun p => v59 a (ix2 e p)) (fun p => a.W3 (ix2 j p)) (fun p => ?_) (fun p => ?_)
  · refine congrArg (v59 a) (funext fun d => ?_)
    match d with
    | ⟨0, _⟩ => exact Fin.ext rfl
    | ⟨1, _⟩ => exact Fin.ext rfl
  · refine (congrArg (v60 a) (funext fun d => ?_)).trans (v60_apply a p j)
    match d with
    | ⟨0, _⟩ => exact Fin.ext rfl
    | ⟨1, _⟩ => exact Fin.ext rfl

/-- The third layer. -/
theorem v64_apply (a : Args) (e : Fin 1048576) (j : Fin 2) :
    v64 a (ix2 e j) = (∑ p : Fin 32, v59 a (ix2 e p) * a.W3 (ix2 j p)) + a.b3 (ix1 j) := by
  show v61 a (ix2 e j) + v63 a (ix2 e j) = _
  rw [v61_apply]
  congr 1
  unfold v63 v62
  exact bcast_rows (by decide) bcast_S2_S1x2_1 bcast_S1x2_S1048576x2_0_1 a.b3 e j

section FromNormalised

variable (a : Args)
  (h52 : ∀ (e : Fin 1048576) (o : Fin 32), v52 a (ix2 e o) = h1pre a (eb e) (es e) (et e) o)
include h52

/-- h1n: the leaky ReLU of the normalised first layer. -/
theorem v53_apply (e : Fin 1048576) (o : Fin 32) : v53 a (ix2 e o) = h1n a (eb e) (es e) (et e) o := by
  rw [v53_eq, h52]; rfl

/-- h2: the second layer with its leaky ReLU. -/
theorem v59_apply (e : Fin 1048576) (p : Fin 32) : v59 a (ix2 e p) = h2 a (eb e) (es e) (et e) p := by
  rw [v59_eq, v58_apply]
  simp only [v53_apply a h52]
  rfl

/-- out: the third layer. -/
theorem v64_out (e : Fin 1048576) (j : Fin 2) : v64 a (ix2 e j) = out a (eb e) (es e) (et e) j := by
  rw [v64_apply]
  simp only [v59_apply a h52]
  rfl

end FromNormalised

end Cert.ReferenceIdeal.RefValue

end
-- ==== Proof.RefValueB2.lean ====
/-
  The gate and the gated message.  The third layer's result, [1048576, 2], is reshaped to [16, 65536, 2]: entry
  (b, e, j) is row b · 65536 + e, column j.  Column 0, through 1 / (1 + exp (−x)), is the gate of edge
  (e / 256, e % 256): the first result.  Column 1 times the gate is the gated message.
-/
import proofs.«168503_j21964462751805_2_alg».proof.Proof.RefValueB1

noncomputable section

open scoped BigOperators

namespace Cert.ReferenceIdeal.RefValue

open Idealize.ShloMosaic Idealize.ShloMosaic.ValueIdx Cert.ReferenceIdeal Cert.Spec

variable [Facts]
open Facts₀ Facts

/-- Row b · 65536 + e of edge number e of entry b. -/
def rowOf (b : Fin 16) (e : Fin 65536) : Fin 1048576 := ⟨b.val * 65536 + e.val, by have := b.isLt; have := e.isLt; omega⟩

/-- The reshape to [16, 65536, 2]. -/
theorem v65_apply (a : Args) (b : Fin 16) (e : Fin 65536) (j : Fin 2) :
    v65 a (ix3 b e j) = v64 a (ix2 (rowOf b e) j) := by
  unfold v65
  refine shapeCast_apply (v64 a) shapeCasts_S1048576x2_S16x65536x2 (ix3 b e j) (ix2 (rowOf b e) j) ?_
  rw [Shape.rowMajor_val_two, Shape.rowMajor_val_three]
  rfl

/-- Column 0, as a [16, 65536] array. -/
theorem v67_apply (a : Args) (b : Fin 16) (e : Fin 65536) : v67 a (ix2 b e) = v64 a (ix2 (rowOf b e) (0 : Fin 2)) := by
  unfold v67
  refine (shapeCast_apply (v66 a) shapeCasts_S16x65536x1_S16x65536 (ix2 b e) (ix3 b e (0 : Fin 1)) ?_).trans ?_
  · rw [Shape.rowMajor_val_two, Shape.rowMajor_val_three]
    show (b.val * 65536 + e.val) * 1 + 0 = b.val * 65536 + e.val
    omega
  · unfold v66
    refine (extractStridedSlice_apply _ (v65 a) slices_S16x65536x2_S16x65536x1_0_0_0 (ix3 b e (0 : Fin 1)) (ix3 b e (0 : Fin 2))
      (fun c => match c with
        | ⟨0, _⟩ => (Nat.zero_add _).symm | ⟨1, _⟩ => (Nat.zero_add _).symm | ⟨2, _⟩ => (Nat.zero_add _).symm)).trans ?_
    exact v65_apply a b e 0

/-- Column 1, as a [16, 65536] array. -/
theorem v75_apply (a : Args) (b : Fin 16) (e : Fin 65536) : v75 a (ix2 b e) = v64 a (ix2 (rowOf b e) (1 : Fin 2)) := by
  unfold v75
  refine (shapeCast_apply (v74 a) shapeCasts_S16x65536x1_S16x65536 (ix2 b e) (ix3 b e (0 : Fin 1)) ?_).trans ?_
  · rw [Shape.rowMajor_val_two, Shape.rowMajor_val_three]
    show (b.val * 65536 + e.val) * 1 + 0 = b.val * 65536 + e.val
    omega
  · unfold v74
    refine (extractStridedSlice_apply _ (v65 a) slices_S16x65536x2_S16x65536x1_0_0_1 (ix3 b e (0 : Fin 1)) (ix3 b e (1 : Fin 2))
      (fun c => match c with
        | ⟨0, _⟩ => (Nat.zero_add _).symm | ⟨1, _⟩ => (Nat.zero_add _).symm | ⟨2, _⟩ => rfl)).trans ?_
    exact v65_apply a b e 1

/-- 1 / (1 + exp (−x)), element by element, is the logistic function. -/
theorem v73_eq (a : Args) (i : S16x65536.Idx) : v73 a i = Ideal.logistic (v67 a i) := by
  have h72 : v72 a i = 1 := by
    unfold v72; exact (broadcastInDim_scalar_apply _ _ _).trans Ideal.ofBits_one_f32
  have h70 : v70 a i = 1 := by
    unfold v70; exact (broadcastInDim_scalar_apply _ _ _).trans Ideal.ofBits_one_f32
  have e73 : v73 a i = Ideal.div (v72 a i) (v71 a i) := by
    unfold v73; exact hostDivf_apply (v72 a) (v71 a) i
  have e71 : v71 a i = v70 a i + v69 a i := by
    unfold v71; exact addf_apply (v70 a) (v69 a) i
  have e69 : v69 a i = Ideal.exp (v68 a i) := by
    unfold v69; rfl
  have e68 : v68 a i = -(v67 a i) := by
    unfold v68; rfl
  rw [e73, e71, e69, e68, h72, h70]; rfl

/-- The entry, source and target of row b · 65536 + e. -/
theorem eb_rowOf (b : Fin 16) (e : Fin 65536) : eb (rowOf b e) = b :=
  Fin.ext (by have := b.isLt; have := e.isLt; show (b.val * 65536 + e.val) / 65536 = b.val; omega)
theorem es_rowOf (b : Fin 16) (e : Fin 65536) : es (rowOf b e) = ⟨e.val / 256, by have := e.isLt; omega⟩ :=
  Fin.ext (by have := b.isLt; have := e.isLt; show (b.val * 65536 + e.val) / 256 % 256 = e.val / 256; omega)
theorem et_rowOf (b : Fin 16) (e : Fin 65536) : et (rowOf b e) = ⟨e.val % 256, by omega⟩ :=
  Fin.ext (by have := b.isLt; have := e.isLt; show (b.val * 65536 + e.val) % 256 = e.val % 256; omega)

section FromNormalised

variable (a : Args)
  (h52 : ∀ (e : Fin 1048576) (o : Fin 32), v52 a (ix2 e o) = h1pre a (eb e) (es e) (et e) o)
include h52

/-- The gate of edge number e of entry b. -/
theorem v73_apply (b : Fin 16) (e : Fin 65536) :
    v73 a (ix2 b e) = edge a b ⟨e.val / 256, by have := e.isLt; omega⟩ ⟨e.val % 256, by omega⟩ := by
  rw [v73_eq, v67_apply, v64_out a h52, eb_rowOf, es_rowOf, et_rowOf]
  rfl

/-- The first result. -/
theorem v73_edgesOut : v73 a = edgesOut a := by
  funext i
  obtain ⟨b, e, rfl⟩ : ∃ b e, i = ix2 b e := ⟨_, _, eq_ix2 i⟩
  exact v73_apply a h52 b e

/-- The gated message of edge number e of entry b. -/
theorem v76_apply (b : Fin 16) (e : Fin 65536) :
    v76 a (ix2 b e) = weighted a b ⟨e.val / 256, by have := e.isLt; omega⟩ ⟨e.val % 256, by omega⟩ := by
  have e76 : v76 a (ix2 b e) = v73 a (ix2 b e) * v75 a (ix2 b e) := by
    unfold v76; exact mulf_apply (v73 a) (v75 a) _
  rw [e76, v73_apply a h52, v75_apply, v64_out a h52, eb_rowOf, es_rowOf, et_rowOf]
  rfl

end FromNormalised

end Cert.ReferenceIdeal.RefValue

end
-- ==== Proof.RefValueB3.lean ====
/-
  The aggregate and the first node layer.  The gated messages, [16, 65536], are reshaped to [16, 256, 4, 64]:
  entry (b, s, g, d) is edge (s, g · 64 + d).  Summed over g they are node s's aggregate.  The node's features
  followed by its aggregate (width 128), reshaped to 4096 node rows (row b · 256 + s), go through the layer (F1, fb1):
  h2pre.
-/
import proofs.«168503_j21964462751805_2_alg».proof.Proof.RefValueB2

noncomputable section

open scoped BigOperators

namespace Cert.ReferenceIdeal.RefValue

open Idealize.ShloMosaic Idealize.ShloMosaic.ValueIdx Cert.ReferenceIdeal Cert.Spec

variable [Facts]
open Facts₀ Facts

/-- The entry of node row n. -/
abbrev nb (n : Fin 4096) : Fin 16 := ⟨n.val / 256, by have := n.isLt; omega⟩
/-- The node of node row n. -/
abbrev ns (n : Fin 4096) : Fin 256 := ⟨n.val % 256, by omega⟩

/-- The reshape to [16, 256, 4, 64]. -/
theorem v77_apply (a : Args) (b : Fin 16) (s : Fin 256) (g : Fin 4) (d : Fin 64) :
    v77 a (ix4 b s g d) = v76 a (ix2 b (edgeNo s (tgt g d))) := by
  unfold v77
  refine shapeCast_apply (v76 a) shapeCasts_S16x65536_S16x256x4x64 (ix4 b s g d) (ix2 b (edgeNo s (tgt g d))) ?_
  rw [Shape.rowMajor_val_two, Shape.rowMajor_val_four]
  show b.val * 65536 + (s.val * 256 + (g.val * 64 + d.val)) = ((b.val * 256 + s.val) * 4 + g.val) * 64 + d.val
  omega

/-- The sum over the four groups. -/
theorem v78_apply (a : Args) (b : Fin 16) (s : Fin 256) (d : Fin 64) :
    v78 a (ix3 b s d) = ∑ g : Fin 4, v77 a (ix4 b s g d) := by
  have hR : S16x256x4x64.Reduces [2] S16x256x64 := by decide
  have h0 : cst_11 a (Shape.Idx.first h_S_) = 0 := Ideal.ofBits_zero_f32
  show Ideal.hostReduceAdd reducesTo_S16x256x4x64_S16x256x64_d2 (v77 a) (cst_11 a (Shape.Idx.first h_S_)) (ix3 b s d) = _
  rw [Ideal.hostReduceAdd_single _ hR, h0, zero_add]
  refine Finset.sum_congr rfl fun g _ => congrArg (v77 a) (funext fun c => ?_)
  match c with
  | ⟨0, _⟩ => exact Fin.ext rfl
  | ⟨1, _⟩ => exact Fin.ext rfl
  | ⟨2, _⟩ => exact Fin.ext rfl
  | ⟨3, _⟩ => exact Fin.ext rfl

/-- The first 64 columns of the concatenation: the node's features. -/
theorem v79_lo (a : Args) (b : Fin 16) (s : Fin 256) (k : Fin 64) : v79 a (ix3 b s (lo k)) = a.x (ix3 b s k) := by
  unfold v79
  exact concatenate_pair_apply_left (2 : Fin 3) a.x (v78 a) concatenates_S16x256x64_S16x256x64_S16x256x128_d2
    (ix3 b s (lo k)) rfl (ix3 b s k) (fun c => match c with | ⟨0, _⟩ => rfl | ⟨1, _⟩ => rfl | ⟨2, _⟩ => rfl)

/-- The last 64 columns of the concatenation: the node's aggregate. -/
theorem v79_hi (a : Args) (b : Fin 16) (s : Fin 256) (k : Fin 64) : v79 a (ix3 b s (hi k)) = v78 a (ix3 b s k) := by
  unfold v79
  exact concatenate_pair_apply_right (2 : Fin 3) a.x (v78 a) concatenates_S16x256x64_S16x256x64_S16x256x128_d2
    (ix3 b s (hi k)) rfl rfl (ix3 b s k)
    (fun c => match c with | ⟨0, _⟩ => fun _ => rfl | ⟨1, _⟩ => fun _ => rfl | ⟨2, _⟩ => fun h => absurd rfl h)
    (Nat.add_comm _ _)

/-- The reshape to 4096 node rows. -/
theorem v80_apply (a : Args) (n : Fin 4096) (c : Fin 128) : v80 a (ix2 n c) = v79 a (ix3 (nb n) (ns n) c) := by
  unfold v80
  refine shapeCast_apply (v79 a) shapeCasts_S16x256x128_S4096x128 (ix2 n c) (ix3 (nb n) (ns n) c) ?_
  rw [Shape.rowMajor_val_two, Shape.rowMajor_val_three]
  show (n.val / 256 * 256 + n.val % 256) * 128 + c.val = n.val * 128 + c.val
  omega

/-- F1 transposed. -/
theorem v81_apply (a : Args) (c : Fin 128) (q : Fin 16) : v81 a (ix2 c q) = a.F1 (ix2 q c) := by
  unfold v81; exact transpose_ix2_apply a.F1 transposes_S16x128_S128x16_1_0 c q

/-- The node layer's product, at node row n and column q. -/
theorem v82_apply (a : Args) (n : Fin 4096) (q : Fin 16) :
    v82 a (ix2 n q) = ∑ c : Fin 128, v80 a (ix2 n c) * a.F1 (ix2 q c) := by
  unfold v82
  refine dot_sum dot_S4096x128_S128x16_S4096x16_1_0_0_1_n_n 128 rfl rfl (v80 a) (v81 a) (ix2 n q)
    (fun c => v80 a (ix2 n c)) (fun c => a.F1 (ix2 q c)) (fun c => ?_) (fun c => ?_)
  · refine congrArg (v80 a) (funext fun d => ?_)
    match d with
    | ⟨0, _⟩ => exact Fin.ext rfl
    | ⟨1, _⟩ => exact Fin.ext rfl
  · refine (congrArg (v81 a) (funext fun d => ?_)).trans (v81_apply a c q)
    match d with
    | ⟨0, _⟩ => exact Fin.ext rfl
    | ⟨1, _⟩ => exact Fin.ext rfl

/-- The node layer before its normalisation, over the stages. -/
theorem v85_stage (a : Args) (n : Fin 4096) (q : Fin 16) :
    v85 a (ix2 n q) = ((∑ k : Fin 64, a.x (ix3 (nb n) (ns n) k) * a.F1 (ix2 q (lo k)))
      + (∑ k : Fin 64, v78 a (ix3 (nb n) (ns n) k) * a.F1 (ix2 q (hi k)))) + a.fb1 (ix1 q) := by
  have h84 : v84 a (ix2 n q) = a.fb1 (ix1 q) := by
    unfold v84 v83
    exact bcast_rows (by decide) bcast_S16_S1x16_1 bcast_S1x16_S4096x16_0_1 a.fb1 n q
  show v82 a (ix2 n q) + v84 a (ix2 n q) = _
  rw [v82_apply, h84, sum_halves]
  simp only [v80_apply, v79_lo, v79_hi]

section FromNormalised

variable (a : Args)
  (h52 : ∀ (e : Fin 1048576) (o : Fin 32), v52 a (ix2 e o) = h1pre a (eb e) (es e) (et e) o)
include h52

/-- Node s's aggregate. -/
theorem v78_agg (b : Fin 16) (s : Fin 256) (d : Fin 64) : v78 a (ix3 b s d) = agg a b s d := by
  rw [v78_apply]
  unfold agg
  refine Finset.sum_congr rfl fun g _ => ?_
  rw [v77_apply, v76_apply a h52]
  have hs : (⟨(edgeNo s (tgt g d)).val / 256, by have := (edgeNo s (tgt g d)).isLt; omega⟩ : Fin 256) = s :=
    Fin.ext (by have := s.isLt; have := g.isLt; have := d.isLt
                show (s.val * 256 + (g.val * 64 + d.val)) / 256 = s.val; omega)
  have ht : (⟨(edgeNo s (tgt g d)).val % 256, by omega⟩ : Fin 256) = tgt g d :=
    Fin.ext (by have := s.isLt; have := g.isLt; have := d.isLt
                show (s.val * 256 + (g.val * 64 + d.val)) % 256 = g.val * 64 + d.val; omega)
  rw [hs, ht]

/-- h2pre: the node layer before its normalisation. -/
theorem v85_apply (n : Fin 4096) (q : Fin 16) : v85 a (ix2 n q) = h2pre a (nb n) (ns n) q := by
  rw [v85_stage]
  simp only [v78_agg a h52]
  rfl

end FromNormalised

end Cert.ReferenceIdeal.RefValue

end
-- ==== Proof.RefValueIdx.lean ====
/-
  The two index arrays of the reference — for edge number e of the 65536 ordered pairs of nodes, the source e / 256
  and the target e % 256, each built from an iota by a broadcast and a reshape and then passed through the
  negative-index wrap (which never fires: the numbers are not negative) — and the two gathers of the node features
  through them, read at an index.
-/
import proofs.«168503_j21964462751805_2_alg».proof.Proof.RefValueStages
import Idealize.ShloMosaic.Lib.WordArith

noncomputable section

namespace Cert.ReferenceIdeal.RefValue

open Idealize.ShloMosaic Idealize.ShloMosaic.ValueIdx Cert.ReferenceIdeal

variable [Facts]
open Facts₀ Facts

/-- A number below 2³¹ is not negative as a signed 32-bit word. -/
theorem slt_zero_ofNat (n : Nat) (h : n < 2 ^ 31) : IntOp.cmpi .slt (BitVec.ofNat 32 n) 0#32 = 0#1 := by
  have e := WordArith.toInt_ofNat_small n h
  simp only [IntOp.cmpi, BitVec.slt, e]
  have h0 : ¬ ((n : Int) < 0) := by omega
  simp [h0]

/-- Such a number read back signed is itself. -/
theorem toInt_toNat_ofNat (n : Nat) (h : n < 2 ^ 31) : (BitVec.ofNat 32 n).toInt.toNat = n := by
  rw [WordArith.toInt_ofNat_small n h]; simp

/-- The source word of edge e is e / 256. -/
theorem v2_apply (a : Cert.Spec.Args) (e : Fin 65536) : v2 a (ix1 e) = BitVec.ofNat 32 (e.val / 256) := by
  unfold v2
  refine (shapeCast_apply (v1 a) shapeCasts_S256x256_S65536 (ix1 e)
    (ix2 (⟨e.val / 256, by omega⟩ : Fin 256) (⟨e.val % 256, by omega⟩ : Fin 256)) ?_).trans ?_
  · rw [Shape.rowMajor_val_two, Shape.rowMajor_val_one]
    show e.val / 256 * 256 + e.val % 256 = e.val
    omega
  · unfold v1
    refine (broadcastInDim_apply _ bcast_S256_S256x256_0 (v0 a) _ (ix1 (⟨e.val / 256, by omega⟩ : Fin 256))
      (fun c => match c with | ⟨0, _⟩ => rfl)).trans ?_
    rfl

/-- The target word of edge e is e % 256. -/
theorem v6_apply (a : Cert.Spec.Args) (e : Fin 65536) : v6 a (ix1 e) = BitVec.ofNat 32 (e.val % 256) := by
  unfold v6
  refine (shapeCast_apply (v5 a) shapeCasts_S256x256_S65536 (ix1 e)
    (ix2 (⟨e.val / 256, by omega⟩ : Fin 256) (⟨e.val % 256, by omega⟩ : Fin 256)) ?_).trans ?_
  · rw [Shape.rowMajor_val_two, Shape.rowMajor_val_one]
    show e.val / 256 * 256 + e.val % 256 = e.val
    omega
  · unfold v5
    refine (broadcastInDim_apply _ bcast_S1x256_S256x256_0_1 (v4 a) _ (ix2 (0 : Fin 1) (⟨e.val % 256, by omega⟩ : Fin 256))
      (fun c => match c with | ⟨0, _⟩ => rfl | ⟨1, _⟩ => rfl)).trans ?_
    unfold v4
    refine (shapeCast_a_1a_apply (v3 a) shapeCasts_S256_S1x256 0 _).trans ?_
    rfl

/-- The wrap leaves the source word as it is. -/
theorem v11_apply (a : Cert.Spec.Args) (e : Fin 65536) : v11 a (ix1 e) = BitVec.ofNat 32 (e.val / 256) := by
  show Scalar.select (IntOp.cmpi .slt (v2 a (ix1 e)) (v7 a (ix1 e))) (v10 a (ix1 e)) (v2 a (ix1 e)) = _
  have h7 : v7 a (ix1 e) = 0#32 := by
    unfold v7; exact broadcastInDim_scalar_apply _ _ _
  rw [h7, v2_apply, slt_zero_ofNat _ (by omega), select_zero]

/-- The wrap leaves the target word as it is. -/
theorem v18_apply (a : Cert.Spec.Args) (e : Fin 65536) : v18 a (ix1 e) = BitVec.ofNat 32 (e.val % 256) := by
  show Scalar.select (IntOp.cmpi .slt (v6 a (ix1 e)) (v14 a (ix1 e))) (v17 a (ix1 e)) (v6 a (ix1 e)) = _
  have h7 : v14 a (ix1 e) = 0#32 := by
    unfold v14; exact broadcastInDim_scalar_apply _ _ _
  rw [h7, v6_apply, slt_zero_ofNat _ (by omega), select_zero]

/-- The start-index array of the first gather at (e, 0). -/
theorem v12_apply (a : Cert.Spec.Args) (e : Fin 65536) : v12 a (ix2 e (0 : Fin 1)) = BitVec.ofNat 32 (e.val / 256) := by
  unfold v12
  refine (broadcastInDim_apply _ bcast_S65536_S65536x1_0 (v11 a) _ (ix1 e) (fun c => match c with | ⟨0, _⟩ => rfl)).trans ?_
  exact v11_apply a e

/-- The start-index array of the second gather at (e, 0). -/
theorem v19_apply (a : Cert.Spec.Args) (e : Fin 65536) : v19 a (ix2 e (0 : Fin 1)) = BitVec.ofNat 32 (e.val % 256) := by
  unfold v19
  refine (broadcastInDim_apply _ bcast_S65536_S65536x1_0 (v18 a) _ (ix1 e) (fun c => match c with | ⟨0, _⟩ => rfl)).trans ?_
  exact v18_apply a e

/-- The gather of rows of the node features: entry (b, e, k) of the result is the operand at (b, r, k), r the start
    index at (e, 0) read signed and clamped into the 256 rows. -/
theorem gather_apply (x : (⟨S16x256x64, .f32⟩ : BufTy).Contents (Elt Ideal)) (idx : IVec S65536x1 32)
    (b : Fin 16) (e : Fin 65536) (k : Fin 64) :
    Host.gather gather_S16x256x64_S65536x1_S16x65536x64_02_1_n_n_1_1_16164 x idx (ix3 b e k)
      = x (ix3 b (⟨min (idx (ix2 e (0 : Fin 1))).toInt.toNat 255, by omega⟩ : Fin 256) k) := by
  unfold Host.gather
  congr 1
  funext c
  refine Fin.ext ?_
  show gather_S16x256x64_S65536x1_S16x65536x64_02_1_n_n_1_1_16164.start (ix3 b e k) idx c
      + gather_S16x256x64_S65536x1_S16x65536x64_02_1_n_n_1_1_16164.batchCoord (ix3 b e k) c
      + gather_S16x256x64_S65536x1_S16x65536x64_02_1_n_n_1_1_16164.offCoord (ix3 b e k) c = _
  rw [GatherDims.batchCoord_eq_zero _ _ _ List.not_mem_nil, Nat.add_zero]
  match c with
  | ⟨0, _⟩ =>
    show gather_S16x256x64_S65536x1_S16x65536x64_02_1_n_n_1_1_16164.start (ix3 b e k) idx (0 : Fin 3) + gather_S16x256x64_S65536x1_S16x65536x64_02_1_n_n_1_1_16164.offCoord (ix3 b e k) (0 : Fin 3) = b.val
    have hs : gather_S16x256x64_S65536x1_S16x65536x64_02_1_n_n_1_1_16164.start (ix3 b e k) idx (0 : Fin 3) = 0 := rfl
    have ho : gather_S16x256x64_S65536x1_S16x65536x64_02_1_n_n_1_1_16164.offCoord (ix3 b e k) (0 : Fin 3) = b.val := rfl
    rw [hs, ho, Nat.zero_add]
  | ⟨1, _⟩ =>
    show gather_S16x256x64_S65536x1_S16x65536x64_02_1_n_n_1_1_16164.start (ix3 b e k) idx (1 : Fin 3) + gather_S16x256x64_S65536x1_S16x65536x64_02_1_n_n_1_1_16164.offCoord (ix3 b e k) (1 : Fin 3)
      = min (idx (ix2 e (0 : Fin 1))).toInt.toNat 255
    have hsi : gather_S16x256x64_S65536x1_S16x65536x64_02_1_n_n_1_1_16164.siIdx (ix3 b e k) ⟨0, Nat.one_pos⟩ = ix2 e (0 : Fin 1) := by
      funext d; refine Fin.ext ?_
      match d with
      | ⟨0, _⟩ => rfl
      | ⟨1, _⟩ => rfl
    have ho : gather_S16x256x64_S65536x1_S16x65536x64_02_1_n_n_1_1_16164.offCoord (ix3 b e k) (1 : Fin 3) = 0 := rfl
    have hs : gather_S16x256x64_S65536x1_S16x65536x64_02_1_n_n_1_1_16164.start (ix3 b e k) idx (1 : Fin 3)
        = min (idx (gather_S16x256x64_S65536x1_S16x65536x64_02_1_n_n_1_1_16164.siIdx (ix3 b e k) ⟨0, Nat.one_pos⟩)).toInt.toNat 255 := rfl
    rw [hs, ho, hsi, Nat.add_zero]
  | ⟨2, _⟩ =>
    show gather_S16x256x64_S65536x1_S16x65536x64_02_1_n_n_1_1_16164.start (ix3 b e k) idx (2 : Fin 3) + gather_S16x256x64_S65536x1_S16x65536x64_02_1_n_n_1_1_16164.offCoord (ix3 b e k) (2 : Fin 3) = k.val
    have hs : gather_S16x256x64_S65536x1_S16x65536x64_02_1_n_n_1_1_16164.start (ix3 b e k) idx (2 : Fin 3) = 0 := rfl
    have ho : gather_S16x256x64_S65536x1_S16x65536x64_02_1_n_n_1_1_16164.offCoord (ix3 b e k) (2 : Fin 3) = k.val := rfl
    rw [hs, ho, Nat.zero_add]

/-- The source's features on edge e: row e / 256 of entry b. -/
theorem v13_apply (a : Cert.Spec.Args) (b : Fin 16) (e : Fin 65536) (k : Fin 64) :
    v13 a (ix3 b e k) = a.x (ix3 b (⟨e.val / 256, by omega⟩ : Fin 256) k) := by
  unfold v13
  refine (gather_apply a.x (v12 a) b e k).trans ?_
  congr 2
  refine Fin.ext ?_
  show min (v12 a (ix2 e (0 : Fin 1))).toInt.toNat 255 = e.val / 256
  rw [v12_apply, toInt_toNat_ofNat _ (by omega)]
  omega

/-- The target's features on edge e: row e % 256 of entry b. -/
theorem v20_apply (a : Cert.Spec.Args) (b : Fin 16) (e : Fin 65536) (k : Fin 64) :
    v20 a (ix3 b e k) = a.x (ix3 b (⟨e.val % 256, by omega⟩ : Fin 256) k) := by
  unfold v20
  refine (gather_apply a.x (v19 a) b e k).trans ?_
  congr 2
  refine Fin.ext ?_
  show min (v19 a (ix2 e (0 : Fin 1))).toInt.toNat 255 = e.val % 256
  rw [v19_apply, toInt_toNat_ofNat _ (by omega)]
  omega

end Cert.ReferenceIdeal.RefValue

end
-- ==== Proof.RefStageLib.lean ====
/-
  Two host operations read at an index given by coordinates, at the extended reals: a matrix product with one
  contracted axis as the sum over that axis of the products of the operands' entries, and a sum down the rows of a
  matrix as the initial value plus the sum over the rows.
-/
import Idealize.ShloMosaic.Lib.ValueIdx
import Idealize.ShloMosaic.Lib.IdealHost
import Idealize.ShloMosaic.PureOps.Ideal.Laws

noncomputable section

open scoped BigOperators

namespace Cert.ReferenceIdeal.RefStageLib

open Idealize.ShloMosaic Idealize.ShloMosaic.ValueIdx

/-- A host product `[M, K] × [K, N]` read at `(i, o)`: the sum over `k` of the left operand at `(i, k)` times the right
    operand at `(k, o)`. The four hypotheses say which coordinate of the result index and of the contraction index each
    operand axis reads; at a literal record each is `rfl`. -/
theorem dotGeneral_ix2 {M K N : ℕ} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (lhs : FVec Ideal ⟨2, ![M, K]⟩ .f32) (rhs : FVec Ideal ⟨2, ![K, N]⟩ .f32) (i : Fin M) (o : Fin N) :
    Host.dotGeneral (F := Ideal) D none lhs rhs (ix2 i o) = ∑ k : Fin K, lhs (ix2 i k) * rhs (ix2 k o) := by
  show FloatOps.dotGeneral D none _ lhs rhs (ix2 i o) = _
  rw [Ideal.dotGeneral_apply]
  refine (Equiv.sum_comp (contrEquiv1 D K hr hs).symm _).symm.trans ?_
  refine Finset.sum_congr rfl fun k _ => ?_
  have e1 : D.lhsIdx (ix2 i o) ((contrEquiv1 D K hr hs).symm k) = ix2 i k := by
    funext a
    apply Fin.ext
    match a with
    | ⟨0, _⟩ => exact hl0 _ _
    | ⟨1, _⟩ => exact (hl1 _ _).trans (contrEquiv1_symm_val D K hr hs k)
  have e2 : D.rhsIdx (ix2 i o) ((contrEquiv1 D K hr hs).symm k) = ix2 k o := by
    funext a
    apply Fin.ext
    match a with
    | ⟨0, _⟩ => exact (hr0 _ _).trans (contrEquiv1_symm_val D K hr hs k)
    | ⟨1, _⟩ => exact hr1 _ _
  rw [e1, e2]

/-- A host sum down the rows of an `[R, C]` matrix, read at column `o`: the initial value plus the sum over the rows
    of the entries of that column. -/
theorem hostReduceAdd_axis0 {R C : ℕ} {u : Shape} (x : FVec Ideal ⟨2, ![R, C]⟩ .f32) (init : u.Idx → Ideal .f32)
    (h' : (⟨2, ![R, C]⟩ : Shape).ReducesTo [0] ⟨1, ![C]⟩) (hu : 0 < u.numel)
    (h : (⟨2, ![R, C]⟩ : Shape).Reduces [0] ⟨1, ![C]⟩) (o : Fin C) :
    Host.reduceAdd x init h' hu (ix1 o) = init (Shape.Idx.first hu) + ∑ e : Fin R, x (ix2 e o) := by
  refine (hostReduceAdd_apply x init h' hu (ix1 o)).trans ?_
  refine (Ideal.hostReduceAdd_single h' h x _ (ix1 o)).trans ?_
  show _ + ∑ e : Fin R, x (h.lift (ix1 o) e) = _
  refine congrArg (_ + ·) (Finset.sum_congr rfl fun e _ => congrArg x ?_)
  funext c
  apply Fin.ext
  match c with
  | ⟨0, _⟩ => rfl
  | ⟨1, _⟩ => rfl

end Cert.ReferenceIdeal.RefStageLib

end
-- ==== Proof.RefStageA1.lean ====
/-
  The reference's first linear layer read at an index.  Row e of the 1048576 edge rows is entry e / 65536, edge
  e % 65536 of it: source (e / 256) % 256, target e % 256.  Its feature row is the source's 64 features followed by the
  target's 64 (the concatenation of the two gathers, reshaped), so the width-128 contraction with the transposed weight
  splits into the source half over the first 64 columns and the target half over the last 64; the bias is laid along
  every row.
-/
import proofs.«168503_j21964462751805_2_alg».proof.Proof.RefValueIdx
import proofs.«168503_j21964462751805_2_alg».proof.Proof.RefValueSums
import Idealize.ShloMosaic.Lib.IdealHost
import Idealize.ShloMosaic.Lib.ValueLayout
import proofs.«168503_j21964462751805_2_alg».proof.Proof.RefStageLib

noncomputable section

open scoped BigOperators

namespace Cert.ReferenceIdeal.RefStageA

open Idealize.ShloMosaic Idealize.ShloMosaic.ValueIdx Cert.ReferenceIdeal Cert.ReferenceIdeal.RefValue

variable [Facts]
open Facts₀ Facts

open Cert.ReferenceIdeal.RefStageLib

/-- Row e of the flattened edge features is edge e % 65536 of entry e / 65536. -/
theorem v22_apply (a : Cert.Spec.Args) (e : Fin 1048576) (c : Fin 128) :
    v22 a (ix2 e c)
      = v21 a (ix3 (⟨e.val / 65536, by have := e.isLt; omega⟩ : Fin 16) (⟨e.val % 65536, by omega⟩ : Fin 65536) c) := by
  unfold v22
  refine shapeCast_apply (v21 a) shapeCasts_S16x65536x128_S1048576x128 (ix2 e c) _ ?_
  rw [Shape.rowMajor_val_three, Shape.rowMajor_val_two]
  show (e.val / 65536 * 65536 + e.val % 65536) * 128 + c.val = e.val * 128 + c.val
  have := Nat.div_add_mod e.val 65536
  omega

/-- The first 64 columns of an edge's features are its source's features. -/
theorem v21_lo (a : Cert.Spec.Args) (b : Fin 16) (e : Fin 65536) (k : Fin 64) :
    v21 a (ix3 b e (Cert.Spec.lo k)) = v13 a (ix3 b e k) := by
  unfold v21
  exact concatenate_pair_apply_left (t := S16x65536x128) (s₁ := S16x65536x64) (s₂ := S16x65536x64) 2 (v13 a) (v20 a)
    concatenates_S16x65536x64_S16x65536x64_S16x65536x128_d2 (ix3 b e (Cert.Spec.lo k)) rfl (ix3 b e k)
    (fun d => match d with | ⟨0, _⟩ => rfl | ⟨1, _⟩ => rfl | ⟨2, _⟩ => rfl)

/-- The last 64 columns of an edge's features are its target's features. -/
theorem v21_hi (a : Cert.Spec.Args) (b : Fin 16) (e : Fin 65536) (k : Fin 64) :
    v21 a (ix3 b e (Cert.Spec.hi k)) = v20 a (ix3 b e k) := by
  unfold v21
  exact concatenate_pair_apply_right (t := S16x65536x128) (s₁ := S16x65536x64) (s₂ := S16x65536x64) 2 (v13 a) (v20 a)
    concatenates_S16x65536x64_S16x65536x64_S16x65536x128_d2 (ix3 b e (Cert.Spec.hi k)) rfl rfl (ix3 b e k)
    (fun d => match d with | ⟨0, _⟩ => fun _ => rfl | ⟨1, _⟩ => fun _ => rfl | ⟨2, _⟩ => fun h => absurd rfl h)
    (by show k.val + 64 = 64 + k.val; omega)

/-- The transposed first-layer weight at (column, output) is the weight at (output, column). -/
theorem v23_apply (a : Cert.Spec.Args) (c : Fin 128) (o : Fin 32) : v23 a (ix2 c o) = a.W1 (ix2 o c) := by
  unfold v23
  exact transpose_ix2_apply a.W1 transposes_S32x128_S128x32_1_0 c o

/-- The bias laid along every row. -/
theorem v26_apply (a : Cert.Spec.Args) (e : Fin 1048576) (o : Fin 32) : v26 a (ix2 e o) = a.b1 (ix1 o) := by
  unfold v26
  refine (broadcastInDim_apply _ bcast_S1x32_S1048576x32_0_1 (v25 a) _ (ix2 (0 : Fin 1) o)
    (fun c => match c with | ⟨0, _⟩ => rfl | ⟨1, _⟩ => rfl)).trans ?_
  unfold v25
  exact broadcastInDim_apply _ bcast_S32_S1x32_1 a.b1 _ (ix1 o) (fun c => match c with | ⟨0, _⟩ => rfl)

/-- The first layer's product at (row, output): the contraction over the 128 feature columns. -/
theorem v24_apply (a : Cert.Spec.Args) (e : Fin 1048576) (o : Fin 32) :
    v24 a (ix2 e o) = ∑ c : Fin 128, v22 a (ix2 e c) * a.W1 (ix2 o c) := by
  unfold v24
  refine (dotGeneral_ix2 dot_S1048576x128_S128x32_S1048576x32_1_0_0_1_n_n rfl rfl (fun _ _ => rfl) (fun _ _ => rfl)
    (fun _ _ => rfl) (fun _ _ => rfl) (v22 a) (v23 a) e o).trans ?_
  exact Finset.sum_congr rfl fun c _ => by rw [v23_apply]

/-- A1. The first layer on row e: the specification's value on edge ((e / 256) % 256, e % 256) of entry e / 65536. -/
theorem v27_apply (a : Cert.Spec.Args) (e : Fin 1048576) (o : Fin 32) :
    v27 a (ix2 e o)
      = Cert.Spec.h1 a (⟨e.val / 65536, by have := e.isLt; omega⟩ : Fin 16) (⟨e.val / 256 % 256, by omega⟩ : Fin 256)
          (⟨e.val % 256, by omega⟩ : Fin 256) o := by
  show v24 a (ix2 e o) + v26 a (ix2 e o) = _
  rw [v24_apply, v26_apply, sum_halves]
  unfold Cert.Spec.h1
  have hs : (⟨e.val % 65536 / 256, by omega⟩ : Fin 256) = ⟨e.val / 256 % 256, by omega⟩ := Fin.ext (by
    show e.val % 65536 / 256 = e.val / 256 % 256; omega)
  have ht : (⟨e.val % 65536 % 256, by omega⟩ : Fin 256) = ⟨e.val % 256, by omega⟩ := Fin.ext (by
    show e.val % 65536 % 256 = e.val % 256; omega)
  refine congrArg (· + a.b1 (ix1 o)) (congrArg₂ (· + ·) ?_ ?_)
  · refine Finset.sum_congr rfl fun k _ => ?_
    rw [v22_apply, v21_lo, v13_apply, hs]
  · refine Finset.sum_congr rfl fun k _ => ?_
    rw [v22_apply, v21_hi, v20_apply, ht]

end Cert.ReferenceIdeal.RefStageA

end
-- ==== Proof.RefStageA2.lean ====
/-
  The reference's first batch normalisation read at an index: the mean and the biased variance of the first layer over
  all 1048576 edge rows (the row sums re-bracketed as the nested sums over entry, source and target), the reciprocal
  square root, and the normalised, scaled and shifted layer that the leaky ReLU is then applied to.
-/
import proofs.«168503_j21964462751805_2_alg».proof.Proof.RefStageA1
import proofs.«168503_j21964462751805_2_alg».proof.Proof.RefStageLib
import proofs.«168503_j21964462751805_2_alg».proof.Proof.LibGridSum

noncomputable section

open scoped BigOperators

namespace Cert.ReferenceIdeal.RefStageA

open Idealize.ShloMosaic Idealize.ShloMosaic.ValueIdx Cert.ReferenceIdeal Cert.ReferenceIdeal.RefValue

variable [Facts]
open Facts₀ Facts

open Cert.ReferenceIdeal.RefStageLib

/-- A vector of 32 entries laid along every one of the 1048576 rows (a broadcast to one row, then down the rows). -/
theorem rows32_apply (v : (⟨S32, .f32⟩ : BufTy).Contents (Elt Ideal)) (e : Fin 1048576) (o : Fin 32) :
    (broadcastInDim S1048576x32 ![0, 1] bcast_S1x32_S1048576x32_0_1 (broadcastInDim S1x32 ![1] bcast_S32_S1x32_1 v)
      : (⟨S1048576x32, .f32⟩ : BufTy).Contents (Elt Ideal)) (ix2 e o) = v (ix1 o) :=
  (broadcastInDim_apply _ bcast_S1x32_S1048576x32_0_1 (broadcastInDim S1x32 ![1] bcast_S32_S1x32_1 v) _ (ix2 (0 : Fin 1) o)
    (fun c => match c with | ⟨0, _⟩ => rfl | ⟨1, _⟩ => rfl)).trans
    (broadcastInDim_apply _ bcast_S32_S1x32_1 v _ (ix1 o) (fun c => match c with | ⟨0, _⟩ => rfl))

/-- The sum of the layer's values over all rows, per column: the nested sum. -/
theorem v28_apply (a : Cert.Spec.Args) (o : Fin 32) :
    v28 a (ix1 o) = ∑ b : Fin 16, ∑ s : Fin 256, ∑ t : Fin 256, Cert.Spec.h1 a b s t o := by
  unfold v28
  refine (hostReduceAdd_axis0 (v27 a) (cst a) reducesTo_S1048576x32_S32_d0 h_S_ (by decide) o).trans ?_
  have h0 : cst a (Shape.Idx.first h_S_) = 0 := Ideal.ofBits_zero_f32
  rw [h0, zero_add]
  refine (Finset.sum_congr rfl fun e _ => v27_apply a e o).trans ?_
  exact Cert.Lib.sum_flat_edges (fun b s t => Cert.Spec.h1 a b s t o)

/-- The number of rows, as every entry of its broadcast. -/
theorem v29_apply (a : Cert.Spec.Args) (o : Fin 32) : v29 a (ix1 o) = Cert.Spec.cnt1 :=
  (broadcastInDim_scalar_apply bcast_S_S32 (cst_3 a) (ix1 o)).trans rfl

/-- The mean over all rows, per column. -/
theorem v30_apply (a : Cert.Spec.Args) (o : Fin 32) : v30 a (ix1 o) = Cert.Spec.mean1 a o := by
  show Ideal.div (v28 a (ix1 o)) (v29 a (ix1 o)) = _
  rw [v28_apply a, v29_apply]
  rfl

/-- The mean laid along every row. -/
theorem v32_apply (a : Cert.Spec.Args) (e : Fin 1048576) (o : Fin 32) : v32 a (ix2 e o) = Cert.Spec.mean1 a o := by
  unfold v32 v31
  exact (rows32_apply (v30 a) e o).trans (v30_apply a o)

/-- The sum of the squared deviations over all rows, per column: the nested sum. -/
theorem v35_apply (a : Cert.Spec.Args) (o : Fin 32) :
    v35 a (ix1 o) = ∑ b : Fin 16, ∑ s : Fin 256, ∑ t : Fin 256, (Cert.Spec.h1 a b s t o - Cert.Spec.mean1 a o) * (Cert.Spec.h1 a b s t o - Cert.Spec.mean1 a o) := by
  unfold v35
  refine (hostReduceAdd_axis0 (v34 a) (cst_4 a) reducesTo_S1048576x32_S32_d0 h_S_ (by decide) o).trans ?_
  have h0 : cst_4 a (Shape.Idx.first h_S_) = 0 := Ideal.ofBits_zero_f32
  rw [h0, zero_add]
  refine (Finset.sum_congr rfl fun e _ => ?_).trans
    (Cert.Lib.sum_flat_edges (fun b s t => (Cert.Spec.h1 a b s t o - Cert.Spec.mean1 a o) * (Cert.Spec.h1 a b s t o - Cert.Spec.mean1 a o)))
  show (v27 a (ix2 e o) - v32 a (ix2 e o)) * (v27 a (ix2 e o) - v32 a (ix2 e o)) = _
  rw [v27_apply a e o, v32_apply a]

theorem v36_apply (a : Cert.Spec.Args) (o : Fin 32) : v36 a (ix1 o) = Cert.Spec.cnt1 :=
  (broadcastInDim_scalar_apply bcast_S_S32 (cst_5 a) (ix1 o)).trans rfl

/-- The biased variance over all rows, per column. -/
theorem v37_apply (a : Cert.Spec.Args) (o : Fin 32) : v37 a (ix1 o) = Cert.Spec.var1 a o := by
  show Ideal.div (v35 a (ix1 o)) (v36 a (ix1 o)) = _
  rw [v35_apply a, v36_apply]
  rfl

theorem v41_apply (a : Cert.Spec.Args) (o : Fin 32) : v41 a (ix1 o) = Cert.Spec.eps :=
  (broadcastInDim_scalar_apply bcast_S_S32 (cst_6 a) (ix1 o)).trans rfl

/-- The reciprocal square root of the variance plus eps, per column. -/
theorem v43_apply (a : Cert.Spec.Args) (o : Fin 32) : v43 a (ix1 o) = Cert.Spec.inv1 a o := by
  show Ideal.rsqrt (v37 a (ix1 o) + v41 a (ix1 o)) = _
  rw [v37_apply a, v41_apply]
  rfl

/-- The normalised, scaled and shifted layer at (row, column): what the leaky ReLU is applied to. -/
theorem v52_apply (a : Cert.Spec.Args) (e : Fin 1048576) (o : Fin 32) :
    v52 a (ix2 e o)
      = (((Cert.Spec.h1 a (⟨e.val / 65536, by have := e.isLt; omega⟩ : Fin 16) (⟨e.val / 256 % 256, by omega⟩ : Fin 256) (⟨e.val % 256, by omega⟩ : Fin 256) o - Cert.Spec.mean1 a o) * Cert.Spec.inv1 a o) * a.g1 (ix1 o)) + a.be1 (ix1 o) := by
  have hm : v39 a (ix2 e o) = Cert.Spec.mean1 a o := by
    unfold v39 v38
    exact (rows32_apply (v30 a) e o).trans (v30_apply a o)
  have hi : v45 a (ix2 e o) = Cert.Spec.inv1 a o := by
    unfold v45 v44
    exact (rows32_apply (v43 a) e o).trans (v43_apply a o)
  have hg : v48 a (ix2 e o) = a.g1 (ix1 o) := by
    unfold v48 v47
    exact rows32_apply a.g1 e o
  have hb : v51 a (ix2 e o) = a.be1 (ix1 o) := by
    unfold v51 v50
    exact rows32_apply a.be1 e o
  show (((v27 a (ix2 e o) - v39 a (ix2 e o)) * v45 a (ix2 e o)) * v48 a (ix2 e o)) + v51 a (ix2 e o) = _
  rw [hm, hi, hg, hb, v27_apply a e o]

end Cert.ReferenceIdeal.RefStageA

end
-- ==== Proof.RefStageC.lean ====
/-
  The reference's node head read at an index, from the node layer before its normalisation (a hypothesis: that layer is
  the specification's): the batch normalisation over all 4096 node rows (mean, biased variance, reciprocal square
  root; the row sums re-bracketed as the nested sums over entry and node), the leaky ReLU, the last linear layer with
  its bias, and the reshape of the 4096 rows into 16 entries of 256 nodes.
-/
import proofs.«168503_j21964462751805_2_alg».proof.Proof.RefValueStages
import proofs.«168503_j21964462751805_2_alg».proof.Proof.RefStageLib
import proofs.«168503_j21964462751805_2_alg».proof.Proof.LibGridSum
import Idealize.ShloMosaic.Lib.IdealHost
import Idealize.ShloMosaic.Lib.ValueLayout

noncomputable section

open scoped BigOperators

namespace Cert.ReferenceIdeal.RefStageC

open Idealize.ShloMosaic Idealize.ShloMosaic.ValueIdx Cert.ReferenceIdeal Cert.ReferenceIdeal.RefValue

variable [Facts]
open Facts₀ Facts

open Cert.ReferenceIdeal.RefStageLib

/-- A vector of 16 entries laid along every one of the 4096 rows (a broadcast to one row, then down the rows). -/
theorem rows16_apply (v : (⟨S16, .f32⟩ : BufTy).Contents (Elt Ideal)) (e : Fin 4096) (o : Fin 16) :
    (broadcastInDim S4096x16 ![0, 1] bcast_S1x16_S4096x16_0_1 (broadcastInDim S1x16 ![1] bcast_S16_S1x16_1 v)
      : (⟨S4096x16, .f32⟩ : BufTy).Contents (Elt Ideal)) (ix2 e o) = v (ix1 o) :=
  (broadcastInDim_apply _ bcast_S1x16_S4096x16_0_1 (broadcastInDim S1x16 ![1] bcast_S16_S1x16_1 v) _ (ix2 (0 : Fin 1) o)
    (fun c => match c with | ⟨0, _⟩ => rfl | ⟨1, _⟩ => rfl)).trans
    (broadcastInDim_apply _ bcast_S16_S1x16_1 v _ (ix1 o) (fun c => match c with | ⟨0, _⟩ => rfl))

/-- The sum of the layer's values over all rows, per column: the nested sum. -/
theorem v86_apply (a : Cert.Spec.Args) (h85 : ∀ (n : Fin 4096) (q : Fin 16), v85 a (ix2 n q) = Cert.Spec.h2pre a (⟨n.val / 256, by have := n.isLt; omega⟩ : Fin 16) (⟨n.val % 256, by omega⟩ : Fin 256) q) (o : Fin 16) :
    v86 a (ix1 o) = ∑ b : Fin 16, ∑ s : Fin 256, Cert.Spec.h2pre a b s o := by
  unfold v86
  refine (hostReduceAdd_axis0 (v85 a) (cst_12 a) reducesTo_S4096x16_S16_d0 h_S_ (by decide) o).trans ?_
  have h0 : cst_12 a (Shape.Idx.first h_S_) = 0 := Ideal.ofBits_zero_f32
  rw [h0, zero_add]
  refine (Finset.sum_congr rfl fun e _ => h85 e o).trans ?_
  exact Cert.Lib.sum_flat_nodes (fun b s => Cert.Spec.h2pre a b s o)

/-- The number of rows, as every entry of its broadcast. -/
theorem v87_apply (a : Cert.Spec.Args) (o : Fin 16) : v87 a (ix1 o) = Cert.Spec.cnt2 :=
  (broadcastInDim_scalar_apply bcast_S_S16 (cst_13 a) (ix1 o)).trans rfl

/-- The mean over all rows, per column. -/
theorem v88_apply (a : Cert.Spec.Args) (h85 : ∀ (n : Fin 4096) (q : Fin 16), v85 a (ix2 n q) = Cert.Spec.h2pre a (⟨n.val / 256, by have := n.isLt; omega⟩ : Fin 16) (⟨n.val % 256, by omega⟩ : Fin 256) q) (o : Fin 16) : v88 a (ix1 o) = Cert.Spec.mean2 a o := by
  show Ideal.div (v86 a (ix1 o)) (v87 a (ix1 o)) = _
  rw [v86_apply a h85, v87_apply]
  rfl

/-- The mean laid along every row. -/
theorem v90_apply (a : Cert.Spec.Args) (h85 : ∀ (n : Fin 4096) (q : Fin 16), v85 a (ix2 n q) = Cert.Spec.h2pre a (⟨n.val / 256, by have := n.isLt; omega⟩ : Fin 16) (⟨n.val % 256, by omega⟩ : Fin 256) q) (e : Fin 4096) (o : Fin 16) : v90 a (ix2 e o) = Cert.Spec.mean2 a o := by
  unfold v90 v89
  exact (rows16_apply (v88 a) e o).trans (v88_apply a h85 o)

/-- The sum of the squared deviations over all rows, per column: the nested sum. -/
theorem v93_apply (a : Cert.Spec.Args) (h85 : ∀ (n : Fin 4096) (q : Fin 16), v85 a (ix2 n q) = Cert.Spec.h2pre a (⟨n.val / 256, by have := n.isLt; omega⟩ : Fin 16) (⟨n.val % 256, by omega⟩ : Fin 256) q) (o : Fin 16) :
    v93 a (ix1 o) = ∑ b : Fin 16, ∑ s : Fin 256, (Cert.Spec.h2pre a b s o - Cert.Spec.mean2 a o) * (Cert.Spec.h2pre a b s o - Cert.Spec.mean2 a o) := by
  unfold v93
  refine (hostReduceAdd_axis0 (v92 a) (cst_14 a) reducesTo_S4096x16_S16_d0 h_S_ (by decide) o).trans ?_
  have h0 : cst_14 a (Shape.Idx.first h_S_) = 0 := Ideal.ofBits_zero_f32
  rw [h0, zero_add]
  refine (Finset.sum_congr rfl fun e _ => ?_).trans
    (Cert.Lib.sum_flat_nodes (fun b s => (Cert.Spec.h2pre a b s o - Cert.Spec.mean2 a o) * (Cert.Spec.h2pre a b s o - Cert.Spec.mean2 a o)))
  show (v85 a (ix2 e o) - v90 a (ix2 e o)) * (v85 a (ix2 e o) - v90 a (ix2 e o)) = _
  rw [h85 e o, v90_apply a h85]

theorem v94_apply (a : Cert.Spec.Args) (o : Fin 16) : v94 a (ix1 o) = Cert.Spec.cnt2 :=
  (broadcastInDim_scalar_apply bcast_S_S16 (cst_15 a) (ix1 o)).trans rfl

/-- The biased variance over all rows, per column. -/
theorem v95_apply (a : Cert.Spec.Args) (h85 : ∀ (n : Fin 4096) (q : Fin 16), v85 a (ix2 n q) = Cert.Spec.h2pre a (⟨n.val / 256, by have := n.isLt; omega⟩ : Fin 16) (⟨n.val % 256, by omega⟩ : Fin 256) q) (o : Fin 16) : v95 a (ix1 o) = Cert.Spec.var2 a o := by
  show Ideal.div (v93 a (ix1 o)) (v94 a (ix1 o)) = _
  rw [v93_apply a h85, v94_apply]
  rfl

theorem v99_apply (a : Cert.Spec.Args) (o : Fin 16) : v99 a (ix1 o) = Cert.Spec.eps :=
  (broadcastInDim_scalar_apply bcast_S_S16 (cst_16 a) (ix1 o)).trans rfl

/-- The reciprocal square root of the variance plus eps, per column. -/
theorem v101_apply (a : Cert.Spec.Args) (h85 : ∀ (n : Fin 4096) (q : Fin 16), v85 a (ix2 n q) = Cert.Spec.h2pre a (⟨n.val / 256, by have := n.isLt; omega⟩ : Fin 16) (⟨n.val % 256, by omega⟩ : Fin 256) q) (o : Fin 16) : v101 a (ix1 o) = Cert.Spec.inv2 a o := by
  show Ideal.rsqrt (v95 a (ix1 o) + v99 a (ix1 o)) = _
  rw [v95_apply a h85, v99_apply]
  rfl

/-- The normalised, scaled and shifted layer at (row, column): what the leaky ReLU is applied to. -/
theorem v110_apply (a : Cert.Spec.Args) (h85 : ∀ (n : Fin 4096) (q : Fin 16), v85 a (ix2 n q) = Cert.Spec.h2pre a (⟨n.val / 256, by have := n.isLt; omega⟩ : Fin 16) (⟨n.val % 256, by omega⟩ : Fin 256) q) (e : Fin 4096) (o : Fin 16) :
    v110 a (ix2 e o)
      = (((Cert.Spec.h2pre a (⟨e.val / 256, by have := e.isLt; omega⟩ : Fin 16) (⟨e.val % 256, by omega⟩ : Fin 256) o - Cert.Spec.mean2 a o) * Cert.Spec.inv2 a o) * a.fg (ix1 o)) + a.fbb (ix1 o) := by
  have hm : v97 a (ix2 e o) = Cert.Spec.mean2 a o := by
    unfold v97 v96
    exact (rows16_apply (v88 a) e o).trans (v88_apply a h85 o)
  have hi : v103 a (ix2 e o) = Cert.Spec.inv2 a o := by
    unfold v103 v102
    exact (rows16_apply (v101 a) e o).trans (v101_apply a h85 o)
  have hg : v106 a (ix2 e o) = a.fg (ix1 o) := by
    unfold v106 v105
    exact rows16_apply a.fg e o
  have hb : v109 a (ix2 e o) = a.fbb (ix1 o) := by
    unfold v109 v108
    exact rows16_apply a.fbb e o
  show (((v85 a (ix2 e o) - v97 a (ix2 e o)) * v103 a (ix2 e o)) * v106 a (ix2 e o)) + v109 a (ix2 e o) = _
  rw [hm, hi, hg, hb, h85 e o]

/-- The leaky ReLU of the normalised layer at (row, column). -/
theorem v111_apply (a : Cert.Spec.Args) (n : Fin 4096) (q : Fin 16) :
    v111 a (ix2 n q) = Cert.Spec.lrelu (v110 a (ix2 n q)) := by
  have h0 : call2_v0 a (ix2 n q) = Cert.Spec.zero :=
    (broadcastInDim_scalar_apply bcast_S_S4096x16 (call2_cst a) (ix2 n q)).trans rfl
  have h3 : call2_v3 a (ix2 n q) = Cert.Spec.slope :=
    (broadcastInDim_scalar_apply bcast_S_S4096x16 (call2_v2 a) (ix2 n q)).trans rfl
  show Scalar.select (Ideal.cmp .oge (v110 a (ix2 n q)) (call2_v0 a (ix2 n q))) (v110 a (ix2 n q))
      (call2_v3 a (ix2 n q) * v110 a (ix2 n q)) = _
  rw [h0, h3]
  rfl

/-- The transposed last-layer weight at (column, output) is the weight at (output, column). -/
theorem v112_apply (a : Cert.Spec.Args) (q : Fin 16) (d : Fin 64) : v112 a (ix2 q d) = a.F2 (ix2 d q) := by
  unfold v112
  exact transpose_ix2_apply a.F2 transposes_S64x16_S16x64_1_0 q d

/-- The last layer's product at (row, output): the contraction over the 16 hidden columns. -/
theorem v113_apply (a : Cert.Spec.Args) (n : Fin 4096) (d : Fin 64) :
    v113 a (ix2 n d) = ∑ q : Fin 16, v111 a (ix2 n q) * a.F2 (ix2 d q) := by
  unfold v113
  refine (dotGeneral_ix2 dot_S4096x16_S16x64_S4096x64_1_0_0_1_n_n rfl rfl (fun _ _ => rfl) (fun _ _ => rfl)
    (fun _ _ => rfl) (fun _ _ => rfl) (v111 a) (v112 a) n d).trans ?_
  exact Finset.sum_congr rfl fun q _ => by rw [v112_apply]

/-- The last layer's bias laid along every row. -/
theorem v115_apply (a : Cert.Spec.Args) (n : Fin 4096) (d : Fin 64) : v115 a (ix2 n d) = a.fb2 (ix1 d) := by
  unfold v115 v114
  exact (broadcastInDim_apply _ bcast_S1x64_S4096x64_0_1 (broadcastInDim S1x64 ![1] bcast_S64_S1x64_1 a.fb2) _
    (ix2 (0 : Fin 1) d) (fun c => match c with | ⟨0, _⟩ => rfl | ⟨1, _⟩ => rfl)).trans
    (broadcastInDim_apply _ bcast_S64_S1x64_1 a.fb2 _ (ix1 d) (fun c => match c with | ⟨0, _⟩ => rfl))

/-- The second result at (entry, node, output) is the last layer at row entry · 256 + node. -/
theorem v117_row (a : Cert.Spec.Args) (b : Fin 16) (s : Fin 256) (d : Fin 64) :
    v117 a (ix3 b s d)
      = v116 a (ix2 (⟨b.val * 256 + s.val, by have := b.isLt; have := s.isLt; omega⟩ : Fin 4096) d) := by
  unfold v117
  refine shapeCast_apply (v116 a) shapeCasts_S4096x64_S16x256x64 (ix3 b s d) _ ?_
  rw [Shape.rowMajor_val_three, Shape.rowMajor_val_two]
  rfl

/-- C. The second result at (entry, node, output) is the specification's prediction, given that the node layer before
    its normalisation is the specification's. -/
theorem v117_apply (a : Cert.Spec.Args) (h85 : ∀ (n : Fin 4096) (q : Fin 16), v85 a (ix2 n q) = Cert.Spec.h2pre a (⟨n.val / 256, by have := n.isLt; omega⟩ : Fin 16) (⟨n.val % 256, by omega⟩ : Fin 256) q)
    (b : Fin 16) (s : Fin 256) (d : Fin 64) : v117 a (ix3 b s d) = Cert.Spec.pred a b s d := by
  have hb := b.isLt
  have hs := s.isLt
  have eb : (⟨(b.val * 256 + s.val) / 256, by omega⟩ : Fin 16) = b := Fin.ext (by
    show (b.val * 256 + s.val) / 256 = b.val; omega)
  have es : (⟨(b.val * 256 + s.val) % 256, by omega⟩ : Fin 256) = s := Fin.ext (by
    show (b.val * 256 + s.val) % 256 = s.val; omega)
  rw [v117_row]
  show v113 a (ix2 _ d) + v115 a (ix2 _ d) = _
  rw [v113_apply, v115_apply]
  unfold Cert.Spec.pred
  refine congrArg (· + a.fb2 (ix1 d)) (Finset.sum_congr rfl fun q _ => ?_)
  rw [v111_apply, v110_apply a h85]
  unfold Cert.Spec.h2n
  show Cert.Spec.lrelu ((((Cert.Spec.h2pre a (⟨(b.val * 256 + s.val) / 256, _⟩ : Fin 16) (⟨(b.val * 256 + s.val) % 256, _⟩ : Fin 256) q
      - _) * _) * _) + _) * _ = _
  rw [eb, es]

end Cert.ReferenceIdeal.RefStageC

end
-- ==== Proof.RefValueOut.lean ====
/-
  The reference's two results as the specification's, over the argument arrays: the stages of the first layer and its
  normalisation, then the edge layers, the gate, the aggregate and the node layer, then the second normalisation and
  the last layer, composed.
-/
import proofs.«168503_j21964462751805_2_alg».proof.Proof.RefValueB3
import proofs.«168503_j21964462751805_2_alg».proof.Proof.RefStageA2
import proofs.«168503_j21964462751805_2_alg».proof.Proof.RefStageC

noncomputable section

namespace Cert.ReferenceIdeal.RefValue

open Idealize.ShloMosaic Idealize.ShloMosaic.ValueIdx Cert.ReferenceIdeal Cert.Spec

variable [Facts]
open Facts₀ Facts

/-- The normalised first layer, as the later stages take it. -/
theorem h52_all (a : Args) (e : Fin 1048576) (o : Fin 32) : v52 a (ix2 e o) = h1pre a (eb e) (es e) (et e) o :=
  Cert.ReferenceIdeal.RefStageA.v52_apply a e o

/-- The first result of the reference is the specification's. -/
theorem v73_eq_edgesOut (a : Args) : v73 a = edgesOut a := v73_edgesOut a (h52_all a)

/-- The second result of the reference is the specification's. -/
theorem v117_eq_predOut (a : Args) : v117 a = predOut a := by
  funext i
  obtain ⟨b, s, d, rfl⟩ : ∃ b s d, i = ix3 b s d := ⟨_, _, _, eq_ix3 i⟩
  exact Cert.ReferenceIdeal.RefStageC.v117_apply a (fun n q => v85_apply a (h52_all a) n q) b s d

end Cert.ReferenceIdeal.RefValue

end
-- ==== Proof.RefArgs.lean ====
/-
  The fifteen argument arrays of the reference program, at the exact reading, gathered as the specification's arguments.
-/
import proofs.«168503_j21964462751805_2_alg».proof.ReferenceIdeal
import proofs.«168503_j21964462751805_2_alg».proof.Proof.Spec

noncomputable section

namespace Cert.ReferenceIdeal.RefArgs

open Idealize.ShloMosaic Idealize.ShloMosaic.TcCoe Cert.ReferenceIdeal

/-- Core `c`'s argument arrays in the memory `m`. -/
def argsOf (m : (ℓ : Loc nD τ sig) → Buf (Elt Ideal) ℓ) (c : Dev nD) : Cert.Spec.Args where
  x   := m ((c.tc : Thread nD τ).loc main_arg0)
  W1  := m ((c.tc : Thread nD τ).loc main_arg1)
  b1  := m ((c.tc : Thread nD τ).loc main_arg2)
  g1  := m ((c.tc : Thread nD τ).loc main_arg3)
  be1 := m ((c.tc : Thread nD τ).loc main_arg4)
  W2  := m ((c.tc : Thread nD τ).loc main_arg5)
  b2  := m ((c.tc : Thread nD τ).loc main_arg6)
  W3  := m ((c.tc : Thread nD τ).loc main_arg7)
  b3  := m ((c.tc : Thread nD τ).loc main_arg8)
  F1  := m ((c.tc : Thread nD τ).loc main_arg9)
  fb1 := m ((c.tc : Thread nD τ).loc main_arg10)
  fg  := m ((c.tc : Thread nD τ).loc main_arg11)
  fbb := m ((c.tc : Thread nD τ).loc main_arg12)
  F2  := m ((c.tc : Thread nD τ).loc main_arg13)
  fb2 := m ((c.tc : Thread nD τ).loc main_arg14)

end Cert.ReferenceIdeal.RefArgs

end
-- ==== Proof.RefBridgeLib.lean ====
/-
  A straight line of host operations in which every operation writes ONE buffer of its own, read one operation at a
  time.  If the buffers the later operations write are listed, a buffer not among them holds, after the whole line, what
  it held after the operation before them; so the buffer an operation writes holds, after the whole line, the
  operation's function of what its operands hold after the whole line — provided no later operation writes the result
  or an operand, and the result is not an operand.  Stated per arity of the operation.
-/
import Idealize.ShloMosaic.Lib.StableHlo.Run
import Idealize.ShloMosaic.Lib.Pipeline.Frame
import Mathlib.Data.List.Forall2

noncomputable section

namespace Cert.ReferenceIdeal.RefBridgeLib

open Idealize.ShloMosaic Idealize.ShloMosaic.TcCoe Idealize.ShloMosaic.StableHlo

variable {τ : Topo} {sig : RefSig} {Val : EltTy → Type}

/-- `W` lists, operation by operation, the one buffer each operation of the line writes. -/
def Outs (ops : List (HloOp τ sig Val)) (W : List (Ref sig .tc)) : Prop :=
  List.Forall₂ (fun op r => op.writes = {Proc.devRef (τ := τ) .tc r}) ops W

theorem Outs.nil : Outs ([] : List (HloOp τ sig Val)) [] := List.Forall₂.nil

theorem Outs.cons {op : HloOp τ sig Val} {ops : List (HloOp τ sig Val)} {r : Ref sig .tc} {W : List (Ref sig .tc)}
    (h : op.writes = {Proc.devRef (τ := τ) .tc r}) (t : Outs ops W) : Outs (op :: ops) (r :: W) :=
  List.Forall₂.cons h t

theorem Outs.append {l₁ l₂ : List (HloOp τ sig Val)} {W₁ W₂ : List (Ref sig .tc)} (h₁ : Outs l₁ W₁) (h₂ : Outs l₂ W₂) :
    Outs (l₁ ++ l₂) (W₁ ++ W₂) :=
  List.rel_append h₁ h₂

theorem Outs.drop {l : List (HloOp τ sig Val)} {W : List (Ref sig .tc)} (h : Outs l W) (n : Nat) :
    Outs (l.drop n) (W.drop n) :=
  List.forall₂_drop n h

/-- A buffer that is not among the written ones keeps its contents through the line. -/
theorem Outs.keep {ops : List (HloOp τ sig Val)} {W : List (Ref sig .tc)} (h : Outs ops W) (V : Valuation τ sig Val)
    {r : Ref sig .tc} (hr : r ∉ W) : after ops V (Proc.devRef .tc r) = V (Proc.devRef .tc r) := by
  refine after_of_forall_not_mem ops V ?_
  induction h with
  | nil => intro op hop; cases hop
  | cons hab _ ih =>
    intro op hop
    rcases List.mem_cons.mp hop with rfl | hop
    · rw [hab, Finset.mem_singleton]
      exact devRef_ne_of_ne fun e => hr (e ▸ List.mem_cons_self)
    · exact ih (fun hm => hr (List.mem_cons_of_mem _ hm)) op hop

/-- After the whole line, a buffer no later operation writes holds what it held right after operation `op`. -/
theorem after_at {l pre post : List (HloOp τ sig Val)} {op : HloOp τ sig Val} (hl : l = pre ++ op :: post)
    {Wpost : List (Ref sig .tc)} (hpost : Outs post Wpost) (V : Valuation τ sig Val) {r : Ref sig .tc} (hr : r ∉ Wpost) :
    after l V (Proc.devRef .tc r) = op.result (after pre V) (Proc.devRef .tc r) := by
  subst hl
  rw [after_append, after_cons, hpost.keep _ hr]

section Stages

variable {l pre post : List (HloOp τ sig Val)} {Wpost : List (Ref sig .tc)}

theorem nullary_stage {y : Ref sig .tc} {v : y.ty.Contents Val} {hy}
    (hl : l = pre ++ nullary y v hy :: post) (hpost : Outs post Wpost) (V : Valuation τ sig Val) (hyW : y ∉ Wpost) :
    after l V (Proc.devRef .tc y) = v := by
  rw [after_at hl hpost V hyW, nullary_result]

theorem unary_stage {x y : Ref sig .tc} {f : x.ty.Contents Val → y.ty.Contents Val} {hx hy}
    (hl : l = pre ++ unary x y f hx hy :: post) (hpost : Outs post Wpost) (V : Valuation τ sig Val)
    (hyW : y ∉ Wpost) (hxW : x ∉ y :: Wpost) :
    after l V (Proc.devRef .tc y) = f (after l V (Proc.devRef .tc x)) := by
  have hxy : x ≠ y := fun e => hxW (e ▸ List.mem_cons_self)
  have hx' : x ∉ Wpost := fun h => hxW (List.mem_cons_of_mem _ h)
  rw [after_at hl hpost V hyW, after_at hl hpost V hx', unary_result, unary_result_ne x y f hx hy _ hxy]

theorem reshape_stage {x y : Ref sig .tc} {he : x.ty.elt = y.ty.elt} {hn : x.ty.shape.ShapeCasts y.ty.shape} {hx hy}
    (hl : l = pre ++ reshape (Val := Val) x y he hn hx hy :: post) (hpost : Outs post Wpost) (V : Valuation τ sig Val)
    (hyW : y ∉ Wpost) (hxW : x ∉ y :: Wpost) :
    after l V (Proc.devRef .tc y) = fun i => he ▸ shapeCast y.ty.shape (after l V (Proc.devRef .tc x)) hn i := by
  have hxy : x ≠ y := fun e => hxW (e ▸ List.mem_cons_self)
  have hx' : x ∉ Wpost := fun h => hxW (List.mem_cons_of_mem _ h)
  rw [after_at hl hpost V hyW, after_at hl hpost V hx', reshape_result, reshape_result_ne x y he hn hx hy _ hxy]

theorem binary_stage {a b y : Ref sig .tc} {f : a.ty.Contents Val → b.ty.Contents Val → y.ty.Contents Val} {ha hb hy}
    (hl : l = pre ++ binary a b y f ha hb hy :: post) (hpost : Outs post Wpost) (V : Valuation τ sig Val)
    (hyW : y ∉ Wpost) (haW : a ∉ y :: Wpost) (hbW : b ∉ y :: Wpost) :
    after l V (Proc.devRef .tc y) = f (after l V (Proc.devRef .tc a)) (after l V (Proc.devRef .tc b)) := by
  have hay : a ≠ y := fun e => haW (e ▸ List.mem_cons_self)
  have ha' : a ∉ Wpost := fun h => haW (List.mem_cons_of_mem _ h)
  have hby : b ≠ y := fun e => hbW (e ▸ List.mem_cons_self)
  have hb' : b ∉ Wpost := fun h => hbW (List.mem_cons_of_mem _ h)
  rw [after_at hl hpost V hyW, after_at hl hpost V ha', after_at hl hpost V hb', binary_result,
    binary_result_ne a b y f ha hb hy _ hay, binary_result_ne a b y f ha hb hy _ hby]

theorem ternary_stage {c a b y : Ref sig .tc}
    {f : c.ty.Contents Val → a.ty.Contents Val → b.ty.Contents Val → y.ty.Contents Val} {hc ha hb hy}
    (hl : l = pre ++ ternary c a b y f hc ha hb hy :: post) (hpost : Outs post Wpost) (V : Valuation τ sig Val)
    (hyW : y ∉ Wpost) (hcW : c ∉ y :: Wpost) (haW : a ∉ y :: Wpost) (hbW : b ∉ y :: Wpost) :
    after l V (Proc.devRef .tc y)
      = f (after l V (Proc.devRef .tc c)) (after l V (Proc.devRef .tc a)) (after l V (Proc.devRef .tc b)) := by
  have hcy : c ≠ y := fun e => hcW (e ▸ List.mem_cons_self)
  have hc' : c ∉ Wpost := fun h => hcW (List.mem_cons_of_mem _ h)
  have hay : a ≠ y := fun e => haW (e ▸ List.mem_cons_self)
  have ha' : a ∉ Wpost := fun h => haW (List.mem_cons_of_mem _ h)
  have hby : b ≠ y := fun e => hbW (e ▸ List.mem_cons_self)
  have hb' : b ∉ Wpost := fun h => hbW (List.mem_cons_of_mem _ h)
  rw [after_at hl hpost V hyW, after_at hl hpost V hc', after_at hl hpost V ha', after_at hl hpost V hb', ternary_result,
    ternary_result_ne _ _ _ _ f hc ha hb hy _ hcy, ternary_result_ne _ _ _ _ f hc ha hb hy _ hay,
    ternary_result_ne _ _ _ _ f hc ha hb hy _ hby]

end Stages

end Cert.ReferenceIdeal.RefBridgeLib

end
-- ==== Proof.RefBridge0.lean ====
/-
  The reference program's buffers after its whole line of operations, from the launch memory, are the named stages of the
  value side at the memory's argument arrays — buffer by buffer in program order: each buffer holds its operation's
  function of what the operands hold, the operands' contents are known from the buffers before, and the stage is that
  function of the operands' stages by definition.  This part: the arguments (never written) and the first sixty
  operations.
-/
import proofs.«168503_j21964462751805_2_alg».proof.Proof.RefRun
import proofs.«168503_j21964462751805_2_alg».proof.Proof.RefArgs
import proofs.«168503_j21964462751805_2_alg».proof.Proof.RefValueStages
import proofs.«168503_j21964462751805_2_alg».proof.Proof.RefBridgeLib

noncomputable section

namespace Cert.ReferenceIdeal.RefBridge

open Idealize.ShloMosaic Idealize.ShloMosaic.TcCoe Idealize.ShloMosaic.StableHlo
open Cert.ReferenceIdeal Cert.ReferenceIdeal.Gen Cert.ReferenceIdeal.RefRun Cert.ReferenceIdeal.RefArgs
open Cert.ReferenceIdeal.RefValue Cert.ReferenceIdeal.RefBridgeLib

/-- Core `c`'s buffer contents in the launch memory `m`. -/
abbrev L (m : (ℓ : Loc nD τ sig) → Buf (Elt Ideal) ℓ) (c : Dev nD) : Valuation τ sig (Elt Ideal) := fun b => m (c, b)

/-- The buffers the whole line writes, operation by operation. -/
abbrev W : List (Ref sig .tc) := ops0_W ++ (ops1_W ++ ops2_W)

theorem outs0 : Outs (ops0 (F := Ideal)) ops0_W := by
  repeat (first | exact Outs.nil | refine Outs.cons rfl ?_)

theorem outs1 : Outs (ops1 (F := Ideal)) ops1_W := by
  repeat (first | exact Outs.nil | refine Outs.cons rfl ?_)

theorem outs2 : Outs (ops2 (F := Ideal)) ops2_W := by
  repeat (first | exact Outs.nil | refine Outs.cons rfl ?_)

/-- Every operation of the line writes the one buffer the list names at its place. -/
theorem outs : Outs (ops (F := Ideal)) W := outs0.append (outs1.append outs2)

theorem res_main_arg0 (m : (ℓ : Loc nD τ sig) → Buf (Elt Ideal) ℓ) (c : Dev nD) :
    after ops (L m c) (Proc.devRef .tc main_arg0) = (argsOf m c).x :=
  ops_keep (L m c) main_arg0 (by decide) (by decide) (by decide)

theorem res_main_arg1 (m : (ℓ : Loc nD τ sig) → Buf (Elt Ideal) ℓ) (c : Dev nD) :
    after ops (L m c) (Proc.devRef .tc main_arg1) = (argsOf m c).W1 :=
  ops_keep (L m c) main_arg1 (by decide) (by decide) (by decide)

theorem res_main_arg2 (m : (ℓ : Loc nD τ sig) → Buf (Elt Ideal) ℓ) (c : Dev nD) :
    after ops (L m c) (Proc.devRef .tc main_arg2) = (argsOf m c).b1 :=
  ops_keep (L m c) main_arg2 (by decide) (by decide) (by decide)

theorem res_main_arg3 (m : (ℓ : Loc nD τ sig) → Buf (Elt Ideal) ℓ) (c : Dev nD) :
    after ops (L m c) (Proc.devRef .tc main_arg3) = (argsOf m c).g1 :=
  ops_keep (L m c) main_arg3 (by decide) (by decide) (by decide)

theorem res_main_arg4 (m : (ℓ : Loc nD τ sig) → Buf (Elt Ideal) ℓ) (c : Dev nD) :
    after ops (L m c) (Proc.devRef .tc main_arg4) = (argsOf m c).be1 :=
  ops_keep (L m c) main_arg4 (by decide) (by decide) (by decide)

theorem res_main_arg5 (m : (ℓ : Loc nD τ sig) → Buf (Elt Ideal) ℓ) (c : Dev nD) :
    after ops (L m c) (Proc.devRef .tc main_arg5) = (argsOf m c).W2 :=
  ops_keep (L m c) main_arg5 (by decide) (by decide) (by decide)

theorem res_main_arg6 (m : (ℓ : Loc nD τ sig) → Buf (Elt Ideal) ℓ) (c : Dev nD) :
    after ops (L m c) (Proc.devRef .tc main_arg6) = (argsOf m c).b2 :=
  ops_keep (L m c) main_arg6 (by decide) (by decide) (by decide)

theorem res_main_arg7 (m : (ℓ : Loc nD τ sig) → Buf (Elt Ideal) ℓ) (c : Dev nD) :
    after ops (L m c) (Proc.devRef .tc main_arg7) = (argsOf m c).W3 :=
  ops_keep (L m c) main_arg7 (by decide) (by decide) (by decide)

theorem res_main_arg8 (m : (ℓ : Loc nD τ sig) → Buf (Elt Ideal) ℓ) (c : Dev nD) :
    after ops (L m c) (Proc.devRef .tc main_arg8) = (argsOf m c).b3 :=
  ops_keep (L m c) main_arg8 (by decide) (by decide) (by decide)

theorem res_main_arg9 (m : (ℓ : Loc nD τ sig) → Buf (Elt Ideal) ℓ) (c : Dev nD) :
    after ops (L m c) (Proc.devRef .tc main_arg9) = (argsOf m c).F1 :=
  ops_keep (L m c) main_arg9 (by decide) (by decide) (by decide)

theorem res_main_arg10 (m : (ℓ : Loc nD τ sig) → Buf (Elt Ideal) ℓ) (c : Dev nD) :
    after ops (L m c) (Proc.devRef .tc main_arg10) = (argsOf m c).fb1 :=
  ops_keep (L m c) main_arg10 (by decide) (by decide) (by decide)

theorem res_main_arg11 (m : (ℓ : Loc nD τ sig) → Buf (Elt Ideal) ℓ) (c : Dev nD) :
    after ops (L m c) (Proc.devRef .tc main_arg11) = (argsOf m c).fg :=
  ops_keep (L m c) main_arg11 (by decide) (by decide) (by decide)

theorem res_main_arg12 (m : (ℓ : Loc nD τ sig) → Buf (Elt Ideal) ℓ) (c : Dev nD) :
    after ops (L m c) (Proc.devRef .tc main_arg12) = (argsOf m c).fbb :=
  ops_keep (L m c) main_arg12 (by decide) (by decide) (by decide)

theorem res_main_arg13 (m : (ℓ : Loc nD τ sig) → Buf (Elt Ideal) ℓ) (c : Dev nD) :
    after ops (L m c) (Proc.devRef .tc main_arg13) = (argsOf m c).F2 :=
  ops_keep (L m c) main_arg13 (by decide) (by decide) (by decide)

theorem res_main_arg14 (m : (ℓ : Loc nD τ sig) → Buf (Elt Ideal) ℓ) (c : Dev nD) :
    after ops (L m c) (Proc.devRef .tc main_arg14) = (argsOf m c).fb2 :=
  ops_keep (L m c) main_arg14 (by decide) (by decide) (by decide)

theorem res_main_v0 (m : (ℓ : Loc nD τ sig) → Buf (Elt Ideal) ℓ) (c : Dev nD) :
    after ops (L m c) (Proc.devRef .tc main_v0) = v0 (argsOf m c) :=
  nullary_stage (l := ops) (pre := ops.take 0) (post := ops.drop 1) (y := main_v0) rfl (outs.drop 1) (L m c) (by decide)

theorem res_main_v1 (m : (ℓ : Loc nD τ sig) → Buf (Elt Ideal) ℓ) (c : Dev nD) :
    after ops (L m c) (Proc.devRef .tc main_v1) = v1 (argsOf m c) :=
  (unary_stage (l := ops) (pre := ops.take 1) (post := ops.drop 2) (x := main_v0) (y := main_v1) rfl (outs.drop 2) (L m c) (by decide) (by decide)).trans
    (by rw [res_main_v0 m c]; rfl)

theorem res_main_v2 (m : (ℓ : Loc nD τ sig) → Buf (Elt Ideal) ℓ) (c : Dev nD) :
    after ops (L m c) (Proc.devRef .tc main_v2) = v2 (argsOf m c) :=
  (reshape_stage (l := ops) (pre := ops.take 2) (post := ops.drop 3) (x := main_v1) (y := main_v2) rfl (outs.drop 3) (L m c) (by decide) (by decide)).trans
    (by rw [res_main_v1 m c]; rfl)

theorem res_main_v3 (m : (ℓ : Loc nD τ sig) → Buf (Elt Ideal) ℓ) (c : Dev nD) :
    after ops (L m c) (Proc.devRef .tc main_v3) = v3 (argsOf m c) :=
  nullary_stage (l := ops) (pre := ops.take 3) (post := ops.drop 4) (y := main_v3) rfl (outs.drop 4) (L m c) (by decide)

theorem res_main_v4 (m : (ℓ : Loc nD τ sig) → Buf (Elt Ideal) ℓ) (c : Dev nD) :
    after ops (L m c) (Proc.devRef .tc main_v4) = v4 (argsOf m c) :=
  (reshape_stage (l := ops) (pre := ops.take 4) (post := ops.drop 5) (x := main_v3) (y := main_v4) rfl (outs.drop 5) (L m c) (by decide) (by decide)).trans
    (by rw [res_main_v3 m c]; rfl)

theorem res_main_v5 (m : (ℓ : Loc nD τ sig) → Buf (Elt Ideal) ℓ) (c : Dev nD) :
    after ops (L m c) (Proc.devRef .tc main_v5) = v5 (argsOf m c) :=
  (unary_stage (l := ops) (pre := ops.take 5) (post := ops.drop 6) (x := main_v4) (y := main_v5) rfl (outs.drop 6) (L m c) (by decide) (by decide)).trans
    (by rw [res_main_v4 m c]; rfl)

theorem res_main_v6 (m : (ℓ : Loc nD τ sig) → Buf (Elt Ideal) ℓ) (c : Dev nD) :
    after ops (L m c) (Proc.devRef .tc main_v6) = v6 (argsOf m c) :=
  (reshape_stage (l := ops) (pre := ops.take 6) (post := ops.drop 7) (x := main_v5) (y := main_v6) rfl (outs.drop 7) (L m c) (by decide) (by decide)).trans
    (by rw [res_main_v5 m c]; rfl)

theorem res_main_c (m : (ℓ : Loc nD τ sig) → Buf (Elt Ideal) ℓ) (c : Dev nD) :
    after ops (L m c) (Proc.devRef .tc main_c) = ci (argsOf m c) :=
  nullary_stage (l := ops) (pre := ops.take 7) (post := ops.drop 8) (y := main_c) rfl (outs.drop 8) (L m c) (by decide)

theorem res_main_v7 (m : (ℓ : Loc nD τ sig) → Buf (Elt Ideal) ℓ) (c : Dev nD) :
    after ops (L m c) (Proc.devRef .tc main_v7) = v7 (argsOf m c) :=
  (unary_stage (l := ops) (pre := ops.take 8) (post := ops.drop 9) (x := main_c) (y := main_v7) rfl (outs.drop 9) (L m c) (by decide) (by decide)).trans
    (by rw [res_main_c m c]; rfl)

theorem res_main_v8 (m : (ℓ : Loc nD τ sig) → Buf (Elt Ideal) ℓ) (c : Dev nD) :
    after ops (L m c) (Proc.devRef .tc main_v8) = v8 (argsOf m c) :=
  (binary_stage (l := ops) (pre := ops.take 9) (post := ops.drop 10) (a := main_v2) (b := main_v7) (y := main_v8) rfl (outs.drop 10) (L m c) (by decide) (by decide) (by decide)).trans
    (by rw [res_main_v2 m c, res_main_v7 m c]; rfl)

theorem res_main_c_0 (m : (ℓ : Loc nD τ sig) → Buf (Elt Ideal) ℓ) (c : Dev nD) :
    after ops (L m c) (Proc.devRef .tc main_c_0) = ci_0 (argsOf m c) :=
  nullary_stage (l := ops) (pre := ops.take 10) (post := ops.drop 11) (y := main_c_0) rfl (outs.drop 11) (L m c) (by decide)

theorem res_main_v9 (m : (ℓ : Loc nD τ sig) → Buf (Elt Ideal) ℓ) (c : Dev nD) :
    after ops (L m c) (Proc.devRef .tc main_v9) = v9 (argsOf m c) :=
  (unary_stage (l := ops) (pre := ops.take 11) (post := ops.drop 12) (x := main_c_0) (y := main_v9) rfl (outs.drop 12) (L m c) (by decide) (by decide)).trans
    (by rw [res_main_c_0 m c]; rfl)

theorem res_main_v10 (m : (ℓ : Loc nD τ sig) → Buf (Elt Ideal) ℓ) (c : Dev nD) :
    after ops (L m c) (Proc.devRef .tc main_v10) = v10 (argsOf m c) :=
  (binary_stage (l := ops) (pre := ops.take 12) (post := ops.drop 13) (a := main_v2) (b := main_v9) (y := main_v10) rfl (outs.drop 13) (L m c) (by decide) (by decide) (by decide)).trans
    (by rw [res_main_v2 m c, res_main_v9 m c]; rfl)

theorem res_main_v11 (m : (ℓ : Loc nD τ sig) → Buf (Elt Ideal) ℓ) (c : Dev nD) :
    after ops (L m c) (Proc.devRef .tc main_v11) = v11 (argsOf m c) :=
  (ternary_stage (l := ops) (pre := ops.take 13) (post := ops.drop 14) (c := main_v8) (a := main_v10) (b := main_v2) (y := main_v11) rfl (outs.drop 14) (L m c) (by decide) (by decide) (by decide) (by decide)).trans
    (by rw [res_main_v8 m c, res_main_v10 m c, res_main_v2 m c]; rfl)

theorem res_main_v12 (m : (ℓ : Loc nD τ sig) → Buf (Elt Ideal) ℓ) (c : Dev nD) :
    after ops (L m c) (Proc.devRef .tc main_v12) = v12 (argsOf m c) :=
  (unary_stage (l := ops) (pre := ops.take 14) (post := ops.drop 15) (x := main_v11) (y := main_v12) rfl (outs.drop 15) (L m c) (by decide) (by decide)).trans
    (by rw [res_main_v11 m c]; rfl)

theorem res_main_v13 (m : (ℓ : Loc nD τ sig) → Buf (Elt Ideal) ℓ) (c : Dev nD) :
    after ops (L m c) (Proc.devRef .tc main_v13) = v13 (argsOf m c) :=
  (binary_stage (l := ops) (pre := ops.take 15) (post := ops.drop 16) (a := main_arg0) (b := main_v12) (y := main_v13) rfl (outs.drop 16) (L m c) (by decide) (by decide) (by decide)).trans
    (by rw [res_main_arg0 m c, res_main_v12 m c]; rfl)

theorem res_main_c_1 (m : (ℓ : Loc nD τ sig) → Buf (Elt Ideal) ℓ) (c : Dev nD) :
    after ops (L m c) (Proc.devRef .tc main_c_1) = ci_1 (argsOf m c) :=
  nullary_stage (l := ops) (pre := ops.take 16) (post := ops.drop 17) (y := main_c_1) rfl (outs.drop 17) (L m c) (by decide)

theorem res_main_v14 (m : (ℓ : Loc nD τ sig) → Buf (Elt Ideal) ℓ) (c : Dev nD) :
    after ops (L m c) (Proc.devRef .tc main_v14) = v14 (argsOf m c) :=
  (unary_stage (l := ops) (pre := ops.take 17) (post := ops.drop 18) (x := main_c_1) (y := main_v14) rfl (outs.drop 18) (L m c) (by decide) (by decide)).trans
    (by rw [res_main_c_1 m c]; rfl)

theorem res_main_v15 (m : (ℓ : Loc nD τ sig) → Buf (Elt Ideal) ℓ) (c : Dev nD) :
    after ops (L m c) (Proc.devRef .tc main_v15) = v15 (argsOf m c) :=
  (binary_stage (l := ops) (pre := ops.take 18) (post := ops.drop 19) (a := main_v6) (b := main_v14) (y := main_v15) rfl (outs.drop 19) (L m c) (by decide) (by decide) (by decide)).trans
    (by rw [res_main_v6 m c, res_main_v14 m c]; rfl)

theorem res_main_c_2 (m : (ℓ : Loc nD τ sig) → Buf (Elt Ideal) ℓ) (c : Dev nD) :
    after ops (L m c) (Proc.devRef .tc main_c_2) = ci_2 (argsOf m c) :=
  nullary_stage (l := ops) (pre := ops.take 19) (post := ops.drop 20) (y := main_c_2) rfl (outs.drop 20) (L m c) (by decide)

theorem res_main_v16 (m : (ℓ : Loc nD τ sig) → Buf (Elt Ideal) ℓ) (c : Dev nD) :
    after ops (L m c) (Proc.devRef .tc main_v16) = v16 (argsOf m c) :=
  (unary_stage (l := ops) (pre := ops.take 20) (post := ops.drop 21) (x := main_c_2) (y := main_v16) rfl (outs.drop 21) (L m c) (by decide) (by decide)).trans
    (by rw [res_main_c_2 m c]; rfl)

theorem res_main_v17 (m : (ℓ : Loc nD τ sig) → Buf (Elt Ideal) ℓ) (c : Dev nD) :
    after ops (L m c) (Proc.devRef .tc main_v17) = v17 (argsOf m c) :=
  (binary_stage (l := ops) (pre := ops.take 21) (post := ops.drop 22) (a := main_v6) (b := main_v16) (y := main_v17) rfl (outs.drop 22) (L m c) (by decide) (by decide) (by decide)).trans
    (by rw [res_main_v6 m c, res_main_v16 m c]; rfl)

theorem res_main_v18 (m : (ℓ : Loc nD τ sig) → Buf (Elt Ideal) ℓ) (c : Dev nD) :
    after ops (L m c) (Proc.devRef .tc main_v18) = v18 (argsOf m c) :=
  (ternary_stage (l := ops) (pre := ops.take 22) (post := ops.drop 23) (c := main_v15) (a := main_v17) (b := main_v6) (y := main_v18) rfl (outs.drop 23) (L m c) (by decide) (by decide) (by decide) (by decide)).trans
    (by rw [res_main_v15 m c, res_main_v17 m c, res_main_v6 m c]; rfl)

theorem res_main_v19 (m : (ℓ : Loc nD τ sig) → Buf (Elt Ideal) ℓ) (c : Dev nD) :
    after ops (L m c) (Proc.devRef .tc main_v19) = v19 (argsOf m c) :=
  (unary_stage (l := ops) (pre := ops.take 23) (post := ops.drop 24) (x := main_v18) (y := main_v19) rfl (outs.drop 24) (L m c) (by decide) (by decide)).trans
    (by rw [res_main_v18 m c]; rfl)

theorem res_main_v20 (m : (ℓ : Loc nD τ sig) → Buf (Elt Ideal) ℓ) (c : Dev nD) :
    after ops (L m c) (Proc.devRef .tc main_v20) = v20 (argsOf m c) :=
  (binary_stage (l := ops) (pre := ops.take 24) (post := ops.drop 25) (a := main_arg0) (b := main_v19) (y := main_v20) rfl (outs.drop 25) (L m c) (by decide) (by decide) (by decide)).trans
    (by rw [res_main_arg0 m c, res_main_v19 m c]; rfl)

theorem res_main_v21 (m : (ℓ : Loc nD τ sig) → Buf (Elt Ideal) ℓ) (c : Dev nD) :
    after ops (L m c) (Proc.devRef .tc main_v21) = v21 (argsOf m c) :=
  (binary_stage (l := ops) (pre := ops.take 25) (post := ops.drop 26) (a := main_v13) (b := main_v20) (y := main_v21) rfl (outs.drop 26) (L m c) (by decide) (by decide) (by decide)).trans
    (by rw [res_main_v13 m c, res_main_v20 m c]; rfl)

theorem res_main_v22 (m : (ℓ : Loc nD τ sig) → Buf (Elt Ideal) ℓ) (c : Dev nD) :
    after ops (L m c) (Proc.devRef .tc main_v22) = v22 (argsOf m c) :=
  (reshape_stage (l := ops) (pre := ops.take 26) (post := ops.drop 27) (x := main_v21) (y := main_v22) rfl (outs.drop 27) (L m c) (by decide) (by decide)).trans
    (by rw [res_main_v21 m c]; rfl)

theorem res_main_v23 (m : (ℓ : Loc nD τ sig) → Buf (Elt Ideal) ℓ) (c : Dev nD) :
    after ops (L m c) (Proc.devRef .tc main_v23) = v23 (argsOf m c) :=
  (unary_stage (l := ops) (pre := ops.take 27) (post := ops.drop 28) (x := main_arg1) (y := main_v23) rfl (outs.drop 28) (L m c) (by decide) (by decide)).trans
    (by rw [res_main_arg1 m c]; rfl)

theorem res_main_v24 (m : (ℓ : Loc nD τ sig) → Buf (Elt Ideal) ℓ) (c : Dev nD) :
    after ops (L m c) (Proc.devRef .tc main_v24) = v24 (argsOf m c) :=
  (binary_stage (l := ops) (pre := ops.take 28) (post := ops.drop 29) (a := main_v22) (b := main_v23) (y := main_v24) rfl (outs.drop 29) (L m c) (by decide) (by decide) (by decide)).trans
    (by rw [res_main_v22 m c, res_main_v23 m c]; rfl)

theorem res_main_v25 (m : (ℓ : Loc nD τ sig) → Buf (Elt Ideal) ℓ) (c : Dev nD) :
    after ops (L m c) (Proc.devRef .tc main_v25) = v25 (argsOf m c) :=
  (unary_stage (l := ops) (pre := ops.take 29) (post := ops.drop 30) (x := main_arg2) (y := main_v25) rfl (outs.drop 30) (L m c) (by decide) (by decide)).trans
    (by rw [res_main_arg2 m c]; rfl)

theorem res_main_v26 (m : (ℓ : Loc nD τ sig) → Buf (Elt Ideal) ℓ) (c : Dev nD) :
    after ops (L m c) (Proc.devRef .tc main_v26) = v26 (argsOf m c) :=
  (unary_stage (l := ops) (pre := ops.take 30) (post := ops.drop 31) (x := main_v25) (y := main_v26) rfl (outs.drop 31) (L m c) (by decide) (by decide)).trans
    (by rw [res_main_v25 m c]; rfl)

theorem res_main_v27 (m : (ℓ : Loc nD τ sig) → Buf (Elt Ideal) ℓ) (c : Dev nD) :
    after ops (L m c) (Proc.devRef .tc main_v27) = v27 (argsOf m c) :=
  (binary_stage (l := ops) (pre := ops.take 31) (post := ops.drop 32) (a := main_v24) (b := main_v26) (y := main_v27) rfl (outs.drop 32) (L m c) (by decide) (by decide) (by decide)).trans
    (by rw [res_main_v24 m c, res_main_v26 m c]; rfl)

theorem res_main_cst (m : (ℓ : Loc nD τ sig) → Buf (Elt Ideal) ℓ) (c : Dev nD) :
    after ops (L m c) (Proc.devRef .tc main_cst) = cst (argsOf m c) :=
  nullary_stage (l := ops) (pre := ops.take 32) (post := ops.drop 33) (y := main_cst) rfl (outs.drop 33) (L m c) (by decide)

theorem res_main_v28 (m : (ℓ : Loc nD τ sig) → Buf (Elt Ideal) ℓ) (c : Dev nD) :
    after ops (L m c) (Proc.devRef .tc main_v28) = v28 (argsOf m c) :=
  (binary_stage (l := ops) (pre := ops.take 33) (post := ops.drop 34) (a := main_v27) (b := main_cst) (y := main_v28) rfl (outs.drop 34) (L m c) (by decide) (by decide) (by decide)).trans
    (by rw [res_main_v27 m c, res_main_cst m c]; rfl)

theorem res_main_cst_3 (m : (ℓ : Loc nD τ sig) → Buf (Elt Ideal) ℓ) (c : Dev nD) :
    after ops (L m c) (Proc.devRef .tc main_cst_3) = cst_3 (argsOf m c) :=
  nullary_stage (l := ops) (pre := ops.take 34) (post := ops.drop 35) (y := main_cst_3) rfl (outs.drop 35) (L m c) (by decide)

theorem res_main_v29 (m : (ℓ : Loc nD τ sig) → Buf (Elt Ideal) ℓ) (c : Dev nD) :
    after ops (L m c) (Proc.devRef .tc main_v29) = v29 (argsOf m c) :=
  (unary_stage (l := ops) (pre := ops.take 35) (post := ops.drop 36) (x := main_cst_3) (y := main_v29) rfl (outs.drop 36) (L m c) (by decide) (by decide)).trans
    (by rw [res_main_cst_3 m c]; rfl)

theorem res_main_v30 (m : (ℓ : Loc nD τ sig) → Buf (Elt Ideal) ℓ) (c : Dev nD) :
    after ops (L m c) (Proc.devRef .tc main_v30) = v30 (argsOf m c) :=
  (binary_stage (l := ops) (pre := ops.take 36) (post := ops.drop 37) (a := main_v28) (b := main_v29) (y := main_v30) rfl (outs.drop 37) (L m c) (by decide) (by decide) (by decide)).trans
    (by rw [res_main_v28 m c, res_main_v29 m c]; rfl)

theorem res_main_v31 (m : (ℓ : Loc nD τ sig) → Buf (Elt Ideal) ℓ) (c : Dev nD) :
    after ops (L m c) (Proc.devRef .tc main_v31) = v31 (argsOf m c) :=
  (unary_stage (l := ops) (pre := ops.take 37) (post := ops.drop 38) (x := main_v30) (y := main_v31) rfl (outs.drop 38) (L m c) (by decide) (by decide)).trans
    (by rw [res_main_v30 m c]; rfl)

theorem res_main_v32 (m : (ℓ : Loc nD τ sig) → Buf (Elt Ideal) ℓ) (c : Dev nD) :
    after ops (L m c) (Proc.devRef .tc main_v32) = v32 (argsOf m c) :=
  (unary_stage (l := ops) (pre := ops.take 38) (post := ops.drop 39) (x := main_v31) (y := main_v32) rfl (outs.drop 39) (L m c) (by decide) (by decide)).trans
    (by rw [res_main_v31 m c]; rfl)

theorem res_main_v33 (m : (ℓ : Loc nD τ sig) → Buf (Elt Ideal) ℓ) (c : Dev nD) :
    after ops (L m c) (Proc.devRef .tc main_v33) = v33 (argsOf m c) :=
  (binary_stage (l := ops) (pre := ops.take 39) (post := ops.drop 40) (a := main_v27) (b := main_v32) (y := main_v33) rfl (outs.drop 40) (L m c) (by decide) (by decide) (by decide)).trans
    (by rw [res_main_v27 m c, res_main_v32 m c]; rfl)

theorem res_main_v34 (m : (ℓ : Loc nD τ sig) → Buf (Elt Ideal) ℓ) (c : Dev nD) :
    after ops (L m c) (Proc.devRef .tc main_v34) = v34 (argsOf m c) :=
  (binary_stage (l := ops) (pre := ops.take 40) (post := ops.drop 41) (a := main_v33) (b := main_v33) (y := main_v34) rfl (outs.drop 41) (L m c) (by decide) (by decide) (by decide)).trans
    (by rw [res_main_v33 m c]; rfl)

theorem res_main_cst_4 (m : (ℓ : Loc nD τ sig) → Buf (Elt Ideal) ℓ) (c : Dev nD) :
    after ops (L m c) (Proc.devRef .tc main_cst_4) = cst_4 (argsOf m c) :=
  nullary_stage (l := ops) (pre := ops.take 41) (post := ops.drop 42) (y := main_cst_4) rfl (outs.drop 42) (L m c) (by decide)

theorem res_main_v35 (m : (ℓ : Loc nD τ sig) → Buf (Elt Ideal) ℓ) (c : Dev nD) :
    after ops (L m c) (Proc.devRef .tc main_v35) = v35 (argsOf m c) :=
  (binary_stage (l := ops) (pre := ops.take 42) (post := ops.drop 43) (a := main_v34) (b := main_cst_4) (y := main_v35) rfl (outs.drop 43) (L m c) (by decide) (by decide) (by decide)).trans
    (by rw [res_main_v34 m c, res_main_cst_4 m c]; rfl)

theorem res_main_cst_5 (m : (ℓ : Loc nD τ sig) → Buf (Elt Ideal) ℓ) (c : Dev nD) :
    after ops (L m c) (Proc.devRef .tc main_cst_5) = cst_5 (argsOf m c) :=
  nullary_stage (l := ops) (pre := ops.take 43) (post := ops.drop 44) (y := main_cst_5) rfl (outs.drop 44) (L m c) (by decide)

theorem res_main_v36 (m : (ℓ : Loc nD τ sig) → Buf (Elt Ideal) ℓ) (c : Dev nD) :
    after ops (L m c) (Proc.devRef .tc main_v36) = v36 (argsOf m c) :=
  (unary_stage (l := ops) (pre := ops.take 44) (post := ops.drop 45) (x := main_cst_5) (y := main_v36) rfl (outs.drop 45) (L m c) (by decide) (by decide)).trans
    (by rw [res_main_cst_5 m c]; rfl)

theorem res_main_v37 (m : (ℓ : Loc nD τ sig) → Buf (Elt Ideal) ℓ) (c : Dev nD) :
    after ops (L m c) (Proc.devRef .tc main_v37) = v37 (argsOf m c) :=
  (binary_stage (l := ops) (pre := ops.take 45) (post := ops.drop 46) (a := main_v35) (b := main_v36) (y := main_v37) rfl (outs.drop 46) (L m c) (by decide) (by decide) (by decide)).trans
    (by rw [res_main_v35 m c, res_main_v36 m c]; rfl)

theorem res_main_v38 (m : (ℓ : Loc nD τ sig) → Buf (Elt Ideal) ℓ) (c : Dev nD) :
    after ops (L m c) (Proc.devRef .tc main_v38) = v38 (argsOf m c) :=
  (unary_stage (l := ops) (pre := ops.take 46) (post := ops.drop 47) (x := main_v30) (y := main_v38) rfl (outs.drop 47) (L m c) (by decide) (by decide)).trans
    (by rw [res_main_v30 m c]; rfl)

theorem res_main_v39 (m : (ℓ : Loc nD τ sig) → Buf (Elt Ideal) ℓ) (c : Dev nD) :
    after ops (L m c) (Proc.devRef .tc main_v39) = v39 (argsOf m c) :=
  (unary_stage (l := ops) (pre := ops.take 47) (post := ops.drop 48) (x := main_v38) (y := main_v39) rfl (outs.drop 48) (L m c) (by decide) (by decide)).trans
    (by rw [res_main_v38 m c]; rfl)

theorem res_main_v40 (m : (ℓ : Loc nD τ sig) → Buf (Elt Ideal) ℓ) (c : Dev nD) :
    after ops (L m c) (Proc.devRef .tc main_v40) = v40 (argsOf m c) :=
  (binary_stage (l := ops) (pre := ops.take 48) (post := ops.drop 49) (a := main_v27) (b := main_v39) (y := main_v40) rfl (outs.drop 49) (L m c) (by decide) (by decide) (by decide)).trans
    (by rw [res_main_v27 m c, res_main_v39 m c]; rfl)

theorem res_main_cst_6 (m : (ℓ : Loc nD τ sig) → Buf (Elt Ideal) ℓ) (c : Dev nD) :
    after ops (L m c) (Proc.devRef .tc main_cst_6) = cst_6 (argsOf m c) :=
  nullary_stage (l := ops) (pre := ops.take 49) (post := ops.drop 50) (y := main_cst_6) rfl (outs.drop 50) (L m c) (by decide)

theorem res_main_v41 (m : (ℓ : Loc nD τ sig) → Buf (Elt Ideal) ℓ) (c : Dev nD) :
    after ops (L m c) (Proc.devRef .tc main_v41) = v41 (argsOf m c) :=
  (unary_stage (l := ops) (pre := ops.take 50) (post := ops.drop 51) (x := main_cst_6) (y := main_v41) rfl (outs.drop 51) (L m c) (by decide) (by decide)).trans
    (by rw [res_main_cst_6 m c]; rfl)

theorem res_main_v42 (m : (ℓ : Loc nD τ sig) → Buf (Elt Ideal) ℓ) (c : Dev nD) :
    after ops (L m c) (Proc.devRef .tc main_v42) = v42 (argsOf m c) :=
  (binary_stage (l := ops) (pre := ops.take 51) (post := ops.drop 52) (a := main_v37) (b := main_v41) (y := main_v42) rfl (outs.drop 52) (L m c) (by decide) (by decide) (by decide)).trans
    (by rw [res_main_v37 m c, res_main_v41 m c]; rfl)

theorem res_main_v43 (m : (ℓ : Loc nD τ sig) → Buf (Elt Ideal) ℓ) (c : Dev nD) :
    after ops (L m c) (Proc.devRef .tc main_v43) = v43 (argsOf m c) :=
  (unary_stage (l := ops) (pre := ops.take 52) (post := ops.drop 53) (x := main_v42) (y := main_v43) rfl (outs.drop 53) (L m c) (by decide) (by decide)).trans
    (by rw [res_main_v42 m c]; rfl)

theorem res_main_v44 (m : (ℓ : Loc nD τ sig) → Buf (Elt Ideal) ℓ) (c : Dev nD) :
    after ops (L m c) (Proc.devRef .tc main_v44) = v44 (argsOf m c) :=
  (unary_stage (l := ops) (pre := ops.take 53) (post := ops.drop 54) (x := main_v43) (y := main_v44) rfl (outs.drop 54) (L m c) (by decide) (by decide)).trans
    (by rw [res_main_v43 m c]; rfl)

theorem res_main_v45 (m : (ℓ : Loc nD τ sig) → Buf (Elt Ideal) ℓ) (c : Dev nD) :
    after ops (L m c) (Proc.devRef .tc main_v45) = v45 (argsOf m c) :=
  (unary_stage (l := ops) (pre := ops.take 54) (post := ops.drop 55) (x := main_v44) (y := main_v45) rfl (outs.drop 55) (L m c) (by decide) (by decide)).trans
    (by rw [res_main_v44 m c]; rfl)

theorem res_main_v46 (m : (ℓ : Loc nD τ sig) → Buf (Elt Ideal) ℓ) (c : Dev nD) :
    after ops (L m c) (Proc.devRef .tc main_v46) = v46 (argsOf m c) :=
  (binary_stage (l := ops) (pre := ops.take 55) (post := ops.drop 56) (a := main_v40) (b := main_v45) (y := main_v46) rfl (outs.drop 56) (L m c) (by decide) (by decide) (by decide)).trans
    (by rw [res_main_v40 m c, res_main_v45 m c]; rfl)

theorem res_main_v47 (m : (ℓ : Loc nD τ sig) → Buf (Elt Ideal) ℓ) (c : Dev nD) :
    after ops (L m c) (Proc.devRef .tc main_v47) = v47 (argsOf m c) :=
  (unary_stage (l := ops) (pre := ops.take 56) (post := ops.drop 57) (x := main_arg3) (y := main_v47) rfl (outs.drop 57) (L m c) (by decide) (by decide)).trans
    (by rw [res_main_arg3 m c]; rfl)

theorem res_main_v48 (m : (ℓ : Loc nD τ sig) → Buf (Elt Ideal) ℓ) (c : Dev nD) :
    after ops (L m c) (Proc.devRef .tc main_v48) = v48 (argsOf m c) :=
  (unary_stage (l := ops) (pre := ops.take 57) (post := ops.drop 58) (x := main_v47) (y := main_v48) rfl (outs.drop 58) (L m c) (by decide) (by decide)).trans
    (by rw [res_main_v47 m c]; rfl)

theorem res_main_v49 (m : (ℓ : Loc nD τ sig) → Buf (Elt Ideal) ℓ) (c : Dev nD) :
    after ops (L m c) (Proc.devRef .tc main_v49) = v49 (argsOf m c) :=
  (binary_stage (l := ops) (pre := ops.take 58) (post := ops.drop 59) (a := main_v46) (b := main_v48) (y := main_v49) rfl (outs.drop 59) (L m c) (by decide) (by decide) (by decide)).trans
    (by rw [res_main_v46 m c, res_main_v48 m c]; rfl)

theorem res_main_v50 (m : (ℓ : Loc nD τ sig) → Buf (Elt Ideal) ℓ) (c : Dev nD) :
    after ops (L m c) (Proc.devRef .tc main_v50) = v50 (argsOf m c) :=
  (unary_stage (l := ops) (pre := ops.take 59) (post := ops.drop 60) (x := main_arg4) (y := main_v50) rfl (outs.drop 60) (L m c) (by decide) (by decide)).trans
    (by rw [res_main_arg4 m c]; rfl)

end Cert.ReferenceIdeal.RefBridge

end
-- ==== Proof.RefBridge1.lean ====
/-
  The reference program's buffers after its whole line as the value side's named stages, continued: operations
  61 … 132 (the second window: the two leaky ReLUs inlined, the logistic gate, the aggregate, the node layer and the
  start of its normalisation).
-/
import proofs.«168503_j21964462751805_2_alg».proof.Proof.RefBridge0

noncomputable section

namespace Cert.ReferenceIdeal.RefBridge

open Idealize.ShloMosaic Idealize.ShloMosaic.TcCoe Idealize.ShloMosaic.StableHlo
open Cert.ReferenceIdeal Cert.ReferenceIdeal.Gen Cert.ReferenceIdeal.RefRun Cert.ReferenceIdeal.RefArgs
open Cert.ReferenceIdeal.RefValue Cert.ReferenceIdeal.RefBridgeLib

theorem res_main_v51 (m : (ℓ : Loc nD τ sig) → Buf (Elt Ideal) ℓ) (c : Dev nD) :
    after ops (L m c) (Proc.devRef .tc main_v51) = v51 (argsOf m c) :=
  (unary_stage (l := ops) (pre := ops.take 60) (post := ops.drop 61) (x := main_v50) (y := main_v51) rfl (outs.drop 61) (L m c) (by decide) (by decide)).trans
    (by rw [res_main_v50 m c]; rfl)

theorem res_main_v52 (m : (ℓ : Loc nD τ sig) → Buf (Elt Ideal) ℓ) (c : Dev nD) :
    after ops (L m c) (Proc.devRef .tc main_v52) = v52 (argsOf m c) :=
  (binary_stage (l := ops) (pre := ops.take 61) (post := ops.drop 62) (a := main_v49) (b := main_v51) (y := main_v52) rfl (outs.drop 62) (L m c) (by decide) (by decide) (by decide)).trans
    (by rw [res_main_v49 m c, res_main_v51 m c]; rfl)

theorem res_main_cst_7 (m : (ℓ : Loc nD τ sig) → Buf (Elt Ideal) ℓ) (c : Dev nD) :
    after ops (L m c) (Proc.devRef .tc main_cst_7) = cst_7 (argsOf m c) :=
  nullary_stage (l := ops) (pre := ops.take 62) (post := ops.drop 63) (y := main_cst_7) rfl (outs.drop 63) (L m c) (by decide)

theorem res_main_call0_cst (m : (ℓ : Loc nD τ sig) → Buf (Elt Ideal) ℓ) (c : Dev nD) :
    after ops (L m c) (Proc.devRef .tc main_call0_cst) = call0_cst (argsOf m c) :=
  nullary_stage (l := ops) (pre := ops.take 63) (post := ops.drop 64) (y := main_call0_cst) rfl (outs.drop 64) (L m c) (by decide)

theorem res_main_call0_v0 (m : (ℓ : Loc nD τ sig) → Buf (Elt Ideal) ℓ) (c : Dev nD) :
    after ops (L m c) (Proc.devRef .tc main_call0_v0) = call0_v0 (argsOf m c) :=
  (unary_stage (l := ops) (pre := ops.take 64) (post := ops.drop 65) (x := main_call0_cst) (y := main_call0_v0) rfl (outs.drop 65) (L m c) (by decide) (by decide)).trans
    (by rw [res_main_call0_cst m c]; rfl)

theorem res_main_call0_v1 (m : (ℓ : Loc nD τ sig) → Buf (Elt Ideal) ℓ) (c : Dev nD) :
    after ops (L m c) (Proc.devRef .tc main_call0_v1) = call0_v1 (argsOf m c) :=
  (binary_stage (l := ops) (pre := ops.take 65) (post := ops.drop 66) (a := main_v52) (b := main_call0_v0) (y := main_call0_v1) rfl (outs.drop 66) (L m c) (by decide) (by decide) (by decide)).trans
    (by rw [res_main_v52 m c, res_main_call0_v0 m c]; rfl)

theorem res_main_call0_v2 (m : (ℓ : Loc nD τ sig) → Buf (Elt Ideal) ℓ) (c : Dev nD) :
    after ops (L m c) (Proc.devRef .tc main_call0_v2) = call0_v2 (argsOf m c) :=
  (unary_stage (l := ops) (pre := ops.take 66) (post := ops.drop 67) (x := main_cst_7) (y := main_call0_v2) rfl (outs.drop 67) (L m c) (by decide) (by decide)).trans
    (by rw [res_main_cst_7 m c]; rfl)

theorem res_main_call0_v3 (m : (ℓ : Loc nD τ sig) → Buf (Elt Ideal) ℓ) (c : Dev nD) :
    after ops (L m c) (Proc.devRef .tc main_call0_v3) = call0_v3 (argsOf m c) :=
  (unary_stage (l := ops) (pre := ops.take 67) (post := ops.drop 68) (x := main_call0_v2) (y := main_call0_v3) rfl (outs.drop 68) (L m c) (by decide) (by decide)).trans
    (by rw [res_main_call0_v2 m c]; rfl)

theorem res_main_call0_v4 (m : (ℓ : Loc nD τ sig) → Buf (Elt Ideal) ℓ) (c : Dev nD) :
    after ops (L m c) (Proc.devRef .tc main_call0_v4) = call0_v4 (argsOf m c) :=
  (binary_stage (l := ops) (pre := ops.take 68) (post := ops.drop 69) (a := main_call0_v3) (b := main_v52) (y := main_call0_v4) rfl (outs.drop 69) (L m c) (by decide) (by decide) (by decide)).trans
    (by rw [res_main_call0_v3 m c, res_main_v52 m c]; rfl)

theorem res_main_v53 (m : (ℓ : Loc nD τ sig) → Buf (Elt Ideal) ℓ) (c : Dev nD) :
    after ops (L m c) (Proc.devRef .tc main_v53) = v53 (argsOf m c) :=
  (ternary_stage (l := ops) (pre := ops.take 69) (post := ops.drop 70) (c := main_call0_v1) (a := main_v52) (b := main_call0_v4) (y := main_v53) rfl (outs.drop 70) (L m c) (by decide) (by decide) (by decide) (by decide)).trans
    (by rw [res_main_call0_v1 m c, res_main_v52 m c, res_main_call0_v4 m c]; rfl)

theorem res_main_v54 (m : (ℓ : Loc nD τ sig) → Buf (Elt Ideal) ℓ) (c : Dev nD) :
    after ops (L m c) (Proc.devRef .tc main_v54) = v54 (argsOf m c) :=
  (unary_stage (l := ops) (pre := ops.take 70) (post := ops.drop 71) (x := main_arg5) (y := main_v54) rfl (outs.drop 71) (L m c) (by decide) (by decide)).trans
    (by rw [res_main_arg5 m c]; rfl)

theorem res_main_v55 (m : (ℓ : Loc nD τ sig) → Buf (Elt Ideal) ℓ) (c : Dev nD) :
    after ops (L m c) (Proc.devRef .tc main_v55) = v55 (argsOf m c) :=
  (binary_stage (l := ops) (pre := ops.take 71) (post := ops.drop 72) (a := main_v53) (b := main_v54) (y := main_v55) rfl (outs.drop 72) (L m c) (by decide) (by decide) (by decide)).trans
    (by rw [res_main_v53 m c, res_main_v54 m c]; rfl)

theorem res_main_v56 (m : (ℓ : Loc nD τ sig) → Buf (Elt Ideal) ℓ) (c : Dev nD) :
    after ops (L m c) (Proc.devRef .tc main_v56) = v56 (argsOf m c) :=
  (unary_stage (l := ops) (pre := ops.take 72) (post := ops.drop 73) (x := main_arg6) (y := main_v56) rfl (outs.drop 73) (L m c) (by decide) (by decide)).trans
    (by rw [res_main_arg6 m c]; rfl)

theorem res_main_v57 (m : (ℓ : Loc nD τ sig) → Buf (Elt Ideal) ℓ) (c : Dev nD) :
    after ops (L m c) (Proc.devRef .tc main_v57) = v57 (argsOf m c) :=
  (unary_stage (l := ops) (pre := ops.take 73) (post := ops.drop 74) (x := main_v56) (y := main_v57) rfl (outs.drop 74) (L m c) (by decide) (by decide)).trans
    (by rw [res_main_v56 m c]; rfl)

theorem res_main_v58 (m : (ℓ : Loc nD τ sig) → Buf (Elt Ideal) ℓ) (c : Dev nD) :
    after ops (L m c) (Proc.devRef .tc main_v58) = v58 (argsOf m c) :=
  (binary_stage (l := ops) (pre := ops.take 74) (post := ops.drop 75) (a := main_v55) (b := main_v57) (y := main_v58) rfl (outs.drop 75) (L m c) (by decide) (by decide) (by decide)).trans
    (by rw [res_main_v55 m c, res_main_v57 m c]; rfl)

theorem res_main_cst_8 (m : (ℓ : Loc nD τ sig) → Buf (Elt Ideal) ℓ) (c : Dev nD) :
    after ops (L m c) (Proc.devRef .tc main_cst_8) = cst_8 (argsOf m c) :=
  nullary_stage (l := ops) (pre := ops.take 75) (post := ops.drop 76) (y := main_cst_8) rfl (outs.drop 76) (L m c) (by decide)

theorem res_main_call1_cst (m : (ℓ : Loc nD τ sig) → Buf (Elt Ideal) ℓ) (c : Dev nD) :
    after ops (L m c) (Proc.devRef .tc main_call1_cst) = call1_cst (argsOf m c) :=
  nullary_stage (l := ops) (pre := ops.take 76) (post := ops.drop 77) (y := main_call1_cst) rfl (outs.drop 77) (L m c) (by decide)

theorem res_main_call1_v0 (m : (ℓ : Loc nD τ sig) → Buf (Elt Ideal) ℓ) (c : Dev nD) :
    after ops (L m c) (Proc.devRef .tc main_call1_v0) = call1_v0 (argsOf m c) :=
  (unary_stage (l := ops) (pre := ops.take 77) (post := ops.drop 78) (x := main_call1_cst) (y := main_call1_v0) rfl (outs.drop 78) (L m c) (by decide) (by decide)).trans
    (by rw [res_main_call1_cst m c]; rfl)

theorem res_main_call1_v1 (m : (ℓ : Loc nD τ sig) → Buf (Elt Ideal) ℓ) (c : Dev nD) :
    after ops (L m c) (Proc.devRef .tc main_call1_v1) = call1_v1 (argsOf m c) :=
  (binary_stage (l := ops) (pre := ops.take 78) (post := ops.drop 79) (a := main_v58) (b := main_call1_v0) (y := main_call1_v1) rfl (outs.drop 79) (L m c) (by decide) (by decide) (by decide)).trans
    (by rw [res_main_v58 m c, res_main_call1_v0 m c]; rfl)

theorem res_main_call1_v2 (m : (ℓ : Loc nD τ sig) → Buf (Elt Ideal) ℓ) (c : Dev nD) :
    after ops (L m c) (Proc.devRef .tc main_call1_v2) = call1_v2 (argsOf m c) :=
  (unary_stage (l := ops) (pre := ops.take 79) (post := ops.drop 80) (x := main_cst_8) (y := main_call1_v2) rfl (outs.drop 80) (L m c) (by decide) (by decide)).trans
    (by rw [res_main_cst_8 m c]; rfl)

theorem res_main_call1_v3 (m : (ℓ : Loc nD τ sig) → Buf (Elt Ideal) ℓ) (c : Dev nD) :
    after ops (L m c) (Proc.devRef .tc main_call1_v3) = call1_v3 (argsOf m c) :=
  (unary_stage (l := ops) (pre := ops.take 80) (post := ops.drop 81) (x := main_call1_v2) (y := main_call1_v3) rfl (outs.drop 81) (L m c) (by decide) (by decide)).trans
    (by rw [res_main_call1_v2 m c]; rfl)

theorem res_main_call1_v4 (m : (ℓ : Loc nD τ sig) → Buf (Elt Ideal) ℓ) (c : Dev nD) :
    after ops (L m c) (Proc.devRef .tc main_call1_v4) = call1_v4 (argsOf m c) :=
  (binary_stage (l := ops) (pre := ops.take 81) (post := ops.drop 82) (a := main_call1_v3) (b := main_v58) (y := main_call1_v4) rfl (outs.drop 82) (L m c) (by decide) (by decide) (by decide)).trans
    (by rw [res_main_call1_v3 m c, res_main_v58 m c]; rfl)

theorem res_main_v59 (m : (ℓ : Loc nD τ sig) → Buf (Elt Ideal) ℓ) (c : Dev nD) :
    after ops (L m c) (Proc.devRef .tc main_v59) = v59 (argsOf m c) :=
  (ternary_stage (l := ops) (pre := ops.take 82) (post := ops.drop 83) (c := main_call1_v1) (a := main_v58) (b := main_call1_v4) (y := main_v59) rfl (outs.drop 83) (L m c) (by decide) (by decide) (by decide) (by decide)).trans
    (by rw [res_main_call1_v1 m c, res_main_v58 m c, res_main_call1_v4 m c]; rfl)

theorem res_main_v60 (m : (ℓ : Loc nD τ sig) → Buf (Elt Ideal) ℓ) (c : Dev nD) :
    after ops (L m c) (Proc.devRef .tc main_v60) = v60 (argsOf m c) :=
  (unary_stage (l := ops) (pre := ops.take 83) (post := ops.drop 84) (x := main_arg7) (y := main_v60) rfl (outs.drop 84) (L m c) (by decide) (by decide)).trans
    (by rw [res_main_arg7 m c]; rfl)

theorem res_main_v61 (m : (ℓ : Loc nD τ sig) → Buf (Elt Ideal) ℓ) (c : Dev nD) :
    after ops (L m c) (Proc.devRef .tc main_v61) = v61 (argsOf m c) :=
  (binary_stage (l := ops) (pre := ops.take 84) (post := ops.drop 85) (a := main_v59) (b := main_v60) (y := main_v61) rfl (outs.drop 85) (L m c) (by decide) (by decide) (by decide)).trans
    (by rw [res_main_v59 m c, res_main_v60 m c]; rfl)

theorem res_main_v62 (m : (ℓ : Loc nD τ sig) → Buf (Elt Ideal) ℓ) (c : Dev nD) :
    after ops (L m c) (Proc.devRef .tc main_v62) = v62 (argsOf m c) :=
  (unary_stage (l := ops) (pre := ops.take 85) (post := ops.drop 86) (x := main_arg8) (y := main_v62) rfl (outs.drop 86) (L m c) (by decide) (by decide)).trans
    (by rw [res_main_arg8 m c]; rfl)

theorem res_main_v63 (m : (ℓ : Loc nD τ sig) → Buf (Elt Ideal) ℓ) (c : Dev nD) :
    after ops (L m c) (Proc.devRef .tc main_v63) = v63 (argsOf m c) :=
  (unary_stage (l := ops) (pre := ops.take 86) (post := ops.drop 87) (x := main_v62) (y := main_v63) rfl (outs.drop 87) (L m c) (by decide) (by decide)).trans
    (by rw [res_main_v62 m c]; rfl)

theorem res_main_v64 (m : (ℓ : Loc nD τ sig) → Buf (Elt Ideal) ℓ) (c : Dev nD) :
    after ops (L m c) (Proc.devRef .tc main_v64) = v64 (argsOf m c) :=
  (binary_stage (l := ops) (pre := ops.take 87) (post := ops.drop 88) (a := main_v61) (b := main_v63) (y := main_v64) rfl (outs.drop 88) (L m c) (by decide) (by decide) (by decide)).trans
    (by rw [res_main_v61 m c, res_main_v63 m c]; rfl)

theorem res_main_v65 (m : (ℓ : Loc nD τ sig) → Buf (Elt Ideal) ℓ) (c : Dev nD) :
    after ops (L m c) (Proc.devRef .tc main_v65) = v65 (argsOf m c) :=
  (reshape_stage (l := ops) (pre := ops.take 88) (post := ops.drop 89) (x := main_v64) (y := main_v65) rfl (outs.drop 89) (L m c) (by decide) (by decide)).trans
    (by rw [res_main_v64 m c]; rfl)

theorem res_main_v66 (m : (ℓ : Loc nD τ sig) → Buf (Elt Ideal) ℓ) (c : Dev nD) :
    after ops (L m c) (Proc.devRef .tc main_v66) = v66 (argsOf m c) :=
  (unary_stage (l := ops) (pre := ops.take 89) (post := ops.drop 90) (x := main_v65) (y := main_v66) rfl (outs.drop 90) (L m c) (by decide) (by decide)).trans
    (by rw [res_main_v65 m c]; rfl)

theorem res_main_v67 (m : (ℓ : Loc nD τ sig) → Buf (Elt Ideal) ℓ) (c : Dev nD) :
    after ops (L m c) (Proc.devRef .tc main_v67) = v67 (argsOf m c) :=
  (reshape_stage (l := ops) (pre := ops.take 90) (post := ops.drop 91) (x := main_v66) (y := main_v67) rfl (outs.drop 91) (L m c) (by decide) (by decide)).trans
    (by rw [res_main_v66 m c]; rfl)

theorem res_main_v68 (m : (ℓ : Loc nD τ sig) → Buf (Elt Ideal) ℓ) (c : Dev nD) :
    after ops (L m c) (Proc.devRef .tc main_v68) = v68 (argsOf m c) :=
  (unary_stage (l := ops) (pre := ops.take 91) (post := ops.drop 92) (x := main_v67) (y := main_v68) rfl (outs.drop 92) (L m c) (by decide) (by decide)).trans
    (by rw [res_main_v67 m c]; rfl)

theorem res_main_v69 (m : (ℓ : Loc nD τ sig) → Buf (Elt Ideal) ℓ) (c : Dev nD) :
    after ops (L m c) (Proc.devRef .tc main_v69) = v69 (argsOf m c) :=
  (unary_stage (l := ops) (pre := ops.take 92) (post := ops.drop 93) (x := main_v68) (y := main_v69) rfl (outs.drop 93) (L m c) (by decide) (by decide)).trans
    (by rw [res_main_v68 m c]; rfl)

theorem res_main_cst_9 (m : (ℓ : Loc nD τ sig) → Buf (Elt Ideal) ℓ) (c : Dev nD) :
    after ops (L m c) (Proc.devRef .tc main_cst_9) = cst_9 (argsOf m c) :=
  nullary_stage (l := ops) (pre := ops.take 93) (post := ops.drop 94) (y := main_cst_9) rfl (outs.drop 94) (L m c) (by decide)

theorem res_main_v70 (m : (ℓ : Loc nD τ sig) → Buf (Elt Ideal) ℓ) (c : Dev nD) :
    after ops (L m c) (Proc.devRef .tc main_v70) = v70 (argsOf m c) :=
  (unary_stage (l := ops) (pre := ops.take 94) (post := ops.drop 95) (x := main_cst_9) (y := main_v70) rfl (outs.drop 95) (L m c) (by decide) (by decide)).trans
    (by rw [res_main_cst_9 m c]; rfl)

theorem res_main_v71 (m : (ℓ : Loc nD τ sig) → Buf (Elt Ideal) ℓ) (c : Dev nD) :
    after ops (L m c) (Proc.devRef .tc main_v71) = v71 (argsOf m c) :=
  (binary_stage (l := ops) (pre := ops.take 95) (post := ops.drop 96) (a := main_v70) (b := main_v69) (y := main_v71) rfl (outs.drop 96) (L m c) (by decide) (by decide) (by decide)).trans
    (by rw [res_main_v70 m c, res_main_v69 m c]; rfl)

theorem res_main_cst_10 (m : (ℓ : Loc nD τ sig) → Buf (Elt Ideal) ℓ) (c : Dev nD) :
    after ops (L m c) (Proc.devRef .tc main_cst_10) = cst_10 (argsOf m c) :=
  nullary_stage (l := ops) (pre := ops.take 96) (post := ops.drop 97) (y := main_cst_10) rfl (outs.drop 97) (L m c) (by decide)

theorem res_main_v72 (m : (ℓ : Loc nD τ sig) → Buf (Elt Ideal) ℓ) (c : Dev nD) :
    after ops (L m c) (Proc.devRef .tc main_v72) = v72 (argsOf m c) :=
  (unary_stage (l := ops) (pre := ops.take 97) (post := ops.drop 98) (x := main_cst_10) (y := main_v72) rfl (outs.drop 98) (L m c) (by decide) (by decide)).trans
    (by rw [res_main_cst_10 m c]; rfl)

theorem res_main_v73 (m : (ℓ : Loc nD τ sig) → Buf (Elt Ideal) ℓ) (c : Dev nD) :
    after ops (L m c) (Proc.devRef .tc main_v73) = v73 (argsOf m c) :=
  (binary_stage (l := ops) (pre := ops.take 98) (post := ops.drop 99) (a := main_v72) (b := main_v71) (y := main_v73) rfl (outs.drop 99) (L m c) (by decide) (by decide) (by decide)).trans
    (by rw [res_main_v72 m c, res_main_v71 m c]; rfl)

theorem res_main_v74 (m : (ℓ : Loc nD τ sig) → Buf (Elt Ideal) ℓ) (c : Dev nD) :
    after ops (L m c) (Proc.devRef .tc main_v74) = v74 (argsOf m c) :=
  (unary_stage (l := ops) (pre := ops.take 99) (post := ops.drop 100) (x := main_v65) (y := main_v74) rfl (outs.drop 100) (L m c) (by decide) (by decide)).trans
    (by rw [res_main_v65 m c]; rfl)

theorem res_main_v75 (m : (ℓ : Loc nD τ sig) → Buf (Elt Ideal) ℓ) (c : Dev nD) :
    after ops (L m c) (Proc.devRef .tc main_v75) = v75 (argsOf m c) :=
  (reshape_stage (l := ops) (pre := ops.take 100) (post := ops.drop 101) (x := main_v74) (y := main_v75) rfl (outs.drop 101) (L m c) (by decide) (by decide)).trans
    (by rw [res_main_v74 m c]; rfl)

theorem res_main_v76 (m : (ℓ : Loc nD τ sig) → Buf (Elt Ideal) ℓ) (c : Dev nD) :
    after ops (L m c) (Proc.devRef .tc main_v76) = v76 (argsOf m c) :=
  (binary_stage (l := ops) (pre := ops.take 101) (post := ops.drop 102) (a := main_v73) (b := main_v75) (y := main_v76) rfl (outs.drop 102) (L m c) (by decide) (by decide) (by decide)).trans
    (by rw [res_main_v73 m c, res_main_v75 m c]; rfl)

theorem res_main_v77 (m : (ℓ : Loc nD τ sig) → Buf (Elt Ideal) ℓ) (c : Dev nD) :
    after ops (L m c) (Proc.devRef .tc main_v77) = v77 (argsOf m c) :=
  (reshape_stage (l := ops) (pre := ops.take 102) (post := ops.drop 103) (x := main_v76) (y := main_v77) rfl (outs.drop 103) (L m c) (by decide) (by decide)).trans
    (by rw [res_main_v76 m c]; rfl)

theorem res_main_cst_11 (m : (ℓ : Loc nD τ sig) → Buf (Elt Ideal) ℓ) (c : Dev nD) :
    after ops (L m c) (Proc.devRef .tc main_cst_11) = cst_11 (argsOf m c) :=
  nullary_stage (l := ops) (pre := ops.take 103) (post := ops.drop 104) (y := main_cst_11) rfl (outs.drop 104) (L m c) (by decide)

theorem res_main_v78 (m : (ℓ : Loc nD τ sig) → Buf (Elt Ideal) ℓ) (c : Dev nD) :
    after ops (L m c) (Proc.devRef .tc main_v78) = v78 (argsOf m c) :=
  (binary_stage (l := ops) (pre := ops.take 104) (post := ops.drop 105) (a := main_v77) (b := main_cst_11) (y := main_v78) rfl (outs.drop 105) (L m c) (by decide) (by decide) (by decide)).trans
    (by rw [res_main_v77 m c, res_main_cst_11 m c]; rfl)

theorem res_main_v79 (m : (ℓ : Loc nD τ sig) → Buf (Elt Ideal) ℓ) (c : Dev nD) :
    after ops (L m c) (Proc.devRef .tc main_v79) = v79 (argsOf m c) :=
  (binary_stage (l := ops) (pre := ops.take 105) (post := ops.drop 106) (a := main_arg0) (b := main_v78) (y := main_v79) rfl (outs.drop 106) (L m c) (by decide) (by decide) (by decide)).trans
    (by rw [res_main_arg0 m c, res_main_v78 m c]; rfl)

theorem res_main_v80 (m : (ℓ : Loc nD τ sig) → Buf (Elt Ideal) ℓ) (c : Dev nD) :
    after ops (L m c) (Proc.devRef .tc main_v80) = v80 (argsOf m c) :=
  (reshape_stage (l := ops) (pre := ops.take 106) (post := ops.drop 107) (x := main_v79) (y := main_v80) rfl (outs.drop 107) (L m c) (by decide) (by decide)).trans
    (by rw [res_main_v79 m c]; rfl)

theorem res_main_v81 (m : (ℓ : Loc nD τ sig) → Buf (Elt Ideal) ℓ) (c : Dev nD) :
    after ops (L m c) (Proc.devRef .tc main_v81) = v81 (argsOf m c) :=
  (unary_stage (l := ops) (pre := ops.take 107) (post := ops.drop 108) (x := main_arg9) (y := main_v81) rfl (outs.drop 108) (L m c) (by decide) (by decide)).trans
    (by rw [res_main_arg9 m c]; rfl)

theorem res_main_v82 (m : (ℓ : Loc nD τ sig) → Buf (Elt Ideal) ℓ) (c : Dev nD) :
    after ops (L m c) (Proc.devRef .tc main_v82) = v82 (argsOf m c) :=
  (binary_stage (l := ops) (pre := ops.take 108) (post := ops.drop 109) (a := main_v80) (b := main_v81) (y := main_v82) rfl (outs.drop 109) (L m c) (by decide) (by decide) (by decide)).trans
    (by rw [res_main_v80 m c, res_main_v81 m c]; rfl)

theorem res_main_v83 (m : (ℓ : Loc nD τ sig) → Buf (Elt Ideal) ℓ) (c : Dev nD) :
    after ops (L m c) (Proc.devRef .tc main_v83) = v83 (argsOf m c) :=
  (unary_stage (l := ops) (pre := ops.take 109) (post := ops.drop 110) (x := main_arg10) (y := main_v83) rfl (outs.drop 110) (L m c) (by decide) (by decide)).trans
    (by rw [res_main_arg10 m c]; rfl)

theorem res_main_v84 (m : (ℓ : Loc nD τ sig) → Buf (Elt Ideal) ℓ) (c : Dev nD) :
    after ops (L m c) (Proc.devRef .tc main_v84) = v84 (argsOf m c) :=
  (unary_stage (l := ops) (pre := ops.take 110) (post := ops.drop 111) (x := main_v83) (y := main_v84) rfl (outs.drop 111) (L m c) (by decide) (by decide)).trans
    (by rw [res_main_v83 m c]; rfl)

theorem res_main_v85 (m : (ℓ : Loc nD τ sig) → Buf (Elt Ideal) ℓ) (c : Dev nD) :
    after ops (L m c) (Proc.devRef .tc main_v85) = v85 (argsOf m c) :=
  (binary_stage (l := ops) (pre := ops.take 111) (post := ops.drop 112) (a := main_v82) (b := main_v84) (y := main_v85) rfl (outs.drop 112) (L m c) (by decide) (by decide) (by decide)).trans
    (by rw [res_main_v82 m c, res_main_v84 m c]; rfl)

theorem res_main_cst_12 (m : (ℓ : Loc nD τ sig) → Buf (Elt Ideal) ℓ) (c : Dev nD) :
    after ops (L m c) (Proc.devRef .tc main_cst_12) = cst_12 (argsOf m c) :=
  nullary_stage (l := ops) (pre := ops.take 112) (post := ops.drop 113) (y := main_cst_12) rfl (outs.drop 113) (L m c) (by decide)

theorem res_main_v86 (m : (ℓ : Loc nD τ sig) → Buf (Elt Ideal) ℓ) (c : Dev nD) :
    after ops (L m c) (Proc.devRef .tc main_v86) = v86 (argsOf m c) :=
  (binary_stage (l := ops) (pre := ops.take 113) (post := ops.drop 114) (a := main_v85) (b := main_cst_12) (y := main_v86) rfl (outs.drop 114) (L m c) (by decide) (by decide) (by decide)).trans
    (by rw [res_main_v85 m c, res_main_cst_12 m c]; rfl)

theorem res_main_cst_13 (m : (ℓ : Loc nD τ sig) → Buf (Elt Ideal) ℓ) (c : Dev nD) :
    after ops (L m c) (Proc.devRef .tc main_cst_13) = cst_13 (argsOf m c) :=
  nullary_stage (l := ops) (pre := ops.take 114) (post := ops.drop 115) (y := main_cst_13) rfl (outs.drop 115) (L m c) (by decide)

theorem res_main_v87 (m : (ℓ : Loc nD τ sig) → Buf (Elt Ideal) ℓ) (c : Dev nD) :
    after ops (L m c) (Proc.devRef .tc main_v87) = v87 (argsOf m c) :=
  (unary_stage (l := ops) (pre := ops.take 115) (post := ops.drop 116) (x := main_cst_13) (y := main_v87) rfl (outs.drop 116) (L m c) (by decide) (by decide)).trans
    (by rw [res_main_cst_13 m c]; rfl)

theorem res_main_v88 (m : (ℓ : Loc nD τ sig) → Buf (Elt Ideal) ℓ) (c : Dev nD) :
    after ops (L m c) (Proc.devRef .tc main_v88) = v88 (argsOf m c) :=
  (binary_stage (l := ops) (pre := ops.take 116) (post := ops.drop 117) (a := main_v86) (b := main_v87) (y := main_v88) rfl (outs.drop 117) (L m c) (by decide) (by decide) (by decide)).trans
    (by rw [res_main_v86 m c, res_main_v87 m c]; rfl)

theorem res_main_v89 (m : (ℓ : Loc nD τ sig) → Buf (Elt Ideal) ℓ) (c : Dev nD) :
    after ops (L m c) (Proc.devRef .tc main_v89) = v89 (argsOf m c) :=
  (unary_stage (l := ops) (pre := ops.take 117) (post := ops.drop 118) (x := main_v88) (y := main_v89) rfl (outs.drop 118) (L m c) (by decide) (by decide)).trans
    (by rw [res_main_v88 m c]; rfl)

theorem res_main_v90 (m : (ℓ : Loc nD τ sig) → Buf (Elt Ideal) ℓ) (c : Dev nD) :
    after ops (L m c) (Proc.devRef .tc main_v90) = v90 (argsOf m c) :=
  (unary_stage (l := ops) (pre := ops.take 118) (post := ops.drop 119) (x := main_v89) (y := main_v90) rfl (outs.drop 119) (L m c) (by decide) (by decide)).trans
    (by rw [res_main_v89 m c]; rfl)

theorem res_main_v91 (m : (ℓ : Loc nD τ sig) → Buf (Elt Ideal) ℓ) (c : Dev nD) :
    after ops (L m c) (Proc.devRef .tc main_v91) = v91 (argsOf m c) :=
  (binary_stage (l := ops) (pre := ops.take 119) (post := ops.drop 120) (a := main_v85) (b := main_v90) (y := main_v91) rfl (outs.drop 120) (L m c) (by decide) (by decide) (by decide)).trans
    (by rw [res_main_v85 m c, res_main_v90 m c]; rfl)

theorem res_main_v92 (m : (ℓ : Loc nD τ sig) → Buf (Elt Ideal) ℓ) (c : Dev nD) :
    after ops (L m c) (Proc.devRef .tc main_v92) = v92 (argsOf m c) :=
  (binary_stage (l := ops) (pre := ops.take 120) (post := ops.drop 121) (a := main_v91) (b := main_v91) (y := main_v92) rfl (outs.drop 121) (L m c) (by decide) (by decide) (by decide)).trans
    (by rw [res_main_v91 m c]; rfl)

theorem res_main_cst_14 (m : (ℓ : Loc nD τ sig) → Buf (Elt Ideal) ℓ) (c : Dev nD) :
    after ops (L m c) (Proc.devRef .tc main_cst_14) = cst_14 (argsOf m c) :=
  nullary_stage (l := ops) (pre := ops.take 121) (post := ops.drop 122) (y := main_cst_14) rfl (outs.drop 122) (L m c) (by decide)

theorem res_main_v93 (m : (ℓ : Loc nD τ sig) → Buf (Elt Ideal) ℓ) (c : Dev nD) :
    after ops (L m c) (Proc.devRef .tc main_v93) = v93 (argsOf m c) :=
  (binary_stage (l := ops) (pre := ops.take 122) (post := ops.drop 123) (a := main_v92) (b := main_cst_14) (y := main_v93) rfl (outs.drop 123) (L m c) (by decide) (by decide) (by decide)).trans
    (by rw [res_main_v92 m c, res_main_cst_14 m c]; rfl)

theorem res_main_cst_15 (m : (ℓ : Loc nD τ sig) → Buf (Elt Ideal) ℓ) (c : Dev nD) :
    after ops (L m c) (Proc.devRef .tc main_cst_15) = cst_15 (argsOf m c) :=
  nullary_stage (l := ops) (pre := ops.take 123) (post := ops.drop 124) (y := main_cst_15) rfl (outs.drop 124) (L m c) (by decide)

theorem res_main_v94 (m : (ℓ : Loc nD τ sig) → Buf (Elt Ideal) ℓ) (c : Dev nD) :
    after ops (L m c) (Proc.devRef .tc main_v94) = v94 (argsOf m c) :=
  (unary_stage (l := ops) (pre := ops.take 124) (post := ops.drop 125) (x := main_cst_15) (y := main_v94) rfl (outs.drop 125) (L m c) (by decide) (by decide)).trans
    (by rw [res_main_cst_15 m c]; rfl)

theorem res_main_v95 (m : (ℓ : Loc nD τ sig) → Buf (Elt Ideal) ℓ) (c : Dev nD) :
    after ops (L m c) (Proc.devRef .tc main_v95) = v95 (argsOf m c) :=
  (binary_stage (l := ops) (pre := ops.take 125) (post := ops.drop 126) (a := main_v93) (b := main_v94) (y := main_v95) rfl (outs.drop 126) (L m c) (by decide) (by decide) (by decide)).trans
    (by rw [res_main_v93 m c, res_main_v94 m c]; rfl)

theorem res_main_v96 (m : (ℓ : Loc nD τ sig) → Buf (Elt Ideal) ℓ) (c : Dev nD) :
    after ops (L m c) (Proc.devRef .tc main_v96) = v96 (argsOf m c) :=
  (unary_stage (l := ops) (pre := ops.take 126) (post := ops.drop 127) (x := main_v88) (y := main_v96) rfl (outs.drop 127) (L m c) (by decide) (by decide)).trans
    (by rw [res_main_v88 m c]; rfl)

theorem res_main_v97 (m : (ℓ : Loc nD τ sig) → Buf (Elt Ideal) ℓ) (c : Dev nD) :
    after ops (L m c) (Proc.devRef .tc main_v97) = v97 (argsOf m c) :=
  (unary_stage (l := ops) (pre := ops.take 127) (post := ops.drop 128) (x := main_v96) (y := main_v97) rfl (outs.drop 128) (L m c) (by decide) (by decide)).trans
    (by rw [res_main_v96 m c]; rfl)

theorem res_main_v98 (m : (ℓ : Loc nD τ sig) → Buf (Elt Ideal) ℓ) (c : Dev nD) :
    after ops (L m c) (Proc.devRef .tc main_v98) = v98 (argsOf m c) :=
  (binary_stage (l := ops) (pre := ops.take 128) (post := ops.drop 129) (a := main_v85) (b := main_v97) (y := main_v98) rfl (outs.drop 129) (L m c) (by decide) (by decide) (by decide)).trans
    (by rw [res_main_v85 m c, res_main_v97 m c]; rfl)

theorem res_main_cst_16 (m : (ℓ : Loc nD τ sig) → Buf (Elt Ideal) ℓ) (c : Dev nD) :
    after ops (L m c) (Proc.devRef .tc main_cst_16) = cst_16 (argsOf m c) :=
  nullary_stage (l := ops) (pre := ops.take 129) (post := ops.drop 130) (y := main_cst_16) rfl (outs.drop 130) (L m c) (by decide)

theorem res_main_v99 (m : (ℓ : Loc nD τ sig) → Buf (Elt Ideal) ℓ) (c : Dev nD) :
    after ops (L m c) (Proc.devRef .tc main_v99) = v99 (argsOf m c) :=
  (unary_stage (l := ops) (pre := ops.take 130) (post := ops.drop 131) (x := main_cst_16) (y := main_v99) rfl (outs.drop 131) (L m c) (by decide) (by decide)).trans
    (by rw [res_main_cst_16 m c]; rfl)

theorem res_main_v100 (m : (ℓ : Loc nD τ sig) → Buf (Elt Ideal) ℓ) (c : Dev nD) :
    after ops (L m c) (Proc.devRef .tc main_v100) = v100 (argsOf m c) :=
  (binary_stage (l := ops) (pre := ops.take 131) (post := ops.drop 132) (a := main_v95) (b := main_v99) (y := main_v100) rfl (outs.drop 132) (L m c) (by decide) (by decide) (by decide)).trans
    (by rw [res_main_v95 m c, res_main_v99 m c]; rfl)

end Cert.ReferenceIdeal.RefBridge

end
-- ==== Proof.RefBridge2.lean ====
/-
  The reference program's buffers after its whole line as the value side's named stages, concluded: operations
  133 … 156, and the two results.
-/
import proofs.«168503_j21964462751805_2_alg».proof.Proof.RefBridge1

noncomputable section

namespace Cert.ReferenceIdeal.RefBridge

open Idealize.ShloMosaic Idealize.ShloMosaic.TcCoe Idealize.ShloMosaic.StableHlo
open Cert.ReferenceIdeal Cert.ReferenceIdeal.Gen Cert.ReferenceIdeal.RefRun Cert.ReferenceIdeal.RefArgs
open Cert.ReferenceIdeal.RefValue Cert.ReferenceIdeal.RefBridgeLib

theorem res_main_v101 (m : (ℓ : Loc nD τ sig) → Buf (Elt Ideal) ℓ) (c : Dev nD) :
    after ops (L m c) (Proc.devRef .tc main_v101) = v101 (argsOf m c) :=
  (unary_stage (l := ops) (pre := ops.take 132) (post := ops.drop 133) (x := main_v100) (y := main_v101) rfl (outs.drop 133) (L m c) (by decide) (by decide)).trans
    (by rw [res_main_v100 m c]; rfl)

theorem res_main_v102 (m : (ℓ : Loc nD τ sig) → Buf (Elt Ideal) ℓ) (c : Dev nD) :
    after ops (L m c) (Proc.devRef .tc main_v102) = v102 (argsOf m c) :=
  (unary_stage (l := ops) (pre := ops.take 133) (post := ops.drop 134) (x := main_v101) (y := main_v102) rfl (outs.drop 134) (L m c) (by decide) (by decide)).trans
    (by rw [res_main_v101 m c]; rfl)

theorem res_main_v103 (m : (ℓ : Loc nD τ sig) → Buf (Elt Ideal) ℓ) (c : Dev nD) :
    after ops (L m c) (Proc.devRef .tc main_v103) = v103 (argsOf m c) :=
  (unary_stage (l := ops) (pre := ops.take 134) (post := ops.drop 135) (x := main_v102) (y := main_v103) rfl (outs.drop 135) (L m c) (by decide) (by decide)).trans
    (by rw [res_main_v102 m c]; rfl)

theorem res_main_v104 (m : (ℓ : Loc nD τ sig) → Buf (Elt Ideal) ℓ) (c : Dev nD) :
    after ops (L m c) (Proc.devRef .tc main_v104) = v104 (argsOf m c) :=
  (binary_stage (l := ops) (pre := ops.take 135) (post := ops.drop 136) (a := main_v98) (b := main_v103) (y := main_v104) rfl (outs.drop 136) (L m c) (by decide) (by decide) (by decide)).trans
    (by rw [res_main_v98 m c, res_main_v103 m c]; rfl)

theorem res_main_v105 (m : (ℓ : Loc nD τ sig) → Buf (Elt Ideal) ℓ) (c : Dev nD) :
    after ops (L m c) (Proc.devRef .tc main_v105) = v105 (argsOf m c) :=
  (unary_stage (l := ops) (pre := ops.take 136) (post := ops.drop 137) (x := main_arg11) (y := main_v105) rfl (outs.drop 137) (L m c) (by decide) (by decide)).trans
    (by rw [res_main_arg11 m c]; rfl)

theorem res_main_v106 (m : (ℓ : Loc nD τ sig) → Buf (Elt Ideal) ℓ) (c : Dev nD) :
    after ops (L m c) (Proc.devRef .tc main_v106) = v106 (argsOf m c) :=
  (unary_stage (l := ops) (pre := ops.take 137) (post := ops.drop 138) (x := main_v105) (y := main_v106) rfl (outs.drop 138) (L m c) (by decide) (by decide)).trans
    (by rw [res_main_v105 m c]; rfl)

theorem res_main_v107 (m : (ℓ : Loc nD τ sig) → Buf (Elt Ideal) ℓ) (c : Dev nD) :
    after ops (L m c) (Proc.devRef .tc main_v107) = v107 (argsOf m c) :=
  (binary_stage (l := ops) (pre := ops.take 138) (post := ops.drop 139) (a := main_v104) (b := main_v106) (y := main_v107) rfl (outs.drop 139) (L m c) (by decide) (by decide) (by decide)).trans
    (by rw [res_main_v104 m c, res_main_v106 m c]; rfl)

theorem res_main_v108 (m : (ℓ : Loc nD τ sig) → Buf (Elt Ideal) ℓ) (c : Dev nD) :
    after ops (L m c) (Proc.devRef .tc main_v108) = v108 (argsOf m c) :=
  (unary_stage (l := ops) (pre := ops.take 139) (post := ops.drop 140) (x := main_arg12) (y := main_v108) rfl (outs.drop 140) (L m c) (by decide) (by decide)).trans
    (by rw [res_main_arg12 m c]; rfl)

theorem res_main_v109 (m : (ℓ : Loc nD τ sig) → Buf (Elt Ideal) ℓ) (c : Dev nD) :
    after ops (L m c) (Proc.devRef .tc main_v109) = v109 (argsOf m c) :=
  (unary_stage (l := ops) (pre := ops.take 140) (post := ops.drop 141) (x := main_v108) (y := main_v109) rfl (outs.drop 141) (L m c) (by decide) (by decide)).trans
    (by rw [res_main_v108 m c]; rfl)

theorem res_main_v110 (m : (ℓ : Loc nD τ sig) → Buf (Elt Ideal) ℓ) (c : Dev nD) :
    after ops (L m c) (Proc.devRef .tc main_v110) = v110 (argsOf m c) :=
  (binary_stage (l := ops) (pre := ops.take 141) (post := ops.drop 142) (a := main_v107) (b := main_v109) (y := main_v110) rfl (outs.drop 142) (L m c) (by decide) (by decide) (by decide)).trans
    (by rw [res_main_v107 m c, res_main_v109 m c]; rfl)

theorem res_main_cst_17 (m : (ℓ : Loc nD τ sig) → Buf (Elt Ideal) ℓ) (c : Dev nD) :
    after ops (L m c) (Proc.devRef .tc main_cst_17) = cst_17 (argsOf m c) :=
  nullary_stage (l := ops) (pre := ops.take 142) (post := ops.drop 143) (y := main_cst_17) rfl (outs.drop 143) (L m c) (by decide)

theorem res_main_call2_cst (m : (ℓ : Loc nD τ sig) → Buf (Elt Ideal) ℓ) (c : Dev nD) :
    after ops (L m c) (Proc.devRef .tc main_call2_cst) = call2_cst (argsOf m c) :=
  nullary_stage (l := ops) (pre := ops.take 143) (post := ops.drop 144) (y := main_call2_cst) rfl (outs.drop 144) (L m c) (by decide)

theorem res_main_call2_v0 (m : (ℓ : Loc nD τ sig) → Buf (Elt Ideal) ℓ) (c : Dev nD) :
    after ops (L m c) (Proc.devRef .tc main_call2_v0) = call2_v0 (argsOf m c) :=
  (unary_stage (l := ops) (pre := ops.take 144) (post := ops.drop 145) (x := main_call2_cst) (y := main_call2_v0) rfl (outs.drop 145) (L m c) (by decide) (by decide)).trans
    (by rw [res_main_call2_cst m c]; rfl)

theorem res_main_call2_v1 (m : (ℓ : Loc nD τ sig) → Buf (Elt Ideal) ℓ) (c : Dev nD) :
    after ops (L m c) (Proc.devRef .tc main_call2_v1) = call2_v1 (argsOf m c) :=
  (binary_stage (l := ops) (pre := ops.take 145) (post := ops.drop 146) (a := main_v110) (b := main_call2_v0) (y := main_call2_v1) rfl (outs.drop 146) (L m c) (by decide) (by decide) (by decide)).trans
    (by rw [res_main_v110 m c, res_main_call2_v0 m c]; rfl)

theorem res_main_call2_v2 (m : (ℓ : Loc nD τ sig) → Buf (Elt Ideal) ℓ) (c : Dev nD) :
    after ops (L m c) (Proc.devRef .tc main_call2_v2) = call2_v2 (argsOf m c) :=
  (unary_stage (l := ops) (pre := ops.take 146) (post := ops.drop 147) (x := main_cst_17) (y := main_call2_v2) rfl (outs.drop 147) (L m c) (by decide) (by decide)).trans
    (by rw [res_main_cst_17 m c]; rfl)

theorem res_main_call2_v3 (m : (ℓ : Loc nD τ sig) → Buf (Elt Ideal) ℓ) (c : Dev nD) :
    after ops (L m c) (Proc.devRef .tc main_call2_v3) = call2_v3 (argsOf m c) :=
  (unary_stage (l := ops) (pre := ops.take 147) (post := ops.drop 148) (x := main_call2_v2) (y := main_call2_v3) rfl (outs.drop 148) (L m c) (by decide) (by decide)).trans
    (by rw [res_main_call2_v2 m c]; rfl)

theorem res_main_call2_v4 (m : (ℓ : Loc nD τ sig) → Buf (Elt Ideal) ℓ) (c : Dev nD) :
    after ops (L m c) (Proc.devRef .tc main_call2_v4) = call2_v4 (argsOf m c) :=
  (binary_stage (l := ops) (pre := ops.take 148) (post := ops.drop 149) (a := main_call2_v3) (b := main_v110) (y := main_call2_v4) rfl (outs.drop 149) (L m c) (by decide) (by decide) (by decide)).trans
    (by rw [res_main_call2_v3 m c, res_main_v110 m c]; rfl)

theorem res_main_v111 (m : (ℓ : Loc nD τ sig) → Buf (Elt Ideal) ℓ) (c : Dev nD) :
    after ops (L m c) (Proc.devRef .tc main_v111) = v111 (argsOf m c) :=
  (ternary_stage (l := ops) (pre := ops.take 149) (post := ops.drop 150) (c := main_call2_v1) (a := main_v110) (b := main_call2_v4) (y := main_v111) rfl (outs.drop 150) (L m c) (by decide) (by decide) (by decide) (by decide)).trans
    (by rw [res_main_call2_v1 m c, res_main_v110 m c, res_main_call2_v4 m c]; rfl)

theorem res_main_v112 (m : (ℓ : Loc nD τ sig) → Buf (Elt Ideal) ℓ) (c : Dev nD) :
    after ops (L m c) (Proc.devRef .tc main_v112) = v112 (argsOf m c) :=
  (unary_stage (l := ops) (pre := ops.take 150) (post := ops.drop 151) (x := main_arg13) (y := main_v112) rfl (outs.drop 151) (L m c) (by decide) (by decide)).trans
    (by rw [res_main_arg13 m c]; rfl)

theorem res_main_v113 (m : (ℓ : Loc nD τ sig) → Buf (Elt Ideal) ℓ) (c : Dev nD) :
    after ops (L m c) (Proc.devRef .tc main_v113) = v113 (argsOf m c) :=
  (binary_stage (l := ops) (pre := ops.take 151) (post := ops.drop 152) (a := main_v111) (b := main_v112) (y := main_v113) rfl (outs.drop 152) (L m c) (by decide) (by decide) (by decide)).trans
    (by rw [res_main_v111 m c, res_main_v112 m c]; rfl)

theorem res_main_v114 (m : (ℓ : Loc nD τ sig) → Buf (Elt Ideal) ℓ) (c : Dev nD) :
    after ops (L m c) (Proc.devRef .tc main_v114) = v114 (argsOf m c) :=
  (unary_stage (l := ops) (pre := ops.take 152) (post := ops.drop 153) (x := main_arg14) (y := main_v114) rfl (outs.drop 153) (L m c) (by decide) (by decide)).trans
    (by rw [res_main_arg14 m c]; rfl)

theorem res_main_v115 (m : (ℓ : Loc nD τ sig) → Buf (Elt Ideal) ℓ) (c : Dev nD) :
    after ops (L m c) (Proc.devRef .tc main_v115) = v115 (argsOf m c) :=
  (unary_stage (l := ops) (pre := ops.take 153) (post := ops.drop 154) (x := main_v114) (y := main_v115) rfl (outs.drop 154) (L m c) (by decide) (by decide)).trans
    (by rw [res_main_v114 m c]; rfl)

theorem res_main_v116 (m : (ℓ : Loc nD τ sig) → Buf (Elt Ideal) ℓ) (c : Dev nD) :
    after ops (L m c) (Proc.devRef .tc main_v116) = v116 (argsOf m c) :=
  (binary_stage (l := ops) (pre := ops.take 154) (post := ops.drop 155) (a := main_v113) (b := main_v115) (y := main_v116) rfl (outs.drop 155) (L m c) (by decide) (by decide) (by decide)).trans
    (by rw [res_main_v113 m c, res_main_v115 m c]; rfl)

theorem res_main_v117 (m : (ℓ : Loc nD τ sig) → Buf (Elt Ideal) ℓ) (c : Dev nD) :
    after ops (L m c) (Proc.devRef .tc main_v117) = v117 (argsOf m c) :=
  (reshape_stage (l := ops) (pre := ops.take 155) (post := ops.drop 156) (x := main_v116) (y := main_v117) rfl (outs.drop 156) (L m c) (by decide) (by decide)).trans
    (by rw [res_main_v116 m c]; rfl)

/-- The first result after the whole line is its named stage at the launch memory's arguments. -/
theorem res_v73 (m : (ℓ : Loc nD τ sig) → Buf (Elt Ideal) ℓ) (c : Dev nD) :
    StableHlo.after ops (fun b => m (c, b)) (Proc.devRef .tc main_v73) = RefValue.v73 (RefArgs.argsOf m c) :=
  res_main_v73 m c

/-- The second result after the whole line is its named stage at the launch memory's arguments. -/
theorem res_v117 (m : (ℓ : Loc nD τ sig) → Buf (Elt Ideal) ℓ) (c : Dev nD) :
    StableHlo.after ops (fun b => m (c, b)) (Proc.devRef .tc main_v117) = RefValue.v117 (RefArgs.argsOf m c) :=
  res_main_v117 m c

end Cert.ReferenceIdeal.RefBridge

end
-- ==== Proof.RefValueFinal.lean ====
/-
  The reference's two results after its whole run are the specification's two results at the launch memory's argument
  arrays: each result buffer after the run is its stage as a pure function of the arguments, and that stage is the
  specification's formula, index by index.
-/
import proofs.«168503_j21964462751805_2_alg».proof.Proof.RefValueOut
import proofs.«168503_j21964462751805_2_alg».proof.Proof.RefBridge2

noncomputable section

namespace Cert.ReferenceIdeal.RefValue

open Idealize.ShloMosaic Idealize.ShloMosaic.TcCoe Idealize.ShloMosaic.StableHlo
open Cert.ReferenceIdeal Cert.ReferenceIdeal.Gen Cert.ReferenceIdeal.RefRun Cert.ReferenceIdeal.RefArgs

/-- The first result: the gate of every edge. -/
theorem out0_eq (m : (ℓ : Loc nD τ sig) → Buf (Elt Ideal) ℓ) (c : Dev nD) :
    StableHlo.after ops (fun b => m (c, b)) (Proc.devRef .tc main_v73) = Cert.Spec.edgesOut (argsOf m c) :=
  (Cert.ReferenceIdeal.RefBridge.res_v73 m c).trans (v73_eq_edgesOut (argsOf m c))

/-- The second result: the node predictions. -/
theorem out1_eq (m : (ℓ : Loc nD τ sig) → Buf (Elt Ideal) ℓ) (c : Dev nD) :
    StableHlo.after ops (fun b => m (c, b)) (Proc.devRef .tc main_v117) = Cert.Spec.predOut (argsOf m c) :=
  (Cert.ReferenceIdeal.RefBridge.res_v117 m c).trans (v117_eq_predOut (argsOf m c))

end Cert.ReferenceIdeal.RefValue

end
-- ==== Proof.lean ====
/-
  The five claims.

  Both programs compute one function of the fifteen argument arrays (Proof/Spec.lean).  The kernel program runs three
  grid regions: the first accumulates, tile by tile, the sum and the sum of squares of the first layer over all
  16·256·256 edges; the host turns them into the mean and the one-pass variance (mean of squares less the squared mean,
  cut off at zero); the second region recomputes the first layer, normalises, runs the remaining edge layers, stores
  the gates, aggregates the gated messages per node, applies the node layer and accumulates ITS sum and sum of squares;
  the host again forms mean and one-pass variance; the third region normalises and applies the last layer.  The
  reference computes the same layers on whole arrays with the two-pass variance (mean of squared deviations).  On real
  inputs the two variances agree and are nonnegative, so the cut-off is the identity; every other difference between
  the two programs is the order and bracketing of finite sums.
-/
import proofs.«168503_j21964462751805_2_alg».proof.Defs
import proofs.«168503_j21964462751805_2_alg».proof.Proof.Gen.Kernel
import proofs.«168503_j21964462751805_2_alg».proof.Proof.Gen.KernelIdeal
import proofs.«168503_j21964462751805_2_alg».proof.Proof.Gen.ReferenceIdeal
import proofs.«168503_j21964462751805_2_alg».proof.Proof.Gen.Pre_finite_inputs
import proofs.«168503_j21964462751805_2_alg».proof.Proof.BKRun
import proofs.«168503_j21964462751805_2_alg».proof.Proof.KRun
import proofs.«168503_j21964462751805_2_alg».proof.Proof.KValue
import proofs.«168503_j21964462751805_2_alg».proof.Proof.PreFinite
import proofs.«168503_j21964462751805_2_alg».proof.Proof.RefRun
import proofs.«168503_j21964462751805_2_alg».proof.Proof.RefValueFinal
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Hand.frame m ρ

/-- So does the kernel program at the exact reading. -/
theorem frame_ki : Cert.frame_KernelIdeal := fun m ρ _ => Cert.KernelIdeal.Hand.frame m ρ

/-- So does the reference: its run with the results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The idealisation rewrote nothing. -/
theorem preserves : Cert.preserves_Kernel_KernelIdeal := trivial

/-- Memories that agree on the fifteen arguments give the specification the same arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.RefArgs.argsOf m' c = Cert.KernelIdeal.KArgs.argsOf m c := by
  unfold Cert.ReferenceIdeal.RefArgs.argsOf Cert.KernelIdeal.KArgs.argsOf
  rw [h0, h1, h2, h3, h4, h5, h6, h7, h8, h9, h10, h11, h12, h13, h14]

/-- At the exact reading, from memories that agree on the arguments, both programs end with the specification's two
    arrays as their results: the kernel program by its run through the three regions (which uses that the inputs are
    real), the reference by its run read one operation at a time. -/
theorem algebraic : Cert.algebraic_KernelIdeal_ReferenceIdeal := by
  intro m ρ m' ρ' hpre hagree
  refine ⟨fun c => Cert.Spec.edgesOut (Cert.KernelIdeal.KArgs.argsOf m c), fun c => Cert.Spec.predOut (Cert.KernelIdeal.KArgs.argsOf m c),
    Cert.KernelIdeal.KValue.run m ρ (fun c => Cert.KernelIdeal.PreFinite.finite_of_pre m hpre c), ?_⟩
  refine (θ_run Cert.ReferenceIdeal.defs _ _).mono (fun r h c => ⟨?_, ?_, (h c).2.2⟩)
    (Cert.ReferenceIdeal.RefRun.run (F := Ideal) m' ρ')
  · obtain ⟨h0, h1, h2, h3, h4, h5, h6, h7, h8, h9, h10, h11, h12, h13, h14⟩ := hagree c
    rw [(h c).1, Cert.ReferenceIdeal.RefValue.out0_eq,
      args_agree m m' c h0 h1 h2 h3 h4 h5 h6 h7 h8 h9 h10 h11 h12 h13 h14]
  · obtain ⟨h0, h1, h2, h3, h4, h5, h6, h7, h8, h9, h10, h11, h12, h13, h14⟩ := hagree c
    rw [(h c).2.1, Cert.ReferenceIdeal.RefValue.out1_eq,
      args_agree m m' c h0 h1 h2 h3 h4 h5 h6 h7 h8 h9 h10 h11 h12 h13 h14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
